-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S320000x128 : Shape := ⟨2, ![320000, 128]⟩
abbrev S64 : Shape := ⟨1, ![64]⟩
abbrev S320000 : Shape := ⟨1, ![320000]⟩
abbrev S1001 : Shape := ⟨1, ![1001]⟩
abbrev S_ : Shape := ⟨0, ![]⟩

class Facts : Prop where
  bcast_S_S320000x128 : S_.BroadcastsInDim S320000x128 (![] : Fin 0 → Fin S320000x128.rank)
  reducesTo_S320000x128_S_d0_1 : S320000x128.ReducesTo [0, 1] S_
  h_S_ : 0 < S_.numel
  bcast_S_S1001 : S_.BroadcastsInDim S1001 (![] : Fin 0 → Fin S1001.rank)
  reducesTo_S1001_S_d0 : S1001.ReducesTo [0] S_
  bcast_S_S64 : S_.BroadcastsInDim S64 (![] : Fin 0 → Fin S64.rank)
  reducesTo_S64_S_d0 : S64.ReducesTo [0] S_
  bcast_S_S320000 : S_.BroadcastsInDim S320000 (![] : Fin 0 → Fin S320000.rank)
  reducesTo_S320000_S_d0 : S320000.ReducesTo [0] S_

variable [Facts]

def fn_part1 {F : FTy → Type} [FloatOps F] (main_arg2 : IVec S64 32) (main_arg4 : IVec S320000 32) (main_v13 : IVec S_ 1) (main_v15 : IVec S64 1) (main_c_5 : IVec S_ 32) : IVec S_ 1 :=
  let main_v16 : IVec S64 32 := broadcastInDim S64 ![] bcast_S_S64 main_c_5
  let main_v17 : IVec S64 1 := cmpi .sle main_arg2 main_v16
  let main_v18 : IVec S64 1 := andi main_v15 main_v17
  let main_c_6 : IVec S_ 1 := constantI S_ 1 1#1
  let main_v19 : IVec S_ 1 := (fun x v => Host.reduce IntOp.andi x v reducesTo_S64_S_d0 h_S_) main_v18 main_c_6
  let main_v20 : IVec S_ 1 := andi main_v13 main_v19
  let main_c_7 : IVec S_ 32 := constantI S_ 32 0#32
  let main_v21 : IVec S320000 32 := broadcastInDim S320000 ![] bcast_S_S320000 main_c_7
  let main_v22 : IVec S320000 1 := cmpi .sge main_arg4 main_v21
  let main_c_8 : IVec S_ 32 := constantI S_ 32 63#32
  let main_v23 : IVec S320000 32 := broadcastInDim S320000 ![] bcast_S_S320000 main_c_8
  let main_v24 : IVec S320000 1 := cmpi .sle main_arg4 main_v23
  let main_v25 : IVec S320000 1 := andi main_v22 main_v24
  let main_c_9 : IVec S_ 1 := constantI S_ 1 1#1
  let main_v26 : IVec S_ 1 := (fun x v => Host.reduce IntOp.andi x v reducesTo_S320000_S_d0 h_S_) main_v25 main_c_9
  let main_v27 : IVec S_ 1 := andi main_v20 main_v26
  main_v27

def fn {F : FTy → Type} [FloatOps F] (main_arg0 : FVec F S320000x128 .f32) (main_arg1 : FVec F S320000x128 .f32) (main_arg2 : IVec S64 32) (main_arg3 : IVec S320000 1) (main_arg4 : IVec S320000 32) (main_arg5 : FVec F S1001 .f32) : IVec S_ 1 :=
  let main_v0 : FVec F S320000x128 .f32 := Host.absf main_arg0
  let main_cst : FVec F S_ .f32 := constant S_ .f32 0x7F800000#32
  let main_v1 : FVec F S320000x128 .f32 := broadcastInDim S320000x128 ![] bcast_S_S320000x128 main_cst
  let main_v2 : IVec S320000x128 1 := cmpf .olt main_v0 main_v1
  let main_c : IVec S_ 1 := constantI S_ 1 1#1
  let main_v3 : IVec S_ 1 := (fun x v => Host.reduce IntOp.andi x v reducesTo_S320000x128_S_d0_1 h_S_) main_v2 main_c
  let main_v4 : FVec F S320000x128 .f32 := Host.absf main_arg1
  let main_cst_0 : FVec F S_ .f32 := constant S_ .f32 0x7F800000#32
  let main_v5 : FVec F S320000x128 .f32 := broadcastInDim S320000x128 ![] bcast_S_S320000x128 main_cst_0
  let main_v6 : IVec S320000x128 1 := cmpf .olt main_v4 main_v5
  let main_c_1 : IVec S_ 1 := constantI S_ 1 1#1
  let main_v7 : IVec S_ 1 := (fun x v => Host.reduce IntOp.andi x v reducesTo_S320000x128_S_d0_1 h_S_) main_v6 main_c_1
  let main_v8 : IVec S_ 1 := andi main_v3 main_v7
  let main_v9 : FVec F S1001 .f32 := Host.absf main_arg5
  let main_cst_2 : FVec F S_ .f32 := constant S_ .f32 0x7F800000#32
  let main_v10 : FVec F S1001 .f32 := broadcastInDim S1001 ![] bcast_S_S1001 main_cst_2
  let main_v11 : IVec S1001 1 := cmpf .olt main_v9 main_v10
  let main_c_3 : IVec S_ 1 := constantI S_ 1 1#1
  let main_v12 : IVec S_ 1 := (fun x v => Host.reduce IntOp.andi x v reducesTo_S1001_S_d0 h_S_) main_v11 main_c_3
  let main_v13 : IVec S_ 1 := andi main_v8 main_v12
  let main_c_4 : IVec S_ 32 := constantI S_ 32 0#32
  let main_v14 : IVec S64 32 := broadcastInDim S64 ![] bcast_S_S64 main_c_4
  let main_v15 : IVec S64 1 := cmpi .sge main_arg2 main_v14
  let main_c_5 : IVec S_ 32 := constantI S_ 32 1000#32
  fn_part1 (F := F) main_arg2 main_arg4 main_v13 main_v15 main_c_5
-- ==== Kernel.lean ====
abbrev S320000x128 : Shape := ⟨2, ![320000, 128]⟩
abbrev S64 : Shape := ⟨1, ![64]⟩
abbrev S320000 : Shape := ⟨1, ![320000]⟩
abbrev S1001 : Shape := ⟨1, ![1001]⟩
abbrev S140800 : Shape := ⟨1, ![140800]⟩
abbrev S55x1x2560 : Shape := ⟨3, ![55, 1, 2560]⟩
abbrev S32x64x16 : Shape := ⟨3, ![32, 64, 16]⟩
abbrev S160x128 : Shape := ⟨2, ![160, 128]⟩
abbrev S5600 : Shape := ⟨1, ![5600]⟩
abbrev S64x16 : Shape := ⟨2, ![64, 16]⟩
abbrev S_ : Shape := ⟨0, ![]⟩
abbrev S16 : Shape := ⟨1, ![16]⟩
abbrev S1x16 : Shape := ⟨2, ![1, 16]⟩
abbrev S1x64x16 : Shape := ⟨3, ![1, 64, 16]⟩
abbrev S2560x128 : Shape := ⟨2, ![2560, 128]⟩
abbrev S1x1x2560 : Shape := ⟨3, ![1, 1, 2560]⟩
abbrev S2560 : Shape := ⟨1, ![2560]⟩
abbrev S2560x1 : Shape := ⟨2, ![2560, 1]⟩
abbrev S1x2560 : Shape := ⟨2, ![1, 2560]⟩
abbrev S64x2560 : Shape := ⟨2, ![64, 2560]⟩
abbrev S1x1 : Shape := ⟨2, ![1, 1]⟩
abbrev S32x64 : Shape := ⟨2, ![32, 64]⟩
abbrev S1x64 : Shape := ⟨2, ![1, 64]⟩
abbrev S1 : Shape := ⟨1, ![1]⟩

abbrev nBuf : Table → Nat
  | .hbm => 17
  | .local .tc .vmem => 15
  | .local .scVector .vmem => 8
  | _ => 0

abbrev bufTy : (tb : Table) → Fin (nBuf tb) → BufTy
  | .hbm, ⟨0, _⟩ => ⟨S320000x128, .f32⟩
  | .hbm, ⟨1, _⟩ => ⟨S320000x128, .f32⟩
  | .hbm, ⟨2, _⟩ => ⟨S64, .i32⟩
  | .hbm, ⟨3, _⟩ => ⟨S320000, .i1⟩
  | .hbm, ⟨4, _⟩ => ⟨S320000, .i32⟩
  | .hbm, ⟨5, _⟩ => ⟨S1001, .f32⟩
  | .hbm, ⟨6, _⟩ => ⟨S320000, .f32⟩
  | .hbm, ⟨7, _⟩ => ⟨S140800, .i32⟩
  | .hbm, ⟨8, _⟩ => ⟨S55x1x2560, .i32⟩
  | .hbm, ⟨9, _⟩ => ⟨S140800, .f32⟩
  | .hbm, ⟨10, _⟩ => ⟨S55x1x2560, .f32⟩
  | .hbm, ⟨11, _⟩ => ⟨S32x64x16, .f32⟩
  | .hbm, ⟨12, _⟩ => ⟨S32x64x16, .f32⟩
  | .hbm, ⟨13, _⟩ => ⟨S64, .f32⟩
  | .hbm, ⟨14, _⟩ => ⟨S64, .f32⟩
  | .hbm, ⟨15, _⟩ => ⟨S1x1, .f32⟩
  | .hbm, ⟨16, _⟩ => ⟨S_, .f32⟩
  | .local .tc .vmem, ⟨0, _⟩ => ⟨S2560x128, .f32⟩
  | .local .tc .vmem, ⟨1, _⟩ => ⟨S2560x128, .f32⟩
  | .local .tc .vmem, ⟨2, _⟩ => ⟨S2560x128, .f32⟩
  | .local .tc .vmem, ⟨3, _⟩ => ⟨S2560x128, .f32⟩
  | .local .tc .vmem, ⟨4, _⟩ => ⟨S1x1x2560, .i32⟩
  | .local .tc .vmem, ⟨5, _⟩ => ⟨S1x1x2560, .i32⟩
  | .local .tc .vmem, ⟨6, _⟩ => ⟨S1x1x2560, .f32⟩
  | .local .tc .vmem, ⟨7, _⟩ => ⟨S1x1x2560, .f32⟩
  | .local .tc .vmem, ⟨8, _⟩ => ⟨S64, .f32⟩
  | .local .tc .vmem, ⟨9, _⟩ => ⟨S64, .f32⟩
  | .local .tc .vmem, ⟨10, _⟩ => ⟨S32x64x16, .f32⟩
  | .local .tc .vmem, ⟨11, _⟩ => ⟨S32x64x16, .f32⟩
  | .local .tc .vmem, ⟨12, _⟩ => ⟨S64, .f32⟩
  | .local .tc .vmem, ⟨13, _⟩ => ⟨S64, .f32⟩
  | .local .tc .vmem, ⟨14, _⟩ => ⟨S1x1, .f32⟩
  | .local .scVector .vmem, ⟨0, _⟩ => ⟨S160x128, .f32⟩
  | .local .scVector .vmem, ⟨1, _⟩ => ⟨S160x128, .f32⟩
  | .local .scVector .vmem, ⟨2, _⟩ => ⟨S160x128, .f32⟩
  | .local .scVector .vmem, ⟨3, _⟩ => ⟨S160x128, .f32⟩
  | .local .scVector .vmem, ⟨4, _⟩ => ⟨S5600, .i32⟩
  | .local .scVector .vmem, ⟨5, _⟩ => ⟨S5600, .f32⟩
  | .local .scVector .vmem, ⟨6, _⟩ => ⟨S64x16, .f32⟩
  | .local .scVector .vmem, ⟨7, _⟩ => ⟨S64x16, .f32⟩
  | _, _ => ⟨S320000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev main_v8 : Ref sig .tc := ⟨.hbm, 16, rfl⟩
abbrev main_arg0_scv : Ref sig .scVector := ⟨.hbm, 0, rfl⟩
abbrev main_arg1_scv : Ref sig .scVector := ⟨.hbm, 1, rfl⟩
abbrev main_arg4_scv : Ref sig .scVector := ⟨.hbm, 4, rfl⟩
abbrev main_v0_scv : Ref sig .scVector := ⟨.hbm, 6, rfl⟩
abbrev main_v5_0_scv : Ref sig .scVector := ⟨.hbm, 11, rfl⟩
abbrev main_v5_1_scv : Ref sig .scVector := ⟨.hbm, 12, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c140800_i32 : BitVec 32 := 140800#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c5600_i32 : BitVec 32 := 5600#32
  let v2 : BitVec 32 := Scalar.muli v1 c5600_i32
  let v3 : BitVec 32 := Scalar.addi c140800_i32 v2
  ![v3.toNat]
@[reducible] def k0_t1_loop : Scf.Loop 32 :=
  let c0_i32_0 : BitVec 32 := 0#32
  let c64_i32 : BitVec 32 := 64#32
  let v6 : BitVec 32 := Scalar.addi c0_i32_0 c64_i32
  let c1_i32 : BitVec 32 := 1#32
  ⟨c0_i32_0, v6, c1_i32⟩
def k0_off2 (k0_t1 : Fin k0_t1_loop.trips) : Fin 2 → Nat :=
  let c0_i32_0 : BitVec 32 := 0#32
  let c1_i32 : BitVec 32 := 1#32
  let arg20 : BitVec 32 := Scf.iv c0_i32_0 c1_i32 k0_t1
  let v18 : Index := Scalar.indexCast arg20
  let c0 : Index := 0#32
  ![v18.toNat, 0]
def k0_off3 (i : grid0.Coords) : Fin 2 → Nat :=
  let c140800_i32 : BitVec 32 := 140800#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c5600_i32 : BitVec 32 := 5600#32
  let v2 : BitVec 32 := Scalar.muli v1 c5600_i32
  let v3 : BitVec 32 := Scalar.addi c140800_i32 v2
  let c0_i32_2 : BitVec 32 := 0#32
  let v7 : BitVec 32 := Scalar.addi v3 c0_i32_2
  let c0_i32_3 : BitVec 32 := 0#32
  ![v7.toNat, 0]
@[reducible] def k0_t2_loop : Scf.Loop 32 :=
  let c0_i32_8 : BitVec 32 := 0#32
  let c17_i32 : BitVec 32 := 17#32
  let v12 : BitVec 32 := Scalar.addi c0_i32_8 c17_i32
  let c1_i32_9 : BitVec 32 := 1#32
  ⟨c0_i32_8, v12, c1_i32_9⟩
def k0_off4 (i : grid0.Coords) (k0_t2 : Fin k0_t2_loop.trips) : Fin 2 → Nat :=
  let c140800_i32 : BitVec 32 := 140800#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c5600_i32 : BitVec 32 := 5600#32
  let v2 : BitVec 32 := Scalar.muli v1 c5600_i32
  let v3 : BitVec 32 := Scalar.addi c140800_i32 v2
  let c2_i32 : BitVec 32 := 2#32
  let c0_i32_8 : BitVec 32 := 0#32
  let c1_i32_9 : BitVec 32 := 1#32
  let arg20 : BitVec 32 := Scf.iv c0_i32_8 c1_i32_9 k0_t2
  let v18 : BitVec 32 := Scalar.muli c2_i32 arg20
  let c1_i32_23 : BitVec 32 := 1#32
  let v19 : BitVec 32 := Scalar.addi v18 c1_i32_23
  let c160_i32 : BitVec 32 := 160#32
  let v20 : BitVec 32 := Scalar.muli v19 c160_i32
  let v21 : BitVec 32 := Scalar.addi v3 v20
  let c0_i32_24 : BitVec 32 := 0#32
  ![v21.toNat, 0]
@[reducible] def k0_t3_loop : Scf.Loop 32 :=
  let c0_i32_37 : BitVec 32 := 0#32
  let c10_i32_38 : BitVec 32 := 10#32
  let v30 : BitVec 32 := Scalar.addi c0_i32_37 c10_i32_38
  let c1_i32_39 : BitVec 32 := 1#32
  ⟨c0_i32_37, v30, c1_i32_39⟩
def k0_off5 (k0_t2 : Fin k0_t2_loop.trips) (k0_t3 : Fin k0_t3_loop.trips) : Fin 1 → Nat :=
  let c2_i32 : BitVec 32 := 2#32
  let c0_i32_8 : BitVec 32 := 0#32
  let c1_i32_9 : BitVec 32 := 1#32
  let arg20 : BitVec 32 := Scf.iv c0_i32_8 c1_i32_9 k0_t2
  let v18 : BitVec 32 := Scalar.muli c2_i32 arg20
  let c10_i32_61 : BitVec 32 := 10#32
  let v44 : BitVec 32 := Scalar.muli v18 c10_i32_61
  let c0_i32_37 : BitVec 32 := 0#32
  let c1_i32_39 : BitVec 32 := 1#32
  let arg21 : BitVec 32 := Scf.iv c0_i32_37 c1_i32_39 k0_t3
  let v45 : BitVec 32 := Scalar.addi v44 arg21
  let c16_i32_62 : BitVec 32 := 16#32
  let v46 : BitVec 32 := Scalar.muli v45 c16_i32_62
  let v47 : Index := Scalar.indexCast v46
  ![v47.toNat]
@[reducible] def k0_t4_loop : Scf.Loop 32 :=
  let c0_i32_65 : BitVec 32 := 0#32
  let c4_i32 : BitVec 32 := 4#32
  let v55 : BitVec 32 := Scalar.addi c0_i32_65 c4_i32
  let c1_i32_66 : BitVec 32 := 1#32
  ⟨c0_i32_65, v55, c1_i32_66⟩

def k0_chk1 (v54 : IVec S16 32) (v69 : IVec S16 32) : Prop :=
  (∀ a x, ((![v54, v69] : Fin 2 → IVec S16 32) a x).toNat < S160x128.size a) ∧
  (∀ a x, ((![v54, v69] : Fin 2 → IVec S16 32) a x).toNat < S160x128.size a)
instance k0_chk1.dec : ∀ (v54 : IVec S16 32) (v69 : IVec S16 32), Decidable (k0_chk1 v54 v69) := fun v54 v69 => decidable_of_iff' _ (Iff.of_eq (k0_chk1.eq_1 v54 v69))
theorem k0_idx1_inb : ∀ (v54 : IVec S16 32) (v69 : IVec S16 32) (k0_hw1 : k0_chk1 v54 v69), ∀ a x, ((![v54, v69] : Fin 2 → IVec S16 32) a x).toNat < S160x128.size a := fun v54 v69 k0_hw1 => k0_hw1.1
theorem k0_idx2_inb : ∀ (v54 : IVec S16 32) (v69 : IVec S16 32) (k0_hw1 : k0_chk1 v54 v69), ∀ a x, ((![v54, v69] : Fin 2 → IVec S16 32) a x).toNat < S160x128.size a := fun v54 v69 k0_hw1 => k0_hw1.2

def k0_chk2 (v54 : IVec S16 32) (v80 : IVec S16 32) : Prop :=
  (∀ a x, ((![v54, v80] : Fin 2 → IVec S16 32) a x).toNat < S160x128.size a) ∧
  (∀ a x, ((![v54, v80] : Fin 2 → IVec S16 32) a x).toNat < S160x128.size a)
instance k0_chk2.dec : ∀ (v54 : IVec S16 32) (v80 : IVec S16 32), Decidable (k0_chk2 v54 v80) := fun v54 v80 => decidable_of_iff' _ (Iff.of_eq (k0_chk2.eq_1 v54 v80))
theorem k0_idx3_inb : ∀ (v54 : IVec S16 32) (v80 : IVec S16 32) (k0_hw2 : k0_chk2 v54 v80), ∀ a x, ((![v54, v80] : Fin 2 → IVec S16 32) a x).toNat < S160x128.size a := fun v54 v80 k0_hw2 => k0_hw2.1
theorem k0_idx4_inb : ∀ (v54 : IVec S16 32) (v80 : IVec S16 32) (k0_hw2 : k0_chk2 v54 v80), ∀ a x, ((![v54, v80] : Fin 2 → IVec S16 32) a x).toNat < S160x128.size a := fun v54 v80 k0_hw2 => k0_hw2.2

def k0_chk3 (v54 : IVec S16 32) (v91 : IVec S16 32) : Prop :=
  (∀ a x, ((![v54, v91] : Fin 2 → IVec S16 32) a x).toNat < S160x128.size a) ∧
  (∀ a x, ((![v54, v91] : Fin 2 → IVec S16 32) a x).toNat < S160x128.size a)
instance k0_chk3.dec : ∀ (v54 : IVec S16 32) (v91 : IVec S16 32), Decidable (k0_chk3 v54 v91) := fun v54 v91 => decidable_of_iff' _ (Iff.of_eq (k0_chk3.eq_1 v54 v91))
theorem k0_idx5_inb : ∀ (v54 : IVec S16 32) (v91 : IVec S16 32) (k0_hw3 : k0_chk3 v54 v91), ∀ a x, ((![v54, v91] : Fin 2 → IVec S16 32) a x).toNat < S160x128.size a := fun v54 v91 k0_hw3 => k0_hw3.1
theorem k0_idx6_inb : ∀ (v54 : IVec S16 32) (v91 : IVec S16 32) (k0_hw3 : k0_chk3 v54 v91), ∀ a x, ((![v54, v91] : Fin 2 → IVec S16 32) a x).toNat < S160x128.size a := fun v54 v91 k0_hw3 => k0_hw3.2

def k0_chk4 (v54 : IVec S16 32) (v102 : IVec S16 32) : Prop :=
  (∀ a x, ((![v54, v102] : Fin 2 → IVec S16 32) a x).toNat < S160x128.size a) ∧
  (∀ a x, ((![v54, v102] : Fin 2 → IVec S16 32) a x).toNat < S160x128.size a)
instance k0_chk4.dec : ∀ (v54 : IVec S16 32) (v102 : IVec S16 32), Decidable (k0_chk4 v54 v102) := fun v54 v102 => decidable_of_iff' _ (Iff.of_eq (k0_chk4.eq_1 v54 v102))
theorem k0_idx7_inb : ∀ (v54 : IVec S16 32) (v102 : IVec S16 32) (k0_hw4 : k0_chk4 v54 v102), ∀ a x, ((![v54, v102] : Fin 2 → IVec S16 32) a x).toNat < S160x128.size a := fun v54 v102 k0_hw4 => k0_hw4.1
theorem k0_idx8_inb : ∀ (v54 : IVec S16 32) (v102 : IVec S16 32) (k0_hw4 : k0_chk4 v54 v102), ∀ a x, ((![v54, v102] : Fin 2 → IVec S16 32) a x).toNat < S160x128.size a := fun v54 v102 k0_hw4 => k0_hw4.2

def k0_chk5 (v54 : IVec S16 32) (v113 : IVec S16 32) : Prop :=
  (∀ a x, ((![v54, v113] : Fin 2 → IVec S16 32) a x).toNat < S160x128.size a) ∧
  (∀ a x, ((![v54, v113] : Fin 2 → IVec S16 32) a x).toNat < S160x128.size a)
instance k0_chk5.dec : ∀ (v54 : IVec S16 32) (v113 : IVec S16 32), Decidable (k0_chk5 v54 v113) := fun v54 v113 => decidable_of_iff' _ (Iff.of_eq (k0_chk5.eq_1 v54 v113))
theorem k0_idx9_inb : ∀ (v54 : IVec S16 32) (v113 : IVec S16 32) (k0_hw5 : k0_chk5 v54 v113), ∀ a x, ((![v54, v113] : Fin 2 → IVec S16 32) a x).toNat < S160x128.size a := fun v54 v113 k0_hw5 => k0_hw5.1
theorem k0_idx10_inb : ∀ (v54 : IVec S16 32) (v113 : IVec S16 32) (k0_hw5 : k0_chk5 v54 v113), ∀ a x, ((![v54, v113] : Fin 2 → IVec S16 32) a x).toNat < S160x128.size a := fun v54 v113 k0_hw5 => k0_hw5.2

def k0_chk6 (v54 : IVec S16 32) (v124 : IVec S16 32) : Prop :=
  (∀ a x, ((![v54, v124] : Fin 2 → IVec S16 32) a x).toNat < S160x128.size a) ∧
  (∀ a x, ((![v54, v124] : Fin 2 → IVec S16 32) a x).toNat < S160x128.size a)
instance k0_chk6.dec : ∀ (v54 : IVec S16 32) (v124 : IVec S16 32), Decidable (k0_chk6 v54 v124) := fun v54 v124 => decidable_of_iff' _ (Iff.of_eq (k0_chk6.eq_1 v54 v124))
theorem k0_idx11_inb : ∀ (v54 : IVec S16 32) (v124 : IVec S16 32) (k0_hw6 : k0_chk6 v54 v124), ∀ a x, ((![v54, v124] : Fin 2 → IVec S16 32) a x).toNat < S160x128.size a := fun v54 v124 k0_hw6 => k0_hw6.1
theorem k0_idx12_inb : ∀ (v54 : IVec S16 32) (v124 : IVec S16 32) (k0_hw6 : k0_chk6 v54 v124), ∀ a x, ((![v54, v124] : Fin 2 → IVec S16 32) a x).toNat < S160x128.size a := fun v54 v124 k0_hw6 => k0_hw6.2

def k0_chk7 (v54 : IVec S16 32) (v135 : IVec S16 32) : Prop :=
  (∀ a x, ((![v54, v135] : Fin 2 → IVec S16 32) a x).toNat < S160x128.size a) ∧
  (∀ a x, ((![v54, v135] : Fin 2 → IVec S16 32) a x).toNat < S160x128.size a)
instance k0_chk7.dec : ∀ (v54 : IVec S16 32) (v135 : IVec S16 32), Decidable (k0_chk7 v54 v135) := fun v54 v135 => decidable_of_iff' _ (Iff.of_eq (k0_chk7.eq_1 v54 v135))
theorem k0_idx13_inb : ∀ (v54 : IVec S16 32) (v135 : IVec S16 32) (k0_hw7 : k0_chk7 v54 v135), ∀ a x, ((![v54, v135] : Fin 2 → IVec S16 32) a x).toNat < S160x128.size a := fun v54 v135 k0_hw7 => k0_hw7.1
theorem k0_idx14_inb : ∀ (v54 : IVec S16 32) (v135 : IVec S16 32) (k0_hw7 : k0_chk7 v54 v135), ∀ a x, ((![v54, v135] : Fin 2 → IVec S16 32) a x).toNat < S160x128.size a := fun v54 v135 k0_hw7 => k0_hw7.2

def k0_chk8 (v54 : IVec S16 32) (v146 : IVec S16 32) : Prop :=
  (∀ a x, ((![v54, v146] : Fin 2 → IVec S16 32) a x).toNat < S160x128.size a) ∧
  (∀ a x, ((![v54, v146] : Fin 2 → IVec S16 32) a x).toNat < S160x128.size a)
instance k0_chk8.dec : ∀ (v54 : IVec S16 32) (v146 : IVec S16 32), Decidable (k0_chk8 v54 v146) := fun v54 v146 => decidable_of_iff' _ (Iff.of_eq (k0_chk8.eq_1 v54 v146))
theorem k0_idx15_inb : ∀ (v54 : IVec S16 32) (v146 : IVec S16 32) (k0_hw8 : k0_chk8 v54 v146), ∀ a x, ((![v54, v146] : Fin 2 → IVec S16 32) a x).toNat < S160x128.size a := fun v54 v146 k0_hw8 => k0_hw8.1
theorem k0_idx16_inb : ∀ (v54 : IVec S16 32) (v146 : IVec S16 32) (k0_hw8 : k0_chk8 v54 v146), ∀ a x, ((![v54, v146] : Fin 2 → IVec S16 32) a x).toNat < S160x128.size a := fun v54 v146 k0_hw8 => k0_hw8.2

def k0_chk9 (v54 : IVec S16 32) (v157 : IVec S16 32) : Prop :=
  (∀ a x, ((![v54, v157] : Fin 2 → IVec S16 32) a x).toNat < S160x128.size a) ∧
  (∀ a x, ((![v54, v157] : Fin 2 → IVec S16 32) a x).toNat < S160x128.size a)
instance k0_chk9.dec : ∀ (v54 : IVec S16 32) (v157 : IVec S16 32), Decidable (k0_chk9 v54 v157) := fun v54 v157 => decidable_of_iff' _ (Iff.of_eq (k0_chk9.eq_1 v54 v157))
theorem k0_idx17_inb : ∀ (v54 : IVec S16 32) (v157 : IVec S16 32) (k0_hw9 : k0_chk9 v54 v157), ∀ a x, ((![v54, v157] : Fin 2 → IVec S16 32) a x).toNat < S160x128.size a := fun v54 v157 k0_hw9 => k0_hw9.1
theorem k0_idx18_inb : ∀ (v54 : IVec S16 32) (v157 : IVec S16 32) (k0_hw9 : k0_chk9 v54 v157), ∀ a x, ((![v54, v157] : Fin 2 → IVec S16 32) a x).toNat < S160x128.size a := fun v54 v157 k0_hw9 => k0_hw9.2

def k0_chk10 (v54 : IVec S16 32) (v168 : IVec S16 32) : Prop :=
  (∀ a x, ((![v54, v168] : Fin 2 → IVec S16 32) a x).toNat < S160x128.size a) ∧
  (∀ a x, ((![v54, v168] : Fin 2 → IVec S16 32) a x).toNat < S160x128.size a)
instance k0_chk10.dec : ∀ (v54 : IVec S16 32) (v168 : IVec S16 32), Decidable (k0_chk10 v54 v168) := fun v54 v168 => decidable_of_iff' _ (Iff.of_eq (k0_chk10.eq_1 v54 v168))
theorem k0_idx19_inb : ∀ (v54 : IVec S16 32) (v168 : IVec S16 32) (k0_hw10 : k0_chk10 v54 v168), ∀ a x, ((![v54, v168] : Fin 2 → IVec S16 32) a x).toNat < S160x128.size a := fun v54 v168 k0_hw10 => k0_hw10.1
theorem k0_idx20_inb : ∀ (v54 : IVec S16 32) (v168 : IVec S16 32) (k0_hw10 : k0_chk10 v54 v168), ∀ a x, ((![v54, v168] : Fin 2 → IVec S16 32) a x).toNat < S160x128.size a := fun v54 v168 k0_hw10 => k0_hw10.2

def k0_chk11 (v54 : IVec S16 32) (v179 : IVec S16 32) : Prop :=
  (∀ a x, ((![v54, v179] : Fin 2 → IVec S16 32) a x).toNat < S160x128.size a) ∧
  (∀ a x, ((![v54, v179] : Fin 2 → IVec S16 32) a x).toNat < S160x128.size a)
instance k0_chk11.dec : ∀ (v54 : IVec S16 32) (v179 : IVec S16 32), Decidable (k0_chk11 v54 v179) := fun v54 v179 => decidable_of_iff' _ (Iff.of_eq (k0_chk11.eq_1 v54 v179))
theorem k0_idx21_inb : ∀ (v54 : IVec S16 32) (v179 : IVec S16 32) (k0_hw11 : k0_chk11 v54 v179), ∀ a x, ((![v54, v179] : Fin 2 → IVec S16 32) a x).toNat < S160x128.size a := fun v54 v179 k0_hw11 => k0_hw11.1
theorem k0_idx22_inb : ∀ (v54 : IVec S16 32) (v179 : IVec S16 32) (k0_hw11 : k0_chk11 v54 v179), ∀ a x, ((![v54, v179] : Fin 2 → IVec S16 32) a x).toNat < S160x128.size a := fun v54 v179 k0_hw11 => k0_hw11.2

def k0_chk12 (v54 : IVec S16 32) (v190 : IVec S16 32) : Prop :=
  (∀ a x, ((![v54, v190] : Fin 2 → IVec S16 32) a x).toNat < S160x128.size a) ∧
  (∀ a x, ((![v54, v190] : Fin 2 → IVec S16 32) a x).toNat < S160x128.size a)
instance k0_chk12.dec : ∀ (v54 : IVec S16 32) (v190 : IVec S16 32), Decidable (k0_chk12 v54 v190) := fun v54 v190 => decidable_of_iff' _ (Iff.of_eq (k0_chk12.eq_1 v54 v190))
theorem k0_idx23_inb : ∀ (v54 : IVec S16 32) (v190 : IVec S16 32) (k0_hw12 : k0_chk12 v54 v190), ∀ a x, ((![v54, v190] : Fin 2 → IVec S16 32) a x).toNat < S160x128.size a := fun v54 v190 k0_hw12 => k0_hw12.1
theorem k0_idx24_inb : ∀ (v54 : IVec S16 32) (v190 : IVec S16 32) (k0_hw12 : k0_chk12 v54 v190), ∀ a x, ((![v54, v190] : Fin 2 → IVec S16 32) a x).toNat < S160x128.size a := fun v54 v190 k0_hw12 => k0_hw12.2

def k0_chk13 (v54 : IVec S16 32) (v201 : IVec S16 32) : Prop :=
  (∀ a x, ((![v54, v201] : Fin 2 → IVec S16 32) a x).toNat < S160x128.size a) ∧
  (∀ a x, ((![v54, v201] : Fin 2 → IVec S16 32) a x).toNat < S160x128.size a)
instance k0_chk13.dec : ∀ (v54 : IVec S16 32) (v201 : IVec S16 32), Decidable (k0_chk13 v54 v201) := fun v54 v201 => decidable_of_iff' _ (Iff.of_eq (k0_chk13.eq_1 v54 v201))
theorem k0_idx25_inb : ∀ (v54 : IVec S16 32) (v201 : IVec S16 32) (k0_hw13 : k0_chk13 v54 v201), ∀ a x, ((![v54, v201] : Fin 2 → IVec S16 32) a x).toNat < S160x128.size a := fun v54 v201 k0_hw13 => k0_hw13.1
theorem k0_idx26_inb : ∀ (v54 : IVec S16 32) (v201 : IVec S16 32) (k0_hw13 : k0_chk13 v54 v201), ∀ a x, ((![v54, v201] : Fin 2 → IVec S16 32) a x).toNat < S160x128.size a := fun v54 v201 k0_hw13 => k0_hw13.2

def k0_chk14 (v54 : IVec S16 32) (v212 : IVec S16 32) : Prop :=
  (∀ a x, ((![v54, v212] : Fin 2 → IVec S16 32) a x).toNat < S160x128.size a) ∧
  (∀ a x, ((![v54, v212] : Fin 2 → IVec S16 32) a x).toNat < S160x128.size a)
instance k0_chk14.dec : ∀ (v54 : IVec S16 32) (v212 : IVec S16 32), Decidable (k0_chk14 v54 v212) := fun v54 v212 => decidable_of_iff' _ (Iff.of_eq (k0_chk14.eq_1 v54 v212))
theorem k0_idx27_inb : ∀ (v54 : IVec S16 32) (v212 : IVec S16 32) (k0_hw14 : k0_chk14 v54 v212), ∀ a x, ((![v54, v212] : Fin 2 → IVec S16 32) a x).toNat < S160x128.size a := fun v54 v212 k0_hw14 => k0_hw14.1
theorem k0_idx28_inb : ∀ (v54 : IVec S16 32) (v212 : IVec S16 32) (k0_hw14 : k0_chk14 v54 v212), ∀ a x, ((![v54, v212] : Fin 2 → IVec S16 32) a x).toNat < S160x128.size a := fun v54 v212 k0_hw14 => k0_hw14.2

def k0_chk15 (v54 : IVec S16 32) (v223 : IVec S16 32) : Prop :=
  (∀ a x, ((![v54, v223] : Fin 2 → IVec S16 32) a x).toNat < S160x128.size a) ∧
  (∀ a x, ((![v54, v223] : Fin 2 → IVec S16 32) a x).toNat < S160x128.size a)
instance k0_chk15.dec : ∀ (v54 : IVec S16 32) (v223 : IVec S16 32), Decidable (k0_chk15 v54 v223) := fun v54 v223 => decidable_of_iff' _ (Iff.of_eq (k0_chk15.eq_1 v54 v223))
theorem k0_idx29_inb : ∀ (v54 : IVec S16 32) (v223 : IVec S16 32) (k0_hw15 : k0_chk15 v54 v223), ∀ a x, ((![v54, v223] : Fin 2 → IVec S16 32) a x).toNat < S160x128.size a := fun v54 v223 k0_hw15 => k0_hw15.1
theorem k0_idx30_inb : ∀ (v54 : IVec S16 32) (v223 : IVec S16 32) (k0_hw15 : k0_chk15 v54 v223), ∀ a x, ((![v54, v223] : Fin 2 → IVec S16 32) a x).toNat < S160x128.size a := fun v54 v223 k0_hw15 => k0_hw15.2

def k0_chk16 (v54 : IVec S16 32) (v234 : IVec S16 32) : Prop :=
  (∀ a x, ((![v54, v234] : Fin 2 → IVec S16 32) a x).toNat < S160x128.size a) ∧
  (∀ a x, ((![v54, v234] : Fin 2 → IVec S16 32) a x).toNat < S160x128.size a)
instance k0_chk16.dec : ∀ (v54 : IVec S16 32) (v234 : IVec S16 32), Decidable (k0_chk16 v54 v234) := fun v54 v234 => decidable_of_iff' _ (Iff.of_eq (k0_chk16.eq_1 v54 v234))
theorem k0_idx31_inb : ∀ (v54 : IVec S16 32) (v234 : IVec S16 32) (k0_hw16 : k0_chk16 v54 v234), ∀ a x, ((![v54, v234] : Fin 2 → IVec S16 32) a x).toNat < S160x128.size a := fun v54 v234 k0_hw16 => k0_hw16.1
theorem k0_idx32_inb : ∀ (v54 : IVec S16 32) (v234 : IVec S16 32) (k0_hw16 : k0_chk16 v54 v234), ∀ a x, ((![v54, v234] : Fin 2 → IVec S16 32) a x).toNat < S160x128.size a := fun v54 v234 k0_hw16 => k0_hw16.2

def k0_chk17 (v54 : IVec S16 32) (v245 : IVec S16 32) : Prop :=
  (∀ a x, ((![v54, v245] : Fin 2 → IVec S16 32) a x).toNat < S160x128.size a) ∧
  (∀ a x, ((![v54, v245] : Fin 2 → IVec S16 32) a x).toNat < S160x128.size a)
instance k0_chk17.dec : ∀ (v54 : IVec S16 32) (v245 : IVec S16 32), Decidable (k0_chk17 v54 v245) := fun v54 v245 => decidable_of_iff' _ (Iff.of_eq (k0_chk17.eq_1 v54 v245))
theorem k0_idx33_inb : ∀ (v54 : IVec S16 32) (v245 : IVec S16 32) (k0_hw17 : k0_chk17 v54 v245), ∀ a x, ((![v54, v245] : Fin 2 → IVec S16 32) a x).toNat < S160x128.size a := fun v54 v245 k0_hw17 => k0_hw17.1
theorem k0_idx34_inb : ∀ (v54 : IVec S16 32) (v245 : IVec S16 32) (k0_hw17 : k0_chk17 v54 v245), ∀ a x, ((![v54, v245] : Fin 2 → IVec S16 32) a x).toNat < S160x128.size a := fun v54 v245 k0_hw17 => k0_hw17.2

def k0_chk18 (v54 : IVec S16 32) (v256 : IVec S16 32) : Prop :=
  (∀ a x, ((![v54, v256] : Fin 2 → IVec S16 32) a x).toNat < S160x128.size a) ∧
  (∀ a x, ((![v54, v256] : Fin 2 → IVec S16 32) a x).toNat < S160x128.size a)
instance k0_chk18.dec : ∀ (v54 : IVec S16 32) (v256 : IVec S16 32), Decidable (k0_chk18 v54 v256) := fun v54 v256 => decidable_of_iff' _ (Iff.of_eq (k0_chk18.eq_1 v54 v256))
theorem k0_idx35_inb : ∀ (v54 : IVec S16 32) (v256 : IVec S16 32) (k0_hw18 : k0_chk18 v54 v256), ∀ a x, ((![v54, v256] : Fin 2 → IVec S16 32) a x).toNat < S160x128.size a := fun v54 v256 k0_hw18 => k0_hw18.1
theorem k0_idx36_inb : ∀ (v54 : IVec S16 32) (v256 : IVec S16 32) (k0_hw18 : k0_chk18 v54 v256), ∀ a x, ((![v54, v256] : Fin 2 → IVec S16 32) a x).toNat < S160x128.size a := fun v54 v256 k0_hw18 => k0_hw18.2

def k0_chk19 (v54 : IVec S16 32) (v267 : IVec S16 32) : Prop :=
  (∀ a x, ((![v54, v267] : Fin 2 → IVec S16 32) a x).toNat < S160x128.size a) ∧
  (∀ a x, ((![v54, v267] : Fin 2 → IVec S16 32) a x).toNat < S160x128.size a)
instance k0_chk19.dec : ∀ (v54 : IVec S16 32) (v267 : IVec S16 32), Decidable (k0_chk19 v54 v267) := fun v54 v267 => decidable_of_iff' _ (Iff.of_eq (k0_chk19.eq_1 v54 v267))
theorem k0_idx37_inb : ∀ (v54 : IVec S16 32) (v267 : IVec S16 32) (k0_hw19 : k0_chk19 v54 v267), ∀ a x, ((![v54, v267] : Fin 2 → IVec S16 32) a x).toNat < S160x128.size a := fun v54 v267 k0_hw19 => k0_hw19.1
theorem k0_idx38_inb : ∀ (v54 : IVec S16 32) (v267 : IVec S16 32) (k0_hw19 : k0_chk19 v54 v267), ∀ a x, ((![v54, v267] : Fin 2 → IVec S16 32) a x).toNat < S160x128.size a := fun v54 v267 k0_hw19 => k0_hw19.2

def k0_chk20 (v54 : IVec S16 32) (v278 : IVec S16 32) : Prop :=
  (∀ a x, ((![v54, v278] : Fin 2 → IVec S16 32) a x).toNat < S160x128.size a) ∧
  (∀ a x, ((![v54, v278] : Fin 2 → IVec S16 32) a x).toNat < S160x128.size a)
instance k0_chk20.dec : ∀ (v54 : IVec S16 32) (v278 : IVec S16 32), Decidable (k0_chk20 v54 v278) := fun v54 v278 => decidable_of_iff' _ (Iff.of_eq (k0_chk20.eq_1 v54 v278))
theorem k0_idx39_inb : ∀ (v54 : IVec S16 32) (v278 : IVec S16 32) (k0_hw20 : k0_chk20 v54 v278), ∀ a x, ((![v54, v278] : Fin 2 → IVec S16 32) a x).toNat < S160x128.size a := fun v54 v278 k0_hw20 => k0_hw20.1
theorem k0_idx40_inb : ∀ (v54 : IVec S16 32) (v278 : IVec S16 32) (k0_hw20 : k0_chk20 v54 v278), ∀ a x, ((![v54, v278] : Fin 2 → IVec S16 32) a x).toNat < S160x128.size a := fun v54 v278 k0_hw20 => k0_hw20.2

def k0_chk21 (v54 : IVec S16 32) (v289 : IVec S16 32) : Prop :=
  (∀ a x, ((![v54, v289] : Fin 2 → IVec S16 32) a x).toNat < S160x128.size a) ∧
  (∀ a x, ((![v54, v289] : Fin 2 → IVec S16 32) a x).toNat < S160x128.size a)
instance k0_chk21.dec : ∀ (v54 : IVec S16 32) (v289 : IVec S16 32), Decidable (k0_chk21 v54 v289) := fun v54 v289 => decidable_of_iff' _ (Iff.of_eq (k0_chk21.eq_1 v54 v289))
theorem k0_idx41_inb : ∀ (v54 : IVec S16 32) (v289 : IVec S16 32) (k0_hw21 : k0_chk21 v54 v289), ∀ a x, ((![v54, v289] : Fin 2 → IVec S16 32) a x).toNat < S160x128.size a := fun v54 v289 k0_hw21 => k0_hw21.1
theorem k0_idx42_inb : ∀ (v54 : IVec S16 32) (v289 : IVec S16 32) (k0_hw21 : k0_chk21 v54 v289), ∀ a x, ((![v54, v289] : Fin 2 → IVec S16 32) a x).toNat < S160x128.size a := fun v54 v289 k0_hw21 => k0_hw21.2

def k0_chk22 (v54 : IVec S16 32) (v300 : IVec S16 32) : Prop :=
  (∀ a x, ((![v54, v300] : Fin 2 → IVec S16 32) a x).toNat < S160x128.size a) ∧
  (∀ a x, ((![v54, v300] : Fin 2 → IVec S16 32) a x).toNat < S160x128.size a)
instance k0_chk22.dec : ∀ (v54 : IVec S16 32) (v300 : IVec S16 32), Decidable (k0_chk22 v54 v300) := fun v54 v300 => decidable_of_iff' _ (Iff.of_eq (k0_chk22.eq_1 v54 v300))
theorem k0_idx43_inb : ∀ (v54 : IVec S16 32) (v300 : IVec S16 32) (k0_hw22 : k0_chk22 v54 v300), ∀ a x, ((![v54, v300] : Fin 2 → IVec S16 32) a x).toNat < S160x128.size a := fun v54 v300 k0_hw22 => k0_hw22.1
theorem k0_idx44_inb : ∀ (v54 : IVec S16 32) (v300 : IVec S16 32) (k0_hw22 : k0_chk22 v54 v300), ∀ a x, ((![v54, v300] : Fin 2 → IVec S16 32) a x).toNat < S160x128.size a := fun v54 v300 k0_hw22 => k0_hw22.2

def k0_chk23 (v54 : IVec S16 32) (v311 : IVec S16 32) : Prop :=
  (∀ a x, ((![v54, v311] : Fin 2 → IVec S16 32) a x).toNat < S160x128.size a) ∧
  (∀ a x, ((![v54, v311] : Fin 2 → IVec S16 32) a x).toNat < S160x128.size a)
instance k0_chk23.dec : ∀ (v54 : IVec S16 32) (v311 : IVec S16 32), Decidable (k0_chk23 v54 v311) := fun v54 v311 => decidable_of_iff' _ (Iff.of_eq (k0_chk23.eq_1 v54 v311))
theorem k0_idx45_inb : ∀ (v54 : IVec S16 32) (v311 : IVec S16 32) (k0_hw23 : k0_chk23 v54 v311), ∀ a x, ((![v54, v311] : Fin 2 → IVec S16 32) a x).toNat < S160x128.size a := fun v54 v311 k0_hw23 => k0_hw23.1
theorem k0_idx46_inb : ∀ (v54 : IVec S16 32) (v311 : IVec S16 32) (k0_hw23 : k0_chk23 v54 v311), ∀ a x, ((![v54, v311] : Fin 2 → IVec S16 32) a x).toNat < S160x128.size a := fun v54 v311 k0_hw23 => k0_hw23.2

def k0_chk24 (v54 : IVec S16 32) (v322 : IVec S16 32) : Prop :=
  (∀ a x, ((![v54, v322] : Fin 2 → IVec S16 32) a x).toNat < S160x128.size a) ∧
  (∀ a x, ((![v54, v322] : Fin 2 → IVec S16 32) a x).toNat < S160x128.size a)
instance k0_chk24.dec : ∀ (v54 : IVec S16 32) (v322 : IVec S16 32), Decidable (k0_chk24 v54 v322) := fun v54 v322 => decidable_of_iff' _ (Iff.of_eq (k0_chk24.eq_1 v54 v322))
theorem k0_idx47_inb : ∀ (v54 : IVec S16 32) (v322 : IVec S16 32) (k0_hw24 : k0_chk24 v54 v322), ∀ a x, ((![v54, v322] : Fin 2 → IVec S16 32) a x).toNat < S160x128.size a := fun v54 v322 k0_hw24 => k0_hw24.1
theorem k0_idx48_inb : ∀ (v54 : IVec S16 32) (v322 : IVec S16 32) (k0_hw24 : k0_chk24 v54 v322), ∀ a x, ((![v54, v322] : Fin 2 → IVec S16 32) a x).toNat < S160x128.size a := fun v54 v322 k0_hw24 => k0_hw24.2

def k0_chk25 (v54 : IVec S16 32) (v333 : IVec S16 32) : Prop :=
  (∀ a x, ((![v54, v333] : Fin 2 → IVec S16 32) a x).toNat < S160x128.size a) ∧
  (∀ a x, ((![v54, v333] : Fin 2 → IVec S16 32) a x).toNat < S160x128.size a)
instance k0_chk25.dec : ∀ (v54 : IVec S16 32) (v333 : IVec S16 32), Decidable (k0_chk25 v54 v333) := fun v54 v333 => decidable_of_iff' _ (Iff.of_eq (k0_chk25.eq_1 v54 v333))
theorem k0_idx49_inb : ∀ (v54 : IVec S16 32) (v333 : IVec S16 32) (k0_hw25 : k0_chk25 v54 v333), ∀ a x, ((![v54, v333] : Fin 2 → IVec S16 32) a x).toNat < S160x128.size a := fun v54 v333 k0_hw25 => k0_hw25.1
theorem k0_idx50_inb : ∀ (v54 : IVec S16 32) (v333 : IVec S16 32) (k0_hw25 : k0_chk25 v54 v333), ∀ a x, ((![v54, v333] : Fin 2 → IVec S16 32) a x).toNat < S160x128.size a := fun v54 v333 k0_hw25 => k0_hw25.2

def k0_chk26 (v54 : IVec S16 32) (v344 : IVec S16 32) : Prop :=
  (∀ a x, ((![v54, v344] : Fin 2 → IVec S16 32) a x).toNat < S160x128.size a) ∧
  (∀ a x, ((![v54, v344] : Fin 2 → IVec S16 32) a x).toNat < S160x128.size a)
instance k0_chk26.dec : ∀ (v54 : IVec S16 32) (v344 : IVec S16 32), Decidable (k0_chk26 v54 v344) := fun v54 v344 => decidable_of_iff' _ (Iff.of_eq (k0_chk26.eq_1 v54 v344))
theorem k0_idx51_inb : ∀ (v54 : IVec S16 32) (v344 : IVec S16 32) (k0_hw26 : k0_chk26 v54 v344), ∀ a x, ((![v54, v344] : Fin 2 → IVec S16 32) a x).toNat < S160x128.size a := fun v54 v344 k0_hw26 => k0_hw26.1
theorem k0_idx52_inb : ∀ (v54 : IVec S16 32) (v344 : IVec S16 32) (k0_hw26 : k0_chk26 v54 v344), ∀ a x, ((![v54, v344] : Fin 2 → IVec S16 32) a x).toNat < S160x128.size a := fun v54 v344 k0_hw26 => k0_hw26.2

def k0_chk27 (v54 : IVec S16 32) (v355 : IVec S16 32) : Prop :=
  (∀ a x, ((![v54, v355] : Fin 2 → IVec S16 32) a x).toNat < S160x128.size a) ∧
  (∀ a x, ((![v54, v355] : Fin 2 → IVec S16 32) a x).toNat < S160x128.size a)
instance k0_chk27.dec : ∀ (v54 : IVec S16 32) (v355 : IVec S16 32), Decidable (k0_chk27 v54 v355) := fun v54 v355 => decidable_of_iff' _ (Iff.of_eq (k0_chk27.eq_1 v54 v355))
theorem k0_idx53_inb : ∀ (v54 : IVec S16 32) (v355 : IVec S16 32) (k0_hw27 : k0_chk27 v54 v355), ∀ a x, ((![v54, v355] : Fin 2 → IVec S16 32) a x).toNat < S160x128.size a := fun v54 v355 k0_hw27 => k0_hw27.1
theorem k0_idx54_inb : ∀ (v54 : IVec S16 32) (v355 : IVec S16 32) (k0_hw27 : k0_chk27 v54 v355), ∀ a x, ((![v54, v355] : Fin 2 → IVec S16 32) a x).toNat < S160x128.size a := fun v54 v355 k0_hw27 => k0_hw27.2

def k0_chk28 (v54 : IVec S16 32) (v366 : IVec S16 32) : Prop :=
  (∀ a x, ((![v54, v366] : Fin 2 → IVec S16 32) a x).toNat < S160x128.size a) ∧
  (∀ a x, ((![v54, v366] : Fin 2 → IVec S16 32) a x).toNat < S160x128.size a)
instance k0_chk28.dec : ∀ (v54 : IVec S16 32) (v366 : IVec S16 32), Decidable (k0_chk28 v54 v366) := fun v54 v366 => decidable_of_iff' _ (Iff.of_eq (k0_chk28.eq_1 v54 v366))
theorem k0_idx55_inb : ∀ (v54 : IVec S16 32) (v366 : IVec S16 32) (k0_hw28 : k0_chk28 v54 v366), ∀ a x, ((![v54, v366] : Fin 2 → IVec S16 32) a x).toNat < S160x128.size a := fun v54 v366 k0_hw28 => k0_hw28.1
theorem k0_idx56_inb : ∀ (v54 : IVec S16 32) (v366 : IVec S16 32) (k0_hw28 : k0_chk28 v54 v366), ∀ a x, ((![v54, v366] : Fin 2 → IVec S16 32) a x).toNat < S160x128.size a := fun v54 v366 k0_hw28 => k0_hw28.2

def k0_chk29 (v54 : IVec S16 32) (v377 : IVec S16 32) : Prop :=
  (∀ a x, ((![v54, v377] : Fin 2 → IVec S16 32) a x).toNat < S160x128.size a) ∧
  (∀ a x, ((![v54, v377] : Fin 2 → IVec S16 32) a x).toNat < S160x128.size a)
instance k0_chk29.dec : ∀ (v54 : IVec S16 32) (v377 : IVec S16 32), Decidable (k0_chk29 v54 v377) := fun v54 v377 => decidable_of_iff' _ (Iff.of_eq (k0_chk29.eq_1 v54 v377))
theorem k0_idx57_inb : ∀ (v54 : IVec S16 32) (v377 : IVec S16 32) (k0_hw29 : k0_chk29 v54 v377), ∀ a x, ((![v54, v377] : Fin 2 → IVec S16 32) a x).toNat < S160x128.size a := fun v54 v377 k0_hw29 => k0_hw29.1
theorem k0_idx58_inb : ∀ (v54 : IVec S16 32) (v377 : IVec S16 32) (k0_hw29 : k0_chk29 v54 v377), ∀ a x, ((![v54, v377] : Fin 2 → IVec S16 32) a x).toNat < S160x128.size a := fun v54 v377 k0_hw29 => k0_hw29.2

def k0_chk30 (v54 : IVec S16 32) (v388 : IVec S16 32) : Prop :=
  (∀ a x, ((![v54, v388] : Fin 2 → IVec S16 32) a x).toNat < S160x128.size a) ∧
  (∀ a x, ((![v54, v388] : Fin 2 → IVec S16 32) a x).toNat < S160x128.size a)
instance k0_chk30.dec : ∀ (v54 : IVec S16 32) (v388 : IVec S16 32), Decidable (k0_chk30 v54 v388) := fun v54 v388 => decidable_of_iff' _ (Iff.of_eq (k0_chk30.eq_1 v54 v388))
theorem k0_idx59_inb : ∀ (v54 : IVec S16 32) (v388 : IVec S16 32) (k0_hw30 : k0_chk30 v54 v388), ∀ a x, ((![v54, v388] : Fin 2 → IVec S16 32) a x).toNat < S160x128.size a := fun v54 v388 k0_hw30 => k0_hw30.1
theorem k0_idx60_inb : ∀ (v54 : IVec S16 32) (v388 : IVec S16 32) (k0_hw30 : k0_chk30 v54 v388), ∀ a x, ((![v54, v388] : Fin 2 → IVec S16 32) a x).toNat < S160x128.size a := fun v54 v388 k0_hw30 => k0_hw30.2

def k0_chk31 (v54 : IVec S16 32) (v399 : IVec S16 32) : Prop :=
  (∀ a x, ((![v54, v399] : Fin 2 → IVec S16 32) a x).toNat < S160x128.size a) ∧
  (∀ a x, ((![v54, v399] : Fin 2 → IVec S16 32) a x).toNat < S160x128.size a)
instance k0_chk31.dec : ∀ (v54 : IVec S16 32) (v399 : IVec S16 32), Decidable (k0_chk31 v54 v399) := fun v54 v399 => decidable_of_iff' _ (Iff.of_eq (k0_chk31.eq_1 v54 v399))
theorem k0_idx61_inb : ∀ (v54 : IVec S16 32) (v399 : IVec S16 32) (k0_hw31 : k0_chk31 v54 v399), ∀ a x, ((![v54, v399] : Fin 2 → IVec S16 32) a x).toNat < S160x128.size a := fun v54 v399 k0_hw31 => k0_hw31.1
theorem k0_idx62_inb : ∀ (v54 : IVec S16 32) (v399 : IVec S16 32) (k0_hw31 : k0_chk31 v54 v399), ∀ a x, ((![v54, v399] : Fin 2 → IVec S16 32) a x).toNat < S160x128.size a := fun v54 v399 k0_hw31 => k0_hw31.2

def k0_chk32 (v54 : IVec S16 32) (v410 : IVec S16 32) : Prop :=
  (∀ a x, ((![v54, v410] : Fin 2 → IVec S16 32) a x).toNat < S160x128.size a) ∧
  (∀ a x, ((![v54, v410] : Fin 2 → IVec S16 32) a x).toNat < S160x128.size a)
instance k0_chk32.dec : ∀ (v54 : IVec S16 32) (v410 : IVec S16 32), Decidable (k0_chk32 v54 v410) := fun v54 v410 => decidable_of_iff' _ (Iff.of_eq (k0_chk32.eq_1 v54 v410))
theorem k0_idx63_inb : ∀ (v54 : IVec S16 32) (v410 : IVec S16 32) (k0_hw32 : k0_chk32 v54 v410), ∀ a x, ((![v54, v410] : Fin 2 → IVec S16 32) a x).toNat < S160x128.size a := fun v54 v410 k0_hw32 => k0_hw32.1
theorem k0_idx64_inb : ∀ (v54 : IVec S16 32) (v410 : IVec S16 32) (k0_hw32 : k0_chk32 v54 v410), ∀ a x, ((![v54, v410] : Fin 2 → IVec S16 32) a x).toNat < S160x128.size a := fun v54 v410 k0_hw32 => k0_hw32.2

def k0_chk33 (v4 : IVec S16 32) (v48 : IVec S16 32) : Prop :=
  (∀ a x, ((![v48, v4] : Fin 2 → IVec S16 32) a x).toNat < S64x16.size a) ∧
  (∀ a x, ((![v48, v4] : Fin 2 → IVec S16 32) a x).toNat < S64x16.size a)
instance k0_chk33.dec : ∀ (v4 : IVec S16 32) (v48 : IVec S16 32), Decidable (k0_chk33 v4 v48) := fun v4 v48 => decidable_of_iff' _ (Iff.of_eq (k0_chk33.eq_1 v4 v48))
theorem k0_idx65_inb : ∀ (v4 : IVec S16 32) (v48 : IVec S16 32) (k0_hw33 : k0_chk33 v4 v48), ∀ a x, ((![v48, v4] : Fin 2 → IVec S16 32) a x).toNat < S64x16.size a := fun v4 v48 k0_hw33 => k0_hw33.1
theorem k0_idx66_inb : ∀ (v4 : IVec S16 32) (v48 : IVec S16 32) (k0_hw33 : k0_chk33 v4 v48), ∀ a x, ((![v48, v4] : Fin 2 → IVec S16 32) a x).toNat < S64x16.size a := fun v4 v48 k0_hw33 => k0_hw33.2
def k0_off6 (i : grid0.Coords) (k0_t2 : Fin k0_t2_loop.trips) : Fin 2 → Nat :=
  let c140800_i32 : BitVec 32 := 140800#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c5600_i32 : BitVec 32 := 5600#32
  let v2 : BitVec 32 := Scalar.muli v1 c5600_i32
  let v3 : BitVec 32 := Scalar.addi c140800_i32 v2
  let c2_i32 : BitVec 32 := 2#32
  let c0_i32_8 : BitVec 32 := 0#32
  let c1_i32_9 : BitVec 32 := 1#32
  let arg20 : BitVec 32 := Scf.iv c0_i32_8 c1_i32_9 k0_t2
  let v18 : BitVec 32 := Scalar.muli c2_i32 arg20
  let c2_i32_41 : BitVec 32 := 2#32
  let v31 : BitVec 32 := Scalar.addi v18 c2_i32_41
  let c160_i32_42 : BitVec 32 := 160#32
  let v32 : BitVec 32 := Scalar.muli v31 c160_i32_42
  let v33 : BitVec 32 := Scalar.addi v3 v32
  let c0_i32_43 : BitVec 32 := 0#32
  ![v33.toNat, 0]
@[reducible] def k0_t5_loop : Scf.Loop 32 :=
  let c0_i32_57 : BitVec 32 := 0#32
  let c10_i32_58 : BitVec 32 := 10#32
  let v43 : BitVec 32 := Scalar.addi c0_i32_57 c10_i32_58
  let c1_i32_59 : BitVec 32 := 1#32
  ⟨c0_i32_57, v43, c1_i32_59⟩
def k0_off7 (k0_t2 : Fin k0_t2_loop.trips) (k0_t5 : Fin k0_t5_loop.trips) : Fin 1 → Nat :=
  let c2_i32 : BitVec 32 := 2#32
  let c0_i32_8 : BitVec 32 := 0#32
  let c1_i32_9 : BitVec 32 := 1#32
  let arg20 : BitVec 32 := Scf.iv c0_i32_8 c1_i32_9 k0_t2
  let v18 : BitVec 32 := Scalar.muli c2_i32 arg20
  let c1_i32_55 : BitVec 32 := 1#32
  let v42 : BitVec 32 := Scalar.addi v18 c1_i32_55
  let c10_i32_61 : BitVec 32 := 10#32
  let v44 : BitVec 32 := Scalar.muli v42 c10_i32_61
  let c0_i32_57 : BitVec 32 := 0#32
  let c1_i32_59 : BitVec 32 := 1#32
  let arg21 : BitVec 32 := Scf.iv c0_i32_57 c1_i32_59 k0_t5
  let v45 : BitVec 32 := Scalar.addi v44 arg21
  let c16_i32_62 : BitVec 32 := 16#32
  let v46 : BitVec 32 := Scalar.muli v45 c16_i32_62
  let v47 : Index := Scalar.indexCast v46
  ![v47.toNat]
@[reducible] def k0_t6_loop : Scf.Loop 32 :=
  let c0_i32_65 : BitVec 32 := 0#32
  let c4_i32 : BitVec 32 := 4#32
  let v55 : BitVec 32 := Scalar.addi c0_i32_65 c4_i32
  let c1_i32_66 : BitVec 32 := 1#32
  ⟨c0_i32_65, v55, c1_i32_66⟩

def k0_chk34 (v54 : IVec S16 32) (v69 : IVec S16 32) : Prop :=
  (∀ a x, ((![v54, v69] : Fin 2 → IVec S16 32) a x).toNat < S160x128.size a) ∧
  (∀ a x, ((![v54, v69] : Fin 2 → IVec S16 32) a x).toNat < S160x128.size a)
instance k0_chk34.dec : ∀ (v54 : IVec S16 32) (v69 : IVec S16 32), Decidable (k0_chk34 v54 v69) := fun v54 v69 => decidable_of_iff' _ (Iff.of_eq (k0_chk34.eq_1 v54 v69))
theorem k0_idx67_inb : ∀ (v54 : IVec S16 32) (v69 : IVec S16 32) (k0_hw34 : k0_chk34 v54 v69), ∀ a x, ((![v54, v69] : Fin 2 → IVec S16 32) a x).toNat < S160x128.size a := fun v54 v69 k0_hw34 => k0_hw34.1
theorem k0_idx68_inb : ∀ (v54 : IVec S16 32) (v69 : IVec S16 32) (k0_hw34 : k0_chk34 v54 v69), ∀ a x, ((![v54, v69] : Fin 2 → IVec S16 32) a x).toNat < S160x128.size a := fun v54 v69 k0_hw34 => k0_hw34.2

def k0_chk35 (v54 : IVec S16 32) (v80 : IVec S16 32) : Prop :=
  (∀ a x, ((![v54, v80] : Fin 2 → IVec S16 32) a x).toNat < S160x128.size a) ∧
  (∀ a x, ((![v54, v80] : Fin 2 → IVec S16 32) a x).toNat < S160x128.size a)
instance k0_chk35.dec : ∀ (v54 : IVec S16 32) (v80 : IVec S16 32), Decidable (k0_chk35 v54 v80) := fun v54 v80 => decidable_of_iff' _ (Iff.of_eq (k0_chk35.eq_1 v54 v80))
theorem k0_idx69_inb : ∀ (v54 : IVec S16 32) (v80 : IVec S16 32) (k0_hw35 : k0_chk35 v54 v80), ∀ a x, ((![v54, v80] : Fin 2 → IVec S16 32) a x).toNat < S160x128.size a := fun v54 v80 k0_hw35 => k0_hw35.1
theorem k0_idx70_inb : ∀ (v54 : IVec S16 32) (v80 : IVec S16 32) (k0_hw35 : k0_chk35 v54 v80), ∀ a x, ((![v54, v80] : Fin 2 → IVec S16 32) a x).toNat < S160x128.size a := fun v54 v80 k0_hw35 => k0_hw35.2

def k0_chk36 (v54 : IVec S16 32) (v91 : IVec S16 32) : Prop :=
  (∀ a x, ((![v54, v91] : Fin 2 → IVec S16 32) a x).toNat < S160x128.size a) ∧
  (∀ a x, ((![v54, v91] : Fin 2 → IVec S16 32) a x).toNat < S160x128.size a)
instance k0_chk36.dec : ∀ (v54 : IVec S16 32) (v91 : IVec S16 32), Decidable (k0_chk36 v54 v91) := fun v54 v91 => decidable_of_iff' _ (Iff.of_eq (k0_chk36.eq_1 v54 v91))
theorem k0_idx71_inb : ∀ (v54 : IVec S16 32) (v91 : IVec S16 32) (k0_hw36 : k0_chk36 v54 v91), ∀ a x, ((![v54, v91] : Fin 2 → IVec S16 32) a x).toNat < S160x128.size a := fun v54 v91 k0_hw36 => k0_hw36.1
theorem k0_idx72_inb : ∀ (v54 : IVec S16 32) (v91 : IVec S16 32) (k0_hw36 : k0_chk36 v54 v91), ∀ a x, ((![v54, v91] : Fin 2 → IVec S16 32) a x).toNat < S160x128.size a := fun v54 v91 k0_hw36 => k0_hw36.2

def k0_chk37 (v54 : IVec S16 32) (v102 : IVec S16 32) : Prop :=
  (∀ a x, ((![v54, v102] : Fin 2 → IVec S16 32) a x).toNat < S160x128.size a) ∧
  (∀ a x, ((![v54, v102] : Fin 2 → IVec S16 32) a x).toNat < S160x128.size a)
instance k0_chk37.dec : ∀ (v54 : IVec S16 32) (v102 : IVec S16 32), Decidable (k0_chk37 v54 v102) := fun v54 v102 => decidable_of_iff' _ (Iff.of_eq (k0_chk37.eq_1 v54 v102))
theorem k0_idx73_inb : ∀ (v54 : IVec S16 32) (v102 : IVec S16 32) (k0_hw37 : k0_chk37 v54 v102), ∀ a x, ((![v54, v102] : Fin 2 → IVec S16 32) a x).toNat < S160x128.size a := fun v54 v102 k0_hw37 => k0_hw37.1
theorem k0_idx74_inb : ∀ (v54 : IVec S16 32) (v102 : IVec S16 32) (k0_hw37 : k0_chk37 v54 v102), ∀ a x, ((![v54, v102] : Fin 2 → IVec S16 32) a x).toNat < S160x128.size a := fun v54 v102 k0_hw37 => k0_hw37.2

def k0_chk38 (v54 : IVec S16 32) (v113 : IVec S16 32) : Prop :=
  (∀ a x, ((![v54, v113] : Fin 2 → IVec S16 32) a x).toNat < S160x128.size a) ∧
  (∀ a x, ((![v54, v113] : Fin 2 → IVec S16 32) a x).toNat < S160x128.size a)
instance k0_chk38.dec : ∀ (v54 : IVec S16 32) (v113 : IVec S16 32), Decidable (k0_chk38 v54 v113) := fun v54 v113 => decidable_of_iff' _ (Iff.of_eq (k0_chk38.eq_1 v54 v113))
theorem k0_idx75_inb : ∀ (v54 : IVec S16 32) (v113 : IVec S16 32) (k0_hw38 : k0_chk38 v54 v113), ∀ a x, ((![v54, v113] : Fin 2 → IVec S16 32) a x).toNat < S160x128.size a := fun v54 v113 k0_hw38 => k0_hw38.1
theorem k0_idx76_inb : ∀ (v54 : IVec S16 32) (v113 : IVec S16 32) (k0_hw38 : k0_chk38 v54 v113), ∀ a x, ((![v54, v113] : Fin 2 → IVec S16 32) a x).toNat < S160x128.size a := fun v54 v113 k0_hw38 => k0_hw38.2

def k0_chk39 (v54 : IVec S16 32) (v124 : IVec S16 32) : Prop :=
  (∀ a x, ((![v54, v124] : Fin 2 → IVec S16 32) a x).toNat < S160x128.size a) ∧
  (∀ a x, ((![v54, v124] : Fin 2 → IVec S16 32) a x).toNat < S160x128.size a)
instance k0_chk39.dec : ∀ (v54 : IVec S16 32) (v124 : IVec S16 32), Decidable (k0_chk39 v54 v124) := fun v54 v124 => decidable_of_iff' _ (Iff.of_eq (k0_chk39.eq_1 v54 v124))
theorem k0_idx77_inb : ∀ (v54 : IVec S16 32) (v124 : IVec S16 32) (k0_hw39 : k0_chk39 v54 v124), ∀ a x, ((![v54, v124] : Fin 2 → IVec S16 32) a x).toNat < S160x128.size a := fun v54 v124 k0_hw39 => k0_hw39.1
theorem k0_idx78_inb : ∀ (v54 : IVec S16 32) (v124 : IVec S16 32) (k0_hw39 : k0_chk39 v54 v124), ∀ a x, ((![v54, v124] : Fin 2 → IVec S16 32) a x).toNat < S160x128.size a := fun v54 v124 k0_hw39 => k0_hw39.2

def k0_chk40 (v54 : IVec S16 32) (v135 : IVec S16 32) : Prop :=
  (∀ a x, ((![v54, v135] : Fin 2 → IVec S16 32) a x).toNat < S160x128.size a) ∧
  (∀ a x, ((![v54, v135] : Fin 2 → IVec S16 32) a x).toNat < S160x128.size a)
instance k0_chk40.dec : ∀ (v54 : IVec S16 32) (v135 : IVec S16 32), Decidable (k0_chk40 v54 v135) := fun v54 v135 => decidable_of_iff' _ (Iff.of_eq (k0_chk40.eq_1 v54 v135))
theorem k0_idx79_inb : ∀ (v54 : IVec S16 32) (v135 : IVec S16 32) (k0_hw40 : k0_chk40 v54 v135), ∀ a x, ((![v54, v135] : Fin 2 → IVec S16 32) a x).toNat < S160x128.size a := fun v54 v135 k0_hw40 => k0_hw40.1
theorem k0_idx80_inb : ∀ (v54 : IVec S16 32) (v135 : IVec S16 32) (k0_hw40 : k0_chk40 v54 v135), ∀ a x, ((![v54, v135] : Fin 2 → IVec S16 32) a x).toNat < S160x128.size a := fun v54 v135 k0_hw40 => k0_hw40.2

def k0_chk41 (v54 : IVec S16 32) (v146 : IVec S16 32) : Prop :=
  (∀ a x, ((![v54, v146] : Fin 2 → IVec S16 32) a x).toNat < S160x128.size a) ∧
  (∀ a x, ((![v54, v146] : Fin 2 → IVec S16 32) a x).toNat < S160x128.size a)
instance k0_chk41.dec : ∀ (v54 : IVec S16 32) (v146 : IVec S16 32), Decidable (k0_chk41 v54 v146) := fun v54 v146 => decidable_of_iff' _ (Iff.of_eq (k0_chk41.eq_1 v54 v146))
theorem k0_idx81_inb : ∀ (v54 : IVec S16 32) (v146 : IVec S16 32) (k0_hw41 : k0_chk41 v54 v146), ∀ a x, ((![v54, v146] : Fin 2 → IVec S16 32) a x).toNat < S160x128.size a := fun v54 v146 k0_hw41 => k0_hw41.1
theorem k0_idx82_inb : ∀ (v54 : IVec S16 32) (v146 : IVec S16 32) (k0_hw41 : k0_chk41 v54 v146), ∀ a x, ((![v54, v146] : Fin 2 → IVec S16 32) a x).toNat < S160x128.size a := fun v54 v146 k0_hw41 => k0_hw41.2

def k0_chk42 (v54 : IVec S16 32) (v157 : IVec S16 32) : Prop :=
  (∀ a x, ((![v54, v157] : Fin 2 → IVec S16 32) a x).toNat < S160x128.size a) ∧
  (∀ a x, ((![v54, v157] : Fin 2 → IVec S16 32) a x).toNat < S160x128.size a)
instance k0_chk42.dec : ∀ (v54 : IVec S16 32) (v157 : IVec S16 32), Decidable (k0_chk42 v54 v157) := fun v54 v157 => decidable_of_iff' _ (Iff.of_eq (k0_chk42.eq_1 v54 v157))
theorem k0_idx83_inb : ∀ (v54 : IVec S16 32) (v157 : IVec S16 32) (k0_hw42 : k0_chk42 v54 v157), ∀ a x, ((![v54, v157] : Fin 2 → IVec S16 32) a x).toNat < S160x128.size a := fun v54 v157 k0_hw42 => k0_hw42.1
theorem k0_idx84_inb : ∀ (v54 : IVec S16 32) (v157 : IVec S16 32) (k0_hw42 : k0_chk42 v54 v157), ∀ a x, ((![v54, v157] : Fin 2 → IVec S16 32) a x).toNat < S160x128.size a := fun v54 v157 k0_hw42 => k0_hw42.2

def k0_chk43 (v54 : IVec S16 32) (v168 : IVec S16 32) : Prop :=
  (∀ a x, ((![v54, v168] : Fin 2 → IVec S16 32) a x).toNat < S160x128.size a) ∧
  (∀ a x, ((![v54, v168] : Fin 2 → IVec S16 32) a x).toNat < S160x128.size a)
instance k0_chk43.dec : ∀ (v54 : IVec S16 32) (v168 : IVec S16 32), Decidable (k0_chk43 v54 v168) := fun v54 v168 => decidable_of_iff' _ (Iff.of_eq (k0_chk43.eq_1 v54 v168))
theorem k0_idx85_inb : ∀ (v54 : IVec S16 32) (v168 : IVec S16 32) (k0_hw43 : k0_chk43 v54 v168), ∀ a x, ((![v54, v168] : Fin 2 → IVec S16 32) a x).toNat < S160x128.size a := fun v54 v168 k0_hw43 => k0_hw43.1
theorem k0_idx86_inb : ∀ (v54 : IVec S16 32) (v168 : IVec S16 32) (k0_hw43 : k0_chk43 v54 v168), ∀ a x, ((![v54, v168] : Fin 2 → IVec S16 32) a x).toNat < S160x128.size a := fun v54 v168 k0_hw43 => k0_hw43.2

def k0_chk44 (v54 : IVec S16 32) (v179 : IVec S16 32) : Prop :=
  (∀ a x, ((![v54, v179] : Fin 2 → IVec S16 32) a x).toNat < S160x128.size a) ∧
  (∀ a x, ((![v54, v179] : Fin 2 → IVec S16 32) a x).toNat < S160x128.size a)
instance k0_chk44.dec : ∀ (v54 : IVec S16 32) (v179 : IVec S16 32), Decidable (k0_chk44 v54 v179) := fun v54 v179 => decidable_of_iff' _ (Iff.of_eq (k0_chk44.eq_1 v54 v179))
theorem k0_idx87_inb : ∀ (v54 : IVec S16 32) (v179 : IVec S16 32) (k0_hw44 : k0_chk44 v54 v179), ∀ a x, ((![v54, v179] : Fin 2 → IVec S16 32) a x).toNat < S160x128.size a := fun v54 v179 k0_hw44 => k0_hw44.1
theorem k0_idx88_inb : ∀ (v54 : IVec S16 32) (v179 : IVec S16 32) (k0_hw44 : k0_chk44 v54 v179), ∀ a x, ((![v54, v179] : Fin 2 → IVec S16 32) a x).toNat < S160x128.size a := fun v54 v179 k0_hw44 => k0_hw44.2

def k0_chk45 (v54 : IVec S16 32) (v190 : IVec S16 32) : Prop :=
  (∀ a x, ((![v54, v190] : Fin 2 → IVec S16 32) a x).toNat < S160x128.size a) ∧
  (∀ a x, ((![v54, v190] : Fin 2 → IVec S16 32) a x).toNat < S160x128.size a)
instance k0_chk45.dec : ∀ (v54 : IVec S16 32) (v190 : IVec S16 32), Decidable (k0_chk45 v54 v190) := fun v54 v190 => decidable_of_iff' _ (Iff.of_eq (k0_chk45.eq_1 v54 v190))
theorem k0_idx89_inb : ∀ (v54 : IVec S16 32) (v190 : IVec S16 32) (k0_hw45 : k0_chk45 v54 v190), ∀ a x, ((![v54, v190] : Fin 2 → IVec S16 32) a x).toNat < S160x128.size a := fun v54 v190 k0_hw45 => k0_hw45.1
theorem k0_idx90_inb : ∀ (v54 : IVec S16 32) (v190 : IVec S16 32) (k0_hw45 : k0_chk45 v54 v190), ∀ a x, ((![v54, v190] : Fin 2 → IVec S16 32) a x).toNat < S160x128.size a := fun v54 v190 k0_hw45 => k0_hw45.2

def k0_chk46 (v54 : IVec S16 32) (v201 : IVec S16 32) : Prop :=
  (∀ a x, ((![v54, v201] : Fin 2 → IVec S16 32) a x).toNat < S160x128.size a) ∧
  (∀ a x, ((![v54, v201] : Fin 2 → IVec S16 32) a x).toNat < S160x128.size a)
instance k0_chk46.dec : ∀ (v54 : IVec S16 32) (v201 : IVec S16 32), Decidable (k0_chk46 v54 v201) := fun v54 v201 => decidable_of_iff' _ (Iff.of_eq (k0_chk46.eq_1 v54 v201))
theorem k0_idx91_inb : ∀ (v54 : IVec S16 32) (v201 : IVec S16 32) (k0_hw46 : k0_chk46 v54 v201), ∀ a x, ((![v54, v201] : Fin 2 → IVec S16 32) a x).toNat < S160x128.size a := fun v54 v201 k0_hw46 => k0_hw46.1
theorem k0_idx92_inb : ∀ (v54 : IVec S16 32) (v201 : IVec S16 32) (k0_hw46 : k0_chk46 v54 v201), ∀ a x, ((![v54, v201] : Fin 2 → IVec S16 32) a x).toNat < S160x128.size a := fun v54 v201 k0_hw46 => k0_hw46.2

def k0_chk47 (v54 : IVec S16 32) (v212 : IVec S16 32) : Prop :=
  (∀ a x, ((![v54, v212] : Fin 2 → IVec S16 32) a x).toNat < S160x128.size a) ∧
  (∀ a x, ((![v54, v212] : Fin 2 → IVec S16 32) a x).toNat < S160x128.size a)
instance k0_chk47.dec : ∀ (v54 : IVec S16 32) (v212 : IVec S16 32), Decidable (k0_chk47 v54 v212) := fun v54 v212 => decidable_of_iff' _ (Iff.of_eq (k0_chk47.eq_1 v54 v212))
theorem k0_idx93_inb : ∀ (v54 : IVec S16 32) (v212 : IVec S16 32) (k0_hw47 : k0_chk47 v54 v212), ∀ a x, ((![v54, v212] : Fin 2 → IVec S16 32) a x).toNat < S160x128.size a := fun v54 v212 k0_hw47 => k0_hw47.1
theorem k0_idx94_inb : ∀ (v54 : IVec S16 32) (v212 : IVec S16 32) (k0_hw47 : k0_chk47 v54 v212), ∀ a x, ((![v54, v212] : Fin 2 → IVec S16 32) a x).toNat < S160x128.size a := fun v54 v212 k0_hw47 => k0_hw47.2

def k0_chk48 (v54 : IVec S16 32) (v223 : IVec S16 32) : Prop :=
  (∀ a x, ((![v54, v223] : Fin 2 → IVec S16 32) a x).toNat < S160x128.size a) ∧
  (∀ a x, ((![v54, v223] : Fin 2 → IVec S16 32) a x).toNat < S160x128.size a)
instance k0_chk48.dec : ∀ (v54 : IVec S16 32) (v223 : IVec S16 32), Decidable (k0_chk48 v54 v223) := fun v54 v223 => decidable_of_iff' _ (Iff.of_eq (k0_chk48.eq_1 v54 v223))
theorem k0_idx95_inb : ∀ (v54 : IVec S16 32) (v223 : IVec S16 32) (k0_hw48 : k0_chk48 v54 v223), ∀ a x, ((![v54, v223] : Fin 2 → IVec S16 32) a x).toNat < S160x128.size a := fun v54 v223 k0_hw48 => k0_hw48.1
theorem k0_idx96_inb : ∀ (v54 : IVec S16 32) (v223 : IVec S16 32) (k0_hw48 : k0_chk48 v54 v223), ∀ a x, ((![v54, v223] : Fin 2 → IVec S16 32) a x).toNat < S160x128.size a := fun v54 v223 k0_hw48 => k0_hw48.2

def k0_chk49 (v54 : IVec S16 32) (v234 : IVec S16 32) : Prop :=
  (∀ a x, ((![v54, v234] : Fin 2 → IVec S16 32) a x).toNat < S160x128.size a) ∧
  (∀ a x, ((![v54, v234] : Fin 2 → IVec S16 32) a x).toNat < S160x128.size a)
instance k0_chk49.dec : ∀ (v54 : IVec S16 32) (v234 : IVec S16 32), Decidable (k0_chk49 v54 v234) := fun v54 v234 => decidable_of_iff' _ (Iff.of_eq (k0_chk49.eq_1 v54 v234))
theorem k0_idx97_inb : ∀ (v54 : IVec S16 32) (v234 : IVec S16 32) (k0_hw49 : k0_chk49 v54 v234), ∀ a x, ((![v54, v234] : Fin 2 → IVec S16 32) a x).toNat < S160x128.size a := fun v54 v234 k0_hw49 => k0_hw49.1
theorem k0_idx98_inb : ∀ (v54 : IVec S16 32) (v234 : IVec S16 32) (k0_hw49 : k0_chk49 v54 v234), ∀ a x, ((![v54, v234] : Fin 2 → IVec S16 32) a x).toNat < S160x128.size a := fun v54 v234 k0_hw49 => k0_hw49.2

def k0_chk50 (v54 : IVec S16 32) (v245 : IVec S16 32) : Prop :=
  (∀ a x, ((![v54, v245] : Fin 2 → IVec S16 32) a x).toNat < S160x128.size a) ∧
  (∀ a x, ((![v54, v245] : Fin 2 → IVec S16 32) a x).toNat < S160x128.size a)
instance k0_chk50.dec : ∀ (v54 : IVec S16 32) (v245 : IVec S16 32), Decidable (k0_chk50 v54 v245) := fun v54 v245 => decidable_of_iff' _ (Iff.of_eq (k0_chk50.eq_1 v54 v245))
theorem k0_idx99_inb : ∀ (v54 : IVec S16 32) (v245 : IVec S16 32) (k0_hw50 : k0_chk50 v54 v245), ∀ a x, ((![v54, v245] : Fin 2 → IVec S16 32) a x).toNat < S160x128.size a := fun v54 v245 k0_hw50 => k0_hw50.1
theorem k0_idx100_inb : ∀ (v54 : IVec S16 32) (v245 : IVec S16 32) (k0_hw50 : k0_chk50 v54 v245), ∀ a x, ((![v54, v245] : Fin 2 → IVec S16 32) a x).toNat < S160x128.size a := fun v54 v245 k0_hw50 => k0_hw50.2

def k0_chk51 (v54 : IVec S16 32) (v256 : IVec S16 32) : Prop :=
  (∀ a x, ((![v54, v256] : Fin 2 → IVec S16 32) a x).toNat < S160x128.size a) ∧
  (∀ a x, ((![v54, v256] : Fin 2 → IVec S16 32) a x).toNat < S160x128.size a)
instance k0_chk51.dec : ∀ (v54 : IVec S16 32) (v256 : IVec S16 32), Decidable (k0_chk51 v54 v256) := fun v54 v256 => decidable_of_iff' _ (Iff.of_eq (k0_chk51.eq_1 v54 v256))
theorem k0_idx101_inb : ∀ (v54 : IVec S16 32) (v256 : IVec S16 32) (k0_hw51 : k0_chk51 v54 v256), ∀ a x, ((![v54, v256] : Fin 2 → IVec S16 32) a x).toNat < S160x128.size a := fun v54 v256 k0_hw51 => k0_hw51.1
theorem k0_idx102_inb : ∀ (v54 : IVec S16 32) (v256 : IVec S16 32) (k0_hw51 : k0_chk51 v54 v256), ∀ a x, ((![v54, v256] : Fin 2 → IVec S16 32) a x).toNat < S160x128.size a := fun v54 v256 k0_hw51 => k0_hw51.2

def k0_chk52 (v54 : IVec S16 32) (v267 : IVec S16 32) : Prop :=
  (∀ a x, ((![v54, v267] : Fin 2 → IVec S16 32) a x).toNat < S160x128.size a) ∧
  (∀ a x, ((![v54, v267] : Fin 2 → IVec S16 32) a x).toNat < S160x128.size a)
instance k0_chk52.dec : ∀ (v54 : IVec S16 32) (v267 : IVec S16 32), Decidable (k0_chk52 v54 v267) := fun v54 v267 => decidable_of_iff' _ (Iff.of_eq (k0_chk52.eq_1 v54 v267))
theorem k0_idx103_inb : ∀ (v54 : IVec S16 32) (v267 : IVec S16 32) (k0_hw52 : k0_chk52 v54 v267), ∀ a x, ((![v54, v267] : Fin 2 → IVec S16 32) a x).toNat < S160x128.size a := fun v54 v267 k0_hw52 => k0_hw52.1
theorem k0_idx104_inb : ∀ (v54 : IVec S16 32) (v267 : IVec S16 32) (k0_hw52 : k0_chk52 v54 v267), ∀ a x, ((![v54, v267] : Fin 2 → IVec S16 32) a x).toNat < S160x128.size a := fun v54 v267 k0_hw52 => k0_hw52.2

def k0_chk53 (v54 : IVec S16 32) (v278 : IVec S16 32) : Prop :=
  (∀ a x, ((![v54, v278] : Fin 2 → IVec S16 32) a x).toNat < S160x128.size a) ∧
  (∀ a x, ((![v54, v278] : Fin 2 → IVec S16 32) a x).toNat < S160x128.size a)
instance k0_chk53.dec : ∀ (v54 : IVec S16 32) (v278 : IVec S16 32), Decidable (k0_chk53 v54 v278) := fun v54 v278 => decidable_of_iff' _ (Iff.of_eq (k0_chk53.eq_1 v54 v278))
theorem k0_idx105_inb : ∀ (v54 : IVec S16 32) (v278 : IVec S16 32) (k0_hw53 : k0_chk53 v54 v278), ∀ a x, ((![v54, v278] : Fin 2 → IVec S16 32) a x).toNat < S160x128.size a := fun v54 v278 k0_hw53 => k0_hw53.1
theorem k0_idx106_inb : ∀ (v54 : IVec S16 32) (v278 : IVec S16 32) (k0_hw53 : k0_chk53 v54 v278), ∀ a x, ((![v54, v278] : Fin 2 → IVec S16 32) a x).toNat < S160x128.size a := fun v54 v278 k0_hw53 => k0_hw53.2

def k0_chk54 (v54 : IVec S16 32) (v289 : IVec S16 32) : Prop :=
  (∀ a x, ((![v54, v289] : Fin 2 → IVec S16 32) a x).toNat < S160x128.size a) ∧
  (∀ a x, ((![v54, v289] : Fin 2 → IVec S16 32) a x).toNat < S160x128.size a)
instance k0_chk54.dec : ∀ (v54 : IVec S16 32) (v289 : IVec S16 32), Decidable (k0_chk54 v54 v289) := fun v54 v289 => decidable_of_iff' _ (Iff.of_eq (k0_chk54.eq_1 v54 v289))
theorem k0_idx107_inb : ∀ (v54 : IVec S16 32) (v289 : IVec S16 32) (k0_hw54 : k0_chk54 v54 v289), ∀ a x, ((![v54, v289] : Fin 2 → IVec S16 32) a x).toNat < S160x128.size a := fun v54 v289 k0_hw54 => k0_hw54.1
theorem k0_idx108_inb : ∀ (v54 : IVec S16 32) (v289 : IVec S16 32) (k0_hw54 : k0_chk54 v54 v289), ∀ a x, ((![v54, v289] : Fin 2 → IVec S16 32) a x).toNat < S160x128.size a := fun v54 v289 k0_hw54 => k0_hw54.2

def k0_chk55 (v54 : IVec S16 32) (v300 : IVec S16 32) : Prop :=
  (∀ a x, ((![v54, v300] : Fin 2 → IVec S16 32) a x).toNat < S160x128.size a) ∧
  (∀ a x, ((![v54, v300] : Fin 2 → IVec S16 32) a x).toNat < S160x128.size a)
instance k0_chk55.dec : ∀ (v54 : IVec S16 32) (v300 : IVec S16 32), Decidable (k0_chk55 v54 v300) := fun v54 v300 => decidable_of_iff' _ (Iff.of_eq (k0_chk55.eq_1 v54 v300))
theorem k0_idx109_inb : ∀ (v54 : IVec S16 32) (v300 : IVec S16 32) (k0_hw55 : k0_chk55 v54 v300), ∀ a x, ((![v54, v300] : Fin 2 → IVec S16 32) a x).toNat < S160x128.size a := fun v54 v300 k0_hw55 => k0_hw55.1
theorem k0_idx110_inb : ∀ (v54 : IVec S16 32) (v300 : IVec S16 32) (k0_hw55 : k0_chk55 v54 v300), ∀ a x, ((![v54, v300] : Fin 2 → IVec S16 32) a x).toNat < S160x128.size a := fun v54 v300 k0_hw55 => k0_hw55.2

def k0_chk56 (v54 : IVec S16 32) (v311 : IVec S16 32) : Prop :=
  (∀ a x, ((![v54, v311] : Fin 2 → IVec S16 32) a x).toNat < S160x128.size a) ∧
  (∀ a x, ((![v54, v311] : Fin 2 → IVec S16 32) a x).toNat < S160x128.size a)
instance k0_chk56.dec : ∀ (v54 : IVec S16 32) (v311 : IVec S16 32), Decidable (k0_chk56 v54 v311) := fun v54 v311 => decidable_of_iff' _ (Iff.of_eq (k0_chk56.eq_1 v54 v311))
theorem k0_idx111_inb : ∀ (v54 : IVec S16 32) (v311 : IVec S16 32) (k0_hw56 : k0_chk56 v54 v311), ∀ a x, ((![v54, v311] : Fin 2 → IVec S16 32) a x).toNat < S160x128.size a := fun v54 v311 k0_hw56 => k0_hw56.1
theorem k0_idx112_inb : ∀ (v54 : IVec S16 32) (v311 : IVec S16 32) (k0_hw56 : k0_chk56 v54 v311), ∀ a x, ((![v54, v311] : Fin 2 → IVec S16 32) a x).toNat < S160x128.size a := fun v54 v311 k0_hw56 => k0_hw56.2

def k0_chk57 (v54 : IVec S16 32) (v322 : IVec S16 32) : Prop :=
  (∀ a x, ((![v54, v322] : Fin 2 → IVec S16 32) a x).toNat < S160x128.size a) ∧
  (∀ a x, ((![v54, v322] : Fin 2 → IVec S16 32) a x).toNat < S160x128.size a)
instance k0_chk57.dec : ∀ (v54 : IVec S16 32) (v322 : IVec S16 32), Decidable (k0_chk57 v54 v322) := fun v54 v322 => decidable_of_iff' _ (Iff.of_eq (k0_chk57.eq_1 v54 v322))
theorem k0_idx113_inb : ∀ (v54 : IVec S16 32) (v322 : IVec S16 32) (k0_hw57 : k0_chk57 v54 v322), ∀ a x, ((![v54, v322] : Fin 2 → IVec S16 32) a x).toNat < S160x128.size a := fun v54 v322 k0_hw57 => k0_hw57.1
theorem k0_idx114_inb : ∀ (v54 : IVec S16 32) (v322 : IVec S16 32) (k0_hw57 : k0_chk57 v54 v322), ∀ a x, ((![v54, v322] : Fin 2 → IVec S16 32) a x).toNat < S160x128.size a := fun v54 v322 k0_hw57 => k0_hw57.2

def k0_chk58 (v54 : IVec S16 32) (v333 : IVec S16 32) : Prop :=
  (∀ a x, ((![v54, v333] : Fin 2 → IVec S16 32) a x).toNat < S160x128.size a) ∧
  (∀ a x, ((![v54, v333] : Fin 2 → IVec S16 32) a x).toNat < S160x128.size a)
instance k0_chk58.dec : ∀ (v54 : IVec S16 32) (v333 : IVec S16 32), Decidable (k0_chk58 v54 v333) := fun v54 v333 => decidable_of_iff' _ (Iff.of_eq (k0_chk58.eq_1 v54 v333))
theorem k0_idx115_inb : ∀ (v54 : IVec S16 32) (v333 : IVec S16 32) (k0_hw58 : k0_chk58 v54 v333), ∀ a x, ((![v54, v333] : Fin 2 → IVec S16 32) a x).toNat < S160x128.size a := fun v54 v333 k0_hw58 => k0_hw58.1
theorem k0_idx116_inb : ∀ (v54 : IVec S16 32) (v333 : IVec S16 32) (k0_hw58 : k0_chk58 v54 v333), ∀ a x, ((![v54, v333] : Fin 2 → IVec S16 32) a x).toNat < S160x128.size a := fun v54 v333 k0_hw58 => k0_hw58.2

def k0_chk59 (v54 : IVec S16 32) (v344 : IVec S16 32) : Prop :=
  (∀ a x, ((![v54, v344] : Fin 2 → IVec S16 32) a x).toNat < S160x128.size a) ∧
  (∀ a x, ((![v54, v344] : Fin 2 → IVec S16 32) a x).toNat < S160x128.size a)
instance k0_chk59.dec : ∀ (v54 : IVec S16 32) (v344 : IVec S16 32), Decidable (k0_chk59 v54 v344) := fun v54 v344 => decidable_of_iff' _ (Iff.of_eq (k0_chk59.eq_1 v54 v344))
theorem k0_idx117_inb : ∀ (v54 : IVec S16 32) (v344 : IVec S16 32) (k0_hw59 : k0_chk59 v54 v344), ∀ a x, ((![v54, v344] : Fin 2 → IVec S16 32) a x).toNat < S160x128.size a := fun v54 v344 k0_hw59 => k0_hw59.1
theorem k0_idx118_inb : ∀ (v54 : IVec S16 32) (v344 : IVec S16 32) (k0_hw59 : k0_chk59 v54 v344), ∀ a x, ((![v54, v344] : Fin 2 → IVec S16 32) a x).toNat < S160x128.size a := fun v54 v344 k0_hw59 => k0_hw59.2

def k0_chk60 (v54 : IVec S16 32) (v355 : IVec S16 32) : Prop :=
  (∀ a x, ((![v54, v355] : Fin 2 → IVec S16 32) a x).toNat < S160x128.size a) ∧
  (∀ a x, ((![v54, v355] : Fin 2 → IVec S16 32) a x).toNat < S160x128.size a)
instance k0_chk60.dec : ∀ (v54 : IVec S16 32) (v355 : IVec S16 32), Decidable (k0_chk60 v54 v355) := fun v54 v355 => decidable_of_iff' _ (Iff.of_eq (k0_chk60.eq_1 v54 v355))
theorem k0_idx119_inb : ∀ (v54 : IVec S16 32) (v355 : IVec S16 32) (k0_hw60 : k0_chk60 v54 v355), ∀ a x, ((![v54, v355] : Fin 2 → IVec S16 32) a x).toNat < S160x128.size a := fun v54 v355 k0_hw60 => k0_hw60.1
theorem k0_idx120_inb : ∀ (v54 : IVec S16 32) (v355 : IVec S16 32) (k0_hw60 : k0_chk60 v54 v355), ∀ a x, ((![v54, v355] : Fin 2 → IVec S16 32) a x).toNat < S160x128.size a := fun v54 v355 k0_hw60 => k0_hw60.2

def k0_chk61 (v54 : IVec S16 32) (v366 : IVec S16 32) : Prop :=
  (∀ a x, ((![v54, v366] : Fin 2 → IVec S16 32) a x).toNat < S160x128.size a) ∧
  (∀ a x, ((![v54, v366] : Fin 2 → IVec S16 32) a x).toNat < S160x128.size a)
instance k0_chk61.dec : ∀ (v54 : IVec S16 32) (v366 : IVec S16 32), Decidable (k0_chk61 v54 v366) := fun v54 v366 => decidable_of_iff' _ (Iff.of_eq (k0_chk61.eq_1 v54 v366))
theorem k0_idx121_inb : ∀ (v54 : IVec S16 32) (v366 : IVec S16 32) (k0_hw61 : k0_chk61 v54 v366), ∀ a x, ((![v54, v366] : Fin 2 → IVec S16 32) a x).toNat < S160x128.size a := fun v54 v366 k0_hw61 => k0_hw61.1
theorem k0_idx122_inb : ∀ (v54 : IVec S16 32) (v366 : IVec S16 32) (k0_hw61 : k0_chk61 v54 v366), ∀ a x, ((![v54, v366] : Fin 2 → IVec S16 32) a x).toNat < S160x128.size a := fun v54 v366 k0_hw61 => k0_hw61.2

def k0_chk62 (v54 : IVec S16 32) (v377 : IVec S16 32) : Prop :=
  (∀ a x, ((![v54, v377] : Fin 2 → IVec S16 32) a x).toNat < S160x128.size a) ∧
  (∀ a x, ((![v54, v377] : Fin 2 → IVec S16 32) a x).toNat < S160x128.size a)
instance k0_chk62.dec : ∀ (v54 : IVec S16 32) (v377 : IVec S16 32), Decidable (k0_chk62 v54 v377) := fun v54 v377 => decidable_of_iff' _ (Iff.of_eq (k0_chk62.eq_1 v54 v377))
theorem k0_idx123_inb : ∀ (v54 : IVec S16 32) (v377 : IVec S16 32) (k0_hw62 : k0_chk62 v54 v377), ∀ a x, ((![v54, v377] : Fin 2 → IVec S16 32) a x).toNat < S160x128.size a := fun v54 v377 k0_hw62 => k0_hw62.1
theorem k0_idx124_inb : ∀ (v54 : IVec S16 32) (v377 : IVec S16 32) (k0_hw62 : k0_chk62 v54 v377), ∀ a x, ((![v54, v377] : Fin 2 → IVec S16 32) a x).toNat < S160x128.size a := fun v54 v377 k0_hw62 => k0_hw62.2

def k0_chk63 (v54 : IVec S16 32) (v388 : IVec S16 32) : Prop :=
  (∀ a x, ((![v54, v388] : Fin 2 → IVec S16 32) a x).toNat < S160x128.size a) ∧
  (∀ a x, ((![v54, v388] : Fin 2 → IVec S16 32) a x).toNat < S160x128.size a)
instance k0_chk63.dec : ∀ (v54 : IVec S16 32) (v388 : IVec S16 32), Decidable (k0_chk63 v54 v388) := fun v54 v388 => decidable_of_iff' _ (Iff.of_eq (k0_chk63.eq_1 v54 v388))
theorem k0_idx125_inb : ∀ (v54 : IVec S16 32) (v388 : IVec S16 32) (k0_hw63 : k0_chk63 v54 v388), ∀ a x, ((![v54, v388] : Fin 2 → IVec S16 32) a x).toNat < S160x128.size a := fun v54 v388 k0_hw63 => k0_hw63.1
theorem k0_idx126_inb : ∀ (v54 : IVec S16 32) (v388 : IVec S16 32) (k0_hw63 : k0_chk63 v54 v388), ∀ a x, ((![v54, v388] : Fin 2 → IVec S16 32) a x).toNat < S160x128.size a := fun v54 v388 k0_hw63 => k0_hw63.2

def k0_chk64 (v54 : IVec S16 32) (v399 : IVec S16 32) : Prop :=
  (∀ a x, ((![v54, v399] : Fin 2 → IVec S16 32) a x).toNat < S160x128.size a) ∧
  (∀ a x, ((![v54, v399] : Fin 2 → IVec S16 32) a x).toNat < S160x128.size a)
instance k0_chk64.dec : ∀ (v54 : IVec S16 32) (v399 : IVec S16 32), Decidable (k0_chk64 v54 v399) := fun v54 v399 => decidable_of_iff' _ (Iff.of_eq (k0_chk64.eq_1 v54 v399))
theorem k0_idx127_inb : ∀ (v54 : IVec S16 32) (v399 : IVec S16 32) (k0_hw64 : k0_chk64 v54 v399), ∀ a x, ((![v54, v399] : Fin 2 → IVec S16 32) a x).toNat < S160x128.size a := fun v54 v399 k0_hw64 => k0_hw64.1
theorem k0_idx128_inb : ∀ (v54 : IVec S16 32) (v399 : IVec S16 32) (k0_hw64 : k0_chk64 v54 v399), ∀ a x, ((![v54, v399] : Fin 2 → IVec S16 32) a x).toNat < S160x128.size a := fun v54 v399 k0_hw64 => k0_hw64.2

def k0_chk65 (v54 : IVec S16 32) (v410 : IVec S16 32) : Prop :=
  (∀ a x, ((![v54, v410] : Fin 2 → IVec S16 32) a x).toNat < S160x128.size a) ∧
  (∀ a x, ((![v54, v410] : Fin 2 → IVec S16 32) a x).toNat < S160x128.size a)
instance k0_chk65.dec : ∀ (v54 : IVec S16 32) (v410 : IVec S16 32), Decidable (k0_chk65 v54 v410) := fun v54 v410 => decidable_of_iff' _ (Iff.of_eq (k0_chk65.eq_1 v54 v410))
theorem k0_idx129_inb : ∀ (v54 : IVec S16 32) (v410 : IVec S16 32) (k0_hw65 : k0_chk65 v54 v410), ∀ a x, ((![v54, v410] : Fin 2 → IVec S16 32) a x).toNat < S160x128.size a := fun v54 v410 k0_hw65 => k0_hw65.1
theorem k0_idx130_inb : ∀ (v54 : IVec S16 32) (v410 : IVec S16 32) (k0_hw65 : k0_chk65 v54 v410), ∀ a x, ((![v54, v410] : Fin 2 → IVec S16 32) a x).toNat < S160x128.size a := fun v54 v410 k0_hw65 => k0_hw65.2

def k0_chk66 (v4 : IVec S16 32) (v48 : IVec S16 32) : Prop :=
  (∀ a x, ((![v48, v4] : Fin 2 → IVec S16 32) a x).toNat < S64x16.size a) ∧
  (∀ a x, ((![v48, v4] : Fin 2 → IVec S16 32) a x).toNat < S64x16.size a)
instance k0_chk66.dec : ∀ (v4 : IVec S16 32) (v48 : IVec S16 32), Decidable (k0_chk66 v4 v48) := fun v4 v48 => decidable_of_iff' _ (Iff.of_eq (k0_chk66.eq_1 v4 v48))
theorem k0_idx131_inb : ∀ (v4 : IVec S16 32) (v48 : IVec S16 32) (k0_hw66 : k0_chk66 v4 v48), ∀ a x, ((![v48, v4] : Fin 2 → IVec S16 32) a x).toNat < S64x16.size a := fun v4 v48 k0_hw66 => k0_hw66.1
theorem k0_idx132_inb : ∀ (v4 : IVec S16 32) (v48 : IVec S16 32) (k0_hw66 : k0_chk66 v4 v48), ∀ a x, ((![v48, v4] : Fin 2 → IVec S16 32) a x).toNat < S64x16.size a := fun v4 v48 k0_hw66 => k0_hw66.2
@[reducible] def k0_t7_loop : Scf.Loop 32 :=
  let c0_i32_20 : BitVec 32 := 0#32
  let c10_i32 : BitVec 32 := 10#32
  let v17 : BitVec 32 := Scalar.addi c0_i32_20 c10_i32
  let c1_i32_21 : BitVec 32 := 1#32
  ⟨c0_i32_20, v17, c1_i32_21⟩
def k0_off8 (k0_t7 : Fin k0_t7_loop.trips) : Fin 1 → Nat :=
  let c340_i32 : BitVec 32 := 340#32
  let c0_i32_20 : BitVec 32 := 0#32
  let c1_i32_21 : BitVec 32 := 1#32
  let arg20 : BitVec 32 := Scf.iv c0_i32_20 c1_i32_21 k0_t7
  let v18 : BitVec 32 := Scalar.addi c340_i32 arg20
  let c16_i32_23 : BitVec 32 := 16#32
  let v19 : BitVec 32 := Scalar.muli v18 c16_i32_23
  let v20 : Index := Scalar.indexCast v19
  ![v20.toNat]
@[reducible] def k0_t8_loop : Scf.Loop 32 :=
  let c0_i32_26 : BitVec 32 := 0#32
  let c4_i32 : BitVec 32 := 4#32
  let v28 : BitVec 32 := Scalar.addi c0_i32_26 c4_i32
  let c1_i32_27 : BitVec 32 := 1#32
  ⟨c0_i32_26, v28, c1_i32_27⟩

def k0_chk67 (v27 : IVec S16 32) (v42 : IVec S16 32) : Prop :=
  (∀ a x, ((![v27, v42] : Fin 2 → IVec S16 32) a x).toNat < S160x128.size a) ∧
  (∀ a x, ((![v27, v42] : Fin 2 → IVec S16 32) a x).toNat < S160x128.size a)
instance k0_chk67.dec : ∀ (v27 : IVec S16 32) (v42 : IVec S16 32), Decidable (k0_chk67 v27 v42) := fun v27 v42 => decidable_of_iff' _ (Iff.of_eq (k0_chk67.eq_1 v27 v42))
theorem k0_idx133_inb : ∀ (v27 : IVec S16 32) (v42 : IVec S16 32) (k0_hw67 : k0_chk67 v27 v42), ∀ a x, ((![v27, v42] : Fin 2 → IVec S16 32) a x).toNat < S160x128.size a := fun v27 v42 k0_hw67 => k0_hw67.1
theorem k0_idx134_inb : ∀ (v27 : IVec S16 32) (v42 : IVec S16 32) (k0_hw67 : k0_chk67 v27 v42), ∀ a x, ((![v27, v42] : Fin 2 → IVec S16 32) a x).toNat < S160x128.size a := fun v27 v42 k0_hw67 => k0_hw67.2

def k0_chk68 (v27 : IVec S16 32) (v53 : IVec S16 32) : Prop :=
  (∀ a x, ((![v27, v53] : Fin 2 → IVec S16 32) a x).toNat < S160x128.size a) ∧
  (∀ a x, ((![v27, v53] : Fin 2 → IVec S16 32) a x).toNat < S160x128.size a)
instance k0_chk68.dec : ∀ (v27 : IVec S16 32) (v53 : IVec S16 32), Decidable (k0_chk68 v27 v53) := fun v27 v53 => decidable_of_iff' _ (Iff.of_eq (k0_chk68.eq_1 v27 v53))
theorem k0_idx135_inb : ∀ (v27 : IVec S16 32) (v53 : IVec S16 32) (k0_hw68 : k0_chk68 v27 v53), ∀ a x, ((![v27, v53] : Fin 2 → IVec S16 32) a x).toNat < S160x128.size a := fun v27 v53 k0_hw68 => k0_hw68.1
theorem k0_idx136_inb : ∀ (v27 : IVec S16 32) (v53 : IVec S16 32) (k0_hw68 : k0_chk68 v27 v53), ∀ a x, ((![v27, v53] : Fin 2 → IVec S16 32) a x).toNat < S160x128.size a := fun v27 v53 k0_hw68 => k0_hw68.2

def k0_chk69 (v27 : IVec S16 32) (v64 : IVec S16 32) : Prop :=
  (∀ a x, ((![v27, v64] : Fin 2 → IVec S16 32) a x).toNat < S160x128.size a) ∧
  (∀ a x, ((![v27, v64] : Fin 2 → IVec S16 32) a x).toNat < S160x128.size a)
instance k0_chk69.dec : ∀ (v27 : IVec S16 32) (v64 : IVec S16 32), Decidable (k0_chk69 v27 v64) := fun v27 v64 => decidable_of_iff' _ (Iff.of_eq (k0_chk69.eq_1 v27 v64))
theorem k0_idx137_inb : ∀ (v27 : IVec S16 32) (v64 : IVec S16 32) (k0_hw69 : k0_chk69 v27 v64), ∀ a x, ((![v27, v64] : Fin 2 → IVec S16 32) a x).toNat < S160x128.size a := fun v27 v64 k0_hw69 => k0_hw69.1
theorem k0_idx138_inb : ∀ (v27 : IVec S16 32) (v64 : IVec S16 32) (k0_hw69 : k0_chk69 v27 v64), ∀ a x, ((![v27, v64] : Fin 2 → IVec S16 32) a x).toNat < S160x128.size a := fun v27 v64 k0_hw69 => k0_hw69.2

def k0_chk70 (v27 : IVec S16 32) (v75 : IVec S16 32) : Prop :=
  (∀ a x, ((![v27, v75] : Fin 2 → IVec S16 32) a x).toNat < S160x128.size a) ∧
  (∀ a x, ((![v27, v75] : Fin 2 → IVec S16 32) a x).toNat < S160x128.size a)
instance k0_chk70.dec : ∀ (v27 : IVec S16 32) (v75 : IVec S16 32), Decidable (k0_chk70 v27 v75) := fun v27 v75 => decidable_of_iff' _ (Iff.of_eq (k0_chk70.eq_1 v27 v75))
theorem k0_idx139_inb : ∀ (v27 : IVec S16 32) (v75 : IVec S16 32) (k0_hw70 : k0_chk70 v27 v75), ∀ a x, ((![v27, v75] : Fin 2 → IVec S16 32) a x).toNat < S160x128.size a := fun v27 v75 k0_hw70 => k0_hw70.1
theorem k0_idx140_inb : ∀ (v27 : IVec S16 32) (v75 : IVec S16 32) (k0_hw70 : k0_chk70 v27 v75), ∀ a x, ((![v27, v75] : Fin 2 → IVec S16 32) a x).toNat < S160x128.size a := fun v27 v75 k0_hw70 => k0_hw70.2

def k0_chk71 (v27 : IVec S16 32) (v86 : IVec S16 32) : Prop :=
  (∀ a x, ((![v27, v86] : Fin 2 → IVec S16 32) a x).toNat < S160x128.size a) ∧
  (∀ a x, ((![v27, v86] : Fin 2 → IVec S16 32) a x).toNat < S160x128.size a)
instance k0_chk71.dec : ∀ (v27 : IVec S16 32) (v86 : IVec S16 32), Decidable (k0_chk71 v27 v86) := fun v27 v86 => decidable_of_iff' _ (Iff.of_eq (k0_chk71.eq_1 v27 v86))
theorem k0_idx141_inb : ∀ (v27 : IVec S16 32) (v86 : IVec S16 32) (k0_hw71 : k0_chk71 v27 v86), ∀ a x, ((![v27, v86] : Fin 2 → IVec S16 32) a x).toNat < S160x128.size a := fun v27 v86 k0_hw71 => k0_hw71.1
theorem k0_idx142_inb : ∀ (v27 : IVec S16 32) (v86 : IVec S16 32) (k0_hw71 : k0_chk71 v27 v86), ∀ a x, ((![v27, v86] : Fin 2 → IVec S16 32) a x).toNat < S160x128.size a := fun v27 v86 k0_hw71 => k0_hw71.2

def k0_chk72 (v27 : IVec S16 32) (v97 : IVec S16 32) : Prop :=
  (∀ a x, ((![v27, v97] : Fin 2 → IVec S16 32) a x).toNat < S160x128.size a) ∧
  (∀ a x, ((![v27, v97] : Fin 2 → IVec S16 32) a x).toNat < S160x128.size a)
instance k0_chk72.dec : ∀ (v27 : IVec S16 32) (v97 : IVec S16 32), Decidable (k0_chk72 v27 v97) := fun v27 v97 => decidable_of_iff' _ (Iff.of_eq (k0_chk72.eq_1 v27 v97))
theorem k0_idx143_inb : ∀ (v27 : IVec S16 32) (v97 : IVec S16 32) (k0_hw72 : k0_chk72 v27 v97), ∀ a x, ((![v27, v97] : Fin 2 → IVec S16 32) a x).toNat < S160x128.size a := fun v27 v97 k0_hw72 => k0_hw72.1
theorem k0_idx144_inb : ∀ (v27 : IVec S16 32) (v97 : IVec S16 32) (k0_hw72 : k0_chk72 v27 v97), ∀ a x, ((![v27, v97] : Fin 2 → IVec S16 32) a x).toNat < S160x128.size a := fun v27 v97 k0_hw72 => k0_hw72.2

def k0_chk73 (v27 : IVec S16 32) (v108 : IVec S16 32) : Prop :=
  (∀ a x, ((![v27, v108] : Fin 2 → IVec S16 32) a x).toNat < S160x128.size a) ∧
  (∀ a x, ((![v27, v108] : Fin 2 → IVec S16 32) a x).toNat < S160x128.size a)
instance k0_chk73.dec : ∀ (v27 : IVec S16 32) (v108 : IVec S16 32), Decidable (k0_chk73 v27 v108) := fun v27 v108 => decidable_of_iff' _ (Iff.of_eq (k0_chk73.eq_1 v27 v108))
theorem k0_idx145_inb : ∀ (v27 : IVec S16 32) (v108 : IVec S16 32) (k0_hw73 : k0_chk73 v27 v108), ∀ a x, ((![v27, v108] : Fin 2 → IVec S16 32) a x).toNat < S160x128.size a := fun v27 v108 k0_hw73 => k0_hw73.1
theorem k0_idx146_inb : ∀ (v27 : IVec S16 32) (v108 : IVec S16 32) (k0_hw73 : k0_chk73 v27 v108), ∀ a x, ((![v27, v108] : Fin 2 → IVec S16 32) a x).toNat < S160x128.size a := fun v27 v108 k0_hw73 => k0_hw73.2

def k0_chk74 (v27 : IVec S16 32) (v119 : IVec S16 32) : Prop :=
  (∀ a x, ((![v27, v119] : Fin 2 → IVec S16 32) a x).toNat < S160x128.size a) ∧
  (∀ a x, ((![v27, v119] : Fin 2 → IVec S16 32) a x).toNat < S160x128.size a)
instance k0_chk74.dec : ∀ (v27 : IVec S16 32) (v119 : IVec S16 32), Decidable (k0_chk74 v27 v119) := fun v27 v119 => decidable_of_iff' _ (Iff.of_eq (k0_chk74.eq_1 v27 v119))
theorem k0_idx147_inb : ∀ (v27 : IVec S16 32) (v119 : IVec S16 32) (k0_hw74 : k0_chk74 v27 v119), ∀ a x, ((![v27, v119] : Fin 2 → IVec S16 32) a x).toNat < S160x128.size a := fun v27 v119 k0_hw74 => k0_hw74.1
theorem k0_idx148_inb : ∀ (v27 : IVec S16 32) (v119 : IVec S16 32) (k0_hw74 : k0_chk74 v27 v119), ∀ a x, ((![v27, v119] : Fin 2 → IVec S16 32) a x).toNat < S160x128.size a := fun v27 v119 k0_hw74 => k0_hw74.2

def k0_chk75 (v27 : IVec S16 32) (v130 : IVec S16 32) : Prop :=
  (∀ a x, ((![v27, v130] : Fin 2 → IVec S16 32) a x).toNat < S160x128.size a) ∧
  (∀ a x, ((![v27, v130] : Fin 2 → IVec S16 32) a x).toNat < S160x128.size a)
instance k0_chk75.dec : ∀ (v27 : IVec S16 32) (v130 : IVec S16 32), Decidable (k0_chk75 v27 v130) := fun v27 v130 => decidable_of_iff' _ (Iff.of_eq (k0_chk75.eq_1 v27 v130))
theorem k0_idx149_inb : ∀ (v27 : IVec S16 32) (v130 : IVec S16 32) (k0_hw75 : k0_chk75 v27 v130), ∀ a x, ((![v27, v130] : Fin 2 → IVec S16 32) a x).toNat < S160x128.size a := fun v27 v130 k0_hw75 => k0_hw75.1
theorem k0_idx150_inb : ∀ (v27 : IVec S16 32) (v130 : IVec S16 32) (k0_hw75 : k0_chk75 v27 v130), ∀ a x, ((![v27, v130] : Fin 2 → IVec S16 32) a x).toNat < S160x128.size a := fun v27 v130 k0_hw75 => k0_hw75.2

def k0_chk76 (v27 : IVec S16 32) (v141 : IVec S16 32) : Prop :=
  (∀ a x, ((![v27, v141] : Fin 2 → IVec S16 32) a x).toNat < S160x128.size a) ∧
  (∀ a x, ((![v27, v141] : Fin 2 → IVec S16 32) a x).toNat < S160x128.size a)
instance k0_chk76.dec : ∀ (v27 : IVec S16 32) (v141 : IVec S16 32), Decidable (k0_chk76 v27 v141) := fun v27 v141 => decidable_of_iff' _ (Iff.of_eq (k0_chk76.eq_1 v27 v141))
theorem k0_idx151_inb : ∀ (v27 : IVec S16 32) (v141 : IVec S16 32) (k0_hw76 : k0_chk76 v27 v141), ∀ a x, ((![v27, v141] : Fin 2 → IVec S16 32) a x).toNat < S160x128.size a := fun v27 v141 k0_hw76 => k0_hw76.1
theorem k0_idx152_inb : ∀ (v27 : IVec S16 32) (v141 : IVec S16 32) (k0_hw76 : k0_chk76 v27 v141), ∀ a x, ((![v27, v141] : Fin 2 → IVec S16 32) a x).toNat < S160x128.size a := fun v27 v141 k0_hw76 => k0_hw76.2

def k0_chk77 (v27 : IVec S16 32) (v152 : IVec S16 32) : Prop :=
  (∀ a x, ((![v27, v152] : Fin 2 → IVec S16 32) a x).toNat < S160x128.size a) ∧
  (∀ a x, ((![v27, v152] : Fin 2 → IVec S16 32) a x).toNat < S160x128.size a)
instance k0_chk77.dec : ∀ (v27 : IVec S16 32) (v152 : IVec S16 32), Decidable (k0_chk77 v27 v152) := fun v27 v152 => decidable_of_iff' _ (Iff.of_eq (k0_chk77.eq_1 v27 v152))
theorem k0_idx153_inb : ∀ (v27 : IVec S16 32) (v152 : IVec S16 32) (k0_hw77 : k0_chk77 v27 v152), ∀ a x, ((![v27, v152] : Fin 2 → IVec S16 32) a x).toNat < S160x128.size a := fun v27 v152 k0_hw77 => k0_hw77.1
theorem k0_idx154_inb : ∀ (v27 : IVec S16 32) (v152 : IVec S16 32) (k0_hw77 : k0_chk77 v27 v152), ∀ a x, ((![v27, v152] : Fin 2 → IVec S16 32) a x).toNat < S160x128.size a := fun v27 v152 k0_hw77 => k0_hw77.2

def k0_chk78 (v27 : IVec S16 32) (v163 : IVec S16 32) : Prop :=
  (∀ a x, ((![v27, v163] : Fin 2 → IVec S16 32) a x).toNat < S160x128.size a) ∧
  (∀ a x, ((![v27, v163] : Fin 2 → IVec S16 32) a x).toNat < S160x128.size a)
instance k0_chk78.dec : ∀ (v27 : IVec S16 32) (v163 : IVec S16 32), Decidable (k0_chk78 v27 v163) := fun v27 v163 => decidable_of_iff' _ (Iff.of_eq (k0_chk78.eq_1 v27 v163))
theorem k0_idx155_inb : ∀ (v27 : IVec S16 32) (v163 : IVec S16 32) (k0_hw78 : k0_chk78 v27 v163), ∀ a x, ((![v27, v163] : Fin 2 → IVec S16 32) a x).toNat < S160x128.size a := fun v27 v163 k0_hw78 => k0_hw78.1
theorem k0_idx156_inb : ∀ (v27 : IVec S16 32) (v163 : IVec S16 32) (k0_hw78 : k0_chk78 v27 v163), ∀ a x, ((![v27, v163] : Fin 2 → IVec S16 32) a x).toNat < S160x128.size a := fun v27 v163 k0_hw78 => k0_hw78.2

def k0_chk79 (v27 : IVec S16 32) (v174 : IVec S16 32) : Prop :=
  (∀ a x, ((![v27, v174] : Fin 2 → IVec S16 32) a x).toNat < S160x128.size a) ∧
  (∀ a x, ((![v27, v174] : Fin 2 → IVec S16 32) a x).toNat < S160x128.size a)
instance k0_chk79.dec : ∀ (v27 : IVec S16 32) (v174 : IVec S16 32), Decidable (k0_chk79 v27 v174) := fun v27 v174 => decidable_of_iff' _ (Iff.of_eq (k0_chk79.eq_1 v27 v174))
theorem k0_idx157_inb : ∀ (v27 : IVec S16 32) (v174 : IVec S16 32) (k0_hw79 : k0_chk79 v27 v174), ∀ a x, ((![v27, v174] : Fin 2 → IVec S16 32) a x).toNat < S160x128.size a := fun v27 v174 k0_hw79 => k0_hw79.1
theorem k0_idx158_inb : ∀ (v27 : IVec S16 32) (v174 : IVec S16 32) (k0_hw79 : k0_chk79 v27 v174), ∀ a x, ((![v27, v174] : Fin 2 → IVec S16 32) a x).toNat < S160x128.size a := fun v27 v174 k0_hw79 => k0_hw79.2

def k0_chk80 (v27 : IVec S16 32) (v185 : IVec S16 32) : Prop :=
  (∀ a x, ((![v27, v185] : Fin 2 → IVec S16 32) a x).toNat < S160x128.size a) ∧
  (∀ a x, ((![v27, v185] : Fin 2 → IVec S16 32) a x).toNat < S160x128.size a)
instance k0_chk80.dec : ∀ (v27 : IVec S16 32) (v185 : IVec S16 32), Decidable (k0_chk80 v27 v185) := fun v27 v185 => decidable_of_iff' _ (Iff.of_eq (k0_chk80.eq_1 v27 v185))
theorem k0_idx159_inb : ∀ (v27 : IVec S16 32) (v185 : IVec S16 32) (k0_hw80 : k0_chk80 v27 v185), ∀ a x, ((![v27, v185] : Fin 2 → IVec S16 32) a x).toNat < S160x128.size a := fun v27 v185 k0_hw80 => k0_hw80.1
theorem k0_idx160_inb : ∀ (v27 : IVec S16 32) (v185 : IVec S16 32) (k0_hw80 : k0_chk80 v27 v185), ∀ a x, ((![v27, v185] : Fin 2 → IVec S16 32) a x).toNat < S160x128.size a := fun v27 v185 k0_hw80 => k0_hw80.2

def k0_chk81 (v27 : IVec S16 32) (v196 : IVec S16 32) : Prop :=
  (∀ a x, ((![v27, v196] : Fin 2 → IVec S16 32) a x).toNat < S160x128.size a) ∧
  (∀ a x, ((![v27, v196] : Fin 2 → IVec S16 32) a x).toNat < S160x128.size a)
instance k0_chk81.dec : ∀ (v27 : IVec S16 32) (v196 : IVec S16 32), Decidable (k0_chk81 v27 v196) := fun v27 v196 => decidable_of_iff' _ (Iff.of_eq (k0_chk81.eq_1 v27 v196))
theorem k0_idx161_inb : ∀ (v27 : IVec S16 32) (v196 : IVec S16 32) (k0_hw81 : k0_chk81 v27 v196), ∀ a x, ((![v27, v196] : Fin 2 → IVec S16 32) a x).toNat < S160x128.size a := fun v27 v196 k0_hw81 => k0_hw81.1
theorem k0_idx162_inb : ∀ (v27 : IVec S16 32) (v196 : IVec S16 32) (k0_hw81 : k0_chk81 v27 v196), ∀ a x, ((![v27, v196] : Fin 2 → IVec S16 32) a x).toNat < S160x128.size a := fun v27 v196 k0_hw81 => k0_hw81.2

def k0_chk82 (v27 : IVec S16 32) (v207 : IVec S16 32) : Prop :=
  (∀ a x, ((![v27, v207] : Fin 2 → IVec S16 32) a x).toNat < S160x128.size a) ∧
  (∀ a x, ((![v27, v207] : Fin 2 → IVec S16 32) a x).toNat < S160x128.size a)
instance k0_chk82.dec : ∀ (v27 : IVec S16 32) (v207 : IVec S16 32), Decidable (k0_chk82 v27 v207) := fun v27 v207 => decidable_of_iff' _ (Iff.of_eq (k0_chk82.eq_1 v27 v207))
theorem k0_idx163_inb : ∀ (v27 : IVec S16 32) (v207 : IVec S16 32) (k0_hw82 : k0_chk82 v27 v207), ∀ a x, ((![v27, v207] : Fin 2 → IVec S16 32) a x).toNat < S160x128.size a := fun v27 v207 k0_hw82 => k0_hw82.1
theorem k0_idx164_inb : ∀ (v27 : IVec S16 32) (v207 : IVec S16 32) (k0_hw82 : k0_chk82 v27 v207), ∀ a x, ((![v27, v207] : Fin 2 → IVec S16 32) a x).toNat < S160x128.size a := fun v27 v207 k0_hw82 => k0_hw82.2

def k0_chk83 (v27 : IVec S16 32) (v218 : IVec S16 32) : Prop :=
  (∀ a x, ((![v27, v218] : Fin 2 → IVec S16 32) a x).toNat < S160x128.size a) ∧
  (∀ a x, ((![v27, v218] : Fin 2 → IVec S16 32) a x).toNat < S160x128.size a)
instance k0_chk83.dec : ∀ (v27 : IVec S16 32) (v218 : IVec S16 32), Decidable (k0_chk83 v27 v218) := fun v27 v218 => decidable_of_iff' _ (Iff.of_eq (k0_chk83.eq_1 v27 v218))
theorem k0_idx165_inb : ∀ (v27 : IVec S16 32) (v218 : IVec S16 32) (k0_hw83 : k0_chk83 v27 v218), ∀ a x, ((![v27, v218] : Fin 2 → IVec S16 32) a x).toNat < S160x128.size a := fun v27 v218 k0_hw83 => k0_hw83.1
theorem k0_idx166_inb : ∀ (v27 : IVec S16 32) (v218 : IVec S16 32) (k0_hw83 : k0_chk83 v27 v218), ∀ a x, ((![v27, v218] : Fin 2 → IVec S16 32) a x).toNat < S160x128.size a := fun v27 v218 k0_hw83 => k0_hw83.2

def k0_chk84 (v27 : IVec S16 32) (v229 : IVec S16 32) : Prop :=
  (∀ a x, ((![v27, v229] : Fin 2 → IVec S16 32) a x).toNat < S160x128.size a) ∧
  (∀ a x, ((![v27, v229] : Fin 2 → IVec S16 32) a x).toNat < S160x128.size a)
instance k0_chk84.dec : ∀ (v27 : IVec S16 32) (v229 : IVec S16 32), Decidable (k0_chk84 v27 v229) := fun v27 v229 => decidable_of_iff' _ (Iff.of_eq (k0_chk84.eq_1 v27 v229))
theorem k0_idx167_inb : ∀ (v27 : IVec S16 32) (v229 : IVec S16 32) (k0_hw84 : k0_chk84 v27 v229), ∀ a x, ((![v27, v229] : Fin 2 → IVec S16 32) a x).toNat < S160x128.size a := fun v27 v229 k0_hw84 => k0_hw84.1
theorem k0_idx168_inb : ∀ (v27 : IVec S16 32) (v229 : IVec S16 32) (k0_hw84 : k0_chk84 v27 v229), ∀ a x, ((![v27, v229] : Fin 2 → IVec S16 32) a x).toNat < S160x128.size a := fun v27 v229 k0_hw84 => k0_hw84.2

def k0_chk85 (v27 : IVec S16 32) (v240 : IVec S16 32) : Prop :=
  (∀ a x, ((![v27, v240] : Fin 2 → IVec S16 32) a x).toNat < S160x128.size a) ∧
  (∀ a x, ((![v27, v240] : Fin 2 → IVec S16 32) a x).toNat < S160x128.size a)
instance k0_chk85.dec : ∀ (v27 : IVec S16 32) (v240 : IVec S16 32), Decidable (k0_chk85 v27 v240) := fun v27 v240 => decidable_of_iff' _ (Iff.of_eq (k0_chk85.eq_1 v27 v240))
theorem k0_idx169_inb : ∀ (v27 : IVec S16 32) (v240 : IVec S16 32) (k0_hw85 : k0_chk85 v27 v240), ∀ a x, ((![v27, v240] : Fin 2 → IVec S16 32) a x).toNat < S160x128.size a := fun v27 v240 k0_hw85 => k0_hw85.1
theorem k0_idx170_inb : ∀ (v27 : IVec S16 32) (v240 : IVec S16 32) (k0_hw85 : k0_chk85 v27 v240), ∀ a x, ((![v27, v240] : Fin 2 → IVec S16 32) a x).toNat < S160x128.size a := fun v27 v240 k0_hw85 => k0_hw85.2

def k0_chk86 (v27 : IVec S16 32) (v251 : IVec S16 32) : Prop :=
  (∀ a x, ((![v27, v251] : Fin 2 → IVec S16 32) a x).toNat < S160x128.size a) ∧
  (∀ a x, ((![v27, v251] : Fin 2 → IVec S16 32) a x).toNat < S160x128.size a)
instance k0_chk86.dec : ∀ (v27 : IVec S16 32) (v251 : IVec S16 32), Decidable (k0_chk86 v27 v251) := fun v27 v251 => decidable_of_iff' _ (Iff.of_eq (k0_chk86.eq_1 v27 v251))
theorem k0_idx171_inb : ∀ (v27 : IVec S16 32) (v251 : IVec S16 32) (k0_hw86 : k0_chk86 v27 v251), ∀ a x, ((![v27, v251] : Fin 2 → IVec S16 32) a x).toNat < S160x128.size a := fun v27 v251 k0_hw86 => k0_hw86.1
theorem k0_idx172_inb : ∀ (v27 : IVec S16 32) (v251 : IVec S16 32) (k0_hw86 : k0_chk86 v27 v251), ∀ a x, ((![v27, v251] : Fin 2 → IVec S16 32) a x).toNat < S160x128.size a := fun v27 v251 k0_hw86 => k0_hw86.2

def k0_chk87 (v27 : IVec S16 32) (v262 : IVec S16 32) : Prop :=
  (∀ a x, ((![v27, v262] : Fin 2 → IVec S16 32) a x).toNat < S160x128.size a) ∧
  (∀ a x, ((![v27, v262] : Fin 2 → IVec S16 32) a x).toNat < S160x128.size a)
instance k0_chk87.dec : ∀ (v27 : IVec S16 32) (v262 : IVec S16 32), Decidable (k0_chk87 v27 v262) := fun v27 v262 => decidable_of_iff' _ (Iff.of_eq (k0_chk87.eq_1 v27 v262))
theorem k0_idx173_inb : ∀ (v27 : IVec S16 32) (v262 : IVec S16 32) (k0_hw87 : k0_chk87 v27 v262), ∀ a x, ((![v27, v262] : Fin 2 → IVec S16 32) a x).toNat < S160x128.size a := fun v27 v262 k0_hw87 => k0_hw87.1
theorem k0_idx174_inb : ∀ (v27 : IVec S16 32) (v262 : IVec S16 32) (k0_hw87 : k0_chk87 v27 v262), ∀ a x, ((![v27, v262] : Fin 2 → IVec S16 32) a x).toNat < S160x128.size a := fun v27 v262 k0_hw87 => k0_hw87.2

def k0_chk88 (v27 : IVec S16 32) (v273 : IVec S16 32) : Prop :=
  (∀ a x, ((![v27, v273] : Fin 2 → IVec S16 32) a x).toNat < S160x128.size a) ∧
  (∀ a x, ((![v27, v273] : Fin 2 → IVec S16 32) a x).toNat < S160x128.size a)
instance k0_chk88.dec : ∀ (v27 : IVec S16 32) (v273 : IVec S16 32), Decidable (k0_chk88 v27 v273) := fun v27 v273 => decidable_of_iff' _ (Iff.of_eq (k0_chk88.eq_1 v27 v273))
theorem k0_idx175_inb : ∀ (v27 : IVec S16 32) (v273 : IVec S16 32) (k0_hw88 : k0_chk88 v27 v273), ∀ a x, ((![v27, v273] : Fin 2 → IVec S16 32) a x).toNat < S160x128.size a := fun v27 v273 k0_hw88 => k0_hw88.1
theorem k0_idx176_inb : ∀ (v27 : IVec S16 32) (v273 : IVec S16 32) (k0_hw88 : k0_chk88 v27 v273), ∀ a x, ((![v27, v273] : Fin 2 → IVec S16 32) a x).toNat < S160x128.size a := fun v27 v273 k0_hw88 => k0_hw88.2

def k0_chk89 (v27 : IVec S16 32) (v284 : IVec S16 32) : Prop :=
  (∀ a x, ((![v27, v284] : Fin 2 → IVec S16 32) a x).toNat < S160x128.size a) ∧
  (∀ a x, ((![v27, v284] : Fin 2 → IVec S16 32) a x).toNat < S160x128.size a)
instance k0_chk89.dec : ∀ (v27 : IVec S16 32) (v284 : IVec S16 32), Decidable (k0_chk89 v27 v284) := fun v27 v284 => decidable_of_iff' _ (Iff.of_eq (k0_chk89.eq_1 v27 v284))
theorem k0_idx177_inb : ∀ (v27 : IVec S16 32) (v284 : IVec S16 32) (k0_hw89 : k0_chk89 v27 v284), ∀ a x, ((![v27, v284] : Fin 2 → IVec S16 32) a x).toNat < S160x128.size a := fun v27 v284 k0_hw89 => k0_hw89.1
theorem k0_idx178_inb : ∀ (v27 : IVec S16 32) (v284 : IVec S16 32) (k0_hw89 : k0_chk89 v27 v284), ∀ a x, ((![v27, v284] : Fin 2 → IVec S16 32) a x).toNat < S160x128.size a := fun v27 v284 k0_hw89 => k0_hw89.2

def k0_chk90 (v27 : IVec S16 32) (v295 : IVec S16 32) : Prop :=
  (∀ a x, ((![v27, v295] : Fin 2 → IVec S16 32) a x).toNat < S160x128.size a) ∧
  (∀ a x, ((![v27, v295] : Fin 2 → IVec S16 32) a x).toNat < S160x128.size a)
instance k0_chk90.dec : ∀ (v27 : IVec S16 32) (v295 : IVec S16 32), Decidable (k0_chk90 v27 v295) := fun v27 v295 => decidable_of_iff' _ (Iff.of_eq (k0_chk90.eq_1 v27 v295))
theorem k0_idx179_inb : ∀ (v27 : IVec S16 32) (v295 : IVec S16 32) (k0_hw90 : k0_chk90 v27 v295), ∀ a x, ((![v27, v295] : Fin 2 → IVec S16 32) a x).toNat < S160x128.size a := fun v27 v295 k0_hw90 => k0_hw90.1
theorem k0_idx180_inb : ∀ (v27 : IVec S16 32) (v295 : IVec S16 32) (k0_hw90 : k0_chk90 v27 v295), ∀ a x, ((![v27, v295] : Fin 2 → IVec S16 32) a x).toNat < S160x128.size a := fun v27 v295 k0_hw90 => k0_hw90.2

def k0_chk91 (v27 : IVec S16 32) (v306 : IVec S16 32) : Prop :=
  (∀ a x, ((![v27, v306] : Fin 2 → IVec S16 32) a x).toNat < S160x128.size a) ∧
  (∀ a x, ((![v27, v306] : Fin 2 → IVec S16 32) a x).toNat < S160x128.size a)
instance k0_chk91.dec : ∀ (v27 : IVec S16 32) (v306 : IVec S16 32), Decidable (k0_chk91 v27 v306) := fun v27 v306 => decidable_of_iff' _ (Iff.of_eq (k0_chk91.eq_1 v27 v306))
theorem k0_idx181_inb : ∀ (v27 : IVec S16 32) (v306 : IVec S16 32) (k0_hw91 : k0_chk91 v27 v306), ∀ a x, ((![v27, v306] : Fin 2 → IVec S16 32) a x).toNat < S160x128.size a := fun v27 v306 k0_hw91 => k0_hw91.1
theorem k0_idx182_inb : ∀ (v27 : IVec S16 32) (v306 : IVec S16 32) (k0_hw91 : k0_chk91 v27 v306), ∀ a x, ((![v27, v306] : Fin 2 → IVec S16 32) a x).toNat < S160x128.size a := fun v27 v306 k0_hw91 => k0_hw91.2

def k0_chk92 (v27 : IVec S16 32) (v317 : IVec S16 32) : Prop :=
  (∀ a x, ((![v27, v317] : Fin 2 → IVec S16 32) a x).toNat < S160x128.size a) ∧
  (∀ a x, ((![v27, v317] : Fin 2 → IVec S16 32) a x).toNat < S160x128.size a)
instance k0_chk92.dec : ∀ (v27 : IVec S16 32) (v317 : IVec S16 32), Decidable (k0_chk92 v27 v317) := fun v27 v317 => decidable_of_iff' _ (Iff.of_eq (k0_chk92.eq_1 v27 v317))
theorem k0_idx183_inb : ∀ (v27 : IVec S16 32) (v317 : IVec S16 32) (k0_hw92 : k0_chk92 v27 v317), ∀ a x, ((![v27, v317] : Fin 2 → IVec S16 32) a x).toNat < S160x128.size a := fun v27 v317 k0_hw92 => k0_hw92.1
theorem k0_idx184_inb : ∀ (v27 : IVec S16 32) (v317 : IVec S16 32) (k0_hw92 : k0_chk92 v27 v317), ∀ a x, ((![v27, v317] : Fin 2 → IVec S16 32) a x).toNat < S160x128.size a := fun v27 v317 k0_hw92 => k0_hw92.2

def k0_chk93 (v27 : IVec S16 32) (v328 : IVec S16 32) : Prop :=
  (∀ a x, ((![v27, v328] : Fin 2 → IVec S16 32) a x).toNat < S160x128.size a) ∧
  (∀ a x, ((![v27, v328] : Fin 2 → IVec S16 32) a x).toNat < S160x128.size a)
instance k0_chk93.dec : ∀ (v27 : IVec S16 32) (v328 : IVec S16 32), Decidable (k0_chk93 v27 v328) := fun v27 v328 => decidable_of_iff' _ (Iff.of_eq (k0_chk93.eq_1 v27 v328))
theorem k0_idx185_inb : ∀ (v27 : IVec S16 32) (v328 : IVec S16 32) (k0_hw93 : k0_chk93 v27 v328), ∀ a x, ((![v27, v328] : Fin 2 → IVec S16 32) a x).toNat < S160x128.size a := fun v27 v328 k0_hw93 => k0_hw93.1
theorem k0_idx186_inb : ∀ (v27 : IVec S16 32) (v328 : IVec S16 32) (k0_hw93 : k0_chk93 v27 v328), ∀ a x, ((![v27, v328] : Fin 2 → IVec S16 32) a x).toNat < S160x128.size a := fun v27 v328 k0_hw93 => k0_hw93.2

def k0_chk94 (v27 : IVec S16 32) (v339 : IVec S16 32) : Prop :=
  (∀ a x, ((![v27, v339] : Fin 2 → IVec S16 32) a x).toNat < S160x128.size a) ∧
  (∀ a x, ((![v27, v339] : Fin 2 → IVec S16 32) a x).toNat < S160x128.size a)
instance k0_chk94.dec : ∀ (v27 : IVec S16 32) (v339 : IVec S16 32), Decidable (k0_chk94 v27 v339) := fun v27 v339 => decidable_of_iff' _ (Iff.of_eq (k0_chk94.eq_1 v27 v339))
theorem k0_idx187_inb : ∀ (v27 : IVec S16 32) (v339 : IVec S16 32) (k0_hw94 : k0_chk94 v27 v339), ∀ a x, ((![v27, v339] : Fin 2 → IVec S16 32) a x).toNat < S160x128.size a := fun v27 v339 k0_hw94 => k0_hw94.1
theorem k0_idx188_inb : ∀ (v27 : IVec S16 32) (v339 : IVec S16 32) (k0_hw94 : k0_chk94 v27 v339), ∀ a x, ((![v27, v339] : Fin 2 → IVec S16 32) a x).toNat < S160x128.size a := fun v27 v339 k0_hw94 => k0_hw94.2

def k0_chk95 (v27 : IVec S16 32) (v350 : IVec S16 32) : Prop :=
  (∀ a x, ((![v27, v350] : Fin 2 → IVec S16 32) a x).toNat < S160x128.size a) ∧
  (∀ a x, ((![v27, v350] : Fin 2 → IVec S16 32) a x).toNat < S160x128.size a)
instance k0_chk95.dec : ∀ (v27 : IVec S16 32) (v350 : IVec S16 32), Decidable (k0_chk95 v27 v350) := fun v27 v350 => decidable_of_iff' _ (Iff.of_eq (k0_chk95.eq_1 v27 v350))
theorem k0_idx189_inb : ∀ (v27 : IVec S16 32) (v350 : IVec S16 32) (k0_hw95 : k0_chk95 v27 v350), ∀ a x, ((![v27, v350] : Fin 2 → IVec S16 32) a x).toNat < S160x128.size a := fun v27 v350 k0_hw95 => k0_hw95.1
theorem k0_idx190_inb : ∀ (v27 : IVec S16 32) (v350 : IVec S16 32) (k0_hw95 : k0_chk95 v27 v350), ∀ a x, ((![v27, v350] : Fin 2 → IVec S16 32) a x).toNat < S160x128.size a := fun v27 v350 k0_hw95 => k0_hw95.2

def k0_chk96 (v27 : IVec S16 32) (v361 : IVec S16 32) : Prop :=
  (∀ a x, ((![v27, v361] : Fin 2 → IVec S16 32) a x).toNat < S160x128.size a) ∧
  (∀ a x, ((![v27, v361] : Fin 2 → IVec S16 32) a x).toNat < S160x128.size a)
instance k0_chk96.dec : ∀ (v27 : IVec S16 32) (v361 : IVec S16 32), Decidable (k0_chk96 v27 v361) := fun v27 v361 => decidable_of_iff' _ (Iff.of_eq (k0_chk96.eq_1 v27 v361))
theorem k0_idx191_inb : ∀ (v27 : IVec S16 32) (v361 : IVec S16 32) (k0_hw96 : k0_chk96 v27 v361), ∀ a x, ((![v27, v361] : Fin 2 → IVec S16 32) a x).toNat < S160x128.size a := fun v27 v361 k0_hw96 => k0_hw96.1
theorem k0_idx192_inb : ∀ (v27 : IVec S16 32) (v361 : IVec S16 32) (k0_hw96 : k0_chk96 v27 v361), ∀ a x, ((![v27, v361] : Fin 2 → IVec S16 32) a x).toNat < S160x128.size a := fun v27 v361 k0_hw96 => k0_hw96.2

def k0_chk97 (v27 : IVec S16 32) (v372 : IVec S16 32) : Prop :=
  (∀ a x, ((![v27, v372] : Fin 2 → IVec S16 32) a x).toNat < S160x128.size a) ∧
  (∀ a x, ((![v27, v372] : Fin 2 → IVec S16 32) a x).toNat < S160x128.size a)
instance k0_chk97.dec : ∀ (v27 : IVec S16 32) (v372 : IVec S16 32), Decidable (k0_chk97 v27 v372) := fun v27 v372 => decidable_of_iff' _ (Iff.of_eq (k0_chk97.eq_1 v27 v372))
theorem k0_idx193_inb : ∀ (v27 : IVec S16 32) (v372 : IVec S16 32) (k0_hw97 : k0_chk97 v27 v372), ∀ a x, ((![v27, v372] : Fin 2 → IVec S16 32) a x).toNat < S160x128.size a := fun v27 v372 k0_hw97 => k0_hw97.1
theorem k0_idx194_inb : ∀ (v27 : IVec S16 32) (v372 : IVec S16 32) (k0_hw97 : k0_chk97 v27 v372), ∀ a x, ((![v27, v372] : Fin 2 → IVec S16 32) a x).toNat < S160x128.size a := fun v27 v372 k0_hw97 => k0_hw97.2

def k0_chk98 (v27 : IVec S16 32) (v383 : IVec S16 32) : Prop :=
  (∀ a x, ((![v27, v383] : Fin 2 → IVec S16 32) a x).toNat < S160x128.size a) ∧
  (∀ a x, ((![v27, v383] : Fin 2 → IVec S16 32) a x).toNat < S160x128.size a)
instance k0_chk98.dec : ∀ (v27 : IVec S16 32) (v383 : IVec S16 32), Decidable (k0_chk98 v27 v383) := fun v27 v383 => decidable_of_iff' _ (Iff.of_eq (k0_chk98.eq_1 v27 v383))
theorem k0_idx195_inb : ∀ (v27 : IVec S16 32) (v383 : IVec S16 32) (k0_hw98 : k0_chk98 v27 v383), ∀ a x, ((![v27, v383] : Fin 2 → IVec S16 32) a x).toNat < S160x128.size a := fun v27 v383 k0_hw98 => k0_hw98.1
theorem k0_idx196_inb : ∀ (v27 : IVec S16 32) (v383 : IVec S16 32) (k0_hw98 : k0_chk98 v27 v383), ∀ a x, ((![v27, v383] : Fin 2 → IVec S16 32) a x).toNat < S160x128.size a := fun v27 v383 k0_hw98 => k0_hw98.2

def k0_chk99 (v4 : IVec S16 32) (v21 : IVec S16 32) : Prop :=
  (∀ a x, ((![v21, v4] : Fin 2 → IVec S16 32) a x).toNat < S64x16.size a) ∧
  (∀ a x, ((![v21, v4] : Fin 2 → IVec S16 32) a x).toNat < S64x16.size a)
instance k0_chk99.dec : ∀ (v4 : IVec S16 32) (v21 : IVec S16 32), Decidable (k0_chk99 v4 v21) := fun v4 v21 => decidable_of_iff' _ (Iff.of_eq (k0_chk99.eq_1 v4 v21))
theorem k0_idx197_inb : ∀ (v4 : IVec S16 32) (v21 : IVec S16 32) (k0_hw99 : k0_chk99 v4 v21), ∀ a x, ((![v21, v4] : Fin 2 → IVec S16 32) a x).toNat < S64x16.size a := fun v4 v21 k0_hw99 => k0_hw99.1
theorem k0_idx198_inb : ∀ (v4 : IVec S16 32) (v21 : IVec S16 32) (k0_hw99 : k0_chk99 v4 v21), ∀ a x, ((![v21, v4] : Fin 2 → IVec S16 32) a x).toNat < S64x16.size a := fun v4 v21 k0_hw99 => k0_hw99.2
def k0_off9 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_23_r2 : BitVec 32 := 0#32
  let c0_i32_24_r2 : BitVec 32 := 0#32
  ![v1.toNat, 0, 0]
abbrev grid1 : Pipeline.Grid := ⟨1, ![55], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S2560x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2560x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x2560 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x2560 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := .none

abbrev stage2_0 : Fin 1 → Memref sig .tc .vmem S32x64x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S320000_S140800_0 : S320000.Slices ![0] S140800
  shapeCasts_S140800_S55x1x2560 : S140800.ShapeCasts S55x1x2560
  iota_S16_d0_w32_scVector : S16.Iotas .scVector 32 [0]
  h_S1x16 : 0 < S1x16.numel
  shapeCasts_S1x16_S16 : S1x16.ShapeCasts S16
  shapeCasts_S16_S1x16 : S16.ShapeCasts S1x16
  inb_S320000x128_S160x128_0_0 : ∀ a, (![0, 0] : Fin 2 → Nat) a + S160x128.size a ≤ S320000x128.size a
  h_S16 : 0 < S16.numel
  h_S160x128 : 0 < S160x128.numel
  h_S64x16 : 0 < S64x16.numel
  squeezes_S1x64x16_S64x16 : S1x64x16.Squeezes S64x16
  inb_S64_S64_0 : ∀ a, (![0] : Fin 1 → Nat) a + S64.size a ≤ S64.size a
  h_S64 : 0 < S64.numel
  inb_S2560x128_S2560x128_0_0 : ∀ a, (![0, 0] : Fin 2 → Nat) a + S2560x128.size a ≤ S2560x128.size a
  h_S2560x128 : 0 < S2560x128.numel
  reduces_S2560x128_S2560 : S2560x128.Reduces [1] S2560
  shapeCasts_S2560_S2560x1 : S2560.ShapeCasts S2560x1
  transposes_S2560x1_p1_0_S1x2560 : S2560x1.Transposes [1, 0] S1x2560
  inb_S1x1x2560_S1x1x2560_0_0_0 : ∀ a, (![0, 0, 0] : Fin 3 → Nat) a + S1x1x2560.size a ≤ S1x1x2560.size a
  h_S1x1x2560 : 0 < S1x1x2560.numel
  shapeCasts_S1x1x2560_S1x2560 : S1x1x2560.ShapeCasts S1x2560
  iota_S64x2560_d0_w32 : S64x2560.Iotas .tc 32 [0]
  broadcasts_S1x2560_S64x2560 : S1x2560.Broadcasts S64x2560
  shapeCasts_S1x2560_S1x2560 : S1x2560.ShapeCasts S1x2560
  shapeCasts_S64_S64 : S64.ShapeCasts S64
  reduces_S64x2560_S64 : S64x2560.Reduces [1] S64
  inb_S32x64x16_S32x64x16_0_0_0 : ∀ a, (![0, 0, 0] : Fin 3 → Nat) a + S32x64x16.size a ≤ S32x64x16.size a
  h_S32x64x16 : 0 < S32x64x16.numel
  shapeCasts_S32x64x16_S32x64x16 : S32x64x16.ShapeCasts S32x64x16
  reduces_S32x64x16_S32x64 : S32x64x16.Reduces [2] S32x64
  reduces_S32x64_S64 : S32x64.Reduces [0] S64
  shapeCasts_S64_S1x64 : S64.ShapeCasts S1x64
  reduces_S1x64_S1 : S1x64.Reduces [1] S1
  shapeCasts_S1_S1x1 : S1.ShapeCasts S1x1
  inpos_S1x1_p0_0 : ∀ a, (![0, 0] : Fin 2 → Nat) a < S1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  hcc0_scratch8 : 0 + S_.numel ≤ 23
  hcc0_scratch9 : 1 + S_.numel ≤ 23
  hcc0_scratch10 : 2 + S_.numel ≤ 23
  hcc0_scratch11 : 3 + S_.numel ≤ 23
  hcc0_scoped0 : 4 + S_.numel ≤ 23
  hcc0_scoped1 : 5 + S_.numel ≤ 23
  hcc0_scoped2 : 6 + S_.numel ≤ 23
  hcc0_scoped3 : 7 + S_.numel ≤ 23
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S5600.size a ≤ S320000.size a
  k0_t1_ok : k0_t1_loop.OK
  k0_off2_inb : ∀ k0_t1 : Fin k0_t1_loop.trips, ∀ a, (k0_off2 k0_t1) a + S1x16.size a ≤ S64x16.size a
  k0_off3_inb : ∀ i : grid0.Coords, ∀ a, (k0_off3 i) a + S160x128.size a ≤ S320000x128.size a
  k0_t2_ok : k0_t2_loop.OK
  k0_off4_inb : ∀ (i : grid0.Coords) (k0_t2 : Fin k0_t2_loop.trips), ∀ a, (k0_off4 i k0_t2) a + S160x128.size a ≤ S320000x128.size a
  k0_t3_ok : k0_t3_loop.OK
  k0_off5_inb : ∀ (k0_t2 : Fin k0_t2_loop.trips) (k0_t3 : Fin k0_t3_loop.trips), ∀ a, (k0_off5 k0_t2 k0_t3) a + S16.size a ≤ S5600.size a
  k0_t4_ok : k0_t4_loop.OK
  k0_off6_inb : ∀ (i : grid0.Coords) (k0_t2 : Fin k0_t2_loop.trips), ∀ a, (k0_off6 i k0_t2) a + S160x128.size a ≤ S320000x128.size a
  k0_t5_ok : k0_t5_loop.OK
  k0_off7_inb : ∀ (k0_t2 : Fin k0_t2_loop.trips) (k0_t5 : Fin k0_t5_loop.trips), ∀ a, (k0_off7 k0_t2 k0_t5) a + S16.size a ≤ S5600.size a
  k0_t6_ok : k0_t6_loop.OK
  k0_t7_ok : k0_t7_loop.OK
  k0_off8_inb : ∀ k0_t7 : Fin k0_t7_loop.trips, ∀ a, (k0_off8 k0_t7) a + S16.size a ≤ S5600.size a
  k0_t8_ok : k0_t8_loop.OK
  k0_off9_inb : ∀ i : grid0.Coords, ∀ a, (k0_off9 i) a + S1x64x16.size a ≤ S32x64x16.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2560x128.size a ≤ S320000x128.size a
  hwx1_0 : ∀ i : grid1.Coords, EltTy.bits .f32 = 32 ∨ (Rect.block (s := S320000x128) S2560x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2560x128.size a ≤ S320000x128.size a
  hwx1_1 : ∀ i : grid1.Coords, EltTy.bits .f32 = 32 ∨ (Rect.block (s := S320000x128) S2560x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2560.size a ≤ S55x1x2560.size a
  hwx1_2 : ∀ i : grid1.Coords, EltTy.bits .i32 = 32 ∨ (Rect.block (s := S55x1x2560) S1x1x2560.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x2560.size a ≤ S55x1x2560.size a
  hwx1_3 : ∀ i : grid1.Coords, EltTy.bits .f32 = 32 ∨ (Rect.block (s := S55x1x2560) S1x1x2560.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage2_0 : ∀ j, (stage2_0 j).IsWhole
  hstage2_1 : ∀ j, (stage2_1 j).IsWhole
  hstage2_2 : ∀ j, (stage2_2 j).IsWhole
  hstage2_3 : ∀ j, (stage2_3 j).IsWhole
  hstage2_4 : ∀ j, (stage2_4 j).IsWhole

variable [Facts₀]

abbrev cc0_scratch8 : DmaSems sig S_ := SemArray.consecutive 0 S_ hcc0_scratch8
abbrev cc0_scratch9 : DmaSems sig S_ := SemArray.consecutive 1 S_ hcc0_scratch9
abbrev cc0_scratch10 : DmaSems sig S_ := SemArray.consecutive 2 S_ hcc0_scratch10
abbrev cc0_scratch11 : DmaSems sig S_ := SemArray.consecutive 3 S_ hcc0_scratch11
abbrev cc0_scoped0 : DmaSems sig S_ := SemArray.consecutive 4 S_ hcc0_scoped0
abbrev cc0_scoped1 : DmaSems sig S_ := SemArray.consecutive 5 S_ hcc0_scoped1
abbrev cc0_scoped2 : DmaSems sig S_ := SemArray.consecutive 6 S_ hcc0_scoped2
abbrev cc0_scoped3 : DmaSems sig S_ := SemArray.consecutive 7 S_ hcc0_scoped3

abbrev win1_0 : Pipeline.Window sig grid1 :=
  Pipeline.Window.ofSpec (Memref.whole main_arg0) S2560x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2560x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1x2560.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1x2560.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6_0) S64.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6_1) S64.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.whole (Memref.whole main_v5_0) false false (stage2_0 0) (sem2_0 0) (Memref.isWhole_whole _) (hstage2_0 0)

abbrev win2_1 : Pipeline.Window sig grid2 :=
  Pipeline.Window.whole (Memref.whole main_v5_1) false false (stage2_1 0) (sem2_1 0) (Memref.isWhole_whole _) (hstage2_1 0)

abbrev win2_2 : Pipeline.Window sig grid2 :=
  Pipeline.Window.whole (Memref.whole main_v6_0) false false (stage2_2 0) (sem2_2 0) (Memref.isWhole_whole _) (hstage2_2 0)

abbrev win2_3 : Pipeline.Window sig grid2 :=
  Pipeline.Window.whole (Memref.whole main_v6_1) false false (stage2_3 0) (sem2_3 0) (Memref.isWhole_whole _) (hstage2_3 0)

abbrev win2_4 : Pipeline.Window sig grid2 :=
  Pipeline.Window.whole (Memref.whole main_v7) true false (stage2_4 0) (sem2_4 0) (Memref.isWhole_whole _) (hstage2_4 0)

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S320000x128 : Shape := ⟨2, ![320000, 128]⟩
abbrev S64 : Shape := ⟨1, ![64]⟩
abbrev S320000 : Shape := ⟨1, ![320000]⟩
abbrev S1001 : Shape := ⟨1, ![1001]⟩
abbrev S_ : Shape := ⟨0, ![]⟩
abbrev S64x1 : Shape := ⟨2, ![64, 1]⟩
abbrev S1 : Shape := ⟨1, ![1]⟩
abbrev S1x1 : Shape := ⟨2, ![1, 1]⟩
abbrev S320000x1 : Shape := ⟨2, ![320000, 1]⟩

abbrev nBuf : Space → Nat
  | .hbm => 73
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000x128, .f32⟩
  | .hbm, ⟨2, _⟩ => ⟨S64, .i32⟩
  | .hbm, ⟨3, _⟩ => ⟨S320000, .i1⟩
  | .hbm, ⟨4, _⟩ => ⟨S320000, .i32⟩
  | .hbm, ⟨5, _⟩ => ⟨S1001, .f32⟩
  | .hbm, ⟨6, _⟩ => ⟨S_, .i32⟩
  | .hbm, ⟨7, _⟩ => ⟨S64, .i32⟩
  | .hbm, ⟨8, _⟩ => ⟨S64, .i1⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S64x1, .i32⟩
  | .hbm, ⟨14, _⟩ => ⟨S1, .i32⟩
  | .hbm, ⟨15, _⟩ => ⟨S_, .i32⟩
  | .hbm, ⟨16, _⟩ => ⟨S64x1, .i32⟩
  | .hbm, ⟨17, _⟩ => ⟨S64x1, .i1⟩
  | .hbm, ⟨18, _⟩ => ⟨S1x1, .i32⟩
  | .hbm, ⟨19, _⟩ => ⟨S64x1, .i32⟩
  | .hbm, ⟨20, _⟩ => ⟨S64x1, .i1⟩
  | .hbm, ⟨21, _⟩ => ⟨S64x1, .i1⟩
  | .hbm, ⟨22, _⟩ => ⟨S_, .i1⟩
  | .hbm, ⟨23, _⟩ => ⟨S64, .i1⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S_, .i32⟩
  | .hbm, ⟨29, _⟩ => ⟨S320000, .i32⟩
  | .hbm, ⟨30, _⟩ => ⟨S320000, .i1⟩
  | .hbm, ⟨31, _⟩ => ⟨S_, .i32⟩
  | .hbm, ⟨32, _⟩ => ⟨S320000, .i32⟩
  | .hbm, ⟨33, _⟩ => ⟨S320000, .i32⟩
  | .hbm, ⟨34, _⟩ => ⟨S320000, .i32⟩
  | .hbm, ⟨35, _⟩ => ⟨S320000x1, .i32⟩
  | .hbm, ⟨36, _⟩ => ⟨S1, .i32⟩
  | .hbm, ⟨37, _⟩ => ⟨S_, .i32⟩
  | .hbm, ⟨38, _⟩ => ⟨S320000x1, .i32⟩
  | .hbm, ⟨39, _⟩ => ⟨S320000x1, .i1⟩
  | .hbm, ⟨40, _⟩ => ⟨S1x1, .i32⟩
  | .hbm, ⟨41, _⟩ => ⟨S320000x1, .i32⟩
  | .hbm, ⟨42, _⟩ => ⟨S320000x1, .i1⟩
  | .hbm, ⟨43, _⟩ => ⟨S320000x1, .i1⟩
  | .hbm, ⟨44, _⟩ => ⟨S_, .i1⟩
  | .hbm, ⟨45, _⟩ => ⟨S320000, .i1⟩
  | .hbm, ⟨46, _⟩ => ⟨S320000, .f32⟩
  | .hbm, ⟨47, _⟩ => ⟨S_, .f32⟩
  | .hbm, ⟨48, _⟩ => ⟨S320000, .f32⟩
  | .hbm, ⟨49, _⟩ => ⟨S320000, .f32⟩
  | .hbm, ⟨50, _⟩ => ⟨S320000x1, .f32⟩
  | .hbm, ⟨51, _⟩ => ⟨S320000x128, .f32⟩
  | .hbm, ⟨52, _⟩ => ⟨S320000x128, .f32⟩
  | .hbm, ⟨53, _⟩ => ⟨S_, .f32⟩
  | .hbm, ⟨54, _⟩ => ⟨S320000, .f32⟩
  | .hbm, ⟨55, _⟩ => ⟨S320000, .f32⟩
  | .hbm, ⟨56, _⟩ => ⟨S320000, .f32⟩
  | .hbm, ⟨57, _⟩ => ⟨S_, .f32⟩
  | .hbm, ⟨58, _⟩ => ⟨S64, .f32⟩
  | .hbm, ⟨59, _⟩ => ⟨S320000x1, .i32⟩
  | .hbm, ⟨60, _⟩ => ⟨S64, .f32⟩
  | .hbm, ⟨61, _⟩ => ⟨S_, .f32⟩
  | .hbm, ⟨62, _⟩ => ⟨S64, .f32⟩
  | .hbm, ⟨63, _⟩ => ⟨S320000x1, .i32⟩
  | .hbm, ⟨64, _⟩ => ⟨S64, .f32⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S64, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_cst : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_cst_0 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_cst_1 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_cst_2 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_cst_3 : Ref sig .tc := ⟨.hbm, 69, rfl⟩
abbrev main_v17 : Ref sig .tc := ⟨.hbm, 70, rfl⟩
abbrev main_cst_4 : Ref sig .tc := ⟨.hbm, 71, rfl⟩
abbrev main_v18 : Ref sig .tc := ⟨.hbm, 72, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  reducesTo_S64x1_S64_d1 : S64x1.ReducesTo [1] S64
  h_S_ : 0 < S_.numel
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1x1_S320000x1_0_1 : S1x1.BroadcastsInDim S320000x1 (![0, 1] : Fin 2 → Fin S320000x1.rank)
  reducesTo_S320000x1_S320000_d1 : S320000x1.ReducesTo [1] S320000
  reducesTo_S320000x128_S320000_d1 : S320000x128.ReducesTo [1] S320000
  reducesTo_S64_S_d0 : S64.ReducesTo [0] S_
  gather_S1001_S64x1_S64_n_0_n_n_0_1_1_wf : GatherDims.WF S1001 S64x1 S64 [] [0] [] [0] [] 1 ![1]
  gather_S64_S320000x1_S320000_n_0_n_n_0_1_1_wf : GatherDims.WF S64 S320000x1 S320000 [] [0] [] [0] [] 1 ![1]
  scatter_S64_S320000x1_S320000_n_0_0_1_wf : ScatterDims.WF S64 S320000x1 S320000 [] [0] [0] 1

variable [Facts₀]

def gather_S1001_S64x1_S64_n_0_n_n_0_1_1 : GatherDims S1001 S64x1 S64 where
  offsetDims := []
  collapsedSliceDims := [0]
  operandBatchingDims := []
  startIndicesBatchingDims := []
  startIndexMap := [0]
  indexVectorDim := 1
  sliceSizes := ![1]
  wf := gather_S1001_S64x1_S64_n_0_n_n_0_1_1_wf
def gather_S64_S320000x1_S320000_n_0_n_n_0_1_1 : GatherDims S64 S320000x1 S320000 where
  offsetDims := []
  collapsedSliceDims := [0]
  operandBatchingDims := []
  startIndicesBatchingDims := []
  startIndexMap := [0]
  indexVectorDim := 1
  sliceSizes := ![1]
  wf := gather_S64_S320000x1_S320000_n_0_n_n_0_1_1_wf
def scatter_S64_S320000x1_S320000_n_0_0_1 : ScatterDims S64 S320000x1 S320000 where
  updateWindowDims := []
  insertedWindowDims := [0]
  scatterDimsToOperandDims := [0]
  indexVectorDim := 1
  wf := scatter_S64_S320000x1_S320000_n_0_0_1_wf

class Facts : Prop extends Facts₀ where

variable [Facts]
-- ==== Proof.Spec.lean ====
/-
  The specification both programs are compared with: the masked per-segment mean of the rows' squared distances,
  averaged over the 64 segments, as ONE function of the four argument arrays on the extended reals.

  For row i (of 320000): sq i = sum over the 128 columns d of (pred[i,d] - tgt[i,d])^2, and fl i = 1 or 0 as the row's
  flag bit is set or not. For segment s (of 64): num s = sum of sq i * fl i over the rows i whose segment id is s,
  cnt s = sum of fl i over the same rows. The result is (sum over s of num s / max (cnt s) 1) / 64.
  The float literals 1.0 and 64.0 are kept as their binary words (the same words in both programs), never evaluated.
-/
import Idealize.ShloMosaic.PureOps.Ideal
import Idealize.ShloMosaic.Lib.ValueIdx

noncomputable section

namespace Cert.Spec

open Idealize.ShloMosaic Idealize.ShloMosaic.ValueIdx

abbrev SRows : Shape := ⟨2, ![320000, 128]⟩
abbrev SN : Shape := ⟨1, ![320000]⟩
abbrev S0 : Shape := ⟨0, ![]⟩

/-- The word of 1.0 and the word of 64.0, read at the exact instance. -/
abbrev one : EReal := Ideal.ofBits .f32 0x3F800000#32
abbrev c64 : EReal := Ideal.ofBits .f32 0x42800000#32

/-- Row `i`'s squared distance: the sum over its 128 columns of the squared difference. -/
def sq (p t : SRows.Idx → EReal) (i : Fin 320000) : EReal :=
  ∑ d : Fin 128, (p (ix2 i d) - t (ix2 i d)) * (p (ix2 i d) - t (ix2 i d))

/-- Row `i`'s flag as a number: 1 if its bit is set, 0 otherwise. -/
def fl (f : SN.Idx → BitVec 1) (i : Fin 320000) : EReal := (((f (ix1 i)).toNat : ℝ) : EReal)

/-- Segment `s`'s masked sum of squared distances: over the rows whose segment id is `s`. -/
def num (p t : SRows.Idx → EReal) (f : SN.Idx → BitVec 1) (b : SN.Idx → BitVec 32) (s : Fin 64) : EReal :=
  ∑ i : Fin 320000, if (b (ix1 i)).toNat = s.val then sq p t i * fl f i else 0

/-- Segment `s`'s count of flagged rows. -/
def cnt (f : SN.Idx → BitVec 1) (b : SN.Idx → BitVec 32) (s : Fin 64) : EReal :=
  ∑ i : Fin 320000, if (b (ix1 i)).toNat = s.val then fl f i else 0

/-- The result: the mean over the 64 segments of each segment's masked mean (an empty segment counts as 1). -/
def loss (p t : SRows.Idx → EReal) (f : SN.Idx → BitVec 1) (b : SN.Idx → BitVec 32) : S0.Idx → EReal :=
  fun _ => Ideal.div (∑ s : Fin 64, Ideal.div (num p t f b s) (max (cnt f b s) one)) c64

end Cert.Spec

end
-- ==== Proof.RefOps.lean ====
/-
  The reference program as a straight line. Its @main calls two outlined functions (the two `jnp.take`s) whose results
  feed nothing that reaches the returned scalar; with the calls unfolded into their operations @main is one straight
  line of 67 host operations, and every weakly fair execution of it terminates with each buffer at the fold of the
  operations' results over the launch contents. Stated last: the composed term of the four arguments that the
  returned scalar is (proved equal to the fold in RefTerm, to the specification in RefSpec).
-/
import proofs.«205036_g29618094473603_cont_9to1_1720_19_alg».proof.Defs
import proofs.«205036_g29618094473603_cont_9to1_1720_19_alg».proof.Proof.Gen.ReferenceIdeal
import proofs.«205036_g29618094473603_cont_9to1_1720_19_alg».proof.Proof.Gen.Pre_input_domain
import proofs.«205036_g29618094473603_cont_9to1_1720_19_alg».proof.Proof.Spec
import Idealize.ShloMosaic.Lib.StableHlo.Run

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- @main's 67 operations in order, the two calls unfolded: the first `take`'s 22 (its inner `where` one of them) into the
    first call's buffers, the second `take`'s 22 into the second call's, then @main's own 23. -/
abbrev ops : List (HloOp τ sig (Elt F)) :=
  [ StableHlo.TRef.nullary main_call0.c (constantI S_ 32 0#32),
    StableHlo.TRef.unary main_call0.c main_call0.v0 (broadcastInDim S64 ![] bcast_S_S64),
    StableHlo.TRef.binary (.of main_arg2 : StableHlo.TRef sig ⟨S64, .i32⟩) main_call0.v0 main_call0.v1 (cmpi .slt),
    StableHlo.TRef.nullary main_call0.c_0 (constantI S_ 32 1001#32),
    StableHlo.TRef.unary main_call0.c_0 main_call0.v2 (broadcastInDim S64 ![] bcast_S_S64),
    StableHlo.TRef.binary (.of main_arg2 : StableHlo.TRef sig ⟨S64, .i32⟩) main_call0.v2 main_call0.v3 addi,
    StableHlo.TRef.ternary main_call0.v1 main_call0.v3 (.of main_arg2 : StableHlo.TRef sig ⟨S64, .i32⟩) main_call0.call0.v0 select,
    StableHlo.TRef.unary main_call0.call0.v0 main_call0.v5 (broadcastInDim S64x1 ![0] bcast_S64_S64x1_0),
    StableHlo.TRef.nullary main_call0.c_1 (constantI S1 32 1000#32),
    StableHlo.TRef.nullary main_call0.c_2 (constantI S_ 32 0#32),
    StableHlo.TRef.unary main_call0.c_2 main_call0.v6 (broadcastInDim S64x1 ![] bcast_S_S64x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S64x1 ![0, 1] bcast_S1x1_S64x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S64x1_S64_d1 h_S_),
    StableHlo.TRef.binary (.of main_arg5 : StableHlo.TRef sig ⟨S1001, .f32⟩) main_call0.v5 main_call0.v13 (fun x i => Host.gather gather_S1001_S64x1_S64_n_0_n_n_0_1_1 x i),
    StableHlo.TRef.nullary main_call0.cst (constant S_ .f32 0x7FC00000#32),
    StableHlo.TRef.unary main_call0.cst main_call0.v14 (broadcastInDim S64 ![] bcast_S_S64),
    StableHlo.TRef.ternary main_call0.v12 main_call0.v13 main_call0.v14 main_call0.v15 select,
    StableHlo.TRef.nullary main_call1.c (constantI S_ 32 0#32),
    StableHlo.TRef.unary main_call1.c main_call1.v0 (broadcastInDim S320000 ![] bcast_S_S320000),
    StableHlo.TRef.binary (.of main_arg4 : StableHlo.TRef sig ⟨S320000, .i32⟩) main_call1.v0 main_call1.v1 (cmpi .slt),
    StableHlo.TRef.nullary main_call1.c_0 (constantI S_ 32 64#32),
    StableHlo.TRef.unary main_call1.c_0 main_call1.v2 (broadcastInDim S320000 ![] bcast_S_S320000),
    StableHlo.TRef.binary (.of main_arg4 : StableHlo.TRef sig ⟨S320000, .i32⟩) main_call1.v2 main_call1.v3 addi,
    StableHlo.TRef.ternary main_call1.v1 main_call1.v3 (.of main_arg4 : StableHlo.TRef sig ⟨S320000, .i32⟩) main_call1.call0.v0 select,
    StableHlo.TRef.unary main_call1.call0.v0 main_call1.v5 (broadcastInDim S320000x1 ![0] bcast_S320000_S320000x1_0),
    StableHlo.TRef.nullary main_call1.c_1 (constantI S1 32 63#32),
    StableHlo.TRef.nullary main_call1.c_2 (constantI S_ 32 0#32),
    StableHlo.TRef.unary main_call1.c_2 main_call1.v6 (broadcastInDim S320000x1 ![] bcast_S_S320000x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S320000x1 ![0, 1] bcast_S1x1_S320000x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S320000x1_S320000_d1 h_S_),
    StableHlo.TRef.binary (.of main_v0 : StableHlo.TRef sig ⟨S64, .f32⟩) main_call1.v5 main_call1.v13 (fun x i => Host.gather gather_S64_S320000x1_S320000_n_0_n_n_0_1_1 x i),
    StableHlo.TRef.nullary main_call1.cst (constant S_ .f32 0x7FC00000#32),
    StableHlo.TRef.unary main_call1.cst main_call1.v14 (broadcastInDim S320000 ![] bcast_S_S320000),
    StableHlo.TRef.ternary main_call1.v12 main_call1.v13 main_call1.v14 main_call1.v15 select,
    StableHlo.unary main_v1 main_v2 (broadcastInDim S320000x1 ![0] bcast_S320000_S320000x1_0 : (⟨S320000, .f32⟩ : BufTy).Contents (Elt F) → (⟨S320000x1, .f32⟩ : BufTy).Contents (Elt F)),
    StableHlo.binary main_arg0 main_arg1 main_v3 (subf : (⟨S320000x128, .f32⟩ : BufTy).Contents (Elt F) → (⟨S320000x128, .f32⟩ : BufTy).Contents (Elt F) → (⟨S320000x128, .f32⟩ : BufTy).Contents (Elt F)),
    StableHlo.binary main_v3 main_v3 main_v4 (mulf : (⟨S320000x128, .f32⟩ : BufTy).Contents (Elt F) → (⟨S320000x128, .f32⟩ : BufTy).Contents (Elt F) → (⟨S320000x128, .f32⟩ : BufTy).Contents (Elt F)),
    StableHlo.nullary main_cst (constant S_ .f32 0x00000000#32),
    StableHlo.binary main_v4 main_cst main_v5 ((fun x v => Host.reduceAdd x v reducesTo_S320000x128_S320000_d1 h_S_) : (⟨S320000x128, .f32⟩ : BufTy).Contents (Elt F) → (⟨S_, .f32⟩ : BufTy).Contents (Elt F) → (⟨S320000, .f32⟩ : BufTy).Contents (Elt F)),
    StableHlo.unary main_arg3 main_v6 (uitofp .f32 : (⟨S320000, .i1⟩ : BufTy).Contents (Elt F) → (⟨S320000, .f32⟩ : BufTy).Contents (Elt F)),
    StableHlo.binary main_v5 main_v6 main_v7 (mulf : (⟨S320000, .f32⟩ : BufTy).Contents (Elt F) → (⟨S320000, .f32⟩ : BufTy).Contents (Elt F) → (⟨S320000, .f32⟩ : BufTy).Contents (Elt F)),
    StableHlo.nullary main_cst_0 (constant S_ .f32 0x00000000#32),
    StableHlo.unary main_cst_0 main_v8 (broadcastInDim S64 ![] bcast_S_S64 : (⟨S_, .f32⟩ : BufTy).Contents (Elt F) → (⟨S64, .f32⟩ : BufTy).Contents (Elt F)),
    StableHlo.unary main_arg4 main_v9 (broadcastInDim S320000x1 ![0] bcast_S320000_S320000x1_0 : (⟨S320000, .i32⟩ : BufTy).Contents (Elt F) → (⟨S320000x1, .i32⟩ : BufTy).Contents (Elt F)),
    StableHlo.ternary main_v8 main_v9 main_v7 main_v10 ((fun x i u => Host.scatterAdd scatter_S64_S320000x1_S320000_n_0_0_1 x i u) : (⟨S64, .f32⟩ : BufTy).Contents (Elt F) → (⟨S320000x1, .i32⟩ : BufTy).Contents (Elt F) → (⟨S320000, .f32⟩ : BufTy).Contents (Elt F) → (⟨S64, .f32⟩ : BufTy).Contents (Elt F)),
    StableHlo.nullary main_cst_1 (constant S_ .f32 0x00000000#32),
    StableHlo.unary main_cst_1 main_v11 (broadcastInDim S64 ![] bcast_S_S64 : (⟨S_, .f32⟩ : BufTy).Contents (Elt F) → (⟨S64, .f32⟩ : BufTy).Contents (Elt F)),
    StableHlo.unary main_arg4 main_v12 (broadcastInDim S320000x1 ![0] bcast_S320000_S320000x1_0 : (⟨S320000, .i32⟩ : BufTy).Contents (Elt F) → (⟨S320000x1, .i32⟩ : BufTy).Contents (Elt F)),
    StableHlo.ternary main_v11 main_v12 main_v6 main_v13 ((fun x i u => Host.scatterAdd scatter_S64_S320000x1_S320000_n_0_0_1 x i u) : (⟨S64, .f32⟩ : BufTy).Contents (Elt F) → (⟨S320000x1, .i32⟩ : BufTy).Contents (Elt F) → (⟨S320000, .f32⟩ : BufTy).Contents (Elt F) → (⟨S64, .f32⟩ : BufTy).Contents (Elt F)),
    StableHlo.nullary main_cst_2 (constant S_ .f32 0x3F800000#32),
    StableHlo.unary main_cst_2 main_v14 (broadcastInDim S64 ![] bcast_S_S64 : (⟨S_, .f32⟩ : BufTy).Contents (Elt F) → (⟨S64, .f32⟩ : BufTy).Contents (Elt F)),
    StableHlo.binary main_v13 main_v14 main_v15 (maximumf : (⟨S64, .f32⟩ : BufTy).Contents (Elt F) → (⟨S64, .f32⟩ : BufTy).Contents (Elt F) → (⟨S64, .f32⟩ : BufTy).Contents (Elt F)),
    StableHlo.binary main_v10 main_v15 main_v16 (Host.divf : (⟨S64, .f32⟩ : BufTy).Contents (Elt F) → (⟨S64, .f32⟩ : BufTy).Contents (Elt F) → (⟨S64, .f32⟩ : BufTy).Contents (Elt F)),
    StableHlo.nullary main_cst_3 (constant S_ .f32 0x00000000#32),
    StableHlo.binary main_v16 main_cst_3 main_v17 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    StableHlo.nullary main_cst_4 (constant S_ .f32 0x42800000#32),
    StableHlo.binary main_v17 main_cst_4 main_v18 (Host.divf : (⟨S_, .f32⟩ : BufTy).Contents (Elt F) → (⟨S_, .f32⟩ : BufTy).Contents (Elt F) → (⟨S_, .f32⟩ : BufTy).Contents (Elt F)) ]

-- sixty-seven binds re-associated: the rewrite under the chain recurses once per statement
set_option maxRecDepth 8192 in
set_option maxHeartbeats 4000000 in
/-- @main is that straight line: the functions' definitions unfolded at their calls, both sides are one chain of
    steps once sequencing is reassociated. -/
theorem main_eq (c : Dev nD) : main (F := F) c = seq ops := by
  simp only [main, fn_take.body, fn_take_0.body, fn_where.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., binary_bufs_sub .., binary_bufs_sub .., nullary_bufs_sub .., binary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., binary_bufs_sub .., nullary_bufs_sub .., binary_bufs_sub .., nullary_bufs_sub .., binary_bufs_sub ..⟩

set_option maxRecDepth 8192 in
/-- Every weakly fair execution of @main terminates, and every final state has each buffer at the fold of the
    operations' results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The returned scalar as one composed term of the four arguments it depends on — the two float arrays `p`, `t`, the
    flags `f` and the segment ids `b`: the rows' sums of squared differences times the flags, scattered and added by
    segment id into 64 zeros; the flags scattered and added likewise and raised to at least 1.0; the quotients summed
    over the 64 segments and divided by 64.0. -/
def term (p t : (⟨S320000x128, .f32⟩ : BufTy).Contents (Elt F)) (f : (⟨S320000, .i1⟩ : BufTy).Contents (Elt F))
    (b : (⟨S320000, .i32⟩ : BufTy).Contents (Elt F)) : (⟨S_, .f32⟩ : BufTy).Contents (Elt F) :=
  Host.divf
    (Host.reduceAdd
      (Host.divf
        (Host.scatterAdd scatter_S64_S320000x1_S320000_n_0_0_1
          (broadcastInDim S64 ![] bcast_S_S64 (constant S_ .f32 0x00000000#32))
          (broadcastInDim S320000x1 ![0] bcast_S320000_S320000x1_0 b)
          (mulf (Host.reduceAdd (mulf (subf p t) (subf p t)) (constant S_ .f32 0x00000000#32) reducesTo_S320000x128_S320000_d1 h_S_)
            (uitofp .f32 f)))
        (maximumf
          (Host.scatterAdd scatter_S64_S320000x1_S320000_n_0_0_1
            (broadcastInDim S64 ![] bcast_S_S64 (constant S_ .f32 0x00000000#32))
            (broadcastInDim S320000x1 ![0] bcast_S320000_S320000x1_0 b)
            (uitofp .f32 f))
          (broadcastInDim S64 ![] bcast_S_S64 (constant S_ .f32 0x3F800000#32))))
      (constant S_ .f32 0x00000000#32) reducesTo_S64_S_d0 h_S_)
    (constant S_ .f32 0x42800000#32)

/-- The congruence lemmas (equal arguments give equal values) of the program's dimension records and of the operations
    that take a proof argument, realized once: the fold's reading (RefTerm) and the reading at an index (RefSpec) both
    rewrite under them. -/
theorem congr_simp_realized : True := by
  have := @scatter_S64_S320000x1_S320000_n_0_0_1.congr_simp
  have := @gather_S1001_S64x1_S64_n_0_n_n_0_1_1.congr_simp
  have := @gather_S64_S320000x1_S320000_n_0_n_n_0_1_1.congr_simp
  have := @StableHlo.TRef.of.congr_simp
  have := @Host.reduce.congr_simp
  trivial

end Cert.ReferenceIdeal.RefValue

end
-- ==== Proof.RefTerm.lean ====
/-
  The fold of the reference's 67 operations read at the returned scalar and at the six arguments: the scalar is the
  composed term of RefOps (the two `take` calls write only their own buffers and the row broadcast of the second one's
  result feeds nothing, so none of them appears in it), and no operation writes an argument.
-/
import proofs.«205036_g29618094473603_cont_9to1_1720_19_alg».proof.Proof.RefOps

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

set_option maxRecDepth 8192 in
set_option maxHeartbeats 8000000 in
/-- The fold at the returned scalar: each operation's result at its own buffer is its function's value and at any
    other buffer what was there, from the last operation back to the arguments. -/
theorem after_v18 (V : Valuation τ sig (Elt F)) :
    after ops V (Proc.devRef .tc main_v18)
      = term (V (Proc.devRef .tc main_arg0)) (V (Proc.devRef .tc main_arg1)) (V (Proc.devRef .tc main_arg3)) (V (Proc.devRef .tc main_arg4)) := by
  unfold term
  after_results_simp

set_option maxRecDepth 8192 in
set_option maxHeartbeats 8000000 in
/-- No operation writes `main_arg0`. -/
theorem after_arg0 (V : Valuation τ sig (Elt F)) :
    after ops V (Proc.devRef .tc main_arg0) = V (Proc.devRef .tc main_arg0) := by
  after_results_simp

set_option maxRecDepth 8192 in
set_option maxHeartbeats 8000000 in
/-- No operation writes `main_arg1`. -/
theorem after_arg1 (V : Valuation τ sig (Elt F)) :
    after ops V (Proc.devRef .tc main_arg1) = V (Proc.devRef .tc main_arg1) := by
  after_results_simp

set_option maxRecDepth 8192 in
set_option maxHeartbeats 8000000 in
/-- No operation writes `main_arg2`. -/
theorem after_arg2 (V : Valuation τ sig (Elt F)) :
    after ops V (Proc.devRef .tc main_arg2) = V (Proc.devRef .tc main_arg2) := by
  after_results_simp

set_option maxRecDepth 8192 in
set_option maxHeartbeats 8000000 in
/-- No operation writes `main_arg3`. -/
theorem after_arg3 (V : Valuation τ sig (Elt F)) :
    after ops V (Proc.devRef .tc main_arg3) = V (Proc.devRef .tc main_arg3) := by
  after_results_simp

set_option maxRecDepth 8192 in
set_option maxHeartbeats 8000000 in
/-- No operation writes `main_arg4`. -/
theorem after_arg4 (V : Valuation τ sig (Elt F)) :
    after ops V (Proc.devRef .tc main_arg4) = V (Proc.devRef .tc main_arg4) := by
  after_results_simp

set_option maxRecDepth 8192 in
set_option maxHeartbeats 8000000 in
/-- No operation writes `main_arg5`. -/
theorem after_arg5 (V : Valuation τ sig (Elt F)) :
    after ops V (Proc.devRef .tc main_arg5) = V (Proc.devRef .tc main_arg5) := by
  after_results_simp

/-- Every weakly fair execution of @main terminates with the returned scalar at the composed term of the arguments
    and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18)
        = term (m ((c.tc : Thread nD τ).loc main_arg0)) (m ((c.tc : Thread nD τ).loc main_arg1))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v18).trans (after_v18 _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _)⟩)
    (run_after m ρ)

end Cert.ReferenceIdeal.RefValue

end
-- ==== Proof.RefSpec.lean ====
/-
  The reference's composed term is the specification: the masked per-segment mean of the rows' squared distances,
  averaged over the 64 segments. Each host operation is read at an index at the exact instance — a sum from the zero
  word is the plain sum, a scatter-add into zeros is the sum of the updates landing at the index — and the scatter's
  landing condition for row `i` at segment `s` (the row's segment id read signed, not clamped, and inside 0..63) is
  identified with "the id's unsigned value is `s`": for `s` below 64 the two readings of a 32-bit word agree.
-/
import proofs.«205036_g29618094473603_cont_9to1_1720_19_alg».proof.Proof.RefOps
import proofs.«205036_g29618094473603_cont_9to1_1720_19_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Facts₀ Idealize.ShloMosaic Idealize.ShloMosaic.ValueIdx
open scoped BigOperators

variable [Cert.ReferenceIdeal.Facts]

/-! ## Sums over a rank-1 index set -/

/-- A rank-1 index set is its one coordinate range … -/
def idxEquiv1 {n : Nat} : (⟨1, ![n]⟩ : Shape).Idx ≃ Fin n where
  toFun i := i 0
  invFun := ix1
  left_inv i := (eq_ix1 i).symm
  right_inv _ := rfl

/-- … so a sum over it is the sum over the coordinate. -/
theorem sum_idx1 {M : Type*} [AddCommMonoid M] {n : Nat} (g : (⟨1, ![n]⟩ : Shape).Idx → M) :
    ∑ i, g i = ∑ a : Fin n, g (ix1 a) := by
  rw [← Equiv.sum_comp (idxEquiv1 (n := n)).symm g]
  rfl

/-! ## Where the scatter lands row `i` -/

/-- The segment ids as a column, read at `(i, 0)`: row `i`'s id. -/
theorem bcast_idx (b : S320000.Idx → BitVec 32) (i : Fin 320000) (c : Fin 1) :
    broadcastInDim S320000x1 ![0] bcast_S320000_S320000x1_0 b (ix2 i c) = b (ix1 i) := by
  unfold broadcastInDim
  congr 1
  funext a
  match a with
  | ⟨0, _⟩ => rfl

/-- The window's start for update `i` on the operand's one axis: row `i`'s id, read signed. -/
theorem start_eq (b : S320000.Idx → BitVec 32) (i : Fin 320000) (a : Fin S64.rank) :
    scatter_S64_S320000x1_S320000_n_0_0_1.start (ix1 i) (broadcastInDim S320000x1 ![0] bcast_S320000_S320000x1_0 b) a
      = (b (ix1 i)).toInt := by
  obtain rfl : a = 0 := Subsingleton.elim _ _
  unfold ScatterDims.start
  rw [dif_pos (show (0 : Fin 1) ∈ scatter_S64_S320000x1_S320000_n_0_0_1.scatterDimsToOperandDims from List.mem_singleton.mpr rfl)]
  have hsi : scatter_S64_S320000x1_S320000_n_0_0_1.siIdx (ix1 i) ⟨List.idxOf (0 : Fin 1) scatter_S64_S320000x1_S320000_n_0_0_1.scatterDimsToOperandDims,
      List.idxOf_lt_length_iff.2 (List.mem_singleton.mpr rfl)⟩ = ix2 i (0 : Fin 1) := by
    funext c; refine Fin.ext ?_
    match c with
    | ⟨0, _⟩ => rfl
    | ⟨1, _⟩ => rfl
  rw [hsi, bcast_idx]

/-- The operand's one axis is an inserted window axis: the window coordinate on it is zero. -/
theorem window_eq (i : Fin 320000) (a : Fin S64.rank) :
    scatter_S64_S320000x1_S320000_n_0_0_1.window (ix1 i : S320000.Idx) a = 0 := by
  obtain rfl : a = 0 := Subsingleton.elim _ _
  unfold ScatterDims.window
  rw [dif_neg (by decide)]

/-- Update `i` lands at segment `s` exactly when row `i`'s id, as an unsigned number, is `s`: landing asks the signed
    reading to be `s` and inside 0..63, and a 32-bit word whose signed reading is below 64 and not negative has that
    same unsigned reading (and conversely). -/
theorem resultIdx_iff (b : S320000.Idx → BitVec 32) (i : Fin 320000) (s : Fin 64) :
    scatter_S64_S320000x1_S320000_n_0_0_1.resultIdx? (ix1 i : S320000.Idx) (broadcastInDim S320000x1 ![0] bcast_S320000_S320000x1_0 b)
        = some (ix1 s : S64.Idx)
      ↔ (b (ix1 i)).toNat = s.val := by
  have hlt := (b (ix1 i)).isLt
  have hs := s.isLt
  have hti := BitVec.toInt_eq_toNat_cond (b (ix1 i))
  constructor
  · intro h
    unfold ScatterDims.resultIdx? at h
    split at h
    · next hc =>
      have hv : (scatter_S64_S320000x1_S320000_n_0_0_1.start (ix1 i : S320000.Idx) (broadcastInDim S320000x1 ![0] bcast_S320000_S320000x1_0 b) 0
          + (scatter_S64_S320000x1_S320000_n_0_0_1.window (ix1 i : S320000.Idx) 0 : Int)).toNat = s.val :=
        congrArg Fin.val (congrFun (Option.some.inj h) 0)
      have h0 := hc 0
      rw [start_eq, window_eq] at h0 hv
      change 0 ≤ _ + ((0 : Nat) : Int) ∧ _ + ((0 : Nat) : Int) < ((64 : Nat) : Int) at h0
      split at hti <;> omega
    · exact absurd h (by simp)
  · intro h
    unfold ScatterDims.resultIdx?
    have hc : ∀ a, 0 ≤ scatter_S64_S320000x1_S320000_n_0_0_1.start (ix1 i : S320000.Idx) (broadcastInDim S320000x1 ![0] bcast_S320000_S320000x1_0 b) a
          + (scatter_S64_S320000x1_S320000_n_0_0_1.window (ix1 i : S320000.Idx) a : Int)
        ∧ scatter_S64_S320000x1_S320000_n_0_0_1.start (ix1 i : S320000.Idx) (broadcastInDim S320000x1 ![0] bcast_S320000_S320000x1_0 b) a
          + (scatter_S64_S320000x1_S320000_n_0_0_1.window (ix1 i : S320000.Idx) a : Int) < (S64.size a : Int) := by
      intro a
      rw [start_eq, window_eq]
      obtain rfl : a = 0 := Subsingleton.elim _ _
      change 0 ≤ _ + ((0 : Nat) : Int) ∧ _ + ((0 : Nat) : Int) < ((64 : Nat) : Int)
      split at hti <;> omega
    rw [dif_pos hc]
    congr 1
    funext a
    obtain rfl : a = 0 := Subsingleton.elim _ _
    refine Fin.ext ?_
    change (_ + _ : Int).toNat = s.val
    rw [start_eq, window_eq]
    split at hti <;> omega

/-! ## The host operations read at an index, at the exact instance -/

/-- A host quotient at an index is the quotient of the elements. -/
theorem hostDivf_apply {s : Shape} (a b : FVec Ideal s .f32) (i : s.Idx) : Host.divf a b i = Ideal.div (a i) (b i) := rfl

/-- A host sum from the zero word into a shape of unit axes is the total sum of the operand. -/
theorem reduceAdd_total_zero {s t : Shape} {axes : List (Fin s.rank)} (x : FVec Ideal s .f32) (h : s.ReducesTo axes t)
    (hu : 0 < S_.numel) (ht : ∀ b, t.size b = 1) (j : t.Idx) :
    Host.reduceAdd x (constant (F := Ideal) S_ .f32 0x00000000#32) h hu j = ∑ i : s.Idx, x i := by
  show Ideal.hostReduceAdd h x (Ideal.ofBits .f32 0x00000000#32) j = _
  rw [Ideal.hostReduceAdd_total h ht, Ideal.ofBits_zero_f32, zero_add]

/-- A host sum from the zero word over one axis is, at each reduced index, the sum over that axis's coordinates. -/
theorem reduceAdd_single_zero {s t : Shape} {a : Fin s.rank} (x : FVec Ideal s .f32) (h' : s.ReducesTo [a] t) (h : s.Reduces [a] t)
    (hu : 0 < S_.numel) (j : t.Idx) :
    Host.reduceAdd x (constant (F := Ideal) S_ .f32 0x00000000#32) h' hu j = ∑ k : Fin (s.size a), x (h.lift j k) := by
  show Ideal.hostReduceAdd h' x (Ideal.ofBits .f32 0x00000000#32) j = _
  rw [Ideal.hostReduceAdd_single h' h, Ideal.ofBits_zero_f32, zero_add]

/-- A host scatter-add into the zero word broadcast, at an index: the sum of the updates that land there. -/
theorem scatterAdd_zero_apply {s si u : Shape} (d : ScatterDims s si u) (hb : S_.BroadcastsInDim s (![] : Fin 0 → Fin s.rank))
    (idx : IVec si 32) (upd : FVec Ideal u .f32) (i : s.Idx) :
    Host.scatterAdd d (broadcastInDim s ![] hb (constant (F := Ideal) S_ .f32 0x00000000#32)) idx upd i
      = ∑ j ∈ Finset.univ.filter (fun j => d.resultIdx? j idx = some i), upd j := by
  show Ideal.ofBits .f32 0x00000000#32 + _ = _
  rw [Ideal.ofBits_zero_f32, zero_add]

/-- A scalar word broadcast to the 64 segments reads the word's value everywhere. -/
theorem bcast64_const_apply (w : BitVec 32) (j : S64.Idx) :
    broadcastInDim S64 ![] bcast_S_S64 (constant (F := Ideal) S_ .f32 w) j = Ideal.ofBits .f32 w := rfl

/-- The rows' sums of squared differences, read at row `i`. -/
theorem sq_apply (p t : FVec Ideal S320000x128 .f32) (i : Fin 320000) :
    Host.reduceAdd (mulf (subf p t) (subf p t)) (constant (F := Ideal) S_ .f32 0x00000000#32) reducesTo_S320000x128_S320000_d1 h_S_ (ix1 i)
      = Cert.Spec.sq p t i := by
  have hr : S320000x128.Reduces [1] S320000 := by decide
  rw [reduceAdd_single_zero _ _ hr]
  unfold Cert.Spec.sq
  refine Finset.sum_congr rfl fun d _ => ?_
  have hl : hr.lift (ix1 i : S320000.Idx) d = ix2 i d := by
    funext c; refine Fin.ext ?_
    match c with
    | ⟨0, _⟩ => rfl
    | ⟨1, _⟩ => rfl
  rw [hl]
  rfl

/-- A scatter-add into 64 zeros by the segment ids, read at segment `s`: the sum of the updates of the rows whose id is `s`. -/
theorem scatter_apply (b : IVec S320000 32) (upd : FVec Ideal S320000 .f32) (s : Fin 64) :
    Host.scatterAdd scatter_S64_S320000x1_S320000_n_0_0_1
        (broadcastInDim S64 ![] bcast_S_S64 (constant (F := Ideal) S_ .f32 0x00000000#32))
        (broadcastInDim S320000x1 ![0] bcast_S320000_S320000x1_0 b) upd (ix1 s)
      = ∑ i : Fin 320000, if (b (ix1 i)).toNat = s.val then upd (ix1 i) else 0 := by
  rw [scatterAdd_zero_apply, Finset.sum_filter, sum_idx1]
  refine Finset.sum_congr rfl fun i _ => ?_
  exact if_congr (resultIdx_iff b i s) rfl rfl

/-- The composed term is the specification's function of the four arguments. -/
theorem term_eq_loss (p t : FVec Ideal S320000x128 .f32) (f : IVec S320000 1) (b : IVec S320000 32) :
    term (F := Ideal) p t f b = Cert.Spec.loss p t f b := by
  funext j
  unfold term Cert.Spec.loss
  rw [hostDivf_apply, constant_apply, reduceAdd_total_zero _ _ _ (fun a => a.elim0), sum_idx1]
  refine congrArg (fun x => Ideal.div x (Ideal.ofBits .f32 0x42800000#32)) ?_
  refine Finset.sum_congr rfl fun s _ => ?_
  rw [hostDivf_apply, maximumf_apply, bcast64_const_apply, scatter_apply, scatter_apply]
  unfold Cert.Spec.num Cert.Spec.cnt
  refine congrArg₂ Ideal.div ?_ (congrArg (fun x => max x (Ideal.ofBits .f32 0x3F800000#32)) ?_)
  · refine Finset.sum_congr rfl fun i _ => ?_
    refine if_congr Iff.rfl ?_ rfl
    rw [mulf_apply, sq_apply]
    rfl
  · refine Finset.sum_congr rfl fun i _ => ?_
    rfl

end Cert.ReferenceIdeal.RefValue

end
-- ==== Proof.RefRun.lean ====
/-
  The reference's run against the specification: every weakly fair execution of the reference terminates, nothing
  faulting, with the returned scalar at `Cert.Spec.loss` of the two float arrays, the flags and the segment ids, and
  the six arguments unchanged. It is the straight-line run (RefOps), its fold read at the scalar and the arguments
  (RefTerm), and the composed term identified with the specification (RefSpec). The precondition is not used: no
  operation of the reference has a side condition, and the scatter's landing condition agrees with the
  specification's for every 32-bit segment id.
-/
import proofs.«205036_g29618094473603_cont_9to1_1720_19_alg».proof.Defs
import proofs.«205036_g29618094473603_cont_9to1_1720_19_alg».proof.Proof.Gen.ReferenceIdeal
import proofs.«205036_g29618094473603_cont_9to1_1720_19_alg».proof.Proof.Gen.Pre_input_domain
import proofs.«205036_g29618094473603_cont_9to1_1720_19_alg».proof.Proof.Spec
import proofs.«205036_g29618094473603_cont_9to1_1720_19_alg».proof.Proof.RefOps
import proofs.«205036_g29618094473603_cont_9to1_1720_19_alg».proof.Proof.RefTerm
import proofs.«205036_g29618094473603_cont_9to1_1720_19_alg».proof.Proof.RefSpec

noncomputable section

open Idealize.ShloMosaic Idealize.SL.Sem

theorem Cert.ReferenceIdeal.RefValue.run [hReferenceIdeal : Cert.ReferenceIdeal.Facts] [hPre_input_domain : Cert.Pre_input_domain.Facts]
    (m : (ℓ : Loc Cert.ReferenceIdeal.nD Cert.ReferenceIdeal.τ Cert.ReferenceIdeal.sig) → Buf (Elt Ideal) ℓ) (g : Dev Cert.ReferenceIdeal.nD → PrngReg)
    (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v18)
          = Cert.Spec.loss (m ((c.tc : Thread _ _).loc Cert.ReferenceIdeal.main_arg0)) (m ((c.tc : Thread _ _).loc Cert.ReferenceIdeal.main_arg1))
              (m ((c.tc : Thread _ _).loc Cert.ReferenceIdeal.main_arg3)) (m ((c.tc : Thread _ _).loc Cert.ReferenceIdeal.main_arg4))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2)
        ∧ r.2.mem ((c.tc : Thread _ _).loc Cert.ReferenceIdeal.main_arg3) = m ((c.tc : Thread _ _).loc Cert.ReferenceIdeal.main_arg3)
        ∧ r.2.mem ((c.tc : Thread _ _).loc Cert.ReferenceIdeal.main_arg4) = m ((c.tc : Thread _ _).loc Cert.ReferenceIdeal.main_arg4)
        ∧ r.2.mem ((c.tc : Thread _ _).loc Cert.ReferenceIdeal.main_arg5) = m ((c.tc : Thread _ _).loc Cert.ReferenceIdeal.main_arg5)) :=
  (θ_run _ _ _).mono (fun _ h c => ⟨(h c).1.trans (Cert.ReferenceIdeal.RefValue.term_eq_loss _ _ _ _), (h c).2⟩)
    (Cert.ReferenceIdeal.RefValue.run_term (F := Ideal) m g)

end
-- ==== Proof.Assemble.lean ====
/-
  The claim's conjuncts from the programs' runs.

  The reference's frame is its run with the result dropped. The two idealized programs agree because each one's run
  ends with its result at the one specification (the masked per-segment mean, averaged) of its own arguments, and the
  arguments agree; the precondition of the reference's memory is the kernel's, read through that agreement.
-/
import proofs.«205036_g29618094473603_cont_9to1_1720_19_alg».proof.Defs
import proofs.«205036_g29618094473603_cont_9to1_1720_19_alg».proof.Proof.RefRun

noncomputable section

namespace Cert.Proof.Assemble

open Idealize.ShloMosaic Idealize.SL.Sem

/-- The idealized kernel's run with its result named: it ends, faults nowhere, leaves the arguments, and its result is
    the specification of the arguments. -/
def KernelRunIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Cert.Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_v8)
        = Cert.Spec.loss (m ((c.tc : Thread _ _).loc Cert.KernelIdeal.main_arg0)) (m ((c.tc : Thread _ _).loc Cert.KernelIdeal.main_arg1))
            (m ((c.tc : Thread _ _).loc Cert.KernelIdeal.main_arg3)) (m ((c.tc : Thread _ _).loc Cert.KernelIdeal.main_arg4))
      ∧ r.2.mem ((c.tc : Thread _ _).loc Cert.KernelIdeal.main_arg0) = m ((c.tc : Thread _ _).loc Cert.KernelIdeal.main_arg0)
      ∧ r.2.mem ((c.tc : Thread _ _).loc Cert.KernelIdeal.main_arg1) = m ((c.tc : Thread _ _).loc Cert.KernelIdeal.main_arg1)
      ∧ r.2.mem ((c.tc : Thread _ _).loc Cert.KernelIdeal.main_arg2) = m ((c.tc : Thread _ _).loc Cert.KernelIdeal.main_arg2)
      ∧ r.2.mem ((c.tc : Thread _ _).loc Cert.KernelIdeal.main_arg3) = m ((c.tc : Thread _ _).loc Cert.KernelIdeal.main_arg3)
      ∧ r.2.mem ((c.tc : Thread _ _).loc Cert.KernelIdeal.main_arg4) = m ((c.tc : Thread _ _).loc Cert.KernelIdeal.main_arg4)
      ∧ r.2.mem ((c.tc : Thread _ _).loc Cert.KernelIdeal.main_arg5) = m ((c.tc : Thread _ _).loc Cert.KernelIdeal.main_arg5))

theorem frame_ri [hReferenceIdeal : Cert.ReferenceIdeal.Facts] [hPre_input_domain : Cert.Pre_input_domain.Facts] : Cert.frame_ReferenceIdeal :=
  fun m g hpre => (θ_run (Cert.ReferenceIdeal.defs (F := Ideal)) _ _).mono (fun _ h c => (h c).2) (Cert.ReferenceIdeal.RefValue.run m g hpre)

theorem frame_ki [hKernelIdeal : Cert.KernelIdeal.Facts] [hPre_input_domain : Cert.Pre_input_domain.Facts] (hk : KernelRunIdeal) : Cert.frame_KernelIdeal :=
  fun m g hpre => (θ_run (Cert.KernelIdeal.defs (F := Ideal)) _ _).mono (fun _ h c => (h c).2) (hk m g hpre)

theorem preserves : Cert.preserves_Kernel_KernelIdeal := trivial

theorem algebraic [hKernelIdeal : Cert.KernelIdeal.Facts] [hReferenceIdeal : Cert.ReferenceIdeal.Facts] [hPre_input_domain : Cert.Pre_input_domain.Facts]
    (hk : KernelRunIdeal) : Cert.algebraic_KernelIdeal_ReferenceIdeal := by
  intro m g m' g' hpre hagree
  have hpre' : Cert.Pre_ReferenceIdeal m' := fun c => by
    have := hpre c
    obtain ⟨e0, e1, e2, e3, e4, e5⟩ := hagree c
    show Cert.Pre_input_domain.fn (F := Ideal) _ _ _ _ _ _ = _
    rw [e0, e1, e2, e3, e4, e5]; exact this
  refine ⟨fun c => Cert.Spec.loss (m ((c.tc : Thread _ _).loc Cert.KernelIdeal.main_arg0)) (m ((c.tc : Thread _ _).loc Cert.KernelIdeal.main_arg1))
      (m ((c.tc : Thread _ _).loc Cert.KernelIdeal.main_arg3)) (m ((c.tc : Thread _ _).loc Cert.KernelIdeal.main_arg4)), hk m g hpre, ?_⟩
  refine (θ_run (Cert.ReferenceIdeal.defs (F := Ideal)) _ _).mono (fun _ h c => ⟨?_, (h c).2⟩) (Cert.ReferenceIdeal.RefValue.run m' g' hpre')
  obtain ⟨e0, e1, e2, e3, e4, e5⟩ := hagree c
  rw [(h c).1, e0, e1, e3, e4]

end Cert.Proof.Assemble

end
-- ==== Proof.Common.lean ====
/-
  The program as the launch theorem for SparseCore programs sees it: its one SparseCore call's configuration, the body
  table under it (the tile kernel and the two TensorCore pipelines), and the side conditions of the launch protocol's
  four semaphores, each decided from the printed signature.
-/
import proofs.«205036_g29618094473603_cont_9to1_1720_19_alg».proof.KernelIdeal
import Idealize.ShloMosaic.Lib.SparseCore.Launch

noncomputable section

namespace Cert.KernelIdeal.Launch

open Cert.KernelIdeal
open Idealize.ShloMosaic
open Idealize.ShloMosaic.SparseCore (S V T)
open Idealize.ShloMosaic.SparseCore.Cfg (HIx Pay)
open Idealize.SL Idealize.SL.Sem

variable {F : FTy → Type} [Cert.KernelIdeal.Facts]

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Cert.KernelIdeal.Launch

end
-- ==== Proof.TileRes.lean ====
/-
  What one tile of the SparseCore kernel is handed and hands back, and how the two output arrays split among the tiles.

  The kernel's four inputs (pred, tgt, the segment ids, the flags as floats) are read by all 32 tiles at once and
  written by none: a tile holds a read share of each, whole. Its two outputs are 32 x 64 x 16 arrays of which tile w
  writes block w (all of axes 1 and 2 at coordinate w of axis 0) and nothing else: a tile holds its block of each, in
  full. The 32 blocks are pairwise disjoint and cover the array, so the array held whole is the blocks held apart, and
  blocks held apart at any contents join into the array held whole at the contents that agree with each on its block.
-/
import proofs.«205036_g29618094473603_cont_9to1_1720_19_alg».proof.KernelIdeal
import Idealize.ShloMosaic.Lib.SparseCore.Launch
import Idealize.ShloMosaic.Lib.Transfers
import Idealize.ShloMosaic.Lib.ValueIdx

noncomputable section

namespace Cert.KernelIdeal.Tile

open Cert.KernelIdeal
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} {UU : Type} [URA UU]

local notation "𝕄" => MT nD τ sig (HIx 1) (Elt F) ℕ UU ℕ

/-! ## The arrays, as the TensorCore names them -/

abbrev pLoc (d : Dev nD) : Loc nD τ sig := (SparseCore.T d).loc main_arg0
abbrev tLoc (d : Dev nD) : Loc nD τ sig := (SparseCore.T d).loc main_arg1
abbrev bLoc (d : Dev nD) : Loc nD τ sig := (SparseCore.T d).loc main_arg4
abbrev fLoc (d : Dev nD) : Loc nD τ sig := (SparseCore.T d).loc main_v0
abbrev nLoc (d : Dev nD) : Loc nD τ sig := (SparseCore.T d).loc main_v5_0
abbrev cLoc (d : Dev nD) : Loc nD τ sig := (SparseCore.T d).loc main_v5_1

/-! ## The 32 blocks of an output array -/

theorem hdiv : 32 ∣ S32x64x16.size 0 := ⟨1, rfl⟩

/-- Block `w`: coordinate `w` on axis 0, everything on axes 1 and 2. -/
abbrev blk (w : Fin 32) : Rect S32x64x16 := Rect.part (s := S32x64x16) (a₀ := 0) hdiv w
abbrev blkSet (w : Fin 32) : Finset S32x64x16.Idx := (blk w).set

theorem blks_disjoint : ∀ i ∈ (Finset.univ : Finset (Fin 32)), ∀ j ∈ (Finset.univ : Finset (Fin 32)), i ≠ j → Disjoint (blkSet i) (blkSet j) :=
  fun _ _ _ _ h => Rect.part_disjoint hdiv h
theorem blks_cover : (Finset.univ : Finset (Fin 32)).biUnion blkSet = Finset.univ := Rect.biUnion_part hdiv

/-- The tile number of subcore `i` of SparseCore `c`. -/
def tileNo (c : Fin 2) (i : Fin 16) : Fin 32 := ⟨16 * c.val + i.val, by omega⟩

/-- An output array held whole is its 32 blocks held apart (same contents). -/
theorem nPts_blocks (d : Dev nD) (f : Buf (Elt F) (nLoc d)) :
    (nLoc d ↦{fullShare} f : sProp 𝕄) = bigSep Finset.univ fun w : Fin 32 => nLoc d ↦[blkSet w]{fullShare} f := by
  rw [← pointsTo_biUnion Finset.univ (ℓ := nLoc d) blkSet blks_disjoint, blks_cover]; try rfl
theorem cPts_blocks (d : Dev nD) (f : Buf (Elt F) (cLoc d)) :
    (cLoc d ↦{fullShare} f : sProp 𝕄) = bigSep Finset.univ fun w : Fin 32 => cLoc d ↦[blkSet w]{fullShare} f := by
  rw [← pointsTo_biUnion Finset.univ (ℓ := cLoc d) blkSet blks_disjoint, blks_cover]; try rfl

/-! ## A tile's resources -/

/-- The four inputs, each whole at share `q`. -/
def inShares (q : PosShare TreeShare) (d : Dev nD) (p : Buf (Elt F) (pLoc d)) (t : Buf (Elt F) (tLoc d)) (b : Buf (Elt F) (bLoc d))
    (fl : Buf (Elt F) (fLoc d)) : sProp 𝕄 :=
  iprop((pLoc d ↦{q} p) ∗ (tLoc d ↦{q} t) ∗ (bLoc d ↦{q} b) ∗ (fLoc d ↦{q} fl))

/-- What tile `w` is handed: its read shares of the inputs, and block `w` of each output at whatever it holds. -/
def goRes (q : PosShare TreeShare) (d : Dev nD) (w : Fin 32) (p : Buf (Elt F) (pLoc d)) (t : Buf (Elt F) (tLoc d))
    (b : Buf (Elt F) (bLoc d)) (fl : Buf (Elt F) (fLoc d)) : sProp 𝕄 :=
  iprop(inShares q d p t b fl ∗ (∃ f, nLoc d ↦[blkSet w]{fullShare} f) ∗ (∃ f, cLoc d ↦[blkSet w]{fullShare} f))

/-- An output array's contents hold table `N` on block `w`. -/
def HoldsOn (w : Fin 32) (N : FVec F S64x16 .f32) (f : S32x64x16.Idx → F .f32) : Prop :=
  ∀ (s : Fin 64) (l : Fin 16), f (ix3 w s l) = N (ix2 s l)

/-- What tile `w` hands back: the shares, and its two blocks holding the tables `N` and `C`. -/
def tdRes (q : PosShare TreeShare) (d : Dev nD) (w : Fin 32) (p : Buf (Elt F) (pLoc d)) (t : Buf (Elt F) (tLoc d))
    (b : Buf (Elt F) (bLoc d)) (fl : Buf (Elt F) (fLoc d)) (N C : FVec F S64x16 .f32) : sProp 𝕄 :=
  iprop(inShares q d p t b fl
    ∗ (∃ f : Buf (Elt F) (nLoc d), ⌜HoldsOn w N f⌝ ∗ nLoc d ↦[blkSet w]{fullShare} f)
    ∗ (∃ f : Buf (Elt F) (cLoc d), ⌜HoldsOn w C f⌝ ∗ cLoc d ↦[blkSet w]{fullShare} f))

end Cert.KernelIdeal.Tile

end
-- ==== Proof.LaunchPay.lean ====
/-
  What the SparseCore call's handshakes carry, and how a SparseCore's share splits among its 16 tiles.

  The TensorCore hands each of the two SparseCores a read share of the four input arrays and the 16 blocks of each
  output array that its tiles write; the SparseCore's sequencer hands tile i a read share of its own share and block
  16 c + i of each output; the tiles hand back the same shares and their blocks holding their tables; the shares rejoin
  (a read share split into a remainder and sixteen tokens is the remainder and the tokens put together again).
-/
import proofs.«205036_g29618094473603_cont_9to1_1720_19_alg».proof.Proof.Common
import proofs.«205036_g29618094473603_cont_9to1_1720_19_alg».proof.Proof.TileRes
import Idealize.ShloMosaic.Lib.Pipeline.Kit

noncomputable section

namespace Cert.KernelIdeal.Launch

open Cert.KernelIdeal Cert.KernelIdeal.Tile
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok pointsTo_toks_split pointsTo_toks_join)

variable {F : FTy → Type} [Cert.KernelIdeal.Facts]

/-! ## The resource algebra: the handshakes' rounds, the pipelines' ghost state, the local copies' counters -/

abbrev UH : Type := URounds (GSem nD τ sig) ℕ
abbrev UU (UP : Type) [URA UP] : Type := UH × (UP × Counters)

variable {UP : Type} [URA UP]

local notation "𝕄" => MT nD τ sig (HIx 1) (Elt F) ℕ (UU UP) ℕ

abbrev EH : Emb UH (MT nD τ sig (HIx 1) (Elt F) ℕ (UU UP) ℕ) := embL

/-! ## Shares -/

/-- SparseCore `c`'s read share of an input, and tile `i`'s share of that. -/
abbrev qCore (c : Fin 2) : PosShare TreeShare := shareTok fullShare 2 c
abbrev qTile (c : Fin 2) (i : Fin 16) : PosShare TreeShare := shareTok (qCore c) 16 i

/-- The 32 tables laid out as one array: block `w` holds table `w`. -/
def fill (Tf : Fin 32 → FVec F S64x16 .f32) : S32x64x16.Idx → F .f32 :=
  fun j => Tf (Fin.cast rfl (j 0)) (ValueIdx.ix2 (Fin.cast rfl (j 1)) (Fin.cast rfl (j 2)))

/-- Contents that hold table `w` on block `w` agree on that block with the 32 tables laid out as one array. -/
theorem holds_fill (w : Fin 32) (Tf : Fin 32 → FVec F S64x16 .f32) (f : S32x64x16.Idx → F .f32) (h : HoldsOn w (Tf w) f)
    (j : S32x64x16.Idx) (hj : j ∈ blkSet w) : f j = fill Tf j := by
  have h0 : (j 0).val = w.val := by
    have := (Rect.mem_set_unit.mp hj) 0
    simp only [Shape.partIx, Shape.partSize, ↓reduceIte] at this
    have h1 : (![32, 64, 16] : Fin 3 → ℕ) 0 / 32 = 1 := by decide
    simp only [h1] at this
    omega
  have e : j = ValueIdx.ix3 w (Fin.cast rfl (j 1)) (Fin.cast rfl (j 2)) := by
    funext a
    match a with
    | ⟨0, _⟩ => exact Fin.ext h0
    | ⟨1, _⟩ => rfl
    | ⟨2, _⟩ => rfl
  have hw : (Fin.cast rfl (j 0) : Fin 32) = w := Fin.ext h0
  unfold fill
  rw [hw]
  conv_lhs => rw [e]
  exact h _ _

section Pay

variable (d : Dev nD) (p : Buf (Elt F) (pLoc d)) (t : Buf (Elt F) (tLoc d)) (b : Buf (Elt F) (bLoc d)) (fl : Buf (Elt F) (fLoc d))
-- the tables the 32 tiles leave, as given functions of the tile number
variable (Nf Cf : Fin 32 → FVec F S64x16 .f32)

/-- A SparseCore's 16 blocks of the two outputs, at whatever they hold. -/
def outBlocks (c : Fin 2) : sProp 𝕄 :=
  bigSep Finset.univ fun i : Fin 16 => iprop((∃ f, nLoc d ↦[blkSet (tileNo c i)]{fullShare} f) ∗ (∃ f, cLoc d ↦[blkSet (tileNo c i)]{fullShare} f))

/-- The same blocks, holding the tiles' tables. -/
def outTables (c : Fin 2) : sProp 𝕄 :=
  bigSep Finset.univ fun i : Fin 16 => iprop((nLoc d ↦[blkSet (tileNo c i)]{fullShare} (fill Nf : Buf (Elt F) (nLoc d)))
    ∗ (cLoc d ↦[blkSet (tileNo c i)]{fullShare} (fill Cf : Buf (Elt F) (cLoc d))))

def stRes (c : Fin 2) : sProp 𝕄 := iprop(inShares (qCore c) d p t b fl ∗ outBlocks d c)
def dnRes (c : Fin 2) : sProp 𝕄 := iprop(inShares (qCore c) d p t b fl ∗ outTables d Nf Cf c)
def goTile (c : Fin 2) (i : Fin 16) : sProp 𝕄 :=
  iprop(inShares (qTile c i) d p t b fl ∗ (∃ f, nLoc d ↦[blkSet (tileNo c i)]{fullShare} f) ∗ (∃ f, cLoc d ↦[blkSet (tileNo c i)]{fullShare} f))
def tdTile (c : Fin 2) (i : Fin 16) : sProp 𝕄 :=
  iprop(inShares (qTile c i) d p t b fl ∗ (nLoc d ↦[blkSet (tileNo c i)]{fullShare} (fill Nf : Buf (Elt F) (nLoc d)))
    ∗ (cLoc d ↦[blkSet (tileNo c i)]{fullShare} (fill Cf : Buf (Elt F) (cLoc d))))

/-- A tile's result in the tile kernel's own terms is its result in these: contents that hold table `w` on block `w`
    agree there with the laid-out array. -/
theorem tdRes_tdTile (c : Fin 2) (i : Fin 16) :
    (tdRes (qTile c i) d (tileNo c i) p t b fl (Nf (tileNo c i)) (Cf (tileNo c i)) : sProp 𝕄) ⊢ tdTile d p t b fl Nf Cf c i := by
  unfold tdRes tdTile
  iintro ⟨Hs, ⟨%fn, %hn, Hn⟩, ⟨%fc, %hc, Hc⟩⟩
  isplitl [Hs]; · iexact Hs
  isplitl [Hn]
  · iapply (Entails.of_eq (pointsTo_congr (f := fn) (g := (fill Nf : Buf (Elt F) (nLoc d))) (fun j hj => holds_fill (tileNo c i) Nf fn hn j hj))); iexact Hn
  · iapply (Entails.of_eq (pointsTo_congr (f := fc) (g := (fill Cf : Buf (Elt F) (cLoc d))) (fun j hj => holds_fill (tileNo c i) Cf fc hc j hj))); iexact Hc

theorem goTile_eq (c : Fin 2) (i : Fin 16) : (goTile d p t b fl c i : sProp 𝕄) = goRes (qTile c i) d (tileNo c i) p t b fl := rfl

/-- One input array's share, split among the 16 tiles and back. -/
theorem share_split16 {ℓ : Loc nD τ sig} (q : PosShare TreeShare) (f : Buf (Elt F) ℓ) :
    (ℓ ↦{q} f : sProp 𝕄) ⊢ iprop((ℓ ↦{Transfers.shareDrop q 16} f) ∗ bigSep Finset.univ (fun i : Fin 16 => ℓ ↦{shareTok q 16 i} f)) :=
  pointsTo_toks_split q 16
theorem share_join16 {ℓ : Loc nD τ sig} (q : PosShare TreeShare) (f : Buf (Elt F) ℓ) :
    iprop((ℓ ↦{Transfers.shareDrop q 16} f) ∗ bigSep Finset.univ (fun i : Fin 16 => ℓ ↦{shareTok q 16 i} f)) ⊢ (ℓ ↦{q} f : sProp 𝕄) :=
  pointsTo_toks_join q 16

end Pay

end Cert.KernelIdeal.Launch

end
-- ==== Proof.LaunchSplit.lean ====
/-
  The call's payloads as a record, and the split of a SparseCore's payload among its tiles.

  Each of the four inputs held at the SparseCore's share is a remainder and sixteen tokens, one per tile; with its two
  blocks a token set is a tile's payload. Coming back, the sixteen token sets and the remainders are the SparseCore's
  shares again, and the tiles' blocks, holding their tables, are its 16 blocks of each output.
-/
import proofs.«205036_g29618094473603_cont_9to1_1720_19_alg».proof.Proof.LaunchPay

noncomputable section

namespace Cert.KernelIdeal.Launch

open Cert.KernelIdeal Cert.KernelIdeal.Tile
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [Cert.KernelIdeal.Facts] {UP : Type} [URA UP]

local notation "𝕄" => MT nD τ sig (HIx 1) (Elt F) ℕ (UU UP) ℕ

section Split

variable (d : Dev nD) (p : Buf (Elt F) (pLoc d)) (t : Buf (Elt F) (tLoc d)) (b : Buf (Elt F) (bLoc d)) (fl : Buf (Elt F) (fLoc d))
variable (Nf Cf : Fin 32 → FVec F S64x16 .f32)

theorem vecSplit_core (c : Fin 2) :
    (stRes (UP := UP) d p t b fl c : sProp 𝕄) ⊢ |={Set.univ}=> iprop((bigSep Finset.univ fun i : Fin 16 => goTile (UP := UP) d p t b fl c i)
      ∗ ((bigSep Finset.univ fun i : Fin 16 => tdTile (UP := UP) d p t b fl Nf Cf c i) -∗ dnRes (UP := UP) d p t b fl Nf Cf c)) := by
  unfold stRes dnRes goTile tdTile inShares outBlocks outTables
  simp only [bigSep_sep']
  iintro ⟨⟨Hp, Ht, Hb, Hf⟩, Hn, Hc⟩
  ihave Hp' := (share_split16 (UP := UP) (qCore c) p) $$ Hp
  icases Hp' with ⟨Rp, Tp⟩
  ihave Ht' := (share_split16 (UP := UP) (qCore c) t) $$ Ht
  icases Ht' with ⟨Rt, Tt⟩
  ihave Hb' := (share_split16 (UP := UP) (qCore c) b) $$ Hb
  icases Hb' with ⟨Rb, Tb⟩
  ihave Hf' := (share_split16 (UP := UP) (qCore c) fl) $$ Hf
  icases Hf' with ⟨Rf, Tf⟩
  imodintro
  isplitl [Tp Tt Tb Tf Hn Hc]
  · isplitl [Tp Tt Tb Tf]
    · isplitl [Tp]; · iexact Tp
      isplitl [Tt]; · iexact Tt
      isplitl [Tb]; · iexact Tb
      iexact Tf
    isplitl [Hn]; · iexact Hn
    iexact Hc
  iintro ⟨⟨Tp, Tt, Tb, Tf⟩, Htab⟩
  isplitl [Rp Tp Rt Tt Rb Tb Rf Tf]
  · isplitl [Rp Tp]
    · iapply (share_join16 (UP := UP) (qCore c) p); isplitl [Rp]; · iexact Rp
      iexact Tp
    isplitl [Rt Tt]
    · iapply (share_join16 (UP := UP) (qCore c) t); isplitl [Rt]; · iexact Rt
      iexact Tt
    isplitl [Rb Tb]
    · iapply (share_join16 (UP := UP) (qCore c) b); isplitl [Rb]; · iexact Rb
      iexact Tb
    iapply (share_join16 (UP := UP) (qCore c) fl); isplitl [Rf]; · iexact Rf
    iexact Tf
  iexact Htab

end Split

end Cert.KernelIdeal.Launch

end
-- ==== Proof.TcAlg.lean ====
/-
  The ghost state the program's proof is carried in, and the two TensorCore pipelines' place in it.

  Three protocols run side by side and never meet: the handshakes between the TensorCore, the sequencers and the
  tiles (rounds whose duties are numbered), the staging cells of the two TensorCore pipelines (rounds whose duties
  are unnamed: one transfer per round), and the tiles' local copies (plain counters). The algebra is their product;
  each protocol owns its factor through an embedding, and the launch element is the triple of their launch elements.
-/
import proofs.«205036_g29618094473603_cont_9to1_1720_19_alg».proof.Proof.Gen.KernelIdeal.Launch
import proofs.«205036_g29618094473603_cont_9to1_1720_19_alg».proof.Proof.Gen.KernelIdeal.Points
import Idealize.ShloMosaic.Lib.SparseCore.Launch
import Idealize.ShloMosaic.Lib.Pipeline.Regions
import Idealize.ShloMosaic.Lib.Pipeline.Kit
import Idealize.ShloMosaic.Lib.Transfers
import Idealize.ShloMosaic.Lib.Tactic

noncomputable section

namespace Cert.KernelIdeal.TcRegions

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem and the region rule see it -/

/-- The labels of the pipelines' layer: the kernels' labels and, per pallas_call, its region and pipeline. -/
abbrev ΛP : Labels := Pipeline.Sig Λ₀ (Fin 2) fun p => (pcfgs (F := F) p).Adm
/-- The SparseCore calls. -/
abbrev K : SparseCore.Cfg τ sig (ΛP (F := F)) 1 := sc (F := F)
/-- The body table under the SparseCore layer. -/
abbrev D [FloatOps F] : Defs nD τ sig (Elt F) (ΛP (F := F)) := Pipeline.defs pcfgs defs₀
/-- No kernel body has a loop: no variants of the kernels' own. -/
abbrev 𝒱₀ : Variants := Variants.none
abbrev 𝒱 : Variants := 𝒱₀.lift
/-- Neither pipeline has a prefetched table: the one admissible contents. -/
abbrev adm : (p : Fin 2) → (pcfgs (F := F) p).Adm := fun p => (cfgs p).toPCfg_adm

/-! ## The resource algebra -/

/-- The handshakes' rounds (duties numbered). -/
abbrev UH : Type := URounds (GSem nD τ sig) ℕ
/-- The pipelines' staging cells' rounds (duties unnamed). -/
abbrev UP : Type := UR sig nD τ
/-- Handshakes, staging cells, the tiles' local copies. -/
abbrev UU : Type := UH × (UP × Counters)

local notation "𝕄" => MT nD τ sig (HIx 1) (Elt F) ℕ UU ℕ

/-- The handshakes' factor. -/
abbrev EH : Emb UH (MT nD τ sig (HIx 1) (Elt F) ℕ UU ℕ) := embL
/-- The staging cells' factor: the left of the right. -/
abbrev EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP embR; infer_instance

/-- The staging cells of both pipelines are pairwise distinct, in the region rule's spelling. -/
theorem phinj : Function.Injective (Pipeline.cellOf (nD := nD) (τ := τ) (Pipeline.pin (pcfgs (F := F)) adm)) := cellOf_inj

/-- The launch element of the staging cells' factor: every cell unscheduled at round 0, one duty token per transfer
    either pipeline will issue. -/
def uP₀ : UP := initOf (Pipeline.cells (nD := nD) (τ := τ) cfgs cellOf_inj) (Pipeline.launchToks (nD := nD) (τ := τ) cfgs cellOf_inj)

/-- What the TensorCore of device `c` is dealt for the two pipelines: per pipeline, its cells' launch state and
    its duty tokens. -/
def pipesGhost (c : Dev nD) : sProp 𝕄 :=
  bigSep (Finset.univ : Finset (Fin 2)) fun p => iprop(Pipeline.cellsGhost (nD := nD) (τ := τ) cfgs (EP (F := F)) p c ∗ Pipeline.toksInit (nD := nD) (τ := τ) cfgs (EP (F := F)) p c)

/-- Funding: the staging cells' launch element pays every device's `pipesGhost`. -/
theorem fund_pipes : (BI.own ((EP (F := F)) uP₀) : sProp 𝕄) ⊢ iprop(|==> bigSep Finset.univ fun c : Dev nD => pipesGhost (F := F) c) := by
  unfold uP₀ pipesGhost
  iintro Hu
  imod (Pipeline.fund_ghost (nD := nD) (τ := τ) cfgs (EP (F := F)) cellOf_inj) $$ Hu with ⟨Hg, Ht⟩
  imodintro
  simp only [bigSep_sep']
  isplitl [Hg] <;> iassumption

/-- A launch element `(h, (p, k))` of the product splits into its three owners. -/
theorem ownU_triple (h : UH) (p : UP) (k : Counters) :
    (ownU ((h, (p, k)) : UU) : sProp 𝕄) ⊢ iprop(BI.own ((EH (F := F)) h) ∗ BI.own ((EP (F := F)) p)
      ∗ BI.own (((Emb.inr : Emb Counters (UP × Counters)).trans (embR : Emb (UP × Counters) (MT nD τ sig (HIx 1) (Elt F) ℕ UU ℕ))) k)) := by
  iintro Hu
  ihave H := (ownU_pair (nD := nD) (τ := τ) (sig := sig) (Ix := HIx 1) (Val := Elt F) (Name := ℕ) (Lvl := ℕ) h (p, k)) $$ Hu
  icases H with ⟨Hh, Hr⟩
  isplitl [Hh]; · iexact Hh
  iapply (own_pair_emb (embR : Emb (UP × Counters) (MT nD τ sig (HIx 1) (Elt F) ℕ UU ℕ)) p k)
  iexact Hr

end Cert.KernelIdeal.TcRegions

end
-- ==== Proof.LaunchP.lean ====
/-
  The launch theorem's inputs for the SparseCore call: the payload record, the split among the tiles, the launch
  element of the ghost state, and the tile's obligation reduced to the tile kernel's own specification.
-/
import proofs.«205036_g29618094473603_cont_9to1_1720_19_alg».proof.Proof.LaunchSplit
import proofs.«205036_g29618094473603_cont_9to1_1720_19_alg».proof.Proof.TcAlg

noncomputable section

namespace Cert.KernelIdeal.Launch

open Cert.KernelIdeal Cert.KernelIdeal.Tile
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.TcRegions (UP EP uP₀ pipesGhost fund_pipes ownU_triple)

variable {F : FTy → Type} [FloatOps F] [Cert.KernelIdeal.Facts]

local notation "𝕄" => MT nD τ sig (HIx 1) (Elt F) ℕ (UU UP) ℕ

variable (m : (ℓ : Loc nD τ sig) → Buf (Elt F) ℓ)
variable (Nf Cf : Fin 32 → FVec F S64x16 .f32)

/-- The flags as floats: what @main's first operation leaves in `main_v0`. -/
def flOf (d : Dev nD) : Buf (Elt F) (fLoc d) :=
  (uitofp .f32 : (⟨S320000, .i1⟩ : BufTy).Contents (Elt F) → (⟨S320000, .f32⟩ : BufTy).Contents (Elt F)) (m ((SparseCore.T d).loc main_arg3))

instance stRes_storable (d : Dev nD) (p t b fl) (c : Fin 2) : BI.Storable (upEmb : UEmb _ 𝕄) (stRes (UP := UP) d p t b fl c) := by
  unfold stRes inShares outBlocks; infer_instance
instance dnRes_storable (d : Dev nD) (p t b fl) (c : Fin 2) : BI.Storable (upEmb : UEmb _ 𝕄) (dnRes (UP := UP) d p t b fl Nf Cf c) := by
  unfold dnRes inShares outTables; infer_instance
instance goTile_storable (d : Dev nD) (p t b fl) (c : Fin 2) (i : Fin 16) : BI.Storable (upEmb : UEmb _ 𝕄) (goTile (UP := UP) d p t b fl c i) := by
  unfold goTile inShares; infer_instance
instance tdTile_storable (d : Dev nD) (p t b fl) (c : Fin 2) (i : Fin 16) : BI.Storable (upEmb : UEmb _ 𝕄) (tdTile (UP := UP) d p t b fl Nf Cf c i) := by
  unfold tdTile inShares; infer_instance

/-- The one call's payloads. -/
def P : (K (F := F)).Pay (nD := nD) (Val := Elt F) (Name := ℕ) (U := UU UP) where
  st := fun q d c => match q with | 0 => stRes (UP := UP) d (m (pLoc d)) (m (tLoc d)) (m (bLoc d)) (flOf m d) (Fin.cast nCore_zero c)
  dn := fun q d c => match q with | 0 => dnRes (UP := UP) d (m (pLoc d)) (m (tLoc d)) (m (bLoc d)) (flOf m d) Nf Cf (Fin.cast nCore_zero c)
  go := fun q d c i => match q with
    | 0 => goTile (UP := UP) d (m (pLoc d)) (m (tLoc d)) (m (bLoc d)) (flOf m d) (Fin.cast nCore_zero c) (Fin.cast nSub_zero i)
  td := fun q d c i => match q with
    | 0 => tdTile (UP := UP) d (m (pLoc d)) (m (tLoc d)) (m (bLoc d)) (flOf m d) Nf Cf (Fin.cast nCore_zero c) (Fin.cast nSub_zero i)
  x := fun _ _ => iprop(emp)

instance P_storable : (P (F := F) m Nf Cf).IsStorable where
  st q d c := match q with | 0 => stRes_storable d _ _ _ _ _
  dn q d c := match q with | 0 => dnRes_storable Nf Cf d _ _ _ _ _
  go q d c i := match q with | 0 => goTile_storable d _ _ _ _ _ _
  td q d c i := match q with | 0 => tdTile_storable Nf Cf d _ _ _ _ _ _

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m Nf Cf) 0 := by
  intro d c
  show (stRes (UP := UP) d (m (pLoc d)) (m (tLoc d)) (m (bLoc d)) (flOf m d) (Fin.cast nCore_zero c) : sProp 𝕄) ⊢ |={Set.univ}=> iprop(
      (bigSep Finset.univ fun i : Fin ((K (F := F)).nSub 0) =>
        goTile (UP := UP) d (m (pLoc d)) (m (tLoc d)) (m (bLoc d)) (flOf m d) (Fin.cast nCore_zero c) (Fin.cast nSub_zero i))
      ∗ ((bigSep Finset.univ fun i : Fin ((K (F := F)).nSub 0) =>
          tdTile (UP := UP) d (m (pLoc d)) (m (tLoc d)) (m (bLoc d)) (flOf m d) Nf Cf (Fin.cast nCore_zero c) (Fin.cast nSub_zero i))
          -∗ dnRes (UP := UP) d (m (pLoc d)) (m (tLoc d)) (m (bLoc d)) (flOf m d) Nf Cf (Fin.cast nCore_zero c)))
  rw [bigSep_tasks (F := F) (fun i => goTile (UP := UP) d (m (pLoc d)) (m (tLoc d)) (m (bLoc d)) (flOf m d) (Fin.cast nCore_zero c) i),
    bigSep_tasks (F := F) (fun i => tdTile (UP := UP) d (m (pLoc d)) (m (tLoc d)) (m (bLoc d)) (flOf m d) Nf Cf (Fin.cast nCore_zero c) i)]
  exact vecSplit_core d _ _ _ _ Nf Cf _

/-! ## The launch element: the handshakes' rounds, the pipelines' staging cells; the counters start empty -/

def u₀ : UU UP := (initOf (K (F := F)).hsCells (K (F := F)).hsToks, (uP₀, 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (UP := UP) (initOf (K (F := F)).hsCells (K (F := F)).hsToks)) ∗ (bigSep Finset.univ fun d : Dev nD => pipesGhost (F := F) d)
        ∗ bigSep Finset.univ fun thr : Thread nD τ => bigSep Finset.univ fun q : Fin 1 => (P m Nf Cf).x q thr) := by
  unfold u₀
  iintro Hu
  ihave H := (ownU_triple (F := F) _ _ _) $$ Hu
  icases H with ⟨HH, HP, -⟩
  imod (fund_pipes (F := F)) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.KernelIdeal.Launch

end
-- ==== Proof.LaunchCall.lean ====
/-
  The TensorCore's side of the SparseCore call: what it hands the two SparseCores and what comes back.

  Each input array held whole is a remainder and one read token per SparseCore; each output array held whole is its
  32 blocks, sixteen per SparseCore (tile 16 c + i is subcore i of SparseCore c). Coming back, the tokens and the
  remainder are the array held whole again, and the 32 blocks, holding the 32 tables, are the output array held whole
  at the tables laid out block by block.
-/
import proofs.«205036_g29618094473603_cont_9to1_1720_19_alg».proof.Proof.LaunchPay

noncomputable section

namespace Cert.KernelIdeal.Launch

open Cert.KernelIdeal Cert.KernelIdeal.Tile
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok pointsTo_toks_split pointsTo_toks_join)

variable {F : FTy → Type} [Cert.KernelIdeal.Facts] {UP : Type} [URA UP]

local notation "𝕄" => MT nD τ sig (HIx 1) (Elt F) ℕ (UU UP) ℕ

/-- The 32 tiles are the 16 subcores of each of the two SparseCores. -/
theorem bigSep_tiles (Φ : Fin 32 → sProp 𝕄) :
    bigSep (Finset.univ : Finset (Fin 32)) Φ = bigSep Finset.univ fun c : Fin 2 => bigSep Finset.univ fun i : Fin 16 => Φ (tileNo c i) := by
  have himg : (Finset.univ : Finset (Fin 32))
      = ((Finset.univ : Finset (Fin 2)) ×ˢ (Finset.univ : Finset (Fin 16))).image (fun x : Fin 2 × Fin 16 => tileNo x.1 x.2) := by decide
  have hinj : Set.InjOn (fun x : Fin 2 × Fin 16 => tileNo x.1 x.2) ↑((Finset.univ : Finset (Fin 2)) ×ˢ (Finset.univ : Finset (Fin 16))) := by
    rintro ⟨c, i⟩ - ⟨c', i'⟩ - h
    have h' : 16 * c.val + i.val = 16 * c'.val + i'.val := by
      have := congrArg Fin.val h
      simpa only [tileNo] using this
    have hi := i.isLt; have hi' := i'.isLt
    rw [Prod.mk.injEq]
    exact ⟨Fin.ext (by omega), Fin.ext (by omega)⟩
  rw [himg, SparseCore.bigSep_image_of_injOn hinj, SparseCore.bigSep_product]

section Call

variable (d : Dev nD) (p : Buf (Elt F) (pLoc d)) (t : Buf (Elt F) (tLoc d)) (b : Buf (Elt F) (bLoc d)) (fl : Buf (Elt F) (fLoc d))
variable (Nf Cf : Fin 32 → FVec F S64x16 .f32)

/-- What the TensorCore keeps of the inputs during the call. -/
def callRem : sProp 𝕄 :=
  iprop((pLoc d ↦{Transfers.shareDrop fullShare 2} p) ∗ (tLoc d ↦{Transfers.shareDrop fullShare 2} t)
    ∗ (bLoc d ↦{Transfers.shareDrop fullShare 2} b) ∗ (fLoc d ↦{Transfers.shareDrop fullShare 2} fl))

/-- A block held at given contents is a block held at some contents. -/
theorem nBlock_weaken (w : Fin 32) (fn : Buf (Elt F) (nLoc d)) :
    (nLoc d ↦[blkSet w]{fullShare} fn : sProp 𝕄) ⊢ iprop(∃ f, nLoc d ↦[blkSet w]{fullShare} f) := by
  iintro H; iexists fn; iexact H
theorem cBlock_weaken (w : Fin 32) (fc : Buf (Elt F) (cLoc d)) :
    (cLoc d ↦[blkSet w]{fullShare} fc : sProp 𝕄) ⊢ iprop(∃ f, cLoc d ↦[blkSet w]{fullShare} f) := by
  iintro H; iexists fc; iexact H
theorem nBlocks_weaken (fn : Buf (Elt F) (nLoc d)) :
    (bigSep Finset.univ fun c : Fin 2 => bigSep Finset.univ fun i : Fin 16 => (nLoc d ↦[blkSet (tileNo c i)]{fullShare} fn : sProp 𝕄))
      ⊢ bigSep Finset.univ fun c : Fin 2 => bigSep Finset.univ fun i : Fin 16 => (iprop(∃ f, nLoc d ↦[blkSet (tileNo c i)]{fullShare} f) : sProp 𝕄) :=
  bigSep_mono fun c _ => bigSep_mono fun i _ => nBlock_weaken (UP := UP) d (tileNo c i) fn
theorem cBlocks_weaken (fc : Buf (Elt F) (cLoc d)) :
    (bigSep Finset.univ fun c : Fin 2 => bigSep Finset.univ fun i : Fin 16 => (cLoc d ↦[blkSet (tileNo c i)]{fullShare} fc : sProp 𝕄))
      ⊢ bigSep Finset.univ fun c : Fin 2 => bigSep Finset.univ fun i : Fin 16 => (iprop(∃ f, cLoc d ↦[blkSet (tileNo c i)]{fullShare} f) : sProp 𝕄) :=
  bigSep_mono fun c _ => bigSep_mono fun i _ => cBlock_weaken (UP := UP) d (tileNo c i) fc

theorem call_split (fn : Buf (Elt F) (nLoc d)) (fc : Buf (Elt F) (cLoc d)) :
    iprop((pLoc d ↦{fullShare} p) ∗ (tLoc d ↦{fullShare} t) ∗ (bLoc d ↦{fullShare} b) ∗ (fLoc d ↦{fullShare} fl)
        ∗ (nLoc d ↦{fullShare} fn) ∗ (cLoc d ↦{fullShare} fc))
      ⊢ (iprop((bigSep Finset.univ fun c : Fin 2 => stRes (UP := UP) d p t b fl c) ∗ callRem (UP := UP) d p t b fl) : sProp 𝕄) := by
  unfold stRes inShares outBlocks callRem
  simp only [bigSep_sep']
  rw [nPts_blocks, cPts_blocks, bigSep_tiles (UP := UP) (fun w => nLoc d ↦[blkSet w]{fullShare} fn),
    bigSep_tiles (UP := UP) (fun w => cLoc d ↦[blkSet w]{fullShare} fc)]
  iintro ⟨Hp, Ht, Hb, Hf, Hn, Hc⟩
  ihave Hp' := (pointsTo_toks_split (ℓ := pLoc d) (f := p) fullShare 2) $$ Hp
  icases Hp' with ⟨Rp, Tp⟩
  ihave Ht' := (pointsTo_toks_split (ℓ := tLoc d) (f := t) fullShare 2) $$ Ht
  icases Ht' with ⟨Rt, Tt⟩
  ihave Hb' := (pointsTo_toks_split (ℓ := bLoc d) (f := b) fullShare 2) $$ Hb
  icases Hb' with ⟨Rb, Tb⟩
  ihave Hf' := (pointsTo_toks_split (ℓ := fLoc d) (f := fl) fullShare 2) $$ Hf
  icases Hf' with ⟨Rf, Tf⟩
  isplitl [Tp Tt Tb Tf Hn Hc]
  · isplitl [Tp Tt Tb Tf]
    · isplitl [Tp]; · iexact Tp
      isplitl [Tt]; · iexact Tt
      isplitl [Tb]; · iexact Tb
      iexact Tf
    isplitl [Hn]
    · iapply (nBlocks_weaken (UP := UP) d fn); iexact Hn
    · iapply (cBlocks_weaken (UP := UP) d fc); iexact Hc
  isplitl [Rp]; · iexact Rp
  isplitl [Rt]; · iexact Rt
  isplitl [Rb]; · iexact Rb
  iexact Rf

theorem call_join :
    (iprop((bigSep Finset.univ fun c : Fin 2 => dnRes (UP := UP) d p t b fl Nf Cf c) ∗ callRem (UP := UP) d p t b fl) : sProp 𝕄)
      ⊢ iprop((pLoc d ↦{fullShare} p) ∗ (tLoc d ↦{fullShare} t) ∗ (bLoc d ↦{fullShare} b) ∗ (fLoc d ↦{fullShare} fl)
        ∗ (nLoc d ↦{fullShare} (fill Nf : Buf (Elt F) (nLoc d))) ∗ (cLoc d ↦{fullShare} (fill Cf : Buf (Elt F) (cLoc d)))) := by
  unfold dnRes inShares outTables callRem
  simp only [bigSep_sep']
  rw [nPts_blocks, cPts_blocks, bigSep_tiles (UP := UP) (fun w => nLoc d ↦[blkSet w]{fullShare} (fill Nf : Buf (Elt F) (nLoc d))),
    bigSep_tiles (UP := UP) (fun w => cLoc d ↦[blkSet w]{fullShare} (fill Cf : Buf (Elt F) (cLoc d)))]
  iintro ⟨⟨⟨Tp, Tt, Tb, Tf⟩, Hn, Hc⟩, Rp, Rt, Rb, Rf⟩
  isplitl [Rp Tp]
  · iapply (pointsTo_toks_join (ℓ := pLoc d) (f := p) fullShare 2); isplitl [Rp]; · iexact Rp
    iexact Tp
  isplitl [Rt Tt]
  · iapply (pointsTo_toks_join (ℓ := tLoc d) (f := t) fullShare 2); isplitl [Rt]; · iexact Rt
    iexact Tt
  isplitl [Rb Tb]
  · iapply (pointsTo_toks_join (ℓ := bLoc d) (f := b) fullShare 2); isplitl [Rb]; · iexact Rb
    iexact Tb
  isplitl [Rf Tf]
  · iapply (pointsTo_toks_join (ℓ := fLoc d) (f := fl) fullShare 2); isplitl [Rf]; · iexact Rf
    iexact Tf
  isplitl [Hn]; · iexact Hn
  iexact Hc

end Call

end Cert.KernelIdeal.Launch

end
-- ==== Proof.LaunchVals.lean ====
/-
  @main's host operations and the contents of the TensorCore's arrays along @main.

  Before the SparseCore call five host operations run: the flag bits become floats (`main_v0`), and the first 140800
  segment ids and flags are cut out and reshaped for the TensorCore call. None of them writes an argument or the two
  arrays the SparseCore call reads beside the arguments; so when the call starts, pred, tgt and the segment ids are at
  their launch contents and `main_v0` holds the flags as floats.
-/
import proofs.«205036_g29618094473603_cont_9to1_1720_19_alg».proof.Proof.LaunchP
import proofs.«205036_g29618094473603_cont_9to1_1720_19_alg».proof.Proof.LaunchCall
import Idealize.ShloMosaic.Lib.StableHlo.Run
import Idealize.ShloMosaic.Lib.Pipeline.Frame

noncomputable section

namespace Cert.KernelIdeal.Launch

open Cert.KernelIdeal Cert.KernelIdeal.Tile
open Idealize.ShloMosaic
open Idealize.ShloMosaic.SparseCore (S V T)
open Idealize.SL Idealize.SL.Sem

variable {F : FTy → Type} [FloatOps F] [Cert.KernelIdeal.Facts]
open Cert.KernelIdeal.Facts₀ Cert.KernelIdeal.Facts

variable (m : (ℓ : Loc nD τ sig) → Buf (Elt F) ℓ) (d : Dev nD)

/-- A TensorCore array, as a buffer of the device. -/
abbrev dr (b : Ref sig .tc) : DevRef τ sig := Proc.devRef .tc b

/-- The launch contents. -/
abbrev V0 : Valuation τ sig (Elt F) := fun b => m (d, b)

abbrev op0 : HloOp τ sig (Elt F) := StableHlo.unary main_arg3 main_v0 (uitofp .f32 : (⟨S320000, .i1⟩ : BufTy).Contents (Elt F) → (⟨S320000, .f32⟩ : BufTy).Contents (Elt F))
abbrev op1 : HloOp τ sig (Elt F) := StableHlo.unary main_arg4 main_v1 ((extractStridedSlice S140800 ![0] · slices_S320000_S140800_0) : (⟨S320000, .i32⟩ : BufTy).Contents (Elt F) → (⟨S140800, .i32⟩ : BufTy).Contents (Elt F))
abbrev op2 : HloOp τ sig (Elt F) := StableHlo.reshape main_v1 main_v2 rfl shapeCasts_S140800_S55x1x2560
abbrev op3 : HloOp τ sig (Elt F) := StableHlo.unary main_v0 main_v3 ((extractStridedSlice S140800 ![0] · slices_S320000_S140800_0) : (⟨S320000, .f32⟩ : BufTy).Contents (Elt F) → (⟨S140800, .f32⟩ : BufTy).Contents (Elt F))
abbrev op4 : HloOp τ sig (Elt F) := StableHlo.reshape main_v3 main_v4 rfl shapeCasts_S140800_S55x1x2560
abbrev op5 : HloOp τ sig (Elt F) := StableHlo.reshape main_v7 main_v8 rfl shapeCasts_S1x1_S_

/-- The contents when the SparseCore call starts. -/
abbrev V5 : Valuation τ sig (Elt F) := (op4 (F := F)).result ((op3 (F := F)).result ((op2 (F := F)).result ((op1 (F := F)).result ((op0 (F := F)).result (V0 m d)))))

theorem hop0 : (op0 (F := F)).bufs ⊆ Pipeline.ucRefs τ sig :=
  show ({dr main_arg3, dr main_v0} : Finset (DevRef τ sig)) ⊆ Pipeline.ucRefs τ sig by decide
theorem hop1 : (op1 (F := F)).bufs ⊆ Pipeline.ucRefs τ sig :=
  show ({dr main_arg4, dr main_v1} : Finset (DevRef τ sig)) ⊆ Pipeline.ucRefs τ sig by decide
theorem hop2 : (op2 (F := F)).bufs ⊆ Pipeline.ucRefs τ sig :=
  show ({dr main_v1, dr main_v2} : Finset (DevRef τ sig)) ⊆ Pipeline.ucRefs τ sig by decide
theorem hop3 : (op3 (F := F)).bufs ⊆ Pipeline.ucRefs τ sig :=
  show ({dr main_v0, dr main_v3} : Finset (DevRef τ sig)) ⊆ Pipeline.ucRefs τ sig by decide
theorem hop4 : (op4 (F := F)).bufs ⊆ Pipeline.ucRefs τ sig :=
  show ({dr main_v3, dr main_v4} : Finset (DevRef τ sig)) ⊆ Pipeline.ucRefs τ sig by decide
theorem hop5 : (op5 (F := F)).bufs ⊆ Pipeline.ucRefs τ sig :=
  show ({dr main_v7, dr main_v8} : Finset (DevRef τ sig)) ⊆ Pipeline.ucRefs τ sig by decide

/-- The five operations write none of these. -/
theorem V5_of_kept (b : Ref sig .tc) (h0 : b ≠ main_v0) (h1 : b ≠ main_v1) (h2 : b ≠ main_v2) (h3 : b ≠ main_v3) (h4 : b ≠ main_v4) :
    V5 m d (dr b) = m (d, dr b) := by
  unfold V5
  rw [StableHlo.reshape_result_ne' _ _ _ _ _ h4, StableHlo.unary_result_ne' _ _ _ _ h3, StableHlo.reshape_result_ne' _ _ _ _ _ h2,
    StableHlo.unary_result_ne' _ _ _ _ h1, StableHlo.unary_result_ne' _ _ _ _ h0]

theorem V5_arg0 : V5 m d (dr main_arg0) = m (pLoc d) := V5_of_kept m d main_arg0 (by decide) (by decide) (by decide) (by decide) (by decide)
theorem V5_arg1 : V5 m d (dr main_arg1) = m (tLoc d) := V5_of_kept m d main_arg1 (by decide) (by decide) (by decide) (by decide) (by decide)
theorem V5_arg4 : V5 m d (dr main_arg4) = m (bLoc d) := V5_of_kept m d main_arg4 (by decide) (by decide) (by decide) (by decide) (by decide)

/-- `main_v0` holds the flags as floats. -/
theorem V5_v0 : V5 m d (dr main_v0) = flOf m d := by
  unfold V5
  rw [StableHlo.reshape_result_ne' _ _ _ _ _ (show main_v0 ≠ main_v4 by decide), StableHlo.unary_result_ne' _ _ _ _ (show main_v0 ≠ main_v3 by decide),
    StableHlo.reshape_result_ne' _ _ _ _ _ (show main_v0 ≠ main_v2 by decide), StableHlo.unary_result_ne' _ _ _ _ (show main_v0 ≠ main_v1 by decide),
    StableHlo.unary_result' _ _ _ _]
  rfl

end Cert.KernelIdeal.Launch

end
-- ==== Proof.LaunchMain.lean ====
/-
  @main on the TensorCore: five host operations, the SparseCore call, the two TensorCore regions, a reshape.

  The TensorCore holds all its unscoped arrays at one valuation. The host operations update it; for the call it takes
  the four arrays the tiles read and the two they write out of it, hands them over split as the payload record says,
  gets them back joined, and puts them back with the two outputs at the tables laid out block by block; each region
  updates the valuation at its results; the last reshape at the program's result.
-/
import proofs.«205036_g29618094473603_cont_9to1_1720_19_alg».proof.Proof.LaunchVals

noncomputable section

namespace Cert.KernelIdeal.Launch

open Cert.KernelIdeal Cert.KernelIdeal.Tile
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)
open Cert.KernelIdeal.TcRegions (UP EP pipesGhost)

variable {F : FTy → Type} [FloatOps F] [Cert.KernelIdeal.Facts]

local notation "𝕄" => MT nD τ sig (HIx 1) (Elt F) ℕ (UU UP) ℕ

variable (m : (ℓ : Loc nD τ sig) → Buf (Elt F) ℓ) (ρ : Dev nD → PrngReg) (Nf Cf : Fin 32 → FVec F S64x16 .f32)

/-! ## The six arrays of the call, out of the valuation and back -/

/-- The arrays the SparseCore call reads and writes. -/
abbrev S6 : Finset (DevRef τ sig) := {dr main_arg0, dr main_arg1, dr main_arg4, dr main_v0, dr main_v5_0, dr main_v5_1}

theorem S6_sub : (S6 : Finset (DevRef τ sig)) ⊆ Pipeline.ucRefs τ sig := by decide

omit [FloatOps F] in
theorem held_S6 (d : Dev nD) (W : Valuation τ sig (Elt F)) :
    (held (T d) S6 W : sProp 𝕄) = iprop((pLoc d ↦{fullShare} W (dr main_arg0)) ∗ (tLoc d ↦{fullShare} W (dr main_arg1)) ∗ (bLoc d ↦{fullShare} W (dr main_arg4))
      ∗ (fLoc d ↦{fullShare} W (dr main_v0)) ∗ (nLoc d ↦{fullShare} W (dr main_v5_0)) ∗ (cLoc d ↦{fullShare} W (dr main_v5_1))) := by
  unfold held S6
  rw [SparseCore.bigSep_insert' (by decide), SparseCore.bigSep_insert' (by decide), SparseCore.bigSep_insert' (by decide),
    SparseCore.bigSep_insert' (by decide), SparseCore.bigSep_insert' (by decide), bigSep_singleton]

/-- The contents after the call: the two outputs at the tiles' tables, laid out. -/
def Vc (d : Dev nD) : Valuation τ sig (Elt F) :=
  Function.update (Function.update (V5 m d) (dr main_v5_0) (fill Nf : Buf (Elt F) (nLoc d))) (dr main_v5_1) (fill Cf : Buf (Elt F) (cLoc d))

theorem Vc_n (d : Dev nD) : Vc m Nf Cf d (dr main_v5_0) = (fill Nf : Buf (Elt F) (nLoc d)) := by
  unfold Vc; rw [Function.update_of_ne (show (dr main_v5_0 : DevRef τ sig) ≠ dr main_v5_1 by decide), Function.update_self]
theorem Vc_c (d : Dev nD) : Vc m Nf Cf d (dr main_v5_1) = (fill Cf : Buf (Elt F) (cLoc d)) := by
  unfold Vc; rw [Function.update_self]
theorem Vc_other (d : Dev nD) (b : DevRef τ sig) (h0 : b ≠ dr main_v5_0) (h1 : b ≠ dr main_v5_1) : Vc m Nf Cf d b = V5 m d b := by
  unfold Vc; rw [Function.update_of_ne h1, Function.update_of_ne h0]

/-! ## The six arrays at the call's start and end -/

theorem held_S6_V5 (d : Dev nD) :
    (held (T d) S6 (V5 m d) : sProp 𝕄) = iprop((pLoc d ↦{fullShare} m (pLoc d)) ∗ (tLoc d ↦{fullShare} m (tLoc d)) ∗ (bLoc d ↦{fullShare} m (bLoc d))
      ∗ (fLoc d ↦{fullShare} flOf m d) ∗ (nLoc d ↦{fullShare} V5 m d (dr main_v5_0)) ∗ (cLoc d ↦{fullShare} V5 m d (dr main_v5_1))) := by
  rw [held_S6, V5_arg0, V5_arg1, V5_arg4, V5_v0]

theorem held_S6_Vc (d : Dev nD) :
    (held (T d) S6 (Vc m Nf Cf d) : sProp 𝕄) = iprop((pLoc d ↦{fullShare} m (pLoc d)) ∗ (tLoc d ↦{fullShare} m (tLoc d)) ∗ (bLoc d ↦{fullShare} m (bLoc d))
      ∗ (fLoc d ↦{fullShare} flOf m d) ∗ (nLoc d ↦{fullShare} (fill Nf : Buf (Elt F) (nLoc d))) ∗ (cLoc d ↦{fullShare} (fill Cf : Buf (Elt F) (cLoc d)))) := by
  rw [held_S6, Vc_other m Nf Cf d (dr main_arg0) (by decide) (by decide), Vc_other m Nf Cf d (dr main_arg1) (by decide) (by decide),
    Vc_other m Nf Cf d (dr main_arg4) (by decide) (by decide), Vc_other m Nf Cf d (dr main_v0) (by decide) (by decide), Vc_n, Vc_c,
    V5_arg0, V5_arg1, V5_arg4, V5_v0]

theorem held_rest_Vc (d : Dev nD) :
    (held (T d) (Pipeline.ucRefs τ sig \ S6) (Vc m Nf Cf d) : sProp 𝕄) = held (T d) (Pipeline.ucRefs τ sig \ S6) (V5 m d) :=
  held_congr (T d) fun b hb => by
    have hb' := (Finset.mem_sdiff.mp hb).2
    refine Vc_other m Nf Cf d b (fun e => hb' ?_) (fun e => hb' ?_) <;> rw [e] <;> decide

/-! ## The payloads of the call, over the two SparseCores -/

theorem st0_eq (d : Dev nD) :
    (bigSep Finset.univ fun c : Fin ((K (F := F)).nCore 0) => (P m Nf Cf).st 0 d c)
      = bigSep Finset.univ fun c : Fin 2 => stRes (UP := UP) d (m (pLoc d)) (m (tLoc d)) (m (bLoc d)) (flOf m d) c :=
  bigSep_congr fun c _ => congrArg (stRes (UP := UP) d (m (pLoc d)) (m (tLoc d)) (m (bLoc d)) (flOf m d)) (Fin.ext rfl)
theorem dn0_eq (d : Dev nD) :
    (bigSep Finset.univ fun c : Fin ((K (F := F)).nCore 0) => (P m Nf Cf).dn 0 d c)
      = bigSep Finset.univ fun c : Fin 2 => dnRes (UP := UP) d (m (pLoc d)) (m (tLoc d)) (m (bLoc d)) (flOf m d) Nf Cf c :=
  bigSep_congr fun c _ => congrArg (dnRes (UP := UP) d (m (pLoc d)) (m (tLoc d)) (m (bLoc d)) (flOf m d) Nf Cf) (Fin.ext rfl)

/-! ## The two TensorCore regions, as @main meets them -/

section Main

variable (R0 R1 : Valuation τ sig (Elt F) → Valuation τ sig (Elt F))

/-- One pipeline's staging cells at their launch state, and its duty tokens. -/
abbrev pipeGhost (p : Fin 2) (c : Dev nD) : sProp 𝕄 :=
  iprop(Pipeline.cellsGhost (nD := nD) (τ := τ) cfgs (EP (F := F)) p c ∗ Pipeline.toksInit (nD := nD) (τ := τ) cfgs (EP (F := F)) p c)

omit [FloatOps F] in
theorem pipesGhost_eq (c : Dev nD) : (pipesGhost (F := F) c : sProp 𝕄) = iprop(pipeGhost (F := F) 0 c ∗ pipeGhost (F := F) 1 c) := by
  unfold pipesGhost
  rw [show (Finset.univ : Finset (Fin 2)) = {0, 1} by decide, SparseCore.bigSep_insert' (by decide), bigSep_singleton]

/-- What is asked of region `p`'s run inside @main: from the TensorCore's arrays at a valuation, its region boundary, the
    pipeline's launch state and the TensorCore owing nothing, it runs to the arrays at the valuation `R` updates, owing
    nothing still, the waits it recorded below the next call's band. -/
def RegionSpec (p : Fin 2) (R : Valuation τ sig (Elt F) → Valuation τ sig (Elt F)) : Prop :=
  ∀ (κ : GSem nD τ sig → ℕ) (d : Dev nD) (Vv : Valuation τ sig (Elt F)) (W : Waits sig (HIx 1)) (Φ : PUnit → sProp 𝕄), (K (F := F)).WBelow (T d) W 8 →
    iprop((K (F := F)).ctx EH (P m Nf Cf) κ ∗ boundary (T d) ∗ held (T d) (Pipeline.ucRefs τ sig) Vv ∗ pipeGhost (F := F) p d ∗ owes (T d) 0 W
        ∗ ((boundary (T d) ∗ held (T d) (Pipeline.ucRefs τ sig) (R Vv) ∗ ∃ W', ⌜(K (F := F)).WBelow (T d) W' 8⌝ ∗ owes (T d) 0 W') -∗ Φ ⟨⟩))
      ⊢ wp frame (wpE ((K (F := F)).defs (D (F := F))) 𝒱 (SparseCore.T d) none) Set.univ
          (Prog.lift (.customCall (SparseCore.inner (Pipeline.entry p)) ())) Φ

/-- The contents when @main ends. -/
def Vfin (d : Dev nD) : Valuation τ sig (Elt F) := (op5 (F := F)).result (R1 (R0 (Vc m Nf Cf d)))

/-- What @main leaves: every unscoped array of the TensorCore, at the final contents. -/
abbrev FIN (d : Dev nD) : sProp 𝕄 := held (T d) (Pipeline.ucRefs τ sig) (Vfin m Nf Cf R0 R1 d)

theorem hmain (h0 : RegionSpec m Nf Cf 0 R0) (h1 : RegionSpec m Nf Cf 1 R1) (κ : GSem nD τ sig → ℕ) (d : Dev nD) :
    iprop((K (F := F)).ctx EH (P m Nf Cf) κ ∗ (K (F := F)).tcSt EH d 0 ∗ (K (F := F)).tcRes m ρ d ∗ pipesGhost (F := F) d)
      ⊢ wp frame (wpE ((K (F := F)).defs (D (F := F))) 𝒱 (SparseCore.T d) none) Set.univ (main d)
          fun _ => iprop((K (F := F)).tcSt EH d 1 ∗ FIN m Nf Cf R0 R1 d) := by
  have hub : (unscopedBufs d (fun b => m ((SparseCore.T d).loc b)) : sProp 𝕄) = held (T d) (Pipeline.ucRefs τ sig) (V0 m d) :=
    Pipeline.unscopedBufs_held (Ix := HIx 1) (Name := ℕ) (U := UU UP) (Lvl := ℕ) d (V0 m d)
  have hOtc : (K (F := F)).Otc d 1 = 0 := (K (F := F)).Otc_end d (le_refl 1)
  have hOtc' : (K (F := F)).Otc d ((0 : Fin 1).val + 1) = 0 := (K (F := F)).Otc_end d (le_refl 1)
  unfold SparseCore.Cfg.tcRes
  rw [hub, pipesGhost_eq]
  simp only [main, wp_bind, wp_pure]
  iintro ⟨#Hctx, Hst, ⟨Hb, Hheld, -, -⟩, HG0, HG1⟩
  -- the five host operations before the call
  iapply (wp_hlo_within 𝒱 (SparseCore.T d) none Set.univ (op := op0 (F := F)) (S := Pipeline.ucRefs τ sig) hop0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1 (F := F)) (S := Pipeline.ucRefs τ sig) hop1) $$ [Hb Hheld]
  · isplitl [Hb]; · iexact Hb
    iexact Hheld
  iintro ⟨Hb, Hheld⟩
  rw [wp_ret]; imodintro
  iapply (wp_hlo_within 𝒱 (SparseCore.T d) none Set.univ (op := op2 (F := F)) (S := Pipeline.ucRefs τ sig) hop2) $$ [Hb Hheld]
  · isplitl [Hb]; · iexact Hb
    iexact Hheld
  iintro ⟨Hb, Hheld⟩
  rw [wp_ret]; imodintro
  iapply (wp_hlo_within 𝒱 (SparseCore.T d) none Set.univ (op := op3 (F := F)) (S := Pipeline.ucRefs τ sig) hop3) $$ [Hb Hheld]
  · isplitl [Hb]; · iexact Hb
    iexact Hheld
  iintro ⟨Hb, Hheld⟩
  rw [wp_ret]; imodintro
  iapply (wp_hlo_within 𝒱 (SparseCore.T d) none Set.univ (op := op4 (F := F)) (S := Pipeline.ucRefs τ sig) hop4) $$ [Hb Hheld]
  · isplitl [Hb]; · iexact Hb
    iexact Hheld
  iintro ⟨Hb, Hheld⟩
  rw [wp_ret]; imodintro
  -- the call: the six arrays out of the valuation, split, handed over, taken back, joined, put back
  ihave H := (Entails.of_eq (held_sub_split (T d) S6_sub (V5 m d))) $$ Hheld
  icases H with ⟨H6, Hrest⟩
  ihave H6' := (Entails.of_eq (held_S6_V5 m d)) $$ H6
  ihave Hsp := (call_split (UP := UP) d (m (pLoc d)) (m (tLoc d)) (m (bLoc d)) (flOf m d) (V5 m d (dr main_v5_0)) (V5 m d (dr main_v5_1))) $$ H6'
  icases Hsp with ⟨Hstc, Hrem⟩
  iapply ((K (F := F)).wp_run (D (F := F)) 𝒱 (EH := EH) (P := P m Nf Cf) κ d 0) $$ [Hst Hstc Hb Hrest Hrem HG0 HG1]
  isplitr; · iexact Hctx
  isplitl [Hst]; · iexact Hst
  isplitl [Hstc]; · iapply (Entails.of_eq (st0_eq m Nf Cf d)); iexact Hstc
  iintro ⟨Hst, Hdn⟩
  ihave Hdn' := (Entails.of_eq (dn0_eq m Nf Cf d)) $$ Hdn
  ihave Hj := (call_join (UP := UP) d (m (pLoc d)) (m (tLoc d)) (m (bLoc d)) (flOf m d) Nf Cf) $$ [Hdn' Hrem]
  · isplitl [Hdn']; · iexact Hdn'
    iexact Hrem
  ihave H6 := (Entails.of_eq (held_S6_Vc m Nf Cf d).symm) $$ Hj
  ihave Hrest' := (Entails.of_eq (held_rest_Vc m Nf Cf d).symm) $$ Hrest
  ihave Hheld := (Entails.of_eq (held_sub_split (T d) S6_sub (Vc m Nf Cf d)).symm) $$ [H6 Hrest']
  · isplitl [H6]; · iexact H6
    iexact Hrest'
  -- the TensorCore's handshake state after the call: it owes nothing
  unfold SparseCore.Cfg.tcSt
  icases Hst with ⟨⟨%W, %hW, HO⟩, Hst'⟩
  ihave HO' := (Entails.of_eq (congrArg (fun o => (owes (T d) o W : sProp 𝕄)) hOtc')) $$ HO
  -- the first region
  iapply (h0 κ d (Vc m Nf Cf d) W _ hW) $$ [Hb Hheld HG0 HO' Hst' HG1]
  isplitr; · iexact Hctx
  isplitl [Hb]; · iexact Hb
  isplitl [Hheld]; · iexact Hheld
  isplitl [HG0]; · iexact HG0
  isplitl [HO']; · iexact HO'
  iintro ⟨Hb, Hheld, %W1, %hW1, HO⟩
  -- the second region
  iapply (h1 κ d (R0 (Vc m Nf Cf d)) W1 _ hW1) $$ [Hb Hheld HG1 HO Hst']
  isplitr; · iexact Hctx
  isplitl [Hb]; · iexact Hb
  isplitl [Hheld]; · iexact Hheld
  isplitl [HG1]; · iexact HG1
  isplitl [HO]; · iexact HO
  iintro ⟨Hb, Hheld, %W2, %hW2, HO⟩
  -- the last reshape
  iapply (wp_hlo_within 𝒱 (SparseCore.T d) none Set.univ (op := op5 (F := F)) (S := Pipeline.ucRefs τ sig) hop5) $$ [Hb Hheld]
  · isplitl [Hb]; · iexact Hb
    iexact Hheld
  iintro ⟨Hb, Hheld⟩
  rw [wp_ret]; imodintro; imodintro
  isplitl [HO Hst']
  · isplitl [HO]
    · iexists W2; isplitr
      · ipureintro; exact hW2
      · iapply (Entails.of_eq (congrArg (fun o => (owes (T d) o W2 : sProp 𝕄)) hOtc.symm)); iexact HO
    · iexact Hst'
  · iexact Hheld

end Main

end Cert.KernelIdeal.Launch

end
-- ==== Proof.TileLoopsBridge.lean ====
/-
  How a tile's resources read in the kernel's own terms: the arrays in HBM as the tile's memrefs address them, the
  tile's eight scratch buffers and eight DMA semaphores picked out of its own storage, and the block of an output array
  the kernel's write-out slice covers.
-/
import proofs.«205036_g29618094473603_cont_9to1_1720_19_alg».proof.Proof.TileRes
import proofs.«205036_g29618094473603_cont_9to1_1720_19_alg».proof.Proof.Gen.KernelIdeal
import Idealize.ShloMosaic.Lib.SparseCore.Launch
import Idealize.ShloMosaic.Lib.Transfers
import Idealize.ShloMosaic.Lib.Tactic

noncomputable section

namespace Cert.KernelIdeal.Tile

open Cert.KernelIdeal
open Facts₀ Facts
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} {UU : Type} [URA UU]

local notation "𝕄" => MT nD τ sig (HIx 1) (Elt F) ℕ UU ℕ

/-! ## The tile and its number -/

abbrev cV (L : grid0.Coords) : Fin τ.nSC := (L 0).castLE hcore0
abbrev jV (L : grid0.Coords) : Fin τ.nSub := (L 1).castLE hsub0
/-- The thread of the tile at grid coordinates `L`. -/
abbrev thr (d : Dev nD) (L : grid0.Coords) : Thread nD τ := V d (cV L) (jV L)

theorem bound_zero : grid0.bound 0 = 2 := rfl
theorem bound_one : grid0.bound 1 = 16 := rfl
/-- The tile's number: 16 times its SparseCore plus its subcore. -/
abbrev wL (L : grid0.Coords) : Fin 32 := tileNo (Fin.cast bound_zero (L 0)) (Fin.cast bound_one (L 1))

/-! ## The arrays as the tile's memrefs address them -/

abbrev pW : Memref sig .scVector .hbm S320000x128 .f32 := Memref.whole main_arg0_scv
abbrev tW : Memref sig .scVector .hbm S320000x128 .f32 := Memref.whole main_arg1_scv
abbrev bW : Memref sig .scVector .hbm S320000 .i32 := Memref.whole main_arg4_scv
abbrev fW : Memref sig .scVector .hbm S320000 .f32 := Memref.whole main_v0_scv
abbrev nW : Memref sig .scVector .hbm S32x64x16 .f32 := Memref.whole main_v5_0_scv
abbrev cW : Memref sig .scVector .hbm S32x64x16 .f32 := Memref.whole main_v5_1_scv

theorem pts_p (d : Dev nD) (L : grid0.Coords) (q : PosShare TreeShare) (f : Buf (Elt F) (pLoc d)) :
    ((pW).view.loc (thr d L) ↦{q} f : sProp 𝕄) = pLoc d ↦{q} f := rfl
theorem pts_t (d : Dev nD) (L : grid0.Coords) (q : PosShare TreeShare) (f : Buf (Elt F) (tLoc d)) :
    ((tW).view.loc (thr d L) ↦{q} f : sProp 𝕄) = tLoc d ↦{q} f := rfl
theorem pts_b (d : Dev nD) (L : grid0.Coords) (q : PosShare TreeShare) (f : Buf (Elt F) (bLoc d)) :
    ((bW).view.loc (thr d L) ↦{q} f : sProp 𝕄) = bLoc d ↦{q} f := rfl
theorem pts_f (d : Dev nD) (L : grid0.Coords) (q : PosShare TreeShare) (f : Buf (Elt F) (fLoc d)) :
    ((fW).view.loc (thr d L) ↦{q} f : sProp 𝕄) = fLoc d ↦{q} f := rfl

/-! ## The tile's scratch, as the kernel's parameters name it -/

abbrev sP0 : Memref sig .scVector .vmem S160x128 .f32 := Memref.whole cc0_scratch0
abbrev sP1 : Memref sig .scVector .vmem S160x128 .f32 := Memref.whole cc0_scratch1
abbrev sT0 : Memref sig .scVector .vmem S160x128 .f32 := Memref.whole cc0_scratch2
abbrev sT1 : Memref sig .scVector .vmem S160x128 .f32 := Memref.whole cc0_scratch3
abbrev sB : Memref sig .scVector .vmem S5600 .i32 := Memref.whole cc0_scratch4
abbrev sFl : Memref sig .scVector .vmem S5600 .f32 := Memref.whole cc0_scratch5
abbrev sN : Memref sig .scVector .vmem S64x16 .f32 := Memref.whole cc0_scratch6
abbrev sC : Memref sig .scVector .vmem S64x16 .f32 := Memref.whole cc0_scratch7

/-- The kernel at the tile's coordinates, on the arrays and the tile's scratch. -/
abbrev kern [FloatOps F] (L : grid0.Coords) :=
  cc0_k (F := F) L pW (Memref.isWhole_whole _) tW (Memref.isWhole_whole _) bW (Memref.isWhole_whole _) fW (Memref.isWhole_whole _)
    nW (Memref.isWhole_whole _) cW (Memref.isWhole_whole _) sP0 (Memref.isWhole_whole _) sP1 (Memref.isWhole_whole _)
    sT0 (Memref.isWhole_whole _) sT1 (Memref.isWhole_whole _) sB (Memref.isWhole_whole _) sFl (Memref.isWhole_whole _)
    sN (Memref.isWhole_whole _) sC (Memref.isWhole_whole _) cc0_scratch8 cc0_scratch9 cc0_scratch10 cc0_scratch11
    cc0_scoped0 cc0_scoped1 cc0_scoped2 cc0_scoped3

/-! ## The block the write-out covers -/

abbrev blkK (L : grid0.Coords) : Rect S32x64x16 := Rect.unit (s := S32x64x16) (k0_off9 L) S1x64x16.size (k0_off9_inb L)
/-- The kernel's own slice of an output array for its write-out. -/
abbrev nOut (L : grid0.Coords) : Memref sig .scVector .hbm S64x16 .f32 := ((nW).slice (blkK L) (fun _ => rfl)).squeeze S64x16 squeezes_S1x64x16_S64x16
abbrev cOut (L : grid0.Coords) : Memref sig .scVector .hbm S64x16 .f32 := ((cW).slice (blkK L) (fun _ => rfl)).squeeze S64x16 squeezes_S1x64x16_S64x16

theorem blkK_eq (L : grid0.Coords) : blkK L = blk (wL L) := by
  unfold blkK blk Rect.part Rect.block
  congr 1 <;> funext a
  · rw [Gen.k0_off9_eq]
    match a with
    | 0 => simp [Shape.partIx, Shape.partSize, tileNo] <;> rfl
    | 1 => simp [Shape.partIx, Shape.partSize]
    | 2 => simp [Shape.partIx, Shape.partSize]
  · match a with
    | 0 => simp [Shape.partSize]
    | 1 => simp [Shape.partSize]
    | 2 => simp [Shape.partSize]

theorem set_nOut (L : grid0.Coords) : (nOut L).view.set = blkSet (wL L) := by
  have h : (nOut L).view.set = ((View.whole main_v5_0_scv : View sig .scVector .hbm S32x64x16 .f32).slice (blkK L)).set := View.set_reshape ..
  rw [h, View.set_slice_whole, blkK_eq]
theorem set_cOut (L : grid0.Coords) : (cOut L).view.set = blkSet (wL L) := by
  have h : (cOut L).view.set = ((View.whole main_v5_1_scv : View sig .scVector .hbm S32x64x16 .f32).slice (blkK L)).set := View.set_reshape ..
  rw [h, View.set_slice_whole, blkK_eq]

theorem pts_nOut (d : Dev nD) (L : grid0.Coords) (f : Buf (Elt F) (nLoc d)) :
    ((nOut L).view.loc (thr d L) ↦[(nOut L).view.set]{fullShare} f : sProp 𝕄) = nLoc d ↦[blkSet (wL L)]{fullShare} f := by
  rw [set_nOut]
theorem pts_cOut (d : Dev nD) (L : grid0.Coords) (f : Buf (Elt F) (cLoc d)) :
    ((cOut L).view.loc (thr d L) ↦[(cOut L).view.set]{fullShare} f : sProp 𝕄) = cLoc d ↦[blkSet (wL L)]{fullShare} f := by
  rw [set_cOut]

/-! ## The tile's own semaphores and buffers -/

abbrev cellOf (d : Dev nD) (L : grid0.Coords) (s : DmaSems sig S_) : GSem nD τ sig := (thr d L, SemLoc.dma s.sem)

theorem cellOf_ne (d : Dev nD) (L : grid0.Coords) {s s' : DmaSems sig S_} (h : s.sem ≠ s'.sem) : cellOf d L s ≠ cellOf d L s' :=
  fun e => h (SemLoc.dma.inj (Prod.mk.inj e).2)

/-- The tile's other scoped semaphores, all at zero: what the kernel never names. -/
abbrev semsRest (d : Dev nD) (L : grid0.Coords) : sProp 𝕄 :=
  bigSep (((((((((ownCells (thr d L)).erase (cellOf d L cc0_scratch8)).erase (cellOf d L cc0_scratch9)).erase (cellOf d L cc0_scratch10)).erase (cellOf d L cc0_scratch11)).erase (cellOf d L cc0_scoped0)).erase (cellOf d L cc0_scoped1)).erase (cellOf d L cc0_scoped2)).erase (cellOf d L cc0_scoped3)) fun g => semVal g 0

theorem ownSems0_V (d : Dev nD) (L : grid0.Coords) :
    (ownSems0 (thr d L) : sProp 𝕄)
      = iprop(semVal (cellOf d L cc0_scratch8) 0 ∗ semVal (cellOf d L cc0_scratch9) 0 ∗ semVal (cellOf d L cc0_scratch10) 0 ∗ semVal (cellOf d L cc0_scratch11) 0 ∗ semVal (cellOf d L cc0_scoped0) 0 ∗ semVal (cellOf d L cc0_scoped1) 0 ∗ semVal (cellOf d L cc0_scoped2) 0 ∗ semVal (cellOf d L cc0_scoped3) 0 ∗ semsRest d L) := by
  unfold SparseCore.Cfg.ownSems0 semsRest
  rw [SparseCore.bigSep_erase' ((mem_ownCells (g := cellOf d L cc0_scratch8)).mpr ⟨rfl, by show (SemLoc.dma cc0_scratch8.sem : SemLoc sig).isScoped .scVector = true; decide⟩),
    SparseCore.bigSep_erase' (Finset.mem_erase.mpr ⟨cellOf_ne d L (by decide), ((mem_ownCells (g := cellOf d L cc0_scratch9)).mpr ⟨rfl, by show (SemLoc.dma cc0_scratch9.sem : SemLoc sig).isScoped .scVector = true; decide⟩)⟩),
    SparseCore.bigSep_erase' (Finset.mem_erase.mpr ⟨cellOf_ne d L (by decide), (Finset.mem_erase.mpr ⟨cellOf_ne d L (by decide), ((mem_ownCells (g := cellOf d L cc0_scratch10)).mpr ⟨rfl, by show (SemLoc.dma cc0_scratch10.sem : SemLoc sig).isScoped .scVector = true; decide⟩)⟩)⟩),
    SparseCore.bigSep_erase' (Finset.mem_erase.mpr ⟨cellOf_ne d L (by decide), (Finset.mem_erase.mpr ⟨cellOf_ne d L (by decide), (Finset.mem_erase.mpr ⟨cellOf_ne d L (by decide), ((mem_ownCells (g := cellOf d L cc0_scratch11)).mpr ⟨rfl, by show (SemLoc.dma cc0_scratch11.sem : SemLoc sig).isScoped .scVector = true; decide⟩)⟩)⟩)⟩),
    SparseCore.bigSep_erase' (Finset.mem_erase.mpr ⟨cellOf_ne d L (by decide), (Finset.mem_erase.mpr ⟨cellOf_ne d L (by decide), (Finset.mem_erase.mpr ⟨cellOf_ne d L (by decide), (Finset.mem_erase.mpr ⟨cellOf_ne d L (by decide), ((mem_ownCells (g := cellOf d L cc0_scoped0)).mpr ⟨rfl, by show (SemLoc.dma cc0_scoped0.sem : SemLoc sig).isScoped .scVector = true; decide⟩)⟩)⟩)⟩)⟩),
    SparseCore.bigSep_erase' (Finset.mem_erase.mpr ⟨cellOf_ne d L (by decide), (Finset.mem_erase.mpr ⟨cellOf_ne d L (by decide), (Finset.mem_erase.mpr ⟨cellOf_ne d L (by decide), (Finset.mem_erase.mpr ⟨cellOf_ne d L (by decide), (Finset.mem_erase.mpr ⟨cellOf_ne d L (by decide), ((mem_ownCells (g := cellOf d L cc0_scoped1)).mpr ⟨rfl, by show (SemLoc.dma cc0_scoped1.sem : SemLoc sig).isScoped .scVector = true; decide⟩)⟩)⟩)⟩)⟩)⟩),
    SparseCore.bigSep_erase' (Finset.mem_erase.mpr ⟨cellOf_ne d L (by decide), (Finset.mem_erase.mpr ⟨cellOf_ne d L (by decide), (Finset.mem_erase.mpr ⟨cellOf_ne d L (by decide), (Finset.mem_erase.mpr ⟨cellOf_ne d L (by decide), (Finset.mem_erase.mpr ⟨cellOf_ne d L (by decide), (Finset.mem_erase.mpr ⟨cellOf_ne d L (by decide), ((mem_ownCells (g := cellOf d L cc0_scoped2)).mpr ⟨rfl, by show (SemLoc.dma cc0_scoped2.sem : SemLoc sig).isScoped .scVector = true; decide⟩)⟩)⟩)⟩)⟩)⟩)⟩),
    SparseCore.bigSep_erase' (Finset.mem_erase.mpr ⟨cellOf_ne d L (by decide), (Finset.mem_erase.mpr ⟨cellOf_ne d L (by decide), (Finset.mem_erase.mpr ⟨cellOf_ne d L (by decide), (Finset.mem_erase.mpr ⟨cellOf_ne d L (by decide), (Finset.mem_erase.mpr ⟨cellOf_ne d L (by decide), (Finset.mem_erase.mpr ⟨cellOf_ne d L (by decide), (Finset.mem_erase.mpr ⟨cellOf_ne d L (by decide), ((mem_ownCells (g := cellOf d L cc0_scoped3)).mpr ⟨rfl, by show (SemLoc.dma cc0_scoped3.sem : SemLoc sig).isScoped .scVector = true; decide⟩)⟩)⟩)⟩)⟩)⟩)⟩)⟩)]

/-- The tile's other buffers, at whatever they hold. -/
abbrev bufsRest (d : Dev nD) (L : grid0.Coords) : sProp 𝕄 :=
  bigSep (((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)) fun b => iprop(∃ f, ((d, b) : Loc nD τ sig) ↦{fullShare} f)

theorem ownBufs_V (d : Dev nD) (L : grid0.Coords) :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f) ∗ (∃ f, (thr d L).loc cc0_scratch6 ↦{fullShare} f) ∗ (∃ f, (thr d L).loc cc0_scratch7 ↦{fullShare} f) ∗ bufsRest d L) := by
  unfold SparseCore.Cfg.ownBufs bufsRest
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), (SparseCore.Cfg.mem_ownRefs_of_owner (p := Proc.scVector (cV L) (jV L)) (b := (Proc.scVector (cV L) (jV L)).devRef cc0_scratch1) rfl)⟩),
    SparseCore.bigSep_erase' (Finset.mem_erase.mpr ⟨fun e => absurd (Proc.devRef_injective _ e) (show (cc0_scratch2 : Ref sig .scVector) ≠ cc0_scratch1 by decide), (Finset.mem_erase.mpr ⟨fun e => absurd (Proc.devRef_injective _ e) (show (cc0_scratch2 : Ref sig .scVector) ≠ cc0_scratch0 by decide), (SparseCore.Cfg.mem_ownRefs_of_owner (p := Proc.scVector (cV L) (jV L)) (b := (Proc.scVector (cV L) (jV L)).devRef cc0_scratch2) rfl)⟩)⟩),
    SparseCore.bigSep_erase' (Finset.mem_erase.mpr ⟨fun e => absurd (Proc.devRef_injective _ e) (show (cc0_scratch3 : Ref sig .scVector) ≠ cc0_scratch2 by decide), (Finset.mem_erase.mpr ⟨fun e => absurd (Proc.devRef_injective _ e) (show (cc0_scratch3 : Ref sig .scVector) ≠ cc0_scratch1 by decide), (Finset.mem_erase.mpr ⟨fun e => absurd (Proc.devRef_injective _ e) (show (cc0_scratch3 : Ref sig .scVector) ≠ cc0_scratch0 by decide), (SparseCore.Cfg.mem_ownRefs_of_owner (p := Proc.scVector (cV L) (jV L)) (b := (Proc.scVector (cV L) (jV L)).devRef cc0_scratch3) rfl)⟩)⟩)⟩),
    SparseCore.bigSep_erase' (Finset.mem_erase.mpr ⟨fun e => absurd (Proc.devRef_injective _ e) (show (cc0_scratch4 : Ref sig .scVector) ≠ cc0_scratch3 by decide), (Finset.mem_erase.mpr ⟨fun e => absurd (Proc.devRef_injective _ e) (show (cc0_scratch4 : Ref sig .scVector) ≠ cc0_scratch2 by decide), (Finset.mem_erase.mpr ⟨fun e => absurd (Proc.devRef_injective _ e) (show (cc0_scratch4 : Ref sig .scVector) ≠ cc0_scratch1 by decide), (Finset.mem_erase.mpr ⟨fun e => absurd (Proc.devRef_injective _ e) (show (cc0_scratch4 : Ref sig .scVector) ≠ cc0_scratch0 by decide), (SparseCore.Cfg.mem_ownRefs_of_owner (p := Proc.scVector (cV L) (jV L)) (b := (Proc.scVector (cV L) (jV L)).devRef cc0_scratch4) rfl)⟩)⟩)⟩)⟩),
    SparseCore.bigSep_erase' (Finset.mem_erase.mpr ⟨fun e => absurd (Proc.devRef_injective _ e) (show (cc0_scratch5 : Ref sig .scVector) ≠ cc0_scratch4 by decide), (Finset.mem_erase.mpr ⟨fun e => absurd (Proc.devRef_injective _ e) (show (cc0_scratch5 : Ref sig .scVector) ≠ cc0_scratch3 by decide), (Finset.mem_erase.mpr ⟨fun e => absurd (Proc.devRef_injective _ e) (show (cc0_scratch5 : Ref sig .scVector) ≠ cc0_scratch2 by decide), (Finset.mem_erase.mpr ⟨fun e => absurd (Proc.devRef_injective _ e) (show (cc0_scratch5 : Ref sig .scVector) ≠ cc0_scratch1 by decide), (Finset.mem_erase.mpr ⟨fun e => absurd (Proc.devRef_injective _ e) (show (cc0_scratch5 : Ref sig .scVector) ≠ cc0_scratch0 by decide), (SparseCore.Cfg.mem_ownRefs_of_owner (p := Proc.scVector (cV L) (jV L)) (b := (Proc.scVector (cV L) (jV L)).devRef cc0_scratch5) rfl)⟩)⟩)⟩)⟩)⟩),
    SparseCore.bigSep_erase' (Finset.mem_erase.mpr ⟨fun e => absurd (Proc.devRef_injective _ e) (show (cc0_scratch6 : Ref sig .scVector) ≠ cc0_scratch5 by decide), (Finset.mem_erase.mpr ⟨fun e => absurd (Proc.devRef_injective _ e) (show (cc0_scratch6 : Ref sig .scVector) ≠ cc0_scratch4 by decide), (Finset.mem_erase.mpr ⟨fun e => absurd (Proc.devRef_injective _ e) (show (cc0_scratch6 : Ref sig .scVector) ≠ cc0_scratch3 by decide), (Finset.mem_erase.mpr ⟨fun e => absurd (Proc.devRef_injective _ e) (show (cc0_scratch6 : Ref sig .scVector) ≠ cc0_scratch2 by decide), (Finset.mem_erase.mpr ⟨fun e => absurd (Proc.devRef_injective _ e) (show (cc0_scratch6 : Ref sig .scVector) ≠ cc0_scratch1 by decide), (Finset.mem_erase.mpr ⟨fun e => absurd (Proc.devRef_injective _ e) (show (cc0_scratch6 : Ref sig .scVector) ≠ cc0_scratch0 by decide), (SparseCore.Cfg.mem_ownRefs_of_owner (p := Proc.scVector (cV L) (jV L)) (b := (Proc.scVector (cV L) (jV L)).devRef cc0_scratch6) rfl)⟩)⟩)⟩)⟩)⟩)⟩),
    SparseCore.bigSep_erase' (Finset.mem_erase.mpr ⟨fun e => absurd (Proc.devRef_injective _ e) (show (cc0_scratch7 : Ref sig .scVector) ≠ cc0_scratch6 by decide), (Finset.mem_erase.mpr ⟨fun e => absurd (Proc.devRef_injective _ e) (show (cc0_scratch7 : Ref sig .scVector) ≠ cc0_scratch5 by decide), (Finset.mem_erase.mpr ⟨fun e => absurd (Proc.devRef_injective _ e) (show (cc0_scratch7 : Ref sig .scVector) ≠ cc0_scratch4 by decide), (Finset.mem_erase.mpr ⟨fun e => absurd (Proc.devRef_injective _ e) (show (cc0_scratch7 : Ref sig .scVector) ≠ cc0_scratch3 by decide), (Finset.mem_erase.mpr ⟨fun e => absurd (Proc.devRef_injective _ e) (show (cc0_scratch7 : Ref sig .scVector) ≠ cc0_scratch2 by decide), (Finset.mem_erase.mpr ⟨fun e => absurd (Proc.devRef_injective _ e) (show (cc0_scratch7 : Ref sig .scVector) ≠ cc0_scratch1 by decide), (Finset.mem_erase.mpr ⟨fun e => absurd (Proc.devRef_injective _ e) (show (cc0_scratch7 : Ref sig .scVector) ≠ cc0_scratch0 by decide), (SparseCore.Cfg.mem_ownRefs_of_owner (p := Proc.scVector (cV L) (jV L)) (b := (Proc.scVector (cV L) (jV L)).devRef cc0_scratch7) rfl)⟩)⟩)⟩)⟩)⟩)⟩)⟩)]

end Cert.KernelIdeal.Tile

end
-- ==== Proof.LaunchRun.lean ====
/-
  The program's run from the launch theorem: the tile's obligation from the tile kernel's specification, what the final
  memory says of the TensorCore's arrays, and the run itself.
-/
import proofs.«205036_g29618094473603_cont_9to1_1720_19_alg».proof.Proof.LaunchMain
import proofs.«205036_g29618094473603_cont_9to1_1720_19_alg».proof.Proof.TileLoopsBridge

noncomputable section

namespace Cert.KernelIdeal.Launch

open Cert.KernelIdeal Cert.KernelIdeal.Tile
open Cert.KernelIdeal.Facts₀ Cert.KernelIdeal.Facts
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Cert.KernelIdeal.TcRegions (UP EP pipesGhost)

variable {F : FTy → Type} [FloatOps F] [Cert.KernelIdeal.Facts]

local notation "𝕄" => MT nD τ sig (HIx 1) (Elt F) ℕ (UU UP) ℕ

variable (m : (ℓ : Loc nD τ sig) → Buf (Elt F) ℓ) (ρ : Dev nD → PrngReg) (Nf Cf : Fin 32 → FVec F S64x16 .f32)

/-! ## The tile's obligation -/

/-- The tile kernel's specification: handed its read shares and its two blocks, it runs to the blocks holding its two
    tables, the shares back, its scoped storage as it found it, owing what it owed, having waited only on its own
    semaphores. -/
def TileBodySpec : Prop :=
  ∀ (d : Dev nD) (L : grid0.Coords) (q : PosShare TreeShare) (O : CellTallies nD τ sig (HIx 1)) (W : Waits sig (HIx 1)), (∀ g, O g none = 0) →
    iprop(levAts (K (F := F)).L (K (F := F)).lev ∗ goRes q d (wL L) (m (pLoc d)) (m (tLoc d)) (m (bLoc d)) (flOf m d)
        ∗ scopedBufs (thr d L) ∗ scopedSems0 (thr d L) ∗ owes (thr d L) O W)
      ⊢ (wp frame (wpE (defs₀ (F := F)) 𝒱₀ (thr d L) none) Set.univ (kern (F := F) L)
          fun _ => iprop(tdRes q d (wL L) (m (pLoc d)) (m (tLoc d)) (m (bLoc d)) (flOf m d) (Nf (wL L)) (Cf (wL L))
            ∗ scopedBufs (thr d L) ∗ scopedSems0 (thr d L) ∗ ∃ W', ⌜∀ p ∈ W', p ∈ W ∨ p.2 = none⌝ ∗ owes (thr d L) O W') : sProp 𝕄)

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => kern (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- What was dealt for the kernel's own use is nothing here: set it aside. -/
theorem drop_second {A X B : sProp 𝕄} : iprop(A ∗ X ∗ B) ⊢ iprop(A ∗ B) := by
  iintro ⟨HA, -, HB⟩
  isplitl [HA]; · iexact HA
  iexact HB

/-- The tile kernel's result, in the payload record's terms. -/
theorem td_conv (d : Dev nD) (c : Fin ((K (F := F)).nCore 0)) (i : Fin ((K (F := F)).nSub 0)) (R : sProp 𝕄) :
    iprop(tdRes (qTile (Fin.cast nCore_zero c) (Fin.cast nSub_zero i)) d (tileNo (Fin.cast nCore_zero c) (Fin.cast nSub_zero i))
        (m (pLoc d)) (m (tLoc d)) (m (bLoc d)) (flOf m d) (Nf (tileNo (Fin.cast nCore_zero c) (Fin.cast nSub_zero i))) (Cf (tileNo (Fin.cast nCore_zero c) (Fin.cast nSub_zero i)))
        ∗ R)
      ⊢ (iprop(tdTile (UP := UP) d (m (pLoc d)) (m (tLoc d)) (m (bLoc d)) (flOf m d) Nf Cf (Fin.cast nCore_zero c) (Fin.cast nSub_zero i) ∗ R) : sProp 𝕄) := by
  iintro ⟨Htd, Hrest⟩
  isplitl [Htd]
  · iapply (tdRes_tdTile (UP := UP) d (m (pLoc d)) (m (tLoc d)) (m (bLoc d)) (flOf m d) Nf Cf (Fin.cast nCore_zero c) (Fin.cast nSub_zero i)); iexact Htd
  · iexact Hrest

theorem td_post (d : Dev nD) (c : Fin ((K (F := F)).nCore 0)) (i : Fin ((K (F := F)).nSub 0)) (thr : Thread nD τ) (B C : sProp 𝕄)
    (O : CellTallies nD τ sig (HIx 1)) (W : Waits sig (HIx 1)) :
    iprop(tdRes (qTile (Fin.cast nCore_zero c) (Fin.cast nSub_zero i)) d (tileNo (Fin.cast nCore_zero c) (Fin.cast nSub_zero i))
        (m (pLoc d)) (m (tLoc d)) (m (bLoc d)) (flOf m d) (Nf (tileNo (Fin.cast nCore_zero c) (Fin.cast nSub_zero i))) (Cf (tileNo (Fin.cast nCore_zero c) (Fin.cast nSub_zero i)))
        ∗ B ∗ C ∗ ∃ W', ⌜∀ p ∈ W', p ∈ W ∨ p.2 = none⌝ ∗ owes thr O W')
      ⊢ (iprop((P m Nf Cf).td 0 d c i ∗ B ∗ C ∗ ∃ W', ⌜∀ p ∈ W', p ∈ W ∨ p.2 = none ∨ p.2 = some (0 : Fin 1)⌝ ∗ owes thr O W') : sProp 𝕄) :=
  (show _ ⊢ (iprop((P m Nf Cf).td 0 d c i ∗ B ∗ C ∗ ∃ W', ⌜∀ p ∈ W', p ∈ W ∨ p.2 = none⌝ ∗ owes thr O W') : sProp 𝕄) from td_conv m Nf Cf d c i _).trans obl_post

theorem tileObl (hbody : TileBodySpec m Nf Cf) : (K (F := F)).TileObl (D (F := F)) 𝒱 (P m Nf Cf) v₀ 0 := by
  intro d c i O W hO _ _
  simp only [show (P m Nf Cf).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact drop_second.trans ((hbody d (coordsV ⟨_, hc.1⟩ ⟨_, hc.2⟩) (qTile (Fin.cast nCore_zero c) (Fin.cast nSub_zero i)) O W hO).trans
    (wp_mono frame _ _ fun _ => td_post m Nf Cf d c i _ _ _ O W))

/-! ## What the final memory says -/

section Run

variable (R0 R1 : Valuation τ sig (Elt F) → Valuation τ sig (Elt F))

/-- The arguments and the result. -/
abbrev S7 : Finset (DevRef τ sig) := {dr main_arg0, dr main_arg1, dr main_arg2, dr main_arg3, dr main_arg4, dr main_arg5, dr main_v8}

theorem S7_sub : (S7 : Finset (DevRef τ sig)) ⊆ Pipeline.ucRefs τ sig := by decide

omit [FloatOps F] in
theorem held_S7 (d : Dev nD) (W : Valuation τ sig (Elt F)) :
    (held (T d) S7 W : sProp 𝕄) = iprop(((SparseCore.T d).loc main_arg0 ↦{fullShare} W (dr main_arg0)) ∗ ((SparseCore.T d).loc main_arg1 ↦{fullShare} W (dr main_arg1))
      ∗ ((SparseCore.T d).loc main_arg2 ↦{fullShare} W (dr main_arg2)) ∗ ((SparseCore.T d).loc main_arg3 ↦{fullShare} W (dr main_arg3)) ∗ ((SparseCore.T d).loc main_arg4 ↦{fullShare} W (dr main_arg4))
      ∗ ((SparseCore.T d).loc main_arg5 ↦{fullShare} W (dr main_arg5)) ∗ ((SparseCore.T d).loc main_v8 ↦{fullShare} W (dr main_v8))) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The final memory holds the final contents at the arguments and at the result. -/
def fq (d : Dev nD) (s' : Phys nD τ sig (Elt F)) : Prop :=
  s'.mem.mem ((SparseCore.T d).loc main_arg0) = Vfin m Nf Cf R0 R1 d (dr main_arg0) ∧ s'.mem.mem ((SparseCore.T d).loc main_arg1) = Vfin m Nf Cf R0 R1 d (dr main_arg1)
  ∧ s'.mem.mem ((SparseCore.T d).loc main_arg2) = Vfin m Nf Cf R0 R1 d (dr main_arg2) ∧ s'.mem.mem ((SparseCore.T d).loc main_arg3) = Vfin m Nf Cf R0 R1 d (dr main_arg3)
  ∧ s'.mem.mem ((SparseCore.T d).loc main_arg4) = Vfin m Nf Cf R0 R1 d (dr main_arg4) ∧ s'.mem.mem ((SparseCore.T d).loc main_arg5) = Vfin m Nf Cf R0 R1 d (dr main_arg5)
  ∧ s'.mem.mem ((SparseCore.T d).loc main_v8) = Vfin m Nf Cf R0 R1 d (dr main_v8)

theorem hfin (d : Dev nD) (s' : Phys nD τ sig (Elt F)) : iprop(FIN m Nf Cf R0 R1 d ∗ SI s') ⊢ (⌜fq m Nf Cf R0 R1 d s'⌝ : sProp 𝕄) := by
  iintro ⟨Hh, HSI⟩
  ihave H := (Entails.of_eq (held_sub_split (T d) S7_sub (Vfin m Nf Cf R0 R1 d))) $$ Hh
  icases H with ⟨H7, -⟩
  ihave H7' := (Entails.of_eq (held_S7 (F := F) d (Vfin m Nf Cf R0 R1 d))) $$ H7
  icases H7' with ⟨H0, H1, H2, H3, H4, H5, H8⟩
  ihave A := (persistent_entails_right (SI_pointsTo_agree (st := s') (ℓ := (SparseCore.T d).loc main_arg0) (I := Finset.univ) (q := fullShare) (f := Vfin m Nf Cf R0 R1 d (dr main_arg0)))) $$ [HSI H0]
  · isplitl [HSI] <;> iassumption
  icases A with ⟨%h0, HSI, -⟩
  ihave A := (persistent_entails_right (SI_pointsTo_agree (st := s') (ℓ := (SparseCore.T d).loc main_arg1) (I := Finset.univ) (q := fullShare) (f := Vfin m Nf Cf R0 R1 d (dr main_arg1)))) $$ [HSI H1]
  · isplitl [HSI] <;> iassumption
  icases A with ⟨%h1, HSI, -⟩
  ihave A := (persistent_entails_right (SI_pointsTo_agree (st := s') (ℓ := (SparseCore.T d).loc main_arg2) (I := Finset.univ) (q := fullShare) (f := Vfin m Nf Cf R0 R1 d (dr main_arg2)))) $$ [HSI H2]
  · isplitl [HSI] <;> iassumption
  icases A with ⟨%h2, HSI, -⟩
  ihave A := (persistent_entails_right (SI_pointsTo_agree (st := s') (ℓ := (SparseCore.T d).loc main_arg3) (I := Finset.univ) (q := fullShare) (f := Vfin m Nf Cf R0 R1 d (dr main_arg3)))) $$ [HSI H3]
  · isplitl [HSI] <;> iassumption
  icases A with ⟨%h3, HSI, -⟩
  ihave A := (persistent_entails_right (SI_pointsTo_agree (st := s') (ℓ := (SparseCore.T d).loc main_arg4) (I := Finset.univ) (q := fullShare) (f := Vfin m Nf Cf R0 R1 d (dr main_arg4)))) $$ [HSI H4]
  · isplitl [HSI] <;> iassumption
  icases A with ⟨%h4, HSI, -⟩
  ihave A := (persistent_entails_right (SI_pointsTo_agree (st := s') (ℓ := (SparseCore.T d).loc main_arg5) (I := Finset.univ) (q := fullShare) (f := Vfin m Nf Cf R0 R1 d (dr main_arg5)))) $$ [HSI H5]
  · isplitl [HSI] <;> iassumption
  icases A with ⟨%h5, HSI, -⟩
  ihave A := (SI_pointsTo_agree (st := s') (ℓ := (SparseCore.T d).loc main_v8) (I := Finset.univ) (q := fullShare) (f := Vfin m Nf Cf R0 R1 d (dr main_v8))) $$ [HSI H8]
  · isplitl [HSI] <;> iassumption
  icases A with %h8
  ipureintro
  exact ⟨funext fun i => h0 i (Finset.mem_univ i), funext fun i => h1 i (Finset.mem_univ i), funext fun i => h2 i (Finset.mem_univ i),
    funext fun i => h3 i (Finset.mem_univ i), funext fun i => h4 i (Finset.mem_univ i), funext fun i => h5 i (Finset.mem_univ i),
    funext fun i => h8 i (Finset.mem_univ i)⟩

/-! ## The run -/

/-- What the run ends in: on every device, the arguments and the result at the final contents. -/
def QC : PUnit × MemSt nD τ sig (Elt F) → Prop := fun r => ∀ c : Dev nD,
  r.2.mem ((SparseCore.T c).loc main_arg0) = Vfin m Nf Cf R0 R1 c (dr main_arg0) ∧ r.2.mem ((SparseCore.T c).loc main_arg1) = Vfin m Nf Cf R0 R1 c (dr main_arg1)
  ∧ r.2.mem ((SparseCore.T c).loc main_arg2) = Vfin m Nf Cf R0 R1 c (dr main_arg2) ∧ r.2.mem ((SparseCore.T c).loc main_arg3) = Vfin m Nf Cf R0 R1 c (dr main_arg3)
  ∧ r.2.mem ((SparseCore.T c).loc main_arg4) = Vfin m Nf Cf R0 R1 c (dr main_arg4) ∧ r.2.mem ((SparseCore.T c).loc main_arg5) = Vfin m Nf Cf R0 R1 c (dr main_arg5)
  ∧ r.2.mem ((SparseCore.T c).loc main_v8) = Vfin m Nf Cf R0 R1 c (dr main_v8)

theorem run_main [∀ e, Nonempty (Elt F e)] (hbody : TileBodySpec m Nf Cf) (h0 : RegionSpec m Nf Cf 0 R0) (h1 : RegionSpec m Nf Cf 1 R1) :
    θ_run (Cert.KernelIdeal.defs (F := F)) (Cert.KernelIdeal.threads (F := F)) ⟨m, fun _ => 0, ρ⟩ (QC m Nf Cf R0 R1) :=
  SparseCore.Cfg.θ_run_sc (K := K (F := F)) (D := D (F := F)) (𝒱 := 𝒱) (EH := EH (UP := UP)) (P := P m Nf Cf) facts v₀
    (fun q hq => match q with | 0 => nomatch hq)
    (fun q _ => match q with | 0 => tileObl m Nf Cf hbody)
    (fun q _ => match q with | 0 => SparseCore.Cfg.VecSplit.of_plain (vecSplit m Nf Cf))
    m ρ main (fun d => pipesGhost (F := F) d) (FIN m Nf Cf R0 R1) (u₀ (F := F)) (sep_elim_left.trans (hu₀ m Nf Cf)) (hmain m ρ Nf Cf R0 R1 h0 h1)
    (fq m Nf Cf R0 R1) (hfin m Nf Cf R0 R1) (QC m Nf Cf R0 R1) (fun _ h => h)

end Run

end Cert.KernelIdeal.Launch

end
-- ==== Proof.LaunchFin.lean ====
/-
  What the final contents are at the arguments and at the result.

  No operation of @main writes an argument: the host operations write their own results, the SparseCore call its two
  outputs, each region its results. The program's result is the reshape of the second region's 1 x 1 result.
-/
import proofs.«205036_g29618094473603_cont_9to1_1720_19_alg».proof.Proof.LaunchRun

noncomputable section

namespace Cert.KernelIdeal.Launch

open Cert.KernelIdeal Cert.KernelIdeal.Tile
open Cert.KernelIdeal.Facts₀ Cert.KernelIdeal.Facts
open Idealize.ShloMosaic
open Idealize.ShloMosaic.SparseCore (S V T)
open Idealize.SL Idealize.SL.Sem

variable {F : FTy → Type} [FloatOps F] [Cert.KernelIdeal.Facts]

variable (m : (ℓ : Loc nD τ sig) → Buf (Elt F) ℓ) (Nf Cf : Fin 32 → FVec F S64x16 .f32)
variable (R0 R1 : Valuation τ sig (Elt F) → Valuation τ sig (Elt F))
variable (hR0 : ∀ (Vv : Valuation τ sig (Elt F)) (b : DevRef τ sig), b ≠ dr main_v6_0 → b ≠ dr main_v6_1 → R0 Vv b = Vv b)
variable (hR1 : ∀ (Vv : Valuation τ sig (Elt F)) (b : DevRef τ sig), b ≠ dr main_v7 → R1 Vv b = Vv b)

include hR0 hR1 in
/-- An array no operation of @main writes ends at its launch contents. -/
theorem Vfin_kept (d : Dev nD) (b : Ref sig .tc) (h0 : b ≠ main_v0) (h1 : b ≠ main_v1) (h2 : b ≠ main_v2) (h3 : b ≠ main_v3) (h4 : b ≠ main_v4)
    (h50 : (dr b : DevRef τ sig) ≠ dr main_v5_0) (h51 : (dr b : DevRef τ sig) ≠ dr main_v5_1) (h60 : (dr b : DevRef τ sig) ≠ dr main_v6_0)
    (h61 : (dr b : DevRef τ sig) ≠ dr main_v6_1) (h7 : (dr b : DevRef τ sig) ≠ dr main_v7) (h8 : b ≠ main_v8) :
    Vfin m Nf Cf R0 R1 d (dr b) = m (d, dr b) := by
  unfold Vfin
  rw [StableHlo.reshape_result_ne' _ _ _ _ _ h8, hR1 _ _ h7, hR0 _ _ h60 h61, Vc_other m Nf Cf d _ h50 h51, V5_of_kept m d b h0 h1 h2 h3 h4]

include hR0 hR1 in
theorem Vfin_args (d : Dev nD) :
    Vfin m Nf Cf R0 R1 d (dr main_arg0) = m (d, dr main_arg0) ∧ Vfin m Nf Cf R0 R1 d (dr main_arg1) = m (d, dr main_arg1)
    ∧ Vfin m Nf Cf R0 R1 d (dr main_arg2) = m (d, dr main_arg2) ∧ Vfin m Nf Cf R0 R1 d (dr main_arg3) = m (d, dr main_arg3)
    ∧ Vfin m Nf Cf R0 R1 d (dr main_arg4) = m (d, dr main_arg4) ∧ Vfin m Nf Cf R0 R1 d (dr main_arg5) = m (d, dr main_arg5) :=
  ⟨Vfin_kept m Nf Cf R0 R1 hR0 hR1 d main_arg0 (by decide) (by decide) (by decide) (by decide) (by decide) (by decide) (by decide) (by decide) (by decide) (by decide) (by decide),
   Vfin_kept m Nf Cf R0 R1 hR0 hR1 d main_arg1 (by decide) (by decide) (by decide) (by decide) (by decide) (by decide) (by decide) (by decide) (by decide) (by decide) (by decide),
   Vfin_kept m Nf Cf R0 R1 hR0 hR1 d main_arg2 (by decide) (by decide) (by decide) (by decide) (by decide) (by decide) (by decide) (by decide) (by decide) (by decide) (by decide),
   Vfin_kept m Nf Cf R0 R1 hR0 hR1 d main_arg3 (by decide) (by decide) (by decide) (by decide) (by decide) (by decide) (by decide) (by decide) (by decide) (by decide) (by decide),
   Vfin_kept m Nf Cf R0 R1 hR0 hR1 d main_arg4 (by decide) (by decide) (by decide) (by decide) (by decide) (by decide) (by decide) (by decide) (by decide) (by decide) (by decide),
   Vfin_kept m Nf Cf R0 R1 hR0 hR1 d main_arg5 (by decide) (by decide) (by decide) (by decide) (by decide) (by decide) (by decide) (by decide) (by decide) (by decide) (by decide)⟩

/-- The program's result is the second region's 1 x 1 result, reshaped to a scalar. -/
theorem Vfin_v8 (d : Dev nD) :
    Vfin m Nf Cf R0 R1 d (dr main_v8) = fun i => shapeCast S_ (R1 (R0 (Vc m Nf Cf d)) (dr main_v7)) shapeCasts_S1x1_S_ i := by
  unfold Vfin
  rw [StableHlo.reshape_result' _ _ _ _ _]
  rfl

end Cert.KernelIdeal.Launch

end
-- ==== Proof.TcPure.lean ====
/-
  The arithmetic of the two TensorCore bodies as pure terms of their loaded vectors, for every float instance.

  The row body, at one grid point, holds a block of 2560 rows: P, T (2560 x 128 floats), the rows' segment ids B and
  flags Fl (1 x 1 x 2560), and the two running per-segment accumulators (64 floats each). It forms each row's sum of
  squared differences, lays it along a row of length 2560, forms the 64 x 2560 mask "segment id of row r is s, then
  the flag of r, else 0", and adds to the accumulators the mask's row sums with and without the rows' factor.
  The combine body adds each 32 x 64 x 16 table over its last and then its first axis, adds the accumulators, divides
  the masked sums by max(count, 1), sums the 64 quotients and divides by 64.

  Each definition below is the term the body stores, operation by operation, with the loaded vectors as variables.
-/
import proofs.«205036_g29618094473603_cont_9to1_1720_19_alg».proof.KernelIdeal

noncomputable section

namespace Cert.KernelIdeal.TcPure

open Idealize.ShloMosaic Cert.KernelIdeal Cert.KernelIdeal.Facts₀ Cert.KernelIdeal.Facts

variable {F : FTy → Type} [FloatOps F] [Facts]

/-- What the row body stores into the accumulator of masked sums: the accumulator plus, per segment, the sum over the
    block's rows of (the row's flag where its segment id is the segment, else 0) times the row's sum of squared differences. -/
def rowsNum (P T : FVec F S2560x128 .f32) (B : IVec S1x1x2560 32) (Fl : FVec F S1x1x2560 .f32) (acc : FVec F S64 .f32) :
    FVec F S64 .f32 :=
  addf (shapeCast S64 acc shapeCasts_S64_S64)
    (multiReduction .add [1] S64
      (mulf
        (select
          (cmpi .eq (broadcastTo S64x2560 (shapeCast S1x2560 B shapeCasts_S1x1x2560_S1x2560) broadcasts_S1x2560_S64x2560)
            (iota .tc S64x2560 32 [0] iota_S64x2560_d0_w32))
          (broadcastTo S64x2560
            (shapeCast S1x2560 (shapeCast S1x2560 Fl shapeCasts_S1x1x2560_S1x2560) shapeCasts_S1x2560_S1x2560)
            broadcasts_S1x2560_S64x2560)
          (broadcast S64x2560 (Scalar.ofBits .f32 0x00000000#32 : F .f32)))
        (broadcastTo S64x2560
          (transpose S1x2560 [1, 0]
            (shapeCast S2560x1
              (multiReduction .add [1] S2560 (mulf (subf P T) (subf P T)) 0x00000000#32 reduces_S2560x128_S2560 (.inl rfl) rfl)
              shapeCasts_S2560_S2560x1)
            transposes_S2560x1_p1_0_S1x2560)
          broadcasts_S1x2560_S64x2560))
      0x00000000#32 reduces_S64x2560_S64 (.inl rfl) rfl)

/-- What the row body stores into the accumulator of counts: the accumulator plus, per segment, the sum over the
    block's rows of the row's flag where its segment id is the segment, else 0. -/
def rowsCnt (B : IVec S1x1x2560 32) (Fl : FVec F S1x1x2560 .f32) (acc : FVec F S64 .f32) : FVec F S64 .f32 :=
  addf (shapeCast S64 acc shapeCasts_S64_S64)
    (multiReduction .add [1] S64
      (select
        (cmpi .eq (broadcastTo S64x2560 (shapeCast S1x2560 B shapeCasts_S1x1x2560_S1x2560) broadcasts_S1x2560_S64x2560)
          (iota .tc S64x2560 32 [0] iota_S64x2560_d0_w32))
        (broadcastTo S64x2560
          (shapeCast S1x2560 (shapeCast S1x2560 Fl shapeCasts_S1x1x2560_S1x2560) shapeCasts_S1x2560_S1x2560)
          broadcasts_S1x2560_S64x2560)
        (broadcast S64x2560 (Scalar.ofBits .f32 0x00000000#32 : F .f32)))
      0x00000000#32 reduces_S64x2560_S64 (.inl rfl) rfl)

/-- What the row body stores into both accumulators at the first grid point, before anything else: the zero vector. -/
def zero64 : FVec F S64 .f32 := broadcast S64 (Scalar.ofBits .f32 0x00000000#32 : F .f32)

/-- What the combine body stores: with N, C the tables of masked sums and of counts and nt, ct the two accumulators,
    ((sum over segments of (N summed over lanes, then tiles, plus nt) / max((C likewise) plus ct, 1)) / 64), as a 1 x 1 vector. -/
def combine (N C : FVec F S32x64x16 .f32) (nt ct : FVec F S64 .f32) : FVec F S1x1 .f32 :=
  broadcast S1x1
    (Scalar.divf
      (extractAt ![0, 0]
        (shapeCast S1x1
          (multiReduction .add [1] S1
            (shapeCast S1x64
              (divf
                (addf
                  (multiReduction .add [0] S64
                    (multiReduction .add [2] S32x64 (shapeCast S32x64x16 N shapeCasts_S32x64x16_S32x64x16) 0x00000000#32
                      reduces_S32x64x16_S32x64 (.inl rfl) rfl)
                    0x00000000#32 reduces_S32x64_S64 (.inl rfl) rfl)
                  (shapeCast S64 nt shapeCasts_S64_S64))
                (maximumf
                  (addf
                    (multiReduction .add [0] S64
                      (multiReduction .add [2] S32x64 (shapeCast S32x64x16 C shapeCasts_S32x64x16_S32x64x16) 0x00000000#32
                        reduces_S32x64x16_S32x64 (.inl rfl) rfl)
                      0x00000000#32 reduces_S32x64_S64 (.inl rfl) rfl)
                    (shapeCast S64 ct shapeCasts_S64_S64))
                  (broadcast S64 (Scalar.ofBits .f32 0x3F800000#32 : F .f32))))
              shapeCasts_S64_S1x64)
            0x00000000#32 reduces_S1x64_S1 (.inl rfl) rfl)
          shapeCasts_S1_S1x1)
        inpos_S1x1_p0_0)
      (Scalar.ofBits .f32 0x42800000#32 : F .f32))

end Cert.KernelIdeal.TcPure

end
-- ==== Proof.TcBody1.lean ====
import proofs.«205036_g29618094473603_cont_9to1_1720_19_alg».proof.Proof.TcAlg
import proofs.«205036_g29618094473603_cont_9to1_1720_19_alg».proof.Proof.TcPure
import Idealize.ShloMosaic.Lib.Pipeline.Frame
import Idealize.ShloMosaic.Lib.Pipeline.FrameBody
import Idealize.ShloMosaic.Lib.Pipeline.Value

set_option maxRecDepth 16384

noncomputable section

namespace Cert.KernelIdeal.TcRegions

open Cert.KernelIdeal Cert.KernelIdeal.Gen Cert.KernelIdeal.TcPure
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

set_option pp.maxSteps 6000
set_option pp.deepTerms false

/-! ## The row body, run once at a symbolic grid point on any whole staging memrefs

The body has one condition, "the grid coordinate is zero": there it first stores the zero vector through both
accumulators' buffers. Then, at every point, it loads the two 2560 x 128 blocks, the block's segment ids and flags and
the accumulators, and stores `rowsNum` and `rowsCnt` of them. So at the first point the accumulators end at
`rowsNum P T B Fl zero64` and `rowsCnt B Fl zero64` whatever they held, and at a later point at the same terms of
what they held. -/

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The row body's one condition: the grid coordinate is zero. -/
abbrev cond1 (i : grid1.Coords) : Prop :=
  (Scalar.cmpi .ne (Scalar.extui (Scalar.cmpi .eq (BitVec.ofNat 32 (i 0).val) 0#32)) 0#32) = 1#1

/-- It holds at the first point only: decided over the grid. -/
theorem hcond1 : ∀ t : Fin cfg1.N, cond1 (grid1.coords t) ↔ t.val = 0 :=
  (by decide +kernel : ∀ t : Fin grid1.N, cond1 (grid1.coords t) ↔ t.val = 0)

set_option maxHeartbeats 3200000 in
/-- The first point: the accumulators are zeroed, then the block is added. -/
theorem rowsRunA (c : Dev nD) (i : grid1.Coords) (hc : cond1 i)
    (arg1 : Memref sig .tc .vmem S2560x128 .f32) (harg1 : arg1.IsWhole) (arg2 : Memref sig .tc .vmem S2560x128 .f32) (harg2 : arg2.IsWhole)
    (arg3 : Memref sig .tc .vmem S1x1x2560 .i32) (harg3 : arg3.IsWhole) (arg4 : Memref sig .tc .vmem S1x1x2560 .f32) (harg4 : arg4.IsWhole)
    (arg5 : Memref sig .tc .vmem S64 .f32) (harg5 : arg5.IsWhole) (arg6 : Memref sig .tc .vmem S64 .f32) (harg6 : arg6.IsWhole)
    (x1 x2 : Vec F S2560x128 .f32) (x3 : Vec F S1x1x2560 .i32) (x4 : Vec F S1x1x2560 .f32) (E : Set ℕ) (Q : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2
        ∗ owns (c : Thread nD τ) arg3 fullShare x3 ∗ owns (c : Thread nD τ) arg4 fullShare x4
            ∗ owns (c : Thread nD τ) arg5 fullShare (rowsNum x1 x2 x3 x4 zero64) ∗ owns (c : Thread nD τ) arg6 fullShare (rowsCnt x3 x4 zero64)) -∗ Q ⟨⟩))
      ⊢ wp frame (wpE (defs₀ (F := F)) Variants.none c none) E (cc1__tc_rows_body i arg1 harg1 arg2 harg2 arg3 harg3 arg4 harg4 arg5 harg5 arg6 harg6) Q := by
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf1
  obtain rfl := harg2.eq_unread hf2
  obtain rfl := harg3.eq_unread hf3
  obtain rfl := harg4.eq_unread hf4
  unfold cc1__tc_rows_body
  sl_exec (disch := first | exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [View.read_writes_eq_canon _ _ _ (fun y => ⟨_, List.mem_cons_self, View.mem_set_unit_zero hz1 Gen.inb_S64_S64_0 y⟩), View.canon_cons_unit_zero hz1]
    sl_unfold_run_names
    simp only [View.readAt_eq_ld, harg1.read_unread, harg2.read_unread, harg3.read_unread, harg4.read_unread,
      View.ld_unit_zero (S := S2560x128) hz2, View.ld_unit_zero (S := S1x1x2560) hz3, View.readCov_unit_zero (S := S64) _ hz1]
    first | rfl | fail "rows value A"
  · iexists _; isplitr
    swap; · iexact H6
    ipureintro
    rw [View.read_writes_eq_canon _ _ _ (fun y => ⟨_, List.mem_cons_self, View.mem_set_unit_zero hz1 Gen.inb_S64_S64_0 y⟩), View.canon_cons_unit_zero hz1]
    sl_unfold_run_names
    simp only [View.readAt_eq_ld, harg1.read_unread, harg2.read_unread, harg3.read_unread, harg4.read_unread,
      View.ld_unit_zero (S := S2560x128) hz2, View.ld_unit_zero (S := S1x1x2560) hz3, View.readCov_unit_zero (S := S64) _ hz1]
    first | rfl | fail "rows value A"

set_option maxHeartbeats 3200000 in
/-- A later point: the block is added to what the accumulators hold. -/
theorem rowsRunB (c : Dev nD) (i : grid1.Coords) (hc : ¬cond1 i)
    (arg1 : Memref sig .tc .vmem S2560x128 .f32) (harg1 : arg1.IsWhole) (arg2 : Memref sig .tc .vmem S2560x128 .f32) (harg2 : arg2.IsWhole)
    (arg3 : Memref sig .tc .vmem S1x1x2560 .i32) (harg3 : arg3.IsWhole) (arg4 : Memref sig .tc .vmem S1x1x2560 .f32) (harg4 : arg4.IsWhole)
    (arg5 : Memref sig .tc .vmem S64 .f32) (harg5 : arg5.IsWhole) (arg6 : Memref sig .tc .vmem S64 .f32) (harg6 : arg6.IsWhole)
    (x1 x2 : Vec F S2560x128 .f32) (x3 : Vec F S1x1x2560 .i32) (x4 : Vec F S1x1x2560 .f32) (a5 a6 : Vec F S64 .f32) (E : Set ℕ) (Q : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare a5 ∗ owns (c : Thread nD τ) arg6 fullShare a6
        ∗ (iprop(owns (c : Thread nD τ) arg1 fullShare x1 ∗ owns (c : Thread nD τ) arg2 fullShare x2
        ∗ owns (c : Thread nD τ) arg3 fullShare x3 ∗ owns (c : Thread nD τ) arg4 fullShare x4
            ∗ owns (c : Thread nD τ) arg5 fullShare (rowsNum x1 x2 x3 x4 a5) ∗ owns (c : Thread nD τ) arg6 fullShare (rowsCnt x3 x4 a6)) -∗ Q ⟨⟩))
      ⊢ wp frame (wpE (defs₀ (F := F)) Variants.none c none) E (cc1__tc_rows_body i arg1 harg1 arg2 harg2 arg3 harg3 arg4 harg4 arg5 harg5 arg6 harg6) Q := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  unfold cc1__tc_rows_body
  sl_exec (disch := first | exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [View.read_writes_eq_canon _ _ _ (fun y => ⟨_, List.mem_singleton_self _, View.mem_set_unit_zero hz1 Gen.inb_S64_S64_0 y⟩), View.canon_unit_zero hz1]
    sl_unfold_run_names
    simp only [View.readAt_eq_ld, harg1.read_unread, harg2.read_unread, harg3.read_unread, harg4.read_unread, harg5.read_unread, harg6.read_unread,
      View.ld_unit_zero (S := S2560x128) hz2, View.ld_unit_zero (S := S1x1x2560) hz3, View.ld_unit_zero (S := S64) hz1]
    first | rfl | fail "rows value B"
  · iexists _; isplitr
    swap; · iexact H6
    ipureintro
    rw [View.read_writes_eq_canon _ _ _ (fun y => ⟨_, List.mem_singleton_self _, View.mem_set_unit_zero hz1 Gen.inb_S64_S64_0 y⟩), View.canon_unit_zero hz1]
    sl_unfold_run_names
    simp only [View.readAt_eq_ld, harg1.read_unread, harg2.read_unread, harg3.read_unread, harg4.read_unread, harg5.read_unread, harg6.read_unread,
      View.ld_unit_zero (S := S2560x128) hz2, View.ld_unit_zero (S := S1x1x2560) hz3, View.ld_unit_zero (S := S64) hz1]
    first | rfl | fail "rows value B"

end Cert.KernelIdeal.TcRegions

end
-- ==== Proof.TcBody2.lean ====
import proofs.«205036_g29618094473603_cont_9to1_1720_19_alg».proof.Proof.TcAlg
import proofs.«205036_g29618094473603_cont_9to1_1720_19_alg».proof.Proof.TcPure
import Idealize.ShloMosaic.Lib.Pipeline.Frame
import Idealize.ShloMosaic.Lib.Pipeline.FrameBody
import Idealize.ShloMosaic.Lib.Pipeline.Value

set_option maxRecDepth 16384

noncomputable section

namespace Cert.KernelIdeal.TcRegions

open Cert.KernelIdeal Cert.KernelIdeal.Gen Cert.KernelIdeal.TcPure
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The combine body, run once on any whole staging memrefs

From the four operand buffers at contents N, C (the tiles' tables) and nt, ct (the TensorCore's accumulators), and
the result buffer at anything, the body ends with the operands as they were and the result at `combine N C nt ct`:
it loads each operand whole, computes, and stores the 1 x 1 result through the whole result buffer. -/

theorem hzc1 : (![0] : Fin 1 → Nat) = fun _ => 0 := funext fun a => by fin_cases a; rfl
theorem hzc2 : (![0, 0] : Fin 2 → Nat) = fun _ => 0 := funext fun a => by fin_cases a <;> rfl
theorem hzc3 : (![0, 0, 0] : Fin 3 → Nat) = fun _ => 0 := funext fun a => by fin_cases a <;> rfl

set_option maxHeartbeats 1600000 in
theorem combineRun (c : Dev nD)
    (arg0 : Memref sig .tc .vmem S32x64x16 .f32) (harg0 : arg0.IsWhole) (arg1 : Memref sig .tc .vmem S32x64x16 .f32) (harg1 : arg1.IsWhole)
    (arg2 : Memref sig .tc .vmem S64 .f32) (harg2 : arg2.IsWhole) (arg3 : Memref sig .tc .vmem S64 .f32) (harg3 : arg3.IsWhole)
    (arg4 : Memref sig .tc .vmem S1x1 .f32) (harg4 : arg4.IsWhole)
    (x0 x1 : Vec F S32x64x16 .f32) (x2 x3 : Vec F S64 .f32) (E : Set ℕ) (Q : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (combine x0 x1 x2 x3)) -∗ Q ⟨⟩))
      ⊢ wp frame (wpE (defs₀ (F := F)) Variants.none c none) E (cc2__tc_combine_body arg0 harg0 arg1 harg1 arg2 harg2 arg3 harg3 arg4 harg4) Q := by
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg0.eq_unread hf0
  obtain rfl := harg1.eq_unread hf1
  obtain rfl := harg2.eq_unread hf2
  obtain rfl := harg3.eq_unread hf3
  unfold cc2__tc_combine_body
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact H4
  ipureintro
  rw [View.read_writes_eq_canon _ _ _ (fun y => ⟨_, List.mem_singleton_self _, View.mem_set_unit_zero hzc2 Gen.inb_S1x1_S1x1_0_0 y⟩), View.canon_unit_zero hzc2]
  sl_unfold_run_names
  simp only [View.readAt_eq_ld, harg0.read_unread, harg1.read_unread, harg2.read_unread, harg3.read_unread,
    View.ld_unit_zero (S := S32x64x16) hzc3, View.ld_unit_zero (S := S64) hzc1]
  first | rfl | fail "combine value"

end Cert.KernelIdeal.TcRegions

end
-- ==== Proof.TcDat.lean ====
import proofs.«205036_g29618094473603_cont_9to1_1720_19_alg».proof.Proof.TcAlg
import proofs.«205036_g29618094473603_cont_9to1_1720_19_alg».proof.Proof.TcPure
import proofs.«205036_g29618094473603_cont_9to1_1720_19_alg».proof.Proof.TcBody1
import proofs.«205036_g29618094473603_cont_9to1_1720_19_alg».proof.Proof.TcBody2
import Idealize.ShloMosaic.Lib.Pipeline.Frame
import Idealize.ShloMosaic.Lib.Pipeline.FrameBody

set_option maxRecDepth 16384

noncomputable section

namespace Cert.KernelIdeal.TcRegions

open Cert.KernelIdeal Cert.KernelIdeal.Gen Cert.KernelIdeal.TcPure
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The two pipelines' proof data, over the contents the TensorCore's arrays hold when a region is entered

`V c b` is what buffer `b` of device `c` holds at the region's entry. Every input window's staging buffer holds,
at each point, its block of the array (the body only reads it). The row kernel's two outputs are revisited at every
point and written back after the last: after point `n` they hold the fold of `rowsNum` / `rowsCnt` over the
blocks 0 … n from the zero vector. The combine kernel's output holds `combine` of the four whole operands. -/

variable (V : (c : Dev nD) → (b : Ref sig .tc) → Buf (Elt F) ((c.tc : Thread nD τ).loc b))

/-- Window `w`'s block at point `t` of the row kernel, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
/-- The same for the combine kernel (one point, the whole arrays). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- THE ACCUMULATION: the two accumulators after the row body at point `n`. -/
def acc1 (c : Dev nD) : (n : ℕ) → n < cfg1.N → Vec F S64 .f32 × Vec F S64 .f32
  | 0, hn => (rowsNum (iblk1 V c 0 ⟨0, hn⟩) (iblk1 V c 1 ⟨0, hn⟩) (iblk1 V c 2 ⟨0, hn⟩) (iblk1 V c 3 ⟨0, hn⟩) zero64,
              rowsCnt (iblk1 V c 2 ⟨0, hn⟩) (iblk1 V c 3 ⟨0, hn⟩) zero64)
  | n + 1, hn => (rowsNum (iblk1 V c 0 ⟨n + 1, hn⟩) (iblk1 V c 1 ⟨n + 1, hn⟩) (iblk1 V c 2 ⟨n + 1, hn⟩) (iblk1 V c 3 ⟨n + 1, hn⟩) (acc1 c n (Nat.lt_of_succ_lt hn)).1,
                  rowsCnt (iblk1 V c 2 ⟨n + 1, hn⟩) (iblk1 V c 3 ⟨n + 1, hn⟩) (acc1 c n (Nat.lt_of_succ_lt hn)).2)

theorem acc1_zero (c : Dev nD) (t : Fin cfg1.N) (h0 : t.val = 0) :
    acc1 V c t.val t.isLt = (rowsNum (iblk1 V c 0 t) (iblk1 V c 1 t) (iblk1 V c 2 t) (iblk1 V c 3 t) zero64, rowsCnt (iblk1 V c 2 t) (iblk1 V c 3 t) zero64) := by
  obtain ⟨n, hn⟩ := t
  cases n with
  | zero => rfl
  | succ n => exact absurd h0 (Nat.succ_ne_zero n)

theorem acc1_succ (c : Dev nD) (t : Fin cfg1.N) (h0 : t.val ≠ 0) :
    acc1 V c t.val t.isLt = (rowsNum (iblk1 V c 0 t) (iblk1 V c 1 t) (iblk1 V c 2 t) (iblk1 V c 3 t) (acc1 V c (t.val - 1) (Nat.lt_of_le_of_lt (Nat.sub_le _ _) t.isLt)).1,
      rowsCnt (iblk1 V c 2 t) (iblk1 V c 3 t) (acc1 V c (t.val - 1) (Nat.lt_of_le_of_lt (Nat.sub_le _ _) t.isLt)).2) := by
  obtain ⟨n, hn⟩ := t
  cases n with
  | zero => exact absurd rfl h0
  | succ n => rfl

/-- The bound kept on the pairs the TensorCore's waits have recorded: at or below level 8, the band of the one
    SparseCore call that has ended. The staging cells' own waits sit at index `none`, level 0. -/
def recB (c : Dev nD) : Set (SemLoc sig × HIx 1) := {p | (K (F := F)).lev ((c.tc : Thread nD τ), p.1) p.2 ≤ 8}

/-- The row kernel's proof data on core `c`. -/
def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (acc1 V c t.val t.isLt).1
    | ⟨5, _⟩ => (acc1 V c t.val t.isLt).2
    | ⟨_ + 6, h⟩ => absurd h (Nat.not_lt.2 (Nat.le_add_left _ _))
  Φ _ := Pipeline.scopedRest spec1 c
  q _ := fullShare
  owed _ := 0
  recorded _ := recB (F := F) c

/-- The combine kernel's proof data on core `c`. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => combine (iblk2 V c 0 t) (iblk2 V c 1 t) (iblk2 V c 2 t) (iblk2 V c 3 t)
    | ⟨_ + 5, h⟩ => absurd h (Nat.not_lt.2 (Nat.le_add_left _ _))
  Φ _ := Pipeline.scopedRest spec2 c
  q _ := fullShare
  owed _ := 0
  recorded _ := recB (F := F) c

/-- Both pipelines' proof data: a literal match on the pipeline. -/
def pdats : (p : Fin 2) → (c : Dev nD) → Dat τ (Elt F) (HIx 1) ℕ UU ℕ (Pipeline.pin (pcfgs (F := F)) adm p) c
  | 0 => dat1 V
  | 1 => dat2 V

theorem A1_eq (c : Dev nD) (w : Fin cfg1.W) : (dat1 V c).A w = V c (Pipeline.arrRef spec1 w) := by dsimp only [dat1]
theorem A2_eq (c : Dev nD) (w : Fin cfg2.W) : (dat2 V c).A w = V c (Pipeline.arrRef spec2 w) := by dsimp only [dat2]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (acc1 V c t.val t.isLt).1 := by dsimp only [dat1]
theorem after1_5 (c : Dev nD) (t : Fin cfg1.N) : (dat1 V c).after 5 t = (acc1 V c t.val t.isLt).2 := by dsimp only [dat1]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = combine (iblk2 V c 0 t) (iblk2 V c 1 t) (iblk2 V c 2 t) (iblk2 V c 3 t) := by dsimp only [dat2]

/-! ### What the body finds in each staging buffer -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A1_eq]; try rfl) t d).trans
    (by unfold Dat.fetched Dat.blockOf iblk1; rw [A1_eq]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A1_eq]; try rfl) t d).trans
    (by unfold Dat.fetched Dat.blockOf iblk1; rw [A1_eq]; try rfl)
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A2_eq]; try rfl) t d).trans
    (by unfold Dat.fetched Dat.blockOf iblk2; rw [A2_eq]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A2_eq]; try rfl) t d).trans
    (by unfold Dat.fetched Dat.blockOf iblk2; rw [A2_eq]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A2_eq]; try rfl) t d).trans
    (by unfold Dat.fetched Dat.blockOf iblk2; rw [A2_eq]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A2_eq]; try rfl) t d).trans
    (by unfold Dat.fetched Dat.blockOf iblk2; rw [A2_eq]; try rfl)

/-- After the first point an accumulator's buffer holds what the body left at the point before: it is written back
    only after the last point. -/
theorem before1_4 (c : Dev nD) (t : Fin cfg1.N) (h0 : t.val ≠ 0) (d) :
    (dat1 V c).before 4 t d = (acc1 V c (t.val - 1) (Nat.lt_of_le_of_lt (Nat.sub_le _ _) t.isLt)).1 := by
  have hN : t.val < 55 := lt_of_lt_of_eq t.isLt (show cfg1.N = 55 from N_1)
  rw [Dat.before_out_kept _ 4 rfl t h0 (Bool.eq_false_iff.mpr fun h => by have := (flush1_4 _).mp h; dsimp only at this; omega)
    (fun _ => rfl) (fun _ _ => rfl)]
  dsimp only [dat1]
theorem before1_5 (c : Dev nD) (t : Fin cfg1.N) (h0 : t.val ≠ 0) (d) :
    (dat1 V c).before 5 t d = (acc1 V c (t.val - 1) (Nat.lt_of_le_of_lt (Nat.sub_le _ _) t.isLt)).2 := by
  have hN : t.val < 55 := lt_of_lt_of_eq t.isLt (show cfg1.N = 55 from N_1)
  rw [Dat.before_out_kept _ 5 rfl t h0 (Bool.eq_false_iff.mpr fun h => by have := (flush1_5 _).mp h; dsimp only at this; omega)
    (fun _ => rfl) (fun _ _ => rfl)]
  dsimp only [dat1]

/-! ### The body obligations -/

abbrev ms1_0 (t : Fin cfg1.N) : Memref sig .tc .vmem S2560x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2560x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x2560 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x2560 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64 .f32 := win1_5.stage (cfg1.slots t 5)
abbrev hs1_5 (t : Fin cfg1.N) : (ms1_5 t).IsWhole := hstage1_5 ((cfg1.slots t 5).cast nbuf1_5)
abbrev ms2_0 (t : Fin cfg2.N) : Memref sig .tc .vmem S32x64x16 .f32 := win2_0.stage (cfg2.slots t 0)
abbrev hs2_0 (t : Fin cfg2.N) : (ms2_0 t).IsWhole := hstage2_0 0
abbrev ms2_1 (t : Fin cfg2.N) : Memref sig .tc .vmem S32x64x16 .f32 := win2_1.stage (cfg2.slots t 1)
abbrev hs2_1 (t : Fin cfg2.N) : (ms2_1 t).IsWhole := hstage2_1 0
abbrev ms2_2 (t : Fin cfg2.N) : Memref sig .tc .vmem S64 .f32 := win2_2.stage (cfg2.slots t 2)
abbrev hs2_2 (t : Fin cfg2.N) : (ms2_2 t).IsWhole := hstage2_2 0
abbrev ms2_3 (t : Fin cfg2.N) : Memref sig .tc .vmem S64 .f32 := win2_3.stage (cfg2.slots t 3)
abbrev hs2_3 (t : Fin cfg2.N) : (ms2_3 t).IsWhole := hstage2_3 0
abbrev ms2_4 (t : Fin cfg2.N) : Memref sig .tc .vmem S1x1 .f32 := win2_4.stage (cfg2.slots t 4)
abbrev hs2_4 (t : Fin cfg2.N) : (ms2_4 t).IsWhole := hstage2_4 0

def bodyPre1 (c : Dev nD) (t : Fin cfg1.N) : sProp 𝕄 :=
  iprop((dat1 V c).Φ t.castSucc ∗ (dat1 V c).owesAt none t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))
def bodyPost1 (c : Dev nD) (t : Fin cfg1.N) : sProp 𝕄 :=
  iprop((dat1 V c).Φ t.succ ∗ (dat1 V c).owesAt none t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt none t.succ = (dat1 V c).owesAt none t.castSucc from rfl,
    after1_0, after1_1, after1_2, after1_3, after1_4, after1_5]
  by_cases h0 : t.val = 0
  · rw [acc1_zero V c t h0]
    iintro ⟨HΦ, Ho, ⟨%d0, H0⟩, ⟨%d1, H1⟩, ⟨%d2, H2⟩, ⟨%d3, H3⟩, ⟨%d4, H4⟩, ⟨%d5, H5⟩⟩
    iapply (rowsRunA c (grid1.coords t) ((hcond1 t).mpr h0) (ms1_0 t) (hs1_0 t) (ms1_1 t) (hs1_1 t) (ms1_2 t) (hs1_2 t) (ms1_3 t) (hs1_3 t)
      (ms1_4 t) (hs1_4 t) (ms1_5 t) (hs1_5 t) (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc1_succ V c t h0]
    simp only [before1_4 V c t h0, before1_5 V c t h0]
    iintro ⟨HΦ, Ho, ⟨%d0, H0⟩, ⟨%d1, H1⟩, ⟨%d2, H2⟩, ⟨%d3, H3⟩, ⟨%d4, H4⟩, ⟨%d5, H5⟩⟩
    iapply (rowsRunB c (grid1.coords t) (fun h => h0 ((hcond1 t).mp h)) (ms1_0 t) (hs1_0 t) (ms1_1 t) (hs1_1 t) (ms1_2 t) (hs1_2 t) (ms1_3 t) (hs1_3 t)
      (ms1_4 t) (hs1_4 t) (ms1_5 t) (hs1_5 t) (iblk1 V c 0 t) (iblk1 V c 1 t) (iblk1 V c 2 t) (iblk1 V c 3 t)
      (acc1 V c (t.val - 1) (Nat.lt_of_le_of_lt (Nat.sub_le _ _) t.isLt)).1 (acc1 V c (t.val - 1) (Nat.lt_of_le_of_lt (Nat.sub_le _ _) t.isLt)).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The row kernel's body obligation, at every point. -/
theorem body1 (c : Dev nD) : BodyObligation (dat1 (F := F) V c) (defs₀ (F := F)) Variants.none none Set.univ := fun t => by
  rw [bigSep_W1, bigSep_W1]
  exact sound_body1 V c t

def bodyPre2 (c : Dev nD) (t : Fin cfg2.N) : sProp 𝕄 :=
  iprop((dat2 V c).Φ t.castSucc ∗ (dat2 V c).owesAt none t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))
def bodyPost2 (c : Dev nD) (t : Fin cfg2.N) : sProp 𝕄 :=
  iprop((dat2 V c).Φ t.succ ∗ (dat2 V c).owesAt none t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 1600000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt none t.succ = (dat2 V c).owesAt none t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (combineRun c (ms2_0 t) (hs2_0 t) (ms2_1 t) (hs2_1 t) (ms2_2 t) (hs2_2 t) (ms2_3 t) (hs2_3 t) (ms2_4 t) (hs2_4 t)
    (iblk2 V c 0 t) (iblk2 V c 1 t) (iblk2 V c 2 t) (iblk2 V c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The combine kernel's body obligation. -/
theorem body2 (c : Dev nD) : BodyObligation (dat2 (F := F) V c) (defs₀ (F := F)) Variants.none none Set.univ := fun t => by
  rw [bigSep_W2, bigSep_W2]
  exact sound_body2 V c t

end Cert.KernelIdeal.TcRegions

end
-- ==== Proof.TcRegion.lean ====
import proofs.«205036_g29618094473603_cont_9to1_1720_19_alg».proof.Proof.TcAlg
import proofs.«205036_g29618094473603_cont_9to1_1720_19_alg».proof.Proof.TcPure
import proofs.«205036_g29618094473603_cont_9to1_1720_19_alg».proof.Proof.TcDat
import Idealize.ShloMosaic.Lib.Pipeline.RegionsLoop

set_option maxRecDepth 16384

noncomputable section

namespace Cert.KernelIdeal.TcRegions

open Cert.KernelIdeal Cert.KernelIdeal.Gen Cert.KernelIdeal.TcPure
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.SL.BI (bigSepL bigSep_univ_eq_bigSepL)

/-! ## The two regions as steps of @main on the TensorCore, inside the SparseCore program

Each TensorCore pallas_call of @main is entered from the region boundary, the TensorCore's unscoped buffers held
whole at a valuation, the core owing nothing, and its pipeline's share of the launch's ghost state; it returns to the
boundary with the buffers at the valuation updated at the call's results. -/

variable (V : (c : Dev nD) → (b : Ref sig .tc) → Buf (Elt F) ((c.tc : Thread nD τ).loc b))

theorem hshare1 (c : Dev nD) : ∀ w, (pdats V 0 c).share w = fullShare := (dat1 V c).share_full fun _ => rfl
theorem hshare2 (c : Dev nD) : ∀ w, (pdats V 1 c).share w = fullShare := (dat2 V c).share_full fun _ => rfl

/-- A conjunction over no index is `emp`. -/
theorem bigSep_fin0 {M : Type} [URA M] (Φ : Fin 0 → sProp M) : bigSep Finset.univ Φ = (BI.emp : sProp M) :=
  bigSep_univ_eq_bigSepL [] (by decide) (by decide) Φ

/-- The core owes nothing, and every pair its waits have recorded sits at or below level 8: how the TensorCore stands
    after the one SparseCore call. -/
def owesB (c : Dev nD) : sProp 𝕄 :=
  iprop(∃ W : Waits sig (HIx 1), ⌜(K (F := F)).WBelow (T c) W 8⌝ ∗ owes (c.tc : Thread nD τ) (0 : CellTallies nD τ sig (HIx 1)) W)

theorem owesAt_intro1 (c : Dev nD) (t : Fin (cfg1.N + 1)) : owesB (F := F) c ⊢ ((dat1 V c).owesAt none t : sProp 𝕄) := by
  unfold owesB Pipeline.Dat.owesAt Pipeline.owesWithin Pipeline.Dat.bound
  iintro ⟨%W, %hW, HO⟩
  iexists W; isplitr
  · ipureintro; exact fun p hp => Or.inl (hW p (Finset.mem_coe.mp hp))
  iexact HO
theorem owesAt_elim1 (c : Dev nD) (t : Fin (cfg1.N + 1)) : ((dat1 V c).owesAt none t : sProp 𝕄) ⊢ owesB (F := F) c := by
  unfold owesB Pipeline.Dat.owesAt Pipeline.owesWithin Pipeline.Dat.bound
  iintro ⟨%W, %hW, HO⟩
  iexists W; isplitr
  · ipureintro
    intro p hp
    rcases hW (Finset.mem_coe.mpr hp) with h | ⟨w, s, rfl⟩
    · exact h
    · exact Nat.zero_le _
  iexact HO
theorem prefHeld_emp1 (c : Dev nD) (q) (pf) :
    (Pipeline.prefHeld (Ix := HIx 1) (Name := ℕ) (U := UU) (Lvl := ℕ) (Val := Elt F) (pcfgs (F := F) 0).pre c q pf : sProp 𝕄) = BI.emp :=
  bigSep_fin0 _

theorem owesAt_intro2 (c : Dev nD) (t : Fin (cfg2.N + 1)) : owesB (F := F) c ⊢ ((dat2 V c).owesAt none t : sProp 𝕄) := by
  unfold owesB Pipeline.Dat.owesAt Pipeline.owesWithin Pipeline.Dat.bound
  iintro ⟨%W, %hW, HO⟩
  iexists W; isplitr
  · ipureintro; exact fun p hp => Or.inl (hW p (Finset.mem_coe.mp hp))
  iexact HO
theorem owesAt_elim2 (c : Dev nD) (t : Fin (cfg2.N + 1)) : ((dat2 V c).owesAt none t : sProp 𝕄) ⊢ owesB (F := F) c := by
  unfold owesB Pipeline.Dat.owesAt Pipeline.owesWithin Pipeline.Dat.bound
  iintro ⟨%W, %hW, HO⟩
  iexists W; isplitr
  · ipureintro
    intro p hp
    rcases hW (Finset.mem_coe.mpr hp) with h | ⟨w, s, rfl⟩
    · exact h
    · exact Nat.zero_le _
  iexact HO
theorem prefHeld_emp2 (c : Dev nD) (q) (pf) :
    (Pipeline.prefHeld (Ix := HIx 1) (Name := ℕ) (U := UU) (Lvl := ℕ) (Val := Elt F) (pcfgs (F := F) 1).pre c q pf : sProp 𝕄) = BI.emp :=
  bigSep_fin0 _

/-- The row kernel's region, entered from the TensorCore's unscoped buffers held whole at `V c` and the core
    owing nothing: its windows' arrays go to the pipeline, the other buffers bypass it; it leaves the arrays at what
    the pipeline computes. -/
def reg1 (lv : GSem nD τ sig → HIx 1 → ℕ) : Pipeline.RegionSeg (pcfgs (F := F)) adm (pdats V) none defs₀ 𝒱₀ (K (F := F)).L lv 0 where
  win := launch1.win.to₀
  block_pos := block_pos1
  stage_whole := stage_whole1
  K := PEmpty
  osem k := k.elim
  ho := Pipeline.OwnSemFacts.none _
  hbody c := (body1 V c).loose
  hwaits := Pipeline.hwaits_of_owed_zero (pcfgs (F := F)) adm (pdats V) none (K (F := F)).L lv 0 fun _ _ => rfl
  pre c := iprop(unscopedBufs c (V c) ∗ owesB (F := F) c)
  post c := iprop((pdats V 0 c).arrays ((pdats V 0 c).arrAt · cfg1.N) ∗ Pipeline.unscopedRest spec1 c (V c) ∗ owesB (F := F) c)
  X _ := iprop(emp)
  Y _ := iprop(emp)
  Z c := Pipeline.unscopedRest spec1 c (V c)
  hentry c := by
    rw [Pipeline.ownSems0_none, prefHeld_emp1]
    iintro ⟨⟨Hu, HO⟩, -, -⟩
    ihave Ha := (Pipeline.arrays_of_unscopedBufs (pcfgs (F := F)) adm (pdats V) (p := 0) launch1.win arr_whole1 c (hshare1 V c) (V c) (A1_eq V c)) $$ Hu
    icases Ha with ⟨Ha, Hr⟩
    imodintro
    isplitl [Ha]; · iexact Ha
    isplitr; · iempintro
    isplitl [HO]; · iapply (owesAt_intro1 V c 0); iexact HO
    isplitr; · iempintro
    iexact Hr
  hin c := by
    rw [show (pdats V 0 c).Φ 0 = Pipeline.scopedRest spec1 c from rfl]
    iintro ⟨-, -, H⟩; iexact H
  hout c := by
    rw [Pipeline.ownSems0_none, show (pdats V 0 c).Φ (Fin.last _) = Pipeline.scopedRest spec1 c from rfl]
    iintro H
    isplitr; · iempintro
    isplitr; · iempintro
    iexact H
  hexit c := by
    iintro ⟨Ha, HO, -, HZ⟩
    imodintro
    isplitl [Ha]; · iexact Ha
    isplitl [HZ]; · iexact HZ
    iapply (owesAt_elim1 V c _); iexact HO

/-- The combine kernel's region, entered from the TensorCore's unscoped buffers held whole at `V c` and the core
    owing nothing: its windows' arrays go to the pipeline, the other buffers bypass it; it leaves the arrays at what
    the pipeline computes. -/
def reg2 (lv : GSem nD τ sig → HIx 1 → ℕ) : Pipeline.RegionSeg (pcfgs (F := F)) adm (pdats V) none defs₀ 𝒱₀ (K (F := F)).L lv 1 where
  win := launch2.win.to₀
  block_pos := block_pos2
  stage_whole := stage_whole2
  K := PEmpty
  osem k := k.elim
  ho := Pipeline.OwnSemFacts.none _
  hbody c := (body2 V c).loose
  hwaits := Pipeline.hwaits_of_owed_zero (pcfgs (F := F)) adm (pdats V) none (K (F := F)).L lv 1 fun _ _ => rfl
  pre c := iprop(unscopedBufs c (V c) ∗ owesB (F := F) c)
  post c := iprop((pdats V 1 c).arrays ((pdats V 1 c).arrAt · cfg2.N) ∗ Pipeline.unscopedRest spec2 c (V c) ∗ owesB (F := F) c)
  X _ := iprop(emp)
  Y _ := iprop(emp)
  Z c := Pipeline.unscopedRest spec2 c (V c)
  hentry c := by
    rw [Pipeline.ownSems0_none, prefHeld_emp2]
    iintro ⟨⟨Hu, HO⟩, -, -⟩
    ihave Ha := (Pipeline.arrays_of_unscopedBufs (pcfgs (F := F)) adm (pdats V) (p := 1) launch2.win arr_whole2 c (hshare2 V c) (V c) (A2_eq V c)) $$ Hu
    icases Ha with ⟨Ha, Hr⟩
    imodintro
    isplitl [Ha]; · iexact Ha
    isplitr; · iempintro
    isplitl [HO]; · iapply (owesAt_intro2 V c 0); iexact HO
    isplitr; · iempintro
    iexact Hr
  hin c := by
    rw [show (pdats V 1 c).Φ 0 = Pipeline.scopedRest spec2 c from rfl]
    iintro ⟨-, -, H⟩; iexact H
  hout c := by
    rw [Pipeline.ownSems0_none, show (pdats V 1 c).Φ (Fin.last _) = Pipeline.scopedRest spec2 c from rfl]
    iintro H
    isplitr; · iempintro
    isplitr; · iempintro
    iexact H
  hexit c := by
    iintro ⟨Ha, HO, -, HZ⟩
    imodintro
    isplitl [Ha]; · iexact Ha
    isplitl [HZ]; · iexact HZ
    iapply (owesAt_elim2 V c _); iexact HO

/-- A pallas_call's line of @main under the SparseCore layer is its line under the pipelines' layer, lifted. -/
theorem wp_entry_lift (p : Fin 2) (c : Dev nD) (Φ : PUnit → sProp 𝕄) :
    wp frame (wpE (D (F := F)) 𝒱 (T c) none) Set.univ (Prog.lift (.customCall (Pipeline.entry p) ())) Φ
      ⊢ wp frame (wpE ((K (F := F)).defs (D (F := F))) 𝒱 (T c) none) Set.univ (Prog.lift (.customCall (SparseCore.inner (Pipeline.entry p)) ())) Φ :=
  (K (F := F)).wp_liftProg (D (F := F)) 𝒱 (T c) Set.univ none (Prog.lift (.customCall (Pipeline.entry p) ())) Φ

/-- The TensorCore's buffers after the row kernel's region: as before it, but the region's results. -/
def V1' (c : Dev nD) : (b : Ref sig .tc) → Buf (Elt F) ((c.tc : Thread nD τ).loc b) :=
  Function.update (Function.update (V c) main_v6_0 ((dat1 V c).arrAt 4 cfg1.N)) main_v6_1 ((dat1 V c).arrAt 5 cfg1.N)

theorem V1'_arr (c : Dev nD) (w : Fin cfg1.W) : (dat1 V c).arrAt w cfg1.N = V1' V c (Pipeline.arrRef spec1 w) := by
  have h : ∀ w : Fin 6, (dat1 V c).arrAt w cfg1.N = V1' V c (Pipeline.arrRef spec1 w) := by
    intro w
    unfold V1'
    fin_cases w
    · exact ((dat1 V c).arrAt_in 0 rfl _).trans ((A1_eq V c 0).trans (by rw [Function.update_of_ne (by decide), Function.update_of_ne (by decide)]))
    · exact ((dat1 V c).arrAt_in 1 rfl _).trans ((A1_eq V c 1).trans (by rw [Function.update_of_ne (by decide), Function.update_of_ne (by decide)]))
    · exact ((dat1 V c).arrAt_in 2 rfl _).trans ((A1_eq V c 2).trans (by rw [Function.update_of_ne (by decide), Function.update_of_ne (by decide)]))
    · exact ((dat1 V c).arrAt_in 3 rfl _).trans ((A1_eq V c 3).trans (by rw [Function.update_of_ne (by decide), Function.update_of_ne (by decide)]))
    · show (dat1 V c).arrAt 4 cfg1.N = Function.update (Function.update (V c) main_v6_0 ((dat1 V c).arrAt 4 cfg1.N)) main_v6_1 ((dat1 V c).arrAt 5 cfg1.N) main_v6_0
      rw [Function.update_of_ne (by decide), Function.update_self]
    · show (dat1 V c).arrAt 5 cfg1.N = Function.update (Function.update (V c) main_v6_0 ((dat1 V c).arrAt 4 cfg1.N)) main_v6_1 ((dat1 V c).arrAt 5 cfg1.N) main_v6_1
      rw [Function.update_self]
  exact h w

theorem V1'_rest (c : Dev nD) (b : Ref sig .tc) (hb : b ∉ Finset.univ.image (Pipeline.arrRef spec1)) : V1' V c b = V c b := by
  unfold V1'
  rw [Function.update_of_ne (fun e => hb (Finset.mem_image.mpr ⟨5, Finset.mem_univ _, e.symm⟩)),
    Function.update_of_ne (fun e => hb (Finset.mem_image.mpr ⟨4, Finset.mem_univ _, e.symm⟩))]

-- the region rule's implicit arguments are found by unifying through plain definitions in a metavariable's type
set_option backward.isDefEq.respectTransparency.types false in
/-- THE ROW KERNEL'S REGION as a step of @main inside the SparseCore program: from the boundary, the TensorCore's
    unscoped buffers held whole at `V c`, the core owing nothing and pipeline 0's ghost state, the line runs to the
    boundary, the buffers at `V1' V c` and the core owing nothing. -/
theorem wp_region0 (lv : GSem nD τ sig → HIx 1 → ℕ) (c : Dev nD) (Φ : PUnit → sProp 𝕄) :
    iprop(levAts (K (F := F)).L lv ∗ boundary (c.tc : Thread nD τ) ∗ unscopedBufs c (V c) ∗ owesB (F := F) c
        ∗ Pipeline.cellsGhost (nD := nD) (τ := τ) cfgs (EP (F := F)) 0 c ∗ Pipeline.toksInit (nD := nD) (τ := τ) cfgs (EP (F := F)) 0 c
        ∗ (iprop(boundary (c.tc : Thread nD τ) ∗ unscopedBufs c (V1' V c) ∗ owesB (F := F) c) -∗ Φ ⟨⟩))
      ⊢ wp frame (wpE ((K (F := F)).defs (D (F := F))) 𝒱 (T c) none) Set.univ
          (Prog.lift (.customCall (SparseCore.inner (Pipeline.entry 0)) ())) Φ := by
  refine BIBase.Entails.trans ?_ (wp_entry_lift 0 c Φ)
  iintro ⟨#Hl, Hb, Hu, HO, Hg, Ht, Hk⟩
  have hpre : (reg1 V lv).pre c = iprop(unscopedBufs c (V c) ∗ owesB (F := F) c) := rfl
  have hpost : (reg1 V lv).post c = iprop((pdats V 0 c).arrays ((pdats V 0 c).arrAt · cfg1.N) ∗ Pipeline.unscopedRest spec1 c (V c) ∗ owesB (F := F) c) := rfl
  iapply (Pipeline.RegionSeg.wp (pcfgs (F := F)) adm (pdats V) none phinj (EP (F := F)) defs₀ 𝒱₀ (K (F := F)).L lv (reg1 V lv) c none
    (fun _ h => nomatch h) (fun x => .ret x) Φ)
  rw [hpre, hpost]
  isplitl [Hk]
  · iintro ⟨Hb, Ha, Hr, HO⟩
    rw [wp_ret]
    imodintro
    iapply Hk
    isplitl [Hb]; · iexact Hb
    isplitl [Ha Hr]
    · iapply (Pipeline.unscopedBufs_of_arrays (pcfgs (F := F)) adm (p := 0) launch1.win arr_whole1 c (pdats V) (hshare1 V c) (V c) (V1' V c)
        ((pdats V 0 c).arrAt · cfg1.N) (V1'_arr V c) (V1'_rest V c))
      isplitl [Ha] <;> iassumption
    iexact HO
  isplitl [Hb]; · iexact Hb
  isplitl [Hu HO]
  · isplitl [Hu] <;> iassumption
  isplitr; · iexact Hl
  isplitl [Hg] <;> iassumption

/-- The TensorCore's buffers after the combine kernel's region: as before it, but the region's results. -/
def V2' (c : Dev nD) : (b : Ref sig .tc) → Buf (Elt F) ((c.tc : Thread nD τ).loc b) :=
  Function.update (V c) main_v7 ((dat2 V c).arrAt 4 cfg2.N)

theorem V2'_arr (c : Dev nD) (w : Fin cfg2.W) : (dat2 V c).arrAt w cfg2.N = V2' V c (Pipeline.arrRef spec2 w) := by
  have h : ∀ w : Fin 5, (dat2 V c).arrAt w cfg2.N = V2' V c (Pipeline.arrRef spec2 w) := by
    intro w
    unfold V2'
    fin_cases w
    · exact ((dat2 V c).arrAt_in 0 rfl _).trans ((A2_eq V c 0).trans (by rw [Function.update_of_ne (by decide)]))
    · exact ((dat2 V c).arrAt_in 1 rfl _).trans ((A2_eq V c 1).trans (by rw [Function.update_of_ne (by decide)]))
    · exact ((dat2 V c).arrAt_in 2 rfl _).trans ((A2_eq V c 2).trans (by rw [Function.update_of_ne (by decide)]))
    · exact ((dat2 V c).arrAt_in 3 rfl _).trans ((A2_eq V c 3).trans (by rw [Function.update_of_ne (by decide)]))
    · show (dat2 V c).arrAt 4 cfg2.N = Function.update (V c) main_v7 ((dat2 V c).arrAt 4 cfg2.N) main_v7
      rw [Function.update_self]
  exact h w

theorem V2'_rest (c : Dev nD) (b : Ref sig .tc) (hb : b ∉ Finset.univ.image (Pipeline.arrRef spec2)) : V2' V c b = V c b := by
  unfold V2'
  rw [Function.update_of_ne (fun e => hb (Finset.mem_image.mpr ⟨4, Finset.mem_univ _, e.symm⟩))]

-- the region rule's implicit arguments are found by unifying through plain definitions in a metavariable's type
set_option backward.isDefEq.respectTransparency.types false in
/-- THE COMBINE KERNEL'S REGION as a step of @main inside the SparseCore program: from the boundary, the TensorCore's
    unscoped buffers held whole at `V c`, the core owing nothing and pipeline 1's ghost state, the line runs to the
    boundary, the buffers at `V2' V c` and the core owing nothing. -/
theorem wp_region1 (lv : GSem nD τ sig → HIx 1 → ℕ) (c : Dev nD) (Φ : PUnit → sProp 𝕄) :
    iprop(levAts (K (F := F)).L lv ∗ boundary (c.tc : Thread nD τ) ∗ unscopedBufs c (V c) ∗ owesB (F := F) c
        ∗ Pipeline.cellsGhost (nD := nD) (τ := τ) cfgs (EP (F := F)) 1 c ∗ Pipeline.toksInit (nD := nD) (τ := τ) cfgs (EP (F := F)) 1 c
        ∗ (iprop(boundary (c.tc : Thread nD τ) ∗ unscopedBufs c (V2' V c) ∗ owesB (F := F) c) -∗ Φ ⟨⟩))
      ⊢ wp frame (wpE ((K (F := F)).defs (D (F := F))) 𝒱 (T c) none) Set.univ
          (Prog.lift (.customCall (SparseCore.inner (Pipeline.entry 1)) ())) Φ := by
  refine BIBase.Entails.trans ?_ (wp_entry_lift 1 c Φ)
  iintro ⟨#Hl, Hb, Hu, HO, Hg, Ht, Hk⟩
  have hpre : (reg2 V lv).pre c = iprop(unscopedBufs c (V c) ∗ owesB (F := F) c) := rfl
  have hpost : (reg2 V lv).post c = iprop((pdats V 1 c).arrays ((pdats V 1 c).arrAt · cfg2.N) ∗ Pipeline.unscopedRest spec2 c (V c) ∗ owesB (F := F) c) := rfl
  iapply (Pipeline.RegionSeg.wp (pcfgs (F := F)) adm (pdats V) none phinj (EP (F := F)) defs₀ 𝒱₀ (K (F := F)).L lv (reg2 V lv) c none
    (fun _ h => nomatch h) (fun x => .ret x) Φ)
  rw [hpre, hpost]
  isplitl [Hk]
  · iintro ⟨Hb, Ha, Hr, HO⟩
    rw [wp_ret]
    imodintro
    iapply Hk
    isplitl [Hb]; · iexact Hb
    isplitl [Ha Hr]
    · iapply (Pipeline.unscopedBufs_of_arrays (pcfgs (F := F)) adm (p := 1) launch2.win arr_whole2 c (pdats V) (hshare2 V c) (V c) (V2' V c)
        ((pdats V 1 c).arrAt · cfg2.N) (V2'_arr V c) (V2'_rest V c))
      isplitl [Ha] <;> iassumption
    iexact HO
  isplitl [Hb]; · iexact Hb
  isplitl [Hu HO]
  · isplitl [Hu] <;> iassumption
  isplitr; · iexact Hl
  isplitl [Hg] <;> iassumption

end Cert.KernelIdeal.TcRegions

end
-- ==== Proof.TcValue.lean ====
import proofs.«205036_g29618094473603_cont_9to1_1720_19_alg».proof.Proof.TcAlg
import proofs.«205036_g29618094473603_cont_9to1_1720_19_alg».proof.Proof.TcPure
import proofs.«205036_g29618094473603_cont_9to1_1720_19_alg».proof.Proof.TcDat
import Idealize.ShloMosaic.Lib.Pipeline.Value

set_option maxRecDepth 16384

noncomputable section

namespace Cert.KernelIdeal.TcRegions

open Cert.KernelIdeal Cert.KernelIdeal.Gen Cert.KernelIdeal.TcPure
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The regions' results as terms of the operands

A window whose one block is the whole array is read through that block as the array itself; so the combine kernel's
result array ends at `combine` of its four whole operands, and each of the row kernel's two result arrays, written
back once after the last point, ends at the accumulator after point 54. -/
variable (V : (c : Dev nD) → (b : Ref sig .tc) → Buf (Elt F) ((c.tc : Thread nD τ).loc b))

theorem iblk2_0 (c : Dev nD) : iblk2 V c 0 t2_0 = V c main_v5_0 := by
  unfold iblk2
  funext y
  rw [View.read_apply]
  show V c main_v5_0 (((cfg2.win 0).blk t2_0).view.emb y) = V c main_v5_0 y
  refine congrArg _ (funext fun a => Fin.ext ?_)
  exact Pipeline.Window.rect_emb_val_of_index_zero win2_0 t2_0 a (by fin_cases a <;> rfl) y
theorem iblk2_1 (c : Dev nD) : iblk2 V c 1 t2_0 = V c main_v5_1 := by
  unfold iblk2
  funext y
  rw [View.read_apply]
  show V c main_v5_1 (((cfg2.win 1).blk t2_0).view.emb y) = V c main_v5_1 y
  refine congrArg _ (funext fun a => Fin.ext ?_)
  exact Pipeline.Window.rect_emb_val_of_index_zero win2_1 t2_0 a (by fin_cases a <;> rfl) y
theorem iblk2_2 (c : Dev nD) : iblk2 V c 2 t2_0 = V c main_v6_0 := by
  unfold iblk2
  funext y
  rw [View.read_apply]
  show V c main_v6_0 (((cfg2.win 2).blk t2_0).view.emb y) = V c main_v6_0 y
  refine congrArg _ (funext fun a => Fin.ext ?_)
  exact Pipeline.Window.rect_emb_val_of_index_zero win2_2 t2_0 a (by fin_cases a <;> rfl) y
theorem iblk2_3 (c : Dev nD) : iblk2 V c 3 t2_0 = V c main_v6_1 := by
  unfold iblk2
  funext y
  rw [View.read_apply]
  show V c main_v6_1 (((cfg2.win 3).blk t2_0).view.emb y) = V c main_v6_1 y
  refine congrArg _ (funext fun a => Fin.ext ?_)
  exact Pipeline.Window.rect_emb_val_of_index_zero win2_3 t2_0 a (by fin_cases a <;> rfl) y

/-- The combine kernel's result as one term of the four whole operands. -/
def combineV (c : Dev nD) : Buf (Elt F) ((c.tc : Thread nD τ).loc main_v7) :=
  combine (V c main_v5_0) (V c main_v5_1) (V c main_v6_0) (V c main_v6_1)

theorem res2 (c : Dev nD) : (dat2 V c).arrAt 4 cfg2.N = combineV V c := by
  refine (dat2 V c).arrAt_eq_of_cover 4 _ (fun t _ => ?_) (fun i => ⟨t2_0, flush2_4 _, ?_⟩)
  · obtain rfl := fin_N2 t
    show (cfg2.win 4).cut (grid2.coords t2_0) ((dat2 V c).after 4 t2_0) = _
    rw [after2_4, iblk2_0, iblk2_1, iblk2_2, iblk2_3]
    funext y
    rw [View.read_apply]
    show combineV V c y = combineV V c (((cfg2.win 4).blk t2_0).view.emb y)
    refine congrArg _ (funext fun a => Fin.ext ?_)
    exact (Pipeline.Window.rect_emb_val_of_index_zero win2_4 t2_0 a (by fin_cases a <;> rfl) y).symm
  · show i ∈ ((View.whole main_v7).slice (win2_4.rect t2_0)).set
    rw [View.set_slice_whole, Rect.mem_set_unit]
    have e : ∀ a : Fin 2, win2_4.index t2_0 a * win2_4.size a = 0 ∧ win2_4.xsize (grid2.coords t2_0) a = S1x1.size a := by decide +kernel
    intro a
    have hi : (i a : ℕ) < S1x1.size a := (i a).isLt
    rw [(e a).1, (e a).2]
    exact ⟨Nat.zero_le _, by omega⟩

theorem h54 : 54 < cfg1.N := by rw [show cfg1.N = 55 from N_1]; decide
/-- The last point of the row kernel's grid. -/
def last1 : Fin cfg1.N := ⟨54, h54⟩

theorem res1_4 (c : Dev nD) : (dat1 V c).arrAt 4 cfg1.N = (acc1 V c 54 h54).1 := by
  refine (dat1 V c).arrAt_eq_of_cover 4 _ (fun t hf => ?_) (fun i => ⟨last1, (flush1_4 _).mpr rfl, ?_⟩)
  · have ht : t = last1 := Fin.ext (by
      have h1 := (flush1_4 t).mp hf
      have h2 : t.val < 55 := lt_of_lt_of_eq t.isLt (show cfg1.N = 55 from N_1)
      show t.val = 54
      omega)
    subst ht
    show (cfg1.win 4).cut (grid1.coords last1) ((dat1 V c).after 4 last1) = _
    rw [after1_4]
    funext y
    rw [View.read_apply]
    show (acc1 V c 54 h54).1 y = (acc1 V c 54 h54).1 (((cfg1.win 4).blk last1).view.emb y)
    refine congrArg _ (funext fun a => Fin.ext ?_)
    exact (Pipeline.Window.rect_emb_val_of_index_zero win1_4 last1 a (by fin_cases a <;> rfl) y).symm
  · show i ∈ ((View.whole main_v6_0).slice (win1_4.rect last1)).set
    rw [View.set_slice_whole, Rect.mem_set_unit]
    have e : ∀ a : Fin 1, win1_4.index last1 a * win1_4.size a = 0 ∧ win1_4.xsize (grid1.coords last1) a = S64.size a := by decide +kernel
    intro a
    have hi : (i a : ℕ) < S64.size a := (i a).isLt
    rw [(e a).1, (e a).2]
    exact ⟨Nat.zero_le _, by omega⟩

theorem res1_5 (c : Dev nD) : (dat1 V c).arrAt 5 cfg1.N = (acc1 V c 54 h54).2 := by
  refine (dat1 V c).arrAt_eq_of_cover 5 _ (fun t hf => ?_) (fun i => ⟨last1, (flush1_5 _).mpr rfl, ?_⟩)
  · have ht : t = last1 := Fin.ext (by
      have h1 := (flush1_5 t).mp hf
      have h2 : t.val < 55 := lt_of_lt_of_eq t.isLt (show cfg1.N = 55 from N_1)
      show t.val = 54
      omega)
    subst ht
    show (cfg1.win 5).cut (grid1.coords last1) ((dat1 V c).after 5 last1) = _
    rw [after1_5]
    funext y
    rw [View.read_apply]
    show (acc1 V c 54 h54).2 y = (acc1 V c 54 h54).2 (((cfg1.win 5).blk last1).view.emb y)
    refine congrArg _ (funext fun a => Fin.ext ?_)
    exact (Pipeline.Window.rect_emb_val_of_index_zero win1_5 last1 a (by fin_cases a <;> rfl) y).symm
  · show i ∈ ((View.whole main_v6_1).slice (win1_5.rect last1)).set
    rw [View.set_slice_whole, Rect.mem_set_unit]
    have e : ∀ a : Fin 1, win1_5.index last1 a * win1_5.size a = 0 ∧ win1_5.xsize (grid1.coords last1) a = S64.size a := by decide +kernel
    intro a
    have hi : (i a : ℕ) < S64.size a := (i a).isLt
    rw [(e a).1, (e a).2]
    exact ⟨Nat.zero_le _, by omega⟩

/-- The accumulators as a sequence from the zero vectors: entry `k + 1` adds block `k`. -/
def accSeq (c : Dev nD) : ℕ → Vec F S64 .f32 × Vec F S64 .f32
  | 0 => (zero64, zero64)
  | k + 1 => if h : k < cfg1.N then
      (rowsNum (iblk1 V c 0 ⟨k, h⟩) (iblk1 V c 1 ⟨k, h⟩) (iblk1 V c 2 ⟨k, h⟩) (iblk1 V c 3 ⟨k, h⟩) (accSeq c k).1,
       rowsCnt (iblk1 V c 2 ⟨k, h⟩) (iblk1 V c 3 ⟨k, h⟩) (accSeq c k).2)
    else accSeq c k

theorem accSeq_succ (c : Dev nD) (k : ℕ) (h : k < cfg1.N) : accSeq V c (k + 1) =
    (rowsNum (iblk1 V c 0 ⟨k, h⟩) (iblk1 V c 1 ⟨k, h⟩) (iblk1 V c 2 ⟨k, h⟩) (iblk1 V c 3 ⟨k, h⟩) (accSeq V c k).1,
     rowsCnt (iblk1 V c 2 ⟨k, h⟩) (iblk1 V c 3 ⟨k, h⟩) (accSeq V c k).2) := by
  rw [accSeq, dif_pos h]

theorem acc1_eq_accSeq (c : Dev nD) : ∀ (n : ℕ) (hn : n < cfg1.N), acc1 V c n hn = accSeq V c (n + 1)
  | 0, hn => by rw [accSeq_succ V c 0 hn]; rfl
  | n + 1, hn => by
    rw [accSeq_succ V c (n + 1) hn, ← acc1_eq_accSeq c n (Nat.lt_of_succ_lt hn)]; rfl

/-- The row kernel's two result arrays: the sequence's entry 55. -/
theorem res1_4' (c : Dev nD) : (dat1 V c).arrAt 4 cfg1.N = (accSeq V c 55).1 := by
  exact (res1_4 V c).trans (congrArg Prod.fst (acc1_eq_accSeq V c 54 h54))
theorem res1_5' (c : Dev nD) : (dat1 V c).arrAt 5 cfg1.N = (accSeq V c 55).2 := by
  exact (res1_5 V c).trans (congrArg Prod.snd (acc1_eq_accSeq V c 54 h54))

end Cert.KernelIdeal.TcRegions

end
-- ==== Proof.TcHeld.lean ====
import proofs.«205036_g29618094473603_cont_9to1_1720_19_alg».proof.Proof.TcAlg
import proofs.«205036_g29618094473603_cont_9to1_1720_19_alg».proof.Proof.TcPure
import proofs.«205036_g29618094473603_cont_9to1_1720_19_alg».proof.Proof.TcRegion
import proofs.«205036_g29618094473603_cont_9to1_1720_19_alg».proof.Proof.TcValue

set_option maxRecDepth 16384

noncomputable section

namespace Cert.KernelIdeal.TcRegions

open Cert.KernelIdeal Cert.KernelIdeal.Gen Cert.KernelIdeal.TcPure
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.StableHlo (held)

/-! ## The two regions over the TensorCore's unscoped buffers held at one valuation

The form @main's host operations use: every unscoped buffer of the TensorCore held whole at a valuation `W c`.
The row kernel's region takes it to the valuation updated at its two result arrays to the accumulators' sequence's
entry 55; the combine kernel's to the valuation updated at its result to `combine` of the four operands. -/

variable (W : Dev nD → Valuation τ sig (Elt F))

/-- The valuation read at the TensorCore's references. -/
abbrev VW : (c : Dev nD) → (b : Ref sig .tc) → Buf (Elt F) ((c.tc : Thread nD τ).loc b) := fun c b => W c b

/-- After the row kernel's region. -/
def W1' (c : Dev nD) : Valuation τ sig (Elt F) :=
  Function.update (Function.update (W c) (Proc.devRef .tc main_v6_0) (accSeq (VW W) c 55).1) (Proc.devRef .tc main_v6_1) (accSeq (VW W) c 55).2

/-- After the combine kernel's region. -/
def W2' (c : Dev nD) : Valuation τ sig (Elt F) :=
  Function.update (W c) (Proc.devRef .tc main_v7) (combine (W c main_v5_0) (W c main_v5_1) (W c main_v6_0) (W c main_v6_1))

theorem V1'_held (c : Dev nD) : (fun b : Ref sig .tc => W1' W c b) = V1' (VW W) c := by
  funext b
  unfold W1' V1'
  by_cases h1 : b = main_v6_1
  · subst h1
    rw [Function.update_self, Function.update_self, res1_5']
  · rw [Function.update_of_ne h1, Function.update_of_ne (StableHlo.devRef_ne_of_ne h1)]
    by_cases h0 : b = main_v6_0
    · subst h0
      rw [Function.update_self, Function.update_self, res1_4']
    · rw [Function.update_of_ne h0, Function.update_of_ne (StableHlo.devRef_ne_of_ne h0)]

theorem V2'_held (c : Dev nD) : (fun b : Ref sig .tc => W2' W c b) = V2' (VW W) c := by
  funext b
  unfold W2' V2'
  by_cases h1 : b = main_v7
  · subst h1
    rw [Function.update_self, Function.update_self, res2]
    rfl
  · rw [Function.update_of_ne h1, Function.update_of_ne (StableHlo.devRef_ne_of_ne h1)]

/-- THE ROW KERNEL'S REGION over `held`. -/
theorem wp_region0_held (lv : GSem nD τ sig → HIx 1 → ℕ) (c : Dev nD) (Φ : PUnit → sProp 𝕄) :
    iprop(levAts (K (F := F)).L lv ∗ boundary (c.tc : Thread nD τ) ∗ held (c.tc : Thread nD τ) (Pipeline.ucRefs τ sig) (W c) ∗ owesB (F := F) c
        ∗ Pipeline.cellsGhost (nD := nD) (τ := τ) cfgs (EP (F := F)) 0 c ∗ Pipeline.toksInit (nD := nD) (τ := τ) cfgs (EP (F := F)) 0 c
        ∗ (iprop(boundary (c.tc : Thread nD τ) ∗ held (c.tc : Thread nD τ) (Pipeline.ucRefs τ sig) (W1' W c) ∗ owesB (F := F) c) -∗ Φ ⟨⟩))
      ⊢ wp frame (wpE ((K (F := F)).defs (D (F := F))) 𝒱 (T c) none) Set.univ
          (Prog.lift (.customCall (SparseCore.inner (Pipeline.entry 0)) ())) Φ := by
  rw [← Pipeline.unscopedBufs_held c (W c), ← Pipeline.unscopedBufs_held c (W1' W c), V1'_held W c]
  exact wp_region0 (VW W) lv c Φ

/-- THE COMBINE KERNEL'S REGION over `held`. -/
theorem wp_region1_held (lv : GSem nD τ sig → HIx 1 → ℕ) (c : Dev nD) (Φ : PUnit → sProp 𝕄) :
    iprop(levAts (K (F := F)).L lv ∗ boundary (c.tc : Thread nD τ) ∗ held (c.tc : Thread nD τ) (Pipeline.ucRefs τ sig) (W c) ∗ owesB (F := F) c
        ∗ Pipeline.cellsGhost (nD := nD) (τ := τ) cfgs (EP (F := F)) 1 c ∗ Pipeline.toksInit (nD := nD) (τ := τ) cfgs (EP (F := F)) 1 c
        ∗ (iprop(boundary (c.tc : Thread nD τ) ∗ held (c.tc : Thread nD τ) (Pipeline.ucRefs τ sig) (W2' W c) ∗ owesB (F := F) c) -∗ Φ ⟨⟩))
      ⊢ wp frame (wpE ((K (F := F)).defs (D (F := F))) 𝒱 (T c) none) Set.univ
          (Prog.lift (.customCall (SparseCore.inner (Pipeline.entry 1)) ())) Φ := by
  rw [← Pipeline.unscopedBufs_held c (W c), ← Pipeline.unscopedBufs_held c (W2' W c), V2'_held W c]
  exact wp_region1 (VW W) lv c Φ

end Cert.KernelIdeal.TcRegions

end
-- ==== Proof.TcRegionV.lean ====
/-
  The two TensorCore regions in the form @main's proof meets them: over the TensorCore's unscoped arrays held at one
  valuation, which each region updates at its results; and those results as terms of the valuation's operands.
-/
import proofs.«205036_g29618094473603_cont_9to1_1720_19_alg».proof.Proof.LaunchMain
import proofs.«205036_g29618094473603_cont_9to1_1720_19_alg».proof.Proof.TcHeld

noncomputable section

namespace Cert.KernelIdeal.TcRegions

open Cert.KernelIdeal Cert.KernelIdeal.Gen Cert.KernelIdeal.TcPure
open Cert.KernelIdeal.Launch (dr RegionSpec pipeGhost)
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

/-- The one device. -/
abbrev d0 : Dev nD := 0

/-- The row kernel's region on a valuation: its two result arrays at the accumulators after the 55 blocks. -/
def R0 (Vv : Valuation τ sig (Elt F)) : Valuation τ sig (Elt F) := W1' (fun _ => Vv) d0
/-- The combine kernel's region on a valuation: its result at `combine` of the four operands. -/
def R1 (Vv : Valuation τ sig (Elt F)) : Valuation τ sig (Elt F) := W2' (fun _ => Vv) d0

theorem R0_other (Vv : Valuation τ sig (Elt F)) (b : DevRef τ sig) (h0 : b ≠ dr main_v6_0) (h1 : b ≠ dr main_v6_1) : R0 Vv b = Vv b := by
  unfold R0 W1'
  rw [Function.update_of_ne h1, Function.update_of_ne h0]
theorem R0_v6_0 (Vv : Valuation τ sig (Elt F)) : R0 Vv (dr main_v6_0) = (accSeq (VW fun _ => Vv) d0 55).1 := by
  unfold R0 W1'
  rw [Function.update_of_ne (by decide), Function.update_self]
theorem R0_v6_1 (Vv : Valuation τ sig (Elt F)) : R0 Vv (dr main_v6_1) = (accSeq (VW fun _ => Vv) d0 55).2 := by
  unfold R0 W1'
  rw [Function.update_self]
theorem R1_other (Vv : Valuation τ sig (Elt F)) (b : DevRef τ sig) (h : b ≠ dr main_v7) : R1 Vv b = Vv b := by
  unfold R1 W2'
  rw [Function.update_of_ne h]
theorem R1_v7 (Vv : Valuation τ sig (Elt F)) :
    R1 Vv (dr main_v7) = combine (Vv (dr main_v5_0)) (Vv (dr main_v5_1)) (Vv (dr main_v6_0)) (Vv (dr main_v6_1)) := by
  unfold R1 W2'
  rw [Function.update_self]

section Spec

variable (m : (ℓ : Loc nD τ sig) → Buf (Elt F) ℓ) (Nf Cf : Fin 32 → FVec F S64x16 .f32)

theorem region0_spec : RegionSpec m Nf Cf 0 (R0 (F := F)) := by
  intro κ d Vv W Φ hW
  obtain rfl : d = d0 := Subsingleton.elim _ _
  iintro ⟨#Hctx, Hb, Hh, ⟨Hg, Ht⟩, HO, Hk⟩
  ihave Hl := (SparseCore.Cfg.ctx_levAts κ) $$ Hctx
  iapply (wp_region0_held (fun _ => Vv) (K (F := F)).lev d0 Φ)
  isplitl [Hl]; · iexact Hl
  isplitl [Hb]; · iexact Hb
  isplitl [Hh]; · iexact Hh
  isplitl [HO]
  · unfold owesB; iexists W; isplitr; · ipureintro; exact hW
    iexact HO
  isplitl [Hg]; · iexact Hg
  isplitl [Ht]; · iexact Ht
  iintro ⟨Hb, Hh, HO⟩
  iapply Hk
  isplitl [Hb]; · iexact Hb
  isplitl [Hh]; · iexact Hh
  unfold owesB; iexact HO

theorem region1_spec : RegionSpec m Nf Cf 1 (R1 (F := F)) := by
  intro κ d Vv W Φ hW
  obtain rfl : d = d0 := Subsingleton.elim _ _
  iintro ⟨#Hctx, Hb, Hh, ⟨Hg, Ht⟩, HO, Hk⟩
  ihave Hl := (SparseCore.Cfg.ctx_levAts κ) $$ Hctx
  iapply (wp_region1_held (fun _ => Vv) (K (F := F)).lev d0 Φ)
  isplitl [Hl]; · iexact Hl
  isplitl [Hb]; · iexact Hb
  isplitl [Hh]; · iexact Hh
  isplitl [HO]
  · unfold owesB; iexists W; isplitr; · ipureintro; exact hW
    iexact HO
  isplitl [Hg]; · iexact Hg
  isplitl [Ht]; · iexact Ht
  iintro ⟨Hb, Hh, HO⟩
  iapply Hk
  isplitl [Hb]; · iexact Hb
  isplitl [Hh]; · iexact Hh
  unfold owesB; iexact HO

end Spec

end Cert.KernelIdeal.TcRegions

end
-- ==== Proof.KSpec.lean ====
/-
  What the kernel's three parts hold at the exact instance, as plain sums over the argument arrays.

  Rows 0 … 140799 are summed on the TensorCore in 55 blocks of 2560 rows; rows 140800 … 319999 by 32 tiles of
  5600 rows each, a tile walking 35 chunks of 10 groups of 16 rows, lane l of a group owning row l of the group and
  adding into entry (segment id, l) of the tile's 64 x 16 tables. A lane sums its row's 128 squared differences in
  four accumulators: at outer step dd (of 4) and unrolled step u (of 32) it reads column (l + 32 dd + u) mod 128, and
  step u goes to accumulator u mod 4; the row's value is (a0 + a1) + (a2 + a3). The combine adds, per segment, the
  tiles' tables over lanes and tiles to the TensorCore's accumulator, divides by max(count, 1), and averages.
-/
import proofs.«205036_g29618094473603_cont_9to1_1720_19_alg».proof.Proof.Spec

noncomputable section

namespace Cert.KSpec

open Idealize.ShloMosaic Idealize.ShloMosaic.ValueIdx Cert.Spec

/-- The row that lane `l` of group `g` of chunk `c` of tile `w` owns. -/
def rowSC (w : Fin 32) (c : Fin 35) (g : Fin 10) (l : Fin 16) : Fin 320000 :=
  ⟨140800 + w.val * 5600 + c.val * 160 + g.val * 16 + l.val, by omega⟩

/-- Row `r` of the TensorCore's block `k`. -/
def rowTC (k : Fin 55) (r : Fin 2560) : Fin 320000 := ⟨k.val * 2560 + r.val, by omega⟩

/-- The column lane `l` reads at outer step `dd`, unrolled step `u`: a rotation by the lane. -/
def col (l : Fin 16) (dd : Fin 4) (u : Fin 32) : Fin 128 := ⟨(l.val + dd.val * 32 + u.val) % 128, Nat.mod_lt _ (by norm_num)⟩

/-- One squared difference. -/
def d2 (p t : SRows.Idx → EReal) (i : Fin 320000) (d : Fin 128) : EReal :=
  (p (ix2 i d) - t (ix2 i d)) * (p (ix2 i d) - t (ix2 i d))

/-- Accumulator `q` (of 4) of row `i` as lane `l` fills it: the unrolled steps `4 j + q`, at every outer step. -/
def accq (p t : SRows.Idx → EReal) (i : Fin 320000) (l : Fin 16) (q : Fin 4) : EReal :=
  ∑ dd : Fin 4, ∑ j : Fin 8, d2 p t i (col l dd ⟨4 * j.val + q.val, by omega⟩)

/-- The row's value as the lane forms it from its four accumulators. -/
def sqSC (p t : SRows.Idx → EReal) (i : Fin 320000) (l : Fin 16) : EReal :=
  (accq p t i l 0 + accq p t i l 1) + (accq p t i l 2 + accq p t i l 3)

/-- Entry (s, l) of tile `w`'s table of masked sums after its 350 groups. -/
def tabNum (p t : SRows.Idx → EReal) (f : SN.Idx → BitVec 1) (b : SN.Idx → BitVec 32) (w : Fin 32) (s : Fin 64) (l : Fin 16) : EReal :=
  ∑ c : Fin 35, ∑ g : Fin 10,
    if (b (ix1 (rowSC w c g l))).toNat = s.val then sqSC p t (rowSC w c g l) l * fl f (rowSC w c g l) else 0

/-- Entry (s, l) of tile `w`'s table of counts. -/
def tabCnt (f : SN.Idx → BitVec 1) (b : SN.Idx → BitVec 32) (w : Fin 32) (s : Fin 64) (l : Fin 16) : EReal :=
  ∑ c : Fin 35, ∑ g : Fin 10, if (b (ix1 (rowSC w c g l))).toNat = s.val then fl f (rowSC w c g l) else 0

/-- The TensorCore's accumulator of masked sums for segment `s` after its 55 blocks: per block, the sum over the
    block's rows of (the flag where the row's segment id is `s`, else 0) times the row's squared distance. -/
def numTC (p t : SRows.Idx → EReal) (f : SN.Idx → BitVec 1) (b : SN.Idx → BitVec 32) (s : Fin 64) : EReal :=
  ∑ k : Fin 55, ∑ r : Fin 2560, (if (b (ix1 (rowTC k r))).toNat = s.val then fl f (rowTC k r) else 0) * sq p t (rowTC k r)

/-- The TensorCore's accumulator of counts. -/
def cntTC (f : SN.Idx → BitVec 1) (b : SN.Idx → BitVec 32) (s : Fin 64) : EReal :=
  ∑ k : Fin 55, ∑ r : Fin 2560, if (b (ix1 (rowTC k r))).toNat = s.val then fl f (rowTC k r) else 0

/-- The combine's per-segment totals: the tables over lanes, then over tiles, plus the TensorCore's accumulator. -/
def numK (p t : SRows.Idx → EReal) (f : SN.Idx → BitVec 1) (b : SN.Idx → BitVec 32) (s : Fin 64) : EReal :=
  (∑ w : Fin 32, ∑ l : Fin 16, tabNum p t f b w s l) + numTC p t f b s
def cntK (f : SN.Idx → BitVec 1) (b : SN.Idx → BitVec 32) (s : Fin 64) : EReal :=
  (∑ w : Fin 32, ∑ l : Fin 16, tabCnt f b w s l) + cntTC f b s

/-- The kernel's result. -/
def lossK (p t : SRows.Idx → EReal) (f : SN.Idx → BitVec 1) (b : SN.Idx → BitVec 32) : S0.Idx → EReal :=
  fun _ => Ideal.div (∑ s : Fin 64, Ideal.div (numK p t f b s) (max (cntK f b s) one)) c64

end Cert.KSpec

end
-- ==== Proof.PartsLib.lean ====
/-
  One unrolled step of a tile's row sums, as pure functions of the two staged chunks.

  A tile sums, for the 16 rows of a group at once (one row per lane), the 128 squared differences of the row of the
  first chunk and the row of the second. Lane x owns row `rows x` of the 160 x 128 chunks and at each step reads both
  chunks at the same column, `cols x`: the step adds (P[r, c] - T[r, c])^2 to one of four accumulators. The column
  vector of a step is the running base vector plus two small constants, masked to seven bits: it always names a column
  of the chunk, whatever the base, so the only fact a step needs of its index vectors is that every row index is below
  160.
-/
import proofs.«205036_g29618094473603_cont_9to1_1720_19_alg».proof.KernelIdeal
import Idealize.ShloMosaic.Lib.SparseCore.Ops
import Idealize.ShloMosaic.Lib.ValueIdx

noncomputable section

namespace Cert.KernelIdeal.TileParts

open Cert.KernelIdeal
open Idealize.ShloMosaic
open Idealize.ShloMosaic.ValueIdx

variable {F : FTy → Type} [FloatOps F]

/-! ## The index vectors -/

/-- The column vector of a step: the base vector plus the constants `a` and `b`, masked to seven bits. -/
def colAt (base : IVec S16 32) (a b : BitVec 32) : IVec S16 32 :=
  andi (addi (addi base (broadcast S16 a)) (broadcast S16 b)) (broadcast S16 127#32)

omit [FloatOps F] in
/-- A word masked to seven bits is below 128. -/
theorem and127_lt (w : BitVec 32) : (IntOp.andi w 127#32).toNat < 128 := by
  show (w &&& 127#32).toNat < 128
  rw [BitVec.toNat_and]
  exact Nat.lt_of_le_of_lt Nat.and_le_right (by decide)

omit [FloatOps F] in
/-- A masked word is the word modulo 128. -/
theorem and127_toNat (w : BitVec 32) : (IntOp.andi w 127#32).toNat = w.toNat % 128 := by
  show (w &&& 127#32).toNat = w.toNat % 128
  rw [BitVec.toNat_and]
  exact Nat.and_two_pow_sub_one_eq_mod w.toNat 7

omit [FloatOps F] in
theorem colAt_lt (base : IVec S16 32) (a b : BitVec 32) (x : S16.Idx) : (colAt base a b x).toNat < 128 := and127_lt _

omit [FloatOps F] in
/-- The column a lane reads, as a number: base plus the two constants, modulo 128 (the sum's wrap at 2^32 does not show). -/
theorem colAt_toNat (base : IVec S16 32) (a b : BitVec 32) (x : S16.Idx) :
    (colAt base a b x).toNat = ((base x).toNat + a.toNat + b.toNat) % 128 := by
  show (IntOp.andi (base x + a + b) 127#32).toNat = _
  rw [and127_toNat, BitVec.toNat_add, BitVec.toNat_add]
  omega

omit [FloatOps F] in
/-- Row indices below 160 and a masked column vector: every index names an element of the chunk. -/
theorem inb_col {rows : IVec S16 32} (hr : ∀ x, (rows x).toNat < 160) (base : IVec S16 32) (a b : BitVec 32) :
    ∀ (ax : Fin S160x128.rank) (x : S16.Idx), ((![rows, colAt base a b] : Fin 2 → IVec S16 32) ax x).toNat < S160x128.size ax := by
  intro ax x
  match ax with
  | ⟨0, _⟩ => exact hr x
  | ⟨1, _⟩ => exact colAt_lt base a b x

omit [FloatOps F] in
/-- The same fact twice: the side condition a step's two reads share. -/
theorem chk_col {rows : IVec S16 32} (hr : ∀ x, (rows x).toNat < 160) (base : IVec S16 32) (a b : BitVec 32) :
    (∀ (ax : Fin S160x128.rank) (x : S16.Idx), ((![rows, colAt base a b] : Fin 2 → IVec S16 32) ax x).toNat < S160x128.size ax) ∧
    (∀ (ax : Fin S160x128.rank) (x : S16.Idx), ((![rows, colAt base a b] : Fin 2 → IVec S16 32) ax x).toNat < S160x128.size ax) :=
  ⟨inb_col hr base a b, inb_col hr base a b⟩

omit [FloatOps F] in
/-- From a step's side condition: every row index is below 160. -/
theorem rows_lt {rows cols : IVec S16 32}
    (h : ∀ (ax : Fin S160x128.rank) (x : S16.Idx), ((![rows, cols] : Fin 2 → IVec S16 32) ax x).toNat < S160x128.size ax) :
    ∀ x, (rows x).toNat < 160 := fun x => h (0 : Fin 2) x

/-! ## One step -/

/-- One step: the accumulator plus the square of the difference of the two chunks' elements at the lanes' indices. -/
def sqAcc (P T : Vec F S160x128 .f32) (rows cols : IVec S16 32)
    (h : ∀ (ax : Fin S160x128.rank) (x : S16.Idx), ((![rows, cols] : Fin 2 → IVec S16 32) ax x).toNat < S160x128.size ax)
    (acc : FVec F S16 .f32) : FVec F S16 .f32 :=
  addf acc (mulf (subf (loadIdx P ![rows, cols] h) (loadIdx T ![rows, cols] h)) (subf (loadIdx P ![rows, cols] h) (loadIdx T ![rows, cols] h)))

/-- The element of a chunk that lane `x` reads. -/
def laneIdx {rows cols : IVec S16 32}
    (h : ∀ (ax : Fin S160x128.rank) (x : S16.Idx), ((![rows, cols] : Fin 2 → IVec S16 32) ax x).toNat < S160x128.size ax)
    (x : S16.Idx) : S160x128.Idx :=
  ix2 (⟨(rows x).toNat, h (0 : Fin 2) x⟩ : Fin 160) (⟨(cols x).toNat, h (1 : Fin 2) x⟩ : Fin 128)

omit [FloatOps F] in
theorem idxAt_eq {rows cols : IVec S16 32}
    (h : ∀ (ax : Fin S160x128.rank) (x : S16.Idx), ((![rows, cols] : Fin 2 → IVec S16 32) ax x).toNat < S160x128.size ax)
    (x : S16.Idx) : idxAt (s := S160x128) ![rows, cols] h x = laneIdx h x := by
  funext ax
  match ax with
  | ⟨0, _⟩ => rfl
  | ⟨1, _⟩ => rfl

/-- A step at a lane, for any float instance. -/
theorem sqAcc_apply (P T : Vec F S160x128 .f32) (rows cols : IVec S16 32)
    (h : ∀ (ax : Fin S160x128.rank) (x : S16.Idx), ((![rows, cols] : Fin 2 → IVec S16 32) ax x).toNat < S160x128.size ax)
    (acc : FVec F S16 .f32) (x : S16.Idx) :
    sqAcc P T rows cols h acc x
      = FloatOps.addf (acc x) (FloatOps.mulf (FloatOps.subf (P (laneIdx h x)) (T (laneIdx h x))) (FloatOps.subf (P (laneIdx h x)) (T (laneIdx h x)))) := by
  rw [← idxAt_eq]; rfl

/-- A step at a lane, on the extended reals: the accumulator plus the squared difference. -/
theorem sqAcc_ideal (P T : Vec Ideal S160x128 .f32) (rows cols : IVec S16 32)
    (h : ∀ (ax : Fin S160x128.rank) (x : S16.Idx), ((![rows, cols] : Fin 2 → IVec S16 32) ax x).toNat < S160x128.size ax)
    (acc : FVec Ideal S16 .f32) (x : S16.Idx) :
    sqAcc P T rows cols h acc x = acc x + (P (laneIdx h x) - T (laneIdx h x)) * (P (laneIdx h x) - T (laneIdx h x)) :=
  sqAcc_apply P T rows cols h acc x

/-- A step does not depend on which proof of the side condition it is given. -/
theorem sqAcc_congr (P T : Vec F S160x128 .f32) {rows cols cols' : IVec S16 32} (e : cols = cols')
    (h : ∀ (ax : Fin S160x128.rank) (x : S16.Idx), ((![rows, cols] : Fin 2 → IVec S16 32) ax x).toNat < S160x128.size ax)
    (h' : ∀ (ax : Fin S160x128.rank) (x : S16.Idx), ((![rows, cols'] : Fin 2 → IVec S16 32) ax x).toNat < S160x128.size ax)
    (acc : FVec F S16 .f32) : sqAcc P T rows cols h acc = sqAcc P T rows cols' h' acc := by
  subst e; rfl

end Cert.KernelIdeal.TileParts

end
-- ==== Proof.TilePure.lean ====
/-
  A tile's arithmetic as pure terms of what it has staged, for every float instance.

  A tile walks 35 chunks of 10 groups of 16 rows. Lane x of group g owns row 16 g + x of the chunk's two staged
  160 x 128 buffers P, T. It sums the row's 128 squared differences in four accumulators over four outer trips of 32
  steps: at outer trip dd, step 4 j + q adds into accumulator q the squared difference at column
  (x + 32 dd + 4 j + q) mod 128. The row's value is (a0 + a1) + (a2 + a3). The group then adds, lane by lane, that value
  times the row's flag into entry (the row's segment id, x) of the tile's 64 x 16 table of masked sums, and the flag
  into the same entry of the table of counts. Both tables start at zero.
-/
import proofs.«205036_g29618094473603_cont_9to1_1720_19_alg».proof.Proof.PartsLib

noncomputable section

namespace Cert.KernelIdeal.TilePure

open Idealize.ShloMosaic Cert.KernelIdeal Cert.KernelIdeal.Facts₀ Cert.KernelIdeal.Facts
open Cert.KernelIdeal.TileParts (colAt sqAcc inb_col)

variable {F : FTy → Type} [FloatOps F] [Facts]

/-! ## The index vectors -/

/-- The lane numbers 0 … 15. -/
def lanes : IVec S16 32 := iota .scVector S16 32 [0] iota_S16_d0_w32_scVector

/-- The zero vector the accumulators start from. -/
def zero16 : FVec F S16 .f32 := broadcast S16 (Scalar.ofBits .f32 0x00000000#32 : F .f32)

/-- The rows of the chunk that group `g`'s lanes own: lane number plus 16 g. -/
def rowsVec (g : ℕ) : IVec S16 32 := addi lanes (broadcast S16 (Scalar.muli (Scf.iv 0#32 1#32 g) 16#32))

/-- The lanes' rotated column base at outer trip `dd`: lane number plus 32 dd. -/
def baseVec (dd : ℕ) : IVec S16 32 := addi lanes (broadcast S16 (Scalar.muli (Scf.iv 0#32 1#32 dd) 32#32))

/-! ## One row's value -/

/-- Accumulator `q` after one outer trip from `acc`: its eight steps, at column constants (4 j, q), j = 0 … 7 in order. -/
def tripAcc (P T : Vec F S160x128 .f32) (rows : IVec S16 32) (hr : ∀ x, (rows x).toNat < 160) (base : IVec S16 32)
    (q : BitVec 32) (acc : FVec F S16 .f32) : FVec F S16 .f32 :=
  [0#32, 4#32, 8#32, 12#32, 16#32, 20#32, 24#32, 28#32].foldl
    (fun a c => sqAcc P T rows (colAt base c q) (inb_col hr base c q) a) acc

/-- Accumulator `q` after the four outer trips, from the zero vector. -/
def laneAcc (P T : Vec F S160x128 .f32) (rows : IVec S16 32) (hr : ∀ x, (rows x).toNat < 160) (q : BitVec 32) :
    FVec F S16 .f32 :=
  [0, 1, 2, 3].foldl (fun a dd => tripAcc P T rows hr (baseVec dd) q a) zero16

/-- The rows' values as the lanes form them: (a0 + a1) + (a2 + a3). -/
def mse (P T : Vec F S160x128 .f32) (rows : IVec S16 32) (hr : ∀ x, (rows x).toNat < 160) : FVec F S16 .f32 :=
  addf (addf (laneAcc P T rows hr 0#32) (laneAcc P T rows hr 1#32)) (addf (laneAcc P T rows hr 2#32) (laneAcc P T rows hr 3#32))

/-! ## The tables -/

/-- The side condition of a group's two indexed stores: every segment id names a row of the table (the lane numbers
    name its columns). -/
abbrev IdsOk (ids : IVec S16 32) : Prop :=
  ∀ (a : Fin S64x16.rank) (x : S16.Idx), ((![ids, lanes] : Fin 2 → IVec S16 32) a x).toNat < S64x16.size a

/-- A table after one group's indexed add-store of `v` at (segment id of lane x, x). -/
def addAt (tab : Vec F S64x16 .f32) (ids : IVec S16 32) (h : IdsOk ids) (v : FVec F S16 .f32) : Vec F S64x16 .f32 :=
  storeIdx tab ![ids, lanes] v (fun _ => 1#1) true h

/-- The table of masked sums after group `g` of a chunk: the rows' values times the flags, added in. -/
def groupNum (P T : Vec F S160x128 .f32) (g : Fin 10) (hr : ∀ x, (rowsVec g.val x).toNat < 160) (ids : IVec S16 32)
    (h : IdsOk ids) (fl : FVec F S16 .f32) (tab : Vec F S64x16 .f32) : Vec F S64x16 .f32 :=
  addAt tab ids h (mulf (mse P T (rowsVec g.val) hr) fl)

/-- The table of counts after a group: the flags added in. -/
def groupCnt (ids : IVec S16 32) (h : IdsOk ids) (fl : FVec F S16 .f32) (tab : Vec F S64x16 .f32) : Vec F S64x16 .f32 :=
  addAt tab ids h fl

/-- The all-zero table both tables start as. -/
def zeroTab : Vec F S64x16 .f32 := fun _ => (Scalar.ofBits .f32 0x00000000#32 : F .f32)

section Tile

variable (hr : ∀ (g : Fin 10) x, (rowsVec g.val x).toNat < 160)
variable (P T : Fin 35 → Vec F S160x128 .f32) (ids : Fin 35 → Fin 10 → IVec S16 32) (hid : ∀ c g, IdsOk (ids c g))
variable (fl : Fin 35 → Fin 10 → FVec F S16 .f32)

/-- The table of masked sums after chunk `c`'s ten groups, in order, from `tab`. -/
def chunkNum (c : Fin 35) (tab : Vec F S64x16 .f32) : Vec F S64x16 .f32 :=
  (List.finRange 10).foldl (fun tb g => groupNum (P c) (T c) g (hr g) (ids c g) (hid c g) (fl c g) tb) tab

/-- The table of counts after chunk `c`'s ten groups. -/
def chunkCnt (c : Fin 35) (tab : Vec F S64x16 .f32) : Vec F S64x16 .f32 :=
  (List.finRange 10).foldl (fun tb g => groupCnt (ids c g) (hid c g) (fl c g) tb) tab

/-- The tile's table of masked sums after its 35 chunks, in order, from the zero table. -/
def tileNum : Vec F S64x16 .f32 :=
  (List.finRange 35).foldl (fun tb c => chunkNum hr P T ids hid fl c tb) zeroTab

/-- The tile's table of counts after its 35 chunks. -/
def tileCnt : Vec F S64x16 .f32 :=
  (List.finRange 35).foldl (fun tb c => chunkCnt ids hid fl c tb) zeroTab

end Tile

end Cert.KernelIdeal.TilePure

end
-- ==== Proof.TilePureIdeal.lean ====
/-
  A tile's pure terms read at the ideal instance: the rows' values and the two tables are the kernel's closed forms.

  Lane l of group g owns row 16 g + l of the staged chunk; at outer trip dd its column base is l + 32 dd, and the step
  with constants (4 j, q) reads column (l + 32 dd + 4 j + q) mod 128 (the seven-bit mask is the remainder modulo 128,
  and no sum of the small numbers involved wraps at 2^32). So accumulator q ends as the sum over dd and j of the squared
  differences at those columns, and the row's value is (a0 + a1) + (a2 + a3): the closed form's lane-ordered sum, once
  the staged chunk is read as the whole arrays' rows.

  A group's indexed add-store names, for lane l, the entry (segment id of lane l, l). Two lanes never name the same
  entry, because the second index is the lane's own number: read at entry (s, l), the sixteen lane-steps add lane l's
  value exactly when its segment id is s, and nothing otherwise. The tables start at zero and every group adds in this
  way, so an entry ends as the sum over the 35 chunks and 10 groups, in order, of what each group added there.
-/
import Idealize.ShloMosaic.Lib.ValueLayout
import Idealize.ShloMosaic.PureOps.Ideal.Laws
import proofs.«205036_g29618094473603_cont_9to1_1720_19_alg».proof.Proof.KSpec
import proofs.«205036_g29618094473603_cont_9to1_1720_19_alg».proof.Proof.TilePure

noncomputable section

namespace Cert.KernelIdeal.TilePure

open Idealize.ShloMosaic Idealize.ShloMosaic.ValueIdx Cert.KernelIdeal Cert.KernelIdeal.Facts₀ Cert.KernelIdeal.Facts
open Cert.KernelIdeal.TileParts (colAt sqAcc inb_col laneIdx)

variable [Facts]

/-! ### The index vectors as numbers -/

/-- Lane `l`'s number is the word of `l`. -/
theorem lanes_apply (l : Fin 16) : lanes (ix1 l) = BitVec.ofNat 32 l.val := by
  unfold lanes
  rw [iota_single_apply]

theorem lanes_toNat (l : Fin 16) : (lanes (ix1 l)).toNat = l.val := by
  rw [lanes_apply, BitVec.toNat_ofNat]
  have := l.isLt
  omega

/-- Lane `l` of group `g` owns row 16 g + l of the chunk. -/
theorem rowsVec_toNat (g : ℕ) (hg : g < 10) (l : Fin 16) : (rowsVec g (ix1 l)).toNat = l.val + 16 * g := by
  show (lanes (ix1 l) + (0#32 + BitVec.ofNat 32 g * 1#32) * 16#32).toNat = _
  rw [BitVec.toNat_add, BitVec.toNat_mul, BitVec.toNat_add, BitVec.toNat_mul, BitVec.toNat_ofNat, lanes_toNat]
  have := l.isLt
  simp only [BitVec.toNat_ofNat]
  omega

/-- Lane `l`'s column base at outer trip `dd` is l + 32 dd. -/
theorem baseVec_toNat (dd : ℕ) (hd : dd < 4) (l : Fin 16) : (baseVec dd (ix1 l)).toNat = l.val + 32 * dd := by
  show (lanes (ix1 l) + (0#32 + BitVec.ofNat 32 dd * 1#32) * 32#32).toNat = _
  rw [BitVec.toNat_add, BitVec.toNat_mul, BitVec.toNat_add, BitVec.toNat_mul, BitVec.toNat_ofNat, lanes_toNat]
  have := l.isLt
  simp only [BitVec.toNat_ofNat]
  omega

/-- Every row index of a group is inside the chunk. -/
theorem rowsVec_lt (g : Fin 10) : ∀ x : S16.Idx, (rowsVec g.val x).toNat < 160 := by
  intro x
  obtain ⟨l, rfl⟩ : ∃ l : Fin 16, x = ix1 l := ⟨x 0, eq_ix1 x⟩
  rw [rowsVec_toNat g.val g.isLt]
  have := g.isLt; have := l.isLt
  omega

/-! ### A fold of additive steps, read at one place -/

/-- Folding steps that each add `M k` at place `i` adds, at `i`, the list's sum of `M`. -/
theorem foldl_add_apply {κ ι β : Type*} [AddCommMonoid β] (step : (ι → β) → κ → (ι → β)) (M : κ → β) (i : ι)
    (hstep : ∀ t k, step t k i = t i + M k) :
    ∀ (l : List κ) (t0 : ι → β), l.foldl step t0 i = t0 i + (l.map M).sum
  | [], t0 => by simp
  | k :: l, t0 => by
    rw [List.foldl_cons, foldl_add_apply step M i hstep l, hstep, List.map_cons, List.sum_cons, add_assoc]

/-- The same over all of `Fin n` in order: the sum over `Fin n`. -/
theorem foldl_finRange_add_apply {n : ℕ} {ι β : Type*} [AddCommMonoid β] (step : (ι → β) → Fin n → (ι → β)) (M : Fin n → β)
    (i : ι) (hstep : ∀ t k, step t k i = t i + M k) (t0 : ι → β) :
    (List.finRange n).foldl step t0 i = t0 i + ∑ k : Fin n, M k := by
  rw [foldl_add_apply step M i hstep, Fin.sum_univ_def]

/-! ### A group's indexed add-store, read at an entry -/

theorem ofLane_eq (k : Fin 16) : (Shape.ofLane (d := ![16]) k : S16.Idx) = ix1 k := by
  funext a; match a with | ⟨0, _⟩ => rfl

/-- Entry (s, l) of the table after the add-store: lane l alone can name it (a lane's second index is its own number),
    and it does when its segment id is s. -/
theorem addAt_apply (tab : Vec Ideal S64x16 .f32) (ids : IVec S16 32) (h : IdsOk ids) (v : FVec Ideal S16 .f32)
    (s : Fin 64) (l : Fin 16) :
    addAt tab ids h v (ix2 s l) = tab (ix2 s l) + (if (ids (ix1 l)).toNat = s.val then v (ix1 l) else 0) := by
  unfold addAt storeIdx
  let M : Fin 16 → EReal := fun k => if k = l then (if (ids (ix1 k)).toNat = s.val then v (ix1 k) else 0) else 0
  refine (foldl_finRange_add_apply _ M (ix2 s l) ?_ tab).trans ?_
  · intro t k
    have h1 : ((fun _ : S16.Idx => (1#1 : BitVec 1)) (Shape.ofLane k) = 1) := rfl
    rw [if_pos h1]
    dsimp only
    rw [ofLane_eq, if_pos (rfl : true = true)]
    by_cases hk : k = l
    · subst hk
      by_cases hs : (ids (ix1 k)).toNat = s.val
      · have hj : idxAt ![ids, lanes] h (ix1 k) = ix2 s k := by
          funext a
          match a with
          | ⟨0, _⟩ => exact Fin.ext hs
          | ⟨1, _⟩ => exact Fin.ext (lanes_toNat k)
        rw [hj, if_pos (fun _ => rfl)]
        show t (ix2 s k) + v (ix1 k) = _
        simp only [M, if_pos hs, if_true]
      · have hn : ¬ ∀ (a : Fin 2), ((ix2 s k : S64x16.Idx) a).val = (idxAt (s := S64x16) ![ids, lanes] h (ix1 k) a).val := fun hall => by
          have h0 : s.val = (ids (ix1 k)).toNat := hall (0 : Fin 2)
          exact hs h0.symm
        rw [if_neg hn]
        simp only [M, if_neg hs, if_true, add_zero]
    · have hn : ¬ ∀ (a : Fin 2), ((ix2 s l : S64x16.Idx) a).val = (idxAt (s := S64x16) ![ids, lanes] h (ix1 k) a).val := fun hall => by
        have h1' : l.val = (lanes (ix1 k)).toNat := hall (1 : Fin 2)
        exact hk (Fin.ext ((lanes_toNat k).symm.trans h1'.symm))
      rw [if_neg hn]
      simp only [M, if_neg hk, add_zero]
  · refine congrArg (tab (ix2 s l) + ·) ?_
    simp only [M]
    rw [Finset.sum_ite_eq' Finset.univ l, if_pos (Finset.mem_univ l)]

/-! ### One row's value -/

/-- The row of the chunk that lane `l` of group `g` owns. -/
def rowIn (g : Fin 10) (l : Fin 16) : Fin 160 := ⟨l.val + 16 * g.val, by omega⟩

/-- One squared difference of the two staged chunks. -/
def d2c (P T : Vec Ideal S160x128 .f32) (r : Fin 160) (d : Fin 128) : EReal :=
  (P (ix2 r d) - T (ix2 r d)) * (P (ix2 r d) - T (ix2 r d))

/-- The element lane `l` reads at a step: its row of the chunk, at the lane-rotated column of the step. -/
theorem laneIdx_eq (g : Fin 10) (dd : Fin 4) (l : Fin 16) (c q : BitVec 32) (u : Fin 32) (hu : c.toNat + q.toNat = u.val)
    (h : ∀ (ax : Fin S160x128.rank) (x : S16.Idx),
      ((![rowsVec g.val, colAt (baseVec dd.val) c q] : Fin 2 → IVec S16 32) ax x).toNat < S160x128.size ax) :
    laneIdx h (ix1 l) = ix2 (rowIn g l) (Cert.KSpec.col l dd u) := by
  have ha : (⟨(rowsVec g.val (ix1 l)).toNat, h (0 : Fin 2) (ix1 l)⟩ : Fin 160) = rowIn g l :=
    Fin.ext (rowsVec_toNat g.val g.isLt l)
  have hb : (⟨(colAt (baseVec dd.val) c q (ix1 l)).toNat, h (1 : Fin 2) (ix1 l)⟩ : Fin 128) = Cert.KSpec.col l dd u := by
    apply Fin.ext
    show (colAt (baseVec dd.val) c q (ix1 l)).toNat = (l.val + dd.val * 32 + u.val) % 128
    rw [TileParts.colAt_toNat, baseVec_toNat dd.val dd.isLt]
    omega
  unfold laneIdx
  rw [ha, hb]

/-- One step at lane `l`: the accumulator plus the squared difference at the step's column. -/
theorem step_apply (P T : Vec Ideal S160x128 .f32) (g : Fin 10) (dd : Fin 4) (l : Fin 16) (c q : BitVec 32) (u : Fin 32)
    (hu : c.toNat + q.toNat = u.val)
    (h : ∀ (ax : Fin S160x128.rank) (x : S16.Idx),
      ((![rowsVec g.val, colAt (baseVec dd.val) c q] : Fin 2 → IVec S16 32) ax x).toNat < S160x128.size ax)
    (acc : FVec Ideal S16 .f32) :
    sqAcc P T (rowsVec g.val) (colAt (baseVec dd.val) c q) h acc (ix1 l)
      = acc (ix1 l) + d2c P T (rowIn g l) (Cert.KSpec.col l dd u) := by
  rw [TileParts.sqAcc_ideal, laneIdx_eq g dd l c q u hu]
  rfl

/-- Accumulator `q` after one outer trip, at lane `l`: what it held plus its eight squared differences. -/
theorem tripAcc_apply (P T : Vec Ideal S160x128 .f32) (g : Fin 10) (hr : ∀ x, (rowsVec g.val x).toNat < 160) (dd : Fin 4)
    (l : Fin 16) (q : Fin 4) (acc : FVec Ideal S16 .f32) :
    tripAcc P T (rowsVec g.val) hr (baseVec dd.val) (BitVec.ofNat 32 q.val) acc (ix1 l)
      = acc (ix1 l) + ∑ j : Fin 8, d2c P T (rowIn g l) (Cert.KSpec.col l dd ⟨4 * j.val + q.val, by omega⟩) := by
  have e : tripAcc P T (rowsVec g.val) hr (baseVec dd.val) (BitVec.ofNat 32 q.val) acc
      = (List.finRange 8).foldl (fun a (j : Fin 8) =>
          sqAcc P T (rowsVec g.val) (colAt (baseVec dd.val) (BitVec.ofNat 32 (4 * j.val)) (BitVec.ofNat 32 q.val))
            (inb_col hr (baseVec dd.val) (BitVec.ofNat 32 (4 * j.val)) (BitVec.ofNat 32 q.val)) a) acc := rfl
  rw [e]
  refine foldl_finRange_add_apply _ _ (ix1 l) (fun t j => ?_) acc
  refine step_apply P T g dd l _ _ ⟨4 * j.val + q.val, by omega⟩ ?_ _ t
  show (BitVec.ofNat 32 (4 * j.val)).toNat + (BitVec.ofNat 32 q.val).toNat = 4 * j.val + q.val
  rw [BitVec.toNat_ofNat, BitVec.toNat_ofNat]
  have := j.isLt; have := q.isLt
  omega

/-- Accumulator `q` after the four outer trips, at lane `l`: its 32 squared differences, by outer trip and inner step. -/
theorem laneAcc_apply (P T : Vec Ideal S160x128 .f32) (g : Fin 10) (hr : ∀ x, (rowsVec g.val x).toNat < 160) (l : Fin 16)
    (q : Fin 4) :
    laneAcc P T (rowsVec g.val) hr (BitVec.ofNat 32 q.val) (ix1 l)
      = ∑ dd : Fin 4, ∑ j : Fin 8, d2c P T (rowIn g l) (Cert.KSpec.col l dd ⟨4 * j.val + q.val, by omega⟩) := by
  have e : laneAcc P T (rowsVec g.val) hr (BitVec.ofNat 32 q.val)
      = (List.finRange 4).foldl (fun a (dd : Fin 4) =>
          tripAcc P T (rowsVec g.val) hr (baseVec dd.val) (BitVec.ofNat 32 q.val) a) zero16 := rfl
  rw [e]
  refine (foldl_finRange_add_apply _ _ (ix1 l) (fun t dd => tripAcc_apply P T g hr dd l q t) zero16).trans ?_
  show Ideal.ofBits .f32 0x00000000#32 + _ = _
  rw [Ideal.ofBits_zero_f32, zero_add]

/-- The row's value as lane `l` forms it, from the staged chunks. -/
theorem mse_apply (P T : Vec Ideal S160x128 .f32) (g : Fin 10) (hr : ∀ x, (rowsVec g.val x).toNat < 160) (l : Fin 16) :
    mse P T (rowsVec g.val) hr (ix1 l)
      = ((∑ dd : Fin 4, ∑ j : Fin 8, d2c P T (rowIn g l) (Cert.KSpec.col l dd ⟨4 * j.val + (0 : Fin 4).val, by omega⟩))
          + ∑ dd : Fin 4, ∑ j : Fin 8, d2c P T (rowIn g l) (Cert.KSpec.col l dd ⟨4 * j.val + (1 : Fin 4).val, by omega⟩))
        + ((∑ dd : Fin 4, ∑ j : Fin 8, d2c P T (rowIn g l) (Cert.KSpec.col l dd ⟨4 * j.val + (2 : Fin 4).val, by omega⟩))
          + ∑ dd : Fin 4, ∑ j : Fin 8, d2c P T (rowIn g l) (Cert.KSpec.col l dd ⟨4 * j.val + (3 : Fin 4).val, by omega⟩)) := by
  unfold mse
  rw [addf_apply, addf_apply, addf_apply]
  rw [← laneAcc_apply P T g hr l 0, ← laneAcc_apply P T g hr l 1, ← laneAcc_apply P T g hr l 2, ← laneAcc_apply P T g hr l 3]
  rfl

/-- When the staged chunks hold row `i` of the whole arrays at lane `l`'s row, the lane's value is the closed form's. -/
theorem mse_eq_sqSC (p t : Cert.Spec.SRows.Idx → EReal) (i : Fin 320000) (P T : Vec Ideal S160x128 .f32) (g : Fin 10)
    (hr : ∀ x, (rowsVec g.val x).toNat < 160) (l : Fin 16)
    (hP : ∀ d : Fin 128, P (ix2 (rowIn g l) d) = p (ix2 i d)) (hT : ∀ d : Fin 128, T (ix2 (rowIn g l) d) = t (ix2 i d)) :
    mse P T (rowsVec g.val) hr (ix1 l) = Cert.KSpec.sqSC p t i l := by
  rw [mse_apply]
  have hd : ∀ d, d2c P T (rowIn g l) d = Cert.KSpec.d2 p t i d := fun d => by
    unfold d2c Cert.KSpec.d2; rw [hP, hT]
  simp only [hd]
  rfl

/-! ### The tables -/

/-- Segment ids below 64 name rows of the table. -/
theorem idsOk_of_lt (ids : IVec S16 32) (h : ∀ x, (ids x).toNat < 64) : IdsOk ids := by
  intro a x
  match a with
  | ⟨0, _⟩ => exact h x
  | ⟨1, _⟩ =>
    obtain ⟨l, rfl⟩ : ∃ l : Fin 16, x = ix1 l := ⟨x 0, eq_ix1 x⟩
    show (lanes (ix1 l)).toNat < 16
    rw [lanes_toNat]; exact l.isLt

theorem groupNum_apply (P T : Vec Ideal S160x128 .f32) (g : Fin 10) (hr : ∀ x, (rowsVec g.val x).toNat < 160)
    (ids : IVec S16 32) (h : IdsOk ids) (fl : FVec Ideal S16 .f32) (tab : Vec Ideal S64x16 .f32) (s : Fin 64) (l : Fin 16) :
    groupNum P T g hr ids h fl tab (ix2 s l)
      = tab (ix2 s l) + (if (ids (ix1 l)).toNat = s.val then mse P T (rowsVec g.val) hr (ix1 l) * fl (ix1 l) else 0) := by
  unfold groupNum
  rw [addAt_apply, mulf_apply]

theorem groupCnt_apply (ids : IVec S16 32) (h : IdsOk ids) (fl : FVec Ideal S16 .f32) (tab : Vec Ideal S64x16 .f32)
    (s : Fin 64) (l : Fin 16) :
    groupCnt ids h fl tab (ix2 s l) = tab (ix2 s l) + (if (ids (ix1 l)).toNat = s.val then fl (ix1 l) else 0) := by
  unfold groupCnt
  rw [addAt_apply]

section Tile

variable (hr : ∀ (g : Fin 10) x, (rowsVec g.val x).toNat < 160)
variable (P T : Fin 35 → Vec Ideal S160x128 .f32) (ids : Fin 35 → Fin 10 → IVec S16 32) (hid : ∀ c g, IdsOk (ids c g))
variable (fl : Fin 35 → Fin 10 → FVec Ideal S16 .f32)

theorem chunkNum_apply (c : Fin 35) (tab : Vec Ideal S64x16 .f32) (s : Fin 64) (l : Fin 16) :
    chunkNum hr P T ids hid fl c tab (ix2 s l)
      = tab (ix2 s l) + ∑ g : Fin 10, (if (ids c g (ix1 l)).toNat = s.val
          then mse (P c) (T c) (rowsVec g.val) (hr g) (ix1 l) * fl c g (ix1 l) else 0) := by
  unfold chunkNum
  exact foldl_finRange_add_apply _ _ (ix2 s l) (fun tb g => groupNum_apply (P c) (T c) g (hr g) (ids c g) (hid c g) (fl c g) tb s l) tab

theorem chunkCnt_apply (c : Fin 35) (tab : Vec Ideal S64x16 .f32) (s : Fin 64) (l : Fin 16) :
    chunkCnt ids hid fl c tab (ix2 s l)
      = tab (ix2 s l) + ∑ g : Fin 10, (if (ids c g (ix1 l)).toNat = s.val then fl c g (ix1 l) else 0) := by
  unfold chunkCnt
  exact foldl_finRange_add_apply _ _ (ix2 s l) (fun tb g => groupCnt_apply (ids c g) (hid c g) (fl c g) tb s l) tab

/-- Entry (s, l) of the tile's table of masked sums: over its 350 groups, the group's row of lane l where that row's
    segment id is s. -/
theorem tileNum_apply (s : Fin 64) (l : Fin 16) :
    tileNum hr P T ids hid fl (ix2 s l)
      = ∑ c : Fin 35, ∑ g : Fin 10, (if (ids c g (ix1 l)).toNat = s.val
          then mse (P c) (T c) (rowsVec g.val) (hr g) (ix1 l) * fl c g (ix1 l) else 0) := by
  unfold tileNum
  refine (foldl_finRange_add_apply _ _ (ix2 s l) (fun tb c => chunkNum_apply hr P T ids hid fl c tb s l) zeroTab).trans ?_
  show Ideal.ofBits .f32 0x00000000#32 + _ = _
  rw [Ideal.ofBits_zero_f32, zero_add]

theorem tileCnt_apply (s : Fin 64) (l : Fin 16) :
    tileCnt ids hid fl (ix2 s l)
      = ∑ c : Fin 35, ∑ g : Fin 10, (if (ids c g (ix1 l)).toNat = s.val then fl c g (ix1 l) else 0) := by
  unfold tileCnt
  refine (foldl_finRange_add_apply _ _ (ix2 s l) (fun tb c => chunkCnt_apply ids hid fl c tb s l) zeroTab).trans ?_
  show Ideal.ofBits .f32 0x00000000#32 + _ = _
  rw [Ideal.ofBits_zero_f32, zero_add]

/-- With tile `w`'s chunks staged from the whole arrays — chunk c's row 16 g + l is row 140800 + 5600 w + 160 c + 16 g + l —
    and the groups' loaded segment ids and flags those rows', the tile's table of masked sums is the closed form's. -/
theorem tileNum_eq_tabNum (p t : Cert.Spec.SRows.Idx → EReal) (f : Cert.Spec.SN.Idx → BitVec 1) (b : Cert.Spec.SN.Idx → BitVec 32)
    (w : Fin 32)
    (hP : ∀ c g l (d : Fin 128), P c (ix2 (rowIn g l) d) = p (ix2 (Cert.KSpec.rowSC w c g l) d))
    (hT : ∀ c g l (d : Fin 128), T c (ix2 (rowIn g l) d) = t (ix2 (Cert.KSpec.rowSC w c g l) d))
    (hids : ∀ c g l, ids c g (ix1 l) = b (ix1 (Cert.KSpec.rowSC w c g l)))
    (hfl : ∀ c g l, fl c g (ix1 l) = Cert.Spec.fl f (Cert.KSpec.rowSC w c g l)) (s : Fin 64) (l : Fin 16) :
    tileNum hr P T ids hid fl (ix2 s l) = Cert.KSpec.tabNum p t f b w s l := by
  rw [tileNum_apply]
  unfold Cert.KSpec.tabNum
  refine Finset.sum_congr rfl fun c _ => Finset.sum_congr rfl fun g _ => ?_
  rw [hids, hfl, mse_eq_sqSC p t (Cert.KSpec.rowSC w c g l) (P c) (T c) g (hr g) l (hP c g l) (hT c g l)]

/-- The same for the table of counts. -/
theorem tileCnt_eq_tabCnt (f : Cert.Spec.SN.Idx → BitVec 1) (b : Cert.Spec.SN.Idx → BitVec 32) (w : Fin 32)
    (hids : ∀ c g l, ids c g (ix1 l) = b (ix1 (Cert.KSpec.rowSC w c g l)))
    (hfl : ∀ c g l, fl c g (ix1 l) = Cert.Spec.fl f (Cert.KSpec.rowSC w c g l)) (s : Fin 64) (l : Fin 16) :
    tileCnt ids hid fl (ix2 s l) = Cert.KSpec.tabCnt f b w s l := by
  rw [tileCnt_apply]
  unfold Cert.KSpec.tabCnt
  refine Finset.sum_congr rfl fun c _ => Finset.sum_congr rfl fun g _ => ?_
  rw [hids, hfl]

end Tile

end Cert.KernelIdeal.TilePure

end
-- ==== Proof.TileVal.lean ====
/-
  What a tile stages and what its two tables end as, as pure functions of the four input arrays and the tile's
  coordinates.

  Tile (c, s) is tile number w = 16 c + s and owns rows 140800 + 5600 w … of the arrays. Chunk k of the tile (k < 35)
  is the 160 rows from 140800 + 5600 w + 160 k; group g of a chunk (g < 10) is its 16 rows from 16 g. A staging slot
  holds, once chunk k has landed, the read of the array through the kernel's own slice at that offset; the staged ids
  and flags are the reads of the tile's 5600 rows; a group's id and flag vectors are the loads of 16 of them.
-/
import proofs.«205036_g29618094473603_cont_9to1_1720_19_alg».proof.Proof.TileLoopsBridge
import proofs.«205036_g29618094473603_cont_9to1_1720_19_alg».proof.Proof.TilePureIdeal

noncomputable section

namespace Cert.KernelIdeal.Tile

open Cert.KernelIdeal
open Facts₀ Facts
open Idealize.ShloMosaic
open Idealize.ShloMosaic.ValueIdx

variable {F : FTy → Type} [FloatOps F]

/-! ## Offsets -/

/-- The offsets of chunk `k` of the tile at `L` in a 320000 x 128 array. -/
def chunkOff (L : grid0.Coords) (k : ℕ) : Fin 2 → ℕ := ![89600 * (L 0).val + 5600 * (L 1).val + 140800 + 160 * k, 0]

omit [FloatOps F] in
theorem chunkOff_inb (L : grid0.Coords) (k : Fin 35) : ∀ a, chunkOff L k.val a + S160x128.size a ≤ S320000x128.size a := by
  have h0 : (L 0).val < 2 := (L 0).isLt
  have h1 : (L 1).val < 16 := (L 1).isLt
  have hk := k.isLt
  intro a
  match a with
  | ⟨0, _⟩ => show 89600 * (L 0).val + 5600 * (L 1).val + 140800 + 160 * k.val + 160 ≤ 320000; omega
  | ⟨1, _⟩ => show 0 + 128 ≤ 128; omega

/-- Chunk `k` as a rectangle of a 320000 x 128 array. -/
abbrev chunkRect (L : grid0.Coords) (k : Fin 35) : Rect S320000x128 :=
  Rect.unit (s := S320000x128) (chunkOff L k.val) S160x128.size (chunkOff_inb L k)

/-- The offset of group `g` of chunk `k` among the tile's 5600 staged rows. -/
def grpOff (k g : ℕ) : Fin 1 → ℕ := ![160 * k + 16 * g]

omit [FloatOps F] in
theorem grpOff_inb (k : Fin 35) (g : Fin 10) : ∀ a, grpOff k.val g.val a + S16.size a ≤ S5600.size a := by
  have hk := k.isLt
  have hg := g.isLt
  intro a
  match a with
  | ⟨0, _⟩ => show 160 * k.val + 16 * g.val + 16 ≤ 5600; omega

/-- Group `g` of chunk `k` as a rectangle of the 5600 staged rows. -/
abbrev grpRect (k : Fin 35) (g : Fin 10) : Rect S5600 := Rect.unit (s := S5600) (grpOff k.val g.val) S16.size (grpOff_inb k g)

/-- The tile's 5600 rows as a rectangle of a 320000-row array. -/
abbrev rowsRect (L : grid0.Coords) : Rect S320000 := Rect.unit (s := S320000) (k0_off1 L) S5600.size (k0_off1_inb L)

/-! ## What is staged -/

/-- What the pred slot holds once chunk `k` has landed. -/
def stP (L : grid0.Coords) (p : Vec F S320000x128 .f32) (k : Fin 35) : Vec F S160x128 .f32 :=
  View.read (Elt F) (pW.slice (chunkRect L k) (fun _ => rfl)).view p
/-- What the tgt slot holds once chunk `k` has landed. -/
def stT (L : grid0.Coords) (t : Vec F S320000x128 .f32) (k : Fin 35) : Vec F S160x128 .f32 :=
  View.read (Elt F) (tW.slice (chunkRect L k) (fun _ => rfl)).view t
/-- The tile's staged segment ids. -/
def sIds (F : FTy → Type) (L : grid0.Coords) (b : Vec F S320000 .i32) : Vec F S5600 .i32 :=
  View.read (Elt F) (bW.slice (rowsRect L) (fun _ => rfl)).view b
/-- The tile's staged flags. -/
def sFls (L : grid0.Coords) (fl : Vec F S320000 .f32) : Vec F S5600 .f32 :=
  View.read (Elt F) (fW.slice (rowsRect L) (fun _ => rfl)).view fl

/-- The segment ids group `g` of chunk `k` loads. -/
def ids (F : FTy → Type) (L : grid0.Coords) (b : Vec F S320000 .i32) (k : Fin 35) (g : Fin 10) : IVec S16 32 :=
  sB.view.readAt (Elt F) (grpRect k g).toLoadRect (sIds F L b)
/-- The flags group `g` of chunk `k` loads. -/
def fls (L : grid0.Coords) (fl : Vec F S320000 .f32) (k : Fin 35) (g : Fin 10) : FVec F S16 .f32 :=
  sFl.view.readAt (Elt F) (grpRect k g).toLoadRect (sFls L fl)

/-! ## The tables -/

/-- Segment ids below 64 in the array are below 64 once staged and loaded. -/
theorem ids_lt (L : grid0.Coords) {b : Vec F S320000 .i32} (hb : ∀ i : S320000.Idx, ((b : S320000.Idx → BitVec 32) i).toNat < 64)
    (k : Fin 35) (g : Fin 10) (x : S16.Idx) : (ids F L b k g x).toNat < 64 := by
  unfold ids sIds
  simp only [View.readAt_apply, Memref.view_whole, View.read_whole, View.read_apply, cast_eq]
  exact hb _

/-- The tile's table of masked sums. -/
def tabN (L : grid0.Coords) (p t : Vec F S320000x128 .f32) (b : Vec F S320000 .i32)
    (hb : ∀ i : S320000.Idx, ((b : S320000.Idx → BitVec 32) i).toNat < 64) (fl : Vec F S320000 .f32) : Vec F S64x16 .f32 :=
  TilePure.tileNum (fun g => TilePure.rowsVec_lt g) (stP L p) (stT L t) (ids F L b)
    (fun k g => TilePure.idsOk_of_lt _ (ids_lt L hb k g)) (fls L fl)

/-- The tile's table of counts. -/
def tabC (L : grid0.Coords) (b : Vec F S320000 .i32)
    (hb : ∀ i : S320000.Idx, ((b : S320000.Idx → BitVec 32) i).toNat < 64) (fl : Vec F S320000 .f32) : Vec F S64x16 .f32 :=
  TilePure.tileCnt (ids F L b) (fun k g => TilePure.idsOk_of_lt _ (ids_lt L hb k g)) (fls L fl)

end Cert.KernelIdeal.Tile

end
-- ==== Proof.FinalG.lean ====
/-
  The kernel's run and frame from the tile kernel's specification, for any float instance.

  The 32 tiles' tables are the pure tables of the tile at the coordinates of tile w (w = 16 c + i); the two regions'
  updates are the TensorCore pipelines' own. The run ends with every argument at its launch contents, because no
  operation of @main writes an argument. Also: what the two reshaped arrays hold that the first region reads.
-/
import proofs.«205036_g29618094473603_cont_9to1_1720_19_alg».proof.Proof.LaunchFin
import proofs.«205036_g29618094473603_cont_9to1_1720_19_alg».proof.Proof.TcRegionV
import proofs.«205036_g29618094473603_cont_9to1_1720_19_alg».proof.Proof.TileVal

noncomputable section

namespace Cert.KernelIdeal.Final

open Cert.KernelIdeal Cert.KernelIdeal.Tile Cert.KernelIdeal.Launch
open Cert.KernelIdeal.Facts₀ Cert.KernelIdeal.Facts
open Cert.KernelIdeal.TcRegions (R0 R1 region0_spec region1_spec R0_other R1_other UP)
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Cert.KernelIdeal.Facts]

local notation "𝕄" => MT nD τ sig (HIx 1) (Elt F) ℕ (UU UP) ℕ

variable (m : (ℓ : Loc nD τ sig) → Buf (Elt F) ℓ)

/-- The one device. -/
abbrev d0 : Dev nD := (0 : Fin 1)

/-- Every segment id names a row of a table. -/
def HB : Prop := ∀ i : S320000.Idx, ((m (bLoc d0) : S320000.Idx → BitVec 32) i).toNat < 64

/-! ## Tile numbers and tile coordinates -/

/-- The coordinates of tile `w`: SparseCore `w / 16`, subcore `w % 16`. -/
def LofW (w : Fin 32) : grid0.Coords :=
  coordsV ⟨w.val / 16, by have := w.isLt; show _ < 2; omega⟩ ⟨w.val % 16, by show _ < 16; exact Nat.mod_lt _ (by norm_num)⟩

theorem wL_LofW (w : Fin 32) : wL (LofW w) = w := by
  apply Fin.ext
  show 16 * (w.val / 16) + w.val % 16 = w.val
  omega

theorem LofW_wL (L : grid0.Coords) : LofW (wL L) = L := by
  have h0 : (L 0).val < 2 := (L 0).isLt
  have h1 : (L 1).val < 16 := (L 1).isLt
  funext a
  match a with
  | ⟨0, _⟩ => exact Fin.ext (show (16 * (L 0).val + (L 1).val) / 16 = (L 0).val by omega)
  | ⟨1, _⟩ => exact Fin.ext (show (16 * (L 0).val + (L 1).val) % 16 = (L 1).val by omega)

/-! ## The tables -/

def Nf (hb : HB m) : Fin 32 → FVec F S64x16 .f32 := fun w => tabN (LofW w) (m (pLoc d0)) (m (tLoc d0)) (m (bLoc d0)) hb (flOf m d0)
def Cf (hb : HB m) : Fin 32 → FVec F S64x16 .f32 := fun w => tabC (LofW w) (m (bLoc d0)) hb (flOf m d0)

/-- The tile kernel's specification in the tile's own terms: at coordinates `L`, from read shares of the four inputs at
    any contents whose segment ids are below 64 and the tile's two blocks, to the blocks holding the tile's two tables. -/
def TileBodyThm : Prop :=
  ∀ (d : Dev nD) (L : grid0.Coords) (q : PosShare TreeShare) (p t : Vec F S320000x128 .f32) (b : Vec F S320000 .i32) (fl : Vec F S320000 .f32)
    (hb : ∀ i : S320000.Idx, ((b : S320000.Idx → BitVec 32) i).toNat < 64) (O : CellTallies nD τ sig (HIx 1)) (W : Waits sig (HIx 1)), (∀ g, O g none = 0) →
    iprop(levAts (K (F := F)).L (K (F := F)).lev ∗ goRes q d (wL L) p t b fl ∗ scopedBufs (thr d L) ∗ scopedSems0 (thr d L) ∗ owes (thr d L) O W)
      ⊢ (wp frame (wpE (defs₀ (F := F)) 𝒱₀ (thr d L) none) Set.univ (kern (F := F) L)
          fun _ => iprop(tdRes q d (wL L) p t b fl (tabN L p t b hb fl) (tabC L b hb fl)
            ∗ scopedBufs (thr d L) ∗ scopedSems0 (thr d L) ∗ ∃ W', ⌜∀ p ∈ W', p ∈ W ∨ p.2 = none⌝ ∗ owes (thr d L) O W') : sProp 𝕄)

theorem hbody (hTB : TileBodyThm (F := F)) (hb : HB m) : TileBodySpec m (Nf m hb) (Cf m hb) := by
  intro d L q O W hO
  obtain rfl : d = d0 := Subsingleton.elim _ _
  have h := hTB d0 L q (m (pLoc d0)) (m (tLoc d0)) (m (bLoc d0)) (flOf m d0) hb O W hO
  unfold Nf Cf
  rw [LofW_wL]
  exact h

/-! ## The run and the frame -/

theorem run [∀ e, Nonempty (Elt F e)] (hTB : TileBodyThm (F := F)) (ρ : Dev nD → PrngReg) (hb : HB m) :
    θ_run (Cert.KernelIdeal.defs (F := F)) (Cert.KernelIdeal.threads (F := F)) ⟨m, fun _ => 0, ρ⟩ (QC m (Nf m hb) (Cf m hb) (R0 (F := F)) (R1 (F := F))) :=
  run_main m ρ (Nf m hb) (Cf m hb) (R0 (F := F)) (R1 (F := F)) (hbody m hTB hb) (region0_spec m _ _) (region1_spec m _ _)

theorem frame [∀ e, Nonempty (Elt F e)] (hTB : TileBodyThm (F := F)) (ρ : Dev nD → PrngReg) (hb : HB m) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (Cert.KernelIdeal.defs (F := F)) _ _).mono (fun r h c => by
    obtain ⟨h0, h1, h2, h3, h4, h5, -⟩ := h c
    obtain ⟨e0, e1, e2, e3, e4, e5⟩ := Vfin_args m (Nf m hb) (Cf m hb) (R0 (F := F)) (R1 (F := F)) R0_other R1_other c
    exact ⟨h0.trans e0, h1.trans e1, h2.trans e2, h3.trans e3, h4.trans e4, h5.trans e5⟩) (run m hTB ρ hb)

/-! ## What the first region reads beside pred and tgt -/

/-- `main_v2`: the first 140800 segment ids, 55 x 1 x 2560. -/
theorem V5_v2 (d : Dev nD) :
    V5 m d (dr main_v2) = fun i => shapeCast S55x1x2560 (extractStridedSlice S140800 ![0] (m (bLoc d)) slices_S320000_S140800_0) shapeCasts_S140800_S55x1x2560 i := by
  unfold V5
  rw [StableHlo.reshape_result_ne' _ _ _ _ _ (show main_v2 ≠ main_v4 by decide), StableHlo.unary_result_ne' _ _ _ _ (show main_v2 ≠ main_v3 by decide),
    StableHlo.reshape_result' _ _ _ _ _, StableHlo.unary_result' _ _ _ _, StableHlo.unary_result_ne' _ _ _ _ (show main_arg4 ≠ main_v0 by decide)]
  rfl

/-- `main_v4`: the first 140800 flags as floats, 55 x 1 x 2560. -/
theorem V5_v4 (d : Dev nD) :
    V5 m d (dr main_v4) = fun i => shapeCast S55x1x2560 (extractStridedSlice S140800 ![0] (flOf m d) slices_S320000_S140800_0) shapeCasts_S140800_S55x1x2560 i := by
  unfold V5
  rw [StableHlo.reshape_result' _ _ _ _ _, StableHlo.unary_result' _ _ _ _, StableHlo.reshape_result_ne' _ _ _ _ _ (show main_v0 ≠ main_v2 by decide),
    StableHlo.unary_result_ne' _ _ _ _ (show main_v0 ≠ main_v1 by decide), StableHlo.unary_result' _ _ _ _]
  rfl

end Cert.KernelIdeal.Final

end
-- ==== Proof.TileValIdeal.lean ====
/-
  A tile's staged data and its two tables, read at the ideal instance in terms of the whole arrays.

  The tile at grid coordinates (c, i) is tile 16 c + i and owns the 5600 rows from 140800 + 5600 (16 c + i) =
  89600 c + 5600 i + 140800. Chunk k of the tile is staged through the kernel's own slice at 160 k rows further, and a
  slice read at (r, d) is the array at (offset + r, d); the tile's segment ids and flags are staged through the slice of
  its 5600 rows, and group g of chunk k loads the sixteen of them from 160 k + 16 g. So lane l of group g of chunk k sees
  row 89600 c + 5600 i + 140800 + 160 k + 16 g + l of every array: the row the closed form assigns it. With these four
  readings the tile's tables are the closed form's tables of tile 16 c + i.
-/
import proofs.«205036_g29618094473603_cont_9to1_1720_19_alg».proof.Proof.KSpec
import proofs.«205036_g29618094473603_cont_9to1_1720_19_alg».proof.Proof.TileVal

noncomputable section

namespace Cert.KernelIdeal.Tile

open Cert.KernelIdeal
open Facts₀ Facts
open Idealize.ShloMosaic
open Idealize.ShloMosaic.ValueIdx
open Cert.KernelIdeal.TilePure (rowIn)

variable [Facts]

/-! ### What is staged, read at an index -/

/-- Chunk `k`'s staged first operand at (r, d): the whole array at the tile's row 160 k + r. -/
theorem stP_apply (L : grid0.Coords) (p : Vec Ideal S320000x128 .f32) (k : Fin 35) (r : Fin 160) (d : Fin 128)
    (i : Fin 320000) (hi : i.val = 89600 * (L 0).val + 5600 * (L 1).val + 140800 + 160 * k.val + r.val) :
    stP L p k (ix2 r d) = p (ix2 i d) := by
  unfold stP
  simp only [Memref.view_slice, Memref.view_whole, View.read_apply, cast_eq]
  refine congrArg p (funext fun a => Fin.ext ?_)
  match a with
  | ⟨0, _⟩ =>
    show 89600 * (L 0).val + 5600 * (L 1).val + 140800 + 160 * k.val + 1 * r.val = i.val
    omega
  | ⟨1, _⟩ =>
    show 0 + 1 * d.val = d.val
    omega

/-- The same for the second operand. -/
theorem stT_apply (L : grid0.Coords) (t : Vec Ideal S320000x128 .f32) (k : Fin 35) (r : Fin 160) (d : Fin 128)
    (i : Fin 320000) (hi : i.val = 89600 * (L 0).val + 5600 * (L 1).val + 140800 + 160 * k.val + r.val) :
    stT L t k (ix2 r d) = t (ix2 i d) := by
  unfold stT
  simp only [Memref.view_slice, Memref.view_whole, View.read_apply, cast_eq]
  refine congrArg t (funext fun a => Fin.ext ?_)
  match a with
  | ⟨0, _⟩ =>
    show 89600 * (L 0).val + 5600 * (L 1).val + 140800 + 160 * k.val + 1 * r.val = i.val
    omega
  | ⟨1, _⟩ =>
    show 0 + 1 * d.val = d.val
    omega

/-- Group `g` of chunk `k` loads, at lane `l`, the segment id of the tile's row 160 k + 16 g + l. -/
theorem ids_apply (L : grid0.Coords) (b : Vec Ideal S320000 .i32) (k : Fin 35) (g : Fin 10) (l : Fin 16)
    (i : Fin 320000) (hi : i.val = 89600 * (L 0).val + 5600 * (L 1).val + 140800 + 160 * k.val + 16 * g.val + l.val) :
    ids Ideal L b k g (ix1 l) = b (ix1 i) := by
  unfold ids sIds
  simp only [View.readAt_apply, Memref.view_slice, Memref.view_whole, View.read_whole, View.read_apply, cast_eq]
  refine congrArg b (funext fun a => Fin.ext ?_)
  match a with
  | ⟨0, _⟩ =>
    show k0_off1 L 0 + 1 * (grpOff k.val g.val 0 + 1 * l.val) = i.val
    rw [Gen.k0_off1_eq]
    show 89600 * (L 0).val + 5600 * (L 1).val + 140800 + 1 * (160 * k.val + 16 * g.val + 1 * l.val) = i.val
    omega

/-- … and the flag of that row. -/
theorem fls_apply (L : grid0.Coords) (fl : Vec Ideal S320000 .f32) (k : Fin 35) (g : Fin 10) (l : Fin 16)
    (i : Fin 320000) (hi : i.val = 89600 * (L 0).val + 5600 * (L 1).val + 140800 + 160 * k.val + 16 * g.val + l.val) :
    fls L fl k g (ix1 l) = fl (ix1 i) := by
  unfold fls sFls
  simp only [View.readAt_apply, Memref.view_slice, Memref.view_whole, View.read_whole, View.read_apply, cast_eq]
  refine congrArg fl (funext fun a => Fin.ext ?_)
  match a with
  | ⟨0, _⟩ =>
    show k0_off1 L 0 + 1 * (grpOff k.val g.val 0 + 1 * l.val) = i.val
    rw [Gen.k0_off1_eq]
    show 89600 * (L 0).val + 5600 * (L 1).val + 140800 + 1 * (160 * k.val + 16 * g.val + 1 * l.val) = i.val
    omega

/-- The row of the whole arrays that lane `l` of group `g` of chunk `k` of the tile at `L` owns, as a number. -/
theorem rowSC_wL_val (L : grid0.Coords) (k : Fin 35) (g : Fin 10) (l : Fin 16) :
    (Cert.KSpec.rowSC (wL L) k g l).val
      = 89600 * (L 0).val + 5600 * (L 1).val + 140800 + 160 * k.val + 16 * g.val + l.val := by
  show 140800 + (16 * (L 0).val + (L 1).val) * 5600 + k.val * 160 + g.val * 16 + l.val = _
  omega

/-! ### The tile's two tables are the closed form's -/

/-- The tile's table of masked sums, entry (s, l), at the ideal instance: the closed form's entry for tile 16 c + i.
    `f` is the flag bits whose conversion the float flags `fl` are. -/
theorem tabN_eq_tabNum (L : grid0.Coords) (p t : Vec Ideal S320000x128 .f32) (b : Vec Ideal S320000 .i32)
    (hb : ∀ i : S320000.Idx, ((b : S320000.Idx → BitVec 32) i).toNat < 64) (fl : Vec Ideal S320000 .f32)
    (f : IVec S320000 1) (hfl : ∀ i : Fin 320000, fl (ix1 i) = Cert.Spec.fl f i) (s : Fin 64) (l : Fin 16) :
    tabN L p t b hb fl (ix2 s l) = Cert.KSpec.tabNum p t f b (wL L) s l := by
  unfold tabN
  refine TilePure.tileNum_eq_tabNum _ _ _ _ _ _ p t f b (wL L) ?_ ?_ ?_ ?_ s l
  · intro c g l' d
    exact stP_apply L p c (rowIn g l') d _ (by rw [rowSC_wL_val]; show _ = _ + (l'.val + 16 * g.val); omega)
  · intro c g l' d
    exact stT_apply L t c (rowIn g l') d _ (by rw [rowSC_wL_val]; show _ = _ + (l'.val + 16 * g.val); omega)
  · intro c g l'
    exact ids_apply L b c g l' _ (rowSC_wL_val L c g l')
  · intro c g l'
    rw [fls_apply L fl c g l' _ (rowSC_wL_val L c g l'), hfl]

/-- The tile's table of counts likewise. -/
theorem tabC_eq_tabCnt (L : grid0.Coords) (b : Vec Ideal S320000 .i32)
    (hb : ∀ i : S320000.Idx, ((b : S320000.Idx → BitVec 32) i).toNat < 64) (fl : Vec Ideal S320000 .f32)
    (f : IVec S320000 1) (hfl : ∀ i : Fin 320000, fl (ix1 i) = Cert.Spec.fl f i) (s : Fin 64) (l : Fin 16) :
    tabC L b hb fl (ix2 s l) = Cert.KSpec.tabCnt f b (wL L) s l := by
  unfold tabC
  refine TilePure.tileCnt_eq_tabCnt _ _ _ f b (wL L) ?_ ?_ s l
  · intro c g l'
    exact ids_apply L b c g l' _ (rowSC_wL_val L c g l')
  · intro c g l'
    rw [fls_apply L fl c g l' _ (rowSC_wL_val L c g l'), hfl]

end Cert.KernelIdeal.Tile

end
-- ==== Proof.Algebra.lean ====
/-
  The two arrangements of one sum are equal on the extended reals.

  The specification sums, per segment, over the 320000 rows in their natural order, each row's 128 squared differences
  in column order. The kernel's closed form splits the rows in two parts — rows 0 … 140799 as 55 blocks of 2560, rows
  140800 … 319999 as 32 tiles x 16 lanes x 35 chunks x 10 groups — and, in the second part, sums each row's columns in
  a lane-rotated order into four accumulators. Both are regroupings of a finite sum in a commutative monoid, so only
  commutativity and associativity of + (and, for one factor swap, of ·) are used: no finiteness, no distributivity.

  Two bijections carry the whole argument:
  * for a fixed lane l, (q, dd, j) ↦ (l + 32 dd + 4 j + q) mod 128 from Fin 4 x Fin 4 x Fin 8 onto the 128 columns;
  * the row numbering (k, r) ↦ 2560 k + r and (w, l, c, g) ↦ 140800 + 5600 w + 160 c + 16 g + l from the disjoint
    union (Fin 55 x Fin 2560) ⊕ (Fin 32 x Fin 16 x Fin 35 x Fin 10) onto the 320000 rows.
  Each is injective by linear arithmetic and maps between finite types of equal size, hence bijective.
-/
import Mathlib.Data.Fintype.BigOperators
import Mathlib.Data.Fintype.EquivFin
import proofs.«205036_g29618094473603_cont_9to1_1720_19_alg».proof.Proof.KSpec

noncomputable section

namespace Cert.KSpec

open Idealize.ShloMosaic Idealize.ShloMosaic.ValueIdx Cert.Spec

/-! ### The columns of one row, in a lane's order -/

/-- The column that lane `l` adds into accumulator `q` at outer step `dd`, inner step `j`. -/
def colOf (l : Fin 16) (x : Fin 4 × Fin 4 × Fin 8) : Fin 128 :=
  col l x.2.1 ⟨4 * x.2.2.val + x.1.val, by omega⟩

/-- Distinct (accumulator, outer step, inner step) triples read distinct columns: the offset 32 dd + 4 j + q is the
    mixed-radix numeral of the triple, below 128, and a rotation by l mod 128 is injective on 0 … 127. -/
theorem colOf_injective (l : Fin 16) : Function.Injective (colOf l) := by
  rintro ⟨q, dd, j⟩ ⟨q', dd', j'⟩ h
  have h' : (l.val + dd.val * 32 + (4 * j.val + q.val)) % 128
      = (l.val + dd'.val * 32 + (4 * j'.val + q'.val)) % 128 := congrArg Fin.val h
  have hq := q.isLt; have hq' := q'.isLt; have hd := dd.isLt; have hd' := dd'.isLt
  have hj := j.isLt; have hj' := j'.isLt; have hl := l.isLt
  have h3 : q.val = q'.val ∧ dd.val = dd'.val ∧ j.val = j'.val := by omega
  exact Prod.ext (Fin.ext h3.1) (Prod.ext (Fin.ext h3.2.1) (Fin.ext h3.2.2))

/-- … and there are as many triples as columns, so every column is read exactly once. -/
theorem colOf_bijective (l : Fin 16) : Function.Bijective (colOf l) :=
  (Fintype.bijective_iff_injective_and_card _).2 ⟨colOf_injective l, by
    simp only [Fintype.card_prod, Fintype.card_fin]⟩

/-- A sum over the 128 columns, regrouped as a lane reads them: by accumulator, outer step, inner step. -/
theorem sum_cols {M : Type*} [AddCommMonoid M] (l : Fin 16) (F : Fin 128 → M) :
    ∑ q : Fin 4, ∑ dd : Fin 4, ∑ j : Fin 8, F (col l dd ⟨4 * j.val + q.val, by omega⟩) = ∑ d : Fin 128, F d := by
  rw [← (colOf_bijective l).sum_comp F, Fintype.sum_prod_type]
  refine Finset.sum_congr rfl fun q _ => ?_
  rw [Fintype.sum_prod_type]
  rfl

/-- The row's value as a lane forms it is the row's squared distance, whichever the lane. -/
theorem sqSC_eq (p t : SRows.Idx → EReal) (i : Fin 320000) (l : Fin 16) : sqSC p t i l = sq p t i := by
  have h := sum_cols l (d2 p t i)
  rw [Fin.sum_univ_four] at h
  unfold sqSC accq
  rw [← add_assoc]
  exact h

/-! ### The rows, in the kernel's numbering -/

/-- The row a part's coordinates name: block and row within the block, or tile, lane, chunk, group. -/
def rowOf : (Fin 55 × Fin 2560) ⊕ (Fin 32 × Fin 16 × Fin 35 × Fin 10) → Fin 320000
  | .inl x => rowTC x.1 x.2
  | .inr y => rowSC y.1 y.2.2.1 y.2.2.2 y.2.1

/-- Distinct coordinates name distinct rows: within a part the row number is a mixed-radix numeral of the
    coordinates, and the first part's rows lie below 140800, the second part's at or above it. -/
theorem rowOf_injective : Function.Injective rowOf := by
  rintro (⟨k, r⟩ | ⟨w, l, c, g⟩) (⟨k', r'⟩ | ⟨w', l', c', g'⟩) h
  · have h' : k.val * 2560 + r.val = k'.val * 2560 + r'.val := congrArg Fin.val h
    have hr := r.isLt; have hr' := r'.isLt
    have h2 : k.val = k'.val ∧ r.val = r'.val := by omega
    exact congrArg Sum.inl (Prod.ext (Fin.ext h2.1) (Fin.ext h2.2))
  · have h' : k.val * 2560 + r.val = 140800 + w'.val * 5600 + c'.val * 160 + g'.val * 16 + l'.val :=
      congrArg Fin.val h
    have hk := k.isLt; have hr := r.isLt
    omega
  · have h' : 140800 + w.val * 5600 + c.val * 160 + g.val * 16 + l.val = k'.val * 2560 + r'.val :=
      congrArg Fin.val h
    have hk := k'.isLt; have hr := r'.isLt
    omega
  · have h' : 140800 + w.val * 5600 + c.val * 160 + g.val * 16 + l.val
        = 140800 + w'.val * 5600 + c'.val * 160 + g'.val * 16 + l'.val := congrArg Fin.val h
    have hc := c.isLt; have hc' := c'.isLt; have hg := g.isLt; have hg' := g'.isLt
    have hl := l.isLt; have hl' := l'.isLt
    have h4 : w.val = w'.val ∧ l.val = l'.val ∧ c.val = c'.val ∧ g.val = g'.val := by omega
    exact congrArg Sum.inr (Prod.ext (Fin.ext h4.1) (Prod.ext (Fin.ext h4.2.1)
      (Prod.ext (Fin.ext h4.2.2.1) (Fin.ext h4.2.2.2))))

/-- … and 55 · 2560 + 32 · 16 · 35 · 10 = 320000, so every row is named exactly once. -/
theorem rowOf_bijective : Function.Bijective rowOf :=
  (Fintype.bijective_iff_injective_and_card _).2 ⟨rowOf_injective, by
    simp only [Fintype.card_sum, Fintype.card_prod, Fintype.card_fin]⟩

/-- A sum over the 320000 rows, regrouped as the kernel walks them: the tiles' rows by tile, lane, chunk and group,
    then the blocks' rows by block and row. -/
theorem sum_rows {M : Type*} [AddCommMonoid M] (F : Fin 320000 → M) :
    ∑ i : Fin 320000, F i
      = (∑ w : Fin 32, ∑ l : Fin 16, ∑ c : Fin 35, ∑ g : Fin 10, F (rowSC w c g l))
        + ∑ k : Fin 55, ∑ r : Fin 2560, F (rowTC k r) := by
  rw [← rowOf_bijective.sum_comp F, Fintype.sum_sum_type, add_comm]
  congr 1
  · rw [Fintype.sum_prod_type]
    refine Finset.sum_congr rfl fun w _ => ?_
    rw [Fintype.sum_prod_type]
    refine Finset.sum_congr rfl fun l _ => ?_
    rw [Fintype.sum_prod_type]
    rfl
  · rw [Fintype.sum_prod_type]
    rfl

/-! ### The per-segment totals and the result -/

/-- The kernel's masked sum for segment `s` is the specification's. -/
theorem numK_eq (p t : SRows.Idx → EReal) (f : SN.Idx → BitVec 1) (b : SN.Idx → BitVec 32) (s : Fin 64) :
    numK p t f b s = num p t f b s := by
  unfold numK num tabNum numTC
  rw [sum_rows]
  congr 1
  · refine Finset.sum_congr rfl fun w _ => Finset.sum_congr rfl fun l _ =>
      Finset.sum_congr rfl fun c _ => Finset.sum_congr rfl fun g _ => ?_
    rw [sqSC_eq]
  · refine Finset.sum_congr rfl fun k _ => Finset.sum_congr rfl fun r _ => ?_
    rw [ite_mul, zero_mul, mul_comm]

/-- The kernel's count for segment `s` is the specification's. -/
theorem cntK_eq (f : SN.Idx → BitVec 1) (b : SN.Idx → BitVec 32) (s : Fin 64) : cntK f b s = cnt f b s := by
  unfold cntK cnt tabCnt cntTC
  rw [sum_rows]

/-- The kernel's closed form is the specification. -/
theorem lossK_eq (p t : SRows.Idx → EReal) (f : SN.Idx → BitVec 1) (b : SN.Idx → BitVec 32) :
    lossK p t f b = loss p t f b := by
  funext _
  simp only [lossK, loss, numK_eq, cntK_eq]

end Cert.KSpec

end
-- ==== Proof.TcPureIdeal.lean ====
/-
  The two TensorCore bodies' pure terms read at an index, at the ideal instance (a float an extended real).

  The row body's two stored vectors at segment s are the accumulator there plus a sum over the block's 2560 rows:
  of (the row's flag where its segment id is s, else 0) times the row's sum over its 128 columns of squared
  differences, and of the same without the factor. The combine body's stored 1 x 1 vector is, everywhere, the mean over
  the 64 segments of (the table of masked sums over its 16 lanes and 32 tiles plus the accumulator) divided by
  max (the table of counts likewise plus its accumulator, 1).

  Every step is one operation read at an index: a sum over one axis as the sum over that axis's coordinates, a cast
  that adds a unit axis or a transpose of a column as the operand at the matching coordinate, a one-row broadcast as
  the row, the comparison with the row-number iota as an equality of words, the zero word as 0. No law of arithmetic
  beyond reading is used: the sums stay in the order the operations give them.
-/
import Idealize.ShloMosaic.Lib.ValueLayout
import Idealize.ShloMosaic.PureOps.Ideal.Laws
import proofs.«205036_g29618094473603_cont_9to1_1720_19_alg».proof.Proof.Spec
import proofs.«205036_g29618094473603_cont_9to1_1720_19_alg».proof.Proof.TcPure

noncomputable section

namespace Cert.KernelIdeal.TcPure

open Idealize.ShloMosaic Idealize.ShloMosaic.ValueIdx Cert.KernelIdeal Cert.KernelIdeal.Facts₀ Cert.KernelIdeal.Facts

variable [Facts]

/-! ### Layout and reduction steps read at an index -/

/-- A vector of `a` entries cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A sum over the second axis of a matrix, read at row `i`: the sum over the columns. -/
theorem sum_axis1_apply {m n : ℕ} {φ : FTy} (V : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ) (i : Fin m) :
    multiReduction .add [1] ⟨1, ![m]⟩ V acc h hφ hacc (ix1 i) = ∑ k : Fin n, V (ix2 i k) := by
  refine (Ideal.multiReduction_add_single V acc h hφ hacc (ix1 i)).trans ?_
  refine Finset.sum_congr rfl fun k _ => congrArg V ?_
  funext c; match c with | ⟨0, _⟩ => rfl | ⟨1, _⟩ => rfl

/-- A sum over the first axis of a matrix, read at column `j`: the sum over the rows. -/
theorem sum_axis0_apply {m n : ℕ} {φ : FTy} (V : FVec Ideal ⟨2, ![m, n]⟩ φ) (acc : BitVec φ.bits)
    (h : (⟨2, ![m, n]⟩ : Shape).Reduces [0] ⟨1, ![n]⟩) (hφ : FKind.Formats φ) (hacc : acc = FKind.add.neutral φ hφ) (j : Fin n) :
    multiReduction .add [0] ⟨1, ![n]⟩ V acc h hφ hacc (ix1 j) = ∑ k : Fin m, V (ix2 k j) := by
  refine (Ideal.multiReduction_add_single V acc h hφ hacc (ix1 j)).trans ?_
  refine Finset.sum_congr rfl fun k _ => congrArg V ?_
  funext c; match c with | ⟨0, _⟩ => rfl | ⟨1, _⟩ => rfl

/-- A sum over the last axis of a rank-3 array, read at `(i, j)`. -/
theorem sum_axis2_apply {m n o : ℕ} {φ : FTy} (V : FVec Ideal ⟨3, ![m, n, o]⟩ φ) (acc : BitVec φ.bits)
    (h : (⟨3, ![m, n, o]⟩ : Shape).Reduces [2] ⟨2, ![m, n]⟩) (hφ : FKind.Formats φ) (hacc : acc = FKind.add.neutral φ hφ)
    (i : Fin m) (j : Fin n) :
    multiReduction .add [2] ⟨2, ![m, n]⟩ V acc h hφ hacc (ix2 i j) = ∑ k : Fin o, V (ix3 i j k) := by
  refine (Ideal.multiReduction_add_single V acc h hφ hacc (ix2 i j)).trans ?_
  refine Finset.sum_congr rfl fun k _ => congrArg V ?_
  funext c; match c with | ⟨0, _⟩ => rfl | ⟨1, _⟩ => rfl | ⟨2, _⟩ => rfl

/-- A select on the comparison "the two words are equal" is the `if` on their equality. -/
theorem select_cmpi_eq {α : Type} {w : ℕ} (x y : BitVec w) (a b : α) :
    Scalar.select (IntOp.cmpi .eq x y) a b = if x = y then a else b := by
  show (if BitVec.ofBool (x == y) = 1 then a else b) = _
  by_cases h : x = y
  · subst h; simp
  · have hb : (x == y) = false := beq_eq_false_iff_ne.mpr h
    rw [hb, if_neg h, if_neg (by decide)]

/-- For a segment number below 64, a 32-bit word is that number's word exactly when its value is the number. -/
theorem eq_ofNat_iff_toNat_eq (x : BitVec 32) (s : Fin 64) : x = BitVec.ofNat 32 s.val ↔ x.toNat = s.val := by
  constructor
  · intro h; rw [h, BitVec.toNat_ofNat]; have := s.isLt; omega
  · intro h; apply BitVec.eq_of_toNat_eq; rw [h, BitVec.toNat_ofNat]; have := s.isLt; omega

/-! ### The pieces of the row body at an index -/

/-- Each row's sum of squared differences, laid along a row of length 2560: entry `(u, r)` is row `r`'s sum. -/
theorem sqRow_apply (V : FVec Ideal S2560x128 .f32) (u : Fin 1) (r : Fin 2560) :
    transpose S1x2560 [1, 0]
        (shapeCast S2560x1 (multiReduction .add [1] S2560 V 0x00000000#32 reduces_S2560x128_S2560 (.inl rfl) rfl)
          shapeCasts_S2560_S2560x1)
        transposes_S2560x1_p1_0_S1x2560 (ix2 u r)
      = ∑ d : Fin 128, V (ix2 r d) := by
  refine (transpose_ix2_apply _ transposes_S2560x1_p1_0_S1x2560 u r).trans ?_
  refine (shapeCast_a_a1_apply _ shapeCasts_S2560_S2560x1 r u).trans ?_
  exact sum_axis1_apply V _ reduces_S2560x128_S2560 _ _ r

/-- The mask: entry `(s, r)` is row `r`'s flag where row `r`'s segment id is the word of `s`, else 0. -/
theorem mask_apply (B : IVec S1x1x2560 32) (Fl : FVec Ideal S1x1x2560 .f32) (s : Fin 64) (r : Fin 2560) :
    select
        (cmpi .eq (broadcastTo S64x2560 (shapeCast S1x2560 B shapeCasts_S1x1x2560_S1x2560) broadcasts_S1x2560_S64x2560)
          (iota .tc S64x2560 32 [0] iota_S64x2560_d0_w32))
        (broadcastTo S64x2560
          (shapeCast S1x2560 (shapeCast S1x2560 Fl shapeCasts_S1x1x2560_S1x2560) shapeCasts_S1x2560_S1x2560)
          broadcasts_S1x2560_S64x2560)
        (broadcast S64x2560 (Scalar.ofBits .f32 0x00000000#32 : Ideal .f32)) (ix2 s r)
      = if B (ix3 0 0 r) = BitVec.ofNat 32 s.val then Fl (ix3 0 0 r) else 0 := by
  rw [select_apply, shapeCast_self]
  show Scalar.select (IntOp.cmpi .eq
      (broadcastTo S64x2560 (shapeCast S1x2560 B shapeCasts_S1x1x2560_S1x2560) broadcasts_S1x2560_S64x2560 (ix2 s r))
      (iota .tc S64x2560 32 [0] iota_S64x2560_d0_w32 (ix2 s r))) _ _ = _
  rw [select_cmpi_eq, broadcastTo_1b_ab_apply, broadcastTo_1b_ab_apply, shapeCast_1ab_ab_apply, shapeCast_1ab_ab_apply,
    iota_single_apply]
  show (if B (ix3 0 0 r) = BitVec.ofNat 32 s.val then Fl (ix3 0 0 r) else Ideal.ofBits .f32 0x00000000#32) = _
  rw [Ideal.ofBits_zero_f32]

/-- The row body's masked sums at segment `s`: the accumulator there plus the sum over the block's rows of the mask
    entry times the row's sum of squared differences. -/
theorem rowsNum_apply (P T : FVec Ideal S2560x128 .f32) (B : IVec S1x1x2560 32) (Fl : FVec Ideal S1x1x2560 .f32)
    (acc : FVec Ideal S64 .f32) (s : Fin 64) :
    rowsNum (F := Ideal) P T B Fl acc (ix1 s)
      = acc (ix1 s) + ∑ r : Fin 2560, (if B (ix3 0 0 r) = BitVec.ofNat 32 s.val then Fl (ix3 0 0 r) else 0)
          * ∑ d : Fin 128, (P (ix2 r d) - T (ix2 r d)) * (P (ix2 r d) - T (ix2 r d)) := by
  unfold rowsNum
  rw [addf_apply, shapeCast_self]
  refine congrArg (acc (ix1 s) + ·) ?_
  refine (sum_axis1_apply _ _ reduces_S64x2560_S64 _ _ s).trans ?_
  refine Finset.sum_congr rfl fun r _ => ?_
  rw [mulf_apply, mask_apply, broadcastTo_1b_ab_apply, sqRow_apply]
  rfl

/-- The row body's counts at segment `s`: the accumulator there plus the sum over the block's rows of the mask entry. -/
theorem rowsCnt_apply (B : IVec S1x1x2560 32) (Fl : FVec Ideal S1x1x2560 .f32) (acc : FVec Ideal S64 .f32) (s : Fin 64) :
    rowsCnt (F := Ideal) B Fl acc (ix1 s)
      = acc (ix1 s) + ∑ r : Fin 2560, (if B (ix3 0 0 r) = BitVec.ofNat 32 s.val then Fl (ix3 0 0 r) else 0) := by
  unfold rowsCnt
  rw [addf_apply, shapeCast_self]
  refine congrArg (acc (ix1 s) + ·) ?_
  refine (sum_axis1_apply _ _ reduces_S64x2560_S64 _ _ s).trans ?_
  exact Finset.sum_congr rfl fun r _ => mask_apply B Fl s r

/-- The zero vector reads 0 everywhere. -/
theorem zero64_apply (j : S64.Idx) : zero64 (F := Ideal) j = 0 := Ideal.ofBits_zero_f32

/-- The mask's condition in the other form: the segment id's value is the segment number. -/
theorem mask_toNat (x : BitVec 32) (s : Fin 64) (a b : EReal) :
    (if x = BitVec.ofNat 32 s.val then a else b) = if x.toNat = s.val then a else b :=
  if_congr (eq_ofNat_iff_toNat_eq x s) rfl rfl

/-- `rowsNum_apply` with the mask's condition on the segment id's value. -/
theorem rowsNum_apply_toNat (P T : FVec Ideal S2560x128 .f32) (B : IVec S1x1x2560 32) (Fl : FVec Ideal S1x1x2560 .f32)
    (acc : FVec Ideal S64 .f32) (s : Fin 64) :
    rowsNum (F := Ideal) P T B Fl acc (ix1 s)
      = acc (ix1 s) + ∑ r : Fin 2560, (if (B (ix3 0 0 r)).toNat = s.val then Fl (ix3 0 0 r) else 0)
          * ∑ d : Fin 128, (P (ix2 r d) - T (ix2 r d)) * (P (ix2 r d) - T (ix2 r d)) := by
  rw [rowsNum_apply]
  refine congrArg (acc (ix1 s) + ·) (Finset.sum_congr rfl fun r _ => ?_)
  rw [mask_toNat]

/-- `rowsCnt_apply` with the mask's condition on the segment id's value. -/
theorem rowsCnt_apply_toNat (B : IVec S1x1x2560 32) (Fl : FVec Ideal S1x1x2560 .f32) (acc : FVec Ideal S64 .f32) (s : Fin 64) :
    rowsCnt (F := Ideal) B Fl acc (ix1 s)
      = acc (ix1 s) + ∑ r : Fin 2560, (if (B (ix3 0 0 r)).toNat = s.val then Fl (ix3 0 0 r) else 0) := by
  rw [rowsCnt_apply]
  refine congrArg (acc (ix1 s) + ·) (Finset.sum_congr rfl fun r _ => ?_)
  rw [mask_toNat]

/-! ### The combine body -/

/-- The element of a 1 x 1 vector at the static position (0, 0). -/
theorem extractAt_00 {α : Type} (x : S1x1.Idx → α) (h : ∀ a, (![0, 0] : Fin 2 → Nat) a < S1x1.size a) :
    extractAt ![0, 0] x h = x (ix2 0 0) := by
  unfold extractAt
  refine congrArg x ?_
  funext a; match a with | ⟨0, _⟩ => rfl | ⟨1, _⟩ => rfl

/-- A 32 x 64 x 16 table summed over its last axis, then over its first, read at segment `s`. -/
theorem tableSum_apply (N : FVec Ideal S32x64x16 .f32) (s : Fin 64) :
    multiReduction .add [0] S64
        (multiReduction .add [2] S32x64 (shapeCast S32x64x16 N shapeCasts_S32x64x16_S32x64x16) 0x00000000#32
          reduces_S32x64x16_S32x64 (.inl rfl) rfl)
        0x00000000#32 reduces_S32x64_S64 (.inl rfl) rfl (ix1 s)
      = ∑ w : Fin 32, ∑ l : Fin 16, N (ix3 w s l) := by
  refine (sum_axis0_apply _ _ reduces_S32x64_S64 _ _ s).trans ?_
  refine Finset.sum_congr rfl fun w _ => ?_
  rw [shapeCast_self]
  exact sum_axis2_apply N _ reduces_S32x64x16_S32x64 _ _ w s

/-- The combine body's result: the mean over the 64 segments of (the table of masked sums over lanes and tiles plus the
    accumulator) divided by max (the table of counts likewise plus its accumulator, 1). -/
theorem combine_apply (N C : FVec Ideal S32x64x16 .f32) (nt ct : FVec Ideal S64 .f32) :
    combine (F := Ideal) N C nt ct
      = fun _ => Ideal.div (∑ s : Fin 64, Ideal.div ((∑ w : Fin 32, ∑ l : Fin 16, N (ix3 w s l)) + nt (ix1 s))
          (max ((∑ w : Fin 32, ∑ l : Fin 16, C (ix3 w s l)) + ct (ix1 s)) Cert.Spec.one)) Cert.Spec.c64 := by
  funext j
  unfold combine
  rw [broadcast_apply, extractAt_00]
  refine congrArg (Ideal.div · Cert.Spec.c64) ?_
  refine (shapeCast_a_1a_apply _ shapeCasts_S1_S1x1 0 0).trans ?_
  refine (sum_axis1_apply _ _ reduces_S1x64_S1 _ _ 0).trans ?_
  refine Finset.sum_congr rfl fun s _ => ?_
  refine (shapeCast_a_1a_apply _ shapeCasts_S64_S1x64 0 s).trans ?_
  rw [divf_apply, addf_apply, maximumf_apply, addf_apply, tableSum_apply, tableSum_apply, shapeCast_self, shapeCast_self]
  rfl

end Cert.KernelIdeal.TcPure

end
-- ==== Proof.KValue.lean ====
/-
  The combine body's stored value, once its four inputs are the kernel's closed forms, is the specification.

  With the two 32 x 64 x 16 tables holding the tiles' per-(segment, lane) masked sums and counts, and the two accumulators
  holding the per-segment totals of rows 0 … 140799, the combine's result is the kernel's closed form of the loss —
  the tables over lanes and tiles plus the accumulator, divided by max(count, 1), averaged over the 64 segments — and
  that closed form equals the specification by the regrouping of the two sums. The combine stores a 1 x 1 vector;
  the specification is stated at the scalar shape's one index, so the equation is between constant functions.
-/
import proofs.«205036_g29618094473603_cont_9to1_1720_19_alg».proof.Proof.Algebra
import proofs.«205036_g29618094473603_cont_9to1_1720_19_alg».proof.Proof.TcPureIdeal

noncomputable section

namespace Cert.KSpec

open Idealize.ShloMosaic Idealize.ShloMosaic.ValueIdx Cert.Spec Cert.KernelIdeal

variable [Cert.KernelIdeal.Facts]

/-- The combine's value at every index of its 1 x 1 result is the specification's value. -/
theorem kernel_value (p t : Cert.Spec.SRows.Idx → EReal) (f : Cert.Spec.SN.Idx → BitVec 1) (b : Cert.Spec.SN.Idx → BitVec 32)
    (N C : FVec Ideal S32x64x16 .f32) (nt ct : FVec Ideal S64 .f32)
    (hN : ∀ (w : Fin 32) (s : Fin 64) (l : Fin 16), N (ix3 w s l) = tabNum p t f b w s l)
    (hC : ∀ (w : Fin 32) (s : Fin 64) (l : Fin 16), C (ix3 w s l) = tabCnt f b w s l)
    (hnt : ∀ s : Fin 64, nt (ix1 s) = numTC p t f b s) (hct : ∀ s : Fin 64, ct (ix1 s) = cntTC f b s) :
    Cert.KernelIdeal.TcPure.combine (F := Ideal) N C nt ct = fun _ => Cert.Spec.loss p t f b ix0 := by
  rw [Cert.KernelIdeal.TcPure.combine_apply, ← lossK_eq]
  funext _
  show Ideal.div _ c64 = Ideal.div (∑ s : Fin 64, Ideal.div (numK p t f b s) (max (cntK f b s) one)) c64
  refine congrArg (Ideal.div · c64) (Finset.sum_congr rfl fun s _ => ?_)
  unfold numK cntK
  simp only [hN, hC, hnt, hct]

end Cert.KSpec

end
-- ==== Proof.TcBlocks.lean ====
import proofs.«205036_g29618094473603_cont_9to1_1720_19_alg».proof.Proof.TcAlg
import proofs.«205036_g29618094473603_cont_9to1_1720_19_alg».proof.Proof.TcPure
import proofs.«205036_g29618094473603_cont_9to1_1720_19_alg».proof.Proof.TcValue
import Idealize.ShloMosaic.Lib.Pipeline.Value
import Idealize.ShloMosaic.Lib.ValueIdx

set_option maxRecDepth 16384

noncomputable section

namespace Cert.KernelIdeal.TcRegions

open Cert.KernelIdeal Cert.KernelIdeal.Gen Cert.KernelIdeal.TcPure
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx

/-! ## The row kernel's blocks, read at an index

Block `t` of the two 320000 x 128 arrays is rows 2560 t … 2560 t + 2559; block `t` of the two 55 x 1 x 2560 arrays is
their slab `t`. -/

variable (V : (c : Dev nD) → (b : Ref sig .tc) → Buf (Elt F) ((c.tc : Thread nD τ).loc b))

/-- The four input windows' block indices, decided over the grid. -/
theorem idx1 : ∀ t : Fin grid1.N,
    (win1_0.index t 0 = t.val ∧ win1_0.index t 1 = 0) ∧ (win1_1.index t 0 = t.val ∧ win1_1.index t 1 = 0)
    ∧ (win1_2.index t 0 = t.val ∧ win1_2.index t 1 = 0 ∧ win1_2.index t 2 = 0)
    ∧ (win1_3.index t 0 = t.val ∧ win1_3.index t 1 = 0 ∧ win1_3.index t 2 = 0) := by decide +kernel

theorem row_lt (t : Fin cfg1.N) (r : Fin 2560) : t.val * 2560 + r.val < 320000 := by
  have h : t.val < 55 := lt_of_lt_of_eq t.isLt (show cfg1.N = 55 from N_1)
  omega
theorem slab_lt (t : Fin cfg1.N) : t.val < 55 := lt_of_lt_of_eq t.isLt (show cfg1.N = 55 from N_1)

theorem iblk1_0_apply (c : Dev nD) (t : Fin cfg1.N) (r : Fin 2560) (d : Fin 128) :
    iblk1 V c 0 t (ix2 r d) = V c main_arg0 (ix2 ⟨t.val * 2560 + r.val, row_lt t r⟩ d) := by
  unfold iblk1
  rw [View.read_apply]
  show V c main_arg0 (((cfg1.win 0).blk t).view.emb (ix2 r d)) = _
  refine congrArg _ (funext fun a => Fin.ext ?_)
  refine (Pipeline.Window.rect_emb_val win1_0 t (ix2 r d) a).trans ?_
  fin_cases a
  · show win1_0.index t 0 * 2560 + r.val = t.val * 2560 + r.val
    rw [(idx1 t).1.1]
  · show win1_0.index t 1 * 128 + d.val = d.val
    rw [(idx1 t).1.2]; omega

theorem iblk1_1_apply (c : Dev nD) (t : Fin cfg1.N) (r : Fin 2560) (d : Fin 128) :
    iblk1 V c 1 t (ix2 r d) = V c main_arg1 (ix2 ⟨t.val * 2560 + r.val, row_lt t r⟩ d) := by
  unfold iblk1
  rw [View.read_apply]
  show V c main_arg1 (((cfg1.win 1).blk t).view.emb (ix2 r d)) = _
  refine congrArg _ (funext fun a => Fin.ext ?_)
  refine (Pipeline.Window.rect_emb_val win1_1 t (ix2 r d) a).trans ?_
  fin_cases a
  · show win1_1.index t 0 * 2560 + r.val = t.val * 2560 + r.val
    rw [(idx1 t).2.1.1]
  · show win1_1.index t 1 * 128 + d.val = d.val
    rw [(idx1 t).2.1.2]; omega

theorem iblk1_2_apply (c : Dev nD) (t : Fin cfg1.N) (r : Fin 2560) :
    iblk1 V c 2 t (ix3 (0 : Fin 1) (0 : Fin 1) r) = V c main_v2 (ix3 ⟨t.val, slab_lt t⟩ (0 : Fin 1) r) := by
  unfold iblk1
  rw [View.read_apply]
  show V c main_v2 (((cfg1.win 2).blk t).view.emb (ix3 (0 : Fin 1) (0 : Fin 1) r)) = _
  refine congrArg _ (funext fun a => Fin.ext ?_)
  refine (Pipeline.Window.rect_emb_val win1_2 t (ix3 (0 : Fin 1) (0 : Fin 1) r) a).trans ?_
  fin_cases a
  · show win1_2.index t 0 * 1 + 0 = t.val
    rw [(idx1 t).2.2.1.1]; omega
  · show win1_2.index t 1 * 1 + 0 = 0
    rw [(idx1 t).2.2.1.2.1]
  · show win1_2.index t 2 * 2560 + r.val = r.val
    rw [(idx1 t).2.2.1.2.2]; omega

theorem iblk1_3_apply (c : Dev nD) (t : Fin cfg1.N) (r : Fin 2560) :
    iblk1 V c 3 t (ix3 (0 : Fin 1) (0 : Fin 1) r) = V c main_v4 (ix3 ⟨t.val, slab_lt t⟩ (0 : Fin 1) r) := by
  unfold iblk1
  rw [View.read_apply]
  show V c main_v4 (((cfg1.win 3).blk t).view.emb (ix3 (0 : Fin 1) (0 : Fin 1) r)) = _
  refine congrArg _ (funext fun a => Fin.ext ?_)
  refine (Pipeline.Window.rect_emb_val win1_3 t (ix3 (0 : Fin 1) (0 : Fin 1) r) a).trans ?_
  fin_cases a
  · show win1_3.index t 0 * 1 + 0 = t.val
    rw [(idx1 t).2.2.2.1]; omega
  · show win1_3.index t 1 * 1 + 0 = 0
    rw [(idx1 t).2.2.2.2.1]
  · show win1_3.index t 2 * 2560 + r.val = r.val
    rw [(idx1 t).2.2.2.2.2]; omega

end Cert.KernelIdeal.TcRegions

end
-- ==== Proof.TcFold.lean ====
/-
  The row body's accumulation over the 55 grid points, closed.

  The two accumulators start as the zero vector and each grid point k replaces them by the row body's stored terms of
  block k and the accumulators before it. Read at a segment, each step adds block k's sum over its 2560 rows, so after
  the 55 points an accumulator holds 0 plus the blocks' sums in order: the sum over the blocks of the sum over each
  block's rows. When block k's entries are the whole arrays' at row 2560 k + r, these are the per-segment totals of
  rows 0 … 140799 as the kernel's closed form states them.
-/
import proofs.«205036_g29618094473603_cont_9to1_1720_19_alg».proof.Proof.KSpec
import proofs.«205036_g29618094473603_cont_9to1_1720_19_alg».proof.Proof.TcPureIdeal

noncomputable section

namespace Cert.KernelIdeal.TcPure

open Idealize.ShloMosaic Idealize.ShloMosaic.ValueIdx Cert.KernelIdeal Cert.KernelIdeal.Facts₀ Cert.KernelIdeal.Facts
open Cert.Spec Cert.KSpec

variable [Facts]

/-- A sequence that starts at 0 and whose step j adds M j is, after n steps, the sum of M over the n steps. -/
theorem sum_of_steps {β : Type*} [AddCommMonoid β] (n : ℕ) (M : Fin n → β) (a : ℕ → β) (h0 : a 0 = 0)
    (hs : ∀ (j : ℕ) (h : j < n), a (j + 1) = a j + M ⟨j, h⟩) : a n = ∑ k : Fin n, M k := by
  have key : ∀ (m : ℕ) (hm : m ≤ n), a m = ∑ k : Fin m, M (Fin.castLE hm k) := by
    intro m
    induction m with
    | zero => intro _; rw [h0]; rfl
    | succ m ih =>
      intro hm
      rw [hs m hm, ih (Nat.le_of_succ_le hm), Fin.sum_univ_castSucc]
      rfl
  have h := key n le_rfl
  rw [h]
  exact Finset.sum_congr rfl fun k _ => congrArg M (Fin.ext rfl)

section Steps

variable (P T : Fin 55 → FVec Ideal S2560x128 .f32) (B : Fin 55 → IVec S1x1x2560 32) (Fl : Fin 55 → FVec Ideal S1x1x2560 .f32)

/-- Any sequence of accumulators that starts at the zero vector and at step k takes the row body's masked sums of
    block k holds, after the 55 steps, at segment s: the sum over blocks and rows of the mask entry times the row's sum
    of squared differences. -/
theorem num_of_steps (a : ℕ → FVec Ideal S64 .f32) (h0 : a 0 = zero64)
    (hs : ∀ (k : ℕ) (h : k < 55), a (k + 1) = rowsNum (P ⟨k, h⟩) (T ⟨k, h⟩) (B ⟨k, h⟩) (Fl ⟨k, h⟩) (a k)) (s : Fin 64) :
    a 55 (ix1 s) = ∑ k : Fin 55, ∑ r : Fin 2560,
      (if (B k (ix3 0 0 r)).toNat = s.val then Fl k (ix3 0 0 r) else 0)
        * ∑ d : Fin 128, (P k (ix2 r d) - T k (ix2 r d)) * (P k (ix2 r d) - T k (ix2 r d)) :=
  sum_of_steps 55 _ (fun n => a n (ix1 s)) (by show a 0 (ix1 s) = 0; rw [h0]; exact zero64_apply _)
    (fun k h => by show a (k + 1) (ix1 s) = _; rw [hs k h, rowsNum_apply_toNat])

/-- The same for the counts. -/
theorem cnt_of_steps (a : ℕ → FVec Ideal S64 .f32) (h0 : a 0 = zero64)
    (hs : ∀ (k : ℕ) (h : k < 55), a (k + 1) = rowsCnt (B ⟨k, h⟩) (Fl ⟨k, h⟩) (a k)) (s : Fin 64) :
    a 55 (ix1 s) = ∑ k : Fin 55, ∑ r : Fin 2560, (if (B k (ix3 0 0 r)).toNat = s.val then Fl k (ix3 0 0 r) else 0) :=
  sum_of_steps 55 _ (fun n => a n (ix1 s)) (by show a 0 (ix1 s) = 0; rw [h0]; exact zero64_apply _)
    (fun k h => by show a (k + 1) (ix1 s) = _; rw [hs k h, rowsCnt_apply_toNat])

/-- The accumulator of masked sums after the first n grid points (n at most 55; constant from there on). -/
def numAfter : ℕ → FVec Ideal S64 .f32
  | 0 => zero64
  | n + 1 => if h : n < 55 then rowsNum (P ⟨n, h⟩) (T ⟨n, h⟩) (B ⟨n, h⟩) (Fl ⟨n, h⟩) (numAfter n) else numAfter n

/-- The accumulator of counts after the first n grid points. -/
def cntAfter : ℕ → FVec Ideal S64 .f32
  | 0 => zero64
  | n + 1 => if h : n < 55 then rowsCnt (B ⟨n, h⟩) (Fl ⟨n, h⟩) (cntAfter n) else cntAfter n

theorem numAfter_zero : numAfter P T B Fl 0 = zero64 := rfl
theorem numAfter_succ (n : ℕ) (h : n < 55) :
    numAfter P T B Fl (n + 1) = rowsNum (P ⟨n, h⟩) (T ⟨n, h⟩) (B ⟨n, h⟩) (Fl ⟨n, h⟩) (numAfter P T B Fl n) := by
  rw [numAfter, dif_pos h]
theorem cntAfter_zero : cntAfter B Fl 0 = zero64 := rfl
theorem cntAfter_succ (n : ℕ) (h : n < 55) :
    cntAfter B Fl (n + 1) = rowsCnt (B ⟨n, h⟩) (Fl ⟨n, h⟩) (cntAfter B Fl n) := by
  rw [cntAfter, dif_pos h]

end Steps

section Blocks

variable (p t : SRows.Idx → EReal) (f : SN.Idx → BitVec 1) (b : SN.Idx → BitVec 32)
variable (P T : Fin 55 → FVec Ideal S2560x128 .f32) (B : Fin 55 → IVec S1x1x2560 32) (Fl : Fin 55 → FVec Ideal S1x1x2560 .f32)

/-- With block k's entries the whole arrays' at row 2560 k + r, 55 steps of the row body from the zero vector leave, at
    segment s, the closed form's per-segment masked sum over rows 0 … 140799. -/
theorem num_of_steps_eq_numTC
    (hP : ∀ k r d, P k (ix2 r d) = p (ix2 (rowTC k r) d)) (hT : ∀ k r d, T k (ix2 r d) = t (ix2 (rowTC k r) d))
    (hB : ∀ k r, B k (ix3 0 0 r) = b (ix1 (rowTC k r))) (hFl : ∀ k r, Fl k (ix3 0 0 r) = fl f (rowTC k r))
    (a : ℕ → FVec Ideal S64 .f32) (h0 : a 0 = zero64)
    (hs : ∀ (k : ℕ) (h : k < 55), a (k + 1) = rowsNum (P ⟨k, h⟩) (T ⟨k, h⟩) (B ⟨k, h⟩) (Fl ⟨k, h⟩) (a k)) (s : Fin 64) :
    a 55 (ix1 s) = numTC p t f b s := by
  rw [num_of_steps P T B Fl a h0 hs s]
  unfold numTC Cert.Spec.sq
  refine Finset.sum_congr rfl fun k _ => Finset.sum_congr rfl fun r _ => ?_
  rw [hB, hFl]
  refine congrArg (_ * ·) (Finset.sum_congr rfl fun d _ => ?_)
  rw [hP, hT]

/-- The same for the counts. -/
theorem cnt_of_steps_eq_cntTC
    (hB : ∀ k r, B k (ix3 0 0 r) = b (ix1 (rowTC k r))) (hFl : ∀ k r, Fl k (ix3 0 0 r) = fl f (rowTC k r))
    (a : ℕ → FVec Ideal S64 .f32) (h0 : a 0 = zero64)
    (hs : ∀ (k : ℕ) (h : k < 55), a (k + 1) = rowsCnt (B ⟨k, h⟩) (Fl ⟨k, h⟩) (a k)) (s : Fin 64) :
    a 55 (ix1 s) = cntTC f b s := by
  rw [cnt_of_steps B Fl a h0 hs s]
  unfold cntTC
  refine Finset.sum_congr rfl fun k _ => Finset.sum_congr rfl fun r _ => ?_
  rw [hB, hFl]

/-- In particular for the accumulators defined by recursion on the grid point. -/
theorem numAfter_eq_numTC
    (hP : ∀ k r d, P k (ix2 r d) = p (ix2 (rowTC k r) d)) (hT : ∀ k r d, T k (ix2 r d) = t (ix2 (rowTC k r) d))
    (hB : ∀ k r, B k (ix3 0 0 r) = b (ix1 (rowTC k r))) (hFl : ∀ k r, Fl k (ix3 0 0 r) = fl f (rowTC k r)) (s : Fin 64) :
    numAfter P T B Fl 55 (ix1 s) = numTC p t f b s :=
  num_of_steps_eq_numTC p t f b P T B Fl hP hT hB hFl _ (numAfter_zero P T B Fl) (numAfter_succ P T B Fl) s

theorem cntAfter_eq_cntTC
    (hB : ∀ k r, B k (ix3 0 0 r) = b (ix1 (rowTC k r))) (hFl : ∀ k r, Fl k (ix3 0 0 r) = fl f (rowTC k r)) (s : Fin 64) :
    cntAfter B Fl 55 (ix1 s) = cntTC f b s :=
  cnt_of_steps_eq_cntTC f b B Fl hB hFl _ (cntAfter_zero B Fl) (cntAfter_succ B Fl) s

end Blocks

end Cert.KernelIdeal.TcPure

end
-- ==== Proof.TcClosed.lean ====
/-
  The row kernel's two results at the exact instance, closed: when the region's operands hold the argument arrays,
  the first 140800 segment ids laid out as 55 slabs of 2560 and the flags' numbers likewise, the two result arrays hold
  at segment s the per-segment masked sum and count over rows 0 … 140799.
-/
import proofs.«205036_g29618094473603_cont_9to1_1720_19_alg».proof.Proof.TcRegionV
import proofs.«205036_g29618094473603_cont_9to1_1720_19_alg».proof.Proof.TcBlocks
import proofs.«205036_g29618094473603_cont_9to1_1720_19_alg».proof.Proof.TcFold

noncomputable section

namespace Cert.KernelIdeal.TcRegions

open Cert.KernelIdeal Cert.KernelIdeal.Gen Cert.KernelIdeal.TcPure
open Cert.KernelIdeal.Launch (dr)
open Idealize.ShloMosaic Idealize.ShloMosaic.TcCoe Idealize.ShloMosaic.ValueIdx
open Cert.Spec Cert.KSpec

/-- Block k of the row kernel's grid as a grid point. -/
def blkAt (k : Fin 55) : Fin cfg1.N := ⟨k.val, lt_of_lt_of_eq k.isLt (show cfg1.N = 55 from N_1).symm⟩

section

variable (Vv : Valuation τ sig (Elt Ideal)) (p t : SRows.Idx → EReal) (f : SN.Idx → BitVec 1) (b : SN.Idx → BitVec 32)

theorem R0_numTC
    (hp : ∀ (i : Fin 320000) (d : Fin 128), Vv (dr main_arg0) (ix2 i d) = p (ix2 i d))
    (ht : ∀ (i : Fin 320000) (d : Fin 128), Vv (dr main_arg1) (ix2 i d) = t (ix2 i d))
    (hB : ∀ (k : Fin 55) (r : Fin 2560), Vv (dr main_v2) (ix3 k (0 : Fin 1) r) = b (ix1 (rowTC k r)))
    (hFl : ∀ (k : Fin 55) (r : Fin 2560), Vv (dr main_v4) (ix3 k (0 : Fin 1) r) = fl f (rowTC k r)) (s : Fin 64) :
    R0 Vv (dr main_v6_0) (ix1 s) = numTC p t f b s := by
  rw [R0_v6_0]
  exact num_of_steps_eq_numTC p t f b
    (fun k => iblk1 (VW fun _ => Vv) d0 0 (blkAt k)) (fun k => iblk1 (VW fun _ => Vv) d0 1 (blkAt k))
    (fun k => iblk1 (VW fun _ => Vv) d0 2 (blkAt k)) (fun k => iblk1 (VW fun _ => Vv) d0 3 (blkAt k))
    (fun k r d => (iblk1_0_apply (VW fun _ => Vv) d0 (blkAt k) r d).trans (hp (rowTC k r) d))
    (fun k r d => (iblk1_1_apply (VW fun _ => Vv) d0 (blkAt k) r d).trans (ht (rowTC k r) d))
    (fun k r => (iblk1_2_apply (VW fun _ => Vv) d0 (blkAt k) r).trans (hB k r))
    (fun k r => (iblk1_3_apply (VW fun _ => Vv) d0 (blkAt k) r).trans (hFl k r))
    (fun n => (accSeq (VW fun _ => Vv) d0 n).1) rfl
    (fun k h => congrArg Prod.fst (accSeq_succ (VW fun _ => Vv) d0 k (lt_of_lt_of_eq h (show cfg1.N = 55 from N_1).symm))) s

theorem R0_cntTC
    (hB : ∀ (k : Fin 55) (r : Fin 2560), Vv (dr main_v2) (ix3 k (0 : Fin 1) r) = b (ix1 (rowTC k r)))
    (hFl : ∀ (k : Fin 55) (r : Fin 2560), Vv (dr main_v4) (ix3 k (0 : Fin 1) r) = fl f (rowTC k r)) (s : Fin 64) :
    R0 Vv (dr main_v6_1) (ix1 s) = cntTC f b s := by
  rw [R0_v6_1]
  exact cnt_of_steps_eq_cntTC f b
    (fun k => iblk1 (VW fun _ => Vv) d0 2 (blkAt k)) (fun k => iblk1 (VW fun _ => Vv) d0 3 (blkAt k))
    (fun k r => (iblk1_2_apply (VW fun _ => Vv) d0 (blkAt k) r).trans (hB k r))
    (fun k r => (iblk1_3_apply (VW fun _ => Vv) d0 (blkAt k) r).trans (hFl k r))
    (fun n => (accSeq (VW fun _ => Vv) d0 n).2) rfl
    (fun k h => congrArg Prod.snd (accSeq_succ (VW fun _ => Vv) d0 k (lt_of_lt_of_eq h (show cfg1.N = 55 from N_1).symm))) s

end

end Cert.KernelIdeal.TcRegions

end
-- ==== Proof.HostGlue.lean ====
/-
  The host's two layout steps before the row body, read at an index.

  The host cuts the first 140800 entries out of a vector of 320000 and reshapes them to 55 x 1 x 2560: entry (k, 0, r)
  of the result has row-major position 2560 k + r among the 140800, and the cut starts at 0, so it is entry 2560 k + r
  of the whole vector — the row that the row body's block k holds at r. And the host's conversion of the flag bits to
  floats is, at the ideal instance, the flag as a number.
-/
import Idealize.ShloMosaic.Lib.ValueLayout
import proofs.«205036_g29618094473603_cont_9to1_1720_19_alg».proof.KernelIdeal
import proofs.«205036_g29618094473603_cont_9to1_1720_19_alg».proof.Proof.KSpec

noncomputable section

namespace Cert.KernelIdeal.HostGlue

open Idealize.ShloMosaic Idealize.ShloMosaic.ValueIdx Cert.KernelIdeal Cert.KernelIdeal.Facts₀ Cert.KernelIdeal.Facts

variable [Facts]

/-- The first 140800 entries of a vector of 320000, reshaped to 55 x 1 x 2560, read at (k, 0, r): entry 2560 k + r of the
    vector, whatever its element type. -/
theorem blocks_apply {α : Type} (x : S320000.Idx → α) (k : Fin 55) (r : Fin 2560) :
    shapeCast S55x1x2560 (extractStridedSlice S140800 ![0] x slices_S320000_S140800_0) shapeCasts_S140800_S55x1x2560
        (ix3 k (0 : Fin 1) r)
      = x (ix1 (Cert.KSpec.rowTC k r)) := by
  have hlt : k.val * 2560 + r.val < 140800 := by have := k.isLt; have := r.isLt; omega
  refine (shapeCast_apply _ shapeCasts_S140800_S55x1x2560 (ix3 k (0 : Fin 1) r)
    (ix1 (⟨k.val * 2560 + r.val, hlt⟩ : Fin 140800)) ?_).trans ?_
  · rw [Shape.rowMajor_val_one, Shape.rowMajor_val_three]
    show k.val * 2560 + r.val = (k.val * 1 + 0) * 2560 + r.val
    omega
  · refine extractStridedSlice_apply ![0] x slices_S320000_S140800_0 _ (ix1 (Cert.KSpec.rowTC k r)) (fun a => ?_)
    match a with
    | ⟨0, _⟩ =>
      show k.val * 2560 + r.val = 0 + (k.val * 2560 + r.val)
      omega

/-- The same for a vector of 32-bit words and for a float vector of any instance: the two forms the program meets. -/
theorem blocks_apply_i32 (x : IVec S320000 32) (k : Fin 55) (r : Fin 2560) :
    shapeCast S55x1x2560 (extractStridedSlice S140800 ![0] x slices_S320000_S140800_0) shapeCasts_S140800_S55x1x2560
        (ix3 k (0 : Fin 1) r)
      = x (ix1 (Cert.KSpec.rowTC k r)) := blocks_apply x k r

theorem blocks_apply_f32 {F : FTy → Type} (x : FVec F S320000 .f32) (k : Fin 55) (r : Fin 2560) :
    shapeCast S55x1x2560 (extractStridedSlice S140800 ![0] x slices_S320000_S140800_0) shapeCasts_S140800_S55x1x2560
        (ix3 k (0 : Fin 1) r)
      = x (ix1 (Cert.KSpec.rowTC k r)) := blocks_apply x k r

/-- The flag bits converted to floats, at the ideal instance: row i's flag as a number. -/
theorem flags_apply (f : IVec S320000 1) (i : Fin 320000) :
    (uitofp .f32 f : FVec Ideal S320000 .f32) (ix1 i) = Cert.Spec.fl f i := rfl

end Cert.KernelIdeal.HostGlue

end
-- ==== Proof.FinalI.lean ====
/-
  The idealized kernel's result is the specification of its arguments.

  The result is the reshape of the combine's 1 x 1 output; the combine reads the two output arrays of the SparseCore
  call, which hold the 32 tiles' tables, and the two results of the row region, which hold the TensorCore's
  accumulators; at the exact instance the tables are the closed form's tables, the accumulators the closed form's
  sums over rows 0 … 140799, and the combine of those is the specification (the algebra between the two
  arrangements of the sum).
-/
import proofs.«205036_g29618094473603_cont_9to1_1720_19_alg».proof.Proof.FinalG
import proofs.«205036_g29618094473603_cont_9to1_1720_19_alg».proof.Proof.TileValIdeal
import proofs.«205036_g29618094473603_cont_9to1_1720_19_alg».proof.Proof.KValue
import proofs.«205036_g29618094473603_cont_9to1_1720_19_alg».proof.Proof.TcClosed
import proofs.«205036_g29618094473603_cont_9to1_1720_19_alg».proof.Proof.HostGlue

noncomputable section

namespace Cert.KernelIdeal.Final

open Cert.KernelIdeal Cert.KernelIdeal.Tile Cert.KernelIdeal.Launch
open Cert.KernelIdeal.Facts₀ Cert.KernelIdeal.Facts
open Cert.KernelIdeal.TcRegions (R0 R1 R0_other R1_other R1_v7 R0_numTC R0_cntTC)
open Idealize.ShloMosaic Idealize.ShloMosaic.ValueIdx
open Idealize.ShloMosaic.SparseCore (S V T)
open Idealize.SL Idealize.SL.Sem
open Cert.Spec Cert.KSpec

variable [Cert.KernelIdeal.Facts]

variable (m : (ℓ : Loc nD τ sig) → Buf (Elt Ideal) ℓ)

/-- Every index of the scalar shape is the one index. -/
theorem idx0 (i : S_.Idx) : i = ix0 := funext fun a => a.elim0

theorem value (hb : HB m) (c : Dev nD) :
    Vfin m (Nf m hb) (Cf m hb) (R0 (F := Ideal)) (R1 (F := Ideal)) c (dr main_v8)
      = Cert.Spec.loss (m ((c.tc : Thread nD τ).loc main_arg0)) (m ((c.tc : Thread nD τ).loc main_arg1))
          (m ((c.tc : Thread nD τ).loc main_arg3)) (m ((c.tc : Thread nD τ).loc main_arg4)) := by
  obtain rfl : c = d0 := Subsingleton.elim _ _
  have hfl : ∀ i : Fin 320000, flOf m d0 (ix1 i) = Cert.Spec.fl (m ((d0.tc : Thread nD τ).loc main_arg3)) i := fun i => HostGlue.flags_apply _ i
  have hN : ∀ (w : Fin 32) (s : Fin 64) (l : Fin 16), (fill (Nf m hb) : FVec Ideal S32x64x16 .f32) (ix3 w s l)
      = tabNum (m (pLoc d0)) (m (tLoc d0)) (m ((d0.tc : Thread nD τ).loc main_arg3)) (m (bLoc d0)) w s l := fun w s l => by
    show Nf m hb w (ix2 s l) = _
    unfold Nf
    rw [tabN_eq_tabNum (LofW w) _ _ _ hb _ (m ((d0.tc : Thread nD τ).loc main_arg3)) hfl s l, wL_LofW]
  have hC : ∀ (w : Fin 32) (s : Fin 64) (l : Fin 16), (fill (Cf m hb) : FVec Ideal S32x64x16 .f32) (ix3 w s l)
      = tabCnt (m ((d0.tc : Thread nD τ).loc main_arg3)) (m (bLoc d0)) w s l := fun w s l => by
    show Cf m hb w (ix2 s l) = _
    unfold Cf
    rw [tabC_eq_tabCnt (LofW w) _ hb _ (m ((d0.tc : Thread nD τ).loc main_arg3)) hfl s l, wL_LofW]
  have hp : ∀ (i : Fin 320000) (d : Fin 128), Vc m (Nf m hb) (Cf m hb) d0 (dr main_arg0) (ix2 i d) = m (pLoc d0) (ix2 i d) := fun i d => by
    rw [Vc_other m _ _ d0 (dr main_arg0) (by decide) (by decide), V5_arg0]
  have ht : ∀ (i : Fin 320000) (d : Fin 128), Vc m (Nf m hb) (Cf m hb) d0 (dr main_arg1) (ix2 i d) = m (tLoc d0) (ix2 i d) := fun i d => by
    rw [Vc_other m _ _ d0 (dr main_arg1) (by decide) (by decide), V5_arg1]
  have hB : ∀ (k : Fin 55) (r : Fin 2560), Vc m (Nf m hb) (Cf m hb) d0 (dr main_v2) (ix3 k (0 : Fin 1) r) = m (bLoc d0) (ix1 (rowTC k r)) := fun k r => by
    rw [Vc_other m _ _ d0 (dr main_v2) (by decide) (by decide), V5_v2]
    exact HostGlue.blocks_apply_i32 _ k r
  have hFl : ∀ (k : Fin 55) (r : Fin 2560), Vc m (Nf m hb) (Cf m hb) d0 (dr main_v4) (ix3 k (0 : Fin 1) r) = fl (m ((d0.tc : Thread nD τ).loc main_arg3)) (rowTC k r) := fun k r => by
    rw [Vc_other m _ _ d0 (dr main_v4) (by decide) (by decide), V5_v4]
    exact (HostGlue.blocks_apply_f32 (F := Ideal) _ k r).trans (hfl _)
  rw [Vfin_v8, R1_v7, R0_other _ (dr main_v5_0) (by decide) (by decide), R0_other _ (dr main_v5_1) (by decide) (by decide), Vc_n, Vc_c,
    kernel_value (m (pLoc d0)) (m (tLoc d0)) (m ((d0.tc : Thread nD τ).loc main_arg3)) (m (bLoc d0)) _ _ _ _ hN hC
      (fun s => R0_numTC _ _ _ _ _ hp ht hB hFl s) (fun s => R0_cntTC _ _ _ hB hFl s)]
  funext i
  rw [idx0 i]
  rfl

end Cert.KernelIdeal.Final

end
-- ==== Proof.PreRange.lean ====
/-
  The precondition read back at one row: every segment id lies between 0 and 63.

  The precondition's printed function is a conjunction of five "for all entries" tests; the last says of every entry w
  of the segment-id array that 0 <= w and w <= 63 as signed words. A conjunction of bits is 1 only if both are; a
  reduction by "and" into a single bit is 1 only if every entry is; and a signed word between 0 and 63 is, read
  unsigned, below 64. So under the precondition each segment id names one of the 64 rows of a table.
-/
import proofs.«205036_g29618094473603_cont_9to1_1720_19_alg».proof.Pre_input_domain
import proofs.«205036_g29618094473603_cont_9to1_1720_19_alg».proof.Proof.Gen.Pre_input_domain
import Idealize.ShloMosaic.Lib.ReduceAll

noncomputable section

namespace Cert.Pre_input_domain.Range

open Idealize.ShloMosaic Cert.Pre_input_domain

variable {F : FTy → Type} [FloatOps F]

/-- The shape of a scalar has one index. -/
instance : Subsingleton S_.Idx := ⟨fun a b => funext fun d => d.elim0⟩

theorem ofBool_eq_one (b : Bool) : BitVec.ofBool b = 1#1 ↔ b = true := by cases b <;> decide
theorem and1 : ∀ (a b : BitVec 1), IntOp.andi a b = 1#1 ↔ a = 1#1 ∧ b = 1#1 := by decide

/-- A word between 0 and 63 signed is below 64 unsigned. -/
theorem toNat_lt_64 (w : BitVec 32) (h0 : IntOp.cmpi .sge w (0#32) = 1#1) (h1 : IntOp.cmpi .sle w (63#32) = 1#1) : w.toNat < 64 := by
  unfold IntOp.cmpi at h0 h1
  rw [ofBool_eq_one] at h0 h1
  simp only [BitVec.sle, decide_eq_true_eq] at h0 h1
  have h32 := w.isLt
  unfold BitVec.toInt at h0 h1
  split at h1 <;> simp at h0 h1 <;> omega

/-- Under the precondition every segment id is below 64. -/
theorem bidx_lt [Facts] (a0 a1 : FVec F S320000x128 .f32) (a2 : IVec S64 32) (a3 : IVec S320000 1) (a4 : IVec S320000 32)
    (a5 : FVec F S1001 .f32) (h : fn (F := F) a0 a1 a2 a3 a4 a5 = fun _ => 1#1) (i : S320000.Idx) : (a4 i).toNat < 64 := by
  have e := congrFun h (fun d => d.elim0)
  unfold fn fn_part1 at e
  simp only [andi] at e
  rw [and1] at e
  obtain ⟨-, e26⟩ := e
  have hi := Host.reduce_andi_all _ _ _ _ _ e26 i
  simp only [andi, cmpi, broadcastInDim, constantI] at hi
  rw [and1] at hi
  exact toNat_lt_64 _ hi.1 hi.2

end Cert.Pre_input_domain.Range

end
-- ==== Proof.Bits.Common.lean ====
/-
  The program as the launch theorem for SparseCore programs sees it: its one SparseCore call's configuration, the body
  table under it (the tile kernel and the two TensorCore pipelines), and the side conditions of the launch protocol's
  four semaphores, each decided from the printed signature.
-/
import proofs.«205036_g29618094473603_cont_9to1_1720_19_alg».proof.Kernel
import Idealize.ShloMosaic.Lib.SparseCore.Launch

noncomputable section

namespace Cert.Kernel.Launch

open Cert.Kernel
open Idealize.ShloMosaic
open Idealize.ShloMosaic.SparseCore (S V T)
open Idealize.ShloMosaic.SparseCore.Cfg (HIx Pay)
open Idealize.SL Idealize.SL.Sem

variable {F : FTy → Type} [Cert.Kernel.Facts]

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Cert.Kernel.Launch

end
-- ==== Proof.Bits.TileRes.lean ====
/-
  What one tile of the SparseCore kernel is handed and hands back, and how the two output arrays split among the tiles.

  The kernel's four inputs (pred, tgt, the segment ids, the flags as floats) are read by all 32 tiles at once and
  written by none: a tile holds a read share of each, whole. Its two outputs are 32 x 64 x 16 arrays of which tile w
  writes block w (all of axes 1 and 2 at coordinate w of axis 0) and nothing else: a tile holds its block of each, in
  full. The 32 blocks are pairwise disjoint and cover the array, so the array held whole is the blocks held apart, and
  blocks held apart at any contents join into the array held whole at the contents that agree with each on its block.
-/
import proofs.«205036_g29618094473603_cont_9to1_1720_19_alg».proof.Kernel
import Idealize.ShloMosaic.Lib.SparseCore.Launch
import Idealize.ShloMosaic.Lib.Transfers
import Idealize.ShloMosaic.Lib.ValueIdx

noncomputable section

namespace Cert.Kernel.Tile

open Cert.Kernel
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} {UU : Type} [URA UU]

local notation "𝕄" => MT nD τ sig (HIx 1) (Elt F) ℕ UU ℕ

/-! ## The arrays, as the TensorCore names them -/

abbrev pLoc (d : Dev nD) : Loc nD τ sig := (SparseCore.T d).loc main_arg0
abbrev tLoc (d : Dev nD) : Loc nD τ sig := (SparseCore.T d).loc main_arg1
abbrev bLoc (d : Dev nD) : Loc nD τ sig := (SparseCore.T d).loc main_arg4
abbrev fLoc (d : Dev nD) : Loc nD τ sig := (SparseCore.T d).loc main_v0
abbrev nLoc (d : Dev nD) : Loc nD τ sig := (SparseCore.T d).loc main_v5_0
abbrev cLoc (d : Dev nD) : Loc nD τ sig := (SparseCore.T d).loc main_v5_1

/-! ## The 32 blocks of an output array -/

theorem hdiv : 32 ∣ S32x64x16.size 0 := ⟨1, rfl⟩

/-- Block `w`: coordinate `w` on axis 0, everything on axes 1 and 2. -/
abbrev blk (w : Fin 32) : Rect S32x64x16 := Rect.part (s := S32x64x16) (a₀ := 0) hdiv w
abbrev blkSet (w : Fin 32) : Finset S32x64x16.Idx := (blk w).set

theorem blks_disjoint : ∀ i ∈ (Finset.univ : Finset (Fin 32)), ∀ j ∈ (Finset.univ : Finset (Fin 32)), i ≠ j → Disjoint (blkSet i) (blkSet j) :=
  fun _ _ _ _ h => Rect.part_disjoint hdiv h
theorem blks_cover : (Finset.univ : Finset (Fin 32)).biUnion blkSet = Finset.univ := Rect.biUnion_part hdiv

/-- The tile number of subcore `i` of SparseCore `c`. -/
def tileNo (c : Fin 2) (i : Fin 16) : Fin 32 := ⟨16 * c.val + i.val, by omega⟩

/-- An output array held whole is its 32 blocks held apart (same contents). -/
theorem nPts_blocks (d : Dev nD) (f : Buf (Elt F) (nLoc d)) :
    (nLoc d ↦{fullShare} f : sProp 𝕄) = bigSep Finset.univ fun w : Fin 32 => nLoc d ↦[blkSet w]{fullShare} f := by
  rw [← pointsTo_biUnion Finset.univ (ℓ := nLoc d) blkSet blks_disjoint, blks_cover]; try rfl
theorem cPts_blocks (d : Dev nD) (f : Buf (Elt F) (cLoc d)) :
    (cLoc d ↦{fullShare} f : sProp 𝕄) = bigSep Finset.univ fun w : Fin 32 => cLoc d ↦[blkSet w]{fullShare} f := by
  rw [← pointsTo_biUnion Finset.univ (ℓ := cLoc d) blkSet blks_disjoint, blks_cover]; try rfl

/-! ## A tile's resources -/

/-- The four inputs, each whole at share `q`. -/
def inShares (q : PosShare TreeShare) (d : Dev nD) (p : Buf (Elt F) (pLoc d)) (t : Buf (Elt F) (tLoc d)) (b : Buf (Elt F) (bLoc d))
    (fl : Buf (Elt F) (fLoc d)) : sProp 𝕄 :=
  iprop((pLoc d ↦{q} p) ∗ (tLoc d ↦{q} t) ∗ (bLoc d ↦{q} b) ∗ (fLoc d ↦{q} fl))

/-- What tile `w` is handed: its read shares of the inputs, and block `w` of each output at whatever it holds. -/
def goRes (q : PosShare TreeShare) (d : Dev nD) (w : Fin 32) (p : Buf (Elt F) (pLoc d)) (t : Buf (Elt F) (tLoc d))
    (b : Buf (Elt F) (bLoc d)) (fl : Buf (Elt F) (fLoc d)) : sProp 𝕄 :=
  iprop(inShares q d p t b fl ∗ (∃ f, nLoc d ↦[blkSet w]{fullShare} f) ∗ (∃ f, cLoc d ↦[blkSet w]{fullShare} f))

/-- An output array's contents hold table `N` on block `w`. -/
def HoldsOn (w : Fin 32) (N : FVec F S64x16 .f32) (f : S32x64x16.Idx → F .f32) : Prop :=
  ∀ (s : Fin 64) (l : Fin 16), f (ix3 w s l) = N (ix2 s l)

/-- What tile `w` hands back: the shares, and its two blocks holding the tables `N` and `C`. -/
def tdRes (q : PosShare TreeShare) (d : Dev nD) (w : Fin 32) (p : Buf (Elt F) (pLoc d)) (t : Buf (Elt F) (tLoc d))
    (b : Buf (Elt F) (bLoc d)) (fl : Buf (Elt F) (fLoc d)) (N C : FVec F S64x16 .f32) : sProp 𝕄 :=
  iprop(inShares q d p t b fl
    ∗ (∃ f : Buf (Elt F) (nLoc d), ⌜HoldsOn w N f⌝ ∗ nLoc d ↦[blkSet w]{fullShare} f)
    ∗ (∃ f : Buf (Elt F) (cLoc d), ⌜HoldsOn w C f⌝ ∗ cLoc d ↦[blkSet w]{fullShare} f))

end Cert.Kernel.Tile

end
-- ==== Proof.Bits.LaunchPay.lean ====
/-
  What the SparseCore call's handshakes carry, and how a SparseCore's share splits among its 16 tiles.

  The TensorCore hands each of the two SparseCores a read share of the four input arrays and the 16 blocks of each
  output array that its tiles write; the SparseCore's sequencer hands tile i a read share of its own share and block
  16 c + i of each output; the tiles hand back the same shares and their blocks holding their tables; the shares rejoin
  (a read share split into a remainder and sixteen tokens is the remainder and the tokens put together again).
-/
import proofs.«205036_g29618094473603_cont_9to1_1720_19_alg».proof.Proof.Bits.Common
import proofs.«205036_g29618094473603_cont_9to1_1720_19_alg».proof.Proof.Bits.TileRes
import Idealize.ShloMosaic.Lib.Pipeline.Kit

noncomputable section

namespace Cert.Kernel.Launch

open Cert.Kernel Cert.Kernel.Tile
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok pointsTo_toks_split pointsTo_toks_join)

variable {F : FTy → Type} [Cert.Kernel.Facts]

/-! ## The resource algebra: the handshakes' rounds, the pipelines' ghost state, the local copies' counters -/

abbrev UH : Type := URounds (GSem nD τ sig) ℕ
abbrev UU (UP : Type) [URA UP] : Type := UH × (UP × Counters)

variable {UP : Type} [URA UP]

local notation "𝕄" => MT nD τ sig (HIx 1) (Elt F) ℕ (UU UP) ℕ

abbrev EH : Emb UH (MT nD τ sig (HIx 1) (Elt F) ℕ (UU UP) ℕ) := embL

/-! ## Shares -/

/-- SparseCore `c`'s read share of an input, and tile `i`'s share of that. -/
abbrev qCore (c : Fin 2) : PosShare TreeShare := shareTok fullShare 2 c
abbrev qTile (c : Fin 2) (i : Fin 16) : PosShare TreeShare := shareTok (qCore c) 16 i

/-- The 32 tables laid out as one array: block `w` holds table `w`. -/
def fill (Tf : Fin 32 → FVec F S64x16 .f32) : S32x64x16.Idx → F .f32 :=
  fun j => Tf (Fin.cast rfl (j 0)) (ValueIdx.ix2 (Fin.cast rfl (j 1)) (Fin.cast rfl (j 2)))

/-- Contents that hold table `w` on block `w` agree on that block with the 32 tables laid out as one array. -/
theorem holds_fill (w : Fin 32) (Tf : Fin 32 → FVec F S64x16 .f32) (f : S32x64x16.Idx → F .f32) (h : HoldsOn w (Tf w) f)
    (j : S32x64x16.Idx) (hj : j ∈ blkSet w) : f j = fill Tf j := by
  have h0 : (j 0).val = w.val := by
    have := (Rect.mem_set_unit.mp hj) 0
    simp only [Shape.partIx, Shape.partSize, ↓reduceIte] at this
    have h1 : (![32, 64, 16] : Fin 3 → ℕ) 0 / 32 = 1 := by decide
    simp only [h1] at this
    omega
  have e : j = ValueIdx.ix3 w (Fin.cast rfl (j 1)) (Fin.cast rfl (j 2)) := by
    funext a
    match a with
    | ⟨0, _⟩ => exact Fin.ext h0
    | ⟨1, _⟩ => rfl
    | ⟨2, _⟩ => rfl
  have hw : (Fin.cast rfl (j 0) : Fin 32) = w := Fin.ext h0
  unfold fill
  rw [hw]
  conv_lhs => rw [e]
  exact h _ _

section Pay

variable (d : Dev nD) (p : Buf (Elt F) (pLoc d)) (t : Buf (Elt F) (tLoc d)) (b : Buf (Elt F) (bLoc d)) (fl : Buf (Elt F) (fLoc d))
-- the tables the 32 tiles leave, as given functions of the tile number
variable (Nf Cf : Fin 32 → FVec F S64x16 .f32)

/-- A SparseCore's 16 blocks of the two outputs, at whatever they hold. -/
def outBlocks (c : Fin 2) : sProp 𝕄 :=
  bigSep Finset.univ fun i : Fin 16 => iprop((∃ f, nLoc d ↦[blkSet (tileNo c i)]{fullShare} f) ∗ (∃ f, cLoc d ↦[blkSet (tileNo c i)]{fullShare} f))

/-- The same blocks, holding the tiles' tables. -/
def outTables (c : Fin 2) : sProp 𝕄 :=
  bigSep Finset.univ fun i : Fin 16 => iprop((nLoc d ↦[blkSet (tileNo c i)]{fullShare} (fill Nf : Buf (Elt F) (nLoc d)))
    ∗ (cLoc d ↦[blkSet (tileNo c i)]{fullShare} (fill Cf : Buf (Elt F) (cLoc d))))

def stRes (c : Fin 2) : sProp 𝕄 := iprop(inShares (qCore c) d p t b fl ∗ outBlocks d c)
def dnRes (c : Fin 2) : sProp 𝕄 := iprop(inShares (qCore c) d p t b fl ∗ outTables d Nf Cf c)
def goTile (c : Fin 2) (i : Fin 16) : sProp 𝕄 :=
  iprop(inShares (qTile c i) d p t b fl ∗ (∃ f, nLoc d ↦[blkSet (tileNo c i)]{fullShare} f) ∗ (∃ f, cLoc d ↦[blkSet (tileNo c i)]{fullShare} f))
def tdTile (c : Fin 2) (i : Fin 16) : sProp 𝕄 :=
  iprop(inShares (qTile c i) d p t b fl ∗ (nLoc d ↦[blkSet (tileNo c i)]{fullShare} (fill Nf : Buf (Elt F) (nLoc d)))
    ∗ (cLoc d ↦[blkSet (tileNo c i)]{fullShare} (fill Cf : Buf (Elt F) (cLoc d))))

/-- A tile's result in the tile kernel's own terms is its result in these: contents that hold table `w` on block `w`
    agree there with the laid-out array. -/
theorem tdRes_tdTile (c : Fin 2) (i : Fin 16) :
    (tdRes (qTile c i) d (tileNo c i) p t b fl (Nf (tileNo c i)) (Cf (tileNo c i)) : sProp 𝕄) ⊢ tdTile d p t b fl Nf Cf c i := by
  unfold tdRes tdTile
  iintro ⟨Hs, ⟨%fn, %hn, Hn⟩, ⟨%fc, %hc, Hc⟩⟩
  isplitl [Hs]; · iexact Hs
  isplitl [Hn]
  · iapply (Entails.of_eq (pointsTo_congr (f := fn) (g := (fill Nf : Buf (Elt F) (nLoc d))) (fun j hj => holds_fill (tileNo c i) Nf fn hn j hj))); iexact Hn
  · iapply (Entails.of_eq (pointsTo_congr (f := fc) (g := (fill Cf : Buf (Elt F) (cLoc d))) (fun j hj => holds_fill (tileNo c i) Cf fc hc j hj))); iexact Hc

theorem goTile_eq (c : Fin 2) (i : Fin 16) : (goTile d p t b fl c i : sProp 𝕄) = goRes (qTile c i) d (tileNo c i) p t b fl := rfl

/-- One input array's share, split among the 16 tiles and back. -/
theorem share_split16 {ℓ : Loc nD τ sig} (q : PosShare TreeShare) (f : Buf (Elt F) ℓ) :
    (ℓ ↦{q} f : sProp 𝕄) ⊢ iprop((ℓ ↦{Transfers.shareDrop q 16} f) ∗ bigSep Finset.univ (fun i : Fin 16 => ℓ ↦{shareTok q 16 i} f)) :=
  pointsTo_toks_split q 16
theorem share_join16 {ℓ : Loc nD τ sig} (q : PosShare TreeShare) (f : Buf (Elt F) ℓ) :
    iprop((ℓ ↦{Transfers.shareDrop q 16} f) ∗ bigSep Finset.univ (fun i : Fin 16 => ℓ ↦{shareTok q 16 i} f)) ⊢ (ℓ ↦{q} f : sProp 𝕄) :=
  pointsTo_toks_join q 16

end Pay

end Cert.Kernel.Launch

end
-- ==== Proof.Bits.LaunchSplit.lean ====
/-
  The call's payloads as a record, and the split of a SparseCore's payload among its tiles.

  Each of the four inputs held at the SparseCore's share is a remainder and sixteen tokens, one per tile; with its two
  blocks a token set is a tile's payload. Coming back, the sixteen token sets and the remainders are the SparseCore's
  shares again, and the tiles' blocks, holding their tables, are its 16 blocks of each output.
-/
import proofs.«205036_g29618094473603_cont_9to1_1720_19_alg».proof.Proof.Bits.LaunchPay

noncomputable section

namespace Cert.Kernel.Launch

open Cert.Kernel Cert.Kernel.Tile
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [Cert.Kernel.Facts] {UP : Type} [URA UP]

local notation "𝕄" => MT nD τ sig (HIx 1) (Elt F) ℕ (UU UP) ℕ

section Split

variable (d : Dev nD) (p : Buf (Elt F) (pLoc d)) (t : Buf (Elt F) (tLoc d)) (b : Buf (Elt F) (bLoc d)) (fl : Buf (Elt F) (fLoc d))
variable (Nf Cf : Fin 32 → FVec F S64x16 .f32)

theorem vecSplit_core (c : Fin 2) :
    (stRes (UP := UP) d p t b fl c : sProp 𝕄) ⊢ |={Set.univ}=> iprop((bigSep Finset.univ fun i : Fin 16 => goTile (UP := UP) d p t b fl c i)
      ∗ ((bigSep Finset.univ fun i : Fin 16 => tdTile (UP := UP) d p t b fl Nf Cf c i) -∗ dnRes (UP := UP) d p t b fl Nf Cf c)) := by
  unfold stRes dnRes goTile tdTile inShares outBlocks outTables
  simp only [bigSep_sep']
  iintro ⟨⟨Hp, Ht, Hb, Hf⟩, Hn, Hc⟩
  ihave Hp' := (share_split16 (UP := UP) (qCore c) p) $$ Hp
  icases Hp' with ⟨Rp, Tp⟩
  ihave Ht' := (share_split16 (UP := UP) (qCore c) t) $$ Ht
  icases Ht' with ⟨Rt, Tt⟩
  ihave Hb' := (share_split16 (UP := UP) (qCore c) b) $$ Hb
  icases Hb' with ⟨Rb, Tb⟩
  ihave Hf' := (share_split16 (UP := UP) (qCore c) fl) $$ Hf
  icases Hf' with ⟨Rf, Tf⟩
  imodintro
  isplitl [Tp Tt Tb Tf Hn Hc]
  · isplitl [Tp Tt Tb Tf]
    · isplitl [Tp]; · iexact Tp
      isplitl [Tt]; · iexact Tt
      isplitl [Tb]; · iexact Tb
      iexact Tf
    isplitl [Hn]; · iexact Hn
    iexact Hc
  iintro ⟨⟨Tp, Tt, Tb, Tf⟩, Htab⟩
  isplitl [Rp Tp Rt Tt Rb Tb Rf Tf]
  · isplitl [Rp Tp]
    · iapply (share_join16 (UP := UP) (qCore c) p); isplitl [Rp]; · iexact Rp
      iexact Tp
    isplitl [Rt Tt]
    · iapply (share_join16 (UP := UP) (qCore c) t); isplitl [Rt]; · iexact Rt
      iexact Tt
    isplitl [Rb Tb]
    · iapply (share_join16 (UP := UP) (qCore c) b); isplitl [Rb]; · iexact Rb
      iexact Tb
    iapply (share_join16 (UP := UP) (qCore c) fl); isplitl [Rf]; · iexact Rf
    iexact Tf
  iexact Htab

end Split

end Cert.Kernel.Launch

end
-- ==== Proof.Bits.TcAlg.lean ====
/-
  The ghost state the program's proof is carried in, and the two TensorCore pipelines' place in it.

  Three protocols run side by side and never meet: the handshakes between the TensorCore, the sequencers and the
  tiles (rounds whose duties are numbered), the staging cells of the two TensorCore pipelines (rounds whose duties
  are unnamed: one transfer per round), and the tiles' local copies (plain counters). The algebra is their product;
  each protocol owns its factor through an embedding, and the launch element is the triple of their launch elements.
-/
import proofs.«205036_g29618094473603_cont_9to1_1720_19_alg».proof.Proof.Gen.Kernel.Launch
import proofs.«205036_g29618094473603_cont_9to1_1720_19_alg».proof.Proof.Gen.Kernel.Points
import Idealize.ShloMosaic.Lib.SparseCore.Launch
import Idealize.ShloMosaic.Lib.Pipeline.Regions
import Idealize.ShloMosaic.Lib.Pipeline.Kit
import Idealize.ShloMosaic.Lib.Transfers
import Idealize.ShloMosaic.Lib.Tactic

noncomputable section

namespace Cert.Kernel.TcRegions

open Cert.Kernel Cert.Kernel.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem and the region rule see it -/

/-- The labels of the pipelines' layer: the kernels' labels and, per pallas_call, its region and pipeline. -/
abbrev ΛP : Labels := Pipeline.Sig Λ₀ (Fin 2) fun p => (pcfgs (F := F) p).Adm
/-- The SparseCore calls. -/
abbrev K : SparseCore.Cfg τ sig (ΛP (F := F)) 1 := sc (F := F)
/-- The body table under the SparseCore layer. -/
abbrev D [FloatOps F] : Defs nD τ sig (Elt F) (ΛP (F := F)) := Pipeline.defs pcfgs defs₀
/-- No kernel body has a loop: no variants of the kernels' own. -/
abbrev 𝒱₀ : Variants := Variants.none
abbrev 𝒱 : Variants := 𝒱₀.lift
/-- Neither pipeline has a prefetched table: the one admissible contents. -/
abbrev adm : (p : Fin 2) → (pcfgs (F := F) p).Adm := fun p => (cfgs p).toPCfg_adm

/-! ## The resource algebra -/

/-- The handshakes' rounds (duties numbered). -/
abbrev UH : Type := URounds (GSem nD τ sig) ℕ
/-- The pipelines' staging cells' rounds (duties unnamed). -/
abbrev UP : Type := UR sig nD τ
/-- Handshakes, staging cells, the tiles' local copies. -/
abbrev UU : Type := UH × (UP × Counters)

local notation "𝕄" => MT nD τ sig (HIx 1) (Elt F) ℕ UU ℕ

/-- The handshakes' factor. -/
abbrev EH : Emb UH (MT nD τ sig (HIx 1) (Elt F) ℕ UU ℕ) := embL
/-- The staging cells' factor: the left of the right. -/
abbrev EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP embR; infer_instance

/-- The staging cells of both pipelines are pairwise distinct, in the region rule's spelling. -/
theorem phinj : Function.Injective (Pipeline.cellOf (nD := nD) (τ := τ) (Pipeline.pin (pcfgs (F := F)) adm)) := cellOf_inj

/-- The launch element of the staging cells' factor: every cell unscheduled at round 0, one duty token per transfer
    either pipeline will issue. -/
def uP₀ : UP := initOf (Pipeline.cells (nD := nD) (τ := τ) cfgs cellOf_inj) (Pipeline.launchToks (nD := nD) (τ := τ) cfgs cellOf_inj)

/-- What the TensorCore of device `c` is dealt for the two pipelines: per pipeline, its cells' launch state and
    its duty tokens. -/
def pipesGhost (c : Dev nD) : sProp 𝕄 :=
  bigSep (Finset.univ : Finset (Fin 2)) fun p => iprop(Pipeline.cellsGhost (nD := nD) (τ := τ) cfgs (EP (F := F)) p c ∗ Pipeline.toksInit (nD := nD) (τ := τ) cfgs (EP (F := F)) p c)

/-- Funding: the staging cells' launch element pays every device's `pipesGhost`. -/
theorem fund_pipes : (BI.own ((EP (F := F)) uP₀) : sProp 𝕄) ⊢ iprop(|==> bigSep Finset.univ fun c : Dev nD => pipesGhost (F := F) c) := by
  unfold uP₀ pipesGhost
  iintro Hu
  imod (Pipeline.fund_ghost (nD := nD) (τ := τ) cfgs (EP (F := F)) cellOf_inj) $$ Hu with ⟨Hg, Ht⟩
  imodintro
  simp only [bigSep_sep']
  isplitl [Hg] <;> iassumption

/-- A launch element `(h, (p, k))` of the product splits into its three owners. -/
theorem ownU_triple (h : UH) (p : UP) (k : Counters) :
    (ownU ((h, (p, k)) : UU) : sProp 𝕄) ⊢ iprop(BI.own ((EH (F := F)) h) ∗ BI.own ((EP (F := F)) p)
      ∗ BI.own (((Emb.inr : Emb Counters (UP × Counters)).trans (embR : Emb (UP × Counters) (MT nD τ sig (HIx 1) (Elt F) ℕ UU ℕ))) k)) := by
  iintro Hu
  ihave H := (ownU_pair (nD := nD) (τ := τ) (sig := sig) (Ix := HIx 1) (Val := Elt F) (Name := ℕ) (Lvl := ℕ) h (p, k)) $$ Hu
  icases H with ⟨Hh, Hr⟩
  isplitl [Hh]; · iexact Hh
  iapply (own_pair_emb (embR : Emb (UP × Counters) (MT nD τ sig (HIx 1) (Elt F) ℕ UU ℕ)) p k)
  iexact Hr

end Cert.Kernel.TcRegions

end
-- ==== Proof.Bits.LaunchP.lean ====
/-
  The launch theorem's inputs for the SparseCore call: the payload record, the split among the tiles, the launch
  element of the ghost state, and the tile's obligation reduced to the tile kernel's own specification.
-/
import proofs.«205036_g29618094473603_cont_9to1_1720_19_alg».proof.Proof.Bits.LaunchSplit
import proofs.«205036_g29618094473603_cont_9to1_1720_19_alg».proof.Proof.Bits.TcAlg

noncomputable section

namespace Cert.Kernel.Launch

open Cert.Kernel Cert.Kernel.Tile
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.TcRegions (UP EP uP₀ pipesGhost fund_pipes ownU_triple)

variable {F : FTy → Type} [FloatOps F] [Cert.Kernel.Facts]

local notation "𝕄" => MT nD τ sig (HIx 1) (Elt F) ℕ (UU UP) ℕ

variable (m : (ℓ : Loc nD τ sig) → Buf (Elt F) ℓ)
variable (Nf Cf : Fin 32 → FVec F S64x16 .f32)

/-- The flags as floats: what @main's first operation leaves in `main_v0`. -/
def flOf (d : Dev nD) : Buf (Elt F) (fLoc d) :=
  (uitofp .f32 : (⟨S320000, .i1⟩ : BufTy).Contents (Elt F) → (⟨S320000, .f32⟩ : BufTy).Contents (Elt F)) (m ((SparseCore.T d).loc main_arg3))

instance stRes_storable (d : Dev nD) (p t b fl) (c : Fin 2) : BI.Storable (upEmb : UEmb _ 𝕄) (stRes (UP := UP) d p t b fl c) := by
  unfold stRes inShares outBlocks; infer_instance
instance dnRes_storable (d : Dev nD) (p t b fl) (c : Fin 2) : BI.Storable (upEmb : UEmb _ 𝕄) (dnRes (UP := UP) d p t b fl Nf Cf c) := by
  unfold dnRes inShares outTables; infer_instance
instance goTile_storable (d : Dev nD) (p t b fl) (c : Fin 2) (i : Fin 16) : BI.Storable (upEmb : UEmb _ 𝕄) (goTile (UP := UP) d p t b fl c i) := by
  unfold goTile inShares; infer_instance
instance tdTile_storable (d : Dev nD) (p t b fl) (c : Fin 2) (i : Fin 16) : BI.Storable (upEmb : UEmb _ 𝕄) (tdTile (UP := UP) d p t b fl Nf Cf c i) := by
  unfold tdTile inShares; infer_instance

/-- The one call's payloads. -/
def P : (K (F := F)).Pay (nD := nD) (Val := Elt F) (Name := ℕ) (U := UU UP) where
  st := fun q d c => match q with | 0 => stRes (UP := UP) d (m (pLoc d)) (m (tLoc d)) (m (bLoc d)) (flOf m d) (Fin.cast nCore_zero c)
  dn := fun q d c => match q with | 0 => dnRes (UP := UP) d (m (pLoc d)) (m (tLoc d)) (m (bLoc d)) (flOf m d) Nf Cf (Fin.cast nCore_zero c)
  go := fun q d c i => match q with
    | 0 => goTile (UP := UP) d (m (pLoc d)) (m (tLoc d)) (m (bLoc d)) (flOf m d) (Fin.cast nCore_zero c) (Fin.cast nSub_zero i)
  td := fun q d c i => match q with
    | 0 => tdTile (UP := UP) d (m (pLoc d)) (m (tLoc d)) (m (bLoc d)) (flOf m d) Nf Cf (Fin.cast nCore_zero c) (Fin.cast nSub_zero i)
  x := fun _ _ => iprop(emp)

instance P_storable : (P (F := F) m Nf Cf).IsStorable where
  st q d c := match q with | 0 => stRes_storable d _ _ _ _ _
  dn q d c := match q with | 0 => dnRes_storable Nf Cf d _ _ _ _ _
  go q d c i := match q with | 0 => goTile_storable d _ _ _ _ _ _
  td q d c i := match q with | 0 => tdTile_storable Nf Cf d _ _ _ _ _ _

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m Nf Cf) 0 := by
  intro d c
  show (stRes (UP := UP) d (m (pLoc d)) (m (tLoc d)) (m (bLoc d)) (flOf m d) (Fin.cast nCore_zero c) : sProp 𝕄) ⊢ |={Set.univ}=> iprop(
      (bigSep Finset.univ fun i : Fin ((K (F := F)).nSub 0) =>
        goTile (UP := UP) d (m (pLoc d)) (m (tLoc d)) (m (bLoc d)) (flOf m d) (Fin.cast nCore_zero c) (Fin.cast nSub_zero i))
      ∗ ((bigSep Finset.univ fun i : Fin ((K (F := F)).nSub 0) =>
          tdTile (UP := UP) d (m (pLoc d)) (m (tLoc d)) (m (bLoc d)) (flOf m d) Nf Cf (Fin.cast nCore_zero c) (Fin.cast nSub_zero i))
          -∗ dnRes (UP := UP) d (m (pLoc d)) (m (tLoc d)) (m (bLoc d)) (flOf m d) Nf Cf (Fin.cast nCore_zero c)))
  rw [bigSep_tasks (F := F) (fun i => goTile (UP := UP) d (m (pLoc d)) (m (tLoc d)) (m (bLoc d)) (flOf m d) (Fin.cast nCore_zero c) i),
    bigSep_tasks (F := F) (fun i => tdTile (UP := UP) d (m (pLoc d)) (m (tLoc d)) (m (bLoc d)) (flOf m d) Nf Cf (Fin.cast nCore_zero c) i)]
  exact vecSplit_core d _ _ _ _ Nf Cf _

/-! ## The launch element: the handshakes' rounds, the pipelines' staging cells; the counters start empty -/

def u₀ : UU UP := (initOf (K (F := F)).hsCells (K (F := F)).hsToks, (uP₀, 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (UP := UP) (initOf (K (F := F)).hsCells (K (F := F)).hsToks)) ∗ (bigSep Finset.univ fun d : Dev nD => pipesGhost (F := F) d)
        ∗ bigSep Finset.univ fun thr : Thread nD τ => bigSep Finset.univ fun q : Fin 1 => (P m Nf Cf).x q thr) := by
  unfold u₀
  iintro Hu
  ihave H := (ownU_triple (F := F) _ _ _) $$ Hu
  icases H with ⟨HH, HP, -⟩
  imod (fund_pipes (F := F)) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Kernel.Launch

end
-- ==== Proof.Bits.LaunchCall.lean ====
/-
  The TensorCore's side of the SparseCore call: what it hands the two SparseCores and what comes back.

  Each input array held whole is a remainder and one read token per SparseCore; each output array held whole is its
  32 blocks, sixteen per SparseCore (tile 16 c + i is subcore i of SparseCore c). Coming back, the tokens and the
  remainder are the array held whole again, and the 32 blocks, holding the 32 tables, are the output array held whole
  at the tables laid out block by block.
-/
import proofs.«205036_g29618094473603_cont_9to1_1720_19_alg».proof.Proof.Bits.LaunchPay

noncomputable section

namespace Cert.Kernel.Launch

open Cert.Kernel Cert.Kernel.Tile
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok pointsTo_toks_split pointsTo_toks_join)

variable {F : FTy → Type} [Cert.Kernel.Facts] {UP : Type} [URA UP]

local notation "𝕄" => MT nD τ sig (HIx 1) (Elt F) ℕ (UU UP) ℕ

/-- The 32 tiles are the 16 subcores of each of the two SparseCores. -/
theorem bigSep_tiles (Φ : Fin 32 → sProp 𝕄) :
    bigSep (Finset.univ : Finset (Fin 32)) Φ = bigSep Finset.univ fun c : Fin 2 => bigSep Finset.univ fun i : Fin 16 => Φ (tileNo c i) := by
  have himg : (Finset.univ : Finset (Fin 32))
      = ((Finset.univ : Finset (Fin 2)) ×ˢ (Finset.univ : Finset (Fin 16))).image (fun x : Fin 2 × Fin 16 => tileNo x.1 x.2) := by decide
  have hinj : Set.InjOn (fun x : Fin 2 × Fin 16 => tileNo x.1 x.2) ↑((Finset.univ : Finset (Fin 2)) ×ˢ (Finset.univ : Finset (Fin 16))) := by
    rintro ⟨c, i⟩ - ⟨c', i'⟩ - h
    have h' : 16 * c.val + i.val = 16 * c'.val + i'.val := by
      have := congrArg Fin.val h
      simpa only [tileNo] using this
    have hi := i.isLt; have hi' := i'.isLt
    rw [Prod.mk.injEq]
    exact ⟨Fin.ext (by omega), Fin.ext (by omega)⟩
  rw [himg, SparseCore.bigSep_image_of_injOn hinj, SparseCore.bigSep_product]

section Call

variable (d : Dev nD) (p : Buf (Elt F) (pLoc d)) (t : Buf (Elt F) (tLoc d)) (b : Buf (Elt F) (bLoc d)) (fl : Buf (Elt F) (fLoc d))
variable (Nf Cf : Fin 32 → FVec F S64x16 .f32)

/-- What the TensorCore keeps of the inputs during the call. -/
def callRem : sProp 𝕄 :=
  iprop((pLoc d ↦{Transfers.shareDrop fullShare 2} p) ∗ (tLoc d ↦{Transfers.shareDrop fullShare 2} t)
    ∗ (bLoc d ↦{Transfers.shareDrop fullShare 2} b) ∗ (fLoc d ↦{Transfers.shareDrop fullShare 2} fl))

/-- A block held at given contents is a block held at some contents. -/
theorem nBlock_weaken (w : Fin 32) (fn : Buf (Elt F) (nLoc d)) :
    (nLoc d ↦[blkSet w]{fullShare} fn : sProp 𝕄) ⊢ iprop(∃ f, nLoc d ↦[blkSet w]{fullShare} f) := by
  iintro H; iexists fn; iexact H
theorem cBlock_weaken (w : Fin 32) (fc : Buf (Elt F) (cLoc d)) :
    (cLoc d ↦[blkSet w]{fullShare} fc : sProp 𝕄) ⊢ iprop(∃ f, cLoc d ↦[blkSet w]{fullShare} f) := by
  iintro H; iexists fc; iexact H
theorem nBlocks_weaken (fn : Buf (Elt F) (nLoc d)) :
    (bigSep Finset.univ fun c : Fin 2 => bigSep Finset.univ fun i : Fin 16 => (nLoc d ↦[blkSet (tileNo c i)]{fullShare} fn : sProp 𝕄))
      ⊢ bigSep Finset.univ fun c : Fin 2 => bigSep Finset.univ fun i : Fin 16 => (iprop(∃ f, nLoc d ↦[blkSet (tileNo c i)]{fullShare} f) : sProp 𝕄) :=
  bigSep_mono fun c _ => bigSep_mono fun i _ => nBlock_weaken (UP := UP) d (tileNo c i) fn
theorem cBlocks_weaken (fc : Buf (Elt F) (cLoc d)) :
    (bigSep Finset.univ fun c : Fin 2 => bigSep Finset.univ fun i : Fin 16 => (cLoc d ↦[blkSet (tileNo c i)]{fullShare} fc : sProp 𝕄))
      ⊢ bigSep Finset.univ fun c : Fin 2 => bigSep Finset.univ fun i : Fin 16 => (iprop(∃ f, cLoc d ↦[blkSet (tileNo c i)]{fullShare} f) : sProp 𝕄) :=
  bigSep_mono fun c _ => bigSep_mono fun i _ => cBlock_weaken (UP := UP) d (tileNo c i) fc

theorem call_split (fn : Buf (Elt F) (nLoc d)) (fc : Buf (Elt F) (cLoc d)) :
    iprop((pLoc d ↦{fullShare} p) ∗ (tLoc d ↦{fullShare} t) ∗ (bLoc d ↦{fullShare} b) ∗ (fLoc d ↦{fullShare} fl)
        ∗ (nLoc d ↦{fullShare} fn) ∗ (cLoc d ↦{fullShare} fc))
      ⊢ (iprop((bigSep Finset.univ fun c : Fin 2 => stRes (UP := UP) d p t b fl c) ∗ callRem (UP := UP) d p t b fl) : sProp 𝕄) := by
  unfold stRes inShares outBlocks callRem
  simp only [bigSep_sep']
  rw [nPts_blocks, cPts_blocks, bigSep_tiles (UP := UP) (fun w => nLoc d ↦[blkSet w]{fullShare} fn),
    bigSep_tiles (UP := UP) (fun w => cLoc d ↦[blkSet w]{fullShare} fc)]
  iintro ⟨Hp, Ht, Hb, Hf, Hn, Hc⟩
  ihave Hp' := (pointsTo_toks_split (ℓ := pLoc d) (f := p) fullShare 2) $$ Hp
  icases Hp' with ⟨Rp, Tp⟩
  ihave Ht' := (pointsTo_toks_split (ℓ := tLoc d) (f := t) fullShare 2) $$ Ht
  icases Ht' with ⟨Rt, Tt⟩
  ihave Hb' := (pointsTo_toks_split (ℓ := bLoc d) (f := b) fullShare 2) $$ Hb
  icases Hb' with ⟨Rb, Tb⟩
  ihave Hf' := (pointsTo_toks_split (ℓ := fLoc d) (f := fl) fullShare 2) $$ Hf
  icases Hf' with ⟨Rf, Tf⟩
  isplitl [Tp Tt Tb Tf Hn Hc]
  · isplitl [Tp Tt Tb Tf]
    · isplitl [Tp]; · iexact Tp
      isplitl [Tt]; · iexact Tt
      isplitl [Tb]; · iexact Tb
      iexact Tf
    isplitl [Hn]
    · iapply (nBlocks_weaken (UP := UP) d fn); iexact Hn
    · iapply (cBlocks_weaken (UP := UP) d fc); iexact Hc
  isplitl [Rp]; · iexact Rp
  isplitl [Rt]; · iexact Rt
  isplitl [Rb]; · iexact Rb
  iexact Rf

theorem call_join :
    (iprop((bigSep Finset.univ fun c : Fin 2 => dnRes (UP := UP) d p t b fl Nf Cf c) ∗ callRem (UP := UP) d p t b fl) : sProp 𝕄)
      ⊢ iprop((pLoc d ↦{fullShare} p) ∗ (tLoc d ↦{fullShare} t) ∗ (bLoc d ↦{fullShare} b) ∗ (fLoc d ↦{fullShare} fl)
        ∗ (nLoc d ↦{fullShare} (fill Nf : Buf (Elt F) (nLoc d))) ∗ (cLoc d ↦{fullShare} (fill Cf : Buf (Elt F) (cLoc d)))) := by
  unfold dnRes inShares outTables callRem
  simp only [bigSep_sep']
  rw [nPts_blocks, cPts_blocks, bigSep_tiles (UP := UP) (fun w => nLoc d ↦[blkSet w]{fullShare} (fill Nf : Buf (Elt F) (nLoc d))),
    bigSep_tiles (UP := UP) (fun w => cLoc d ↦[blkSet w]{fullShare} (fill Cf : Buf (Elt F) (cLoc d)))]
  iintro ⟨⟨⟨Tp, Tt, Tb, Tf⟩, Hn, Hc⟩, Rp, Rt, Rb, Rf⟩
  isplitl [Rp Tp]
  · iapply (pointsTo_toks_join (ℓ := pLoc d) (f := p) fullShare 2); isplitl [Rp]; · iexact Rp
    iexact Tp
  isplitl [Rt Tt]
  · iapply (pointsTo_toks_join (ℓ := tLoc d) (f := t) fullShare 2); isplitl [Rt]; · iexact Rt
    iexact Tt
  isplitl [Rb Tb]
  · iapply (pointsTo_toks_join (ℓ := bLoc d) (f := b) fullShare 2); isplitl [Rb]; · iexact Rb
    iexact Tb
  isplitl [Rf Tf]
  · iapply (pointsTo_toks_join (ℓ := fLoc d) (f := fl) fullShare 2); isplitl [Rf]; · iexact Rf
    iexact Tf
  isplitl [Hn]; · iexact Hn
  iexact Hc

end Call

end Cert.Kernel.Launch

end
-- ==== Proof.Bits.LaunchVals.lean ====
/-
  @main's host operations and the contents of the TensorCore's arrays along @main.

  Before the SparseCore call five host operations run: the flag bits become floats (`main_v0`), and the first 140800
  segment ids and flags are cut out and reshaped for the TensorCore call. None of them writes an argument or the two
  arrays the SparseCore call reads beside the arguments; so when the call starts, pred, tgt and the segment ids are at
  their launch contents and `main_v0` holds the flags as floats.
-/
import proofs.«205036_g29618094473603_cont_9to1_1720_19_alg».proof.Proof.Bits.LaunchP
import proofs.«205036_g29618094473603_cont_9to1_1720_19_alg».proof.Proof.Bits.LaunchCall
import Idealize.ShloMosaic.Lib.StableHlo.Run
import Idealize.ShloMosaic.Lib.Pipeline.Frame

noncomputable section

namespace Cert.Kernel.Launch

open Cert.Kernel Cert.Kernel.Tile
open Idealize.ShloMosaic
open Idealize.ShloMosaic.SparseCore (S V T)
open Idealize.SL Idealize.SL.Sem

variable {F : FTy → Type} [FloatOps F] [Cert.Kernel.Facts]
open Cert.Kernel.Facts₀ Cert.Kernel.Facts

variable (m : (ℓ : Loc nD τ sig) → Buf (Elt F) ℓ) (d : Dev nD)

/-- A TensorCore array, as a buffer of the device. -/
abbrev dr (b : Ref sig .tc) : DevRef τ sig := Proc.devRef .tc b

/-- The launch contents. -/
abbrev V0 : Valuation τ sig (Elt F) := fun b => m (d, b)

abbrev op0 : HloOp τ sig (Elt F) := StableHlo.unary main_arg3 main_v0 (uitofp .f32 : (⟨S320000, .i1⟩ : BufTy).Contents (Elt F) → (⟨S320000, .f32⟩ : BufTy).Contents (Elt F))
abbrev op1 : HloOp τ sig (Elt F) := StableHlo.unary main_arg4 main_v1 ((extractStridedSlice S140800 ![0] · slices_S320000_S140800_0) : (⟨S320000, .i32⟩ : BufTy).Contents (Elt F) → (⟨S140800, .i32⟩ : BufTy).Contents (Elt F))
abbrev op2 : HloOp τ sig (Elt F) := StableHlo.reshape main_v1 main_v2 rfl shapeCasts_S140800_S55x1x2560
abbrev op3 : HloOp τ sig (Elt F) := StableHlo.unary main_v0 main_v3 ((extractStridedSlice S140800 ![0] · slices_S320000_S140800_0) : (⟨S320000, .f32⟩ : BufTy).Contents (Elt F) → (⟨S140800, .f32⟩ : BufTy).Contents (Elt F))
abbrev op4 : HloOp τ sig (Elt F) := StableHlo.reshape main_v3 main_v4 rfl shapeCasts_S140800_S55x1x2560
abbrev op5 : HloOp τ sig (Elt F) := StableHlo.reshape main_v7 main_v8 rfl shapeCasts_S1x1_S_

/-- The contents when the SparseCore call starts. -/
abbrev V5 : Valuation τ sig (Elt F) := (op4 (F := F)).result ((op3 (F := F)).result ((op2 (F := F)).result ((op1 (F := F)).result ((op0 (F := F)).result (V0 m d)))))

theorem hop0 : (op0 (F := F)).bufs ⊆ Pipeline.ucRefs τ sig :=
  show ({dr main_arg3, dr main_v0} : Finset (DevRef τ sig)) ⊆ Pipeline.ucRefs τ sig by decide
theorem hop1 : (op1 (F := F)).bufs ⊆ Pipeline.ucRefs τ sig :=
  show ({dr main_arg4, dr main_v1} : Finset (DevRef τ sig)) ⊆ Pipeline.ucRefs τ sig by decide
theorem hop2 : (op2 (F := F)).bufs ⊆ Pipeline.ucRefs τ sig :=
  show ({dr main_v1, dr main_v2} : Finset (DevRef τ sig)) ⊆ Pipeline.ucRefs τ sig by decide
theorem hop3 : (op3 (F := F)).bufs ⊆ Pipeline.ucRefs τ sig :=
  show ({dr main_v0, dr main_v3} : Finset (DevRef τ sig)) ⊆ Pipeline.ucRefs τ sig by decide
theorem hop4 : (op4 (F := F)).bufs ⊆ Pipeline.ucRefs τ sig :=
  show ({dr main_v3, dr main_v4} : Finset (DevRef τ sig)) ⊆ Pipeline.ucRefs τ sig by decide
theorem hop5 : (op5 (F := F)).bufs ⊆ Pipeline.ucRefs τ sig :=
  show ({dr main_v7, dr main_v8} : Finset (DevRef τ sig)) ⊆ Pipeline.ucRefs τ sig by decide

/-- The five operations write none of these. -/
theorem V5_of_kept (b : Ref sig .tc) (h0 : b ≠ main_v0) (h1 : b ≠ main_v1) (h2 : b ≠ main_v2) (h3 : b ≠ main_v3) (h4 : b ≠ main_v4) :
    V5 m d (dr b) = m (d, dr b) := by
  unfold V5
  rw [StableHlo.reshape_result_ne' _ _ _ _ _ h4, StableHlo.unary_result_ne' _ _ _ _ h3, StableHlo.reshape_result_ne' _ _ _ _ _ h2,
    StableHlo.unary_result_ne' _ _ _ _ h1, StableHlo.unary_result_ne' _ _ _ _ h0]

theorem V5_arg0 : V5 m d (dr main_arg0) = m (pLoc d) := V5_of_kept m d main_arg0 (by decide) (by decide) (by decide) (by decide) (by decide)
theorem V5_arg1 : V5 m d (dr main_arg1) = m (tLoc d) := V5_of_kept m d main_arg1 (by decide) (by decide) (by decide) (by decide) (by decide)
theorem V5_arg4 : V5 m d (dr main_arg4) = m (bLoc d) := V5_of_kept m d main_arg4 (by decide) (by decide) (by decide) (by decide) (by decide)

/-- `main_v0` holds the flags as floats. -/
theorem V5_v0 : V5 m d (dr main_v0) = flOf m d := by
  unfold V5
  rw [StableHlo.reshape_result_ne' _ _ _ _ _ (show main_v0 ≠ main_v4 by decide), StableHlo.unary_result_ne' _ _ _ _ (show main_v0 ≠ main_v3 by decide),
    StableHlo.reshape_result_ne' _ _ _ _ _ (show main_v0 ≠ main_v2 by decide), StableHlo.unary_result_ne' _ _ _ _ (show main_v0 ≠ main_v1 by decide),
    StableHlo.unary_result' _ _ _ _]
  rfl

end Cert.Kernel.Launch

end
-- ==== Proof.Bits.LaunchMain.lean ====
/-
  @main on the TensorCore: five host operations, the SparseCore call, the two TensorCore regions, a reshape.

  The TensorCore holds all its unscoped arrays at one valuation. The host operations update it; for the call it takes
  the four arrays the tiles read and the two they write out of it, hands them over split as the payload record says,
  gets them back joined, and puts them back with the two outputs at the tables laid out block by block; each region
  updates the valuation at its results; the last reshape at the program's result.
-/
import proofs.«205036_g29618094473603_cont_9to1_1720_19_alg».proof.Proof.Bits.LaunchVals

noncomputable section

namespace Cert.Kernel.Launch

open Cert.Kernel Cert.Kernel.Tile
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)
open Cert.Kernel.TcRegions (UP EP pipesGhost)

variable {F : FTy → Type} [FloatOps F] [Cert.Kernel.Facts]

local notation "𝕄" => MT nD τ sig (HIx 1) (Elt F) ℕ (UU UP) ℕ

variable (m : (ℓ : Loc nD τ sig) → Buf (Elt F) ℓ) (ρ : Dev nD → PrngReg) (Nf Cf : Fin 32 → FVec F S64x16 .f32)

/-! ## The six arrays of the call, out of the valuation and back -/

/-- The arrays the SparseCore call reads and writes. -/
abbrev S6 : Finset (DevRef τ sig) := {dr main_arg0, dr main_arg1, dr main_arg4, dr main_v0, dr main_v5_0, dr main_v5_1}

theorem S6_sub : (S6 : Finset (DevRef τ sig)) ⊆ Pipeline.ucRefs τ sig := by decide

omit [FloatOps F] in
theorem held_S6 (d : Dev nD) (W : Valuation τ sig (Elt F)) :
    (held (T d) S6 W : sProp 𝕄) = iprop((pLoc d ↦{fullShare} W (dr main_arg0)) ∗ (tLoc d ↦{fullShare} W (dr main_arg1)) ∗ (bLoc d ↦{fullShare} W (dr main_arg4))
      ∗ (fLoc d ↦{fullShare} W (dr main_v0)) ∗ (nLoc d ↦{fullShare} W (dr main_v5_0)) ∗ (cLoc d ↦{fullShare} W (dr main_v5_1))) := by
  unfold held S6
  rw [SparseCore.bigSep_insert' (by decide), SparseCore.bigSep_insert' (by decide), SparseCore.bigSep_insert' (by decide),
    SparseCore.bigSep_insert' (by decide), SparseCore.bigSep_insert' (by decide), bigSep_singleton]

/-- The contents after the call: the two outputs at the tiles' tables, laid out. -/
def Vc (d : Dev nD) : Valuation τ sig (Elt F) :=
  Function.update (Function.update (V5 m d) (dr main_v5_0) (fill Nf : Buf (Elt F) (nLoc d))) (dr main_v5_1) (fill Cf : Buf (Elt F) (cLoc d))

theorem Vc_n (d : Dev nD) : Vc m Nf Cf d (dr main_v5_0) = (fill Nf : Buf (Elt F) (nLoc d)) := by
  unfold Vc; rw [Function.update_of_ne (show (dr main_v5_0 : DevRef τ sig) ≠ dr main_v5_1 by decide), Function.update_self]
theorem Vc_c (d : Dev nD) : Vc m Nf Cf d (dr main_v5_1) = (fill Cf : Buf (Elt F) (cLoc d)) := by
  unfold Vc; rw [Function.update_self]
theorem Vc_other (d : Dev nD) (b : DevRef τ sig) (h0 : b ≠ dr main_v5_0) (h1 : b ≠ dr main_v5_1) : Vc m Nf Cf d b = V5 m d b := by
  unfold Vc; rw [Function.update_of_ne h1, Function.update_of_ne h0]

/-! ## The six arrays at the call's start and end -/

theorem held_S6_V5 (d : Dev nD) :
    (held (T d) S6 (V5 m d) : sProp 𝕄) = iprop((pLoc d ↦{fullShare} m (pLoc d)) ∗ (tLoc d ↦{fullShare} m (tLoc d)) ∗ (bLoc d ↦{fullShare} m (bLoc d))
      ∗ (fLoc d ↦{fullShare} flOf m d) ∗ (nLoc d ↦{fullShare} V5 m d (dr main_v5_0)) ∗ (cLoc d ↦{fullShare} V5 m d (dr main_v5_1))) := by
  rw [held_S6, V5_arg0, V5_arg1, V5_arg4, V5_v0]

theorem held_S6_Vc (d : Dev nD) :
    (held (T d) S6 (Vc m Nf Cf d) : sProp 𝕄) = iprop((pLoc d ↦{fullShare} m (pLoc d)) ∗ (tLoc d ↦{fullShare} m (tLoc d)) ∗ (bLoc d ↦{fullShare} m (bLoc d))
      ∗ (fLoc d ↦{fullShare} flOf m d) ∗ (nLoc d ↦{fullShare} (fill Nf : Buf (Elt F) (nLoc d))) ∗ (cLoc d ↦{fullShare} (fill Cf : Buf (Elt F) (cLoc d)))) := by
  rw [held_S6, Vc_other m Nf Cf d (dr main_arg0) (by decide) (by decide), Vc_other m Nf Cf d (dr main_arg1) (by decide) (by decide),
    Vc_other m Nf Cf d (dr main_arg4) (by decide) (by decide), Vc_other m Nf Cf d (dr main_v0) (by decide) (by decide), Vc_n, Vc_c,
    V5_arg0, V5_arg1, V5_arg4, V5_v0]

theorem held_rest_Vc (d : Dev nD) :
    (held (T d) (Pipeline.ucRefs τ sig \ S6) (Vc m Nf Cf d) : sProp 𝕄) = held (T d) (Pipeline.ucRefs τ sig \ S6) (V5 m d) :=
  held_congr (T d) fun b hb => by
    have hb' := (Finset.mem_sdiff.mp hb).2
    refine Vc_other m Nf Cf d b (fun e => hb' ?_) (fun e => hb' ?_) <;> rw [e] <;> decide

/-! ## The payloads of the call, over the two SparseCores -/

theorem st0_eq (d : Dev nD) :
    (bigSep Finset.univ fun c : Fin ((K (F := F)).nCore 0) => (P m Nf Cf).st 0 d c)
      = bigSep Finset.univ fun c : Fin 2 => stRes (UP := UP) d (m (pLoc d)) (m (tLoc d)) (m (bLoc d)) (flOf m d) c :=
  bigSep_congr fun c _ => congrArg (stRes (UP := UP) d (m (pLoc d)) (m (tLoc d)) (m (bLoc d)) (flOf m d)) (Fin.ext rfl)
theorem dn0_eq (d : Dev nD) :
    (bigSep Finset.univ fun c : Fin ((K (F := F)).nCore 0) => (P m Nf Cf).dn 0 d c)
      = bigSep Finset.univ fun c : Fin 2 => dnRes (UP := UP) d (m (pLoc d)) (m (tLoc d)) (m (bLoc d)) (flOf m d) Nf Cf c :=
  bigSep_congr fun c _ => congrArg (dnRes (UP := UP) d (m (pLoc d)) (m (tLoc d)) (m (bLoc d)) (flOf m d) Nf Cf) (Fin.ext rfl)

/-! ## The two TensorCore regions, as @main meets them -/

section Main

variable (R0 R1 : Valuation τ sig (Elt F) → Valuation τ sig (Elt F))

/-- One pipeline's staging cells at their launch state, and its duty tokens. -/
abbrev pipeGhost (p : Fin 2) (c : Dev nD) : sProp 𝕄 :=
  iprop(Pipeline.cellsGhost (nD := nD) (τ := τ) cfgs (EP (F := F)) p c ∗ Pipeline.toksInit (nD := nD) (τ := τ) cfgs (EP (F := F)) p c)

omit [FloatOps F] in
theorem pipesGhost_eq (c : Dev nD) : (pipesGhost (F := F) c : sProp 𝕄) = iprop(pipeGhost (F := F) 0 c ∗ pipeGhost (F := F) 1 c) := by
  unfold pipesGhost
  rw [show (Finset.univ : Finset (Fin 2)) = {0, 1} by decide, SparseCore.bigSep_insert' (by decide), bigSep_singleton]

/-- What is asked of region `p`'s run inside @main: from the TensorCore's arrays at a valuation, its region boundary, the
    pipeline's launch state and the TensorCore owing nothing, it runs to the arrays at the valuation `R` updates, owing
    nothing still, the waits it recorded below the next call's band. -/
def RegionSpec (p : Fin 2) (R : Valuation τ sig (Elt F) → Valuation τ sig (Elt F)) : Prop :=
  ∀ (κ : GSem nD τ sig → ℕ) (d : Dev nD) (Vv : Valuation τ sig (Elt F)) (W : Waits sig (HIx 1)) (Φ : PUnit → sProp 𝕄), (K (F := F)).WBelow (T d) W 8 →
    iprop((K (F := F)).ctx EH (P m Nf Cf) κ ∗ boundary (T d) ∗ held (T d) (Pipeline.ucRefs τ sig) Vv ∗ pipeGhost (F := F) p d ∗ owes (T d) 0 W
        ∗ ((boundary (T d) ∗ held (T d) (Pipeline.ucRefs τ sig) (R Vv) ∗ ∃ W', ⌜(K (F := F)).WBelow (T d) W' 8⌝ ∗ owes (T d) 0 W') -∗ Φ ⟨⟩))
      ⊢ wp frame (wpE ((K (F := F)).defs (D (F := F))) 𝒱 (SparseCore.T d) none) Set.univ
          (Prog.lift (.customCall (SparseCore.inner (Pipeline.entry p)) ())) Φ

/-- The contents when @main ends. -/
def Vfin (d : Dev nD) : Valuation τ sig (Elt F) := (op5 (F := F)).result (R1 (R0 (Vc m Nf Cf d)))

/-- What @main leaves: every unscoped array of the TensorCore, at the final contents. -/
abbrev FIN (d : Dev nD) : sProp 𝕄 := held (T d) (Pipeline.ucRefs τ sig) (Vfin m Nf Cf R0 R1 d)

theorem hmain (h0 : RegionSpec m Nf Cf 0 R0) (h1 : RegionSpec m Nf Cf 1 R1) (κ : GSem nD τ sig → ℕ) (d : Dev nD) :
    iprop((K (F := F)).ctx EH (P m Nf Cf) κ ∗ (K (F := F)).tcSt EH d 0 ∗ (K (F := F)).tcRes m ρ d ∗ pipesGhost (F := F) d)
      ⊢ wp frame (wpE ((K (F := F)).defs (D (F := F))) 𝒱 (SparseCore.T d) none) Set.univ (main d)
          fun _ => iprop((K (F := F)).tcSt EH d 1 ∗ FIN m Nf Cf R0 R1 d) := by
  have hub : (unscopedBufs d (fun b => m ((SparseCore.T d).loc b)) : sProp 𝕄) = held (T d) (Pipeline.ucRefs τ sig) (V0 m d) :=
    Pipeline.unscopedBufs_held (Ix := HIx 1) (Name := ℕ) (U := UU UP) (Lvl := ℕ) d (V0 m d)
  have hOtc : (K (F := F)).Otc d 1 = 0 := (K (F := F)).Otc_end d (le_refl 1)
  have hOtc' : (K (F := F)).Otc d ((0 : Fin 1).val + 1) = 0 := (K (F := F)).Otc_end d (le_refl 1)
  unfold SparseCore.Cfg.tcRes
  rw [hub, pipesGhost_eq]
  simp only [main, wp_bind, wp_pure]
  iintro ⟨#Hctx, Hst, ⟨Hb, Hheld, -, -⟩, HG0, HG1⟩
  -- the five host operations before the call
  iapply (wp_hlo_within 𝒱 (SparseCore.T d) none Set.univ (op := op0 (F := F)) (S := Pipeline.ucRefs τ sig) hop0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1 (F := F)) (S := Pipeline.ucRefs τ sig) hop1) $$ [Hb Hheld]
  · isplitl [Hb]; · iexact Hb
    iexact Hheld
  iintro ⟨Hb, Hheld⟩
  rw [wp_ret]; imodintro
  iapply (wp_hlo_within 𝒱 (SparseCore.T d) none Set.univ (op := op2 (F := F)) (S := Pipeline.ucRefs τ sig) hop2) $$ [Hb Hheld]
  · isplitl [Hb]; · iexact Hb
    iexact Hheld
  iintro ⟨Hb, Hheld⟩
  rw [wp_ret]; imodintro
  iapply (wp_hlo_within 𝒱 (SparseCore.T d) none Set.univ (op := op3 (F := F)) (S := Pipeline.ucRefs τ sig) hop3) $$ [Hb Hheld]
  · isplitl [Hb]; · iexact Hb
    iexact Hheld
  iintro ⟨Hb, Hheld⟩
  rw [wp_ret]; imodintro
  iapply (wp_hlo_within 𝒱 (SparseCore.T d) none Set.univ (op := op4 (F := F)) (S := Pipeline.ucRefs τ sig) hop4) $$ [Hb Hheld]
  · isplitl [Hb]; · iexact Hb
    iexact Hheld
  iintro ⟨Hb, Hheld⟩
  rw [wp_ret]; imodintro
  -- the call: the six arrays out of the valuation, split, handed over, taken back, joined, put back
  ihave H := (Entails.of_eq (held_sub_split (T d) S6_sub (V5 m d))) $$ Hheld
  icases H with ⟨H6, Hrest⟩
  ihave H6' := (Entails.of_eq (held_S6_V5 m d)) $$ H6
  ihave Hsp := (call_split (UP := UP) d (m (pLoc d)) (m (tLoc d)) (m (bLoc d)) (flOf m d) (V5 m d (dr main_v5_0)) (V5 m d (dr main_v5_1))) $$ H6'
  icases Hsp with ⟨Hstc, Hrem⟩
  iapply ((K (F := F)).wp_run (D (F := F)) 𝒱 (EH := EH) (P := P m Nf Cf) κ d 0) $$ [Hst Hstc Hb Hrest Hrem HG0 HG1]
  isplitr; · iexact Hctx
  isplitl [Hst]; · iexact Hst
  isplitl [Hstc]; · iapply (Entails.of_eq (st0_eq m Nf Cf d)); iexact Hstc
  iintro ⟨Hst, Hdn⟩
  ihave Hdn' := (Entails.of_eq (dn0_eq m Nf Cf d)) $$ Hdn
  ihave Hj := (call_join (UP := UP) d (m (pLoc d)) (m (tLoc d)) (m (bLoc d)) (flOf m d) Nf Cf) $$ [Hdn' Hrem]
  · isplitl [Hdn']; · iexact Hdn'
    iexact Hrem
  ihave H6 := (Entails.of_eq (held_S6_Vc m Nf Cf d).symm) $$ Hj
  ihave Hrest' := (Entails.of_eq (held_rest_Vc m Nf Cf d).symm) $$ Hrest
  ihave Hheld := (Entails.of_eq (held_sub_split (T d) S6_sub (Vc m Nf Cf d)).symm) $$ [H6 Hrest']
  · isplitl [H6]; · iexact H6
    iexact Hrest'
  -- the TensorCore's handshake state after the call: it owes nothing
  unfold SparseCore.Cfg.tcSt
  icases Hst with ⟨⟨%W, %hW, HO⟩, Hst'⟩
  ihave HO' := (Entails.of_eq (congrArg (fun o => (owes (T d) o W : sProp 𝕄)) hOtc')) $$ HO
  -- the first region
  iapply (h0 κ d (Vc m Nf Cf d) W _ hW) $$ [Hb Hheld HG0 HO' Hst' HG1]
  isplitr; · iexact Hctx
  isplitl [Hb]; · iexact Hb
  isplitl [Hheld]; · iexact Hheld
  isplitl [HG0]; · iexact HG0
  isplitl [HO']; · iexact HO'
  iintro ⟨Hb, Hheld, %W1, %hW1, HO⟩
  -- the second region
  iapply (h1 κ d (R0 (Vc m Nf Cf d)) W1 _ hW1) $$ [Hb Hheld HG1 HO Hst']
  isplitr; · iexact Hctx
  isplitl [Hb]; · iexact Hb
  isplitl [Hheld]; · iexact Hheld
  isplitl [HG1]; · iexact HG1
  isplitl [HO]; · iexact HO
  iintro ⟨Hb, Hheld, %W2, %hW2, HO⟩
  -- the last reshape
  iapply (wp_hlo_within 𝒱 (SparseCore.T d) none Set.univ (op := op5 (F := F)) (S := Pipeline.ucRefs τ sig) hop5) $$ [Hb Hheld]
  · isplitl [Hb]; · iexact Hb
    iexact Hheld
  iintro ⟨Hb, Hheld⟩
  rw [wp_ret]; imodintro; imodintro
  isplitl [HO Hst']
  · isplitl [HO]
    · iexists W2; isplitr
      · ipureintro; exact hW2
      · iapply (Entails.of_eq (congrArg (fun o => (owes (T d) o W2 : sProp 𝕄)) hOtc.symm)); iexact HO
    · iexact Hst'
  · iexact Hheld

end Main

end Cert.Kernel.Launch

end
-- ==== Proof.Bits.TileLoopsBridge.lean ====
/-
  How a tile's resources read in the kernel's own terms: the arrays in HBM as the tile's memrefs address them, the
  tile's eight scratch buffers and eight DMA semaphores picked out of its own storage, and the block of an output array
  the kernel's write-out slice covers.
-/
import proofs.«205036_g29618094473603_cont_9to1_1720_19_alg».proof.Proof.Bits.TileRes
import proofs.«205036_g29618094473603_cont_9to1_1720_19_alg».proof.Proof.Gen.Kernel
import Idealize.ShloMosaic.Lib.SparseCore.Launch
import Idealize.ShloMosaic.Lib.Transfers
import Idealize.ShloMosaic.Lib.Tactic

noncomputable section

namespace Cert.Kernel.Tile

open Cert.Kernel
open Facts₀ Facts
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} {UU : Type} [URA UU]

local notation "𝕄" => MT nD τ sig (HIx 1) (Elt F) ℕ UU ℕ

/-! ## The tile and its number -/

abbrev cV (L : grid0.Coords) : Fin τ.nSC := (L 0).castLE hcore0
abbrev jV (L : grid0.Coords) : Fin τ.nSub := (L 1).castLE hsub0
/-- The thread of the tile at grid coordinates `L`. -/
abbrev thr (d : Dev nD) (L : grid0.Coords) : Thread nD τ := V d (cV L) (jV L)

theorem bound_zero : grid0.bound 0 = 2 := rfl
theorem bound_one : grid0.bound 1 = 16 := rfl
/-- The tile's number: 16 times its SparseCore plus its subcore. -/
abbrev wL (L : grid0.Coords) : Fin 32 := tileNo (Fin.cast bound_zero (L 0)) (Fin.cast bound_one (L 1))

/-! ## The arrays as the tile's memrefs address them -/

abbrev pW : Memref sig .scVector .hbm S320000x128 .f32 := Memref.whole main_arg0_scv
abbrev tW : Memref sig .scVector .hbm S320000x128 .f32 := Memref.whole main_arg1_scv
abbrev bW : Memref sig .scVector .hbm S320000 .i32 := Memref.whole main_arg4_scv
abbrev fW : Memref sig .scVector .hbm S320000 .f32 := Memref.whole main_v0_scv
abbrev nW : Memref sig .scVector .hbm S32x64x16 .f32 := Memref.whole main_v5_0_scv
abbrev cW : Memref sig .scVector .hbm S32x64x16 .f32 := Memref.whole main_v5_1_scv

theorem pts_p (d : Dev nD) (L : grid0.Coords) (q : PosShare TreeShare) (f : Buf (Elt F) (pLoc d)) :
    ((pW).view.loc (thr d L) ↦{q} f : sProp 𝕄) = pLoc d ↦{q} f := rfl
theorem pts_t (d : Dev nD) (L : grid0.Coords) (q : PosShare TreeShare) (f : Buf (Elt F) (tLoc d)) :
    ((tW).view.loc (thr d L) ↦{q} f : sProp 𝕄) = tLoc d ↦{q} f := rfl
theorem pts_b (d : Dev nD) (L : grid0.Coords) (q : PosShare TreeShare) (f : Buf (Elt F) (bLoc d)) :
    ((bW).view.loc (thr d L) ↦{q} f : sProp 𝕄) = bLoc d ↦{q} f := rfl
theorem pts_f (d : Dev nD) (L : grid0.Coords) (q : PosShare TreeShare) (f : Buf (Elt F) (fLoc d)) :
    ((fW).view.loc (thr d L) ↦{q} f : sProp 𝕄) = fLoc d ↦{q} f := rfl

/-! ## The tile's scratch, as the kernel's parameters name it -/

abbrev sP0 : Memref sig .scVector .vmem S160x128 .f32 := Memref.whole cc0_scratch0
abbrev sP1 : Memref sig .scVector .vmem S160x128 .f32 := Memref.whole cc0_scratch1
abbrev sT0 : Memref sig .scVector .vmem S160x128 .f32 := Memref.whole cc0_scratch2
abbrev sT1 : Memref sig .scVector .vmem S160x128 .f32 := Memref.whole cc0_scratch3
abbrev sB : Memref sig .scVector .vmem S5600 .i32 := Memref.whole cc0_scratch4
abbrev sFl : Memref sig .scVector .vmem S5600 .f32 := Memref.whole cc0_scratch5
abbrev sN : Memref sig .scVector .vmem S64x16 .f32 := Memref.whole cc0_scratch6
abbrev sC : Memref sig .scVector .vmem S64x16 .f32 := Memref.whole cc0_scratch7

/-- The kernel at the tile's coordinates, on the arrays and the tile's scratch. -/
abbrev kern [FloatOps F] (L : grid0.Coords) :=
  cc0_k (F := F) L pW (Memref.isWhole_whole _) tW (Memref.isWhole_whole _) bW (Memref.isWhole_whole _) fW (Memref.isWhole_whole _)
    nW (Memref.isWhole_whole _) cW (Memref.isWhole_whole _) sP0 (Memref.isWhole_whole _) sP1 (Memref.isWhole_whole _)
    sT0 (Memref.isWhole_whole _) sT1 (Memref.isWhole_whole _) sB (Memref.isWhole_whole _) sFl (Memref.isWhole_whole _)
    sN (Memref.isWhole_whole _) sC (Memref.isWhole_whole _) cc0_scratch8 cc0_scratch9 cc0_scratch10 cc0_scratch11
    cc0_scoped0 cc0_scoped1 cc0_scoped2 cc0_scoped3

/-! ## The block the write-out covers -/

abbrev blkK (L : grid0.Coords) : Rect S32x64x16 := Rect.unit (s := S32x64x16) (k0_off9 L) S1x64x16.size (k0_off9_inb L)
/-- The kernel's own slice of an output array for its write-out. -/
abbrev nOut (L : grid0.Coords) : Memref sig .scVector .hbm S64x16 .f32 := ((nW).slice (blkK L) (fun _ => rfl)).squeeze S64x16 squeezes_S1x64x16_S64x16
abbrev cOut (L : grid0.Coords) : Memref sig .scVector .hbm S64x16 .f32 := ((cW).slice (blkK L) (fun _ => rfl)).squeeze S64x16 squeezes_S1x64x16_S64x16

theorem blkK_eq (L : grid0.Coords) : blkK L = blk (wL L) := by
  unfold blkK blk Rect.part Rect.block
  congr 1 <;> funext a
  · rw [Gen.k0_off9_eq]
    match a with
    | 0 => simp [Shape.partIx, Shape.partSize, tileNo] <;> rfl
    | 1 => simp [Shape.partIx, Shape.partSize]
    | 2 => simp [Shape.partIx, Shape.partSize]
  · match a with
    | 0 => simp [Shape.partSize]
    | 1 => simp [Shape.partSize]
    | 2 => simp [Shape.partSize]

theorem set_nOut (L : grid0.Coords) : (nOut L).view.set = blkSet (wL L) := by
  have h : (nOut L).view.set = ((View.whole main_v5_0_scv : View sig .scVector .hbm S32x64x16 .f32).slice (blkK L)).set := View.set_reshape ..
  rw [h, View.set_slice_whole, blkK_eq]
theorem set_cOut (L : grid0.Coords) : (cOut L).view.set = blkSet (wL L) := by
  have h : (cOut L).view.set = ((View.whole main_v5_1_scv : View sig .scVector .hbm S32x64x16 .f32).slice (blkK L)).set := View.set_reshape ..
  rw [h, View.set_slice_whole, blkK_eq]

theorem pts_nOut (d : Dev nD) (L : grid0.Coords) (f : Buf (Elt F) (nLoc d)) :
    ((nOut L).view.loc (thr d L) ↦[(nOut L).view.set]{fullShare} f : sProp 𝕄) = nLoc d ↦[blkSet (wL L)]{fullShare} f := by
  rw [set_nOut]
theorem pts_cOut (d : Dev nD) (L : grid0.Coords) (f : Buf (Elt F) (cLoc d)) :
    ((cOut L).view.loc (thr d L) ↦[(cOut L).view.set]{fullShare} f : sProp 𝕄) = cLoc d ↦[blkSet (wL L)]{fullShare} f := by
  rw [set_cOut]

/-! ## The tile's own semaphores and buffers -/

abbrev cellOf (d : Dev nD) (L : grid0.Coords) (s : DmaSems sig S_) : GSem nD τ sig := (thr d L, SemLoc.dma s.sem)

theorem cellOf_ne (d : Dev nD) (L : grid0.Coords) {s s' : DmaSems sig S_} (h : s.sem ≠ s'.sem) : cellOf d L s ≠ cellOf d L s' :=
  fun e => h (SemLoc.dma.inj (Prod.mk.inj e).2)

/-- The tile's other scoped semaphores, all at zero: what the kernel never names. -/
abbrev semsRest (d : Dev nD) (L : grid0.Coords) : sProp 𝕄 :=
  bigSep (((((((((ownCells (thr d L)).erase (cellOf d L cc0_scratch8)).erase (cellOf d L cc0_scratch9)).erase (cellOf d L cc0_scratch10)).erase (cellOf d L cc0_scratch11)).erase (cellOf d L cc0_scoped0)).erase (cellOf d L cc0_scoped1)).erase (cellOf d L cc0_scoped2)).erase (cellOf d L cc0_scoped3)) fun g => semVal g 0

theorem ownSems0_V (d : Dev nD) (L : grid0.Coords) :
    (ownSems0 (thr d L) : sProp 𝕄)
      = iprop(semVal (cellOf d L cc0_scratch8) 0 ∗ semVal (cellOf d L cc0_scratch9) 0 ∗ semVal (cellOf d L cc0_scratch10) 0 ∗ semVal (cellOf d L cc0_scratch11) 0 ∗ semVal (cellOf d L cc0_scoped0) 0 ∗ semVal (cellOf d L cc0_scoped1) 0 ∗ semVal (cellOf d L cc0_scoped2) 0 ∗ semVal (cellOf d L cc0_scoped3) 0 ∗ semsRest d L) := by
  unfold SparseCore.Cfg.ownSems0 semsRest
  rw [SparseCore.bigSep_erase' ((mem_ownCells (g := cellOf d L cc0_scratch8)).mpr ⟨rfl, by show (SemLoc.dma cc0_scratch8.sem : SemLoc sig).isScoped .scVector = true; decide⟩),
    SparseCore.bigSep_erase' (Finset.mem_erase.mpr ⟨cellOf_ne d L (by decide), ((mem_ownCells (g := cellOf d L cc0_scratch9)).mpr ⟨rfl, by show (SemLoc.dma cc0_scratch9.sem : SemLoc sig).isScoped .scVector = true; decide⟩)⟩),
    SparseCore.bigSep_erase' (Finset.mem_erase.mpr ⟨cellOf_ne d L (by decide), (Finset.mem_erase.mpr ⟨cellOf_ne d L (by decide), ((mem_ownCells (g := cellOf d L cc0_scratch10)).mpr ⟨rfl, by show (SemLoc.dma cc0_scratch10.sem : SemLoc sig).isScoped .scVector = true; decide⟩)⟩)⟩),
    SparseCore.bigSep_erase' (Finset.mem_erase.mpr ⟨cellOf_ne d L (by decide), (Finset.mem_erase.mpr ⟨cellOf_ne d L (by decide), (Finset.mem_erase.mpr ⟨cellOf_ne d L (by decide), ((mem_ownCells (g := cellOf d L cc0_scratch11)).mpr ⟨rfl, by show (SemLoc.dma cc0_scratch11.sem : SemLoc sig).isScoped .scVector = true; decide⟩)⟩)⟩)⟩),
    SparseCore.bigSep_erase' (Finset.mem_erase.mpr ⟨cellOf_ne d L (by decide), (Finset.mem_erase.mpr ⟨cellOf_ne d L (by decide), (Finset.mem_erase.mpr ⟨cellOf_ne d L (by decide), (Finset.mem_erase.mpr ⟨cellOf_ne d L (by decide), ((mem_ownCells (g := cellOf d L cc0_scoped0)).mpr ⟨rfl, by show (SemLoc.dma cc0_scoped0.sem : SemLoc sig).isScoped .scVector = true; decide⟩)⟩)⟩)⟩)⟩),
    SparseCore.bigSep_erase' (Finset.mem_erase.mpr ⟨cellOf_ne d L (by decide), (Finset.mem_erase.mpr ⟨cellOf_ne d L (by decide), (Finset.mem_erase.mpr ⟨cellOf_ne d L (by decide), (Finset.mem_erase.mpr ⟨cellOf_ne d L (by decide), (Finset.mem_erase.mpr ⟨cellOf_ne d L (by decide), ((mem_ownCells (g := cellOf d L cc0_scoped1)).mpr ⟨rfl, by show (SemLoc.dma cc0_scoped1.sem : SemLoc sig).isScoped .scVector = true; decide⟩)⟩)⟩)⟩)⟩)⟩),
    SparseCore.bigSep_erase' (Finset.mem_erase.mpr ⟨cellOf_ne d L (by decide), (Finset.mem_erase.mpr ⟨cellOf_ne d L (by decide), (Finset.mem_erase.mpr ⟨cellOf_ne d L (by decide), (Finset.mem_erase.mpr ⟨cellOf_ne d L (by decide), (Finset.mem_erase.mpr ⟨cellOf_ne d L (by decide), (Finset.mem_erase.mpr ⟨cellOf_ne d L (by decide), ((mem_ownCells (g := cellOf d L cc0_scoped2)).mpr ⟨rfl, by show (SemLoc.dma cc0_scoped2.sem : SemLoc sig).isScoped .scVector = true; decide⟩)⟩)⟩)⟩)⟩)⟩)⟩),
    SparseCore.bigSep_erase' (Finset.mem_erase.mpr ⟨cellOf_ne d L (by decide), (Finset.mem_erase.mpr ⟨cellOf_ne d L (by decide), (Finset.mem_erase.mpr ⟨cellOf_ne d L (by decide), (Finset.mem_erase.mpr ⟨cellOf_ne d L (by decide), (Finset.mem_erase.mpr ⟨cellOf_ne d L (by decide), (Finset.mem_erase.mpr ⟨cellOf_ne d L (by decide), (Finset.mem_erase.mpr ⟨cellOf_ne d L (by decide), ((mem_ownCells (g := cellOf d L cc0_scoped3)).mpr ⟨rfl, by show (SemLoc.dma cc0_scoped3.sem : SemLoc sig).isScoped .scVector = true; decide⟩)⟩)⟩)⟩)⟩)⟩)⟩)⟩)]

/-- The tile's other buffers, at whatever they hold. -/
abbrev bufsRest (d : Dev nD) (L : grid0.Coords) : sProp 𝕄 :=
  bigSep (((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)) fun b => iprop(∃ f, ((d, b) : Loc nD τ sig) ↦{fullShare} f)

theorem ownBufs_V (d : Dev nD) (L : grid0.Coords) :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f) ∗ (∃ f, (thr d L).loc cc0_scratch6 ↦{fullShare} f) ∗ (∃ f, (thr d L).loc cc0_scratch7 ↦{fullShare} f) ∗ bufsRest d L) := by
  unfold SparseCore.Cfg.ownBufs bufsRest
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), (SparseCore.Cfg.mem_ownRefs_of_owner (p := Proc.scVector (cV L) (jV L)) (b := (Proc.scVector (cV L) (jV L)).devRef cc0_scratch1) rfl)⟩),
    SparseCore.bigSep_erase' (Finset.mem_erase.mpr ⟨fun e => absurd (Proc.devRef_injective _ e) (show (cc0_scratch2 : Ref sig .scVector) ≠ cc0_scratch1 by decide), (Finset.mem_erase.mpr ⟨fun e => absurd (Proc.devRef_injective _ e) (show (cc0_scratch2 : Ref sig .scVector) ≠ cc0_scratch0 by decide), (SparseCore.Cfg.mem_ownRefs_of_owner (p := Proc.scVector (cV L) (jV L)) (b := (Proc.scVector (cV L) (jV L)).devRef cc0_scratch2) rfl)⟩)⟩),
    SparseCore.bigSep_erase' (Finset.mem_erase.mpr ⟨fun e => absurd (Proc.devRef_injective _ e) (show (cc0_scratch3 : Ref sig .scVector) ≠ cc0_scratch2 by decide), (Finset.mem_erase.mpr ⟨fun e => absurd (Proc.devRef_injective _ e) (show (cc0_scratch3 : Ref sig .scVector) ≠ cc0_scratch1 by decide), (Finset.mem_erase.mpr ⟨fun e => absurd (Proc.devRef_injective _ e) (show (cc0_scratch3 : Ref sig .scVector) ≠ cc0_scratch0 by decide), (SparseCore.Cfg.mem_ownRefs_of_owner (p := Proc.scVector (cV L) (jV L)) (b := (Proc.scVector (cV L) (jV L)).devRef cc0_scratch3) rfl)⟩)⟩)⟩),
    SparseCore.bigSep_erase' (Finset.mem_erase.mpr ⟨fun e => absurd (Proc.devRef_injective _ e) (show (cc0_scratch4 : Ref sig .scVector) ≠ cc0_scratch3 by decide), (Finset.mem_erase.mpr ⟨fun e => absurd (Proc.devRef_injective _ e) (show (cc0_scratch4 : Ref sig .scVector) ≠ cc0_scratch2 by decide), (Finset.mem_erase.mpr ⟨fun e => absurd (Proc.devRef_injective _ e) (show (cc0_scratch4 : Ref sig .scVector) ≠ cc0_scratch1 by decide), (Finset.mem_erase.mpr ⟨fun e => absurd (Proc.devRef_injective _ e) (show (cc0_scratch4 : Ref sig .scVector) ≠ cc0_scratch0 by decide), (SparseCore.Cfg.mem_ownRefs_of_owner (p := Proc.scVector (cV L) (jV L)) (b := (Proc.scVector (cV L) (jV L)).devRef cc0_scratch4) rfl)⟩)⟩)⟩)⟩),
    SparseCore.bigSep_erase' (Finset.mem_erase.mpr ⟨fun e => absurd (Proc.devRef_injective _ e) (show (cc0_scratch5 : Ref sig .scVector) ≠ cc0_scratch4 by decide), (Finset.mem_erase.mpr ⟨fun e => absurd (Proc.devRef_injective _ e) (show (cc0_scratch5 : Ref sig .scVector) ≠ cc0_scratch3 by decide), (Finset.mem_erase.mpr ⟨fun e => absurd (Proc.devRef_injective _ e) (show (cc0_scratch5 : Ref sig .scVector) ≠ cc0_scratch2 by decide), (Finset.mem_erase.mpr ⟨fun e => absurd (Proc.devRef_injective _ e) (show (cc0_scratch5 : Ref sig .scVector) ≠ cc0_scratch1 by decide), (Finset.mem_erase.mpr ⟨fun e => absurd (Proc.devRef_injective _ e) (show (cc0_scratch5 : Ref sig .scVector) ≠ cc0_scratch0 by decide), (SparseCore.Cfg.mem_ownRefs_of_owner (p := Proc.scVector (cV L) (jV L)) (b := (Proc.scVector (cV L) (jV L)).devRef cc0_scratch5) rfl)⟩)⟩)⟩)⟩)⟩),
    SparseCore.bigSep_erase' (Finset.mem_erase.mpr ⟨fun e => absurd (Proc.devRef_injective _ e) (show (cc0_scratch6 : Ref sig .scVector) ≠ cc0_scratch5 by decide), (Finset.mem_erase.mpr ⟨fun e => absurd (Proc.devRef_injective _ e) (show (cc0_scratch6 : Ref sig .scVector) ≠ cc0_scratch4 by decide), (Finset.mem_erase.mpr ⟨fun e => absurd (Proc.devRef_injective _ e) (show (cc0_scratch6 : Ref sig .scVector) ≠ cc0_scratch3 by decide), (Finset.mem_erase.mpr ⟨fun e => absurd (Proc.devRef_injective _ e) (show (cc0_scratch6 : Ref sig .scVector) ≠ cc0_scratch2 by decide), (Finset.mem_erase.mpr ⟨fun e => absurd (Proc.devRef_injective _ e) (show (cc0_scratch6 : Ref sig .scVector) ≠ cc0_scratch1 by decide), (Finset.mem_erase.mpr ⟨fun e => absurd (Proc.devRef_injective _ e) (show (cc0_scratch6 : Ref sig .scVector) ≠ cc0_scratch0 by decide), (SparseCore.Cfg.mem_ownRefs_of_owner (p := Proc.scVector (cV L) (jV L)) (b := (Proc.scVector (cV L) (jV L)).devRef cc0_scratch6) rfl)⟩)⟩)⟩)⟩)⟩)⟩),
    SparseCore.bigSep_erase' (Finset.mem_erase.mpr ⟨fun e => absurd (Proc.devRef_injective _ e) (show (cc0_scratch7 : Ref sig .scVector) ≠ cc0_scratch6 by decide), (Finset.mem_erase.mpr ⟨fun e => absurd (Proc.devRef_injective _ e) (show (cc0_scratch7 : Ref sig .scVector) ≠ cc0_scratch5 by decide), (Finset.mem_erase.mpr ⟨fun e => absurd (Proc.devRef_injective _ e) (show (cc0_scratch7 : Ref sig .scVector) ≠ cc0_scratch4 by decide), (Finset.mem_erase.mpr ⟨fun e => absurd (Proc.devRef_injective _ e) (show (cc0_scratch7 : Ref sig .scVector) ≠ cc0_scratch3 by decide), (Finset.mem_erase.mpr ⟨fun e => absurd (Proc.devRef_injective _ e) (show (cc0_scratch7 : Ref sig .scVector) ≠ cc0_scratch2 by decide), (Finset.mem_erase.mpr ⟨fun e => absurd (Proc.devRef_injective _ e) (show (cc0_scratch7 : Ref sig .scVector) ≠ cc0_scratch1 by decide), (Finset.mem_erase.mpr ⟨fun e => absurd (Proc.devRef_injective _ e) (show (cc0_scratch7 : Ref sig .scVector) ≠ cc0_scratch0 by decide), (SparseCore.Cfg.mem_ownRefs_of_owner (p := Proc.scVector (cV L) (jV L)) (b := (Proc.scVector (cV L) (jV L)).devRef cc0_scratch7) rfl)⟩)⟩)⟩)⟩)⟩)⟩)⟩)]

end Cert.Kernel.Tile

end
-- ==== Proof.Bits.LaunchRun.lean ====
/-
  The program's run from the launch theorem: the tile's obligation from the tile kernel's specification, what the final
  memory says of the TensorCore's arrays, and the run itself.
-/
import proofs.«205036_g29618094473603_cont_9to1_1720_19_alg».proof.Proof.Bits.LaunchMain
import proofs.«205036_g29618094473603_cont_9to1_1720_19_alg».proof.Proof.Bits.TileLoopsBridge

noncomputable section

namespace Cert.Kernel.Launch

open Cert.Kernel Cert.Kernel.Tile
open Cert.Kernel.Facts₀ Cert.Kernel.Facts
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Cert.Kernel.TcRegions (UP EP pipesGhost)

variable {F : FTy → Type} [FloatOps F] [Cert.Kernel.Facts]

local notation "𝕄" => MT nD τ sig (HIx 1) (Elt F) ℕ (UU UP) ℕ

variable (m : (ℓ : Loc nD τ sig) → Buf (Elt F) ℓ) (ρ : Dev nD → PrngReg) (Nf Cf : Fin 32 → FVec F S64x16 .f32)

/-! ## The tile's obligation -/

/-- The tile kernel's specification: handed its read shares and its two blocks, it runs to the blocks holding its two
    tables, the shares back, its scoped storage as it found it, owing what it owed, having waited only on its own
    semaphores. -/
def TileBodySpec : Prop :=
  ∀ (d : Dev nD) (L : grid0.Coords) (q : PosShare TreeShare) (O : CellTallies nD τ sig (HIx 1)) (W : Waits sig (HIx 1)), (∀ g, O g none = 0) →
    iprop(levAts (K (F := F)).L (K (F := F)).lev ∗ goRes q d (wL L) (m (pLoc d)) (m (tLoc d)) (m (bLoc d)) (flOf m d)
        ∗ scopedBufs (thr d L) ∗ scopedSems0 (thr d L) ∗ owes (thr d L) O W)
      ⊢ (wp frame (wpE (defs₀ (F := F)) 𝒱₀ (thr d L) none) Set.univ (kern (F := F) L)
          fun _ => iprop(tdRes q d (wL L) (m (pLoc d)) (m (tLoc d)) (m (bLoc d)) (flOf m d) (Nf (wL L)) (Cf (wL L))
            ∗ scopedBufs (thr d L) ∗ scopedSems0 (thr d L) ∗ ∃ W', ⌜∀ p ∈ W', p ∈ W ∨ p.2 = none⌝ ∗ owes (thr d L) O W') : sProp 𝕄)

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => kern (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
/-- What was dealt for the kernel's own use is nothing here: set it aside. -/
theorem drop_second {A X B : sProp 𝕄} : iprop(A ∗ X ∗ B) ⊢ iprop(A ∗ B) := by
  iintro ⟨HA, -, HB⟩
  isplitl [HA]; · iexact HA
  iexact HB

/-- The tile kernel's result, in the payload record's terms. -/
theorem td_conv (d : Dev nD) (c : Fin ((K (F := F)).nCore 0)) (i : Fin ((K (F := F)).nSub 0)) (R : sProp 𝕄) :
    iprop(tdRes (qTile (Fin.cast nCore_zero c) (Fin.cast nSub_zero i)) d (tileNo (Fin.cast nCore_zero c) (Fin.cast nSub_zero i))
        (m (pLoc d)) (m (tLoc d)) (m (bLoc d)) (flOf m d) (Nf (tileNo (Fin.cast nCore_zero c) (Fin.cast nSub_zero i))) (Cf (tileNo (Fin.cast nCore_zero c) (Fin.cast nSub_zero i)))
        ∗ R)
      ⊢ (iprop(tdTile (UP := UP) d (m (pLoc d)) (m (tLoc d)) (m (bLoc d)) (flOf m d) Nf Cf (Fin.cast nCore_zero c) (Fin.cast nSub_zero i) ∗ R) : sProp 𝕄) := by
  iintro ⟨Htd, Hrest⟩
  isplitl [Htd]
  · iapply (tdRes_tdTile (UP := UP) d (m (pLoc d)) (m (tLoc d)) (m (bLoc d)) (flOf m d) Nf Cf (Fin.cast nCore_zero c) (Fin.cast nSub_zero i)); iexact Htd
  · iexact Hrest

theorem td_post (d : Dev nD) (c : Fin ((K (F := F)).nCore 0)) (i : Fin ((K (F := F)).nSub 0)) (thr : Thread nD τ) (B C : sProp 𝕄)
    (O : CellTallies nD τ sig (HIx 1)) (W : Waits sig (HIx 1)) :
    iprop(tdRes (qTile (Fin.cast nCore_zero c) (Fin.cast nSub_zero i)) d (tileNo (Fin.cast nCore_zero c) (Fin.cast nSub_zero i))
        (m (pLoc d)) (m (tLoc d)) (m (bLoc d)) (flOf m d) (Nf (tileNo (Fin.cast nCore_zero c) (Fin.cast nSub_zero i))) (Cf (tileNo (Fin.cast nCore_zero c) (Fin.cast nSub_zero i)))
        ∗ B ∗ C ∗ ∃ W', ⌜∀ p ∈ W', p ∈ W ∨ p.2 = none⌝ ∗ owes thr O W')
      ⊢ (iprop((P m Nf Cf).td 0 d c i ∗ B ∗ C ∗ ∃ W', ⌜∀ p ∈ W', p ∈ W ∨ p.2 = none ∨ p.2 = some (0 : Fin 1)⌝ ∗ owes thr O W') : sProp 𝕄) :=
  (show _ ⊢ (iprop((P m Nf Cf).td 0 d c i ∗ B ∗ C ∗ ∃ W', ⌜∀ p ∈ W', p ∈ W ∨ p.2 = none⌝ ∗ owes thr O W') : sProp 𝕄) from td_conv m Nf Cf d c i _).trans obl_post

theorem tileObl (hbody : TileBodySpec m Nf Cf) : (K (F := F)).TileObl (D (F := F)) 𝒱 (P m Nf Cf) v₀ 0 := by
  intro d c i O W hO _ _
  simp only [show (P m Nf Cf).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact drop_second.trans ((hbody d (coordsV ⟨_, hc.1⟩ ⟨_, hc.2⟩) (qTile (Fin.cast nCore_zero c) (Fin.cast nSub_zero i)) O W hO).trans
    (wp_mono frame _ _ fun _ => td_post m Nf Cf d c i _ _ _ O W))

/-! ## What the final memory says -/

section Run

variable (R0 R1 : Valuation τ sig (Elt F) → Valuation τ sig (Elt F))

/-- The arguments and the result. -/
abbrev S7 : Finset (DevRef τ sig) := {dr main_arg0, dr main_arg1, dr main_arg2, dr main_arg3, dr main_arg4, dr main_arg5, dr main_v8}

theorem S7_sub : (S7 : Finset (DevRef τ sig)) ⊆ Pipeline.ucRefs τ sig := by decide

omit [FloatOps F] in
theorem held_S7 (d : Dev nD) (W : Valuation τ sig (Elt F)) :
    (held (T d) S7 W : sProp 𝕄) = iprop(((SparseCore.T d).loc main_arg0 ↦{fullShare} W (dr main_arg0)) ∗ ((SparseCore.T d).loc main_arg1 ↦{fullShare} W (dr main_arg1))
      ∗ ((SparseCore.T d).loc main_arg2 ↦{fullShare} W (dr main_arg2)) ∗ ((SparseCore.T d).loc main_arg3 ↦{fullShare} W (dr main_arg3)) ∗ ((SparseCore.T d).loc main_arg4 ↦{fullShare} W (dr main_arg4))
      ∗ ((SparseCore.T d).loc main_arg5 ↦{fullShare} W (dr main_arg5)) ∗ ((SparseCore.T d).loc main_v8 ↦{fullShare} W (dr main_v8))) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The final memory holds the final contents at the arguments and at the result. -/
def fq (d : Dev nD) (s' : Phys nD τ sig (Elt F)) : Prop :=
  s'.mem.mem ((SparseCore.T d).loc main_arg0) = Vfin m Nf Cf R0 R1 d (dr main_arg0) ∧ s'.mem.mem ((SparseCore.T d).loc main_arg1) = Vfin m Nf Cf R0 R1 d (dr main_arg1)
  ∧ s'.mem.mem ((SparseCore.T d).loc main_arg2) = Vfin m Nf Cf R0 R1 d (dr main_arg2) ∧ s'.mem.mem ((SparseCore.T d).loc main_arg3) = Vfin m Nf Cf R0 R1 d (dr main_arg3)
  ∧ s'.mem.mem ((SparseCore.T d).loc main_arg4) = Vfin m Nf Cf R0 R1 d (dr main_arg4) ∧ s'.mem.mem ((SparseCore.T d).loc main_arg5) = Vfin m Nf Cf R0 R1 d (dr main_arg5)
  ∧ s'.mem.mem ((SparseCore.T d).loc main_v8) = Vfin m Nf Cf R0 R1 d (dr main_v8)

theorem hfin (d : Dev nD) (s' : Phys nD τ sig (Elt F)) : iprop(FIN m Nf Cf R0 R1 d ∗ SI s') ⊢ (⌜fq m Nf Cf R0 R1 d s'⌝ : sProp 𝕄) := by
  iintro ⟨Hh, HSI⟩
  ihave H := (Entails.of_eq (held_sub_split (T d) S7_sub (Vfin m Nf Cf R0 R1 d))) $$ Hh
  icases H with ⟨H7, -⟩
  ihave H7' := (Entails.of_eq (held_S7 (F := F) d (Vfin m Nf Cf R0 R1 d))) $$ H7
  icases H7' with ⟨H0, H1, H2, H3, H4, H5, H8⟩
  ihave A := (persistent_entails_right (SI_pointsTo_agree (st := s') (ℓ := (SparseCore.T d).loc main_arg0) (I := Finset.univ) (q := fullShare) (f := Vfin m Nf Cf R0 R1 d (dr main_arg0)))) $$ [HSI H0]
  · isplitl [HSI] <;> iassumption
  icases A with ⟨%h0, HSI, -⟩
  ihave A := (persistent_entails_right (SI_pointsTo_agree (st := s') (ℓ := (SparseCore.T d).loc main_arg1) (I := Finset.univ) (q := fullShare) (f := Vfin m Nf Cf R0 R1 d (dr main_arg1)))) $$ [HSI H1]
  · isplitl [HSI] <;> iassumption
  icases A with ⟨%h1, HSI, -⟩
  ihave A := (persistent_entails_right (SI_pointsTo_agree (st := s') (ℓ := (SparseCore.T d).loc main_arg2) (I := Finset.univ) (q := fullShare) (f := Vfin m Nf Cf R0 R1 d (dr main_arg2)))) $$ [HSI H2]
  · isplitl [HSI] <;> iassumption
  icases A with ⟨%h2, HSI, -⟩
  ihave A := (persistent_entails_right (SI_pointsTo_agree (st := s') (ℓ := (SparseCore.T d).loc main_arg3) (I := Finset.univ) (q := fullShare) (f := Vfin m Nf Cf R0 R1 d (dr main_arg3)))) $$ [HSI H3]
  · isplitl [HSI] <;> iassumption
  icases A with ⟨%h3, HSI, -⟩
  ihave A := (persistent_entails_right (SI_pointsTo_agree (st := s') (ℓ := (SparseCore.T d).loc main_arg4) (I := Finset.univ) (q := fullShare) (f := Vfin m Nf Cf R0 R1 d (dr main_arg4)))) $$ [HSI H4]
  · isplitl [HSI] <;> iassumption
  icases A with ⟨%h4, HSI, -⟩
  ihave A := (persistent_entails_right (SI_pointsTo_agree (st := s') (ℓ := (SparseCore.T d).loc main_arg5) (I := Finset.univ) (q := fullShare) (f := Vfin m Nf Cf R0 R1 d (dr main_arg5)))) $$ [HSI H5]
  · isplitl [HSI] <;> iassumption
  icases A with ⟨%h5, HSI, -⟩
  ihave A := (SI_pointsTo_agree (st := s') (ℓ := (SparseCore.T d).loc main_v8) (I := Finset.univ) (q := fullShare) (f := Vfin m Nf Cf R0 R1 d (dr main_v8))) $$ [HSI H8]
  · isplitl [HSI] <;> iassumption
  icases A with %h8
  ipureintro
  exact ⟨funext fun i => h0 i (Finset.mem_univ i), funext fun i => h1 i (Finset.mem_univ i), funext fun i => h2 i (Finset.mem_univ i),
    funext fun i => h3 i (Finset.mem_univ i), funext fun i => h4 i (Finset.mem_univ i), funext fun i => h5 i (Finset.mem_univ i),
    funext fun i => h8 i (Finset.mem_univ i)⟩

/-! ## The run -/

/-- What the run ends in: on every device, the arguments and the result at the final contents. -/
def QC : PUnit × MemSt nD τ sig (Elt F) → Prop := fun r => ∀ c : Dev nD,
  r.2.mem ((SparseCore.T c).loc main_arg0) = Vfin m Nf Cf R0 R1 c (dr main_arg0) ∧ r.2.mem ((SparseCore.T c).loc main_arg1) = Vfin m Nf Cf R0 R1 c (dr main_arg1)
  ∧ r.2.mem ((SparseCore.T c).loc main_arg2) = Vfin m Nf Cf R0 R1 c (dr main_arg2) ∧ r.2.mem ((SparseCore.T c).loc main_arg3) = Vfin m Nf Cf R0 R1 c (dr main_arg3)
  ∧ r.2.mem ((SparseCore.T c).loc main_arg4) = Vfin m Nf Cf R0 R1 c (dr main_arg4) ∧ r.2.mem ((SparseCore.T c).loc main_arg5) = Vfin m Nf Cf R0 R1 c (dr main_arg5)
  ∧ r.2.mem ((SparseCore.T c).loc main_v8) = Vfin m Nf Cf R0 R1 c (dr main_v8)

theorem run_main [∀ e, Nonempty (Elt F e)] (hbody : TileBodySpec m Nf Cf) (h0 : RegionSpec m Nf Cf 0 R0) (h1 : RegionSpec m Nf Cf 1 R1) :
    θ_run (Cert.Kernel.defs (F := F)) (Cert.Kernel.threads (F := F)) ⟨m, fun _ => 0, ρ⟩ (QC m Nf Cf R0 R1) :=
  SparseCore.Cfg.θ_run_sc (K := K (F := F)) (D := D (F := F)) (𝒱 := 𝒱) (EH := EH (UP := UP)) (P := P m Nf Cf) facts v₀
    (fun q hq => match q with | 0 => nomatch hq)
    (fun q _ => match q with | 0 => tileObl m Nf Cf hbody)
    (fun q _ => match q with | 0 => SparseCore.Cfg.VecSplit.of_plain (vecSplit m Nf Cf))
    m ρ main (fun d => pipesGhost (F := F) d) (FIN m Nf Cf R0 R1) (u₀ (F := F)) (sep_elim_left.trans (hu₀ m Nf Cf)) (hmain m ρ Nf Cf R0 R1 h0 h1)
    (fq m Nf Cf R0 R1) (hfin m Nf Cf R0 R1) (QC m Nf Cf R0 R1) (fun _ h => h)

end Run

end Cert.Kernel.Launch

end
-- ==== Proof.Bits.LaunchFin.lean ====
/-
  What the final contents are at the arguments and at the result.

  No operation of @main writes an argument: the host operations write their own results, the SparseCore call its two
  outputs, each region its results. The program's result is the reshape of the second region's 1 x 1 result.
-/
import proofs.«205036_g29618094473603_cont_9to1_1720_19_alg».proof.Proof.Bits.LaunchRun

noncomputable section

namespace Cert.Kernel.Launch

open Cert.Kernel Cert.Kernel.Tile
open Cert.Kernel.Facts₀ Cert.Kernel.Facts
open Idealize.ShloMosaic
open Idealize.ShloMosaic.SparseCore (S V T)
open Idealize.SL Idealize.SL.Sem

variable {F : FTy → Type} [FloatOps F] [Cert.Kernel.Facts]

variable (m : (ℓ : Loc nD τ sig) → Buf (Elt F) ℓ) (Nf Cf : Fin 32 → FVec F S64x16 .f32)
variable (R0 R1 : Valuation τ sig (Elt F) → Valuation τ sig (Elt F))
variable (hR0 : ∀ (Vv : Valuation τ sig (Elt F)) (b : DevRef τ sig), b ≠ dr main_v6_0 → b ≠ dr main_v6_1 → R0 Vv b = Vv b)
variable (hR1 : ∀ (Vv : Valuation τ sig (Elt F)) (b : DevRef τ sig), b ≠ dr main_v7 → R1 Vv b = Vv b)

include hR0 hR1 in
/-- An array no operation of @main writes ends at its launch contents. -/
theorem Vfin_kept (d : Dev nD) (b : Ref sig .tc) (h0 : b ≠ main_v0) (h1 : b ≠ main_v1) (h2 : b ≠ main_v2) (h3 : b ≠ main_v3) (h4 : b ≠ main_v4)
    (h50 : (dr b : DevRef τ sig) ≠ dr main_v5_0) (h51 : (dr b : DevRef τ sig) ≠ dr main_v5_1) (h60 : (dr b : DevRef τ sig) ≠ dr main_v6_0)
    (h61 : (dr b : DevRef τ sig) ≠ dr main_v6_1) (h7 : (dr b : DevRef τ sig) ≠ dr main_v7) (h8 : b ≠ main_v8) :
    Vfin m Nf Cf R0 R1 d (dr b) = m (d, dr b) := by
  unfold Vfin
  rw [StableHlo.reshape_result_ne' _ _ _ _ _ h8, hR1 _ _ h7, hR0 _ _ h60 h61, Vc_other m Nf Cf d _ h50 h51, V5_of_kept m d b h0 h1 h2 h3 h4]

include hR0 hR1 in
theorem Vfin_args (d : Dev nD) :
    Vfin m Nf Cf R0 R1 d (dr main_arg0) = m (d, dr main_arg0) ∧ Vfin m Nf Cf R0 R1 d (dr main_arg1) = m (d, dr main_arg1)
    ∧ Vfin m Nf Cf R0 R1 d (dr main_arg2) = m (d, dr main_arg2) ∧ Vfin m Nf Cf R0 R1 d (dr main_arg3) = m (d, dr main_arg3)
    ∧ Vfin m Nf Cf R0 R1 d (dr main_arg4) = m (d, dr main_arg4) ∧ Vfin m Nf Cf R0 R1 d (dr main_arg5) = m (d, dr main_arg5) :=
  ⟨Vfin_kept m Nf Cf R0 R1 hR0 hR1 d main_arg0 (by decide) (by decide) (by decide) (by decide) (by decide) (by decide) (by decide) (by decide) (by decide) (by decide) (by decide),
   Vfin_kept m Nf Cf R0 R1 hR0 hR1 d main_arg1 (by decide) (by decide) (by decide) (by decide) (by decide) (by decide) (by decide) (by decide) (by decide) (by decide) (by decide),
   Vfin_kept m Nf Cf R0 R1 hR0 hR1 d main_arg2 (by decide) (by decide) (by decide) (by decide) (by decide) (by decide) (by decide) (by decide) (by decide) (by decide) (by decide),
   Vfin_kept m Nf Cf R0 R1 hR0 hR1 d main_arg3 (by decide) (by decide) (by decide) (by decide) (by decide) (by decide) (by decide) (by decide) (by decide) (by decide) (by decide),
   Vfin_kept m Nf Cf R0 R1 hR0 hR1 d main_arg4 (by decide) (by decide) (by decide) (by decide) (by decide) (by decide) (by decide) (by decide) (by decide) (by decide) (by decide),
   Vfin_kept m Nf Cf R0 R1 hR0 hR1 d main_arg5 (by decide) (by decide) (by decide) (by decide) (by decide) (by decide) (by decide) (by decide) (by decide) (by decide) (by decide)⟩

/-- The program's result is the second region's 1 x 1 result, reshaped to a scalar. -/
theorem Vfin_v8 (d : Dev nD) :
    Vfin m Nf Cf R0 R1 d (dr main_v8) = fun i => shapeCast S_ (R1 (R0 (Vc m Nf Cf d)) (dr main_v7)) shapeCasts_S1x1_S_ i := by
  unfold Vfin
  rw [StableHlo.reshape_result' _ _ _ _ _]
  rfl

end Cert.Kernel.Launch

end
-- ==== Proof.Bits.TcPure.lean ====
/-
  The arithmetic of the two TensorCore bodies as pure terms of their loaded vectors, for every float instance.

  The row body, at one grid point, holds a block of 2560 rows: P, T (2560 x 128 floats), the rows' segment ids B and
  flags Fl (1 x 1 x 2560), and the two running per-segment accumulators (64 floats each). It forms each row's sum of
  squared differences, lays it along a row of length 2560, forms the 64 x 2560 mask "segment id of row r is s, then
  the flag of r, else 0", and adds to the accumulators the mask's row sums with and without the rows' factor.
  The combine body adds each 32 x 64 x 16 table over its last and then its first axis, adds the accumulators, divides
  the masked sums by max(count, 1), sums the 64 quotients and divides by 64.

  Each definition below is the term the body stores, operation by operation, with the loaded vectors as variables.
-/
import proofs.«205036_g29618094473603_cont_9to1_1720_19_alg».proof.Kernel

noncomputable section

namespace Cert.Kernel.TcPure

open Idealize.ShloMosaic Cert.Kernel Cert.Kernel.Facts₀ Cert.Kernel.Facts

variable {F : FTy → Type} [FloatOps F] [Facts]

/-- What the row body stores into the accumulator of masked sums: the accumulator plus, per segment, the sum over the
    block's rows of (the row's flag where its segment id is the segment, else 0) times the row's sum of squared differences. -/
def rowsNum (P T : FVec F S2560x128 .f32) (B : IVec S1x1x2560 32) (Fl : FVec F S1x1x2560 .f32) (acc : FVec F S64 .f32) :
    FVec F S64 .f32 :=
  addf (shapeCast S64 acc shapeCasts_S64_S64)
    (multiReduction .add [1] S64
      (mulf
        (select
          (cmpi .eq (broadcastTo S64x2560 (shapeCast S1x2560 B shapeCasts_S1x1x2560_S1x2560) broadcasts_S1x2560_S64x2560)
            (iota .tc S64x2560 32 [0] iota_S64x2560_d0_w32))
          (broadcastTo S64x2560
            (shapeCast S1x2560 (shapeCast S1x2560 Fl shapeCasts_S1x1x2560_S1x2560) shapeCasts_S1x2560_S1x2560)
            broadcasts_S1x2560_S64x2560)
          (broadcast S64x2560 (Scalar.ofBits .f32 0x00000000#32 : F .f32)))
        (broadcastTo S64x2560
          (transpose S1x2560 [1, 0]
            (shapeCast S2560x1
              (multiReduction .add [1] S2560 (mulf (subf P T) (subf P T)) 0x00000000#32 reduces_S2560x128_S2560 (.inl rfl) rfl)
              shapeCasts_S2560_S2560x1)
            transposes_S2560x1_p1_0_S1x2560)
          broadcasts_S1x2560_S64x2560))
      0x00000000#32 reduces_S64x2560_S64 (.inl rfl) rfl)

/-- What the row body stores into the accumulator of counts: the accumulator plus, per segment, the sum over the
    block's rows of the row's flag where its segment id is the segment, else 0. -/
def rowsCnt (B : IVec S1x1x2560 32) (Fl : FVec F S1x1x2560 .f32) (acc : FVec F S64 .f32) : FVec F S64 .f32 :=
  addf (shapeCast S64 acc shapeCasts_S64_S64)
    (multiReduction .add [1] S64
      (select
        (cmpi .eq (broadcastTo S64x2560 (shapeCast S1x2560 B shapeCasts_S1x1x2560_S1x2560) broadcasts_S1x2560_S64x2560)
          (iota .tc S64x2560 32 [0] iota_S64x2560_d0_w32))
        (broadcastTo S64x2560
          (shapeCast S1x2560 (shapeCast S1x2560 Fl shapeCasts_S1x1x2560_S1x2560) shapeCasts_S1x2560_S1x2560)
          broadcasts_S1x2560_S64x2560)
        (broadcast S64x2560 (Scalar.ofBits .f32 0x00000000#32 : F .f32)))
      0x00000000#32 reduces_S64x2560_S64 (.inl rfl) rfl)

/-- What the row body stores into both accumulators at the first grid point, before anything else: the zero vector. -/
def zero64 : FVec F S64 .f32 := broadcast S64 (Scalar.ofBits .f32 0x00000000#32 : F .f32)

/-- What the combine body stores: with N, C the tables of masked sums and of counts and nt, ct the two accumulators,
    ((sum over segments of (N summed over lanes, then tiles, plus nt) / max((C likewise) plus ct, 1)) / 64), as a 1 x 1 vector. -/
def combine (N C : FVec F S32x64x16 .f32) (nt ct : FVec F S64 .f32) : FVec F S1x1 .f32 :=
  broadcast S1x1
    (Scalar.divf
      (extractAt ![0, 0]
        (shapeCast S1x1
          (multiReduction .add [1] S1
            (shapeCast S1x64
              (divf
                (addf
                  (multiReduction .add [0] S64
                    (multiReduction .add [2] S32x64 (shapeCast S32x64x16 N shapeCasts_S32x64x16_S32x64x16) 0x00000000#32
                      reduces_S32x64x16_S32x64 (.inl rfl) rfl)
                    0x00000000#32 reduces_S32x64_S64 (.inl rfl) rfl)
                  (shapeCast S64 nt shapeCasts_S64_S64))
                (maximumf
                  (addf
                    (multiReduction .add [0] S64
                      (multiReduction .add [2] S32x64 (shapeCast S32x64x16 C shapeCasts_S32x64x16_S32x64x16) 0x00000000#32
                        reduces_S32x64x16_S32x64 (.inl rfl) rfl)
                      0x00000000#32 reduces_S32x64_S64 (.inl rfl) rfl)
                    (shapeCast S64 ct shapeCasts_S64_S64))
                  (broadcast S64 (Scalar.ofBits .f32 0x3F800000#32 : F .f32))))
              shapeCasts_S64_S1x64)
            0x00000000#32 reduces_S1x64_S1 (.inl rfl) rfl)
          shapeCasts_S1_S1x1)
        inpos_S1x1_p0_0)
      (Scalar.ofBits .f32 0x42800000#32 : F .f32))

end Cert.Kernel.TcPure

end
-- ==== Proof.Bits.TcBody1.lean ====
import proofs.«205036_g29618094473603_cont_9to1_1720_19_alg».proof.Proof.Bits.TcAlg
import proofs.«205036_g29618094473603_cont_9to1_1720_19_alg».proof.Proof.Bits.TcPure
import Idealize.ShloMosaic.Lib.Pipeline.Frame
import Idealize.ShloMosaic.Lib.Pipeline.FrameBody
import Idealize.ShloMosaic.Lib.Pipeline.Value

set_option maxRecDepth 16384

noncomputable section

namespace Cert.Kernel.TcRegions

open Cert.Kernel Cert.Kernel.Gen Cert.Kernel.TcPure
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

set_option pp.maxSteps 6000
set_option pp.deepTerms false

/-! ## The row body, run once at a symbolic grid point on any whole staging memrefs

The body has one condition, "the grid coordinate is zero": there it first stores the zero vector through both
accumulators' buffers. Then, at every point, it loads the two 2560 x 128 blocks, the block's segment ids and flags and
the accumulators, and stores `rowsNum` and `rowsCnt` of them. So at the first point the accumulators end at
`rowsNum P T B Fl zero64` and `rowsCnt B Fl zero64` whatever they held, and at a later point at the same terms of
what they held. -/

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The row body's one condition: the grid coordinate is zero. -/
abbrev cond1 (i : grid1.Coords) : Prop :=
  (Scalar.cmpi .ne (Scalar.extui (Scalar.cmpi .eq (BitVec.ofNat 32 (i 0).val) 0#32)) 0#32) = 1#1

/-- It holds at the first point only: decided over the grid. -/
theorem hcond1 : ∀ t : Fin cfg1.N, cond1 (grid1.coords t) ↔ t.val = 0 :=
  (by decide +kernel : ∀ t : Fin grid1.N, cond1 (grid1.coords t) ↔ t.val = 0)

set_option maxHeartbeats 3200000 in
/-- The first point: the accumulators are zeroed, then the block is added. -/
theorem rowsRunA (c : Dev nD) (i : grid1.Coords) (hc : cond1 i)
    (arg1 : Memref sig .tc .vmem S2560x128 .f32) (harg1 : arg1.IsWhole) (arg2 : Memref sig .tc .vmem S2560x128 .f32) (harg2 : arg2.IsWhole)
    (arg3 : Memref sig .tc .vmem S1x1x2560 .i32) (harg3 : arg3.IsWhole) (arg4 : Memref sig .tc .vmem S1x1x2560 .f32) (harg4 : arg4.IsWhole)
    (arg5 : Memref sig .tc .vmem S64 .f32) (harg5 : arg5.IsWhole) (arg6 : Memref sig .tc .vmem S64 .f32) (harg6 : arg6.IsWhole)
    (x1 x2 : Vec F S2560x128 .f32) (x3 : Vec F S1x1x2560 .i32) (x4 : Vec F S1x1x2560 .f32) (E : Set ℕ) (Q : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2
        ∗ owns (c : Thread nD τ) arg3 fullShare x3 ∗ owns (c : Thread nD τ) arg4 fullShare x4
            ∗ owns (c : Thread nD τ) arg5 fullShare (rowsNum x1 x2 x3 x4 zero64) ∗ owns (c : Thread nD τ) arg6 fullShare (rowsCnt x3 x4 zero64)) -∗ Q ⟨⟩))
      ⊢ wp frame (wpE (defs₀ (F := F)) Variants.none c none) E (cc1__tc_rows_body i arg1 harg1 arg2 harg2 arg3 harg3 arg4 harg4 arg5 harg5 arg6 harg6) Q := by
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf1
  obtain rfl := harg2.eq_unread hf2
  obtain rfl := harg3.eq_unread hf3
  obtain rfl := harg4.eq_unread hf4
  unfold cc1__tc_rows_body
  sl_exec (disch := first | exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [View.read_writes_eq_canon _ _ _ (fun y => ⟨_, List.mem_cons_self, View.mem_set_unit_zero hz1 Gen.inb_S64_S64_0 y⟩), View.canon_cons_unit_zero hz1]
    sl_unfold_run_names
    simp only [View.readAt_eq_ld, harg1.read_unread, harg2.read_unread, harg3.read_unread, harg4.read_unread,
      View.ld_unit_zero (S := S2560x128) hz2, View.ld_unit_zero (S := S1x1x2560) hz3, View.readCov_unit_zero (S := S64) _ hz1]
    first | rfl | fail "rows value A"
  · iexists _; isplitr
    swap; · iexact H6
    ipureintro
    rw [View.read_writes_eq_canon _ _ _ (fun y => ⟨_, List.mem_cons_self, View.mem_set_unit_zero hz1 Gen.inb_S64_S64_0 y⟩), View.canon_cons_unit_zero hz1]
    sl_unfold_run_names
    simp only [View.readAt_eq_ld, harg1.read_unread, harg2.read_unread, harg3.read_unread, harg4.read_unread,
      View.ld_unit_zero (S := S2560x128) hz2, View.ld_unit_zero (S := S1x1x2560) hz3, View.readCov_unit_zero (S := S64) _ hz1]
    first | rfl | fail "rows value A"

set_option maxHeartbeats 3200000 in
/-- A later point: the block is added to what the accumulators hold. -/
theorem rowsRunB (c : Dev nD) (i : grid1.Coords) (hc : ¬cond1 i)
    (arg1 : Memref sig .tc .vmem S2560x128 .f32) (harg1 : arg1.IsWhole) (arg2 : Memref sig .tc .vmem S2560x128 .f32) (harg2 : arg2.IsWhole)
    (arg3 : Memref sig .tc .vmem S1x1x2560 .i32) (harg3 : arg3.IsWhole) (arg4 : Memref sig .tc .vmem S1x1x2560 .f32) (harg4 : arg4.IsWhole)
    (arg5 : Memref sig .tc .vmem S64 .f32) (harg5 : arg5.IsWhole) (arg6 : Memref sig .tc .vmem S64 .f32) (harg6 : arg6.IsWhole)
    (x1 x2 : Vec F S2560x128 .f32) (x3 : Vec F S1x1x2560 .i32) (x4 : Vec F S1x1x2560 .f32) (a5 a6 : Vec F S64 .f32) (E : Set ℕ) (Q : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare a5 ∗ owns (c : Thread nD τ) arg6 fullShare a6
        ∗ (iprop(owns (c : Thread nD τ) arg1 fullShare x1 ∗ owns (c : Thread nD τ) arg2 fullShare x2
        ∗ owns (c : Thread nD τ) arg3 fullShare x3 ∗ owns (c : Thread nD τ) arg4 fullShare x4
            ∗ owns (c : Thread nD τ) arg5 fullShare (rowsNum x1 x2 x3 x4 a5) ∗ owns (c : Thread nD τ) arg6 fullShare (rowsCnt x3 x4 a6)) -∗ Q ⟨⟩))
      ⊢ wp frame (wpE (defs₀ (F := F)) Variants.none c none) E (cc1__tc_rows_body i arg1 harg1 arg2 harg2 arg3 harg3 arg4 harg4 arg5 harg5 arg6 harg6) Q := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  unfold cc1__tc_rows_body
  sl_exec (disch := first | exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [View.read_writes_eq_canon _ _ _ (fun y => ⟨_, List.mem_singleton_self _, View.mem_set_unit_zero hz1 Gen.inb_S64_S64_0 y⟩), View.canon_unit_zero hz1]
    sl_unfold_run_names
    simp only [View.readAt_eq_ld, harg1.read_unread, harg2.read_unread, harg3.read_unread, harg4.read_unread, harg5.read_unread, harg6.read_unread,
      View.ld_unit_zero (S := S2560x128) hz2, View.ld_unit_zero (S := S1x1x2560) hz3, View.ld_unit_zero (S := S64) hz1]
    first | rfl | fail "rows value B"
  · iexists _; isplitr
    swap; · iexact H6
    ipureintro
    rw [View.read_writes_eq_canon _ _ _ (fun y => ⟨_, List.mem_singleton_self _, View.mem_set_unit_zero hz1 Gen.inb_S64_S64_0 y⟩), View.canon_unit_zero hz1]
    sl_unfold_run_names
    simp only [View.readAt_eq_ld, harg1.read_unread, harg2.read_unread, harg3.read_unread, harg4.read_unread, harg5.read_unread, harg6.read_unread,
      View.ld_unit_zero (S := S2560x128) hz2, View.ld_unit_zero (S := S1x1x2560) hz3, View.ld_unit_zero (S := S64) hz1]
    first | rfl | fail "rows value B"

end Cert.Kernel.TcRegions

end
-- ==== Proof.Bits.TcBody2.lean ====
import proofs.«205036_g29618094473603_cont_9to1_1720_19_alg».proof.Proof.Bits.TcAlg
import proofs.«205036_g29618094473603_cont_9to1_1720_19_alg».proof.Proof.Bits.TcPure
import Idealize.ShloMosaic.Lib.Pipeline.Frame
import Idealize.ShloMosaic.Lib.Pipeline.FrameBody
import Idealize.ShloMosaic.Lib.Pipeline.Value

set_option maxRecDepth 16384

noncomputable section

namespace Cert.Kernel.TcRegions

open Cert.Kernel Cert.Kernel.Gen Cert.Kernel.TcPure
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The combine body, run once on any whole staging memrefs

From the four operand buffers at contents N, C (the tiles' tables) and nt, ct (the TensorCore's accumulators), and
the result buffer at anything, the body ends with the operands as they were and the result at `combine N C nt ct`:
it loads each operand whole, computes, and stores the 1 x 1 result through the whole result buffer. -/

theorem hzc1 : (![0] : Fin 1 → Nat) = fun _ => 0 := funext fun a => by fin_cases a; rfl
theorem hzc2 : (![0, 0] : Fin 2 → Nat) = fun _ => 0 := funext fun a => by fin_cases a <;> rfl
theorem hzc3 : (![0, 0, 0] : Fin 3 → Nat) = fun _ => 0 := funext fun a => by fin_cases a <;> rfl

set_option maxHeartbeats 1600000 in
theorem combineRun (c : Dev nD)
    (arg0 : Memref sig .tc .vmem S32x64x16 .f32) (harg0 : arg0.IsWhole) (arg1 : Memref sig .tc .vmem S32x64x16 .f32) (harg1 : arg1.IsWhole)
    (arg2 : Memref sig .tc .vmem S64 .f32) (harg2 : arg2.IsWhole) (arg3 : Memref sig .tc .vmem S64 .f32) (harg3 : arg3.IsWhole)
    (arg4 : Memref sig .tc .vmem S1x1 .f32) (harg4 : arg4.IsWhole)
    (x0 x1 : Vec F S32x64x16 .f32) (x2 x3 : Vec F S64 .f32) (E : Set ℕ) (Q : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (combine x0 x1 x2 x3)) -∗ Q ⟨⟩))
      ⊢ wp frame (wpE (defs₀ (F := F)) Variants.none c none) E (cc2__tc_combine_body arg0 harg0 arg1 harg1 arg2 harg2 arg3 harg3 arg4 harg4) Q := by
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg0.eq_unread hf0
  obtain rfl := harg1.eq_unread hf1
  obtain rfl := harg2.eq_unread hf2
  obtain rfl := harg3.eq_unread hf3
  unfold cc2__tc_combine_body
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact H4
  ipureintro
  rw [View.read_writes_eq_canon _ _ _ (fun y => ⟨_, List.mem_singleton_self _, View.mem_set_unit_zero hzc2 Gen.inb_S1x1_S1x1_0_0 y⟩), View.canon_unit_zero hzc2]
  sl_unfold_run_names
  simp only [View.readAt_eq_ld, harg0.read_unread, harg1.read_unread, harg2.read_unread, harg3.read_unread,
    View.ld_unit_zero (S := S32x64x16) hzc3, View.ld_unit_zero (S := S64) hzc1]
  first | rfl | fail "combine value"

end Cert.Kernel.TcRegions

end
-- ==== Proof.Bits.TcDat.lean ====
import proofs.«205036_g29618094473603_cont_9to1_1720_19_alg».proof.Proof.Bits.TcAlg
import proofs.«205036_g29618094473603_cont_9to1_1720_19_alg».proof.Proof.Bits.TcPure
import proofs.«205036_g29618094473603_cont_9to1_1720_19_alg».proof.Proof.Bits.TcBody1
import proofs.«205036_g29618094473603_cont_9to1_1720_19_alg».proof.Proof.Bits.TcBody2
import Idealize.ShloMosaic.Lib.Pipeline.Frame
import Idealize.ShloMosaic.Lib.Pipeline.FrameBody

set_option maxRecDepth 16384

noncomputable section

namespace Cert.Kernel.TcRegions

open Cert.Kernel Cert.Kernel.Gen Cert.Kernel.TcPure
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The two pipelines' proof data, over the contents the TensorCore's arrays hold when a region is entered

`V c b` is what buffer `b` of device `c` holds at the region's entry. Every input window's staging buffer holds,
at each point, its block of the array (the body only reads it). The row kernel's two outputs are revisited at every
point and written back after the last: after point `n` they hold the fold of `rowsNum` / `rowsCnt` over the
blocks 0 … n from the zero vector. The combine kernel's output holds `combine` of the four whole operands. -/

variable (V : (c : Dev nD) → (b : Ref sig .tc) → Buf (Elt F) ((c.tc : Thread nD τ).loc b))

/-- Window `w`'s block at point `t` of the row kernel, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
/-- The same for the combine kernel (one point, the whole arrays). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- THE ACCUMULATION: the two accumulators after the row body at point `n`. -/
def acc1 (c : Dev nD) : (n : ℕ) → n < cfg1.N → Vec F S64 .f32 × Vec F S64 .f32
  | 0, hn => (rowsNum (iblk1 V c 0 ⟨0, hn⟩) (iblk1 V c 1 ⟨0, hn⟩) (iblk1 V c 2 ⟨0, hn⟩) (iblk1 V c 3 ⟨0, hn⟩) zero64,
              rowsCnt (iblk1 V c 2 ⟨0, hn⟩) (iblk1 V c 3 ⟨0, hn⟩) zero64)
  | n + 1, hn => (rowsNum (iblk1 V c 0 ⟨n + 1, hn⟩) (iblk1 V c 1 ⟨n + 1, hn⟩) (iblk1 V c 2 ⟨n + 1, hn⟩) (iblk1 V c 3 ⟨n + 1, hn⟩) (acc1 c n (Nat.lt_of_succ_lt hn)).1,
                  rowsCnt (iblk1 V c 2 ⟨n + 1, hn⟩) (iblk1 V c 3 ⟨n + 1, hn⟩) (acc1 c n (Nat.lt_of_succ_lt hn)).2)

theorem acc1_zero (c : Dev nD) (t : Fin cfg1.N) (h0 : t.val = 0) :
    acc1 V c t.val t.isLt = (rowsNum (iblk1 V c 0 t) (iblk1 V c 1 t) (iblk1 V c 2 t) (iblk1 V c 3 t) zero64, rowsCnt (iblk1 V c 2 t) (iblk1 V c 3 t) zero64) := by
  obtain ⟨n, hn⟩ := t
  cases n with
  | zero => rfl
  | succ n => exact absurd h0 (Nat.succ_ne_zero n)

theorem acc1_succ (c : Dev nD) (t : Fin cfg1.N) (h0 : t.val ≠ 0) :
    acc1 V c t.val t.isLt = (rowsNum (iblk1 V c 0 t) (iblk1 V c 1 t) (iblk1 V c 2 t) (iblk1 V c 3 t) (acc1 V c (t.val - 1) (Nat.lt_of_le_of_lt (Nat.sub_le _ _) t.isLt)).1,
      rowsCnt (iblk1 V c 2 t) (iblk1 V c 3 t) (acc1 V c (t.val - 1) (Nat.lt_of_le_of_lt (Nat.sub_le _ _) t.isLt)).2) := by
  obtain ⟨n, hn⟩ := t
  cases n with
  | zero => exact absurd rfl h0
  | succ n => rfl

/-- The bound kept on the pairs the TensorCore's waits have recorded: at or below level 8, the band of the one
    SparseCore call that has ended. The staging cells' own waits sit at index `none`, level 0. -/
def recB (c : Dev nD) : Set (SemLoc sig × HIx 1) := {p | (K (F := F)).lev ((c.tc : Thread nD τ), p.1) p.2 ≤ 8}

/-- The row kernel's proof data on core `c`. -/
def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (acc1 V c t.val t.isLt).1
    | ⟨5, _⟩ => (acc1 V c t.val t.isLt).2
    | ⟨_ + 6, h⟩ => absurd h (Nat.not_lt.2 (Nat.le_add_left _ _))
  Φ _ := Pipeline.scopedRest spec1 c
  q _ := fullShare
  owed _ := 0
  recorded _ := recB (F := F) c

/-- The combine kernel's proof data on core `c`. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => combine (iblk2 V c 0 t) (iblk2 V c 1 t) (iblk2 V c 2 t) (iblk2 V c 3 t)
    | ⟨_ + 5, h⟩ => absurd h (Nat.not_lt.2 (Nat.le_add_left _ _))
  Φ _ := Pipeline.scopedRest spec2 c
  q _ := fullShare
  owed _ := 0
  recorded _ := recB (F := F) c

/-- Both pipelines' proof data: a literal match on the pipeline. -/
def pdats : (p : Fin 2) → (c : Dev nD) → Dat τ (Elt F) (HIx 1) ℕ UU ℕ (Pipeline.pin (pcfgs (F := F)) adm p) c
  | 0 => dat1 V
  | 1 => dat2 V

theorem A1_eq (c : Dev nD) (w : Fin cfg1.W) : (dat1 V c).A w = V c (Pipeline.arrRef spec1 w) := by dsimp only [dat1]
theorem A2_eq (c : Dev nD) (w : Fin cfg2.W) : (dat2 V c).A w = V c (Pipeline.arrRef spec2 w) := by dsimp only [dat2]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (acc1 V c t.val t.isLt).1 := by dsimp only [dat1]
theorem after1_5 (c : Dev nD) (t : Fin cfg1.N) : (dat1 V c).after 5 t = (acc1 V c t.val t.isLt).2 := by dsimp only [dat1]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = combine (iblk2 V c 0 t) (iblk2 V c 1 t) (iblk2 V c 2 t) (iblk2 V c 3 t) := by dsimp only [dat2]

/-! ### What the body finds in each staging buffer -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A1_eq]; try rfl) t d).trans
    (by unfold Dat.fetched Dat.blockOf iblk1; rw [A1_eq]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A1_eq]; try rfl) t d).trans
    (by unfold Dat.fetched Dat.blockOf iblk1; rw [A1_eq]; try rfl)
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A2_eq]; try rfl) t d).trans
    (by unfold Dat.fetched Dat.blockOf iblk2; rw [A2_eq]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A2_eq]; try rfl) t d).trans
    (by unfold Dat.fetched Dat.blockOf iblk2; rw [A2_eq]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A2_eq]; try rfl) t d).trans
    (by unfold Dat.fetched Dat.blockOf iblk2; rw [A2_eq]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A2_eq]; try rfl) t d).trans
    (by unfold Dat.fetched Dat.blockOf iblk2; rw [A2_eq]; try rfl)

/-- After the first point an accumulator's buffer holds what the body left at the point before: it is written back
    only after the last point. -/
theorem before1_4 (c : Dev nD) (t : Fin cfg1.N) (h0 : t.val ≠ 0) (d) :
    (dat1 V c).before 4 t d = (acc1 V c (t.val - 1) (Nat.lt_of_le_of_lt (Nat.sub_le _ _) t.isLt)).1 := by
  have hN : t.val < 55 := lt_of_lt_of_eq t.isLt (show cfg1.N = 55 from N_1)
  rw [Dat.before_out_kept _ 4 rfl t h0 (Bool.eq_false_iff.mpr fun h => by have := (flush1_4 _).mp h; dsimp only at this; omega)
    (fun _ => rfl) (fun _ _ => rfl)]
  dsimp only [dat1]
theorem before1_5 (c : Dev nD) (t : Fin cfg1.N) (h0 : t.val ≠ 0) (d) :
    (dat1 V c).before 5 t d = (acc1 V c (t.val - 1) (Nat.lt_of_le_of_lt (Nat.sub_le _ _) t.isLt)).2 := by
  have hN : t.val < 55 := lt_of_lt_of_eq t.isLt (show cfg1.N = 55 from N_1)
  rw [Dat.before_out_kept _ 5 rfl t h0 (Bool.eq_false_iff.mpr fun h => by have := (flush1_5 _).mp h; dsimp only at this; omega)
    (fun _ => rfl) (fun _ _ => rfl)]
  dsimp only [dat1]

/-! ### The body obligations -/

abbrev ms1_0 (t : Fin cfg1.N) : Memref sig .tc .vmem S2560x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2560x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x2560 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x2560 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64 .f32 := win1_5.stage (cfg1.slots t 5)
abbrev hs1_5 (t : Fin cfg1.N) : (ms1_5 t).IsWhole := hstage1_5 ((cfg1.slots t 5).cast nbuf1_5)
abbrev ms2_0 (t : Fin cfg2.N) : Memref sig .tc .vmem S32x64x16 .f32 := win2_0.stage (cfg2.slots t 0)
abbrev hs2_0 (t : Fin cfg2.N) : (ms2_0 t).IsWhole := hstage2_0 0
abbrev ms2_1 (t : Fin cfg2.N) : Memref sig .tc .vmem S32x64x16 .f32 := win2_1.stage (cfg2.slots t 1)
abbrev hs2_1 (t : Fin cfg2.N) : (ms2_1 t).IsWhole := hstage2_1 0
abbrev ms2_2 (t : Fin cfg2.N) : Memref sig .tc .vmem S64 .f32 := win2_2.stage (cfg2.slots t 2)
abbrev hs2_2 (t : Fin cfg2.N) : (ms2_2 t).IsWhole := hstage2_2 0
abbrev ms2_3 (t : Fin cfg2.N) : Memref sig .tc .vmem S64 .f32 := win2_3.stage (cfg2.slots t 3)
abbrev hs2_3 (t : Fin cfg2.N) : (ms2_3 t).IsWhole := hstage2_3 0
abbrev ms2_4 (t : Fin cfg2.N) : Memref sig .tc .vmem S1x1 .f32 := win2_4.stage (cfg2.slots t 4)
abbrev hs2_4 (t : Fin cfg2.N) : (ms2_4 t).IsWhole := hstage2_4 0

def bodyPre1 (c : Dev nD) (t : Fin cfg1.N) : sProp 𝕄 :=
  iprop((dat1 V c).Φ t.castSucc ∗ (dat1 V c).owesAt none t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))
def bodyPost1 (c : Dev nD) (t : Fin cfg1.N) : sProp 𝕄 :=
  iprop((dat1 V c).Φ t.succ ∗ (dat1 V c).owesAt none t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt none t.succ = (dat1 V c).owesAt none t.castSucc from rfl,
    after1_0, after1_1, after1_2, after1_3, after1_4, after1_5]
  by_cases h0 : t.val = 0
  · rw [acc1_zero V c t h0]
    iintro ⟨HΦ, Ho, ⟨%d0, H0⟩, ⟨%d1, H1⟩, ⟨%d2, H2⟩, ⟨%d3, H3⟩, ⟨%d4, H4⟩, ⟨%d5, H5⟩⟩
    iapply (rowsRunA c (grid1.coords t) ((hcond1 t).mpr h0) (ms1_0 t) (hs1_0 t) (ms1_1 t) (hs1_1 t) (ms1_2 t) (hs1_2 t) (ms1_3 t) (hs1_3 t)
      (ms1_4 t) (hs1_4 t) (ms1_5 t) (hs1_5 t) (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc1_succ V c t h0]
    simp only [before1_4 V c t h0, before1_5 V c t h0]
    iintro ⟨HΦ, Ho, ⟨%d0, H0⟩, ⟨%d1, H1⟩, ⟨%d2, H2⟩, ⟨%d3, H3⟩, ⟨%d4, H4⟩, ⟨%d5, H5⟩⟩
    iapply (rowsRunB c (grid1.coords t) (fun h => h0 ((hcond1 t).mp h)) (ms1_0 t) (hs1_0 t) (ms1_1 t) (hs1_1 t) (ms1_2 t) (hs1_2 t) (ms1_3 t) (hs1_3 t)
      (ms1_4 t) (hs1_4 t) (ms1_5 t) (hs1_5 t) (iblk1 V c 0 t) (iblk1 V c 1 t) (iblk1 V c 2 t) (iblk1 V c 3 t)
      (acc1 V c (t.val - 1) (Nat.lt_of_le_of_lt (Nat.sub_le _ _) t.isLt)).1 (acc1 V c (t.val - 1) (Nat.lt_of_le_of_lt (Nat.sub_le _ _) t.isLt)).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The row kernel's body obligation, at every point. -/
theorem body1 (c : Dev nD) : BodyObligation (dat1 (F := F) V c) (defs₀ (F := F)) Variants.none none Set.univ := fun t => by
  rw [bigSep_W1, bigSep_W1]
  exact sound_body1 V c t

def bodyPre2 (c : Dev nD) (t : Fin cfg2.N) : sProp 𝕄 :=
  iprop((dat2 V c).Φ t.castSucc ∗ (dat2 V c).owesAt none t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))
def bodyPost2 (c : Dev nD) (t : Fin cfg2.N) : sProp 𝕄 :=
  iprop((dat2 V c).Φ t.succ ∗ (dat2 V c).owesAt none t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 1600000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt none t.succ = (dat2 V c).owesAt none t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (combineRun c (ms2_0 t) (hs2_0 t) (ms2_1 t) (hs2_1 t) (ms2_2 t) (hs2_2 t) (ms2_3 t) (hs2_3 t) (ms2_4 t) (hs2_4 t)
    (iblk2 V c 0 t) (iblk2 V c 1 t) (iblk2 V c 2 t) (iblk2 V c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The combine kernel's body obligation. -/
theorem body2 (c : Dev nD) : BodyObligation (dat2 (F := F) V c) (defs₀ (F := F)) Variants.none none Set.univ := fun t => by
  rw [bigSep_W2, bigSep_W2]
  exact sound_body2 V c t

end Cert.Kernel.TcRegions

end
-- ==== Proof.Bits.TcRegion.lean ====
import proofs.«205036_g29618094473603_cont_9to1_1720_19_alg».proof.Proof.Bits.TcAlg
import proofs.«205036_g29618094473603_cont_9to1_1720_19_alg».proof.Proof.Bits.TcPure
import proofs.«205036_g29618094473603_cont_9to1_1720_19_alg».proof.Proof.Bits.TcDat
import Idealize.ShloMosaic.Lib.Pipeline.RegionsLoop

set_option maxRecDepth 16384

noncomputable section

namespace Cert.Kernel.TcRegions

open Cert.Kernel Cert.Kernel.Gen Cert.Kernel.TcPure
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.SL.BI (bigSepL bigSep_univ_eq_bigSepL)

/-! ## The two regions as steps of @main on the TensorCore, inside the SparseCore program

Each TensorCore pallas_call of @main is entered from the region boundary, the TensorCore's unscoped buffers held
whole at a valuation, the core owing nothing, and its pipeline's share of the launch's ghost state; it returns to the
boundary with the buffers at the valuation updated at the call's results. -/

variable (V : (c : Dev nD) → (b : Ref sig .tc) → Buf (Elt F) ((c.tc : Thread nD τ).loc b))

theorem hshare1 (c : Dev nD) : ∀ w, (pdats V 0 c).share w = fullShare := (dat1 V c).share_full fun _ => rfl
theorem hshare2 (c : Dev nD) : ∀ w, (pdats V 1 c).share w = fullShare := (dat2 V c).share_full fun _ => rfl

/-- A conjunction over no index is `emp`. -/
theorem bigSep_fin0 {M : Type} [URA M] (Φ : Fin 0 → sProp M) : bigSep Finset.univ Φ = (BI.emp : sProp M) :=
  bigSep_univ_eq_bigSepL [] (by decide) (by decide) Φ

/-- The core owes nothing, and every pair its waits have recorded sits at or below level 8: how the TensorCore stands
    after the one SparseCore call. -/
def owesB (c : Dev nD) : sProp 𝕄 :=
  iprop(∃ W : Waits sig (HIx 1), ⌜(K (F := F)).WBelow (T c) W 8⌝ ∗ owes (c.tc : Thread nD τ) (0 : CellTallies nD τ sig (HIx 1)) W)

theorem owesAt_intro1 (c : Dev nD) (t : Fin (cfg1.N + 1)) : owesB (F := F) c ⊢ ((dat1 V c).owesAt none t : sProp 𝕄) := by
  unfold owesB Pipeline.Dat.owesAt Pipeline.owesWithin Pipeline.Dat.bound
  iintro ⟨%W, %hW, HO⟩
  iexists W; isplitr
  · ipureintro; exact fun p hp => Or.inl (hW p (Finset.mem_coe.mp hp))
  iexact HO
theorem owesAt_elim1 (c : Dev nD) (t : Fin (cfg1.N + 1)) : ((dat1 V c).owesAt none t : sProp 𝕄) ⊢ owesB (F := F) c := by
  unfold owesB Pipeline.Dat.owesAt Pipeline.owesWithin Pipeline.Dat.bound
  iintro ⟨%W, %hW, HO⟩
  iexists W; isplitr
  · ipureintro
    intro p hp
    rcases hW (Finset.mem_coe.mpr hp) with h | ⟨w, s, rfl⟩
    · exact h
    · exact Nat.zero_le _
  iexact HO
theorem prefHeld_emp1 (c : Dev nD) (q) (pf) :
    (Pipeline.prefHeld (Ix := HIx 1) (Name := ℕ) (U := UU) (Lvl := ℕ) (Val := Elt F) (pcfgs (F := F) 0).pre c q pf : sProp 𝕄) = BI.emp :=
  bigSep_fin0 _

theorem owesAt_intro2 (c : Dev nD) (t : Fin (cfg2.N + 1)) : owesB (F := F) c ⊢ ((dat2 V c).owesAt none t : sProp 𝕄) := by
  unfold owesB Pipeline.Dat.owesAt Pipeline.owesWithin Pipeline.Dat.bound
  iintro ⟨%W, %hW, HO⟩
  iexists W; isplitr
  · ipureintro; exact fun p hp => Or.inl (hW p (Finset.mem_coe.mp hp))
  iexact HO
theorem owesAt_elim2 (c : Dev nD) (t : Fin (cfg2.N + 1)) : ((dat2 V c).owesAt none t : sProp 𝕄) ⊢ owesB (F := F) c := by
  unfold owesB Pipeline.Dat.owesAt Pipeline.owesWithin Pipeline.Dat.bound
  iintro ⟨%W, %hW, HO⟩
  iexists W; isplitr
  · ipureintro
    intro p hp
    rcases hW (Finset.mem_coe.mpr hp) with h | ⟨w, s, rfl⟩
    · exact h
    · exact Nat.zero_le _
  iexact HO
theorem prefHeld_emp2 (c : Dev nD) (q) (pf) :
    (Pipeline.prefHeld (Ix := HIx 1) (Name := ℕ) (U := UU) (Lvl := ℕ) (Val := Elt F) (pcfgs (F := F) 1).pre c q pf : sProp 𝕄) = BI.emp :=
  bigSep_fin0 _

/-- The row kernel's region, entered from the TensorCore's unscoped buffers held whole at `V c` and the core
    owing nothing: its windows' arrays go to the pipeline, the other buffers bypass it; it leaves the arrays at what
    the pipeline computes. -/
def reg1 (lv : GSem nD τ sig → HIx 1 → ℕ) : Pipeline.RegionSeg (pcfgs (F := F)) adm (pdats V) none defs₀ 𝒱₀ (K (F := F)).L lv 0 where
  win := launch1.win.to₀
  block_pos := block_pos1
  stage_whole := stage_whole1
  K := PEmpty
  osem k := k.elim
  ho := Pipeline.OwnSemFacts.none _
  hbody c := (body1 V c).loose
  hwaits := Pipeline.hwaits_of_owed_zero (pcfgs (F := F)) adm (pdats V) none (K (F := F)).L lv 0 fun _ _ => rfl
  pre c := iprop(unscopedBufs c (V c) ∗ owesB (F := F) c)
  post c := iprop((pdats V 0 c).arrays ((pdats V 0 c).arrAt · cfg1.N) ∗ Pipeline.unscopedRest spec1 c (V c) ∗ owesB (F := F) c)
  X _ := iprop(emp)
  Y _ := iprop(emp)
  Z c := Pipeline.unscopedRest spec1 c (V c)
  hentry c := by
    rw [Pipeline.ownSems0_none, prefHeld_emp1]
    iintro ⟨⟨Hu, HO⟩, -, -⟩
    ihave Ha := (Pipeline.arrays_of_unscopedBufs (pcfgs (F := F)) adm (pdats V) (p := 0) launch1.win arr_whole1 c (hshare1 V c) (V c) (A1_eq V c)) $$ Hu
    icases Ha with ⟨Ha, Hr⟩
    imodintro
    isplitl [Ha]; · iexact Ha
    isplitr; · iempintro
    isplitl [HO]; · iapply (owesAt_intro1 V c 0); iexact HO
    isplitr; · iempintro
    iexact Hr
  hin c := by
    rw [show (pdats V 0 c).Φ 0 = Pipeline.scopedRest spec1 c from rfl]
    iintro ⟨-, -, H⟩; iexact H
  hout c := by
    rw [Pipeline.ownSems0_none, show (pdats V 0 c).Φ (Fin.last _) = Pipeline.scopedRest spec1 c from rfl]
    iintro H
    isplitr; · iempintro
    isplitr; · iempintro
    iexact H
  hexit c := by
    iintro ⟨Ha, HO, -, HZ⟩
    imodintro
    isplitl [Ha]; · iexact Ha
    isplitl [HZ]; · iexact HZ
    iapply (owesAt_elim1 V c _); iexact HO

/-- The combine kernel's region, entered from the TensorCore's unscoped buffers held whole at `V c` and the core
    owing nothing: its windows' arrays go to the pipeline, the other buffers bypass it; it leaves the arrays at what
    the pipeline computes. -/
def reg2 (lv : GSem nD τ sig → HIx 1 → ℕ) : Pipeline.RegionSeg (pcfgs (F := F)) adm (pdats V) none defs₀ 𝒱₀ (K (F := F)).L lv 1 where
  win := launch2.win.to₀
  block_pos := block_pos2
  stage_whole := stage_whole2
  K := PEmpty
  osem k := k.elim
  ho := Pipeline.OwnSemFacts.none _
  hbody c := (body2 V c).loose
  hwaits := Pipeline.hwaits_of_owed_zero (pcfgs (F := F)) adm (pdats V) none (K (F := F)).L lv 1 fun _ _ => rfl
  pre c := iprop(unscopedBufs c (V c) ∗ owesB (F := F) c)
  post c := iprop((pdats V 1 c).arrays ((pdats V 1 c).arrAt · cfg2.N) ∗ Pipeline.unscopedRest spec2 c (V c) ∗ owesB (F := F) c)
  X _ := iprop(emp)
  Y _ := iprop(emp)
  Z c := Pipeline.unscopedRest spec2 c (V c)
  hentry c := by
    rw [Pipeline.ownSems0_none, prefHeld_emp2]
    iintro ⟨⟨Hu, HO⟩, -, -⟩
    ihave Ha := (Pipeline.arrays_of_unscopedBufs (pcfgs (F := F)) adm (pdats V) (p := 1) launch2.win arr_whole2 c (hshare2 V c) (V c) (A2_eq V c)) $$ Hu
    icases Ha with ⟨Ha, Hr⟩
    imodintro
    isplitl [Ha]; · iexact Ha
    isplitr; · iempintro
    isplitl [HO]; · iapply (owesAt_intro2 V c 0); iexact HO
    isplitr; · iempintro
    iexact Hr
  hin c := by
    rw [show (pdats V 1 c).Φ 0 = Pipeline.scopedRest spec2 c from rfl]
    iintro ⟨-, -, H⟩; iexact H
  hout c := by
    rw [Pipeline.ownSems0_none, show (pdats V 1 c).Φ (Fin.last _) = Pipeline.scopedRest spec2 c from rfl]
    iintro H
    isplitr; · iempintro
    isplitr; · iempintro
    iexact H
  hexit c := by
    iintro ⟨Ha, HO, -, HZ⟩
    imodintro
    isplitl [Ha]; · iexact Ha
    isplitl [HZ]; · iexact HZ
    iapply (owesAt_elim2 V c _); iexact HO

/-- A pallas_call's line of @main under the SparseCore layer is its line under the pipelines' layer, lifted. -/
theorem wp_entry_lift (p : Fin 2) (c : Dev nD) (Φ : PUnit → sProp 𝕄) :
    wp frame (wpE (D (F := F)) 𝒱 (T c) none) Set.univ (Prog.lift (.customCall (Pipeline.entry p) ())) Φ
      ⊢ wp frame (wpE ((K (F := F)).defs (D (F := F))) 𝒱 (T c) none) Set.univ (Prog.lift (.customCall (SparseCore.inner (Pipeline.entry p)) ())) Φ :=
  (K (F := F)).wp_liftProg (D (F := F)) 𝒱 (T c) Set.univ none (Prog.lift (.customCall (Pipeline.entry p) ())) Φ

/-- The TensorCore's buffers after the row kernel's region: as before it, but the region's results. -/
def V1' (c : Dev nD) : (b : Ref sig .tc) → Buf (Elt F) ((c.tc : Thread nD τ).loc b) :=
  Function.update (Function.update (V c) main_v6_0 ((dat1 V c).arrAt 4 cfg1.N)) main_v6_1 ((dat1 V c).arrAt 5 cfg1.N)

theorem V1'_arr (c : Dev nD) (w : Fin cfg1.W) : (dat1 V c).arrAt w cfg1.N = V1' V c (Pipeline.arrRef spec1 w) := by
  have h : ∀ w : Fin 6, (dat1 V c).arrAt w cfg1.N = V1' V c (Pipeline.arrRef spec1 w) := by
    intro w
    unfold V1'
    fin_cases w
    · exact ((dat1 V c).arrAt_in 0 rfl _).trans ((A1_eq V c 0).trans (by rw [Function.update_of_ne (by decide), Function.update_of_ne (by decide)]))
    · exact ((dat1 V c).arrAt_in 1 rfl _).trans ((A1_eq V c 1).trans (by rw [Function.update_of_ne (by decide), Function.update_of_ne (by decide)]))
    · exact ((dat1 V c).arrAt_in 2 rfl _).trans ((A1_eq V c 2).trans (by rw [Function.update_of_ne (by decide), Function.update_of_ne (by decide)]))
    · exact ((dat1 V c).arrAt_in 3 rfl _).trans ((A1_eq V c 3).trans (by rw [Function.update_of_ne (by decide), Function.update_of_ne (by decide)]))
    · show (dat1 V c).arrAt 4 cfg1.N = Function.update (Function.update (V c) main_v6_0 ((dat1 V c).arrAt 4 cfg1.N)) main_v6_1 ((dat1 V c).arrAt 5 cfg1.N) main_v6_0
      rw [Function.update_of_ne (by decide), Function.update_self]
    · show (dat1 V c).arrAt 5 cfg1.N = Function.update (Function.update (V c) main_v6_0 ((dat1 V c).arrAt 4 cfg1.N)) main_v6_1 ((dat1 V c).arrAt 5 cfg1.N) main_v6_1
      rw [Function.update_self]
  exact h w

theorem V1'_rest (c : Dev nD) (b : Ref sig .tc) (hb : b ∉ Finset.univ.image (Pipeline.arrRef spec1)) : V1' V c b = V c b := by
  unfold V1'
  rw [Function.update_of_ne (fun e => hb (Finset.mem_image.mpr ⟨5, Finset.mem_univ _, e.symm⟩)),
    Function.update_of_ne (fun e => hb (Finset.mem_image.mpr ⟨4, Finset.mem_univ _, e.symm⟩))]

-- the region rule's implicit arguments are found by unifying through plain definitions in a metavariable's type
set_option backward.isDefEq.respectTransparency.types false in
/-- THE ROW KERNEL'S REGION as a step of @main inside the SparseCore program: from the boundary, the TensorCore's
    unscoped buffers held whole at `V c`, the core owing nothing and pipeline 0's ghost state, the line runs to the
    boundary, the buffers at `V1' V c` and the core owing nothing. -/
theorem wp_region0 (lv : GSem nD τ sig → HIx 1 → ℕ) (c : Dev nD) (Φ : PUnit → sProp 𝕄) :
    iprop(levAts (K (F := F)).L lv ∗ boundary (c.tc : Thread nD τ) ∗ unscopedBufs c (V c) ∗ owesB (F := F) c
        ∗ Pipeline.cellsGhost (nD := nD) (τ := τ) cfgs (EP (F := F)) 0 c ∗ Pipeline.toksInit (nD := nD) (τ := τ) cfgs (EP (F := F)) 0 c
        ∗ (iprop(boundary (c.tc : Thread nD τ) ∗ unscopedBufs c (V1' V c) ∗ owesB (F := F) c) -∗ Φ ⟨⟩))
      ⊢ wp frame (wpE ((K (F := F)).defs (D (F := F))) 𝒱 (T c) none) Set.univ
          (Prog.lift (.customCall (SparseCore.inner (Pipeline.entry 0)) ())) Φ := by
  refine BIBase.Entails.trans ?_ (wp_entry_lift 0 c Φ)
  iintro ⟨#Hl, Hb, Hu, HO, Hg, Ht, Hk⟩
  have hpre : (reg1 V lv).pre c = iprop(unscopedBufs c (V c) ∗ owesB (F := F) c) := rfl
  have hpost : (reg1 V lv).post c = iprop((pdats V 0 c).arrays ((pdats V 0 c).arrAt · cfg1.N) ∗ Pipeline.unscopedRest spec1 c (V c) ∗ owesB (F := F) c) := rfl
  iapply (Pipeline.RegionSeg.wp (pcfgs (F := F)) adm (pdats V) none phinj (EP (F := F)) defs₀ 𝒱₀ (K (F := F)).L lv (reg1 V lv) c none
    (fun _ h => nomatch h) (fun x => .ret x) Φ)
  rw [hpre, hpost]
  isplitl [Hk]
  · iintro ⟨Hb, Ha, Hr, HO⟩
    rw [wp_ret]
    imodintro
    iapply Hk
    isplitl [Hb]; · iexact Hb
    isplitl [Ha Hr]
    · iapply (Pipeline.unscopedBufs_of_arrays (pcfgs (F := F)) adm (p := 0) launch1.win arr_whole1 c (pdats V) (hshare1 V c) (V c) (V1' V c)
        ((pdats V 0 c).arrAt · cfg1.N) (V1'_arr V c) (V1'_rest V c))
      isplitl [Ha] <;> iassumption
    iexact HO
  isplitl [Hb]; · iexact Hb
  isplitl [Hu HO]
  · isplitl [Hu] <;> iassumption
  isplitr; · iexact Hl
  isplitl [Hg] <;> iassumption

/-- The TensorCore's buffers after the combine kernel's region: as before it, but the region's results. -/
def V2' (c : Dev nD) : (b : Ref sig .tc) → Buf (Elt F) ((c.tc : Thread nD τ).loc b) :=
  Function.update (V c) main_v7 ((dat2 V c).arrAt 4 cfg2.N)

theorem V2'_arr (c : Dev nD) (w : Fin cfg2.W) : (dat2 V c).arrAt w cfg2.N = V2' V c (Pipeline.arrRef spec2 w) := by
  have h : ∀ w : Fin 5, (dat2 V c).arrAt w cfg2.N = V2' V c (Pipeline.arrRef spec2 w) := by
    intro w
    unfold V2'
    fin_cases w
    · exact ((dat2 V c).arrAt_in 0 rfl _).trans ((A2_eq V c 0).trans (by rw [Function.update_of_ne (by decide)]))
    · exact ((dat2 V c).arrAt_in 1 rfl _).trans ((A2_eq V c 1).trans (by rw [Function.update_of_ne (by decide)]))
    · exact ((dat2 V c).arrAt_in 2 rfl _).trans ((A2_eq V c 2).trans (by rw [Function.update_of_ne (by decide)]))
    · exact ((dat2 V c).arrAt_in 3 rfl _).trans ((A2_eq V c 3).trans (by rw [Function.update_of_ne (by decide)]))
    · show (dat2 V c).arrAt 4 cfg2.N = Function.update (V c) main_v7 ((dat2 V c).arrAt 4 cfg2.N) main_v7
      rw [Function.update_self]
  exact h w

theorem V2'_rest (c : Dev nD) (b : Ref sig .tc) (hb : b ∉ Finset.univ.image (Pipeline.arrRef spec2)) : V2' V c b = V c b := by
  unfold V2'
  rw [Function.update_of_ne (fun e => hb (Finset.mem_image.mpr ⟨4, Finset.mem_univ _, e.symm⟩))]

-- the region rule's implicit arguments are found by unifying through plain definitions in a metavariable's type
set_option backward.isDefEq.respectTransparency.types false in
/-- THE COMBINE KERNEL'S REGION as a step of @main inside the SparseCore program: from the boundary, the TensorCore's
    unscoped buffers held whole at `V c`, the core owing nothing and pipeline 1's ghost state, the line runs to the
    boundary, the buffers at `V2' V c` and the core owing nothing. -/
theorem wp_region1 (lv : GSem nD τ sig → HIx 1 → ℕ) (c : Dev nD) (Φ : PUnit → sProp 𝕄) :
    iprop(levAts (K (F := F)).L lv ∗ boundary (c.tc : Thread nD τ) ∗ unscopedBufs c (V c) ∗ owesB (F := F) c
        ∗ Pipeline.cellsGhost (nD := nD) (τ := τ) cfgs (EP (F := F)) 1 c ∗ Pipeline.toksInit (nD := nD) (τ := τ) cfgs (EP (F := F)) 1 c
        ∗ (iprop(boundary (c.tc : Thread nD τ) ∗ unscopedBufs c (V2' V c) ∗ owesB (F := F) c) -∗ Φ ⟨⟩))
      ⊢ wp frame (wpE ((K (F := F)).defs (D (F := F))) 𝒱 (T c) none) Set.univ
          (Prog.lift (.customCall (SparseCore.inner (Pipeline.entry 1)) ())) Φ := by
  refine BIBase.Entails.trans ?_ (wp_entry_lift 1 c Φ)
  iintro ⟨#Hl, Hb, Hu, HO, Hg, Ht, Hk⟩
  have hpre : (reg2 V lv).pre c = iprop(unscopedBufs c (V c) ∗ owesB (F := F) c) := rfl
  have hpost : (reg2 V lv).post c = iprop((pdats V 1 c).arrays ((pdats V 1 c).arrAt · cfg2.N) ∗ Pipeline.unscopedRest spec2 c (V c) ∗ owesB (F := F) c) := rfl
  iapply (Pipeline.RegionSeg.wp (pcfgs (F := F)) adm (pdats V) none phinj (EP (F := F)) defs₀ 𝒱₀ (K (F := F)).L lv (reg2 V lv) c none
    (fun _ h => nomatch h) (fun x => .ret x) Φ)
  rw [hpre, hpost]
  isplitl [Hk]
  · iintro ⟨Hb, Ha, Hr, HO⟩
    rw [wp_ret]
    imodintro
    iapply Hk
    isplitl [Hb]; · iexact Hb
    isplitl [Ha Hr]
    · iapply (Pipeline.unscopedBufs_of_arrays (pcfgs (F := F)) adm (p := 1) launch2.win arr_whole2 c (pdats V) (hshare2 V c) (V c) (V2' V c)
        ((pdats V 1 c).arrAt · cfg2.N) (V2'_arr V c) (V2'_rest V c))
      isplitl [Ha] <;> iassumption
    iexact HO
  isplitl [Hb]; · iexact Hb
  isplitl [Hu HO]
  · isplitl [Hu] <;> iassumption
  isplitr; · iexact Hl
  isplitl [Hg] <;> iassumption

end Cert.Kernel.TcRegions

end
-- ==== Proof.Bits.TcValue.lean ====
import proofs.«205036_g29618094473603_cont_9to1_1720_19_alg».proof.Proof.Bits.TcAlg
import proofs.«205036_g29618094473603_cont_9to1_1720_19_alg».proof.Proof.Bits.TcPure
import proofs.«205036_g29618094473603_cont_9to1_1720_19_alg».proof.Proof.Bits.TcDat
import Idealize.ShloMosaic.Lib.Pipeline.Value

set_option maxRecDepth 16384

noncomputable section

namespace Cert.Kernel.TcRegions

open Cert.Kernel Cert.Kernel.Gen Cert.Kernel.TcPure
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The regions' results as terms of the operands

A window whose one block is the whole array is read through that block as the array itself; so the combine kernel's
result array ends at `combine` of its four whole operands, and each of the row kernel's two result arrays, written
back once after the last point, ends at the accumulator after point 54. -/
variable (V : (c : Dev nD) → (b : Ref sig .tc) → Buf (Elt F) ((c.tc : Thread nD τ).loc b))

theorem iblk2_0 (c : Dev nD) : iblk2 V c 0 t2_0 = V c main_v5_0 := by
  unfold iblk2
  funext y
  rw [View.read_apply]
  show V c main_v5_0 (((cfg2.win 0).blk t2_0).view.emb y) = V c main_v5_0 y
  refine congrArg _ (funext fun a => Fin.ext ?_)
  exact Pipeline.Window.rect_emb_val_of_index_zero win2_0 t2_0 a (by fin_cases a <;> rfl) y
theorem iblk2_1 (c : Dev nD) : iblk2 V c 1 t2_0 = V c main_v5_1 := by
  unfold iblk2
  funext y
  rw [View.read_apply]
  show V c main_v5_1 (((cfg2.win 1).blk t2_0).view.emb y) = V c main_v5_1 y
  refine congrArg _ (funext fun a => Fin.ext ?_)
  exact Pipeline.Window.rect_emb_val_of_index_zero win2_1 t2_0 a (by fin_cases a <;> rfl) y
theorem iblk2_2 (c : Dev nD) : iblk2 V c 2 t2_0 = V c main_v6_0 := by
  unfold iblk2
  funext y
  rw [View.read_apply]
  show V c main_v6_0 (((cfg2.win 2).blk t2_0).view.emb y) = V c main_v6_0 y
  refine congrArg _ (funext fun a => Fin.ext ?_)
  exact Pipeline.Window.rect_emb_val_of_index_zero win2_2 t2_0 a (by fin_cases a <;> rfl) y
theorem iblk2_3 (c : Dev nD) : iblk2 V c 3 t2_0 = V c main_v6_1 := by
  unfold iblk2
  funext y
  rw [View.read_apply]
  show V c main_v6_1 (((cfg2.win 3).blk t2_0).view.emb y) = V c main_v6_1 y
  refine congrArg _ (funext fun a => Fin.ext ?_)
  exact Pipeline.Window.rect_emb_val_of_index_zero win2_3 t2_0 a (by fin_cases a <;> rfl) y

/-- The combine kernel's result as one term of the four whole operands. -/
def combineV (c : Dev nD) : Buf (Elt F) ((c.tc : Thread nD τ).loc main_v7) :=
  combine (V c main_v5_0) (V c main_v5_1) (V c main_v6_0) (V c main_v6_1)

theorem res2 (c : Dev nD) : (dat2 V c).arrAt 4 cfg2.N = combineV V c := by
  refine (dat2 V c).arrAt_eq_of_cover 4 _ (fun t _ => ?_) (fun i => ⟨t2_0, flush2_4 _, ?_⟩)
  · obtain rfl := fin_N2 t
    show (cfg2.win 4).cut (grid2.coords t2_0) ((dat2 V c).after 4 t2_0) = _
    rw [after2_4, iblk2_0, iblk2_1, iblk2_2, iblk2_3]
    funext y
    rw [View.read_apply]
    show combineV V c y = combineV V c (((cfg2.win 4).blk t2_0).view.emb y)
    refine congrArg _ (funext fun a => Fin.ext ?_)
    exact (Pipeline.Window.rect_emb_val_of_index_zero win2_4 t2_0 a (by fin_cases a <;> rfl) y).symm
  · show i ∈ ((View.whole main_v7).slice (win2_4.rect t2_0)).set
    rw [View.set_slice_whole, Rect.mem_set_unit]
    have e : ∀ a : Fin 2, win2_4.index t2_0 a * win2_4.size a = 0 ∧ win2_4.xsize (grid2.coords t2_0) a = S1x1.size a := by decide +kernel
    intro a
    have hi : (i a : ℕ) < S1x1.size a := (i a).isLt
    rw [(e a).1, (e a).2]
    exact ⟨Nat.zero_le _, by omega⟩

theorem h54 : 54 < cfg1.N := by rw [show cfg1.N = 55 from N_1]; decide
/-- The last point of the row kernel's grid. -/
def last1 : Fin cfg1.N := ⟨54, h54⟩

theorem res1_4 (c : Dev nD) : (dat1 V c).arrAt 4 cfg1.N = (acc1 V c 54 h54).1 := by
  refine (dat1 V c).arrAt_eq_of_cover 4 _ (fun t hf => ?_) (fun i => ⟨last1, (flush1_4 _).mpr rfl, ?_⟩)
  · have ht : t = last1 := Fin.ext (by
      have h1 := (flush1_4 t).mp hf
      have h2 : t.val < 55 := lt_of_lt_of_eq t.isLt (show cfg1.N = 55 from N_1)
      show t.val = 54
      omega)
    subst ht
    show (cfg1.win 4).cut (grid1.coords last1) ((dat1 V c).after 4 last1) = _
    rw [after1_4]
    funext y
    rw [View.read_apply]
    show (acc1 V c 54 h54).1 y = (acc1 V c 54 h54).1 (((cfg1.win 4).blk last1).view.emb y)
    refine congrArg _ (funext fun a => Fin.ext ?_)
    exact (Pipeline.Window.rect_emb_val_of_index_zero win1_4 last1 a (by fin_cases a <;> rfl) y).symm
  · show i ∈ ((View.whole main_v6_0).slice (win1_4.rect last1)).set
    rw [View.set_slice_whole, Rect.mem_set_unit]
    have e : ∀ a : Fin 1, win1_4.index last1 a * win1_4.size a = 0 ∧ win1_4.xsize (grid1.coords last1) a = S64.size a := by decide +kernel
    intro a
    have hi : (i a : ℕ) < S64.size a := (i a).isLt
    rw [(e a).1, (e a).2]
    exact ⟨Nat.zero_le _, by omega⟩

theorem res1_5 (c : Dev nD) : (dat1 V c).arrAt 5 cfg1.N = (acc1 V c 54 h54).2 := by
  refine (dat1 V c).arrAt_eq_of_cover 5 _ (fun t hf => ?_) (fun i => ⟨last1, (flush1_5 _).mpr rfl, ?_⟩)
  · have ht : t = last1 := Fin.ext (by
      have h1 := (flush1_5 t).mp hf
      have h2 : t.val < 55 := lt_of_lt_of_eq t.isLt (show cfg1.N = 55 from N_1)
      show t.val = 54
      omega)
    subst ht
    show (cfg1.win 5).cut (grid1.coords last1) ((dat1 V c).after 5 last1) = _
    rw [after1_5]
    funext y
    rw [View.read_apply]
    show (acc1 V c 54 h54).2 y = (acc1 V c 54 h54).2 (((cfg1.win 5).blk last1).view.emb y)
    refine congrArg _ (funext fun a => Fin.ext ?_)
    exact (Pipeline.Window.rect_emb_val_of_index_zero win1_5 last1 a (by fin_cases a <;> rfl) y).symm
  · show i ∈ ((View.whole main_v6_1).slice (win1_5.rect last1)).set
    rw [View.set_slice_whole, Rect.mem_set_unit]
    have e : ∀ a : Fin 1, win1_5.index last1 a * win1_5.size a = 0 ∧ win1_5.xsize (grid1.coords last1) a = S64.size a := by decide +kernel
    intro a
    have hi : (i a : ℕ) < S64.size a := (i a).isLt
    rw [(e a).1, (e a).2]
    exact ⟨Nat.zero_le _, by omega⟩

/-- The accumulators as a sequence from the zero vectors: entry `k + 1` adds block `k`. -/
def accSeq (c : Dev nD) : ℕ → Vec F S64 .f32 × Vec F S64 .f32
  | 0 => (zero64, zero64)
  | k + 1 => if h : k < cfg1.N then
      (rowsNum (iblk1 V c 0 ⟨k, h⟩) (iblk1 V c 1 ⟨k, h⟩) (iblk1 V c 2 ⟨k, h⟩) (iblk1 V c 3 ⟨k, h⟩) (accSeq c k).1,
       rowsCnt (iblk1 V c 2 ⟨k, h⟩) (iblk1 V c 3 ⟨k, h⟩) (accSeq c k).2)
    else accSeq c k

theorem accSeq_succ (c : Dev nD) (k : ℕ) (h : k < cfg1.N) : accSeq V c (k + 1) =
    (rowsNum (iblk1 V c 0 ⟨k, h⟩) (iblk1 V c 1 ⟨k, h⟩) (iblk1 V c 2 ⟨k, h⟩) (iblk1 V c 3 ⟨k, h⟩) (accSeq V c k).1,
     rowsCnt (iblk1 V c 2 ⟨k, h⟩) (iblk1 V c 3 ⟨k, h⟩) (accSeq V c k).2) := by
  rw [accSeq, dif_pos h]

theorem acc1_eq_accSeq (c : Dev nD) : ∀ (n : ℕ) (hn : n < cfg1.N), acc1 V c n hn = accSeq V c (n + 1)
  | 0, hn => by rw [accSeq_succ V c 0 hn]; rfl
  | n + 1, hn => by
    rw [accSeq_succ V c (n + 1) hn, ← acc1_eq_accSeq c n (Nat.lt_of_succ_lt hn)]; rfl

/-- The row kernel's two result arrays: the sequence's entry 55. -/
theorem res1_4' (c : Dev nD) : (dat1 V c).arrAt 4 cfg1.N = (accSeq V c 55).1 := by
  exact (res1_4 V c).trans (congrArg Prod.fst (acc1_eq_accSeq V c 54 h54))
theorem res1_5' (c : Dev nD) : (dat1 V c).arrAt 5 cfg1.N = (accSeq V c 55).2 := by
  exact (res1_5 V c).trans (congrArg Prod.snd (acc1_eq_accSeq V c 54 h54))

end Cert.Kernel.TcRegions

end
-- ==== Proof.Bits.TcHeld.lean ====
import proofs.«205036_g29618094473603_cont_9to1_1720_19_alg».proof.Proof.Bits.TcAlg
import proofs.«205036_g29618094473603_cont_9to1_1720_19_alg».proof.Proof.Bits.TcPure
import proofs.«205036_g29618094473603_cont_9to1_1720_19_alg».proof.Proof.Bits.TcRegion
import proofs.«205036_g29618094473603_cont_9to1_1720_19_alg».proof.Proof.Bits.TcValue

set_option maxRecDepth 16384

noncomputable section

namespace Cert.Kernel.TcRegions

open Cert.Kernel Cert.Kernel.Gen Cert.Kernel.TcPure
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.StableHlo (held)

/-! ## The two regions over the TensorCore's unscoped buffers held at one valuation

The form @main's host operations use: every unscoped buffer of the TensorCore held whole at a valuation `W c`.
The row kernel's region takes it to the valuation updated at its two result arrays to the accumulators' sequence's
entry 55; the combine kernel's to the valuation updated at its result to `combine` of the four operands. -/

variable (W : Dev nD → Valuation τ sig (Elt F))

/-- The valuation read at the TensorCore's references. -/
abbrev VW : (c : Dev nD) → (b : Ref sig .tc) → Buf (Elt F) ((c.tc : Thread nD τ).loc b) := fun c b => W c b

/-- After the row kernel's region. -/
def W1' (c : Dev nD) : Valuation τ sig (Elt F) :=
  Function.update (Function.update (W c) (Proc.devRef .tc main_v6_0) (accSeq (VW W) c 55).1) (Proc.devRef .tc main_v6_1) (accSeq (VW W) c 55).2

/-- After the combine kernel's region. -/
def W2' (c : Dev nD) : Valuation τ sig (Elt F) :=
  Function.update (W c) (Proc.devRef .tc main_v7) (combine (W c main_v5_0) (W c main_v5_1) (W c main_v6_0) (W c main_v6_1))

theorem V1'_held (c : Dev nD) : (fun b : Ref sig .tc => W1' W c b) = V1' (VW W) c := by
  funext b
  unfold W1' V1'
  by_cases h1 : b = main_v6_1
  · subst h1
    rw [Function.update_self, Function.update_self, res1_5']
  · rw [Function.update_of_ne h1, Function.update_of_ne (StableHlo.devRef_ne_of_ne h1)]
    by_cases h0 : b = main_v6_0
    · subst h0
      rw [Function.update_self, Function.update_self, res1_4']
    · rw [Function.update_of_ne h0, Function.update_of_ne (StableHlo.devRef_ne_of_ne h0)]

theorem V2'_held (c : Dev nD) : (fun b : Ref sig .tc => W2' W c b) = V2' (VW W) c := by
  funext b
  unfold W2' V2'
  by_cases h1 : b = main_v7
  · subst h1
    rw [Function.update_self, Function.update_self, res2]
    rfl
  · rw [Function.update_of_ne h1, Function.update_of_ne (StableHlo.devRef_ne_of_ne h1)]

/-- THE ROW KERNEL'S REGION over `held`. -/
theorem wp_region0_held (lv : GSem nD τ sig → HIx 1 → ℕ) (c : Dev nD) (Φ : PUnit → sProp 𝕄) :
    iprop(levAts (K (F := F)).L lv ∗ boundary (c.tc : Thread nD τ) ∗ held (c.tc : Thread nD τ) (Pipeline.ucRefs τ sig) (W c) ∗ owesB (F := F) c
        ∗ Pipeline.cellsGhost (nD := nD) (τ := τ) cfgs (EP (F := F)) 0 c ∗ Pipeline.toksInit (nD := nD) (τ := τ) cfgs (EP (F := F)) 0 c
        ∗ (iprop(boundary (c.tc : Thread nD τ) ∗ held (c.tc : Thread nD τ) (Pipeline.ucRefs τ sig) (W1' W c) ∗ owesB (F := F) c) -∗ Φ ⟨⟩))
      ⊢ wp frame (wpE ((K (F := F)).defs (D (F := F))) 𝒱 (T c) none) Set.univ
          (Prog.lift (.customCall (SparseCore.inner (Pipeline.entry 0)) ())) Φ := by
  rw [← Pipeline.unscopedBufs_held c (W c), ← Pipeline.unscopedBufs_held c (W1' W c), V1'_held W c]
  exact wp_region0 (VW W) lv c Φ

/-- THE COMBINE KERNEL'S REGION over `held`. -/
theorem wp_region1_held (lv : GSem nD τ sig → HIx 1 → ℕ) (c : Dev nD) (Φ : PUnit → sProp 𝕄) :
    iprop(levAts (K (F := F)).L lv ∗ boundary (c.tc : Thread nD τ) ∗ held (c.tc : Thread nD τ) (Pipeline.ucRefs τ sig) (W c) ∗ owesB (F := F) c
        ∗ Pipeline.cellsGhost (nD := nD) (τ := τ) cfgs (EP (F := F)) 1 c ∗ Pipeline.toksInit (nD := nD) (τ := τ) cfgs (EP (F := F)) 1 c
        ∗ (iprop(boundary (c.tc : Thread nD τ) ∗ held (c.tc : Thread nD τ) (Pipeline.ucRefs τ sig) (W2' W c) ∗ owesB (F := F) c) -∗ Φ ⟨⟩))
      ⊢ wp frame (wpE ((K (F := F)).defs (D (F := F))) 𝒱 (T c) none) Set.univ
          (Prog.lift (.customCall (SparseCore.inner (Pipeline.entry 1)) ())) Φ := by
  rw [← Pipeline.unscopedBufs_held c (W c), ← Pipeline.unscopedBufs_held c (W2' W c), V2'_held W c]
  exact wp_region1 (VW W) lv c Φ

end Cert.Kernel.TcRegions

end
-- ==== Proof.Bits.TcRegionV.lean ====
/-
  The two TensorCore regions in the form @main's proof meets them: over the TensorCore's unscoped arrays held at one
  valuation, which each region updates at its results; and those results as terms of the valuation's operands.
-/
import proofs.«205036_g29618094473603_cont_9to1_1720_19_alg».proof.Proof.Bits.LaunchMain
import proofs.«205036_g29618094473603_cont_9to1_1720_19_alg».proof.Proof.Bits.TcHeld

noncomputable section

namespace Cert.Kernel.TcRegions

open Cert.Kernel Cert.Kernel.Gen Cert.Kernel.TcPure
open Cert.Kernel.Launch (dr RegionSpec pipeGhost)
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

/-- The one device. -/
abbrev d0 : Dev nD := 0

/-- The row kernel's region on a valuation: its two result arrays at the accumulators after the 55 blocks. -/
def R0 (Vv : Valuation τ sig (Elt F)) : Valuation τ sig (Elt F) := W1' (fun _ => Vv) d0
/-- The combine kernel's region on a valuation: its result at `combine` of the four operands. -/
def R1 (Vv : Valuation τ sig (Elt F)) : Valuation τ sig (Elt F) := W2' (fun _ => Vv) d0

theorem R0_other (Vv : Valuation τ sig (Elt F)) (b : DevRef τ sig) (h0 : b ≠ dr main_v6_0) (h1 : b ≠ dr main_v6_1) : R0 Vv b = Vv b := by
  unfold R0 W1'
  rw [Function.update_of_ne h1, Function.update_of_ne h0]
theorem R0_v6_0 (Vv : Valuation τ sig (Elt F)) : R0 Vv (dr main_v6_0) = (accSeq (VW fun _ => Vv) d0 55).1 := by
  unfold R0 W1'
  rw [Function.update_of_ne (by decide), Function.update_self]
theorem R0_v6_1 (Vv : Valuation τ sig (Elt F)) : R0 Vv (dr main_v6_1) = (accSeq (VW fun _ => Vv) d0 55).2 := by
  unfold R0 W1'
  rw [Function.update_self]
theorem R1_other (Vv : Valuation τ sig (Elt F)) (b : DevRef τ sig) (h : b ≠ dr main_v7) : R1 Vv b = Vv b := by
  unfold R1 W2'
  rw [Function.update_of_ne h]
theorem R1_v7 (Vv : Valuation τ sig (Elt F)) :
    R1 Vv (dr main_v7) = combine (Vv (dr main_v5_0)) (Vv (dr main_v5_1)) (Vv (dr main_v6_0)) (Vv (dr main_v6_1)) := by
  unfold R1 W2'
  rw [Function.update_self]

section Spec

variable (m : (ℓ : Loc nD τ sig) → Buf (Elt F) ℓ) (Nf Cf : Fin 32 → FVec F S64x16 .f32)

theorem region0_spec : RegionSpec m Nf Cf 0 (R0 (F := F)) := by
  intro κ d Vv W Φ hW
  obtain rfl : d = d0 := Subsingleton.elim _ _
  iintro ⟨#Hctx, Hb, Hh, ⟨Hg, Ht⟩, HO, Hk⟩
  ihave Hl := (SparseCore.Cfg.ctx_levAts κ) $$ Hctx
  iapply (wp_region0_held (fun _ => Vv) (K (F := F)).lev d0 Φ)
  isplitl [Hl]; · iexact Hl
  isplitl [Hb]; · iexact Hb
  isplitl [Hh]; · iexact Hh
  isplitl [HO]
  · unfold owesB; iexists W; isplitr; · ipureintro; exact hW
    iexact HO
  isplitl [Hg]; · iexact Hg
  isplitl [Ht]; · iexact Ht
  iintro ⟨Hb, Hh, HO⟩
  iapply Hk
  isplitl [Hb]; · iexact Hb
  isplitl [Hh]; · iexact Hh
  unfold owesB; iexact HO

theorem region1_spec : RegionSpec m Nf Cf 1 (R1 (F := F)) := by
  intro κ d Vv W Φ hW
  obtain rfl : d = d0 := Subsingleton.elim _ _
  iintro ⟨#Hctx, Hb, Hh, ⟨Hg, Ht⟩, HO, Hk⟩
  ihave Hl := (SparseCore.Cfg.ctx_levAts κ) $$ Hctx
  iapply (wp_region1_held (fun _ => Vv) (K (F := F)).lev d0 Φ)
  isplitl [Hl]; · iexact Hl
  isplitl [Hb]; · iexact Hb
  isplitl [Hh]; · iexact Hh
  isplitl [HO]
  · unfold owesB; iexists W; isplitr; · ipureintro; exact hW
    iexact HO
  isplitl [Hg]; · iexact Hg
  isplitl [Ht]; · iexact Ht
  iintro ⟨Hb, Hh, HO⟩
  iapply Hk
  isplitl [Hb]; · iexact Hb
  isplitl [Hh]; · iexact Hh
  unfold owesB; iexact HO

end Spec

end Cert.Kernel.TcRegions

end
-- ==== Proof.Bits.PartsLib.lean ====
/-
  One unrolled step of a tile's row sums, as pure functions of the two staged chunks.

  A tile sums, for the 16 rows of a group at once (one row per lane), the 128 squared differences of the row of the
  first chunk and the row of the second. Lane x owns row `rows x` of the 160 x 128 chunks and at each step reads both
  chunks at the same column, `cols x`: the step adds (P[r, c] - T[r, c])^2 to one of four accumulators. The column
  vector of a step is the running base vector plus two small constants, masked to seven bits: it always names a column
  of the chunk, whatever the base, so the only fact a step needs of its index vectors is that every row index is below
  160.
-/
import proofs.«205036_g29618094473603_cont_9to1_1720_19_alg».proof.Kernel
import Idealize.ShloMosaic.Lib.SparseCore.Ops
import Idealize.ShloMosaic.Lib.ValueIdx

noncomputable section

namespace Cert.Kernel.TileParts

open Cert.Kernel
open Idealize.ShloMosaic
open Idealize.ShloMosaic.ValueIdx

variable {F : FTy → Type} [FloatOps F]

/-! ## The index vectors -/

/-- The column vector of a step: the base vector plus the constants `a` and `b`, masked to seven bits. -/
def colAt (base : IVec S16 32) (a b : BitVec 32) : IVec S16 32 :=
  andi (addi (addi base (broadcast S16 a)) (broadcast S16 b)) (broadcast S16 127#32)

omit [FloatOps F] in
/-- A word masked to seven bits is below 128. -/
theorem and127_lt (w : BitVec 32) : (IntOp.andi w 127#32).toNat < 128 := by
  show (w &&& 127#32).toNat < 128
  rw [BitVec.toNat_and]
  exact Nat.lt_of_le_of_lt Nat.and_le_right (by decide)

omit [FloatOps F] in
/-- A masked word is the word modulo 128. -/
theorem and127_toNat (w : BitVec 32) : (IntOp.andi w 127#32).toNat = w.toNat % 128 := by
  show (w &&& 127#32).toNat = w.toNat % 128
  rw [BitVec.toNat_and]
  exact Nat.and_two_pow_sub_one_eq_mod w.toNat 7

omit [FloatOps F] in
theorem colAt_lt (base : IVec S16 32) (a b : BitVec 32) (x : S16.Idx) : (colAt base a b x).toNat < 128 := and127_lt _

omit [FloatOps F] in
/-- The column a lane reads, as a number: base plus the two constants, modulo 128 (the sum's wrap at 2^32 does not show). -/
theorem colAt_toNat (base : IVec S16 32) (a b : BitVec 32) (x : S16.Idx) :
    (colAt base a b x).toNat = ((base x).toNat + a.toNat + b.toNat) % 128 := by
  show (IntOp.andi (base x + a + b) 127#32).toNat = _
  rw [and127_toNat, BitVec.toNat_add, BitVec.toNat_add]
  omega

omit [FloatOps F] in
/-- Row indices below 160 and a masked column vector: every index names an element of the chunk. -/
theorem inb_col {rows : IVec S16 32} (hr : ∀ x, (rows x).toNat < 160) (base : IVec S16 32) (a b : BitVec 32) :
    ∀ (ax : Fin S160x128.rank) (x : S16.Idx), ((![rows, colAt base a b] : Fin 2 → IVec S16 32) ax x).toNat < S160x128.size ax := by
  intro ax x
  match ax with
  | ⟨0, _⟩ => exact hr x
  | ⟨1, _⟩ => exact colAt_lt base a b x

omit [FloatOps F] in
/-- The same fact twice: the side condition a step's two reads share. -/
theorem chk_col {rows : IVec S16 32} (hr : ∀ x, (rows x).toNat < 160) (base : IVec S16 32) (a b : BitVec 32) :
    (∀ (ax : Fin S160x128.rank) (x : S16.Idx), ((![rows, colAt base a b] : Fin 2 → IVec S16 32) ax x).toNat < S160x128.size ax) ∧
    (∀ (ax : Fin S160x128.rank) (x : S16.Idx), ((![rows, colAt base a b] : Fin 2 → IVec S16 32) ax x).toNat < S160x128.size ax) :=
  ⟨inb_col hr base a b, inb_col hr base a b⟩

omit [FloatOps F] in
/-- From a step's side condition: every row index is below 160. -/
theorem rows_lt {rows cols : IVec S16 32}
    (h : ∀ (ax : Fin S160x128.rank) (x : S16.Idx), ((![rows, cols] : Fin 2 → IVec S16 32) ax x).toNat < S160x128.size ax) :
    ∀ x, (rows x).toNat < 160 := fun x => h (0 : Fin 2) x

/-! ## One step -/

/-- One step: the accumulator plus the square of the difference of the two chunks' elements at the lanes' indices. -/
def sqAcc (P T : Vec F S160x128 .f32) (rows cols : IVec S16 32)
    (h : ∀ (ax : Fin S160x128.rank) (x : S16.Idx), ((![rows, cols] : Fin 2 → IVec S16 32) ax x).toNat < S160x128.size ax)
    (acc : FVec F S16 .f32) : FVec F S16 .f32 :=
  addf acc (mulf (subf (loadIdx P ![rows, cols] h) (loadIdx T ![rows, cols] h)) (subf (loadIdx P ![rows, cols] h) (loadIdx T ![rows, cols] h)))

/-- The element of a chunk that lane `x` reads. -/
def laneIdx {rows cols : IVec S16 32}
    (h : ∀ (ax : Fin S160x128.rank) (x : S16.Idx), ((![rows, cols] : Fin 2 → IVec S16 32) ax x).toNat < S160x128.size ax)
    (x : S16.Idx) : S160x128.Idx :=
  ix2 (⟨(rows x).toNat, h (0 : Fin 2) x⟩ : Fin 160) (⟨(cols x).toNat, h (1 : Fin 2) x⟩ : Fin 128)

omit [FloatOps F] in
theorem idxAt_eq {rows cols : IVec S16 32}
    (h : ∀ (ax : Fin S160x128.rank) (x : S16.Idx), ((![rows, cols] : Fin 2 → IVec S16 32) ax x).toNat < S160x128.size ax)
    (x : S16.Idx) : idxAt (s := S160x128) ![rows, cols] h x = laneIdx h x := by
  funext ax
  match ax with
  | ⟨0, _⟩ => rfl
  | ⟨1, _⟩ => rfl

/-- A step at a lane, for any float instance. -/
theorem sqAcc_apply (P T : Vec F S160x128 .f32) (rows cols : IVec S16 32)
    (h : ∀ (ax : Fin S160x128.rank) (x : S16.Idx), ((![rows, cols] : Fin 2 → IVec S16 32) ax x).toNat < S160x128.size ax)
    (acc : FVec F S16 .f32) (x : S16.Idx) :
    sqAcc P T rows cols h acc x
      = FloatOps.addf (acc x) (FloatOps.mulf (FloatOps.subf (P (laneIdx h x)) (T (laneIdx h x))) (FloatOps.subf (P (laneIdx h x)) (T (laneIdx h x)))) := by
  rw [← idxAt_eq]; rfl

/-- A step at a lane, on the extended reals: the accumulator plus the squared difference. -/
theorem sqAcc_ideal (P T : Vec Ideal S160x128 .f32) (rows cols : IVec S16 32)
    (h : ∀ (ax : Fin S160x128.rank) (x : S16.Idx), ((![rows, cols] : Fin 2 → IVec S16 32) ax x).toNat < S160x128.size ax)
    (acc : FVec Ideal S16 .f32) (x : S16.Idx) :
    sqAcc P T rows cols h acc x = acc x + (P (laneIdx h x) - T (laneIdx h x)) * (P (laneIdx h x) - T (laneIdx h x)) :=
  sqAcc_apply P T rows cols h acc x

/-- A step does not depend on which proof of the side condition it is given. -/
theorem sqAcc_congr (P T : Vec F S160x128 .f32) {rows cols cols' : IVec S16 32} (e : cols = cols')
    (h : ∀ (ax : Fin S160x128.rank) (x : S16.Idx), ((![rows, cols] : Fin 2 → IVec S16 32) ax x).toNat < S160x128.size ax)
    (h' : ∀ (ax : Fin S160x128.rank) (x : S16.Idx), ((![rows, cols'] : Fin 2 → IVec S16 32) ax x).toNat < S160x128.size ax)
    (acc : FVec F S16 .f32) : sqAcc P T rows cols h acc = sqAcc P T rows cols' h' acc := by
  subst e; rfl

end Cert.Kernel.TileParts

end
-- ==== Proof.Bits.TilePure.lean ====
/-
  A tile's arithmetic as pure terms of what it has staged, for every float instance.

  A tile walks 35 chunks of 10 groups of 16 rows. Lane x of group g owns row 16 g + x of the chunk's two staged
  160 x 128 buffers P, T. It sums the row's 128 squared differences in four accumulators over four outer trips of 32
  steps: at outer trip dd, step 4 j + q adds into accumulator q the squared difference at column
  (x + 32 dd + 4 j + q) mod 128. The row's value is (a0 + a1) + (a2 + a3). The group then adds, lane by lane, that value
  times the row's flag into entry (the row's segment id, x) of the tile's 64 x 16 table of masked sums, and the flag
  into the same entry of the table of counts. Both tables start at zero.
-/
import proofs.«205036_g29618094473603_cont_9to1_1720_19_alg».proof.Proof.Bits.PartsLib

noncomputable section

namespace Cert.Kernel.TilePure

open Idealize.ShloMosaic Cert.Kernel Cert.Kernel.Facts₀ Cert.Kernel.Facts
open Cert.Kernel.TileParts (colAt sqAcc inb_col)

variable {F : FTy → Type} [FloatOps F] [Facts]

/-! ## The index vectors -/

/-- The lane numbers 0 … 15. -/
def lanes : IVec S16 32 := iota .scVector S16 32 [0] iota_S16_d0_w32_scVector

/-- The zero vector the accumulators start from. -/
def zero16 : FVec F S16 .f32 := broadcast S16 (Scalar.ofBits .f32 0x00000000#32 : F .f32)

/-- The rows of the chunk that group `g`'s lanes own: lane number plus 16 g. -/
def rowsVec (g : ℕ) : IVec S16 32 := addi lanes (broadcast S16 (Scalar.muli (Scf.iv 0#32 1#32 g) 16#32))

/-- The lanes' rotated column base at outer trip `dd`: lane number plus 32 dd. -/
def baseVec (dd : ℕ) : IVec S16 32 := addi lanes (broadcast S16 (Scalar.muli (Scf.iv 0#32 1#32 dd) 32#32))

/-! ## One row's value -/

/-- Accumulator `q` after one outer trip from `acc`: its eight steps, at column constants (4 j, q), j = 0 … 7 in order. -/
def tripAcc (P T : Vec F S160x128 .f32) (rows : IVec S16 32) (hr : ∀ x, (rows x).toNat < 160) (base : IVec S16 32)
    (q : BitVec 32) (acc : FVec F S16 .f32) : FVec F S16 .f32 :=
  [0#32, 4#32, 8#32, 12#32, 16#32, 20#32, 24#32, 28#32].foldl
    (fun a c => sqAcc P T rows (colAt base c q) (inb_col hr base c q) a) acc

/-- Accumulator `q` after the four outer trips, from the zero vector. -/
def laneAcc (P T : Vec F S160x128 .f32) (rows : IVec S16 32) (hr : ∀ x, (rows x).toNat < 160) (q : BitVec 32) :
    FVec F S16 .f32 :=
  [0, 1, 2, 3].foldl (fun a dd => tripAcc P T rows hr (baseVec dd) q a) zero16

/-- The rows' values as the lanes form them: (a0 + a1) + (a2 + a3). -/
def mse (P T : Vec F S160x128 .f32) (rows : IVec S16 32) (hr : ∀ x, (rows x).toNat < 160) : FVec F S16 .f32 :=
  addf (addf (laneAcc P T rows hr 0#32) (laneAcc P T rows hr 1#32)) (addf (laneAcc P T rows hr 2#32) (laneAcc P T rows hr 3#32))

/-! ## The tables -/

/-- The side condition of a group's two indexed stores: every segment id names a row of the table (the lane numbers
    name its columns). -/
abbrev IdsOk (ids : IVec S16 32) : Prop :=
  ∀ (a : Fin S64x16.rank) (x : S16.Idx), ((![ids, lanes] : Fin 2 → IVec S16 32) a x).toNat < S64x16.size a

/-- A table after one group's indexed add-store of `v` at (segment id of lane x, x). -/
def addAt (tab : Vec F S64x16 .f32) (ids : IVec S16 32) (h : IdsOk ids) (v : FVec F S16 .f32) : Vec F S64x16 .f32 :=
  storeIdx tab ![ids, lanes] v (fun _ => 1#1) true h

/-- The table of masked sums after group `g` of a chunk: the rows' values times the flags, added in. -/
def groupNum (P T : Vec F S160x128 .f32) (g : Fin 10) (hr : ∀ x, (rowsVec g.val x).toNat < 160) (ids : IVec S16 32)
    (h : IdsOk ids) (fl : FVec F S16 .f32) (tab : Vec F S64x16 .f32) : Vec F S64x16 .f32 :=
  addAt tab ids h (mulf (mse P T (rowsVec g.val) hr) fl)

/-- The table of counts after a group: the flags added in. -/
def groupCnt (ids : IVec S16 32) (h : IdsOk ids) (fl : FVec F S16 .f32) (tab : Vec F S64x16 .f32) : Vec F S64x16 .f32 :=
  addAt tab ids h fl

/-- The all-zero table both tables start as. -/
def zeroTab : Vec F S64x16 .f32 := fun _ => (Scalar.ofBits .f32 0x00000000#32 : F .f32)

section Tile

variable (hr : ∀ (g : Fin 10) x, (rowsVec g.val x).toNat < 160)
variable (P T : Fin 35 → Vec F S160x128 .f32) (ids : Fin 35 → Fin 10 → IVec S16 32) (hid : ∀ c g, IdsOk (ids c g))
variable (fl : Fin 35 → Fin 10 → FVec F S16 .f32)

/-- The table of masked sums after chunk `c`'s ten groups, in order, from `tab`. -/
def chunkNum (c : Fin 35) (tab : Vec F S64x16 .f32) : Vec F S64x16 .f32 :=
  (List.finRange 10).foldl (fun tb g => groupNum (P c) (T c) g (hr g) (ids c g) (hid c g) (fl c g) tb) tab

/-- The table of counts after chunk `c`'s ten groups. -/
def chunkCnt (c : Fin 35) (tab : Vec F S64x16 .f32) : Vec F S64x16 .f32 :=
  (List.finRange 10).foldl (fun tb g => groupCnt (ids c g) (hid c g) (fl c g) tb) tab

/-- The tile's table of masked sums after its 35 chunks, in order, from the zero table. -/
def tileNum : Vec F S64x16 .f32 :=
  (List.finRange 35).foldl (fun tb c => chunkNum hr P T ids hid fl c tb) zeroTab

/-- The tile's table of counts after its 35 chunks. -/
def tileCnt : Vec F S64x16 .f32 :=
  (List.finRange 35).foldl (fun tb c => chunkCnt ids hid fl c tb) zeroTab

end Tile

end Cert.Kernel.TilePure

end
-- ==== Proof.Bits.TilePureIdeal.lean ====
/-
  A tile's pure terms read at the ideal instance: the rows' values and the two tables are the kernel's closed forms.

  Lane l of group g owns row 16 g + l of the staged chunk; at outer trip dd its column base is l + 32 dd, and the step
  with constants (4 j, q) reads column (l + 32 dd + 4 j + q) mod 128 (the seven-bit mask is the remainder modulo 128,
  and no sum of the small numbers involved wraps at 2^32). So accumulator q ends as the sum over dd and j of the squared
  differences at those columns, and the row's value is (a0 + a1) + (a2 + a3): the closed form's lane-ordered sum, once
  the staged chunk is read as the whole arrays' rows.

  A group's indexed add-store names, for lane l, the entry (segment id of lane l, l). Two lanes never name the same
  entry, because the second index is the lane's own number: read at entry (s, l), the sixteen lane-steps add lane l's
  value exactly when its segment id is s, and nothing otherwise. The tables start at zero and every group adds in this
  way, so an entry ends as the sum over the 35 chunks and 10 groups, in order, of what each group added there.
-/
import Idealize.ShloMosaic.Lib.ValueLayout
import Idealize.ShloMosaic.PureOps.Ideal.Laws
import proofs.«205036_g29618094473603_cont_9to1_1720_19_alg».proof.Proof.KSpec
import proofs.«205036_g29618094473603_cont_9to1_1720_19_alg».proof.Proof.Bits.TilePure

noncomputable section

namespace Cert.Kernel.TilePure

open Idealize.ShloMosaic Idealize.ShloMosaic.ValueIdx Cert.Kernel Cert.Kernel.Facts₀ Cert.Kernel.Facts
open Cert.Kernel.TileParts (colAt sqAcc inb_col laneIdx)

variable [Facts]

/-! ### The index vectors as numbers -/

/-- Lane `l`'s number is the word of `l`. -/
theorem lanes_apply (l : Fin 16) : lanes (ix1 l) = BitVec.ofNat 32 l.val := by
  unfold lanes
  rw [iota_single_apply]

theorem lanes_toNat (l : Fin 16) : (lanes (ix1 l)).toNat = l.val := by
  rw [lanes_apply, BitVec.toNat_ofNat]
  have := l.isLt
  omega

/-- Lane `l` of group `g` owns row 16 g + l of the chunk. -/
theorem rowsVec_toNat (g : ℕ) (hg : g < 10) (l : Fin 16) : (rowsVec g (ix1 l)).toNat = l.val + 16 * g := by
  show (lanes (ix1 l) + (0#32 + BitVec.ofNat 32 g * 1#32) * 16#32).toNat = _
  rw [BitVec.toNat_add, BitVec.toNat_mul, BitVec.toNat_add, BitVec.toNat_mul, BitVec.toNat_ofNat, lanes_toNat]
  have := l.isLt
  simp only [BitVec.toNat_ofNat]
  omega

/-- Lane `l`'s column base at outer trip `dd` is l + 32 dd. -/
theorem baseVec_toNat (dd : ℕ) (hd : dd < 4) (l : Fin 16) : (baseVec dd (ix1 l)).toNat = l.val + 32 * dd := by
  show (lanes (ix1 l) + (0#32 + BitVec.ofNat 32 dd * 1#32) * 32#32).toNat = _
  rw [BitVec.toNat_add, BitVec.toNat_mul, BitVec.toNat_add, BitVec.toNat_mul, BitVec.toNat_ofNat, lanes_toNat]
  have := l.isLt
  simp only [BitVec.toNat_ofNat]
  omega

/-- Every row index of a group is inside the chunk. -/
theorem rowsVec_lt (g : Fin 10) : ∀ x : S16.Idx, (rowsVec g.val x).toNat < 160 := by
  intro x
  obtain ⟨l, rfl⟩ : ∃ l : Fin 16, x = ix1 l := ⟨x 0, eq_ix1 x⟩
  rw [rowsVec_toNat g.val g.isLt]
  have := g.isLt; have := l.isLt
  omega

/-! ### A fold of additive steps, read at one place -/

/-- Folding steps that each add `M k` at place `i` adds, at `i`, the list's sum of `M`. -/
theorem foldl_add_apply {κ ι β : Type*} [AddCommMonoid β] (step : (ι → β) → κ → (ι → β)) (M : κ → β) (i : ι)
    (hstep : ∀ t k, step t k i = t i + M k) :
    ∀ (l : List κ) (t0 : ι → β), l.foldl step t0 i = t0 i + (l.map M).sum
  | [], t0 => by simp
  | k :: l, t0 => by
    rw [List.foldl_cons, foldl_add_apply step M i hstep l, hstep, List.map_cons, List.sum_cons, add_assoc]

/-- The same over all of `Fin n` in order: the sum over `Fin n`. -/
theorem foldl_finRange_add_apply {n : ℕ} {ι β : Type*} [AddCommMonoid β] (step : (ι → β) → Fin n → (ι → β)) (M : Fin n → β)
    (i : ι) (hstep : ∀ t k, step t k i = t i + M k) (t0 : ι → β) :
    (List.finRange n).foldl step t0 i = t0 i + ∑ k : Fin n, M k := by
  rw [foldl_add_apply step M i hstep, Fin.sum_univ_def]

/-! ### A group's indexed add-store, read at an entry -/

theorem ofLane_eq (k : Fin 16) : (Shape.ofLane (d := ![16]) k : S16.Idx) = ix1 k := by
  funext a; match a with | ⟨0, _⟩ => rfl

/-- Entry (s, l) of the table after the add-store: lane l alone can name it (a lane's second index is its own number),
    and it does when its segment id is s. -/
theorem addAt_apply (tab : Vec Ideal S64x16 .f32) (ids : IVec S16 32) (h : IdsOk ids) (v : FVec Ideal S16 .f32)
    (s : Fin 64) (l : Fin 16) :
    addAt tab ids h v (ix2 s l) = tab (ix2 s l) + (if (ids (ix1 l)).toNat = s.val then v (ix1 l) else 0) := by
  unfold addAt storeIdx
  let M : Fin 16 → EReal := fun k => if k = l then (if (ids (ix1 k)).toNat = s.val then v (ix1 k) else 0) else 0
  refine (foldl_finRange_add_apply _ M (ix2 s l) ?_ tab).trans ?_
  · intro t k
    have h1 : ((fun _ : S16.Idx => (1#1 : BitVec 1)) (Shape.ofLane k) = 1) := rfl
    rw [if_pos h1]
    dsimp only
    rw [ofLane_eq, if_pos (rfl : true = true)]
    by_cases hk : k = l
    · subst hk
      by_cases hs : (ids (ix1 k)).toNat = s.val
      · have hj : idxAt ![ids, lanes] h (ix1 k) = ix2 s k := by
          funext a
          match a with
          | ⟨0, _⟩ => exact Fin.ext hs
          | ⟨1, _⟩ => exact Fin.ext (lanes_toNat k)
        rw [hj, if_pos (fun _ => rfl)]
        show t (ix2 s k) + v (ix1 k) = _
        simp only [M, if_pos hs, if_true]
      · have hn : ¬ ∀ (a : Fin 2), ((ix2 s k : S64x16.Idx) a).val = (idxAt (s := S64x16) ![ids, lanes] h (ix1 k) a).val := fun hall => by
          have h0 : s.val = (ids (ix1 k)).toNat := hall (0 : Fin 2)
          exact hs h0.symm
        rw [if_neg hn]
        simp only [M, if_neg hs, if_true, add_zero]
    · have hn : ¬ ∀ (a : Fin 2), ((ix2 s l : S64x16.Idx) a).val = (idxAt (s := S64x16) ![ids, lanes] h (ix1 k) a).val := fun hall => by
        have h1' : l.val = (lanes (ix1 k)).toNat := hall (1 : Fin 2)
        exact hk (Fin.ext ((lanes_toNat k).symm.trans h1'.symm))
      rw [if_neg hn]
      simp only [M, if_neg hk, add_zero]
  · refine congrArg (tab (ix2 s l) + ·) ?_
    simp only [M]
    rw [Finset.sum_ite_eq' Finset.univ l, if_pos (Finset.mem_univ l)]

/-! ### One row's value -/

/-- The row of the chunk that lane `l` of group `g` owns. -/
def rowIn (g : Fin 10) (l : Fin 16) : Fin 160 := ⟨l.val + 16 * g.val, by omega⟩

/-- One squared difference of the two staged chunks. -/
def d2c (P T : Vec Ideal S160x128 .f32) (r : Fin 160) (d : Fin 128) : EReal :=
  (P (ix2 r d) - T (ix2 r d)) * (P (ix2 r d) - T (ix2 r d))

/-- The element lane `l` reads at a step: its row of the chunk, at the lane-rotated column of the step. -/
theorem laneIdx_eq (g : Fin 10) (dd : Fin 4) (l : Fin 16) (c q : BitVec 32) (u : Fin 32) (hu : c.toNat + q.toNat = u.val)
    (h : ∀ (ax : Fin S160x128.rank) (x : S16.Idx),
      ((![rowsVec g.val, colAt (baseVec dd.val) c q] : Fin 2 → IVec S16 32) ax x).toNat < S160x128.size ax) :
    laneIdx h (ix1 l) = ix2 (rowIn g l) (Cert.KSpec.col l dd u) := by
  have ha : (⟨(rowsVec g.val (ix1 l)).toNat, h (0 : Fin 2) (ix1 l)⟩ : Fin 160) = rowIn g l :=
    Fin.ext (rowsVec_toNat g.val g.isLt l)
  have hb : (⟨(colAt (baseVec dd.val) c q (ix1 l)).toNat, h (1 : Fin 2) (ix1 l)⟩ : Fin 128) = Cert.KSpec.col l dd u := by
    apply Fin.ext
    show (colAt (baseVec dd.val) c q (ix1 l)).toNat = (l.val + dd.val * 32 + u.val) % 128
    rw [TileParts.colAt_toNat, baseVec_toNat dd.val dd.isLt]
    omega
  unfold laneIdx
  rw [ha, hb]

/-- One step at lane `l`: the accumulator plus the squared difference at the step's column. -/
theorem step_apply (P T : Vec Ideal S160x128 .f32) (g : Fin 10) (dd : Fin 4) (l : Fin 16) (c q : BitVec 32) (u : Fin 32)
    (hu : c.toNat + q.toNat = u.val)
    (h : ∀ (ax : Fin S160x128.rank) (x : S16.Idx),
      ((![rowsVec g.val, colAt (baseVec dd.val) c q] : Fin 2 → IVec S16 32) ax x).toNat < S160x128.size ax)
    (acc : FVec Ideal S16 .f32) :
    sqAcc P T (rowsVec g.val) (colAt (baseVec dd.val) c q) h acc (ix1 l)
      = acc (ix1 l) + d2c P T (rowIn g l) (Cert.KSpec.col l dd u) := by
  rw [TileParts.sqAcc_ideal, laneIdx_eq g dd l c q u hu]
  rfl

/-- Accumulator `q` after one outer trip, at lane `l`: what it held plus its eight squared differences. -/
theorem tripAcc_apply (P T : Vec Ideal S160x128 .f32) (g : Fin 10) (hr : ∀ x, (rowsVec g.val x).toNat < 160) (dd : Fin 4)
    (l : Fin 16) (q : Fin 4) (acc : FVec Ideal S16 .f32) :
    tripAcc P T (rowsVec g.val) hr (baseVec dd.val) (BitVec.ofNat 32 q.val) acc (ix1 l)
      = acc (ix1 l) + ∑ j : Fin 8, d2c P T (rowIn g l) (Cert.KSpec.col l dd ⟨4 * j.val + q.val, by omega⟩) := by
  have e : tripAcc P T (rowsVec g.val) hr (baseVec dd.val) (BitVec.ofNat 32 q.val) acc
      = (List.finRange 8).foldl (fun a (j : Fin 8) =>
          sqAcc P T (rowsVec g.val) (colAt (baseVec dd.val) (BitVec.ofNat 32 (4 * j.val)) (BitVec.ofNat 32 q.val))
            (inb_col hr (baseVec dd.val) (BitVec.ofNat 32 (4 * j.val)) (BitVec.ofNat 32 q.val)) a) acc := rfl
  rw [e]
  refine foldl_finRange_add_apply _ _ (ix1 l) (fun t j => ?_) acc
  refine step_apply P T g dd l _ _ ⟨4 * j.val + q.val, by omega⟩ ?_ _ t
  show (BitVec.ofNat 32 (4 * j.val)).toNat + (BitVec.ofNat 32 q.val).toNat = 4 * j.val + q.val
  rw [BitVec.toNat_ofNat, BitVec.toNat_ofNat]
  have := j.isLt; have := q.isLt
  omega

/-- Accumulator `q` after the four outer trips, at lane `l`: its 32 squared differences, by outer trip and inner step. -/
theorem laneAcc_apply (P T : Vec Ideal S160x128 .f32) (g : Fin 10) (hr : ∀ x, (rowsVec g.val x).toNat < 160) (l : Fin 16)
    (q : Fin 4) :
    laneAcc P T (rowsVec g.val) hr (BitVec.ofNat 32 q.val) (ix1 l)
      = ∑ dd : Fin 4, ∑ j : Fin 8, d2c P T (rowIn g l) (Cert.KSpec.col l dd ⟨4 * j.val + q.val, by omega⟩) := by
  have e : laneAcc P T (rowsVec g.val) hr (BitVec.ofNat 32 q.val)
      = (List.finRange 4).foldl (fun a (dd : Fin 4) =>
          tripAcc P T (rowsVec g.val) hr (baseVec dd.val) (BitVec.ofNat 32 q.val) a) zero16 := rfl
  rw [e]
  refine (foldl_finRange_add_apply _ _ (ix1 l) (fun t dd => tripAcc_apply P T g hr dd l q t) zero16).trans ?_
  show Ideal.ofBits .f32 0x00000000#32 + _ = _
  rw [Ideal.ofBits_zero_f32, zero_add]

/-- The row's value as lane `l` forms it, from the staged chunks. -/
theorem mse_apply (P T : Vec Ideal S160x128 .f32) (g : Fin 10) (hr : ∀ x, (rowsVec g.val x).toNat < 160) (l : Fin 16) :
    mse P T (rowsVec g.val) hr (ix1 l)
      = ((∑ dd : Fin 4, ∑ j : Fin 8, d2c P T (rowIn g l) (Cert.KSpec.col l dd ⟨4 * j.val + (0 : Fin 4).val, by omega⟩))
          + ∑ dd : Fin 4, ∑ j : Fin 8, d2c P T (rowIn g l) (Cert.KSpec.col l dd ⟨4 * j.val + (1 : Fin 4).val, by omega⟩))
        + ((∑ dd : Fin 4, ∑ j : Fin 8, d2c P T (rowIn g l) (Cert.KSpec.col l dd ⟨4 * j.val + (2 : Fin 4).val, by omega⟩))
          + ∑ dd : Fin 4, ∑ j : Fin 8, d2c P T (rowIn g l) (Cert.KSpec.col l dd ⟨4 * j.val + (3 : Fin 4).val, by omega⟩)) := by
  unfold mse
  rw [addf_apply, addf_apply, addf_apply]
  rw [← laneAcc_apply P T g hr l 0, ← laneAcc_apply P T g hr l 1, ← laneAcc_apply P T g hr l 2, ← laneAcc_apply P T g hr l 3]
  rfl

/-- When the staged chunks hold row `i` of the whole arrays at lane `l`'s row, the lane's value is the closed form's. -/
theorem mse_eq_sqSC (p t : Cert.Spec.SRows.Idx → EReal) (i : Fin 320000) (P T : Vec Ideal S160x128 .f32) (g : Fin 10)
    (hr : ∀ x, (rowsVec g.val x).toNat < 160) (l : Fin 16)
    (hP : ∀ d : Fin 128, P (ix2 (rowIn g l) d) = p (ix2 i d)) (hT : ∀ d : Fin 128, T (ix2 (rowIn g l) d) = t (ix2 i d)) :
    mse P T (rowsVec g.val) hr (ix1 l) = Cert.KSpec.sqSC p t i l := by
  rw [mse_apply]
  have hd : ∀ d, d2c P T (rowIn g l) d = Cert.KSpec.d2 p t i d := fun d => by
    unfold d2c Cert.KSpec.d2; rw [hP, hT]
  simp only [hd]
  rfl

/-! ### The tables -/

/-- Segment ids below 64 name rows of the table. -/
theorem idsOk_of_lt (ids : IVec S16 32) (h : ∀ x, (ids x).toNat < 64) : IdsOk ids := by
  intro a x
  match a with
  | ⟨0, _⟩ => exact h x
  | ⟨1, _⟩ =>
    obtain ⟨l, rfl⟩ : ∃ l : Fin 16, x = ix1 l := ⟨x 0, eq_ix1 x⟩
    show (lanes (ix1 l)).toNat < 16
    rw [lanes_toNat]; exact l.isLt

theorem groupNum_apply (P T : Vec Ideal S160x128 .f32) (g : Fin 10) (hr : ∀ x, (rowsVec g.val x).toNat < 160)
    (ids : IVec S16 32) (h : IdsOk ids) (fl : FVec Ideal S16 .f32) (tab : Vec Ideal S64x16 .f32) (s : Fin 64) (l : Fin 16) :
    groupNum P T g hr ids h fl tab (ix2 s l)
      = tab (ix2 s l) + (if (ids (ix1 l)).toNat = s.val then mse P T (rowsVec g.val) hr (ix1 l) * fl (ix1 l) else 0) := by
  unfold groupNum
  rw [addAt_apply, mulf_apply]

theorem groupCnt_apply (ids : IVec S16 32) (h : IdsOk ids) (fl : FVec Ideal S16 .f32) (tab : Vec Ideal S64x16 .f32)
    (s : Fin 64) (l : Fin 16) :
    groupCnt ids h fl tab (ix2 s l) = tab (ix2 s l) + (if (ids (ix1 l)).toNat = s.val then fl (ix1 l) else 0) := by
  unfold groupCnt
  rw [addAt_apply]

section Tile

variable (hr : ∀ (g : Fin 10) x, (rowsVec g.val x).toNat < 160)
variable (P T : Fin 35 → Vec Ideal S160x128 .f32) (ids : Fin 35 → Fin 10 → IVec S16 32) (hid : ∀ c g, IdsOk (ids c g))
variable (fl : Fin 35 → Fin 10 → FVec Ideal S16 .f32)

theorem chunkNum_apply (c : Fin 35) (tab : Vec Ideal S64x16 .f32) (s : Fin 64) (l : Fin 16) :
    chunkNum hr P T ids hid fl c tab (ix2 s l)
      = tab (ix2 s l) + ∑ g : Fin 10, (if (ids c g (ix1 l)).toNat = s.val
          then mse (P c) (T c) (rowsVec g.val) (hr g) (ix1 l) * fl c g (ix1 l) else 0) := by
  unfold chunkNum
  exact foldl_finRange_add_apply _ _ (ix2 s l) (fun tb g => groupNum_apply (P c) (T c) g (hr g) (ids c g) (hid c g) (fl c g) tb s l) tab

theorem chunkCnt_apply (c : Fin 35) (tab : Vec Ideal S64x16 .f32) (s : Fin 64) (l : Fin 16) :
    chunkCnt ids hid fl c tab (ix2 s l)
      = tab (ix2 s l) + ∑ g : Fin 10, (if (ids c g (ix1 l)).toNat = s.val then fl c g (ix1 l) else 0) := by
  unfold chunkCnt
  exact foldl_finRange_add_apply _ _ (ix2 s l) (fun tb g => groupCnt_apply (ids c g) (hid c g) (fl c g) tb s l) tab

/-- Entry (s, l) of the tile's table of masked sums: over its 350 groups, the group's row of lane l where that row's
    segment id is s. -/
theorem tileNum_apply (s : Fin 64) (l : Fin 16) :
    tileNum hr P T ids hid fl (ix2 s l)
      = ∑ c : Fin 35, ∑ g : Fin 10, (if (ids c g (ix1 l)).toNat = s.val
          then mse (P c) (T c) (rowsVec g.val) (hr g) (ix1 l) * fl c g (ix1 l) else 0) := by
  unfold tileNum
  refine (foldl_finRange_add_apply _ _ (ix2 s l) (fun tb c => chunkNum_apply hr P T ids hid fl c tb s l) zeroTab).trans ?_
  show Ideal.ofBits .f32 0x00000000#32 + _ = _
  rw [Ideal.ofBits_zero_f32, zero_add]

theorem tileCnt_apply (s : Fin 64) (l : Fin 16) :
    tileCnt ids hid fl (ix2 s l)
      = ∑ c : Fin 35, ∑ g : Fin 10, (if (ids c g (ix1 l)).toNat = s.val then fl c g (ix1 l) else 0) := by
  unfold tileCnt
  refine (foldl_finRange_add_apply _ _ (ix2 s l) (fun tb c => chunkCnt_apply ids hid fl c tb s l) zeroTab).trans ?_
  show Ideal.ofBits .f32 0x00000000#32 + _ = _
  rw [Ideal.ofBits_zero_f32, zero_add]

/-- With tile `w`'s chunks staged from the whole arrays — chunk c's row 16 g + l is row 140800 + 5600 w + 160 c + 16 g + l —
    and the groups' loaded segment ids and flags those rows', the tile's table of masked sums is the closed form's. -/
theorem tileNum_eq_tabNum (p t : Cert.Spec.SRows.Idx → EReal) (f : Cert.Spec.SN.Idx → BitVec 1) (b : Cert.Spec.SN.Idx → BitVec 32)
    (w : Fin 32)
    (hP : ∀ c g l (d : Fin 128), P c (ix2 (rowIn g l) d) = p (ix2 (Cert.KSpec.rowSC w c g l) d))
    (hT : ∀ c g l (d : Fin 128), T c (ix2 (rowIn g l) d) = t (ix2 (Cert.KSpec.rowSC w c g l) d))
    (hids : ∀ c g l, ids c g (ix1 l) = b (ix1 (Cert.KSpec.rowSC w c g l)))
    (hfl : ∀ c g l, fl c g (ix1 l) = Cert.Spec.fl f (Cert.KSpec.rowSC w c g l)) (s : Fin 64) (l : Fin 16) :
    tileNum hr P T ids hid fl (ix2 s l) = Cert.KSpec.tabNum p t f b w s l := by
  rw [tileNum_apply]
  unfold Cert.KSpec.tabNum
  refine Finset.sum_congr rfl fun c _ => Finset.sum_congr rfl fun g _ => ?_
  rw [hids, hfl, mse_eq_sqSC p t (Cert.KSpec.rowSC w c g l) (P c) (T c) g (hr g) l (hP c g l) (hT c g l)]

/-- The same for the table of counts. -/
theorem tileCnt_eq_tabCnt (f : Cert.Spec.SN.Idx → BitVec 1) (b : Cert.Spec.SN.Idx → BitVec 32) (w : Fin 32)
    (hids : ∀ c g l, ids c g (ix1 l) = b (ix1 (Cert.KSpec.rowSC w c g l)))
    (hfl : ∀ c g l, fl c g (ix1 l) = Cert.Spec.fl f (Cert.KSpec.rowSC w c g l)) (s : Fin 64) (l : Fin 16) :
    tileCnt ids hid fl (ix2 s l) = Cert.KSpec.tabCnt f b w s l := by
  rw [tileCnt_apply]
  unfold Cert.KSpec.tabCnt
  refine Finset.sum_congr rfl fun c _ => Finset.sum_congr rfl fun g _ => ?_
  rw [hids, hfl]

end Tile

end Cert.Kernel.TilePure

end
-- ==== Proof.Bits.TileVal.lean ====
/-
  What a tile stages and what its two tables end as, as pure functions of the four input arrays and the tile's
  coordinates.

  Tile (c, s) is tile number w = 16 c + s and owns rows 140800 + 5600 w … of the arrays. Chunk k of the tile (k < 35)
  is the 160 rows from 140800 + 5600 w + 160 k; group g of a chunk (g < 10) is its 16 rows from 16 g. A staging slot
  holds, once chunk k has landed, the read of the array through the kernel's own slice at that offset; the staged ids
  and flags are the reads of the tile's 5600 rows; a group's id and flag vectors are the loads of 16 of them.
-/
import proofs.«205036_g29618094473603_cont_9to1_1720_19_alg».proof.Proof.Bits.TileLoopsBridge
import proofs.«205036_g29618094473603_cont_9to1_1720_19_alg».proof.Proof.Bits.TilePureIdeal

noncomputable section

namespace Cert.Kernel.Tile

open Cert.Kernel
open Facts₀ Facts
open Idealize.ShloMosaic
open Idealize.ShloMosaic.ValueIdx

variable {F : FTy → Type} [FloatOps F]

/-! ## Offsets -/

/-- The offsets of chunk `k` of the tile at `L` in a 320000 x 128 array. -/
def chunkOff (L : grid0.Coords) (k : ℕ) : Fin 2 → ℕ := ![89600 * (L 0).val + 5600 * (L 1).val + 140800 + 160 * k, 0]

omit [FloatOps F] in
theorem chunkOff_inb (L : grid0.Coords) (k : Fin 35) : ∀ a, chunkOff L k.val a + S160x128.size a ≤ S320000x128.size a := by
  have h0 : (L 0).val < 2 := (L 0).isLt
  have h1 : (L 1).val < 16 := (L 1).isLt
  have hk := k.isLt
  intro a
  match a with
  | ⟨0, _⟩ => show 89600 * (L 0).val + 5600 * (L 1).val + 140800 + 160 * k.val + 160 ≤ 320000; omega
  | ⟨1, _⟩ => show 0 + 128 ≤ 128; omega

/-- Chunk `k` as a rectangle of a 320000 x 128 array. -/
abbrev chunkRect (L : grid0.Coords) (k : Fin 35) : Rect S320000x128 :=
  Rect.unit (s := S320000x128) (chunkOff L k.val) S160x128.size (chunkOff_inb L k)

/-- The offset of group `g` of chunk `k` among the tile's 5600 staged rows. -/
def grpOff (k g : ℕ) : Fin 1 → ℕ := ![160 * k + 16 * g]

omit [FloatOps F] in
theorem grpOff_inb (k : Fin 35) (g : Fin 10) : ∀ a, grpOff k.val g.val a + S16.size a ≤ S5600.size a := by
  have hk := k.isLt
  have hg := g.isLt
  intro a
  match a with
  | ⟨0, _⟩ => show 160 * k.val + 16 * g.val + 16 ≤ 5600; omega

/-- Group `g` of chunk `k` as a rectangle of the 5600 staged rows. -/
abbrev grpRect (k : Fin 35) (g : Fin 10) : Rect S5600 := Rect.unit (s := S5600) (grpOff k.val g.val) S16.size (grpOff_inb k g)

/-- The tile's 5600 rows as a rectangle of a 320000-row array. -/
abbrev rowsRect (L : grid0.Coords) : Rect S320000 := Rect.unit (s := S320000) (k0_off1 L) S5600.size (k0_off1_inb L)

/-! ## What is staged -/

/-- What the pred slot holds once chunk `k` has landed. -/
def stP (L : grid0.Coords) (p : Vec F S320000x128 .f32) (k : Fin 35) : Vec F S160x128 .f32 :=
  View.read (Elt F) (pW.slice (chunkRect L k) (fun _ => rfl)).view p
/-- What the tgt slot holds once chunk `k` has landed. -/
def stT (L : grid0.Coords) (t : Vec F S320000x128 .f32) (k : Fin 35) : Vec F S160x128 .f32 :=
  View.read (Elt F) (tW.slice (chunkRect L k) (fun _ => rfl)).view t
/-- The tile's staged segment ids. -/
def sIds (F : FTy → Type) (L : grid0.Coords) (b : Vec F S320000 .i32) : Vec F S5600 .i32 :=
  View.read (Elt F) (bW.slice (rowsRect L) (fun _ => rfl)).view b
/-- The tile's staged flags. -/
def sFls (L : grid0.Coords) (fl : Vec F S320000 .f32) : Vec F S5600 .f32 :=
  View.read (Elt F) (fW.slice (rowsRect L) (fun _ => rfl)).view fl

/-- The segment ids group `g` of chunk `k` loads. -/
def ids (F : FTy → Type) (L : grid0.Coords) (b : Vec F S320000 .i32) (k : Fin 35) (g : Fin 10) : IVec S16 32 :=
  sB.view.readAt (Elt F) (grpRect k g).toLoadRect (sIds F L b)
/-- The flags group `g` of chunk `k` loads. -/
def fls (L : grid0.Coords) (fl : Vec F S320000 .f32) (k : Fin 35) (g : Fin 10) : FVec F S16 .f32 :=
  sFl.view.readAt (Elt F) (grpRect k g).toLoadRect (sFls L fl)

/-! ## The tables -/

/-- Segment ids below 64 in the array are below 64 once staged and loaded. -/
theorem ids_lt (L : grid0.Coords) {b : Vec F S320000 .i32} (hb : ∀ i : S320000.Idx, ((b : S320000.Idx → BitVec 32) i).toNat < 64)
    (k : Fin 35) (g : Fin 10) (x : S16.Idx) : (ids F L b k g x).toNat < 64 := by
  unfold ids sIds
  simp only [View.readAt_apply, Memref.view_whole, View.read_whole, View.read_apply, cast_eq]
  exact hb _

/-- The tile's table of masked sums. -/
def tabN (L : grid0.Coords) (p t : Vec F S320000x128 .f32) (b : Vec F S320000 .i32)
    (hb : ∀ i : S320000.Idx, ((b : S320000.Idx → BitVec 32) i).toNat < 64) (fl : Vec F S320000 .f32) : Vec F S64x16 .f32 :=
  TilePure.tileNum (fun g => TilePure.rowsVec_lt g) (stP L p) (stT L t) (ids F L b)
    (fun k g => TilePure.idsOk_of_lt _ (ids_lt L hb k g)) (fls L fl)

/-- The tile's table of counts. -/
def tabC (L : grid0.Coords) (b : Vec F S320000 .i32)
    (hb : ∀ i : S320000.Idx, ((b : S320000.Idx → BitVec 32) i).toNat < 64) (fl : Vec F S320000 .f32) : Vec F S64x16 .f32 :=
  TilePure.tileCnt (ids F L b) (fun k g => TilePure.idsOk_of_lt _ (ids_lt L hb k g)) (fls L fl)

end Cert.Kernel.Tile

end
-- ==== Proof.Bits.FinalG.lean ====
/-
  The kernel's run and frame from the tile kernel's specification, for any float instance.

  The 32 tiles' tables are the pure tables of the tile at the coordinates of tile w (w = 16 c + i); the two regions'
  updates are the TensorCore pipelines' own. The run ends with every argument at its launch contents, because no
  operation of @main writes an argument. Also: what the two reshaped arrays hold that the first region reads.
-/
import proofs.«205036_g29618094473603_cont_9to1_1720_19_alg».proof.Proof.Bits.LaunchFin
import proofs.«205036_g29618094473603_cont_9to1_1720_19_alg».proof.Proof.Bits.TcRegionV
import proofs.«205036_g29618094473603_cont_9to1_1720_19_alg».proof.Proof.Bits.TileVal

noncomputable section

namespace Cert.Kernel.Final

open Cert.Kernel Cert.Kernel.Tile Cert.Kernel.Launch
open Cert.Kernel.Facts₀ Cert.Kernel.Facts
open Cert.Kernel.TcRegions (R0 R1 region0_spec region1_spec R0_other R1_other UP)
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Cert.Kernel.Facts]

local notation "𝕄" => MT nD τ sig (HIx 1) (Elt F) ℕ (UU UP) ℕ

variable (m : (ℓ : Loc nD τ sig) → Buf (Elt F) ℓ)

/-- The one device. -/
abbrev d0 : Dev nD := (0 : Fin 1)

/-- Every segment id names a row of a table. -/
def HB : Prop := ∀ i : S320000.Idx, ((m (bLoc d0) : S320000.Idx → BitVec 32) i).toNat < 64

/-! ## Tile numbers and tile coordinates -/

/-- The coordinates of tile `w`: SparseCore `w / 16`, subcore `w % 16`. -/
def LofW (w : Fin 32) : grid0.Coords :=
  coordsV ⟨w.val / 16, by have := w.isLt; show _ < 2; omega⟩ ⟨w.val % 16, by show _ < 16; exact Nat.mod_lt _ (by norm_num)⟩

theorem wL_LofW (w : Fin 32) : wL (LofW w) = w := by
  apply Fin.ext
  show 16 * (w.val / 16) + w.val % 16 = w.val
  omega

theorem LofW_wL (L : grid0.Coords) : LofW (wL L) = L := by
  have h0 : (L 0).val < 2 := (L 0).isLt
  have h1 : (L 1).val < 16 := (L 1).isLt
  funext a
  match a with
  | ⟨0, _⟩ => exact Fin.ext (show (16 * (L 0).val + (L 1).val) / 16 = (L 0).val by omega)
  | ⟨1, _⟩ => exact Fin.ext (show (16 * (L 0).val + (L 1).val) % 16 = (L 1).val by omega)

/-! ## The tables -/

def Nf (hb : HB m) : Fin 32 → FVec F S64x16 .f32 := fun w => tabN (LofW w) (m (pLoc d0)) (m (tLoc d0)) (m (bLoc d0)) hb (flOf m d0)
def Cf (hb : HB m) : Fin 32 → FVec F S64x16 .f32 := fun w => tabC (LofW w) (m (bLoc d0)) hb (flOf m d0)

/-- The tile kernel's specification in the tile's own terms: at coordinates `L`, from read shares of the four inputs at
    any contents whose segment ids are below 64 and the tile's two blocks, to the blocks holding the tile's two tables. -/
def TileBodyThm : Prop :=
  ∀ (d : Dev nD) (L : grid0.Coords) (q : PosShare TreeShare) (p t : Vec F S320000x128 .f32) (b : Vec F S320000 .i32) (fl : Vec F S320000 .f32)
    (hb : ∀ i : S320000.Idx, ((b : S320000.Idx → BitVec 32) i).toNat < 64) (O : CellTallies nD τ sig (HIx 1)) (W : Waits sig (HIx 1)), (∀ g, O g none = 0) →
    iprop(levAts (K (F := F)).L (K (F := F)).lev ∗ goRes q d (wL L) p t b fl ∗ scopedBufs (thr d L) ∗ scopedSems0 (thr d L) ∗ owes (thr d L) O W)
      ⊢ (wp frame (wpE (defs₀ (F := F)) 𝒱₀ (thr d L) none) Set.univ (kern (F := F) L)
          fun _ => iprop(tdRes q d (wL L) p t b fl (tabN L p t b hb fl) (tabC L b hb fl)
            ∗ scopedBufs (thr d L) ∗ scopedSems0 (thr d L) ∗ ∃ W', ⌜∀ p ∈ W', p ∈ W ∨ p.2 = none⌝ ∗ owes (thr d L) O W') : sProp 𝕄)

theorem hbody (hTB : TileBodyThm (F := F)) (hb : HB m) : TileBodySpec m (Nf m hb) (Cf m hb) := by
  intro d L q O W hO
  obtain rfl : d = d0 := Subsingleton.elim _ _
  have h := hTB d0 L q (m (pLoc d0)) (m (tLoc d0)) (m (bLoc d0)) (flOf m d0) hb O W hO
  unfold Nf Cf
  rw [LofW_wL]
  exact h

/-! ## The run and the frame -/

theorem run [∀ e, Nonempty (Elt F e)] (hTB : TileBodyThm (F := F)) (ρ : Dev nD → PrngReg) (hb : HB m) :
    θ_run (Cert.Kernel.defs (F := F)) (Cert.Kernel.threads (F := F)) ⟨m, fun _ => 0, ρ⟩ (QC m (Nf m hb) (Cf m hb) (R0 (F := F)) (R1 (F := F))) :=
  run_main m ρ (Nf m hb) (Cf m hb) (R0 (F := F)) (R1 (F := F)) (hbody m hTB hb) (region0_spec m _ _) (region1_spec m _ _)

theorem frame [∀ e, Nonempty (Elt F e)] (hTB : TileBodyThm (F := F)) (ρ : Dev nD → PrngReg) (hb : HB m) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (Cert.Kernel.defs (F := F)) _ _).mono (fun r h c => by
    obtain ⟨h0, h1, h2, h3, h4, h5, -⟩ := h c
    obtain ⟨e0, e1, e2, e3, e4, e5⟩ := Vfin_args m (Nf m hb) (Cf m hb) (R0 (F := F)) (R1 (F := F)) R0_other R1_other c
    exact ⟨h0.trans e0, h1.trans e1, h2.trans e2, h3.trans e3, h4.trans e4, h5.trans e5⟩) (run m hTB ρ hb)

/-! ## What the first region reads beside pred and tgt -/

/-- `main_v2`: the first 140800 segment ids, 55 x 1 x 2560. -/
theorem V5_v2 (d : Dev nD) :
    V5 m d (dr main_v2) = fun i => shapeCast S55x1x2560 (extractStridedSlice S140800 ![0] (m (bLoc d)) slices_S320000_S140800_0) shapeCasts_S140800_S55x1x2560 i := by
  unfold V5
  rw [StableHlo.reshape_result_ne' _ _ _ _ _ (show main_v2 ≠ main_v4 by decide), StableHlo.unary_result_ne' _ _ _ _ (show main_v2 ≠ main_v3 by decide),
    StableHlo.reshape_result' _ _ _ _ _, StableHlo.unary_result' _ _ _ _, StableHlo.unary_result_ne' _ _ _ _ (show main_arg4 ≠ main_v0 by decide)]
  rfl

/-- `main_v4`: the first 140800 flags as floats, 55 x 1 x 2560. -/
theorem V5_v4 (d : Dev nD) :
    V5 m d (dr main_v4) = fun i => shapeCast S55x1x2560 (extractStridedSlice S140800 ![0] (flOf m d) slices_S320000_S140800_0) shapeCasts_S140800_S55x1x2560 i := by
  unfold V5
  rw [StableHlo.reshape_result' _ _ _ _ _, StableHlo.unary_result' _ _ _ _, StableHlo.reshape_result_ne' _ _ _ _ _ (show main_v0 ≠ main_v2 by decide),
    StableHlo.unary_result_ne' _ _ _ _ (show main_v0 ≠ main_v1 by decide), StableHlo.unary_result' _ _ _ _]
  rfl

end Cert.Kernel.Final

end
-- ==== Proof.KernelRun.lean ====
/-
  The kernel's runs: the idealized kernel ends with its result at the specification of its arguments, and the
  word-level kernel ends with its arguments unchanged. Both from the program's run under the launch theorem, given
  the tile kernel's specification; the precondition supplies that every segment id names a row of a table.
-/
import proofs.«205036_g29618094473603_cont_9to1_1720_19_alg».proof.Proof.Assemble
import proofs.«205036_g29618094473603_cont_9to1_1720_19_alg».proof.Proof.FinalI
import proofs.«205036_g29618094473603_cont_9to1_1720_19_alg».proof.Proof.PreRange
import proofs.«205036_g29618094473603_cont_9to1_1720_19_alg».proof.Proof.Bits.FinalG

noncomputable section

namespace Cert.Proof.KernelRun

open Idealize.ShloMosaic Idealize.SL.Sem

theorem hb_ideal [hKernelIdeal : Cert.KernelIdeal.Facts] [hPre_input_domain : Cert.Pre_input_domain.Facts]
    (m : (ℓ : Loc Cert.KernelIdeal.nD Cert.KernelIdeal.τ Cert.KernelIdeal.sig) → Buf (Elt Ideal) ℓ) (hpre : Cert.Pre_KernelIdeal m) :
    Cert.KernelIdeal.Final.HB m :=
  fun i => Cert.Pre_input_domain.Range.bidx_lt (F := Ideal) _ _ _ _ _ _ (hpre (0 : Fin 1)) i

theorem hb_bits [hKernel : Cert.Kernel.Facts] [hPre_input_domain : Cert.Pre_input_domain.Facts]
    (m : (ℓ : Loc Cert.Kernel.nD Cert.Kernel.τ Cert.Kernel.sig) → Buf (Elt Bits) ℓ) (hpre : Cert.Pre_Kernel m) :
    Cert.Kernel.Final.HB m :=
  fun i => Cert.Pre_input_domain.Range.bidx_lt (F := Bits) _ _ _ _ _ _ (hpre (0 : Fin 1)) i

theorem run_ideal [hKernelIdeal : Cert.KernelIdeal.Facts] [hPre_input_domain : Cert.Pre_input_domain.Facts]
    (hTB : Cert.KernelIdeal.Final.TileBodyThm (F := Ideal)) : Cert.Proof.Assemble.KernelRunIdeal := fun m g hpre =>
  (θ_run (Cert.KernelIdeal.defs (F := Ideal)) _ _).mono (fun r h c => by
    obtain ⟨h0, h1, h2, h3, h4, h5, h8⟩ := h c
    obtain ⟨e0, e1, e2, e3, e4, e5⟩ := Cert.KernelIdeal.Launch.Vfin_args m _ _ _ _ Cert.KernelIdeal.TcRegions.R0_other Cert.KernelIdeal.TcRegions.R1_other c
    exact ⟨h8.trans (Cert.KernelIdeal.Final.value m (hb_ideal m hpre) c), h0.trans e0, h1.trans e1, h2.trans e2, h3.trans e3, h4.trans e4, h5.trans e5⟩)
    (Cert.KernelIdeal.Final.run m hTB g (hb_ideal m hpre))

theorem frame_bits [hKernel : Cert.Kernel.Facts] [hPre_input_domain : Cert.Pre_input_domain.Facts]
    (hTB : Cert.Kernel.Final.TileBodyThm (F := Bits)) : Cert.frame_Kernel := fun m g hpre =>
  Cert.Kernel.Final.frame m hTB g (hb_bits m hpre)

end Cert.Proof.KernelRun

end
-- ==== Proof.TileLoops1.lean ====
/-
  The pieces of a tile's run that do not depend on the kernel's text: the side conditions of its indexed stores, the
  read shares its two staging slots' copies borrow, what is in flight between two trips of its chunk loop, and the
  invariants of its loops, stated with every buffer at contents not chosen (the protocol alone).
-/
import proofs.«205036_g29618094473603_cont_9to1_1720_19_alg».proof.Proof.TileLoopsBridge
import Idealize.ShloMosaic.Lib.SparseCore.Ops

noncomputable section

namespace Cert.KernelIdeal.Tile

open Cert.KernelIdeal
open Facts₀ Facts
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {UU : Type} [URA UU] [CountersIn UU]

local notation "𝕄" => MT nD τ sig (HIx 1) (Elt F) ℕ UU ℕ

/-! ## Side conditions of the indexed stores -/

omit [FloatOps F] [CountersIn UU] [URA UU] in
/-- The lane numbers are below 16. -/
theorem iota_lt (x : S16.Idx) : ((iota .scVector S16 32 [0] iota_S16_d0_w32_scVector) x).toNat < 16 := by
  have h : (x 0).val < 16 := (x 0).isLt
  show (BitVec.ofNat 32 (0 * 16 + (x 0).val)).toNat < 16
  rw [BitVec.toNat_ofNat]
  omega

omit [FloatOps F] [CountersIn UU] [URA UU] in
/-- Segment ids below 64 and lane numbers below 16 name an entry of a 64 x 16 table. -/
theorem chk_tab {v4 v48 : IVec S16 32} (h4 : ∀ x, (v4 x).toNat < 16) (h48 : ∀ x, (v48 x).toNat < 64) :
    ∀ (a : Fin S64x16.rank) (x : S16.Idx), ((![v48, v4] : Fin 2 → IVec S16 32) a x).toNat < S64x16.size a := by
  intro a x
  match a with
  | ⟨0, _⟩ => exact h48 x
  | ⟨1, _⟩ => exact h4 x

/-- Every staged segment id is below 64. -/
def IdsOK (d : Dev nD) (L : grid0.Coords) (fB : Buf (Elt F) (sB.view.loc (thr d L))) : Prop :=
  ∀ i : S5600.Idx, ((fB : S5600.Idx → BitVec 32) i).toNat < 64

omit [FloatOps F] [CountersIn UU] [URA UU] in
theorem ids_read_lt {d : Dev nD} {L : grid0.Coords} {fB : Buf (Elt F) (sB.view.loc (thr d L))} (h : IdsOK d L fB) (r : LoadRect S5600)
    (x : r.shape.Idx) : ((sB.view.readAt (Elt F) r fB) x).toNat < 64 := h _

/-! ## Read shares -/

omit [FloatOps F] [CountersIn UU] in
/-- One more read token split off what remains of a share. -/
theorem tok_split {ℓ : Loc nD τ sig} {S : Finset (Idx ℓ)} (f : Buf (Elt F) ℓ) (q : PosShare TreeShare) (k : ℕ) :
    (ℓ ↦[S]{Transfers.shareDrop q k} f : sProp 𝕄)
      ⊣⊢ iprop((ℓ ↦[S]{Transfers.shareDrop q (k + 1)} f) ∗ ℓ ↦[S]{Transfers.shareTokN q k} f) :=
  pointsTo_share (PosShare.mem_left_op_right _)

/-! ## A chunk copy outstanding between two trips -/

abbrev Tup : Type := FVec F S16 .f32 × FVec F S16 .f32 × FVec F S16 .f32 × FVec F S16 .f32

/-- A chunk copy outstanding on cell `sm` from array `src` into slot `dst`, reading at share `qs`: the flight, delivering
    the slot at some contents and the rows lent, and what the array keeps meanwhile. -/
def InFlight (d : Dev nD) (L : grid0.Coords) (sm : DmaSem sig) (src : Memref sig .scVector .hbm S320000x128 .f32)
    (dst : Memref sig .scVector .vmem S160x128 .f32) (qs : PosShare TreeShare) (g : Buf (Elt F) (src.view.loc (thr d L))) : sProp 𝕄 :=
  iprop(∃ (off : Fin 2 → Nat) (inb : ∀ a, off a + S160x128.size a ≤ S320000x128.size a) (fX : Buf (Elt F) (dst.view.loc (thr d L))),
    Transfers.Flight (countersEmb (U := UU)) (thr d L) (SemLoc.dma sm) (default : HIx 1) 655360
      iprop((dst.view.loc (thr d L) ↦{fullShare} fX)
        ∗ (src.view.loc (thr d L) ↦[(src.slice (Rect.unit (s := S320000x128) off S160x128.size inb) (fun _ => rfl)).view.set]{qs} g))
    ∗ (src.view.loc (thr d L) ↦[Finset.univ \ (src.slice (Rect.unit (s := S320000x128) off S160x128.size inb) (fun _ => rfl)).view.set]{qs} g))

/-! ## The loops' invariants (every buffer at contents not chosen) -/

/-- The staged ids (each below 64) and flags, and the two tables. -/
def Stage (d : Dev nD) (L : grid0.Coords) : sProp 𝕄 :=
  iprop((∃ fB, ⌜IdsOK d L fB⌝ ∗ sB.view.loc (thr d L) ↦{fullShare} fB) ∗ (∃ f, sFl.view.loc (thr d L) ↦{fullShare} f)
    ∗ (∃ f, sN.view.loc (thr d L) ↦{fullShare} f) ∗ (∃ f, sC.view.loc (thr d L) ↦{fullShare} f))

/-- The zeroing loop: the two tables. -/
def invZ (d : Dev nD) (L : grid0.Coords) (_ : Nat) (_ : PUnit) : sProp 𝕄 :=
  iprop((∃ f, sN.view.loc (thr d L) ↦{fullShare} f) ∗ (∃ f, sC.view.loc (thr d L) ↦{fullShare} f))

/-- A group loop over the chunk staged in slots `mP`, `mT`. -/
def invG (d : Dev nD) (L : grid0.Coords) (mP mT : Memref sig .scVector .vmem S160x128 .f32) (_ : Nat) (_ : PUnit) : sProp 𝕄 :=
  iprop((∃ f, mP.view.loc (thr d L) ↦{fullShare} f) ∗ (∃ f, mT.view.loc (thr d L) ↦{fullShare} f) ∗ Stage d L)

/-- An accumulator loop over the chunk staged in slots `mP`, `mT`. -/
def invA (d : Dev nD) (L : grid0.Coords) (mP mT : Memref sig .scVector .vmem S160x128 .f32) (_ : Nat) (_ : Tup (F := F)) : sProp 𝕄 :=
  iprop((∃ f, mP.view.loc (thr d L) ↦{fullShare} f) ∗ (∃ f, mT.view.loc (thr d L) ↦{fullShare} f))

/-- The chunk loop, before pair trip k: chunk 2k outstanding into slot 0 on the slot's two cells, slot 1 free with its cells
    at zero, the arrays' other read tokens whole, and the waits recorded so far. -/
def invP (d : Dev nD) (L : grid0.Coords) (q : PosShare TreeShare) (p : Buf (Elt F) (pLoc d)) (t : Buf (Elt F) (tLoc d))
    (O : CellTallies nD τ sig (HIx 1)) (W : Waits sig (HIx 1)) (_ : Nat) (_ : PUnit) : sProp 𝕄 :=
  iprop(Transfers.MayWaits (thr d L) (none : HIx 1) O
    ∗ InFlight d L (⟨0, by decide⟩ : DmaSem sig) pW sP0 (Transfers.shareTokN q 0) p
    ∗ InFlight d L (⟨2, by decide⟩ : DmaSem sig) tW sT0 (Transfers.shareTokN q 2) t
    ∗ (pW.view.loc (thr d L) ↦{Transfers.shareTokN q 1} p) ∗ (tW.view.loc (thr d L) ↦{Transfers.shareTokN q 3} t)
    ∗ (∃ f, sP1.view.loc (thr d L) ↦{fullShare} f) ∗ (∃ f, sT1.view.loc (thr d L) ↦{fullShare} f)
    ∗ semVal (cellOf d L cc0_scratch9) 0 ∗ semVal (cellOf d L cc0_scratch11) 0
    ∗ Stage d L
    ∗ ∃ W', ⌜∀ x ∈ W', x ∈ W ∨ x.2 = none⌝ ∗ owes (thr d L) O W')

/-! ## Programs that keep two staged chunks -/

/-- The program runs holding the two staged chunks and leaves them as they were. -/
def Keeps (d : Dev nD) (L : grid0.Coords) (mP mT : Memref sig .scVector .vmem S160x128 .f32) {ρ : Type}
    (prog : Prog (TpuEff nD τ sig (Elt F) Λ₀ (.scVector (cV L) (jV L))) ρ) : Prop :=
  ∀ (fP : Buf (Elt F) (mP.view.loc (thr d L))) (fT : Buf (Elt F) (mT.view.loc (thr d L))),
    (iprop((mP.view.loc (thr d L) ↦{fullShare} fP) ∗ (mT.view.loc (thr d L) ↦{fullShare} fT)) : sProp 𝕄)
      ⊢ wp frame (wpE (defs₀ (F := F)) Variants.none (thr d L) none) Set.univ prog
          fun _ => iprop((mP.view.loc (thr d L) ↦{fullShare} fP) ∗ (mT.view.loc (thr d L) ↦{fullShare} fT))

/-- Such a program at the head of another. -/
theorem Keeps.bind {d : Dev nD} {L : grid0.Coords} {mP mT : Memref sig .scVector .vmem S160x128 .f32} {ρ : Type}
    {prog : Prog (TpuEff nD τ sig (Elt F) Λ₀ (.scVector (cV L) (jV L))) ρ} (h : Keeps (UU := UU) d L mP mT prog)
    {fP : Buf (Elt F) (mP.view.loc (thr d L))} {fT : Buf (Elt F) (mT.view.loc (thr d L))} {α : Type}
    (k : ρ → Prog (TpuEff nD τ sig (Elt F) Λ₀ (.scVector (cV L) (jV L))) α) (Q : α → sProp 𝕄) :
    iprop((mP.view.loc (thr d L) ↦{fullShare} fP) ∗ (mT.view.loc (thr d L) ↦{fullShare} fT)
        ∗ (∀ r, (mP.view.loc (thr d L) ↦{fullShare} fP) -∗ (mT.view.loc (thr d L) ↦{fullShare} fT)
            -∗ wp frame (wpE (defs₀ (F := F)) Variants.none (thr d L) none) Set.univ (k r) Q))
      ⊢ wp frame (wpE (defs₀ (F := F)) Variants.none (thr d L) none) Set.univ (prog >>= k) Q := by
  rw [wp_bind]
  iintro ⟨HP, HT, Hk⟩
  iapply (wp_wand_r frame (wpE (defs₀ (F := F)) Variants.none (thr d L) none) Set.univ (Q := fun _ => iprop((mP.view.loc (thr d L) ↦{fullShare} fP) ∗ (mT.view.loc (thr d L) ↦{fullShare} fT))))
  isplitl [HP HT]
  · iapply (h fP fT)
    isplitl [HP] <;> iassumption
  · iintro %r ⟨HP, HT⟩
    iapply Hk $$ %r HP HT

end Cert.KernelIdeal.Tile

end
-- ==== Proof.TileLoops2.lean ====
/-
  What a tile's run asks of its 24 unrolled compute parts, each named with the kernel's own argument list.
-/
import proofs.«205036_g29618094473603_cont_9to1_1720_19_alg».proof.Proof.TileLoopsBridge
import Idealize.ShloMosaic.Lib.SparseCore.Ops
import proofs.«205036_g29618094473603_cont_9to1_1720_19_alg».proof.Proof.TileLoops1

noncomputable section

namespace Cert.KernelIdeal.Tile

open Cert.KernelIdeal
open Facts₀ Facts
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {UU : Type} [URA UU] [CountersIn UU]

local notation "𝕄" => MT nD τ sig (HIx 1) (Elt F) ℕ UU ℕ

/-- What the tile's run needs of the 24 unrolled compute parts: each, given row indices below 160, runs holding the two
    staged chunks it reads and leaves them as they were. -/
structure PartsKeep (d : Dev nD) (L : grid0.Coords) : Prop where
  p1 : ∀ {v4 : IVec S16 32} {v54 : IVec S16 32} {c0_i32_65 : BitVec 32} {c1_i32_66 : BitVec 32} {k0_t4 : Fin k0_t4_loop.trips} {arg23 : FVec F S16 .f32} {arg24 : FVec F S16 .f32} {arg25 : FVec F S16 .f32}, (∀ x : S16.Idx, (v54 x).toNat < 160) →
    Keeps (F := F) (UU := UU) d L sP0 sT0 (k0_part1 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v4 v54 c0_i32_65 c1_i32_66 k0_t4 arg23 arg24 arg25)
  p2 : ∀ {v54 : IVec S16 32} {arg26 : FVec F S16 .f32} {v63 : IVec S16 32} {v74 : FVec F S16 .f32} {v85 : FVec F S16 .f32} {v96 : FVec F S16 .f32} {v102 : IVec S16 32} {k0_hw4 : k0_chk4 v54 v102}, (∀ x : S16.Idx, (v54 x).toNat < 160) →
    Keeps (F := F) (UU := UU) d L sP0 sT0 (k0_part2 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 arg26 v63 v74 v85 v96 v102 k0_hw4)
  p3 : ∀ {v54 : IVec S16 32} {v63 : IVec S16 32} {v107 : FVec F S16 .f32} {v118 : FVec F S16 .f32} {v129 : FVec F S16 .f32} {v140 : FVec F S16 .f32} {v146 : IVec S16 32} {k0_hw8 : k0_chk8 v54 v146}, (∀ x : S16.Idx, (v54 x).toNat < 160) →
    Keeps (F := F) (UU := UU) d L sP0 sT0 (k0_part3 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v107 v118 v129 v140 v146 k0_hw8)
  p4 : ∀ {v54 : IVec S16 32} {v63 : IVec S16 32} {v151 : FVec F S16 .f32} {v162 : FVec F S16 .f32} {v173 : FVec F S16 .f32} {v184 : FVec F S16 .f32} {v190 : IVec S16 32} {k0_hw12 : k0_chk12 v54 v190}, (∀ x : S16.Idx, (v54 x).toNat < 160) →
    Keeps (F := F) (UU := UU) d L sP0 sT0 (k0_part4 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v151 v162 v173 v184 v190 k0_hw12)
  p5 : ∀ {v54 : IVec S16 32} {v63 : IVec S16 32} {v195 : FVec F S16 .f32} {v206 : FVec F S16 .f32} {v217 : FVec F S16 .f32} {v228 : FVec F S16 .f32} {v234 : IVec S16 32} {k0_hw16 : k0_chk16 v54 v234}, (∀ x : S16.Idx, (v54 x).toNat < 160) →
    Keeps (F := F) (UU := UU) d L sP0 sT0 (k0_part5 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v195 v206 v217 v228 v234 k0_hw16)
  p6 : ∀ {v54 : IVec S16 32} {v63 : IVec S16 32} {v239 : FVec F S16 .f32} {v250 : FVec F S16 .f32} {v261 : FVec F S16 .f32} {v272 : FVec F S16 .f32} {v278 : IVec S16 32} {k0_hw20 : k0_chk20 v54 v278}, (∀ x : S16.Idx, (v54 x).toNat < 160) →
    Keeps (F := F) (UU := UU) d L sP0 sT0 (k0_part6 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v239 v250 v261 v272 v278 k0_hw20)
  p7 : ∀ {v54 : IVec S16 32} {v63 : IVec S16 32} {v283 : FVec F S16 .f32} {v294 : FVec F S16 .f32} {v305 : FVec F S16 .f32} {v316 : FVec F S16 .f32} {v322 : IVec S16 32} {k0_hw24 : k0_chk24 v54 v322}, (∀ x : S16.Idx, (v54 x).toNat < 160) →
    Keeps (F := F) (UU := UU) d L sP0 sT0 (k0_part7 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v283 v294 v305 v316 v322 k0_hw24)
  p8 : ∀ {v54 : IVec S16 32} {v63 : IVec S16 32} {v327 : FVec F S16 .f32} {v338 : FVec F S16 .f32} {v349 : FVec F S16 .f32} {v360 : FVec F S16 .f32} {v366 : IVec S16 32} {k0_hw28 : k0_chk28 v54 v366}, (∀ x : S16.Idx, (v54 x).toNat < 160) →
    Keeps (F := F) (UU := UU) d L sP0 sT0 (k0_part8 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v327 v338 v349 v360 v366 k0_hw28)
  p9 : ∀ {v4 : IVec S16 32} {v54 : IVec S16 32} {c0_i32_65 : BitVec 32} {c1_i32_66 : BitVec 32} {k0_t6 : Fin k0_t6_loop.trips} {arg23 : FVec F S16 .f32} {arg24 : FVec F S16 .f32} {arg25 : FVec F S16 .f32}, (∀ x : S16.Idx, (v54 x).toNat < 160) →
    Keeps (F := F) (UU := UU) d L sP1 sT1 (k0_part9 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v4 v54 c0_i32_65 c1_i32_66 k0_t6 arg23 arg24 arg25)
  p10 : ∀ {v54 : IVec S16 32} {arg26 : FVec F S16 .f32} {v63 : IVec S16 32} {v74 : FVec F S16 .f32} {v85 : FVec F S16 .f32} {v96 : FVec F S16 .f32} {v102 : IVec S16 32} {k0_hw37 : k0_chk37 v54 v102}, (∀ x : S16.Idx, (v54 x).toNat < 160) →
    Keeps (F := F) (UU := UU) d L sP1 sT1 (k0_part10 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 arg26 v63 v74 v85 v96 v102 k0_hw37)
  p11 : ∀ {v54 : IVec S16 32} {v63 : IVec S16 32} {v107 : FVec F S16 .f32} {v118 : FVec F S16 .f32} {v129 : FVec F S16 .f32} {v140 : FVec F S16 .f32} {v146 : IVec S16 32} {k0_hw41 : k0_chk41 v54 v146}, (∀ x : S16.Idx, (v54 x).toNat < 160) →
    Keeps (F := F) (UU := UU) d L sP1 sT1 (k0_part11 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v107 v118 v129 v140 v146 k0_hw41)
  p12 : ∀ {v54 : IVec S16 32} {v63 : IVec S16 32} {v151 : FVec F S16 .f32} {v162 : FVec F S16 .f32} {v173 : FVec F S16 .f32} {v184 : FVec F S16 .f32} {v190 : IVec S16 32} {k0_hw45 : k0_chk45 v54 v190}, (∀ x : S16.Idx, (v54 x).toNat < 160) →
    Keeps (F := F) (UU := UU) d L sP1 sT1 (k0_part12 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v151 v162 v173 v184 v190 k0_hw45)
  p13 : ∀ {v54 : IVec S16 32} {v63 : IVec S16 32} {v195 : FVec F S16 .f32} {v206 : FVec F S16 .f32} {v217 : FVec F S16 .f32} {v228 : FVec F S16 .f32} {v234 : IVec S16 32} {k0_hw49 : k0_chk49 v54 v234}, (∀ x : S16.Idx, (v54 x).toNat < 160) →
    Keeps (F := F) (UU := UU) d L sP1 sT1 (k0_part13 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v195 v206 v217 v228 v234 k0_hw49)
  p14 : ∀ {v54 : IVec S16 32} {v63 : IVec S16 32} {v239 : FVec F S16 .f32} {v250 : FVec F S16 .f32} {v261 : FVec F S16 .f32} {v272 : FVec F S16 .f32} {v278 : IVec S16 32} {k0_hw53 : k0_chk53 v54 v278}, (∀ x : S16.Idx, (v54 x).toNat < 160) →
    Keeps (F := F) (UU := UU) d L sP1 sT1 (k0_part14 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v239 v250 v261 v272 v278 k0_hw53)
  p15 : ∀ {v54 : IVec S16 32} {v63 : IVec S16 32} {v283 : FVec F S16 .f32} {v294 : FVec F S16 .f32} {v305 : FVec F S16 .f32} {v316 : FVec F S16 .f32} {v322 : IVec S16 32} {k0_hw57 : k0_chk57 v54 v322}, (∀ x : S16.Idx, (v54 x).toNat < 160) →
    Keeps (F := F) (UU := UU) d L sP1 sT1 (k0_part15 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v283 v294 v305 v316 v322 k0_hw57)
  p16 : ∀ {v54 : IVec S16 32} {v63 : IVec S16 32} {v327 : FVec F S16 .f32} {v338 : FVec F S16 .f32} {v349 : FVec F S16 .f32} {v360 : FVec F S16 .f32} {v366 : IVec S16 32} {k0_hw61 : k0_chk61 v54 v366}, (∀ x : S16.Idx, (v54 x).toNat < 160) →
    Keeps (F := F) (UU := UU) d L sP1 sT1 (k0_part16 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v327 v338 v349 v360 v366 k0_hw61)
  p18 : ∀ {v4 : IVec S16 32} {v27 : IVec S16 32} {c0_i32_26 : BitVec 32} {c1_i32_27 : BitVec 32} {k0_t8 : Fin k0_t8_loop.trips} {arg22 : FVec F S16 .f32} {arg23 : FVec F S16 .f32} {arg24 : FVec F S16 .f32}, (∀ x : S16.Idx, (v27 x).toNat < 160) →
    Keeps (F := F) (UU := UU) d L sP0 sT0 (k0_part18 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v4 v27 c0_i32_26 c1_i32_27 k0_t8 arg22 arg23 arg24)
  p19 : ∀ {v27 : IVec S16 32} {arg25 : FVec F S16 .f32} {v36 : IVec S16 32} {v47 : FVec F S16 .f32} {v58 : FVec F S16 .f32} {v69 : FVec F S16 .f32} {v75 : IVec S16 32} {k0_hw70 : k0_chk70 v27 v75}, (∀ x : S16.Idx, (v27 x).toNat < 160) →
    Keeps (F := F) (UU := UU) d L sP0 sT0 (k0_part19 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 arg25 v36 v47 v58 v69 v75 k0_hw70)
  p20 : ∀ {v27 : IVec S16 32} {v36 : IVec S16 32} {v80 : FVec F S16 .f32} {v91 : FVec F S16 .f32} {v102 : FVec F S16 .f32} {v113 : FVec F S16 .f32} {v119 : IVec S16 32} {k0_hw74 : k0_chk74 v27 v119}, (∀ x : S16.Idx, (v27 x).toNat < 160) →
    Keeps (F := F) (UU := UU) d L sP0 sT0 (k0_part20 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v80 v91 v102 v113 v119 k0_hw74)
  p21 : ∀ {v27 : IVec S16 32} {v36 : IVec S16 32} {v124 : FVec F S16 .f32} {v135 : FVec F S16 .f32} {v146 : FVec F S16 .f32} {v157 : FVec F S16 .f32} {v163 : IVec S16 32} {k0_hw78 : k0_chk78 v27 v163}, (∀ x : S16.Idx, (v27 x).toNat < 160) →
    Keeps (F := F) (UU := UU) d L sP0 sT0 (k0_part21 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v124 v135 v146 v157 v163 k0_hw78)
  p22 : ∀ {v27 : IVec S16 32} {v36 : IVec S16 32} {v168 : FVec F S16 .f32} {v179 : FVec F S16 .f32} {v190 : FVec F S16 .f32} {v201 : FVec F S16 .f32} {v207 : IVec S16 32} {k0_hw82 : k0_chk82 v27 v207}, (∀ x : S16.Idx, (v27 x).toNat < 160) →
    Keeps (F := F) (UU := UU) d L sP0 sT0 (k0_part22 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v168 v179 v190 v201 v207 k0_hw82)
  p23 : ∀ {v27 : IVec S16 32} {v36 : IVec S16 32} {v212 : FVec F S16 .f32} {v223 : FVec F S16 .f32} {v234 : FVec F S16 .f32} {v245 : FVec F S16 .f32} {v251 : IVec S16 32} {k0_hw86 : k0_chk86 v27 v251}, (∀ x : S16.Idx, (v27 x).toNat < 160) →
    Keeps (F := F) (UU := UU) d L sP0 sT0 (k0_part23 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v212 v223 v234 v245 v251 k0_hw86)
  p24 : ∀ {v27 : IVec S16 32} {v36 : IVec S16 32} {v256 : FVec F S16 .f32} {v267 : FVec F S16 .f32} {v278 : FVec F S16 .f32} {v289 : FVec F S16 .f32} {v295 : IVec S16 32} {k0_hw90 : k0_chk90 v27 v295}, (∀ x : S16.Idx, (v27 x).toNat < 160) →
    Keeps (F := F) (UU := UU) d L sP0 sT0 (k0_part24 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v256 v267 v278 v289 v295 k0_hw90)
  p25 : ∀ {v27 : IVec S16 32} {v36 : IVec S16 32} {v300 : FVec F S16 .f32} {v311 : FVec F S16 .f32} {v322 : FVec F S16 .f32} {v333 : FVec F S16 .f32} {v339 : IVec S16 32} {k0_hw94 : k0_chk94 v27 v339}, (∀ x : S16.Idx, (v27 x).toNat < 160) →
    Keeps (F := F) (UU := UU) d L sP0 sT0 (k0_part25 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v300 v311 v322 v333 v339 k0_hw94)

end Cert.KernelIdeal.Tile

end
-- ==== Proof.TileUpTo.lean ====
/-
  The tile's tables chunk by chunk: what they hold after the first n chunks, and the chunk step's dependence on its inputs.

  The tables are a fold over the 35 chunks in order; here the same fold is read by recursion on the number of chunks
  done, so that a statement about the program after n chunks can name the table it holds: the zero table before any
  chunk, and after chunk n the chunk's ten groups added to what n chunks left. After all 35 this is the tile's table.
  A chunk's step depends only on that chunk's staged buffers and its ten groups' loaded vectors.
-/
import proofs.«205036_g29618094473603_cont_9to1_1720_19_alg».proof.Proof.TilePure

noncomputable section

namespace Cert.KernelIdeal.TilePure

open Idealize.ShloMosaic Cert.KernelIdeal Cert.KernelIdeal.Facts₀ Cert.KernelIdeal.Facts

/-- The first n of 35 steps, from `z` (all 35 from there on). -/
def upTo {β : Type*} (f : β → Fin 35 → β) (z : β) : ℕ → β
  | 0 => z
  | n + 1 => if h : n < 35 then f (upTo f z n) ⟨n, h⟩ else upTo f z n

theorem upTo_succ {β : Type*} (f : β → Fin 35 → β) (z : β) (n : ℕ) (h : n < 35) :
    upTo f z (n + 1) = f (upTo f z n) ⟨n, h⟩ := by
  rw [upTo, dif_pos h]

/-- All 35 steps: the fold over the 35 in order. -/
theorem upTo_35 {β : Type*} (f : β → Fin 35 → β) (z : β) : upTo f z 35 = (List.finRange 35).foldl f z := by
  rfl

variable {F : FTy → Type} [FloatOps F] [Facts]
variable (hr : ∀ (g : Fin 10) x, (rowsVec g.val x).toNat < 160)
variable (P T : Fin 35 → Vec F S160x128 .f32) (ids : Fin 35 → Fin 10 → IVec S16 32) (hid : ∀ c g, IdsOk (ids c g))
variable (fl : Fin 35 → Fin 10 → FVec F S16 .f32)

/-- The table of masked sums after the first n chunks. -/
def numUpTo : ℕ → Vec F S64x16 .f32 := upTo (fun tb c => chunkNum hr P T ids hid fl c tb) zeroTab

/-- The table of counts after the first n chunks. -/
def cntUpTo : ℕ → Vec F S64x16 .f32 := upTo (fun tb c => chunkCnt ids hid fl c tb) zeroTab

theorem numUpTo_zero : numUpTo hr P T ids hid fl 0 = zeroTab := rfl
theorem numUpTo_succ (n : ℕ) (h : n < 35) :
    numUpTo hr P T ids hid fl (n + 1) = chunkNum hr P T ids hid fl ⟨n, h⟩ (numUpTo hr P T ids hid fl n) :=
  upTo_succ _ _ n h
theorem numUpTo_35 : numUpTo hr P T ids hid fl 35 = tileNum hr P T ids hid fl := upTo_35 _ _

theorem cntUpTo_zero : cntUpTo ids hid fl 0 = zeroTab := rfl
theorem cntUpTo_succ (n : ℕ) (h : n < 35) :
    cntUpTo ids hid fl (n + 1) = chunkCnt ids hid fl ⟨n, h⟩ (cntUpTo ids hid fl n) :=
  upTo_succ _ _ n h
theorem cntUpTo_35 : cntUpTo ids hid fl 35 = tileCnt ids hid fl := upTo_35 _ _

/-- A chunk's ten groups over any buffers and loaded vectors equal to chunk `c`'s are chunk `c`'s step. -/
theorem chunkNum_congr (c : Fin 35) {P' T' : Vec F S160x128 .f32} {ids' : Fin 10 → IVec S16 32}
    {hid' : ∀ g, IdsOk (ids' g)} {fl' : Fin 10 → FVec F S16 .f32} (hP : P' = P c) (hT : T' = T c)
    (hi : ∀ g, ids' g = ids c g) (hf : ∀ g, fl' g = fl c g) (tab : Vec F S64x16 .f32) :
    (List.finRange 10).foldl (fun tb g => groupNum P' T' g (hr g) (ids' g) (hid' g) (fl' g) tb) tab
      = chunkNum hr P T ids hid fl c tab := by
  subst hP hT
  obtain rfl : ids' = ids c := funext hi
  obtain rfl : fl' = fl c := funext hf
  rfl

theorem chunkCnt_congr (c : Fin 35) {ids' : Fin 10 → IVec S16 32} {hid' : ∀ g, IdsOk (ids' g)}
    {fl' : Fin 10 → FVec F S16 .f32} (hi : ∀ g, ids' g = ids c g) (hf : ∀ g, fl' g = fl c g) (tab : Vec F S64x16 .f32) :
    (List.finRange 10).foldl (fun tb g => groupCnt (ids' g) (hid' g) (fl' g) tb) tab = chunkCnt ids hid fl c tab := by
  obtain rfl : ids' = ids c := funext hi
  obtain rfl : fl' = fl c := funext hf
  rfl

end Cert.KernelIdeal.TilePure

end
-- ==== Proof.TileLoops3.lean ====
/-
  The chunk loop's invariant with every content named: the chunk in flight lands as the read of its rows, the staged
  ids and flags stay what the tile's two synchronous copies left, and the two tables are the tables after the chunks
  summed so far.
-/
import proofs.«205036_g29618094473603_cont_9to1_1720_19_alg».proof.Proof.TileLoopsBridge
import Idealize.ShloMosaic.Lib.SparseCore.Ops
import proofs.«205036_g29618094473603_cont_9to1_1720_19_alg».proof.Proof.TileLoops2
import proofs.«205036_g29618094473603_cont_9to1_1720_19_alg».proof.Proof.TileVal
import proofs.«205036_g29618094473603_cont_9to1_1720_19_alg».proof.Proof.TileUpTo

noncomputable section

namespace Cert.KernelIdeal.Tile

open Cert.KernelIdeal
open Facts₀ Facts
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {UU : Type} [URA UU] [CountersIn UU]

local notation "𝕄" => MT nD τ sig (HIx 1) (Elt F) ℕ UU ℕ

/-! ## The printed offsets are the chunks' -/

omit [FloatOps F] [CountersIn UU] [URA UU] in
theorem off3_eq (L : grid0.Coords) : k0_off3 L = chunkOff L 0 := by
  rw [Gen.k0_off3_eq]; rfl
omit [FloatOps F] [CountersIn UU] [URA UU] in
theorem off4_eq (L : grid0.Coords) (k : Fin k0_t2_loop.trips) : k0_off4 L k = chunkOff L (2 * k.val + 1) := by
  rw [Gen.k0_off4_eq]; unfold chunkOff
  congr 1
  omega
omit [FloatOps F] [CountersIn UU] [URA UU] in
theorem off6_eq (L : grid0.Coords) (k : Fin k0_t2_loop.trips) : k0_off6 L k = chunkOff L (2 * k.val + 2) := by
  rw [Gen.k0_off6_eq]; unfold chunkOff
  congr 1
  omega

omit [FloatOps F] [CountersIn UU] [URA UU] in
theorem off5_eq (k : Fin k0_t2_loop.trips) (g : Fin k0_t3_loop.trips) : k0_off5 k g = grpOff (2 * k.val) g.val := by
  rw [Gen.k0_off5_eq]; unfold grpOff
  congr 1
  omega
omit [FloatOps F] [CountersIn UU] [URA UU] in
theorem off7_eq (k : Fin k0_t2_loop.trips) (g : Fin k0_t5_loop.trips) : k0_off7 k g = grpOff (2 * k.val + 1) g.val := by
  rw [Gen.k0_off7_eq]; unfold grpOff
  congr 1
  omega
omit [FloatOps F] [CountersIn UU] [URA UU] in
theorem off8_eq (g : Fin k0_t7_loop.trips) : k0_off8 g = grpOff 34 g.val := by
  rw [Gen.k0_off8_eq]; unfold grpOff
  congr 1
  omega

/-! ## What a copy delivers is the chunk -/

omit [FloatOps F] [CountersIn UU] [URA UU] in
/-- The read of pred through a slice at chunk `c`'s offsets is what the slot stages for chunk `c`. -/
theorem stP_of_off (L : grid0.Coords) (p : Vec F S320000x128 .f32) (c : Fin 35) {off : Fin 2 → ℕ}
    (inb : ∀ a, off a + S160x128.size a ≤ S320000x128.size a) (h : off = chunkOff L c.val) :
    View.read (Elt F) (pW.slice (Rect.unit (s := S320000x128) off S160x128.size inb) (fun _ => rfl)).view p = stP L p c := by
  subst h; rfl
omit [FloatOps F] [CountersIn UU] [URA UU] in
theorem stT_of_off (L : grid0.Coords) (t : Vec F S320000x128 .f32) (c : Fin 35) {off : Fin 2 → ℕ}
    (inb : ∀ a, off a + S160x128.size a ≤ S320000x128.size a) (h : off = chunkOff L c.val) :
    View.read (Elt F) (tW.slice (Rect.unit (s := S320000x128) off S160x128.size inb) (fun _ => rfl)).view t = stT L t c := by
  subst h; rfl

/-! ## The tables after n chunks -/

/-- The table of masked sums after the tile's first n chunks. -/
def numAt (L : grid0.Coords) (p t : Vec F S320000x128 .f32) (b : Vec F S320000 .i32)
    (hb : ∀ i : S320000.Idx, ((b : S320000.Idx → BitVec 32) i).toNat < 64) (fl : Vec F S320000 .f32) (n : ℕ) : Vec F S64x16 .f32 :=
  TilePure.numUpTo (fun g => TilePure.rowsVec_lt g) (stP L p) (stT L t) (ids F L b)
    (fun k g => TilePure.idsOk_of_lt _ (ids_lt L hb k g)) (fls L fl) n
/-- The table of counts after the tile's first n chunks. -/
def cntAt (L : grid0.Coords) (b : Vec F S320000 .i32)
    (hb : ∀ i : S320000.Idx, ((b : S320000.Idx → BitVec 32) i).toNat < 64) (fl : Vec F S320000 .f32) (n : ℕ) : Vec F S64x16 .f32 :=
  TilePure.cntUpTo (ids F L b) (fun k g => TilePure.idsOk_of_lt _ (ids_lt L hb k g)) (fls L fl) n

omit [CountersIn UU] [URA UU] in
theorem numAt_35 (L : grid0.Coords) (p t : Vec F S320000x128 .f32) (b : Vec F S320000 .i32)
    (hb : ∀ i : S320000.Idx, ((b : S320000.Idx → BitVec 32) i).toNat < 64) (fl : Vec F S320000 .f32) :
    numAt L p t b hb fl 35 = tabN L p t b hb fl := TilePure.numUpTo_35 ..
omit [CountersIn UU] [URA UU] in
theorem cntAt_35 (L : grid0.Coords) (b : Vec F S320000 .i32)
    (hb : ∀ i : S320000.Idx, ((b : S320000.Idx → BitVec 32) i).toNat < 64) (fl : Vec F S320000 .f32) :
    cntAt L b hb fl 35 = tabC L b hb fl := TilePure.cntUpTo_35 ..

omit [CountersIn UU] [URA UU] in
/-- One more chunk: the group fold over what the slots and the staged rows hold is the next table. -/
theorem numAt_succ (L : grid0.Coords) (p t : Vec F S320000x128 .f32) (b : Vec F S320000 .i32)
    (hb : ∀ i : S320000.Idx, ((b : S320000.Idx → BitVec 32) i).toNat < 64) (fl : Vec F S320000 .f32) (c : Fin 35)
    {P' T' : Vec F S160x128 .f32} {ids' : Fin 10 → IVec S16 32} {hid' : ∀ g, TilePure.IdsOk (ids' g)} {fl' : Fin 10 → FVec F S16 .f32}
    (hP : P' = stP L p c) (hT : T' = stT L t c) (hi : ∀ g, ids' g = ids F L b c g) (hf : ∀ g, fl' g = fls L fl c g) :
    (List.finRange 10).foldl (fun tb g => TilePure.groupNum P' T' g (TilePure.rowsVec_lt g) (ids' g) (hid' g) (fl' g) tb) (numAt L p t b hb fl c.val)
      = numAt L p t b hb fl (c.val + 1) := by
  unfold numAt
  rw [TilePure.numUpTo_succ _ _ _ _ _ _ c.val c.isLt]
  exact TilePure.chunkNum_congr _ _ _ _ _ _ c hP hT hi hf _
omit [CountersIn UU] [URA UU] in
theorem cntAt_succ (L : grid0.Coords) (b : Vec F S320000 .i32)
    (hb : ∀ i : S320000.Idx, ((b : S320000.Idx → BitVec 32) i).toNat < 64) (fl : Vec F S320000 .f32) (c : Fin 35)
    {ids' : Fin 10 → IVec S16 32} {hid' : ∀ g, TilePure.IdsOk (ids' g)} {fl' : Fin 10 → FVec F S16 .f32}
    (hi : ∀ g, ids' g = ids F L b c g) (hf : ∀ g, fl' g = fls L fl c g) :
    (List.finRange 10).foldl (fun tb g => TilePure.groupCnt (ids' g) (hid' g) (fl' g) tb) (cntAt L b hb fl c.val)
      = cntAt L b hb fl (c.val + 1) := by
  unfold cntAt
  rw [TilePure.cntUpTo_succ _ _ _ c.val c.isLt]
  exact TilePure.chunkCnt_congr _ _ _ c hi hf _

/-! ## The invariants, contents named -/

/-- A chunk copy outstanding on cell `sm`, delivering the slot at `st`. -/
def InFlightV (d : Dev nD) (L : grid0.Coords) (sm : DmaSem sig) (src : Memref sig .scVector .hbm S320000x128 .f32)
    (dst : Memref sig .scVector .vmem S160x128 .f32) (qs : PosShare TreeShare) (g : Buf (Elt F) (src.view.loc (thr d L)))
    (st : Buf (Elt F) (dst.view.loc (thr d L))) : sProp 𝕄 :=
  iprop(∃ (off : Fin 2 → Nat) (inb : ∀ a, off a + S160x128.size a ≤ S320000x128.size a) (fX : Buf (Elt F) (dst.view.loc (thr d L))),
    ⌜fX = st⌝ ∗
    Transfers.Flight (countersEmb (U := UU)) (thr d L) (SemLoc.dma sm) (default : HIx 1) 655360
      iprop((dst.view.loc (thr d L) ↦{fullShare} fX)
        ∗ (src.view.loc (thr d L) ↦[(src.slice (Rect.unit (s := S320000x128) off S160x128.size inb) (fun _ => rfl)).view.set]{qs} g))
    ∗ (src.view.loc (thr d L) ↦[Finset.univ \ (src.slice (Rect.unit (s := S320000x128) off S160x128.size inb) (fun _ => rfl)).view.set]{qs} g))

/-- The chunk loop before pair trip k, contents named: chunk 2k in flight into slot 0, the tables after 2k chunks. -/
def invPV (d : Dev nD) (L : grid0.Coords) (q : PosShare TreeShare) (p : Buf (Elt F) (pLoc d)) (t : Buf (Elt F) (tLoc d))
    (O : CellTallies nD τ sig (HIx 1)) (W : Waits sig (HIx 1))
    (fB : Buf (Elt F) (sB.view.loc (thr d L))) (fFl : Buf (Elt F) (sFl.view.loc (thr d L)))
    (Ntab Ctab : ℕ → Vec F S64x16 .f32) (k : Nat) (_ : PUnit) : sProp 𝕄 :=
  iprop(Transfers.MayWaits (thr d L) (none : HIx 1) O
    ∗ (∃ c : Fin 35, ⌜c.val = 2 * k⌝
        ∗ InFlightV d L (⟨0, by decide⟩ : DmaSem sig) pW sP0 (Transfers.shareTokN q 0) p (stP L p c)
        ∗ InFlightV d L (⟨2, by decide⟩ : DmaSem sig) tW sT0 (Transfers.shareTokN q 2) t (stT L t c))
    ∗ (pW.view.loc (thr d L) ↦{Transfers.shareTokN q 1} p) ∗ (tW.view.loc (thr d L) ↦{Transfers.shareTokN q 3} t)
    ∗ (∃ f, sP1.view.loc (thr d L) ↦{fullShare} f) ∗ (∃ f, sT1.view.loc (thr d L) ↦{fullShare} f)
    ∗ semVal (cellOf d L cc0_scratch9) 0 ∗ semVal (cellOf d L cc0_scratch11) 0
    ∗ (sB.view.loc (thr d L) ↦{fullShare} fB) ∗ (sFl.view.loc (thr d L) ↦{fullShare} fFl)
    ∗ (sN.view.loc (thr d L) ↦{fullShare} Ntab (2 * k)) ∗ (sC.view.loc (thr d L) ↦{fullShare} Ctab (2 * k))
    ∗ ∃ W', ⌜∀ x ∈ W', x ∈ W ∨ x.2 = none⌝ ∗ owes (thr d L) O W')

/-- The zeroing loop, contents named: the rows below k of both tables are zero. -/
def invZV (d : Dev nD) (L : grid0.Coords) (k : Nat) (_ : PUnit) : sProp 𝕄 :=
  iprop((∃ f : Buf (Elt F) (sN.view.loc (thr d L)), ⌜∀ (s : Fin 64) (l : Fin 16), s.val < k → (f : Vec F S64x16 .f32) (ix2 s l) = TilePure.zeroTab (ix2 s l)⌝ ∗ sN.view.loc (thr d L) ↦{fullShare} f)
    ∗ (∃ f : Buf (Elt F) (sC.view.loc (thr d L)), ⌜∀ (s : Fin 64) (l : Fin 16), s.val < k → (f : Vec F S64x16 .f32) (ix2 s l) = TilePure.zeroTab (ix2 s l)⌝ ∗ sC.view.loc (thr d L) ↦{fullShare} f))

omit [FloatOps F] [CountersIn UU] [URA UU] in
theorem waits_insert {W W' : Waits sig (HIx 1)} (h : ∀ x ∈ W', x ∈ W ∨ x.2 = none) (s : SemLoc sig) :
    ∀ x ∈ insert (s, (default : HIx 1)) W', x ∈ W ∨ x.2 = none := by
  intro x hx
  rcases Finset.mem_insert.mp hx with e | e
  · exact .inr (e ▸ rfl)
  · exact h x e

omit [FloatOps F] [CountersIn UU] in
theorem pts_sP0 (d : Dev nD) (L : grid0.Coords) (f : Buf (Elt F) ((thr d L).loc cc0_scratch0)) :
    ((sP0).view.loc (thr d L) ↦{fullShare} f : sProp 𝕄) = (thr d L).loc cc0_scratch0 ↦{fullShare} f := rfl
omit [FloatOps F] [CountersIn UU] in
theorem pts_sP1 (d : Dev nD) (L : grid0.Coords) (f : Buf (Elt F) ((thr d L).loc cc0_scratch1)) :
    ((sP1).view.loc (thr d L) ↦{fullShare} f : sProp 𝕄) = (thr d L).loc cc0_scratch1 ↦{fullShare} f := rfl
omit [FloatOps F] [CountersIn UU] in
theorem pts_sT0 (d : Dev nD) (L : grid0.Coords) (f : Buf (Elt F) ((thr d L).loc cc0_scratch2)) :
    ((sT0).view.loc (thr d L) ↦{fullShare} f : sProp 𝕄) = (thr d L).loc cc0_scratch2 ↦{fullShare} f := rfl
omit [FloatOps F] [CountersIn UU] in
theorem pts_sT1 (d : Dev nD) (L : grid0.Coords) (f : Buf (Elt F) ((thr d L).loc cc0_scratch3)) :
    ((sT1).view.loc (thr d L) ↦{fullShare} f : sProp 𝕄) = (thr d L).loc cc0_scratch3 ↦{fullShare} f := rfl
omit [FloatOps F] [CountersIn UU] in
theorem pts_sB (d : Dev nD) (L : grid0.Coords) (f : Buf (Elt F) ((thr d L).loc cc0_scratch4)) :
    ((sB).view.loc (thr d L) ↦{fullShare} f : sProp 𝕄) = (thr d L).loc cc0_scratch4 ↦{fullShare} f := rfl
omit [FloatOps F] [CountersIn UU] in
theorem pts_sFl (d : Dev nD) (L : grid0.Coords) (f : Buf (Elt F) ((thr d L).loc cc0_scratch5)) :
    ((sFl).view.loc (thr d L) ↦{fullShare} f : sProp 𝕄) = (thr d L).loc cc0_scratch5 ↦{fullShare} f := rfl
omit [FloatOps F] [CountersIn UU] in
theorem pts_sN (d : Dev nD) (L : grid0.Coords) (f : Buf (Elt F) ((thr d L).loc cc0_scratch6)) :
    ((sN).view.loc (thr d L) ↦{fullShare} f : sProp 𝕄) = (thr d L).loc cc0_scratch6 ↦{fullShare} f := rfl
omit [FloatOps F] [CountersIn UU] in
theorem pts_sC (d : Dev nD) (L : grid0.Coords) (f : Buf (Elt F) ((thr d L).loc cc0_scratch7)) :
    ((sC).view.loc (thr d L) ↦{fullShare} f : sProp 𝕄) = (thr d L).loc cc0_scratch7 ↦{fullShare} f := rfl

/-! ## The arrays' read tokens, one per staging cell -/

/-- What is kept aside of pred's share while the two slots' tokens are out. -/
def PAside (d : Dev nD) (L : grid0.Coords) (q : PosShare TreeShare) (p : Buf (Elt F) (pLoc d)) : sProp 𝕄 :=
  iprop(pW.view.loc (thr d L) ↦{Transfers.shareDrop q 2} p)
/-- What is kept aside of tgt's share. -/
def TAside (d : Dev nD) (L : grid0.Coords) (q : PosShare TreeShare) (t : Buf (Elt F) (tLoc d)) : sProp 𝕄 :=
  iprop((tW.view.loc (thr d L) ↦{Transfers.shareDrop q 4} t) ∗ (tW.view.loc (thr d L) ↦{Transfers.shareTokN q 0} t)
    ∗ (tW.view.loc (thr d L) ↦{Transfers.shareTokN q 1} t))

omit [FloatOps F] [CountersIn UU] in
theorem tok_split0 {ℓ : Loc nD τ sig} {S : Finset (Idx ℓ)} (f : Buf (Elt F) ℓ) (q : PosShare TreeShare) :
    (ℓ ↦[S]{q} f : sProp 𝕄) ⊣⊢ iprop((ℓ ↦[S]{Transfers.shareDrop q 1} f) ∗ ℓ ↦[S]{Transfers.shareTokN q 0} f) :=
  tok_split f q 0

omit [FloatOps F] [CountersIn UU] in
theorem p_toks (d : Dev nD) (L : grid0.Coords) (q : PosShare TreeShare) (p : Buf (Elt F) (pLoc d)) :
    (pW.view.loc (thr d L) ↦{q} p : sProp 𝕄)
      ⊣⊢ iprop(PAside d L q p ∗ (pW.view.loc (thr d L) ↦{Transfers.shareTokN q 0} p) ∗ (pW.view.loc (thr d L) ↦{Transfers.shareTokN q 1} p)) := by
  unfold PAside
  constructor
  · iintro H
    ihave H := (tok_split0 (F := F) (UU := UU) p q).1 $$ H
    icases H with ⟨H1, T0⟩
    ihave H1 := (tok_split (F := F) (UU := UU) p q 1).1 $$ H1
    icases H1 with ⟨H2, T1⟩
    isplitl [H2]; · iexact H2
    isplitl [T0]; · iexact T0
    iexact T1
  · iintro ⟨H2, T0, T1⟩
    iapply (tok_split0 (F := F) (UU := UU) p q).2
    isplitl [H2 T1]
    · iapply (tok_split (F := F) (UU := UU) p q 1).2
      isplitl [H2]; · iexact H2
      iexact T1
    · iexact T0

omit [FloatOps F] [CountersIn UU] in
theorem t_toks (d : Dev nD) (L : grid0.Coords) (q : PosShare TreeShare) (t : Buf (Elt F) (tLoc d)) :
    (tW.view.loc (thr d L) ↦{q} t : sProp 𝕄)
      ⊣⊢ iprop(TAside d L q t ∗ (tW.view.loc (thr d L) ↦{Transfers.shareTokN q 2} t) ∗ (tW.view.loc (thr d L) ↦{Transfers.shareTokN q 3} t)) := by
  unfold TAside
  constructor
  · iintro H
    ihave H := (tok_split0 (F := F) (UU := UU) t q).1 $$ H
    icases H with ⟨H1, T0⟩
    ihave H1 := (tok_split (F := F) (UU := UU) t q 1).1 $$ H1
    icases H1 with ⟨H2, T1⟩
    ihave H2 := (tok_split (F := F) (UU := UU) t q 2).1 $$ H2
    icases H2 with ⟨H3, T2⟩
    ihave H3 := (tok_split (F := F) (UU := UU) t q 3).1 $$ H3
    icases H3 with ⟨H4, T3⟩
    isplitl [H4 T0 T1]
    · isplitl [H4]; · iexact H4
      isplitl [T0]; · iexact T0
      iexact T1
    isplitl [T2]; · iexact T2
    iexact T3
  · iintro ⟨⟨H4, T0, T1⟩, T2, T3⟩
    iapply (tok_split0 (F := F) (UU := UU) t q).2
    isplitl [H4 T1 T2 T3]
    · iapply (tok_split (F := F) (UU := UU) t q 1).2
      isplitl [H4 T2 T3]
      · iapply (tok_split (F := F) (UU := UU) t q 2).2
        isplitl [H4 T3]
        · iapply (tok_split (F := F) (UU := UU) t q 3).2
          isplitl [H4]; · iexact H4
          iexact T3
        · iexact T2
      · iexact T1
    · iexact T0

end Cert.KernelIdeal.Tile

end
-- ==== Proof.TileLoops4.lean ====
/-
  Small equations the tile's run uses where it meets a group loop: a points-to at equal contents, and the loads of a
  group's ids and flags through the printed offsets as the chunk's.
-/
import proofs.«205036_g29618094473603_cont_9to1_1720_19_alg».proof.Proof.TileLoopsBridge
import Idealize.ShloMosaic.Lib.SparseCore.Ops
import proofs.«205036_g29618094473603_cont_9to1_1720_19_alg».proof.Proof.TileLoops3

noncomputable section

namespace Cert.KernelIdeal.Tile

open Cert.KernelIdeal
open Facts₀ Facts
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {UU : Type} [URA UU] [CountersIn UU]

local notation "𝕄" => MT nD τ sig (HIx 1) (Elt F) ℕ UU ℕ

omit [FloatOps F] [CountersIn UU] in
theorem pts_eq {ℓ : Loc nD τ sig} {S : Finset (Idx ℓ)} {q' : PosShare TreeShare} {f g : Buf (Elt F) ℓ} (h : f = g) :
    (ℓ ↦[S]{q'} f : sProp 𝕄) ⊢ ℓ ↦[S]{q'} g := Entails.of_eq (by rw [h])

omit [FloatOps F] [CountersIn UU] [URA UU] in
/-- The load of 16 staged ids at group `g` of chunk `c`'s offset is the group's id vector. -/
theorem ids_of_off (L : grid0.Coords) (b : Vec F S320000 .i32) (c : Fin 35) (g : Fin 10) {off : Fin 1 → ℕ}
    (inb : ∀ a, off a + S16.size a ≤ S5600.size a) (h : off = grpOff c.val g.val) :
    sB.view.readAt (Elt F) (Rect.unit (s := S5600) off S16.size inb).toLoadRect (sIds F L b) = ids F L b c g := by
  subst h; rfl
omit [FloatOps F] [CountersIn UU] [URA UU] in
theorem fls_of_off (L : grid0.Coords) (fl : Vec F S320000 .f32) (c : Fin 35) (g : Fin 10) {off : Fin 1 → ℕ}
    (inb : ∀ a, off a + S16.size a ≤ S5600.size a) (h : off = grpOff c.val g.val) :
    sFl.view.readAt (Elt F) (Rect.unit (s := S5600) off S16.size inb).toLoadRect (sFls L fl) = fls L fl c g := by
  subst h; rfl

omit [FloatOps F] [CountersIn UU] [URA UU] in
/-- The staged ids are each below 64. -/
theorem sIds_lt (L : grid0.Coords) {b : Vec F S320000 .i32} (hb : ∀ i : S320000.Idx, ((b : S320000.Idx → BitVec 32) i).toNat < 64) :
    ∀ i : S5600.Idx, ((sIds F L b : S5600.Idx → BitVec 32) i).toNat < 64 := by
  intro i
  unfold sIds
  simp only [View.read_apply, cast_eq]
  exact hb _

end Cert.KernelIdeal.Tile

end
-- ==== Proof.TileEnds.lean ====
/-
  The two ends of a tile's run, with their values: the tables start as zero, and what the tile copies out is what
  its block of each output array then holds.

  The write-out slice of an output array is block w of the 32 x 64 x 16 array seen as a 64 x 16 table: entry (s, l) of
  the table sits at (w, s, l) of the array. A copy of a table through it therefore leaves the array holding the table
  on that block.
-/
import proofs.«205036_g29618094473603_cont_9to1_1720_19_alg».proof.Proof.TileLoopsBridge
import proofs.«205036_g29618094473603_cont_9to1_1720_19_alg».proof.Proof.TileRes
import proofs.«205036_g29618094473603_cont_9to1_1720_19_alg».proof.Proof.TilePure
import Idealize.ShloMosaic.Lib.Writes
import Idealize.ShloMosaic.Lib.Pipeline.Value
import Idealize.ShloMosaic.Lib.Tactic

noncomputable section

namespace Cert.KernelIdeal.Tile

open Cert.KernelIdeal
open Facts₀ Facts
open Idealize.ShloMosaic Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] {UU : Type} [URA UU] [CountersIn UU]

local notation "𝕄" => MT nD τ sig (HIx 1) (Elt F) ℕ UU ℕ

/-! ## The copy-outs -/

omit [FloatOps F] [URA UU] [CountersIn UU] in
/-- Entry (s, l) of a 64 x 16 table is entry (0, s, l) of the same table seen as 1 x 64 x 16. -/
theorem squeeze_ix (s : Fin 64) (l : Fin 16) (hn : S64x16.numel = S1x64x16.numel) :
    Shape.reshapeEquiv (s := S1x64x16) (s' := S64x16) hn (ix2 s l) = ix3 (0 : Fin 1) s l :=
  Shape.reshapeEquiv_eq_of_rowMajor hn (by
    rw [Shape.rowMajor_val_three, Shape.rowMajor_val_two]
    show (0 * 64 + s.val) * 16 + l.val = s.val * 16 + l.val
    omega)

omit [FloatOps F] [URA UU] [CountersIn UU] in
/-- Where the write-out slice of the first output puts entry (s, l). -/
theorem emb_nOut (L : grid0.Coords) (s : Fin 64) (l : Fin 16) : (nOut L).view.emb (ix2 s l) = ix3 (wL L) s l := by
  show (blkK L).emb (Shape.reshapeEquiv (s := S1x64x16) (s' := S64x16) _ (ix2 s l)) = _
  rw [squeeze_ix]
  funext a
  apply Fin.ext
  rw [Rect.emb_apply]
  show k0_off9 L a + 1 * (ix3 (0 : Fin 1) s l a).val = (ix3 (wL L) s l a).val
  rw [Gen.k0_off9_eq]
  fin_cases a
  · show 16 * (L 0).val + (L 1).val + 1 * 0 = 16 * (L 0).val + (L 1).val
    omega
  · show 0 + 1 * s.val = s.val
    omega
  · show 0 + 1 * l.val = l.val
    omega

omit [FloatOps F] [URA UU] [CountersIn UU] in
/-- The same for the second output. -/
theorem emb_cOut (L : grid0.Coords) (s : Fin 64) (l : Fin 16) : (cOut L).view.emb (ix2 s l) = ix3 (wL L) s l := by
  show (blkK L).emb (Shape.reshapeEquiv (s := S1x64x16) (s' := S64x16) _ (ix2 s l)) = _
  rw [squeeze_ix]
  funext a
  apply Fin.ext
  rw [Rect.emb_apply]
  show k0_off9 L a + 1 * (ix3 (0 : Fin 1) s l a).val = (ix3 (wL L) s l a).val
  rw [Gen.k0_off9_eq]
  fin_cases a
  · show 16 * (L 0).val + (L 1).val + 1 * 0 = 16 * (L 0).val + (L 1).val
    omega
  · show 0 + 1 * s.val = s.val
    omega
  · show 0 + 1 * l.val = l.val
    omega

omit [FloatOps F] [URA UU] [CountersIn UU] in
/-- After table `N` is copied whole through the write-out slice, the first output holds `N` on the tile's block. -/
theorem out_holdsN (L : grid0.Coords) (fn : Vec F S32x64x16 .f32) (N : Vec F S64x16 .f32) :
    HoldsOn (wL L) N ((nOut L).view.writes (Elt F) fn [⟨Rect.whole S64x16, N⟩]) := by
  intro s l
  have h := View.read_writes_cons_emb (v := (nOut L).view) (f := fn) (Val := Elt F) (Rect.whole S64x16) N [] (ix2 s l)
  rw [View.read_apply, Rect.emb_whole_apply, emb_nOut] at h
  exact h

omit [FloatOps F] [URA UU] [CountersIn UU] in
/-- The same for the second output and table `C`. -/
theorem out_holdsC (L : grid0.Coords) (fc : Vec F S32x64x16 .f32) (C : Vec F S64x16 .f32) :
    HoldsOn (wL L) C ((cOut L).view.writes (Elt F) fc [⟨Rect.whole S64x16, C⟩]) := by
  intro s l
  have h := View.read_writes_cons_emb (v := (cOut L).view) (f := fc) (Val := Elt F) (Rect.whole S64x16) C [] (ix2 s l)
  rw [View.read_apply, Rect.emb_whole_apply, emb_cOut] at h
  exact h

/-! ## The zeroing loop -/

omit [URA UU] [CountersIn UU] in
/-- One trip's store of the zero row: if rows below `k` read zero, rows below `k + 1` do afterwards. -/
theorem zero_row_step (v : View sig .scVector .vmem S64x16 .f32) (g : v.ty.Contents (Elt F)) (k : Fin k0_t1_loop.trips)
    (v5 : FVec F S16 .f32) (hv5 : v5 = TilePure.zero16) (inb : ∀ a, (k0_off2 k) a + S1x16.size a ≤ S64x16.size a) (hsc : S16.ShapeCasts S1x16)
    (h : ∀ (s : Fin 64) (l : Fin 16), s.val < k.val → v.read (Elt F) g (ix2 s l) = (Scalar.ofBits .f32 0x00000000#32 : F .f32))
    (s : Fin 64) (l : Fin 16) (hs : s.val < k.val + 1) :
    v.read (Elt F) (v.writes (Elt F) g [⟨Rect.unit (s := S64x16) (k0_off2 k) S1x16.size inb, shapeCast S1x16 v5 hsc⟩]) (ix2 s l)
      = (Scalar.ofBits .f32 0x00000000#32 : F .f32) := by
  by_cases e : s.val = k.val
  · have he : (ix2 s l : S64x16.Idx) = (Rect.unit (s := S64x16) (k0_off2 k) S1x16.size inb).emb (ix2 (0 : Fin 1) l) := by
      funext a
      apply Fin.ext
      rw [Rect.emb_apply]
      show (ix2 s l a).val = k0_off2 k a + 1 * (ix2 (0 : Fin 1) l a).val
      rw [Gen.k0_off2_eq]
      fin_cases a
      · show s.val = k.val + 1 * 0
        omega
      · show l.val = 0 + 1 * l.val
        omega
    rw [he, View.read_writes_cons_emb]
    rw [shapeCast_apply v5 hsc (ix2 (0 : Fin 1) l) (ix1 l) (by
      rw [Shape.rowMajor_val_one, Shape.rowMajor_val_two]
      show l.val = 0 * 16 + l.val
      omega), hv5]
    rfl
  · rw [View.read_writes_apply_of_forall_not_mem]
    · exact h s l (by omega)
    · intro p hp
      rw [List.mem_singleton] at hp
      subst hp
      rw [Rect.mem_set_unit]
      intro hh
      have h0 := hh 0
      rw [Gen.k0_off2_eq] at h0
      have h1 : k.val ≤ s.val ∧ s.val < k.val + 1 := h0
      omega

/-- The zeroing loop's invariant: rows below `k` of both tables are zero. -/
def zeroInv (d : Dev nD) (L : grid0.Coords) (k : Nat) (_ : PUnit) : sProp 𝕄 :=
  iprop((∃ f : Buf (Elt F) (sN.view.loc (thr d L)), ⌜∀ (s : Fin 64) (l : Fin 16), s.val < k → (f : Vec F S64x16 .f32) (ix2 s l) = (Scalar.ofBits .f32 0x00000000#32 : F .f32)⌝ ∗ sN.view.loc (thr d L) ↦{fullShare} f)
    ∗ (∃ f : Buf (Elt F) (sC.view.loc (thr d L)), ⌜∀ (s : Fin 64) (l : Fin 16), s.val < k → (f : Vec F S64x16 .f32) (ix2 s l) = (Scalar.ofBits .f32 0x00000000#32 : F .f32)⌝ ∗ sC.view.loc (thr d L) ↦{fullShare} f))

omit [FloatOps F] [URA UU] [CountersIn UU] in
theorem trips_t1 : k0_t1_loop.trips = 64 := by decide

omit [URA UU] [CountersIn UU] in
/-- A table whose 64 rows are zero is the zero table. -/
theorem eq_zeroTab (f : Vec F S64x16 .f32)
    (h : ∀ (s : Fin 64) (l : Fin 16), s.val < 64 → f (ix2 s l) = (Scalar.ofBits .f32 0x00000000#32 : F .f32)) : f = TilePure.zeroTab := by
  funext i
  rw [eq_ix2 i]
  exact h _ _ (i 0).isLt

set_option maxHeartbeats 1600000 in
/-- THE ZEROING LOOP: from the two tables at any contents, 64 trips leave both at the zero table. -/
theorem wp_zeroLoop (d : Dev nD) (L : grid0.Coords) (v5 : FVec F S16 .f32) (hv5 : v5 = TilePure.zero16)
    {fN : Buf (Elt F) (sN.view.loc (thr d L))} {fC : Buf (Elt F) (sC.view.loc (thr d L))} {α : Type}
    (kk : PUnit → Prog (TpuEff nD τ sig (Elt F) Λ₀ (.scVector (cV L) (jV L))) α) (Q : α → sProp 𝕄) :
    iprop((sN.view.loc (thr d L) ↦{fullShare} fN) ∗ (sC.view.loc (thr d L) ↦{fullShare} fC)
        ∗ ((sN.view.loc (thr d L) ↦{fullShare} (TilePure.zeroTab : Vec F S64x16 .f32)) -∗ (sC.view.loc (thr d L) ↦{fullShare} (TilePure.zeroTab : Vec F S64x16 .f32))
            -∗ wp frame (wpE (defs₀ (F := F)) Variants.none (thr d L) none) Set.univ (kk ⟨⟩) Q))
      ⊢ wp frame (wpE (defs₀ (F := F)) Variants.none (thr d L) none) Set.univ
          ((Scf.Loop.for k0_t1_loop k0_t1_ok ⟨⟩ fun k0_t1 _ => do
        let arg20 : BitVec 32 := Scf.iv 0#32 1#32 k0_t1
        let v18 : Index := Scalar.indexCast arg20
        let c0 : Index := 0#32
        let v19_ld : Vec F S1x16 .f32 ← Prog.lift (.load sN (Rect.unit (s := S64x16) (k0_off2 k0_t1) S1x16.size (k0_off2_inb k0_t1)).toLoadRect (View.loadsAt_vmem h_S1x16))
        have v19 : Vec F S16 .f32 := shapeCast S16 v19_ld shapeCasts_S1x16_S16
        Prog.lift (.store sN (Rect.unit (s := S64x16) (k0_off2 k0_t1) S1x16.size (k0_off2_inb k0_t1)) (shapeCast S1x16 v5 shapeCasts_S16_S1x16) Finset.univ (View.stores_vmem_bits_univ h_S1x16 rfl) (.inl rfl))
        let v20 : Index := Scalar.indexCast arg20
        let c0_23 : Index := 0#32
        let v21_ld : Vec F S1x16 .f32 ← Prog.lift (.load sC (Rect.unit (s := S64x16) (k0_off2 k0_t1) S1x16.size (k0_off2_inb k0_t1)).toLoadRect (View.loadsAt_vmem h_S1x16))
        have v21 : Vec F S16 .f32 := shapeCast S16 v21_ld shapeCasts_S1x16_S16
        Prog.lift (.store sC (Rect.unit (s := S64x16) (k0_off2 k0_t1) S1x16.size (k0_off2_inb k0_t1)) (shapeCast S1x16 v5 shapeCasts_S16_S1x16) Finset.univ (View.stores_vmem_bits_univ h_S1x16 rfl) (.inl rfl))
        pure ⟨⟩) >>= kk) Q := by
  iintro ⟨H6, H7, Hk⟩
  sl_for (zeroInv (F := F) (UU := UU) d L) $$ [H6 H7]
  case region =>
    intro k _
    unfold zeroInv
    iintro ⟨⟨%g6, %h6, H6⟩, ⟨%g7, %h7, H7⟩⟩
    sl_exec
    sl_step
    isplitl [H6]
    · iexists _; isplitr
      swap; · iexact H6
      ipureintro
      intro s l hs
      exact zero_row_step sN.view g6 k v5 hv5 _ _ (fun s l h => h6 s l h) s l hs
    · iexists _; isplitr
      swap; · iexact H7
      ipureintro
      intro s l hs
      exact zero_row_step sC.view g7 k v5 hv5 _ _ (fun s l h => h7 s l h) s l hs
  · unfold zeroInv
    isplitl [H6]
    · iexists _; isplitr
      swap; · iexact H6
      ipureintro; intro s l hs; exact absurd hs (Nat.not_lt_zero _)
    · iexists _; isplitr
      swap; · iexact H7
      ipureintro; intro s l hs; exact absurd hs (Nat.not_lt_zero _)
  iintro %_ HI
  unfold zeroInv
  icases HI with ⟨⟨%g6, %h6, H6⟩, ⟨%g7, %h7, H7⟩⟩
  have h64 : Scf.trips k0_t1_loop.lb k0_t1_loop.ub k0_t1_loop.st = 64 := trips_t1
  rw [h64] at h6 h7
  obtain rfl := eq_zeroTab g6 h6
  obtain rfl := eq_zeroTab g7 h7
  unfold wp_zeroLoop.sl.prog.cont_1
  iapply Hk $$ H6 H7

end Cert.KernelIdeal.Tile

end
-- ==== Proof.PartsIdx.lean ====
/-
  The index vectors of a tile's row sums, as numbers.

  The lane vector holds the lane numbers 0 … 15. The row vector of group g is the lane vector plus 16 g, so that lane x
  owns row x + 16 g of the chunk, below 160 for the ten groups; the column base of outer step dd is the lane vector
  plus 32 dd, and a step's column is base plus its two constants modulo 128. None of these sums wraps: every value is
  far below 2^32.
-/
import proofs.«205036_g29618094473603_cont_9to1_1720_19_alg».proof.Proof.PartsLib

noncomputable section

namespace Cert.KernelIdeal.TileParts

open Cert.KernelIdeal
open Idealize.ShloMosaic
open Idealize.ShloMosaic.ValueIdx

/-- A lane's number is below 16. -/
theorem lane_lt (x : S16.Idx) : (x 0).val < 16 := (x 0).isLt

/-- The lane vector at a lane is the lane's number. -/
theorem lanes_toNat (h : S16.Iotas .scVector 32 [0]) (x : S16.Idx) : (iota .scVector S16 32 [0] h x).toNat = (x 0).val := by
  have hx := lane_lt x
  show (BitVec.ofNat 32 (0 * S16.size 0 + (x 0).val)).toNat = (x 0).val
  rw [BitVec.toNat_ofNat]
  show (0 * 16 + (x 0).val) % 2 ^ 32 = (x 0).val
  omega

/-- The induction variable of a unit-step loop from zero is the trip number (for the few trips these loops make). -/
theorem iv01_toNat (k : ℕ) (hk : k < 1000) : (Scf.iv 0#32 1#32 k).toNat = k := by
  show (0#32 + BitVec.ofNat 32 k * 1#32).toNat = k
  rw [BitVec.mul_one, BitVec.zero_add, BitVec.toNat_ofNat]
  omega

/-- Lane vector plus a broadcast multiple of the trip number: lane number plus the multiple (no wrap). -/
theorem lanesPlus_toNat (v4 : IVec S16 32) (hv4 : ∀ x, (v4 x).toNat = (x 0).val) (k : ℕ) (hk : k < 1000) (m : ℕ) (hm : m < 1000)
    (x : S16.Idx) : (addi v4 (broadcast S16 (Scalar.muli (Scf.iv 0#32 1#32 k) (BitVec.ofNat 32 m))) x).toNat = (x 0).val + k * m := by
  have hx := lane_lt x
  have hkm : k * m < 1000 * 1000 := Nat.mul_lt_mul'' hk hm
  show (v4 x + Scf.iv 0#32 1#32 k * BitVec.ofNat 32 m).toNat = _
  rw [BitVec.toNat_add, BitVec.toNat_mul, iv01_toNat k hk, BitVec.toNat_ofNat, hv4 x]
  have h1 : m % 2 ^ 32 = m := Nat.mod_eq_of_lt (by omega)
  rw [h1]
  have h2 : k * m % 2 ^ 32 = k * m := Nat.mod_eq_of_lt (by omega)
  rw [h2]
  exact Nat.mod_eq_of_lt (by omega)

/-- The row a lane of group `g` owns: lane number plus 16 g. -/
theorem rows_toNat (v4 : IVec S16 32) (hv4 : ∀ x, (v4 x).toNat = (x 0).val) (g : ℕ) (hg : g < 10) (x : S16.Idx) :
    (addi v4 (broadcast S16 (Scalar.muli (Scf.iv 0#32 1#32 g) 16#32)) x).toNat = (x 0).val + g * 16 :=
  lanesPlus_toNat v4 hv4 g (by omega) 16 (by omega) x

/-- Every row a lane of one of the ten groups owns is a row of the chunk. -/
theorem rows_lt160 (v4 : IVec S16 32) (hv4 : ∀ x, (v4 x).toNat = (x 0).val) (g : ℕ) (hg : g < 10) :
    ∀ x, (addi v4 (broadcast S16 (Scalar.muli (Scf.iv 0#32 1#32 g) 16#32)) x).toNat < 160 := by
  intro x
  have hx := lane_lt x
  rw [rows_toNat v4 hv4 g hg x]
  omega

/-- The column base of outer step `dd` at a lane: lane number plus 32 dd. -/
theorem base_toNat (v4 : IVec S16 32) (hv4 : ∀ x, (v4 x).toNat = (x 0).val) (dd : ℕ) (hdd : dd < 4) (x : S16.Idx) :
    (addi v4 (broadcast S16 (Scalar.muli (Scf.iv 0#32 1#32 dd) 32#32)) x).toNat = (x 0).val + dd * 32 :=
  lanesPlus_toNat v4 hv4 dd (by omega) 32 (by omega) x

/-- The column a lane reads at outer step `dd`, constants `a` and `b`: lane number plus 32 dd plus a plus b, modulo 128. -/
theorem colBase_toNat (v4 : IVec S16 32) (hv4 : ∀ x, (v4 x).toNat = (x 0).val) (dd : ℕ) (hdd : dd < 4) (a b : BitVec 32) (x : S16.Idx) :
    (colAt (addi v4 (broadcast S16 (Scalar.muli (Scf.iv 0#32 1#32 dd) 32#32))) a b x).toNat
      = ((x 0).val + dd * 32 + a.toNat + b.toNat) % 128 := by
  rw [colAt_toNat, base_toNat v4 hv4 dd hdd x]

/-- The element of a chunk a lane reads, by its two numbers. -/
theorem laneIdx_eq {rows cols : IVec S16 32}
    (h : ∀ (ax : Fin S160x128.rank) (x : S16.Idx), ((![rows, cols] : Fin 2 → IVec S16 32) ax x).toNat < S160x128.size ax)
    (x : S16.Idx) (r : Fin 160) (c : Fin 128) (hr : (rows x).toNat = r.val) (hc : (cols x).toNat = c.val) :
    laneIdx h x = ix2 r c := by
  unfold laneIdx
  congr 1
  · exact Fin.ext hr
  · exact Fin.ext hc

end Cert.KernelIdeal.TileParts

end
-- ==== Proof.GroupLib.lean ====
/-
  The four accumulators of a group of rows, outer step by outer step.

  After n outer steps accumulator q holds, lane by lane, the sum of the squared differences at the columns of the steps
  4 j + q of the outer steps before n, added in order from zero. Four outer steps give the accumulators the row's value is
  formed from.
-/
import proofs.«205036_g29618094473603_cont_9to1_1720_19_alg».proof.Proof.PartsIdx
import proofs.«205036_g29618094473603_cont_9to1_1720_19_alg».proof.Proof.TilePure
import proofs.«205036_g29618094473603_cont_9to1_1720_19_alg».proof.Proof.TileLoopsBridge
import Idealize.ShloMosaic.Lib.Tactic

noncomputable section

namespace Cert.KernelIdeal.TileParts

open Cert.KernelIdeal
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Tactic
open Cert.KernelIdeal.Tile (thr pW tW bW fW nW cW sP0 sP1 sT0 sT1 sB sFl sN sC)
open Cert.KernelIdeal.TilePure

variable {F : FTy → Type} [FloatOps F] [Facts]
open Facts₀ Facts
variable {UU : Type} [URA UU]
variable {defs : Defs nD τ sig (Elt F) Λ₀} (𝒱 : Variants) (bd : Option 𝒱.V)

local notation "𝕄" => MT nD τ sig (HIx 1) (Elt F) ℕ UU ℕ

/-- Accumulator `q` after `n` outer steps, from zero. -/
def accUpTo (P T : Vec F S160x128 .f32) (rows : IVec S16 32) (hr : ∀ x, (rows x).toNat < 160) (q : BitVec 32) (n : ℕ) : FVec F S16 .f32 :=
  (List.range n).foldl (fun a dd => tripAcc P T rows hr (baseVec dd) q a) zero16

theorem accUpTo_zero (P T : Vec F S160x128 .f32) (rows : IVec S16 32) (hr : ∀ x, (rows x).toNat < 160) (q : BitVec 32) :
    accUpTo P T rows hr q 0 = zero16 := by
  unfold accUpTo; rw [List.range_zero, List.foldl_nil]

theorem accUpTo_succ (P T : Vec F S160x128 .f32) (rows : IVec S16 32) (hr : ∀ x, (rows x).toNat < 160) (q : BitVec 32) (n : ℕ) :
    accUpTo P T rows hr q (n + 1) = tripAcc P T rows hr (baseVec n) q (accUpTo P T rows hr q n) := by
  unfold accUpTo; rw [List.range_succ, List.foldl_append, List.foldl_cons, List.foldl_nil]

theorem accUpTo_four (P T : Vec F S160x128 .f32) (rows : IVec S16 32) (hr : ∀ x, (rows x).toNat < 160) (q : BitVec 32) :
    accUpTo P T rows hr q 4 = laneAcc P T rows hr q := by
  unfold accUpTo laneAcc; rw [show List.range 4 = [0, 1, 2, 3] from by decide]

/-- The lane vector's numbers. -/
theorem lanes_val (x : S16.Idx) : ((lanes : IVec S16 32) x).toNat = (x 0).val := lanes_toNat _ x

/-- The rows of each of the ten groups are rows of the chunk. -/
theorem rowsVec_lt (g : ℕ) (hg : g < 10) : ∀ x, (rowsVec g x).toNat < 160 := rows_lt160 lanes lanes_val g hg

/-- The accumulator loop's invariant: both chunks as they were, and the four accumulators after `n` outer steps. -/
def invAcc (HP HT : sProp 𝕄) (P T : Vec F S160x128 .f32) (rows : IVec S16 32) (hr : ∀ x, (rows x).toNat < 160) (n : ℕ)
    (acc : FVec F S16 .f32 × FVec F S16 .f32 × FVec F S16 .f32 × FVec F S16 .f32) : sProp 𝕄 :=
  iprop(HP ∗ HT ∗ ⌜acc = (accUpTo P T rows hr 0#32 n, accUpTo P T rows hr 1#32 n, accUpTo P T rows hr 2#32 n, accUpTo P T rows hr 3#32 n)⌝)

/-- One outer step of an accumulator, written out: its eight steps in order. -/
theorem tripAcc_nest (P T : Vec F S160x128 .f32) (rows : IVec S16 32) (hr : ∀ x, (rows x).toNat < 160) (base : IVec S16 32)
    (q : BitVec 32) (acc : FVec F S16 .f32) :
    tripAcc P T rows hr base q acc
      = (sqAcc P T rows (colAt base 28#32 q) (inb_col hr base 28#32 q) (sqAcc P T rows (colAt base 24#32 q) (inb_col hr base 24#32 q) (sqAcc P T rows (colAt base 20#32 q) (inb_col hr base 20#32 q) (sqAcc P T rows (colAt base 16#32 q) (inb_col hr base 16#32 q) (sqAcc P T rows (colAt base 12#32 q) (inb_col hr base 12#32 q) (sqAcc P T rows (colAt base 8#32 q) (inb_col hr base 8#32 q) (sqAcc P T rows (colAt base 4#32 q) (inb_col hr base 4#32 q) (sqAcc P T rows (colAt base 0#32 q) (inb_col hr base 0#32 q) acc)))))))) := rfl

/-! ## The groups of a chunk -/

/-- A fold over the groups before `n` (of ten), each step given its group number and that it is below ten. -/
def grpFold {β : Type} (step : (g : ℕ) → g < 10 → β → β) (b : β) : ℕ → β
  | 0 => b
  | n + 1 => if h : n < 10 then step n h (grpFold step b n) else grpFold step b n

theorem grpFold_zero {β : Type} (step : (g : ℕ) → g < 10 → β → β) (b : β) : grpFold step b 0 = b := rfl

theorem grpFold_succ {β : Type} (step : (g : ℕ) → g < 10 → β → β) (b : β) (n : ℕ) (h : n < 10) :
    grpFold step b (n + 1) = step n h (grpFold step b n) := by
  rw [grpFold]; exact dif_pos h

/-- Over all ten groups the fold is the fold over the list of the ten group numbers. -/
theorem grpFold_ten {β : Type} (step : (g : ℕ) → g < 10 → β → β) (b : β) :
    grpFold step b 10 = (List.finRange 10).foldl (fun tb g => step g.val g.isLt tb) b := by
  rw [grpFold_succ _ _ 9 (by omega), grpFold_succ _ _ 8 (by omega), grpFold_succ _ _ 7 (by omega), grpFold_succ _ _ 6 (by omega),
    grpFold_succ _ _ 5 (by omega), grpFold_succ _ _ 4 (by omega), grpFold_succ _ _ 3 (by omega), grpFold_succ _ _ 2 (by omega),
    grpFold_succ _ _ 1 (by omega), grpFold_succ _ _ 0 (by omega), grpFold_zero]
  rfl

/-- Segment ids below 64 name rows of the table (the lane numbers name its columns). -/
theorem idsOk_lt (ids : IVec S16 32) (h : ∀ x, (ids x).toNat < 64) : IdsOk ids := by
  intro a x
  match a with
  | ⟨0, _⟩ => exact h x
  | ⟨1, _⟩ =>
    show ((lanes : IVec S16 32) x).toNat < 16
    rw [lanes_val]; exact lane_lt x

/-- A vector of segment ids read out of the id buffer: each is below 64 when every word of the buffer is. -/
theorem readAt_lt64 (d : Dev nD) (L : grid0.Coords) (fB : Buf (Elt F) (sB.view.loc (thr d L)))
    (hfB : ∀ i : S5600.Idx, ((fB : S5600.Idx → BitVec 32) i).toNat < 64) (r : LoadRect S5600) (x : r.shape.Idx) :
    ((sB.view.readAt (Elt F) r fB x : BitVec 32)).toNat < 64 := by
  simp only [View.readAt_apply, Memref.view_whole, View.read_whole]
  exact hfB _

/-- The group loop's invariant: the two chunks and the id and flag buffers as they were, the two tables after the
    groups before `n`. -/
def invGrp (HR : sProp 𝕄) (HN HC : Vec F S64x16 .f32 → sProp 𝕄)
    (stepN stepC : (g : ℕ) → g < 10 → Vec F S64x16 .f32 → Vec F S64x16 .f32) (N C : Vec F S64x16 .f32) (n : ℕ) (_ : PUnit) : sProp 𝕄 :=
  iprop(HR ∗ HN (grpFold stepN N n) ∗ HC (grpFold stepC C n))

end Cert.KernelIdeal.TileParts

end
-- ==== Proof.PartsA.lean ====
/-
  The first compute site of a tile's pair loop, part by part: the eight unrolled parts of one outer step over the
  first pair of staged chunks. Each part runs four steps (a step: the column vector is formed and found in range, both
  chunks are read at the lanes' indices, the squared difference goes into one accumulator), shifted by one: a part
  ends having formed the column vector whose reads open the next. Both chunks are handed back as they were, and the
  part's results are the pure step terms of the chunks' contents and the incoming vectors.
-/
import proofs.«205036_g29618094473603_cont_9to1_1720_19_alg».proof.Proof.PartsLib

noncomputable section

namespace Cert.KernelIdeal.TileParts

open Cert.KernelIdeal
open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Facts]
open Facts₀ Facts
variable {Ix : Type} [DecidableEq Ix] {Name : Type} [DecidableEq Name]
variable {U : Type} [URA U] {Lvl : Type} [Preorder Lvl]
variable {defs : Defs nD τ sig (Elt F) Λ₀} (𝒱 : Variants) (bd : Option 𝒱.V) (E : Set Name)

local notation "𝕄" => MT nD τ sig Ix (Elt F) Name U Lvl

set_option maxHeartbeats 4000000 in
theorem wp_part1 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v4 : IVec S16 32) (v54 : IVec S16 32) (c0_i32_65 : BitVec 32) (c1_i32_66 : BitVec 32) (k0_t4 : Fin k0_t4_loop.trips) (arg23 : FVec F S16 .f32) (arg24 : FVec F S16 .f32) (arg25 : FVec F S16 .f32) (d : Dev nD) (hr : ∀ x, (v54 x).toNat < 160)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v63 : IVec S16 32) (v74 : FVec F S16 .f32) (v85 : FVec F S16 .f32) (v96 : FVec F S16 .f32) (v102 : IVec S16 32), k0_chk4 v54 v102) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨(addi v4 (broadcast S16 (Scalar.muli (Scf.iv c0_i32_65 c1_i32_66 k0_t4) 32#32))),
        sqAcc ((arg8.access (.whole S160x128)).read (Elt F) fP) ((arg10.access (.whole S160x128)).read (Elt F) fT) v54 (colAt (addi v4 (broadcast S16 (Scalar.muli (Scf.iv c0_i32_65 c1_i32_66 k0_t4) 32#32))) 0#32 0#32) (inb_col hr _ _ _) arg23,
        sqAcc ((arg8.access (.whole S160x128)).read (Elt F) fP) ((arg10.access (.whole S160x128)).read (Elt F) fT) v54 (colAt (addi v4 (broadcast S16 (Scalar.muli (Scf.iv c0_i32_65 c1_i32_66 k0_t4) 32#32))) 0#32 1#32) (inb_col hr _ _ _) arg24,
        sqAcc ((arg8.access (.whole S160x128)).read (Elt F) fP) ((arg10.access (.whole S160x128)).read (Elt F) fT) v54 (colAt (addi v4 (broadcast S16 (Scalar.muli (Scf.iv c0_i32_65 c1_i32_66 k0_t4) 32#32))) 0#32 2#32) (inb_col hr _ _ _) arg25,
        colAt (addi v4 (broadcast S16 (Scalar.muli (Scf.iv c0_i32_65 c1_i32_66 k0_t4) 32#32))) 0#32 3#32, chk_col hr _ _ _⟩))
    ⊢ wp frame (wpE defs 𝒱 (V d ((i 0).castLE hcore0) ((i 1).castLE hsub0)) bd) E (k0_part1 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v4 v54 c0_i32_65 c1_i32_66 k0_t4 arg23 arg24 arg25) Φ := by
  unfold sqAcc colAt
  unfold k0_part1
  simp only [Prog.lift, Prog.bind_op, Prog.bind_ret, Prog.pure_eq_ret]
  iintro ⟨HP, HT, HΦ⟩
  iapply (wp_assume _ _ _ _ (show k0_chk1 _ _ from chk_col hr _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk2 _ _ from chk_col hr _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk3 _ _ from chk_col hr _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk4 _ _ from chk_col hr _ _ _))
  rw [wp_ret]; imodintro
  iapply HΦ
  isplitl [HP]
  · iexact HP
  · iexact HT

set_option maxHeartbeats 4000000 in
theorem wp_part2 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v54 : IVec S16 32) (arg26 : FVec F S16 .f32) (v63 : IVec S16 32) (v74 : FVec F S16 .f32) (v85 : FVec F S16 .f32) (v96 : FVec F S16 .f32) (v102 : IVec S16 32) (k0_hw4 : k0_chk4 v54 v102) (d : Dev nD)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v107 : FVec F S16 .f32) (v118 : FVec F S16 .f32) (v129 : FVec F S16 .f32) (v140 : FVec F S16 .f32) (v146 : IVec S16 32), k0_chk8 v54 v146) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨sqAcc ((arg8.access (.whole S160x128)).read (Elt F) fP) ((arg10.access (.whole S160x128)).read (Elt F) fT) v54 v102 k0_hw4.1 arg26,
        sqAcc ((arg8.access (.whole S160x128)).read (Elt F) fP) ((arg10.access (.whole S160x128)).read (Elt F) fT) v54 (colAt v63 4#32 0#32) (inb_col (rows_lt k0_hw4.1) _ _ _) v74,
        sqAcc ((arg8.access (.whole S160x128)).read (Elt F) fP) ((arg10.access (.whole S160x128)).read (Elt F) fT) v54 (colAt v63 4#32 1#32) (inb_col (rows_lt k0_hw4.1) _ _ _) v85,
        sqAcc ((arg8.access (.whole S160x128)).read (Elt F) fP) ((arg10.access (.whole S160x128)).read (Elt F) fT) v54 (colAt v63 4#32 2#32) (inb_col (rows_lt k0_hw4.1) _ _ _) v96,
        colAt v63 4#32 3#32, chk_col (rows_lt k0_hw4.1) _ _ _⟩))
    ⊢ wp frame (wpE defs 𝒱 (V d ((i 0).castLE hcore0) ((i 1).castLE hsub0)) bd) E (k0_part2 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v54 arg26 v63 v74 v85 v96 v102 k0_hw4) Φ := by
  unfold sqAcc colAt
  unfold k0_part2
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk5 _ _ from chk_col (rows_lt k0_hw4.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk6 _ _ from chk_col (rows_lt k0_hw4.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk7 _ _ from chk_col (rows_lt k0_hw4.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk8 _ _ from chk_col (rows_lt k0_hw4.1) _ _ _))
  rw [wp_ret]; imodintro
  iapply HΦ
  isplitl [HP]
  · iexact HP
  · iexact HT

set_option maxHeartbeats 4000000 in
theorem wp_part3 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v54 : IVec S16 32) (v63 : IVec S16 32) (v107 : FVec F S16 .f32) (v118 : FVec F S16 .f32) (v129 : FVec F S16 .f32) (v140 : FVec F S16 .f32) (v146 : IVec S16 32) (k0_hw8 : k0_chk8 v54 v146) (d : Dev nD)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v151 : FVec F S16 .f32) (v162 : FVec F S16 .f32) (v173 : FVec F S16 .f32) (v184 : FVec F S16 .f32) (v190 : IVec S16 32), k0_chk12 v54 v190) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨sqAcc ((arg8.access (.whole S160x128)).read (Elt F) fP) ((arg10.access (.whole S160x128)).read (Elt F) fT) v54 v146 k0_hw8.1 v107,
        sqAcc ((arg8.access (.whole S160x128)).read (Elt F) fP) ((arg10.access (.whole S160x128)).read (Elt F) fT) v54 (colAt v63 8#32 0#32) (inb_col (rows_lt k0_hw8.1) _ _ _) v118,
        sqAcc ((arg8.access (.whole S160x128)).read (Elt F) fP) ((arg10.access (.whole S160x128)).read (Elt F) fT) v54 (colAt v63 8#32 1#32) (inb_col (rows_lt k0_hw8.1) _ _ _) v129,
        sqAcc ((arg8.access (.whole S160x128)).read (Elt F) fP) ((arg10.access (.whole S160x128)).read (Elt F) fT) v54 (colAt v63 8#32 2#32) (inb_col (rows_lt k0_hw8.1) _ _ _) v140,
        colAt v63 8#32 3#32, chk_col (rows_lt k0_hw8.1) _ _ _⟩))
    ⊢ wp frame (wpE defs 𝒱 (V d ((i 0).castLE hcore0) ((i 1).castLE hsub0)) bd) E (k0_part3 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v54 v63 v107 v118 v129 v140 v146 k0_hw8) Φ := by
  unfold sqAcc colAt
  unfold k0_part3
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk9 _ _ from chk_col (rows_lt k0_hw8.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk10 _ _ from chk_col (rows_lt k0_hw8.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk11 _ _ from chk_col (rows_lt k0_hw8.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk12 _ _ from chk_col (rows_lt k0_hw8.1) _ _ _))
  rw [wp_ret]; imodintro
  iapply HΦ
  isplitl [HP]
  · iexact HP
  · iexact HT

set_option maxHeartbeats 4000000 in
theorem wp_part4 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v54 : IVec S16 32) (v63 : IVec S16 32) (v151 : FVec F S16 .f32) (v162 : FVec F S16 .f32) (v173 : FVec F S16 .f32) (v184 : FVec F S16 .f32) (v190 : IVec S16 32) (k0_hw12 : k0_chk12 v54 v190) (d : Dev nD)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v195 : FVec F S16 .f32) (v206 : FVec F S16 .f32) (v217 : FVec F S16 .f32) (v228 : FVec F S16 .f32) (v234 : IVec S16 32), k0_chk16 v54 v234) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨sqAcc ((arg8.access (.whole S160x128)).read (Elt F) fP) ((arg10.access (.whole S160x128)).read (Elt F) fT) v54 v190 k0_hw12.1 v151,
        sqAcc ((arg8.access (.whole S160x128)).read (Elt F) fP) ((arg10.access (.whole S160x128)).read (Elt F) fT) v54 (colAt v63 12#32 0#32) (inb_col (rows_lt k0_hw12.1) _ _ _) v162,
        sqAcc ((arg8.access (.whole S160x128)).read (Elt F) fP) ((arg10.access (.whole S160x128)).read (Elt F) fT) v54 (colAt v63 12#32 1#32) (inb_col (rows_lt k0_hw12.1) _ _ _) v173,
        sqAcc ((arg8.access (.whole S160x128)).read (Elt F) fP) ((arg10.access (.whole S160x128)).read (Elt F) fT) v54 (colAt v63 12#32 2#32) (inb_col (rows_lt k0_hw12.1) _ _ _) v184,
        colAt v63 12#32 3#32, chk_col (rows_lt k0_hw12.1) _ _ _⟩))
    ⊢ wp frame (wpE defs 𝒱 (V d ((i 0).castLE hcore0) ((i 1).castLE hsub0)) bd) E (k0_part4 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v54 v63 v151 v162 v173 v184 v190 k0_hw12) Φ := by
  unfold sqAcc colAt
  unfold k0_part4
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk13 _ _ from chk_col (rows_lt k0_hw12.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk14 _ _ from chk_col (rows_lt k0_hw12.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk15 _ _ from chk_col (rows_lt k0_hw12.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk16 _ _ from chk_col (rows_lt k0_hw12.1) _ _ _))
  rw [wp_ret]; imodintro
  iapply HΦ
  isplitl [HP]
  · iexact HP
  · iexact HT

set_option maxHeartbeats 4000000 in
theorem wp_part5 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v54 : IVec S16 32) (v63 : IVec S16 32) (v195 : FVec F S16 .f32) (v206 : FVec F S16 .f32) (v217 : FVec F S16 .f32) (v228 : FVec F S16 .f32) (v234 : IVec S16 32) (k0_hw16 : k0_chk16 v54 v234) (d : Dev nD)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v239 : FVec F S16 .f32) (v250 : FVec F S16 .f32) (v261 : FVec F S16 .f32) (v272 : FVec F S16 .f32) (v278 : IVec S16 32), k0_chk20 v54 v278) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨sqAcc ((arg8.access (.whole S160x128)).read (Elt F) fP) ((arg10.access (.whole S160x128)).read (Elt F) fT) v54 v234 k0_hw16.1 v195,
        sqAcc ((arg8.access (.whole S160x128)).read (Elt F) fP) ((arg10.access (.whole S160x128)).read (Elt F) fT) v54 (colAt v63 16#32 0#32) (inb_col (rows_lt k0_hw16.1) _ _ _) v206,
        sqAcc ((arg8.access (.whole S160x128)).read (Elt F) fP) ((arg10.access (.whole S160x128)).read (Elt F) fT) v54 (colAt v63 16#32 1#32) (inb_col (rows_lt k0_hw16.1) _ _ _) v217,
        sqAcc ((arg8.access (.whole S160x128)).read (Elt F) fP) ((arg10.access (.whole S160x128)).read (Elt F) fT) v54 (colAt v63 16#32 2#32) (inb_col (rows_lt k0_hw16.1) _ _ _) v228,
        colAt v63 16#32 3#32, chk_col (rows_lt k0_hw16.1) _ _ _⟩))
    ⊢ wp frame (wpE defs 𝒱 (V d ((i 0).castLE hcore0) ((i 1).castLE hsub0)) bd) E (k0_part5 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v54 v63 v195 v206 v217 v228 v234 k0_hw16) Φ := by
  unfold sqAcc colAt
  unfold k0_part5
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk17 _ _ from chk_col (rows_lt k0_hw16.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk18 _ _ from chk_col (rows_lt k0_hw16.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk19 _ _ from chk_col (rows_lt k0_hw16.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk20 _ _ from chk_col (rows_lt k0_hw16.1) _ _ _))
  rw [wp_ret]; imodintro
  iapply HΦ
  isplitl [HP]
  · iexact HP
  · iexact HT

set_option maxHeartbeats 4000000 in
theorem wp_part6 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v54 : IVec S16 32) (v63 : IVec S16 32) (v239 : FVec F S16 .f32) (v250 : FVec F S16 .f32) (v261 : FVec F S16 .f32) (v272 : FVec F S16 .f32) (v278 : IVec S16 32) (k0_hw20 : k0_chk20 v54 v278) (d : Dev nD)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v283 : FVec F S16 .f32) (v294 : FVec F S16 .f32) (v305 : FVec F S16 .f32) (v316 : FVec F S16 .f32) (v322 : IVec S16 32), k0_chk24 v54 v322) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨sqAcc ((arg8.access (.whole S160x128)).read (Elt F) fP) ((arg10.access (.whole S160x128)).read (Elt F) fT) v54 v278 k0_hw20.1 v239,
        sqAcc ((arg8.access (.whole S160x128)).read (Elt F) fP) ((arg10.access (.whole S160x128)).read (Elt F) fT) v54 (colAt v63 20#32 0#32) (inb_col (rows_lt k0_hw20.1) _ _ _) v250,
        sqAcc ((arg8.access (.whole S160x128)).read (Elt F) fP) ((arg10.access (.whole S160x128)).read (Elt F) fT) v54 (colAt v63 20#32 1#32) (inb_col (rows_lt k0_hw20.1) _ _ _) v261,
        sqAcc ((arg8.access (.whole S160x128)).read (Elt F) fP) ((arg10.access (.whole S160x128)).read (Elt F) fT) v54 (colAt v63 20#32 2#32) (inb_col (rows_lt k0_hw20.1) _ _ _) v272,
        colAt v63 20#32 3#32, chk_col (rows_lt k0_hw20.1) _ _ _⟩))
    ⊢ wp frame (wpE defs 𝒱 (V d ((i 0).castLE hcore0) ((i 1).castLE hsub0)) bd) E (k0_part6 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v54 v63 v239 v250 v261 v272 v278 k0_hw20) Φ := by
  unfold sqAcc colAt
  unfold k0_part6
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk21 _ _ from chk_col (rows_lt k0_hw20.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk22 _ _ from chk_col (rows_lt k0_hw20.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk23 _ _ from chk_col (rows_lt k0_hw20.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk24 _ _ from chk_col (rows_lt k0_hw20.1) _ _ _))
  rw [wp_ret]; imodintro
  iapply HΦ
  isplitl [HP]
  · iexact HP
  · iexact HT

set_option maxHeartbeats 4000000 in
theorem wp_part7 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v54 : IVec S16 32) (v63 : IVec S16 32) (v283 : FVec F S16 .f32) (v294 : FVec F S16 .f32) (v305 : FVec F S16 .f32) (v316 : FVec F S16 .f32) (v322 : IVec S16 32) (k0_hw24 : k0_chk24 v54 v322) (d : Dev nD)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v327 : FVec F S16 .f32) (v338 : FVec F S16 .f32) (v349 : FVec F S16 .f32) (v360 : FVec F S16 .f32) (v366 : IVec S16 32), k0_chk28 v54 v366) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨sqAcc ((arg8.access (.whole S160x128)).read (Elt F) fP) ((arg10.access (.whole S160x128)).read (Elt F) fT) v54 v322 k0_hw24.1 v283,
        sqAcc ((arg8.access (.whole S160x128)).read (Elt F) fP) ((arg10.access (.whole S160x128)).read (Elt F) fT) v54 (colAt v63 24#32 0#32) (inb_col (rows_lt k0_hw24.1) _ _ _) v294,
        sqAcc ((arg8.access (.whole S160x128)).read (Elt F) fP) ((arg10.access (.whole S160x128)).read (Elt F) fT) v54 (colAt v63 24#32 1#32) (inb_col (rows_lt k0_hw24.1) _ _ _) v305,
        sqAcc ((arg8.access (.whole S160x128)).read (Elt F) fP) ((arg10.access (.whole S160x128)).read (Elt F) fT) v54 (colAt v63 24#32 2#32) (inb_col (rows_lt k0_hw24.1) _ _ _) v316,
        colAt v63 24#32 3#32, chk_col (rows_lt k0_hw24.1) _ _ _⟩))
    ⊢ wp frame (wpE defs 𝒱 (V d ((i 0).castLE hcore0) ((i 1).castLE hsub0)) bd) E (k0_part7 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v54 v63 v283 v294 v305 v316 v322 k0_hw24) Φ := by
  unfold sqAcc colAt
  unfold k0_part7
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk25 _ _ from chk_col (rows_lt k0_hw24.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk26 _ _ from chk_col (rows_lt k0_hw24.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk27 _ _ from chk_col (rows_lt k0_hw24.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk28 _ _ from chk_col (rows_lt k0_hw24.1) _ _ _))
  rw [wp_ret]; imodintro
  iapply HΦ
  isplitl [HP]
  · iexact HP
  · iexact HT

set_option maxHeartbeats 4000000 in
theorem wp_part8 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v54 : IVec S16 32) (v63 : IVec S16 32) (v327 : FVec F S16 .f32) (v338 : FVec F S16 .f32) (v349 : FVec F S16 .f32) (v360 : FVec F S16 .f32) (v366 : IVec S16 32) (k0_hw28 : k0_chk28 v54 v366) (d : Dev nD)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v371 : FVec F S16 .f32) (v382 : FVec F S16 .f32) (v393 : FVec F S16 .f32) (v404 : FVec F S16 .f32) (v410 : IVec S16 32), k0_chk32 v54 v410) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨sqAcc ((arg8.access (.whole S160x128)).read (Elt F) fP) ((arg10.access (.whole S160x128)).read (Elt F) fT) v54 v366 k0_hw28.1 v327,
        sqAcc ((arg8.access (.whole S160x128)).read (Elt F) fP) ((arg10.access (.whole S160x128)).read (Elt F) fT) v54 (colAt v63 28#32 0#32) (inb_col (rows_lt k0_hw28.1) _ _ _) v338,
        sqAcc ((arg8.access (.whole S160x128)).read (Elt F) fP) ((arg10.access (.whole S160x128)).read (Elt F) fT) v54 (colAt v63 28#32 1#32) (inb_col (rows_lt k0_hw28.1) _ _ _) v349,
        sqAcc ((arg8.access (.whole S160x128)).read (Elt F) fP) ((arg10.access (.whole S160x128)).read (Elt F) fT) v54 (colAt v63 28#32 2#32) (inb_col (rows_lt k0_hw28.1) _ _ _) v360,
        colAt v63 28#32 3#32, chk_col (rows_lt k0_hw28.1) _ _ _⟩))
    ⊢ wp frame (wpE defs 𝒱 (V d ((i 0).castLE hcore0) ((i 1).castLE hsub0)) bd) E (k0_part8 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v54 v63 v327 v338 v349 v360 v366 k0_hw28) Φ := by
  unfold sqAcc colAt
  unfold k0_part8
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk29 _ _ from chk_col (rows_lt k0_hw28.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk30 _ _ from chk_col (rows_lt k0_hw28.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk31 _ _ from chk_col (rows_lt k0_hw28.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk32 _ _ from chk_col (rows_lt k0_hw28.1) _ _ _))
  rw [wp_ret]; imodintro
  iapply HΦ
  isplitl [HP]
  · iexact HP
  · iexact HT

end Cert.KernelIdeal.TileParts

end
-- ==== Proof.PartsB.lean ====
/-
  The second compute site of a tile's pair loop, part by part: the eight unrolled parts of one outer step over the
  second pair of staged chunks. Each part runs four steps (the column vector is formed and found in range, both chunks
  are read at the lanes' indices, the squared difference goes into one accumulator), shifted by one. Both chunks are
  handed back as they were, and the part's results are the pure step terms of the chunks' contents and the incoming
  vectors.
-/
import proofs.«205036_g29618094473603_cont_9to1_1720_19_alg».proof.Proof.PartsLib

noncomputable section

namespace Cert.KernelIdeal.TileParts

open Cert.KernelIdeal
open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Facts]
open Facts₀ Facts
variable {Ix : Type} [DecidableEq Ix] {Name : Type} [DecidableEq Name]
variable {U : Type} [URA U] {Lvl : Type} [Preorder Lvl]
variable {defs : Defs nD τ sig (Elt F) Λ₀} (𝒱 : Variants) (bd : Option 𝒱.V) (E : Set Name)

local notation "𝕄" => MT nD τ sig Ix (Elt F) Name U Lvl

set_option maxHeartbeats 4000000 in
theorem wp_part9 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v4 : IVec S16 32) (v54 : IVec S16 32) (c0_i32_65 : BitVec 32) (c1_i32_66 : BitVec 32) (k0_t6 : Fin k0_t6_loop.trips) (arg23 : FVec F S16 .f32) (arg24 : FVec F S16 .f32) (arg25 : FVec F S16 .f32) (d : Dev nD) (hr : ∀ x, (v54 x).toNat < 160)
    {qP qT : PosShare TreeShare} {fP : Buf (Elt F) ((arg9.access (.whole S160x128)).loc (V d ((i 0).castLE hcore0) ((i 1).castLE hsub0)))} {fT : Buf (Elt F) ((arg11.access (.whole S160x128)).loc (V d ((i 0).castLE hcore0) ((i 1).castLE hsub0)))}
    {Φ : (Σ' (v63 : IVec S16 32) (v74 : FVec F S16 .f32) (v85 : FVec F S16 .f32) (v96 : FVec F S16 .f32) (v102 : IVec S16 32), k0_chk37 v54 v102) → sProp 𝕄} :
    iprop(((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)
      ∗ ((((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)) -∗ Φ ⟨(addi v4 (broadcast S16 (Scalar.muli (Scf.iv c0_i32_65 c1_i32_66 k0_t6) 32#32))),
        sqAcc ((arg9.access (.whole S160x128)).read (Elt F) fP) ((arg11.access (.whole S160x128)).read (Elt F) fT) v54 (colAt (addi v4 (broadcast S16 (Scalar.muli (Scf.iv c0_i32_65 c1_i32_66 k0_t6) 32#32))) 0#32 0#32) (inb_col hr _ _ _) arg23,
        sqAcc ((arg9.access (.whole S160x128)).read (Elt F) fP) ((arg11.access (.whole S160x128)).read (Elt F) fT) v54 (colAt (addi v4 (broadcast S16 (Scalar.muli (Scf.iv c0_i32_65 c1_i32_66 k0_t6) 32#32))) 0#32 1#32) (inb_col hr _ _ _) arg24,
        sqAcc ((arg9.access (.whole S160x128)).read (Elt F) fP) ((arg11.access (.whole S160x128)).read (Elt F) fT) v54 (colAt (addi v4 (broadcast S16 (Scalar.muli (Scf.iv c0_i32_65 c1_i32_66 k0_t6) 32#32))) 0#32 2#32) (inb_col hr _ _ _) arg25,
        colAt (addi v4 (broadcast S16 (Scalar.muli (Scf.iv c0_i32_65 c1_i32_66 k0_t6) 32#32))) 0#32 3#32, chk_col hr _ _ _⟩))
    ⊢ wp frame (wpE defs 𝒱 (V d ((i 0).castLE hcore0) ((i 1).castLE hsub0)) bd) E (k0_part9 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v4 v54 c0_i32_65 c1_i32_66 k0_t6 arg23 arg24 arg25) Φ := by
  unfold sqAcc colAt
  unfold k0_part9
  simp only [Prog.lift, Prog.bind_op, Prog.bind_ret, Prog.pure_eq_ret]
  iintro ⟨HP, HT, HΦ⟩
  iapply (wp_assume _ _ _ _ (show k0_chk34 _ _ from chk_col hr _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk35 _ _ from chk_col hr _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk36 _ _ from chk_col hr _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk37 _ _ from chk_col hr _ _ _))
  rw [wp_ret]; imodintro
  iapply HΦ
  isplitl [HP]
  · iexact HP
  · iexact HT

set_option maxHeartbeats 4000000 in
theorem wp_part10 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v54 : IVec S16 32) (arg26 : FVec F S16 .f32) (v63 : IVec S16 32) (v74 : FVec F S16 .f32) (v85 : FVec F S16 .f32) (v96 : FVec F S16 .f32) (v102 : IVec S16 32) (k0_hw37 : k0_chk37 v54 v102) (d : Dev nD)
    {qP qT : PosShare TreeShare} {fP : Buf (Elt F) ((arg9.access (.whole S160x128)).loc (V d ((i 0).castLE hcore0) ((i 1).castLE hsub0)))} {fT : Buf (Elt F) ((arg11.access (.whole S160x128)).loc (V d ((i 0).castLE hcore0) ((i 1).castLE hsub0)))}
    {Φ : (Σ' (v107 : FVec F S16 .f32) (v118 : FVec F S16 .f32) (v129 : FVec F S16 .f32) (v140 : FVec F S16 .f32) (v146 : IVec S16 32), k0_chk41 v54 v146) → sProp 𝕄} :
    iprop(((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)
      ∗ ((((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)) -∗ Φ ⟨sqAcc ((arg9.access (.whole S160x128)).read (Elt F) fP) ((arg11.access (.whole S160x128)).read (Elt F) fT) v54 v102 k0_hw37.1 arg26,
        sqAcc ((arg9.access (.whole S160x128)).read (Elt F) fP) ((arg11.access (.whole S160x128)).read (Elt F) fT) v54 (colAt v63 4#32 0#32) (inb_col (rows_lt k0_hw37.1) _ _ _) v74,
        sqAcc ((arg9.access (.whole S160x128)).read (Elt F) fP) ((arg11.access (.whole S160x128)).read (Elt F) fT) v54 (colAt v63 4#32 1#32) (inb_col (rows_lt k0_hw37.1) _ _ _) v85,
        sqAcc ((arg9.access (.whole S160x128)).read (Elt F) fP) ((arg11.access (.whole S160x128)).read (Elt F) fT) v54 (colAt v63 4#32 2#32) (inb_col (rows_lt k0_hw37.1) _ _ _) v96,
        colAt v63 4#32 3#32, chk_col (rows_lt k0_hw37.1) _ _ _⟩))
    ⊢ wp frame (wpE defs 𝒱 (V d ((i 0).castLE hcore0) ((i 1).castLE hsub0)) bd) E (k0_part10 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v54 arg26 v63 v74 v85 v96 v102 k0_hw37) Φ := by
  unfold sqAcc colAt
  unfold k0_part10
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk38 _ _ from chk_col (rows_lt k0_hw37.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk39 _ _ from chk_col (rows_lt k0_hw37.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk40 _ _ from chk_col (rows_lt k0_hw37.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk41 _ _ from chk_col (rows_lt k0_hw37.1) _ _ _))
  rw [wp_ret]; imodintro
  iapply HΦ
  isplitl [HP]
  · iexact HP
  · iexact HT

set_option maxHeartbeats 4000000 in
theorem wp_part11 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v54 : IVec S16 32) (v63 : IVec S16 32) (v107 : FVec F S16 .f32) (v118 : FVec F S16 .f32) (v129 : FVec F S16 .f32) (v140 : FVec F S16 .f32) (v146 : IVec S16 32) (k0_hw41 : k0_chk41 v54 v146) (d : Dev nD)
    {qP qT : PosShare TreeShare} {fP : Buf (Elt F) ((arg9.access (.whole S160x128)).loc (V d ((i 0).castLE hcore0) ((i 1).castLE hsub0)))} {fT : Buf (Elt F) ((arg11.access (.whole S160x128)).loc (V d ((i 0).castLE hcore0) ((i 1).castLE hsub0)))}
    {Φ : (Σ' (v151 : FVec F S16 .f32) (v162 : FVec F S16 .f32) (v173 : FVec F S16 .f32) (v184 : FVec F S16 .f32) (v190 : IVec S16 32), k0_chk45 v54 v190) → sProp 𝕄} :
    iprop(((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)
      ∗ ((((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)) -∗ Φ ⟨sqAcc ((arg9.access (.whole S160x128)).read (Elt F) fP) ((arg11.access (.whole S160x128)).read (Elt F) fT) v54 v146 k0_hw41.1 v107,
        sqAcc ((arg9.access (.whole S160x128)).read (Elt F) fP) ((arg11.access (.whole S160x128)).read (Elt F) fT) v54 (colAt v63 8#32 0#32) (inb_col (rows_lt k0_hw41.1) _ _ _) v118,
        sqAcc ((arg9.access (.whole S160x128)).read (Elt F) fP) ((arg11.access (.whole S160x128)).read (Elt F) fT) v54 (colAt v63 8#32 1#32) (inb_col (rows_lt k0_hw41.1) _ _ _) v129,
        sqAcc ((arg9.access (.whole S160x128)).read (Elt F) fP) ((arg11.access (.whole S160x128)).read (Elt F) fT) v54 (colAt v63 8#32 2#32) (inb_col (rows_lt k0_hw41.1) _ _ _) v140,
        colAt v63 8#32 3#32, chk_col (rows_lt k0_hw41.1) _ _ _⟩))
    ⊢ wp frame (wpE defs 𝒱 (V d ((i 0).castLE hcore0) ((i 1).castLE hsub0)) bd) E (k0_part11 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v54 v63 v107 v118 v129 v140 v146 k0_hw41) Φ := by
  unfold sqAcc colAt
  unfold k0_part11
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk42 _ _ from chk_col (rows_lt k0_hw41.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk43 _ _ from chk_col (rows_lt k0_hw41.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk44 _ _ from chk_col (rows_lt k0_hw41.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk45 _ _ from chk_col (rows_lt k0_hw41.1) _ _ _))
  rw [wp_ret]; imodintro
  iapply HΦ
  isplitl [HP]
  · iexact HP
  · iexact HT

set_option maxHeartbeats 4000000 in
theorem wp_part12 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v54 : IVec S16 32) (v63 : IVec S16 32) (v151 : FVec F S16 .f32) (v162 : FVec F S16 .f32) (v173 : FVec F S16 .f32) (v184 : FVec F S16 .f32) (v190 : IVec S16 32) (k0_hw45 : k0_chk45 v54 v190) (d : Dev nD)
    {qP qT : PosShare TreeShare} {fP : Buf (Elt F) ((arg9.access (.whole S160x128)).loc (V d ((i 0).castLE hcore0) ((i 1).castLE hsub0)))} {fT : Buf (Elt F) ((arg11.access (.whole S160x128)).loc (V d ((i 0).castLE hcore0) ((i 1).castLE hsub0)))}
    {Φ : (Σ' (v195 : FVec F S16 .f32) (v206 : FVec F S16 .f32) (v217 : FVec F S16 .f32) (v228 : FVec F S16 .f32) (v234 : IVec S16 32), k0_chk49 v54 v234) → sProp 𝕄} :
    iprop(((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)
      ∗ ((((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)) -∗ Φ ⟨sqAcc ((arg9.access (.whole S160x128)).read (Elt F) fP) ((arg11.access (.whole S160x128)).read (Elt F) fT) v54 v190 k0_hw45.1 v151,
        sqAcc ((arg9.access (.whole S160x128)).read (Elt F) fP) ((arg11.access (.whole S160x128)).read (Elt F) fT) v54 (colAt v63 12#32 0#32) (inb_col (rows_lt k0_hw45.1) _ _ _) v162,
        sqAcc ((arg9.access (.whole S160x128)).read (Elt F) fP) ((arg11.access (.whole S160x128)).read (Elt F) fT) v54 (colAt v63 12#32 1#32) (inb_col (rows_lt k0_hw45.1) _ _ _) v173,
        sqAcc ((arg9.access (.whole S160x128)).read (Elt F) fP) ((arg11.access (.whole S160x128)).read (Elt F) fT) v54 (colAt v63 12#32 2#32) (inb_col (rows_lt k0_hw45.1) _ _ _) v184,
        colAt v63 12#32 3#32, chk_col (rows_lt k0_hw45.1) _ _ _⟩))
    ⊢ wp frame (wpE defs 𝒱 (V d ((i 0).castLE hcore0) ((i 1).castLE hsub0)) bd) E (k0_part12 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v54 v63 v151 v162 v173 v184 v190 k0_hw45) Φ := by
  unfold sqAcc colAt
  unfold k0_part12
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk46 _ _ from chk_col (rows_lt k0_hw45.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk47 _ _ from chk_col (rows_lt k0_hw45.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk48 _ _ from chk_col (rows_lt k0_hw45.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk49 _ _ from chk_col (rows_lt k0_hw45.1) _ _ _))
  rw [wp_ret]; imodintro
  iapply HΦ
  isplitl [HP]
  · iexact HP
  · iexact HT

set_option maxHeartbeats 4000000 in
theorem wp_part13 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v54 : IVec S16 32) (v63 : IVec S16 32) (v195 : FVec F S16 .f32) (v206 : FVec F S16 .f32) (v217 : FVec F S16 .f32) (v228 : FVec F S16 .f32) (v234 : IVec S16 32) (k0_hw49 : k0_chk49 v54 v234) (d : Dev nD)
    {qP qT : PosShare TreeShare} {fP : Buf (Elt F) ((arg9.access (.whole S160x128)).loc (V d ((i 0).castLE hcore0) ((i 1).castLE hsub0)))} {fT : Buf (Elt F) ((arg11.access (.whole S160x128)).loc (V d ((i 0).castLE hcore0) ((i 1).castLE hsub0)))}
    {Φ : (Σ' (v239 : FVec F S16 .f32) (v250 : FVec F S16 .f32) (v261 : FVec F S16 .f32) (v272 : FVec F S16 .f32) (v278 : IVec S16 32), k0_chk53 v54 v278) → sProp 𝕄} :
    iprop(((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)
      ∗ ((((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)) -∗ Φ ⟨sqAcc ((arg9.access (.whole S160x128)).read (Elt F) fP) ((arg11.access (.whole S160x128)).read (Elt F) fT) v54 v234 k0_hw49.1 v195,
        sqAcc ((arg9.access (.whole S160x128)).read (Elt F) fP) ((arg11.access (.whole S160x128)).read (Elt F) fT) v54 (colAt v63 16#32 0#32) (inb_col (rows_lt k0_hw49.1) _ _ _) v206,
        sqAcc ((arg9.access (.whole S160x128)).read (Elt F) fP) ((arg11.access (.whole S160x128)).read (Elt F) fT) v54 (colAt v63 16#32 1#32) (inb_col (rows_lt k0_hw49.1) _ _ _) v217,
        sqAcc ((arg9.access (.whole S160x128)).read (Elt F) fP) ((arg11.access (.whole S160x128)).read (Elt F) fT) v54 (colAt v63 16#32 2#32) (inb_col (rows_lt k0_hw49.1) _ _ _) v228,
        colAt v63 16#32 3#32, chk_col (rows_lt k0_hw49.1) _ _ _⟩))
    ⊢ wp frame (wpE defs 𝒱 (V d ((i 0).castLE hcore0) ((i 1).castLE hsub0)) bd) E (k0_part13 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v54 v63 v195 v206 v217 v228 v234 k0_hw49) Φ := by
  unfold sqAcc colAt
  unfold k0_part13
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk50 _ _ from chk_col (rows_lt k0_hw49.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk51 _ _ from chk_col (rows_lt k0_hw49.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk52 _ _ from chk_col (rows_lt k0_hw49.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk53 _ _ from chk_col (rows_lt k0_hw49.1) _ _ _))
  rw [wp_ret]; imodintro
  iapply HΦ
  isplitl [HP]
  · iexact HP
  · iexact HT

set_option maxHeartbeats 4000000 in
theorem wp_part14 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v54 : IVec S16 32) (v63 : IVec S16 32) (v239 : FVec F S16 .f32) (v250 : FVec F S16 .f32) (v261 : FVec F S16 .f32) (v272 : FVec F S16 .f32) (v278 : IVec S16 32) (k0_hw53 : k0_chk53 v54 v278) (d : Dev nD)
    {qP qT : PosShare TreeShare} {fP : Buf (Elt F) ((arg9.access (.whole S160x128)).loc (V d ((i 0).castLE hcore0) ((i 1).castLE hsub0)))} {fT : Buf (Elt F) ((arg11.access (.whole S160x128)).loc (V d ((i 0).castLE hcore0) ((i 1).castLE hsub0)))}
    {Φ : (Σ' (v283 : FVec F S16 .f32) (v294 : FVec F S16 .f32) (v305 : FVec F S16 .f32) (v316 : FVec F S16 .f32) (v322 : IVec S16 32), k0_chk57 v54 v322) → sProp 𝕄} :
    iprop(((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)
      ∗ ((((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)) -∗ Φ ⟨sqAcc ((arg9.access (.whole S160x128)).read (Elt F) fP) ((arg11.access (.whole S160x128)).read (Elt F) fT) v54 v278 k0_hw53.1 v239,
        sqAcc ((arg9.access (.whole S160x128)).read (Elt F) fP) ((arg11.access (.whole S160x128)).read (Elt F) fT) v54 (colAt v63 20#32 0#32) (inb_col (rows_lt k0_hw53.1) _ _ _) v250,
        sqAcc ((arg9.access (.whole S160x128)).read (Elt F) fP) ((arg11.access (.whole S160x128)).read (Elt F) fT) v54 (colAt v63 20#32 1#32) (inb_col (rows_lt k0_hw53.1) _ _ _) v261,
        sqAcc ((arg9.access (.whole S160x128)).read (Elt F) fP) ((arg11.access (.whole S160x128)).read (Elt F) fT) v54 (colAt v63 20#32 2#32) (inb_col (rows_lt k0_hw53.1) _ _ _) v272,
        colAt v63 20#32 3#32, chk_col (rows_lt k0_hw53.1) _ _ _⟩))
    ⊢ wp frame (wpE defs 𝒱 (V d ((i 0).castLE hcore0) ((i 1).castLE hsub0)) bd) E (k0_part14 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v54 v63 v239 v250 v261 v272 v278 k0_hw53) Φ := by
  unfold sqAcc colAt
  unfold k0_part14
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk54 _ _ from chk_col (rows_lt k0_hw53.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk55 _ _ from chk_col (rows_lt k0_hw53.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk56 _ _ from chk_col (rows_lt k0_hw53.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk57 _ _ from chk_col (rows_lt k0_hw53.1) _ _ _))
  rw [wp_ret]; imodintro
  iapply HΦ
  isplitl [HP]
  · iexact HP
  · iexact HT

set_option maxHeartbeats 4000000 in
theorem wp_part15 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v54 : IVec S16 32) (v63 : IVec S16 32) (v283 : FVec F S16 .f32) (v294 : FVec F S16 .f32) (v305 : FVec F S16 .f32) (v316 : FVec F S16 .f32) (v322 : IVec S16 32) (k0_hw57 : k0_chk57 v54 v322) (d : Dev nD)
    {qP qT : PosShare TreeShare} {fP : Buf (Elt F) ((arg9.access (.whole S160x128)).loc (V d ((i 0).castLE hcore0) ((i 1).castLE hsub0)))} {fT : Buf (Elt F) ((arg11.access (.whole S160x128)).loc (V d ((i 0).castLE hcore0) ((i 1).castLE hsub0)))}
    {Φ : (Σ' (v327 : FVec F S16 .f32) (v338 : FVec F S16 .f32) (v349 : FVec F S16 .f32) (v360 : FVec F S16 .f32) (v366 : IVec S16 32), k0_chk61 v54 v366) → sProp 𝕄} :
    iprop(((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)
      ∗ ((((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)) -∗ Φ ⟨sqAcc ((arg9.access (.whole S160x128)).read (Elt F) fP) ((arg11.access (.whole S160x128)).read (Elt F) fT) v54 v322 k0_hw57.1 v283,
        sqAcc ((arg9.access (.whole S160x128)).read (Elt F) fP) ((arg11.access (.whole S160x128)).read (Elt F) fT) v54 (colAt v63 24#32 0#32) (inb_col (rows_lt k0_hw57.1) _ _ _) v294,
        sqAcc ((arg9.access (.whole S160x128)).read (Elt F) fP) ((arg11.access (.whole S160x128)).read (Elt F) fT) v54 (colAt v63 24#32 1#32) (inb_col (rows_lt k0_hw57.1) _ _ _) v305,
        sqAcc ((arg9.access (.whole S160x128)).read (Elt F) fP) ((arg11.access (.whole S160x128)).read (Elt F) fT) v54 (colAt v63 24#32 2#32) (inb_col (rows_lt k0_hw57.1) _ _ _) v316,
        colAt v63 24#32 3#32, chk_col (rows_lt k0_hw57.1) _ _ _⟩))
    ⊢ wp frame (wpE defs 𝒱 (V d ((i 0).castLE hcore0) ((i 1).castLE hsub0)) bd) E (k0_part15 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v54 v63 v283 v294 v305 v316 v322 k0_hw57) Φ := by
  unfold sqAcc colAt
  unfold k0_part15
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk58 _ _ from chk_col (rows_lt k0_hw57.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk59 _ _ from chk_col (rows_lt k0_hw57.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk60 _ _ from chk_col (rows_lt k0_hw57.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk61 _ _ from chk_col (rows_lt k0_hw57.1) _ _ _))
  rw [wp_ret]; imodintro
  iapply HΦ
  isplitl [HP]
  · iexact HP
  · iexact HT

set_option maxHeartbeats 4000000 in
theorem wp_part16 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v54 : IVec S16 32) (v63 : IVec S16 32) (v327 : FVec F S16 .f32) (v338 : FVec F S16 .f32) (v349 : FVec F S16 .f32) (v360 : FVec F S16 .f32) (v366 : IVec S16 32) (k0_hw61 : k0_chk61 v54 v366) (d : Dev nD)
    {qP qT : PosShare TreeShare} {fP : Buf (Elt F) ((arg9.access (.whole S160x128)).loc (V d ((i 0).castLE hcore0) ((i 1).castLE hsub0)))} {fT : Buf (Elt F) ((arg11.access (.whole S160x128)).loc (V d ((i 0).castLE hcore0) ((i 1).castLE hsub0)))}
    {Φ : (Σ' (v371 : FVec F S16 .f32) (v382 : FVec F S16 .f32) (v393 : FVec F S16 .f32) (v404 : FVec F S16 .f32) (v410 : IVec S16 32), k0_chk65 v54 v410) → sProp 𝕄} :
    iprop(((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)
      ∗ ((((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)) -∗ Φ ⟨sqAcc ((arg9.access (.whole S160x128)).read (Elt F) fP) ((arg11.access (.whole S160x128)).read (Elt F) fT) v54 v366 k0_hw61.1 v327,
        sqAcc ((arg9.access (.whole S160x128)).read (Elt F) fP) ((arg11.access (.whole S160x128)).read (Elt F) fT) v54 (colAt v63 28#32 0#32) (inb_col (rows_lt k0_hw61.1) _ _ _) v338,
        sqAcc ((arg9.access (.whole S160x128)).read (Elt F) fP) ((arg11.access (.whole S160x128)).read (Elt F) fT) v54 (colAt v63 28#32 1#32) (inb_col (rows_lt k0_hw61.1) _ _ _) v349,
        sqAcc ((arg9.access (.whole S160x128)).read (Elt F) fP) ((arg11.access (.whole S160x128)).read (Elt F) fT) v54 (colAt v63 28#32 2#32) (inb_col (rows_lt k0_hw61.1) _ _ _) v360,
        colAt v63 28#32 3#32, chk_col (rows_lt k0_hw61.1) _ _ _⟩))
    ⊢ wp frame (wpE defs 𝒱 (V d ((i 0).castLE hcore0) ((i 1).castLE hsub0)) bd) E (k0_part16 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v54 v63 v327 v338 v349 v360 v366 k0_hw61) Φ := by
  unfold sqAcc colAt
  unfold k0_part16
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk62 _ _ from chk_col (rows_lt k0_hw61.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk63 _ _ from chk_col (rows_lt k0_hw61.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk64 _ _ from chk_col (rows_lt k0_hw61.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk65 _ _ from chk_col (rows_lt k0_hw61.1) _ _ _))
  rw [wp_ret]; imodintro
  iapply HΦ
  isplitl [HP]
  · iexact HP
  · iexact HT

end Cert.KernelIdeal.TileParts

end
-- ==== Proof.PartsC.lean ====
/-
  The compute site of a tile's last chunk, part by part: the eight unrolled parts of one outer step over the first
  pair of staged chunks, the row vector that of the last chunk's group. Each part runs four steps (the column vector is
  formed and found in range, both chunks are read at the lanes' indices, the squared difference goes into one
  accumulator), shifted by one. Both chunks are handed back as they were, and the part's results are the pure step
  terms of the chunks' contents and the incoming vectors.
-/
import proofs.«205036_g29618094473603_cont_9to1_1720_19_alg».proof.Proof.PartsLib

noncomputable section

namespace Cert.KernelIdeal.TileParts

open Cert.KernelIdeal
open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Facts]
open Facts₀ Facts
variable {Ix : Type} [DecidableEq Ix] {Name : Type} [DecidableEq Name]
variable {U : Type} [URA U] {Lvl : Type} [Preorder Lvl]
variable {defs : Defs nD τ sig (Elt F) Λ₀} (𝒱 : Variants) (bd : Option 𝒱.V) (E : Set Name)

local notation "𝕄" => MT nD τ sig Ix (Elt F) Name U Lvl

set_option maxHeartbeats 4000000 in
theorem wp_part18 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v4 : IVec S16 32) (v27 : IVec S16 32) (c0_i32_26 : BitVec 32) (c1_i32_27 : BitVec 32) (k0_t8 : Fin k0_t8_loop.trips) (arg22 : FVec F S16 .f32) (arg23 : FVec F S16 .f32) (arg24 : FVec F S16 .f32) (d : Dev nD) (hr : ∀ x, (v27 x).toNat < 160)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v36 : IVec S16 32) (v47 : FVec F S16 .f32) (v58 : FVec F S16 .f32) (v69 : FVec F S16 .f32) (v75 : IVec S16 32), k0_chk70 v27 v75) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨(addi v4 (broadcast S16 (Scalar.muli (Scf.iv c0_i32_26 c1_i32_27 k0_t8) 32#32))),
        sqAcc ((arg8.access (.whole S160x128)).read (Elt F) fP) ((arg10.access (.whole S160x128)).read (Elt F) fT) v27 (colAt (addi v4 (broadcast S16 (Scalar.muli (Scf.iv c0_i32_26 c1_i32_27 k0_t8) 32#32))) 0#32 0#32) (inb_col hr _ _ _) arg22,
        sqAcc ((arg8.access (.whole S160x128)).read (Elt F) fP) ((arg10.access (.whole S160x128)).read (Elt F) fT) v27 (colAt (addi v4 (broadcast S16 (Scalar.muli (Scf.iv c0_i32_26 c1_i32_27 k0_t8) 32#32))) 0#32 1#32) (inb_col hr _ _ _) arg23,
        sqAcc ((arg8.access (.whole S160x128)).read (Elt F) fP) ((arg10.access (.whole S160x128)).read (Elt F) fT) v27 (colAt (addi v4 (broadcast S16 (Scalar.muli (Scf.iv c0_i32_26 c1_i32_27 k0_t8) 32#32))) 0#32 2#32) (inb_col hr _ _ _) arg24,
        colAt (addi v4 (broadcast S16 (Scalar.muli (Scf.iv c0_i32_26 c1_i32_27 k0_t8) 32#32))) 0#32 3#32, chk_col hr _ _ _⟩))
    ⊢ wp frame (wpE defs 𝒱 (V d ((i 0).castLE hcore0) ((i 1).castLE hsub0)) bd) E (k0_part18 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v4 v27 c0_i32_26 c1_i32_27 k0_t8 arg22 arg23 arg24) Φ := by
  unfold sqAcc colAt
  unfold k0_part18
  simp only [Prog.lift, Prog.bind_op, Prog.bind_ret, Prog.pure_eq_ret]
  iintro ⟨HP, HT, HΦ⟩
  iapply (wp_assume _ _ _ _ (show k0_chk67 _ _ from chk_col hr _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk68 _ _ from chk_col hr _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk69 _ _ from chk_col hr _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk70 _ _ from chk_col hr _ _ _))
  rw [wp_ret]; imodintro
  iapply HΦ
  isplitl [HP]
  · iexact HP
  · iexact HT

set_option maxHeartbeats 4000000 in
theorem wp_part19 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v27 : IVec S16 32) (arg25 : FVec F S16 .f32) (v36 : IVec S16 32) (v47 : FVec F S16 .f32) (v58 : FVec F S16 .f32) (v69 : FVec F S16 .f32) (v75 : IVec S16 32) (k0_hw70 : k0_chk70 v27 v75) (d : Dev nD)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v80 : FVec F S16 .f32) (v91 : FVec F S16 .f32) (v102 : FVec F S16 .f32) (v113 : FVec F S16 .f32) (v119 : IVec S16 32), k0_chk74 v27 v119) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨sqAcc ((arg8.access (.whole S160x128)).read (Elt F) fP) ((arg10.access (.whole S160x128)).read (Elt F) fT) v27 v75 k0_hw70.1 arg25,
        sqAcc ((arg8.access (.whole S160x128)).read (Elt F) fP) ((arg10.access (.whole S160x128)).read (Elt F) fT) v27 (colAt v36 4#32 0#32) (inb_col (rows_lt k0_hw70.1) _ _ _) v47,
        sqAcc ((arg8.access (.whole S160x128)).read (Elt F) fP) ((arg10.access (.whole S160x128)).read (Elt F) fT) v27 (colAt v36 4#32 1#32) (inb_col (rows_lt k0_hw70.1) _ _ _) v58,
        sqAcc ((arg8.access (.whole S160x128)).read (Elt F) fP) ((arg10.access (.whole S160x128)).read (Elt F) fT) v27 (colAt v36 4#32 2#32) (inb_col (rows_lt k0_hw70.1) _ _ _) v69,
        colAt v36 4#32 3#32, chk_col (rows_lt k0_hw70.1) _ _ _⟩))
    ⊢ wp frame (wpE defs 𝒱 (V d ((i 0).castLE hcore0) ((i 1).castLE hsub0)) bd) E (k0_part19 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v27 arg25 v36 v47 v58 v69 v75 k0_hw70) Φ := by
  unfold sqAcc colAt
  unfold k0_part19
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk71 _ _ from chk_col (rows_lt k0_hw70.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk72 _ _ from chk_col (rows_lt k0_hw70.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk73 _ _ from chk_col (rows_lt k0_hw70.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk74 _ _ from chk_col (rows_lt k0_hw70.1) _ _ _))
  rw [wp_ret]; imodintro
  iapply HΦ
  isplitl [HP]
  · iexact HP
  · iexact HT

set_option maxHeartbeats 4000000 in
theorem wp_part20 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v27 : IVec S16 32) (v36 : IVec S16 32) (v80 : FVec F S16 .f32) (v91 : FVec F S16 .f32) (v102 : FVec F S16 .f32) (v113 : FVec F S16 .f32) (v119 : IVec S16 32) (k0_hw74 : k0_chk74 v27 v119) (d : Dev nD)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v124 : FVec F S16 .f32) (v135 : FVec F S16 .f32) (v146 : FVec F S16 .f32) (v157 : FVec F S16 .f32) (v163 : IVec S16 32), k0_chk78 v27 v163) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨sqAcc ((arg8.access (.whole S160x128)).read (Elt F) fP) ((arg10.access (.whole S160x128)).read (Elt F) fT) v27 v119 k0_hw74.1 v80,
        sqAcc ((arg8.access (.whole S160x128)).read (Elt F) fP) ((arg10.access (.whole S160x128)).read (Elt F) fT) v27 (colAt v36 8#32 0#32) (inb_col (rows_lt k0_hw74.1) _ _ _) v91,
        sqAcc ((arg8.access (.whole S160x128)).read (Elt F) fP) ((arg10.access (.whole S160x128)).read (Elt F) fT) v27 (colAt v36 8#32 1#32) (inb_col (rows_lt k0_hw74.1) _ _ _) v102,
        sqAcc ((arg8.access (.whole S160x128)).read (Elt F) fP) ((arg10.access (.whole S160x128)).read (Elt F) fT) v27 (colAt v36 8#32 2#32) (inb_col (rows_lt k0_hw74.1) _ _ _) v113,
        colAt v36 8#32 3#32, chk_col (rows_lt k0_hw74.1) _ _ _⟩))
    ⊢ wp frame (wpE defs 𝒱 (V d ((i 0).castLE hcore0) ((i 1).castLE hsub0)) bd) E (k0_part20 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v27 v36 v80 v91 v102 v113 v119 k0_hw74) Φ := by
  unfold sqAcc colAt
  unfold k0_part20
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk75 _ _ from chk_col (rows_lt k0_hw74.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk76 _ _ from chk_col (rows_lt k0_hw74.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk77 _ _ from chk_col (rows_lt k0_hw74.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk78 _ _ from chk_col (rows_lt k0_hw74.1) _ _ _))
  rw [wp_ret]; imodintro
  iapply HΦ
  isplitl [HP]
  · iexact HP
  · iexact HT

set_option maxHeartbeats 4000000 in
theorem wp_part21 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v27 : IVec S16 32) (v36 : IVec S16 32) (v124 : FVec F S16 .f32) (v135 : FVec F S16 .f32) (v146 : FVec F S16 .f32) (v157 : FVec F S16 .f32) (v163 : IVec S16 32) (k0_hw78 : k0_chk78 v27 v163) (d : Dev nD)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v168 : FVec F S16 .f32) (v179 : FVec F S16 .f32) (v190 : FVec F S16 .f32) (v201 : FVec F S16 .f32) (v207 : IVec S16 32), k0_chk82 v27 v207) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨sqAcc ((arg8.access (.whole S160x128)).read (Elt F) fP) ((arg10.access (.whole S160x128)).read (Elt F) fT) v27 v163 k0_hw78.1 v124,
        sqAcc ((arg8.access (.whole S160x128)).read (Elt F) fP) ((arg10.access (.whole S160x128)).read (Elt F) fT) v27 (colAt v36 12#32 0#32) (inb_col (rows_lt k0_hw78.1) _ _ _) v135,
        sqAcc ((arg8.access (.whole S160x128)).read (Elt F) fP) ((arg10.access (.whole S160x128)).read (Elt F) fT) v27 (colAt v36 12#32 1#32) (inb_col (rows_lt k0_hw78.1) _ _ _) v146,
        sqAcc ((arg8.access (.whole S160x128)).read (Elt F) fP) ((arg10.access (.whole S160x128)).read (Elt F) fT) v27 (colAt v36 12#32 2#32) (inb_col (rows_lt k0_hw78.1) _ _ _) v157,
        colAt v36 12#32 3#32, chk_col (rows_lt k0_hw78.1) _ _ _⟩))
    ⊢ wp frame (wpE defs 𝒱 (V d ((i 0).castLE hcore0) ((i 1).castLE hsub0)) bd) E (k0_part21 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v27 v36 v124 v135 v146 v157 v163 k0_hw78) Φ := by
  unfold sqAcc colAt
  unfold k0_part21
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk79 _ _ from chk_col (rows_lt k0_hw78.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk80 _ _ from chk_col (rows_lt k0_hw78.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk81 _ _ from chk_col (rows_lt k0_hw78.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk82 _ _ from chk_col (rows_lt k0_hw78.1) _ _ _))
  rw [wp_ret]; imodintro
  iapply HΦ
  isplitl [HP]
  · iexact HP
  · iexact HT

set_option maxHeartbeats 4000000 in
theorem wp_part22 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v27 : IVec S16 32) (v36 : IVec S16 32) (v168 : FVec F S16 .f32) (v179 : FVec F S16 .f32) (v190 : FVec F S16 .f32) (v201 : FVec F S16 .f32) (v207 : IVec S16 32) (k0_hw82 : k0_chk82 v27 v207) (d : Dev nD)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v212 : FVec F S16 .f32) (v223 : FVec F S16 .f32) (v234 : FVec F S16 .f32) (v245 : FVec F S16 .f32) (v251 : IVec S16 32), k0_chk86 v27 v251) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨sqAcc ((arg8.access (.whole S160x128)).read (Elt F) fP) ((arg10.access (.whole S160x128)).read (Elt F) fT) v27 v207 k0_hw82.1 v168,
        sqAcc ((arg8.access (.whole S160x128)).read (Elt F) fP) ((arg10.access (.whole S160x128)).read (Elt F) fT) v27 (colAt v36 16#32 0#32) (inb_col (rows_lt k0_hw82.1) _ _ _) v179,
        sqAcc ((arg8.access (.whole S160x128)).read (Elt F) fP) ((arg10.access (.whole S160x128)).read (Elt F) fT) v27 (colAt v36 16#32 1#32) (inb_col (rows_lt k0_hw82.1) _ _ _) v190,
        sqAcc ((arg8.access (.whole S160x128)).read (Elt F) fP) ((arg10.access (.whole S160x128)).read (Elt F) fT) v27 (colAt v36 16#32 2#32) (inb_col (rows_lt k0_hw82.1) _ _ _) v201,
        colAt v36 16#32 3#32, chk_col (rows_lt k0_hw82.1) _ _ _⟩))
    ⊢ wp frame (wpE defs 𝒱 (V d ((i 0).castLE hcore0) ((i 1).castLE hsub0)) bd) E (k0_part22 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v27 v36 v168 v179 v190 v201 v207 k0_hw82) Φ := by
  unfold sqAcc colAt
  unfold k0_part22
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk83 _ _ from chk_col (rows_lt k0_hw82.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk84 _ _ from chk_col (rows_lt k0_hw82.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk85 _ _ from chk_col (rows_lt k0_hw82.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk86 _ _ from chk_col (rows_lt k0_hw82.1) _ _ _))
  rw [wp_ret]; imodintro
  iapply HΦ
  isplitl [HP]
  · iexact HP
  · iexact HT

set_option maxHeartbeats 4000000 in
theorem wp_part23 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v27 : IVec S16 32) (v36 : IVec S16 32) (v212 : FVec F S16 .f32) (v223 : FVec F S16 .f32) (v234 : FVec F S16 .f32) (v245 : FVec F S16 .f32) (v251 : IVec S16 32) (k0_hw86 : k0_chk86 v27 v251) (d : Dev nD)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v256 : FVec F S16 .f32) (v267 : FVec F S16 .f32) (v278 : FVec F S16 .f32) (v289 : FVec F S16 .f32) (v295 : IVec S16 32), k0_chk90 v27 v295) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨sqAcc ((arg8.access (.whole S160x128)).read (Elt F) fP) ((arg10.access (.whole S160x128)).read (Elt F) fT) v27 v251 k0_hw86.1 v212,
        sqAcc ((arg8.access (.whole S160x128)).read (Elt F) fP) ((arg10.access (.whole S160x128)).read (Elt F) fT) v27 (colAt v36 20#32 0#32) (inb_col (rows_lt k0_hw86.1) _ _ _) v223,
        sqAcc ((arg8.access (.whole S160x128)).read (Elt F) fP) ((arg10.access (.whole S160x128)).read (Elt F) fT) v27 (colAt v36 20#32 1#32) (inb_col (rows_lt k0_hw86.1) _ _ _) v234,
        sqAcc ((arg8.access (.whole S160x128)).read (Elt F) fP) ((arg10.access (.whole S160x128)).read (Elt F) fT) v27 (colAt v36 20#32 2#32) (inb_col (rows_lt k0_hw86.1) _ _ _) v245,
        colAt v36 20#32 3#32, chk_col (rows_lt k0_hw86.1) _ _ _⟩))
    ⊢ wp frame (wpE defs 𝒱 (V d ((i 0).castLE hcore0) ((i 1).castLE hsub0)) bd) E (k0_part23 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v27 v36 v212 v223 v234 v245 v251 k0_hw86) Φ := by
  unfold sqAcc colAt
  unfold k0_part23
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk87 _ _ from chk_col (rows_lt k0_hw86.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk88 _ _ from chk_col (rows_lt k0_hw86.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk89 _ _ from chk_col (rows_lt k0_hw86.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk90 _ _ from chk_col (rows_lt k0_hw86.1) _ _ _))
  rw [wp_ret]; imodintro
  iapply HΦ
  isplitl [HP]
  · iexact HP
  · iexact HT

set_option maxHeartbeats 4000000 in
theorem wp_part24 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v27 : IVec S16 32) (v36 : IVec S16 32) (v256 : FVec F S16 .f32) (v267 : FVec F S16 .f32) (v278 : FVec F S16 .f32) (v289 : FVec F S16 .f32) (v295 : IVec S16 32) (k0_hw90 : k0_chk90 v27 v295) (d : Dev nD)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v300 : FVec F S16 .f32) (v311 : FVec F S16 .f32) (v322 : FVec F S16 .f32) (v333 : FVec F S16 .f32) (v339 : IVec S16 32), k0_chk94 v27 v339) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨sqAcc ((arg8.access (.whole S160x128)).read (Elt F) fP) ((arg10.access (.whole S160x128)).read (Elt F) fT) v27 v295 k0_hw90.1 v256,
        sqAcc ((arg8.access (.whole S160x128)).read (Elt F) fP) ((arg10.access (.whole S160x128)).read (Elt F) fT) v27 (colAt v36 24#32 0#32) (inb_col (rows_lt k0_hw90.1) _ _ _) v267,
        sqAcc ((arg8.access (.whole S160x128)).read (Elt F) fP) ((arg10.access (.whole S160x128)).read (Elt F) fT) v27 (colAt v36 24#32 1#32) (inb_col (rows_lt k0_hw90.1) _ _ _) v278,
        sqAcc ((arg8.access (.whole S160x128)).read (Elt F) fP) ((arg10.access (.whole S160x128)).read (Elt F) fT) v27 (colAt v36 24#32 2#32) (inb_col (rows_lt k0_hw90.1) _ _ _) v289,
        colAt v36 24#32 3#32, chk_col (rows_lt k0_hw90.1) _ _ _⟩))
    ⊢ wp frame (wpE defs 𝒱 (V d ((i 0).castLE hcore0) ((i 1).castLE hsub0)) bd) E (k0_part24 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v27 v36 v256 v267 v278 v289 v295 k0_hw90) Φ := by
  unfold sqAcc colAt
  unfold k0_part24
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk91 _ _ from chk_col (rows_lt k0_hw90.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk92 _ _ from chk_col (rows_lt k0_hw90.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk93 _ _ from chk_col (rows_lt k0_hw90.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk94 _ _ from chk_col (rows_lt k0_hw90.1) _ _ _))
  rw [wp_ret]; imodintro
  iapply HΦ
  isplitl [HP]
  · iexact HP
  · iexact HT

set_option maxHeartbeats 4000000 in
theorem wp_part25 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v27 : IVec S16 32) (v36 : IVec S16 32) (v300 : FVec F S16 .f32) (v311 : FVec F S16 .f32) (v322 : FVec F S16 .f32) (v333 : FVec F S16 .f32) (v339 : IVec S16 32) (k0_hw94 : k0_chk94 v27 v339) (d : Dev nD)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v344 : FVec F S16 .f32) (v355 : FVec F S16 .f32) (v366 : FVec F S16 .f32) (v377 : FVec F S16 .f32) (v383 : IVec S16 32), k0_chk98 v27 v383) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨sqAcc ((arg8.access (.whole S160x128)).read (Elt F) fP) ((arg10.access (.whole S160x128)).read (Elt F) fT) v27 v339 k0_hw94.1 v300,
        sqAcc ((arg8.access (.whole S160x128)).read (Elt F) fP) ((arg10.access (.whole S160x128)).read (Elt F) fT) v27 (colAt v36 28#32 0#32) (inb_col (rows_lt k0_hw94.1) _ _ _) v311,
        sqAcc ((arg8.access (.whole S160x128)).read (Elt F) fP) ((arg10.access (.whole S160x128)).read (Elt F) fT) v27 (colAt v36 28#32 1#32) (inb_col (rows_lt k0_hw94.1) _ _ _) v322,
        sqAcc ((arg8.access (.whole S160x128)).read (Elt F) fP) ((arg10.access (.whole S160x128)).read (Elt F) fT) v27 (colAt v36 28#32 2#32) (inb_col (rows_lt k0_hw94.1) _ _ _) v333,
        colAt v36 28#32 3#32, chk_col (rows_lt k0_hw94.1) _ _ _⟩))
    ⊢ wp frame (wpE defs 𝒱 (V d ((i 0).castLE hcore0) ((i 1).castLE hsub0)) bd) E (k0_part25 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v27 v36 v300 v311 v322 v333 v339 k0_hw94) Φ := by
  unfold sqAcc colAt
  unfold k0_part25
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk95 _ _ from chk_col (rows_lt k0_hw94.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk96 _ _ from chk_col (rows_lt k0_hw94.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk97 _ _ from chk_col (rows_lt k0_hw94.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk98 _ _ from chk_col (rows_lt k0_hw94.1) _ _ _))
  rw [wp_ret]; imodintro
  iapply HΦ
  isplitl [HP]
  · iexact HP
  · iexact HT

end Cert.KernelIdeal.TileParts

end
-- ==== Proof.AccLoops.lean ====
/-
  The accumulator loop of a group of rows, at each of the tile's three compute sites.

  Four outer steps; each runs the site's eight parts in order and a closing step, every part handing both staged chunks
  back and its results as the pure step terms, so that after outer step n the four accumulators are the pure
  accumulators after n outer steps. The loop ends with the four accumulators the row values are formed from.
-/
import proofs.«205036_g29618094473603_cont_9to1_1720_19_alg».proof.Proof.GroupLib
import proofs.«205036_g29618094473603_cont_9to1_1720_19_alg».proof.Proof.PartsA
import proofs.«205036_g29618094473603_cont_9to1_1720_19_alg».proof.Proof.PartsB
import proofs.«205036_g29618094473603_cont_9to1_1720_19_alg».proof.Proof.PartsC
import Idealize.ShloMosaic.Lib.Tactic

noncomputable section

namespace Cert.KernelIdeal.TileParts

open Cert.KernelIdeal
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Tactic
open Cert.KernelIdeal.Tile (thr pW tW bW fW nW cW sP0 sP1 sT0 sT1 sB sFl sN sC)
open Cert.KernelIdeal.TilePure

variable {F : FTy → Type} [FloatOps F] [Facts]
open Facts₀ Facts
variable {UU : Type} [URA UU]
variable {defs : Defs nD τ sig (Elt F) Λ₀} (𝒱 : Variants) (bd : Option 𝒱.V)

local notation "𝕄" => MT nD τ sig (HIx 1) (Elt F) ℕ UU ℕ

set_option maxHeartbeats 8000000 in
/-- The accumulator loop of a group: four outer steps of eight parts and a closing step, both chunks handed back, the
    four accumulators those of the group's rows. -/
theorem wp_accLoop3 (E : Set ℕ) (L : grid0.Coords) (d : Dev nD) (v54 : IVec S16 32) (hr : ∀ x, (v54 x).toNat < 160)
    {qP qT : PosShare TreeShare} {fP : Buf (Elt F) (sP0.view.loc (thr d L))} {fT : Buf (Elt F) (sT0.view.loc (thr d L))}
    {α : Type} (kk : (FVec F S16 .f32 × FVec F S16 .f32 × FVec F S16 .f32 × FVec F S16 .f32) → Prog (TpuEff nD τ sig (Elt F) Λ₀ (thr d L).2) α) (Q : α → sProp 𝕄) :
    iprop((sP0.view.loc (thr d L) ↦{qP} fP) ∗ (sT0.view.loc (thr d L) ↦{qT} fT)
      ∗ (((sP0.view.loc (thr d L) ↦{qP} fP) ∗ (sT0.view.loc (thr d L) ↦{qT} fT)) -∗
          wp frame (wpE defs 𝒱 (thr d L) bd) E (kk (laneAcc ((sP0.access (.whole S160x128)).read (Elt F) fP) ((sT0.access (.whole S160x128)).read (Elt F) fT) v54 hr 0#32, laneAcc ((sP0.access (.whole S160x128)).read (Elt F) fP) ((sT0.access (.whole S160x128)).read (Elt F) fT) v54 hr 1#32, laneAcc ((sP0.access (.whole S160x128)).read (Elt F) fP) ((sT0.access (.whole S160x128)).read (Elt F) fT) v54 hr 2#32, laneAcc ((sP0.access (.whole S160x128)).read (Elt F) fP) ((sT0.access (.whole S160x128)).read (Elt F) fT) v54 hr 3#32)) Q))
    ⊢ wp frame (wpE defs 𝒱 (thr d L) bd) E ((
      Scf.Loop.for k0_t4_loop k0_t4_ok (zero16, zero16, zero16, zero16) fun k0_t4 (arg23, arg24, arg25, arg26) => do
        let ⟨v63, v74, v85, v96, v102, k0_hw4⟩ : Σ' (v63 : IVec S16 32) (v74 : FVec F S16 .f32) (v85 : FVec F S16 .f32) (v96 : FVec F S16 .f32) (v102 : IVec S16 32), k0_chk4 v54 v102 ← k0_part1 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 lanes v54 (0#32 : BitVec 32) (1#32 : BitVec 32) k0_t4 arg23 arg24 arg25
        let ⟨v107, v118, v129, v140, v146, k0_hw8⟩ : Σ' (v107 : FVec F S16 .f32) (v118 : FVec F S16 .f32) (v129 : FVec F S16 .f32) (v140 : FVec F S16 .f32) (v146 : IVec S16 32), k0_chk8 v54 v146 ← k0_part2 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 arg26 v63 v74 v85 v96 v102 k0_hw4
        let ⟨v151, v162, v173, v184, v190, k0_hw12⟩ : Σ' (v151 : FVec F S16 .f32) (v162 : FVec F S16 .f32) (v173 : FVec F S16 .f32) (v184 : FVec F S16 .f32) (v190 : IVec S16 32), k0_chk12 v54 v190 ← k0_part3 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v107 v118 v129 v140 v146 k0_hw8
        let ⟨v195, v206, v217, v228, v234, k0_hw16⟩ : Σ' (v195 : FVec F S16 .f32) (v206 : FVec F S16 .f32) (v217 : FVec F S16 .f32) (v228 : FVec F S16 .f32) (v234 : IVec S16 32), k0_chk16 v54 v234 ← k0_part4 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v151 v162 v173 v184 v190 k0_hw12
        let ⟨v239, v250, v261, v272, v278, k0_hw20⟩ : Σ' (v239 : FVec F S16 .f32) (v250 : FVec F S16 .f32) (v261 : FVec F S16 .f32) (v272 : FVec F S16 .f32) (v278 : IVec S16 32), k0_chk20 v54 v278 ← k0_part5 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v195 v206 v217 v228 v234 k0_hw16
        let ⟨v283, v294, v305, v316, v322, k0_hw24⟩ : Σ' (v283 : FVec F S16 .f32) (v294 : FVec F S16 .f32) (v305 : FVec F S16 .f32) (v316 : FVec F S16 .f32) (v322 : IVec S16 32), k0_chk24 v54 v322 ← k0_part6 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v239 v250 v261 v272 v278 k0_hw20
        let ⟨v327, v338, v349, v360, v366, k0_hw28⟩ : Σ' (v327 : FVec F S16 .f32) (v338 : FVec F S16 .f32) (v349 : FVec F S16 .f32) (v360 : FVec F S16 .f32) (v366 : IVec S16 32), k0_chk28 v54 v366 ← k0_part7 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v283 v294 v305 v316 v322 k0_hw24
        let ⟨v371, v382, v393, v404, v410, k0_hw32⟩ : Σ' (v371 : FVec F S16 .f32) (v382 : FVec F S16 .f32) (v393 : FVec F S16 .f32) (v404 : FVec F S16 .f32) (v410 : IVec S16 32), k0_chk32 v54 v410 ← k0_part8 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v327 v338 v349 v360 v366 k0_hw28
        let v411 : Vec F S16 .f32 ← SparseCore.vectorLoadIdx sP0 ![v54, v410] (k0_idx63_inb v54 v410 k0_hw32) (View.loads_vmem h_S160x128)
        let v412 : Vec F S16 .f32 ← SparseCore.vectorLoadIdx sT0 ![v54, v410] (k0_idx64_inb v54 v410 k0_hw32) (View.loads_vmem h_S160x128)
        have v413 : FVec F S16 .f32 := subf v411 v412
        have v414 : FVec F S16 .f32 := mulf v413 v413
        have v415 : FVec F S16 .f32 := addf v371 v414
        pure (v382, v393, v404, v415)) >>= kk) Q := by
  have h4 : Scf.trips k0_t4_loop.lb k0_t4_loop.ub k0_t4_loop.st = 4 := by decide
  iintro ⟨HP, HT, Hk⟩
  sl_for (invAcc (sP0.view.loc (thr d L) ↦{qP} fP) (sT0.view.loc (thr d L) ↦{qT} fT) ((sP0.access (.whole S160x128)).read (Elt F) fP) ((sT0.access (.whole S160x128)).read (Elt F) fT) v54 hr) $$ [HP HT]
  case region =>
    intro k acc
    obtain ⟨a0, a1, a2, a3⟩ := acc
    unfold invAcc
    iintro ⟨HP, HT, %hacc⟩
    obtain ⟨rfl, rfl, rfl, rfl⟩ := Prod.mk.injEq .. ▸ hacc
    sl_respell []
    rw [wp_bind]; iapply (wp_part1 𝒱 bd E _ _ _ _ _ _ _ _ _ _ _ _ _ _ _ _ _ _ _ _ _ _ _ _ _ _ _ _ _ _ _ _ _ _ _ _ _ _ _ _ _ _ _ _ _ d hr)
    isplitl [HP]; · iexact HP
    isplitl [HT]; · iexact HT
    iintro ⟨HP, HT⟩; dsimp only
    rw [wp_bind]; iapply (wp_part2 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part3 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part4 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part5 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part6 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part7 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part8 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    iapply (SparseCore.wp_vectorLoadIdx _ _ _ _ (S := Finset.univ) (Finset.subset_univ _)) $$ HP; iintro HP
    iapply (SparseCore.wp_vectorLoadIdx _ _ _ _ (S := Finset.univ) (Finset.subset_univ _)) $$ HT; iintro HT
    simp only [Prog.pure_eq_ret]
    rw [wp_ret]; imodintro
    isplitl [HP]; · iexact HP
    isplitl [HT]; · iexact HT
    ipureintro
    refine congrArg₂ Prod.mk ?_ (congrArg₂ Prod.mk ?_ (congrArg₂ Prod.mk ?_ ?_))
    all_goals exact Eq.trans rfl ((accUpTo_succ _ _ _ _ _ _).trans (tripAcc_nest _ _ _ _ _ _ _)).symm
  · unfold invAcc
    isplitl [HP]; · iexact HP
    isplitl [HT]; · iexact HT
    ipureintro
    rw [accUpTo_zero, accUpTo_zero, accUpTo_zero, accUpTo_zero]
  rw [h4]
  iintro %acc HI
  unfold invAcc
  icases HI with ⟨HP, HT, %hacc⟩
  subst hacc
  rw [accUpTo_four, accUpTo_four, accUpTo_four, accUpTo_four]
  iapply Hk
  isplitl [HP]; · iexact HP
  iexact HT

set_option maxHeartbeats 8000000 in
/-- The accumulator loop of a group: four outer steps of eight parts and a closing step, both chunks handed back, the
    four accumulators those of the group's rows. -/
theorem wp_accLoop5 (E : Set ℕ) (L : grid0.Coords) (d : Dev nD) (v54 : IVec S16 32) (hr : ∀ x, (v54 x).toNat < 160)
    {qP qT : PosShare TreeShare} {fP : Buf (Elt F) (sP1.view.loc (thr d L))} {fT : Buf (Elt F) (sT1.view.loc (thr d L))}
    {α : Type} (kk : (FVec F S16 .f32 × FVec F S16 .f32 × FVec F S16 .f32 × FVec F S16 .f32) → Prog (TpuEff nD τ sig (Elt F) Λ₀ (thr d L).2) α) (Q : α → sProp 𝕄) :
    iprop((sP1.view.loc (thr d L) ↦{qP} fP) ∗ (sT1.view.loc (thr d L) ↦{qT} fT)
      ∗ (((sP1.view.loc (thr d L) ↦{qP} fP) ∗ (sT1.view.loc (thr d L) ↦{qT} fT)) -∗
          wp frame (wpE defs 𝒱 (thr d L) bd) E (kk (laneAcc ((sP1.access (.whole S160x128)).read (Elt F) fP) ((sT1.access (.whole S160x128)).read (Elt F) fT) v54 hr 0#32, laneAcc ((sP1.access (.whole S160x128)).read (Elt F) fP) ((sT1.access (.whole S160x128)).read (Elt F) fT) v54 hr 1#32, laneAcc ((sP1.access (.whole S160x128)).read (Elt F) fP) ((sT1.access (.whole S160x128)).read (Elt F) fT) v54 hr 2#32, laneAcc ((sP1.access (.whole S160x128)).read (Elt F) fP) ((sT1.access (.whole S160x128)).read (Elt F) fT) v54 hr 3#32)) Q))
    ⊢ wp frame (wpE defs 𝒱 (thr d L) bd) E ((
      Scf.Loop.for k0_t6_loop k0_t6_ok (zero16, zero16, zero16, zero16) fun k0_t6 (arg23, arg24, arg25, arg26) => do
        let ⟨v63, v74, v85, v96, v102, k0_hw37⟩ : Σ' (v63 : IVec S16 32) (v74 : FVec F S16 .f32) (v85 : FVec F S16 .f32) (v96 : FVec F S16 .f32) (v102 : IVec S16 32), k0_chk37 v54 v102 ← k0_part9 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 lanes v54 (0#32 : BitVec 32) (1#32 : BitVec 32) k0_t6 arg23 arg24 arg25
        let ⟨v107, v118, v129, v140, v146, k0_hw41⟩ : Σ' (v107 : FVec F S16 .f32) (v118 : FVec F S16 .f32) (v129 : FVec F S16 .f32) (v140 : FVec F S16 .f32) (v146 : IVec S16 32), k0_chk41 v54 v146 ← k0_part10 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 arg26 v63 v74 v85 v96 v102 k0_hw37
        let ⟨v151, v162, v173, v184, v190, k0_hw45⟩ : Σ' (v151 : FVec F S16 .f32) (v162 : FVec F S16 .f32) (v173 : FVec F S16 .f32) (v184 : FVec F S16 .f32) (v190 : IVec S16 32), k0_chk45 v54 v190 ← k0_part11 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v107 v118 v129 v140 v146 k0_hw41
        let ⟨v195, v206, v217, v228, v234, k0_hw49⟩ : Σ' (v195 : FVec F S16 .f32) (v206 : FVec F S16 .f32) (v217 : FVec F S16 .f32) (v228 : FVec F S16 .f32) (v234 : IVec S16 32), k0_chk49 v54 v234 ← k0_part12 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v151 v162 v173 v184 v190 k0_hw45
        let ⟨v239, v250, v261, v272, v278, k0_hw53⟩ : Σ' (v239 : FVec F S16 .f32) (v250 : FVec F S16 .f32) (v261 : FVec F S16 .f32) (v272 : FVec F S16 .f32) (v278 : IVec S16 32), k0_chk53 v54 v278 ← k0_part13 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v195 v206 v217 v228 v234 k0_hw49
        let ⟨v283, v294, v305, v316, v322, k0_hw57⟩ : Σ' (v283 : FVec F S16 .f32) (v294 : FVec F S16 .f32) (v305 : FVec F S16 .f32) (v316 : FVec F S16 .f32) (v322 : IVec S16 32), k0_chk57 v54 v322 ← k0_part14 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v239 v250 v261 v272 v278 k0_hw53
        let ⟨v327, v338, v349, v360, v366, k0_hw61⟩ : Σ' (v327 : FVec F S16 .f32) (v338 : FVec F S16 .f32) (v349 : FVec F S16 .f32) (v360 : FVec F S16 .f32) (v366 : IVec S16 32), k0_chk61 v54 v366 ← k0_part15 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v283 v294 v305 v316 v322 k0_hw57
        let ⟨v371, v382, v393, v404, v410, k0_hw65⟩ : Σ' (v371 : FVec F S16 .f32) (v382 : FVec F S16 .f32) (v393 : FVec F S16 .f32) (v404 : FVec F S16 .f32) (v410 : IVec S16 32), k0_chk65 v54 v410 ← k0_part16 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v327 v338 v349 v360 v366 k0_hw61
        let v411 : Vec F S16 .f32 ← SparseCore.vectorLoadIdx sP1 ![v54, v410] (k0_idx129_inb v54 v410 k0_hw65) (View.loads_vmem h_S160x128)
        let v412 : Vec F S16 .f32 ← SparseCore.vectorLoadIdx sT1 ![v54, v410] (k0_idx130_inb v54 v410 k0_hw65) (View.loads_vmem h_S160x128)
        have v413 : FVec F S16 .f32 := subf v411 v412
        have v414 : FVec F S16 .f32 := mulf v413 v413
        have v415 : FVec F S16 .f32 := addf v371 v414
        pure (v382, v393, v404, v415)) >>= kk) Q := by
  have h4 : Scf.trips k0_t6_loop.lb k0_t6_loop.ub k0_t6_loop.st = 4 := by decide
  iintro ⟨HP, HT, Hk⟩
  sl_for (invAcc (sP1.view.loc (thr d L) ↦{qP} fP) (sT1.view.loc (thr d L) ↦{qT} fT) ((sP1.access (.whole S160x128)).read (Elt F) fP) ((sT1.access (.whole S160x128)).read (Elt F) fT) v54 hr) $$ [HP HT]
  case region =>
    intro k acc
    obtain ⟨a0, a1, a2, a3⟩ := acc
    unfold invAcc
    iintro ⟨HP, HT, %hacc⟩
    obtain ⟨rfl, rfl, rfl, rfl⟩ := Prod.mk.injEq .. ▸ hacc
    sl_respell []
    rw [wp_bind]; iapply (wp_part9 𝒱 bd E _ _ _ _ _ _ _ _ _ _ _ _ _ _ _ _ _ _ _ _ _ _ _ _ _ _ _ _ _ _ _ _ _ _ _ _ _ _ _ _ _ _ _ _ _ d hr)
    isplitl [HP]; · iexact HP
    isplitl [HT]; · iexact HT
    iintro ⟨HP, HT⟩; dsimp only
    rw [wp_bind]; iapply (wp_part10 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part11 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part12 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part13 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part14 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part15 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part16 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    iapply (SparseCore.wp_vectorLoadIdx _ _ _ _ (S := Finset.univ) (Finset.subset_univ _)) $$ HP; iintro HP
    iapply (SparseCore.wp_vectorLoadIdx _ _ _ _ (S := Finset.univ) (Finset.subset_univ _)) $$ HT; iintro HT
    simp only [Prog.pure_eq_ret]
    rw [wp_ret]; imodintro
    isplitl [HP]; · iexact HP
    isplitl [HT]; · iexact HT
    ipureintro
    refine congrArg₂ Prod.mk ?_ (congrArg₂ Prod.mk ?_ (congrArg₂ Prod.mk ?_ ?_))
    all_goals exact Eq.trans rfl ((accUpTo_succ _ _ _ _ _ _).trans (tripAcc_nest _ _ _ _ _ _ _)).symm
  · unfold invAcc
    isplitl [HP]; · iexact HP
    isplitl [HT]; · iexact HT
    ipureintro
    rw [accUpTo_zero, accUpTo_zero, accUpTo_zero, accUpTo_zero]
  rw [h4]
  iintro %acc HI
  unfold invAcc
  icases HI with ⟨HP, HT, %hacc⟩
  subst hacc
  rw [accUpTo_four, accUpTo_four, accUpTo_four, accUpTo_four]
  iapply Hk
  isplitl [HP]; · iexact HP
  iexact HT

set_option maxHeartbeats 8000000 in
/-- The accumulator loop of a group: four outer steps of eight parts and a closing step, both chunks handed back, the
    four accumulators those of the group's rows. -/
theorem wp_accLoop7 (E : Set ℕ) (L : grid0.Coords) (d : Dev nD) (v27 : IVec S16 32) (hr : ∀ x, (v27 x).toNat < 160)
    {qP qT : PosShare TreeShare} {fP : Buf (Elt F) (sP0.view.loc (thr d L))} {fT : Buf (Elt F) (sT0.view.loc (thr d L))}
    {α : Type} (kk : (FVec F S16 .f32 × FVec F S16 .f32 × FVec F S16 .f32 × FVec F S16 .f32) → Prog (TpuEff nD τ sig (Elt F) Λ₀ (thr d L).2) α) (Q : α → sProp 𝕄) :
    iprop((sP0.view.loc (thr d L) ↦{qP} fP) ∗ (sT0.view.loc (thr d L) ↦{qT} fT)
      ∗ (((sP0.view.loc (thr d L) ↦{qP} fP) ∗ (sT0.view.loc (thr d L) ↦{qT} fT)) -∗
          wp frame (wpE defs 𝒱 (thr d L) bd) E (kk (laneAcc ((sP0.access (.whole S160x128)).read (Elt F) fP) ((sT0.access (.whole S160x128)).read (Elt F) fT) v27 hr 0#32, laneAcc ((sP0.access (.whole S160x128)).read (Elt F) fP) ((sT0.access (.whole S160x128)).read (Elt F) fT) v27 hr 1#32, laneAcc ((sP0.access (.whole S160x128)).read (Elt F) fP) ((sT0.access (.whole S160x128)).read (Elt F) fT) v27 hr 2#32, laneAcc ((sP0.access (.whole S160x128)).read (Elt F) fP) ((sT0.access (.whole S160x128)).read (Elt F) fT) v27 hr 3#32)) Q))
    ⊢ wp frame (wpE defs 𝒱 (thr d L) bd) E ((
      Scf.Loop.for k0_t8_loop k0_t8_ok (zero16, zero16, zero16, zero16) fun k0_t8 (arg22, arg23, arg24, arg25) => do
        let ⟨v36, v47, v58, v69, v75, k0_hw70⟩ : Σ' (v36 : IVec S16 32) (v47 : FVec F S16 .f32) (v58 : FVec F S16 .f32) (v69 : FVec F S16 .f32) (v75 : IVec S16 32), k0_chk70 v27 v75 ← k0_part18 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 lanes v27 (0#32 : BitVec 32) (1#32 : BitVec 32) k0_t8 arg22 arg23 arg24
        let ⟨v80, v91, v102, v113, v119, k0_hw74⟩ : Σ' (v80 : FVec F S16 .f32) (v91 : FVec F S16 .f32) (v102 : FVec F S16 .f32) (v113 : FVec F S16 .f32) (v119 : IVec S16 32), k0_chk74 v27 v119 ← k0_part19 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 arg25 v36 v47 v58 v69 v75 k0_hw70
        let ⟨v124, v135, v146, v157, v163, k0_hw78⟩ : Σ' (v124 : FVec F S16 .f32) (v135 : FVec F S16 .f32) (v146 : FVec F S16 .f32) (v157 : FVec F S16 .f32) (v163 : IVec S16 32), k0_chk78 v27 v163 ← k0_part20 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v80 v91 v102 v113 v119 k0_hw74
        let ⟨v168, v179, v190, v201, v207, k0_hw82⟩ : Σ' (v168 : FVec F S16 .f32) (v179 : FVec F S16 .f32) (v190 : FVec F S16 .f32) (v201 : FVec F S16 .f32) (v207 : IVec S16 32), k0_chk82 v27 v207 ← k0_part21 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v124 v135 v146 v157 v163 k0_hw78
        let ⟨v212, v223, v234, v245, v251, k0_hw86⟩ : Σ' (v212 : FVec F S16 .f32) (v223 : FVec F S16 .f32) (v234 : FVec F S16 .f32) (v245 : FVec F S16 .f32) (v251 : IVec S16 32), k0_chk86 v27 v251 ← k0_part22 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v168 v179 v190 v201 v207 k0_hw82
        let ⟨v256, v267, v278, v289, v295, k0_hw90⟩ : Σ' (v256 : FVec F S16 .f32) (v267 : FVec F S16 .f32) (v278 : FVec F S16 .f32) (v289 : FVec F S16 .f32) (v295 : IVec S16 32), k0_chk90 v27 v295 ← k0_part23 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v212 v223 v234 v245 v251 k0_hw86
        let ⟨v300, v311, v322, v333, v339, k0_hw94⟩ : Σ' (v300 : FVec F S16 .f32) (v311 : FVec F S16 .f32) (v322 : FVec F S16 .f32) (v333 : FVec F S16 .f32) (v339 : IVec S16 32), k0_chk94 v27 v339 ← k0_part24 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v256 v267 v278 v289 v295 k0_hw90
        let ⟨v344, v355, v366, v377, v383, k0_hw98⟩ : Σ' (v344 : FVec F S16 .f32) (v355 : FVec F S16 .f32) (v366 : FVec F S16 .f32) (v377 : FVec F S16 .f32) (v383 : IVec S16 32), k0_chk98 v27 v383 ← k0_part25 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v300 v311 v322 v333 v339 k0_hw94
        let v384 : Vec F S16 .f32 ← SparseCore.vectorLoadIdx sP0 ![v27, v383] (k0_idx195_inb v27 v383 k0_hw98) (View.loads_vmem h_S160x128)
        let v385 : Vec F S16 .f32 ← SparseCore.vectorLoadIdx sT0 ![v27, v383] (k0_idx196_inb v27 v383 k0_hw98) (View.loads_vmem h_S160x128)
        have v386 : FVec F S16 .f32 := subf v384 v385
        have v387 : FVec F S16 .f32 := mulf v386 v386
        have v388 : FVec F S16 .f32 := addf v344 v387
        pure (v355, v366, v377, v388)) >>= kk) Q := by
  have h4 : Scf.trips k0_t8_loop.lb k0_t8_loop.ub k0_t8_loop.st = 4 := by decide
  iintro ⟨HP, HT, Hk⟩
  sl_for (invAcc (sP0.view.loc (thr d L) ↦{qP} fP) (sT0.view.loc (thr d L) ↦{qT} fT) ((sP0.access (.whole S160x128)).read (Elt F) fP) ((sT0.access (.whole S160x128)).read (Elt F) fT) v27 hr) $$ [HP HT]
  case region =>
    intro k acc
    obtain ⟨a0, a1, a2, a3⟩ := acc
    unfold invAcc
    iintro ⟨HP, HT, %hacc⟩
    obtain ⟨rfl, rfl, rfl, rfl⟩ := Prod.mk.injEq .. ▸ hacc
    sl_respell []
    rw [wp_bind]; iapply (wp_part18 𝒱 bd E _ _ _ _ _ _ _ _ _ _ _ _ _ _ _ _ _ _ _ _ _ _ _ _ _ _ _ _ _ _ _ _ _ _ _ _ _ _ _ _ _ _ _ _ _ d hr)
    isplitl [HP]; · iexact HP
    isplitl [HT]; · iexact HT
    iintro ⟨HP, HT⟩; dsimp only
    rw [wp_bind]; iapply (wp_part19 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part20 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part21 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part22 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part23 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part24 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part25 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    iapply (SparseCore.wp_vectorLoadIdx _ _ _ _ (S := Finset.univ) (Finset.subset_univ _)) $$ HP; iintro HP
    iapply (SparseCore.wp_vectorLoadIdx _ _ _ _ (S := Finset.univ) (Finset.subset_univ _)) $$ HT; iintro HT
    simp only [Prog.pure_eq_ret]
    rw [wp_ret]; imodintro
    isplitl [HP]; · iexact HP
    isplitl [HT]; · iexact HT
    ipureintro
    refine congrArg₂ Prod.mk ?_ (congrArg₂ Prod.mk ?_ (congrArg₂ Prod.mk ?_ ?_))
    all_goals exact Eq.trans rfl ((accUpTo_succ _ _ _ _ _ _).trans (tripAcc_nest _ _ _ _ _ _ _)).symm
  · unfold invAcc
    isplitl [HP]; · iexact HP
    isplitl [HT]; · iexact HT
    ipureintro
    rw [accUpTo_zero, accUpTo_zero, accUpTo_zero, accUpTo_zero]
  rw [h4]
  iintro %acc HI
  unfold invAcc
  icases HI with ⟨HP, HT, %hacc⟩
  subst hacc
  rw [accUpTo_four, accUpTo_four, accUpTo_four, accUpTo_four]
  iapply Hk
  isplitl [HP]; · iexact HP
  iexact HT

end Cert.KernelIdeal.TileParts

end
-- ==== Proof.TileStore.lean ====
/-
  A group's two indexed add-stores, as rules over the tables.

  A group ends by adding, lane by lane, a 16-vector into the entries (segment id of lane x, x) of one of the tile's two
  64 x 16 tables. The operation loads the whole table, scatters the vector into it with addition, and stores the whole
  table back; so a table held whole at contents N is afterwards held whole at `addAt N ids h v`.
-/
import proofs.«205036_g29618094473603_cont_9to1_1720_19_alg».proof.Proof.TilePure
import proofs.«205036_g29618094473603_cont_9to1_1720_19_alg».proof.Proof.TileLoopsBridge
import Idealize.ShloMosaic.Lib.SparseCore.Ops
import Idealize.ShloMosaic.Lib.Tactic

noncomputable section

namespace Cert.KernelIdeal.TileParts

open Cert.KernelIdeal
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Tactic
open Cert.KernelIdeal.Tile (thr sN sC)
open Cert.KernelIdeal.TilePure

variable {F : FTy → Type} [FloatOps F] [Facts]
open Facts₀ Facts
variable {UU : Type} [URA UU]
variable {defs : Defs nD τ sig (Elt F) Λ₀} (𝒱 : Variants) (bd : Option 𝒱.V)

local notation "𝕄" => MT nD τ sig (HIx 1) (Elt F) ℕ UU ℕ

/-- The indexed add-store into the table of masked sums. -/
theorem wp_addAt_sN (E : Set ℕ) (L : grid0.Coords) (d : Dev nD) (ids : IVec S16 32) (v : FVec F S16 .f32)
    (h : ∀ (a : Fin S64x16.rank) (x : S16.Idx), ((![ids, lanes] : Fin 2 → IVec S16 32) a x).toNat < S64x16.size a)
    (hs : (sN.access (.whole S64x16)).Stores Finset.univ) {α : Type} (k : PUnit → Prog (TpuEff nD τ sig (Elt F) Λ₀ (thr d L).2) α) (Q : α → sProp 𝕄)
    (N : Buf (Elt F) (sN.view.loc (thr d L))) :
    (sN.view.loc (thr d L) ↦{fullShare} N)
      ⊢ iprop(((sN.view.loc (thr d L) ↦{fullShare} (addAt (N : Vec F S64x16 .f32) ids h v : Vec F S64x16 .f32)) -∗ wp frame (wpE defs 𝒱 (thr d L) bd) E (k ⟨⟩) Q)
          -∗ wp frame (wpE defs 𝒱 (thr d L) bd) E (SparseCore.vectorStoreIdx sN ![ids, lanes] v (fun _ => 1#1) true h hs >>= k) Q) := by
  have hw := SparseCore.wp_vectorStoreIdx (defs := defs) 𝒱 (thr d L) bd E (base := sN) (idxs := ![ids, lanes]) (v := v)
    (mask := fun _ => 1#1) (add := true) (h := h) (hs := hs) (k := k) (Q := Q) (f := N)
  have e1 : (sN.access (Rect.whole S64x16)).set = Finset.univ := Memref.set_access_whole cc0_scratch6
  have e2 : ∀ w, (sN.access (Rect.whole S64x16)).write (Elt F) N w Finset.univ = w := fun w => Memref.write_access_whole_univ (Elt F) cc0_scratch6 N w
  have e3 : (sN.access (Rect.whole S64x16)).read (Elt F) N = N := Memref.read_access_whole (Elt F) cc0_scratch6 N
  rw [e1, e2, e3] at hw
  exact hw

/-- The indexed add-store into the table of counts. -/
theorem wp_addAt_sC (E : Set ℕ) (L : grid0.Coords) (d : Dev nD) (ids : IVec S16 32) (v : FVec F S16 .f32)
    (h : ∀ (a : Fin S64x16.rank) (x : S16.Idx), ((![ids, lanes] : Fin 2 → IVec S16 32) a x).toNat < S64x16.size a)
    (hs : (sC.access (.whole S64x16)).Stores Finset.univ) {α : Type} (k : PUnit → Prog (TpuEff nD τ sig (Elt F) Λ₀ (thr d L).2) α) (Q : α → sProp 𝕄)
    (C : Buf (Elt F) (sC.view.loc (thr d L))) :
    (sC.view.loc (thr d L) ↦{fullShare} C)
      ⊢ iprop(((sC.view.loc (thr d L) ↦{fullShare} (addAt (C : Vec F S64x16 .f32) ids h v : Vec F S64x16 .f32)) -∗ wp frame (wpE defs 𝒱 (thr d L) bd) E (k ⟨⟩) Q)
          -∗ wp frame (wpE defs 𝒱 (thr d L) bd) E (SparseCore.vectorStoreIdx sC ![ids, lanes] v (fun _ => 1#1) true h hs >>= k) Q) := by
  have hw := SparseCore.wp_vectorStoreIdx (defs := defs) 𝒱 (thr d L) bd E (base := sC) (idxs := ![ids, lanes]) (v := v)
    (mask := fun _ => 1#1) (add := true) (h := h) (hs := hs) (k := k) (Q := Q) (f := C)
  have e1 : (sC.access (Rect.whole S64x16)).set = Finset.univ := Memref.set_access_whole cc0_scratch7
  have e2 : ∀ w, (sC.access (Rect.whole S64x16)).write (Elt F) C w Finset.univ = w := fun w => Memref.write_access_whole_univ (Elt F) cc0_scratch7 C w
  have e3 : (sC.access (Rect.whole S64x16)).read (Elt F) C = C := Memref.read_access_whole (Elt F) cc0_scratch7 C
  rw [e1, e2, e3] at hw
  exact hw

end Cert.KernelIdeal.TileParts

end
-- ==== Proof.Group3.lean ====
/-
  A chunk's ten groups at the tile's first compute site.

  Per group: the sixteen segment ids and the sixteen flags are read from the staged id and flag buffers at the group's
  offset; the ids are below 64 (every word of the id buffer is), so with the lane numbers they name entries of the
  64 x 16 tables; the accumulator loop forms the rows' values from the two staged chunks; value times flag is added into
  the table of masked sums and the flag into the table of counts, at (segment id, lane). The chunks and the id and flag
  buffers are handed back as they were; the tables are the pure fold of the ten group steps over what they held.
-/
import proofs.«205036_g29618094473603_cont_9to1_1720_19_alg».proof.Proof.GroupLib
import proofs.«205036_g29618094473603_cont_9to1_1720_19_alg».proof.Proof.AccLoops
import proofs.«205036_g29618094473603_cont_9to1_1720_19_alg».proof.Proof.TileStore
import Idealize.ShloMosaic.Lib.Tactic

noncomputable section

namespace Cert.KernelIdeal.TileParts

open Cert.KernelIdeal
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Tactic
open Cert.KernelIdeal.Tile (thr pW tW bW fW nW cW sP0 sP1 sT0 sT1 sB sFl sN sC)
open Cert.KernelIdeal.TilePure

variable {F : FTy → Type} [FloatOps F] [Facts]
open Facts₀ Facts
variable {UU : Type} [URA UU]
variable {defs : Defs nD τ sig (Elt F) Λ₀} (𝒱 : Variants) (bd : Option 𝒱.V)

local notation "𝕄" => MT nD τ sig (HIx 1) (Elt F) ℕ UU ℕ

set_option maxHeartbeats 8000000 in
/-- A chunk's ten groups: per group the segment ids and the flags are read, the rows' values formed by the
    accumulator loop, and value times flag and flag added into the two tables at (segment id, lane). The chunks and the
    id and flag buffers are handed back as they were; the tables are the pure fold of the group steps. -/
theorem wp_group3 (E : Set ℕ) (L : grid0.Coords) (d : Dev nD) (k0_t2 : Fin k0_t2_loop.trips) (v18 : BitVec 32) (v4 : IVec S16 32) (v5 : FVec F S16 .f32) (hv4 : v4 = lanes) (hv5 : v5 = zero16)
    (h10 : k0_t3_loop.trips = 10)
    {qP qT qB qF : PosShare TreeShare} {fP : Buf (Elt F) (sP0.view.loc (thr d L))} {fT : Buf (Elt F) (sT0.view.loc (thr d L))}
    {fB : Buf (Elt F) (sB.view.loc (thr d L))} {fFl : Buf (Elt F) (sFl.view.loc (thr d L))} (N C : Vec F S64x16 .f32)
    (hfB : ∀ i : S5600.Idx, ((fB : S5600.Idx → BitVec 32) i).toNat < 64)
    {α : Type} (kk : PUnit → Prog (TpuEff nD τ sig (Elt F) Λ₀ (thr d L).2) α) (Q : α → sProp 𝕄) :
    iprop((sP0.view.loc (thr d L) ↦{qP} fP) ∗ (sT0.view.loc (thr d L) ↦{qT} fT) ∗ (sB.view.loc (thr d L) ↦{qB} fB) ∗ (sFl.view.loc (thr d L) ↦{qF} fFl) ∗ (sN.view.loc (thr d L) ↦{fullShare} N) ∗ (sC.view.loc (thr d L) ↦{fullShare} C)
      ∗ (((sP0.view.loc (thr d L) ↦{qP} fP) ∗ (sT0.view.loc (thr d L) ↦{qT} fT) ∗ (sB.view.loc (thr d L) ↦{qB} fB) ∗ (sFl.view.loc (thr d L) ↦{qF} fFl)
          ∗ (sN.view.loc (thr d L) ↦{fullShare} grpFold (fun g hg tb => groupNum ((sP0.access (.whole S160x128)).read (Elt F) fP) ((sT0.access (.whole S160x128)).read (Elt F) fT) ⟨g, hg⟩ (rowsVec_lt g hg) (sB.view.readAt (Elt F) (Rect.unit (s := S5600) (k0_off5 k0_t2 ⟨g, lt_of_lt_of_eq hg h10.symm⟩) S16.size (k0_off5_inb k0_t2 ⟨g, lt_of_lt_of_eq hg h10.symm⟩)).toLoadRect fB) (idsOk_lt _ (fun x => readAt_lt64 d L fB hfB (Rect.unit (s := S5600) (k0_off5 k0_t2 ⟨g, lt_of_lt_of_eq hg h10.symm⟩) S16.size (k0_off5_inb k0_t2 ⟨g, lt_of_lt_of_eq hg h10.symm⟩)).toLoadRect x)) (sFl.view.readAt (Elt F) (Rect.unit (s := S5600) (k0_off5 k0_t2 ⟨g, lt_of_lt_of_eq hg h10.symm⟩) S16.size (k0_off5_inb k0_t2 ⟨g, lt_of_lt_of_eq hg h10.symm⟩)).toLoadRect fFl) tb) N 10)
          ∗ (sC.view.loc (thr d L) ↦{fullShare} grpFold (fun g hg tb => groupCnt (sB.view.readAt (Elt F) (Rect.unit (s := S5600) (k0_off5 k0_t2 ⟨g, lt_of_lt_of_eq hg h10.symm⟩) S16.size (k0_off5_inb k0_t2 ⟨g, lt_of_lt_of_eq hg h10.symm⟩)).toLoadRect fB) (idsOk_lt _ (fun x => readAt_lt64 d L fB hfB (Rect.unit (s := S5600) (k0_off5 k0_t2 ⟨g, lt_of_lt_of_eq hg h10.symm⟩) S16.size (k0_off5_inb k0_t2 ⟨g, lt_of_lt_of_eq hg h10.symm⟩)).toLoadRect x)) (sFl.view.readAt (Elt F) (Rect.unit (s := S5600) (k0_off5 k0_t2 ⟨g, lt_of_lt_of_eq hg h10.symm⟩) S16.size (k0_off5_inb k0_t2 ⟨g, lt_of_lt_of_eq hg h10.symm⟩)).toLoadRect fFl) tb) C 10))
        -∗ wp frame (wpE defs 𝒱 (thr d L) bd) E (kk ⟨⟩) Q))
    ⊢ wp frame (wpE defs 𝒱 (thr d L) bd) E ((
      Scf.Loop.for k0_t3_loop k0_t3_ok ⟨⟩ fun k0_t3 _ => do
        let arg21 : BitVec 32 := Scf.iv (0#32 : BitVec 32) (1#32 : BitVec 32) k0_t3
        let c10_i32_61 : BitVec 32 := 10#32
        let v44 : BitVec 32 := Scalar.muli v18 c10_i32_61
        let v45 : BitVec 32 := Scalar.addi v44 arg21
        let c16_i32_62 : BitVec 32 := 16#32
        let v46 : BitVec 32 := Scalar.muli v45 c16_i32_62
        let v47 : Index := Scalar.indexCast v46
        let v48 : Vec F S16 .i32 ← Prog.lift (.load sB (Rect.unit (s := S5600) (k0_off5 k0_t2 k0_t3) S16.size (k0_off5_inb k0_t2 k0_t3)).toLoadRect (View.loadsAt_vmem h_S16))
        have k0_hw33 : k0_chk33 v4 v48 := (← Prog.lift (TpuEff.assume (k0_chk33 v4 v48) (k0_chk33.dec v4 v48))).down
        let c16_i32_63 : BitVec 32 := 16#32
        let v49 : BitVec 32 := Scalar.muli v45 c16_i32_63
        let v50 : Index := Scalar.indexCast v49
        let v51 : Vec F S16 .f32 ← Prog.lift (.load sFl (Rect.unit (s := S5600) (k0_off5 k0_t2 k0_t3) S16.size (k0_off5_inb k0_t2 k0_t3)).toLoadRect (View.loadsAt_vmem h_S16))
        let c16_i32_64 : BitVec 32 := 16#32
        let v52 : BitVec 32 := Scalar.muli arg21 c16_i32_64
        have v53 : IVec S16 32 := broadcast S16 v52
        have v54 : IVec S16 32 := addi v4 v53
        let c0_i32_65 : BitVec 32 := 0#32
        let c4_i32 : BitVec 32 := 4#32
        let v55 : BitVec 32 := Scalar.addi c0_i32_65 c4_i32
        let c1_i32_66 : BitVec 32 := 1#32
        let (v56_0, v56_1, v56_2, v56_3) ← Scf.Loop.for k0_t4_loop k0_t4_ok (v5, v5, v5, v5) fun k0_t4 (arg23, arg24, arg25, arg26) => do
          let ⟨v63, v74, v85, v96, v102, k0_hw4⟩ : Σ' (v63 : IVec S16 32) (v74 : FVec F S16 .f32) (v85 : FVec F S16 .f32) (v96 : FVec F S16 .f32) (v102 : IVec S16 32), k0_chk4 v54 v102 ← k0_part1 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v4 v54 c0_i32_65 c1_i32_66 k0_t4 arg23 arg24 arg25
          let ⟨v107, v118, v129, v140, v146, k0_hw8⟩ : Σ' (v107 : FVec F S16 .f32) (v118 : FVec F S16 .f32) (v129 : FVec F S16 .f32) (v140 : FVec F S16 .f32) (v146 : IVec S16 32), k0_chk8 v54 v146 ← k0_part2 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 arg26 v63 v74 v85 v96 v102 k0_hw4
          let ⟨v151, v162, v173, v184, v190, k0_hw12⟩ : Σ' (v151 : FVec F S16 .f32) (v162 : FVec F S16 .f32) (v173 : FVec F S16 .f32) (v184 : FVec F S16 .f32) (v190 : IVec S16 32), k0_chk12 v54 v190 ← k0_part3 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v107 v118 v129 v140 v146 k0_hw8
          let ⟨v195, v206, v217, v228, v234, k0_hw16⟩ : Σ' (v195 : FVec F S16 .f32) (v206 : FVec F S16 .f32) (v217 : FVec F S16 .f32) (v228 : FVec F S16 .f32) (v234 : IVec S16 32), k0_chk16 v54 v234 ← k0_part4 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v151 v162 v173 v184 v190 k0_hw12
          let ⟨v239, v250, v261, v272, v278, k0_hw20⟩ : Σ' (v239 : FVec F S16 .f32) (v250 : FVec F S16 .f32) (v261 : FVec F S16 .f32) (v272 : FVec F S16 .f32) (v278 : IVec S16 32), k0_chk20 v54 v278 ← k0_part5 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v195 v206 v217 v228 v234 k0_hw16
          let ⟨v283, v294, v305, v316, v322, k0_hw24⟩ : Σ' (v283 : FVec F S16 .f32) (v294 : FVec F S16 .f32) (v305 : FVec F S16 .f32) (v316 : FVec F S16 .f32) (v322 : IVec S16 32), k0_chk24 v54 v322 ← k0_part6 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v239 v250 v261 v272 v278 k0_hw20
          let ⟨v327, v338, v349, v360, v366, k0_hw28⟩ : Σ' (v327 : FVec F S16 .f32) (v338 : FVec F S16 .f32) (v349 : FVec F S16 .f32) (v360 : FVec F S16 .f32) (v366 : IVec S16 32), k0_chk28 v54 v366 ← k0_part7 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v283 v294 v305 v316 v322 k0_hw24
          let ⟨v371, v382, v393, v404, v410, k0_hw32⟩ : Σ' (v371 : FVec F S16 .f32) (v382 : FVec F S16 .f32) (v393 : FVec F S16 .f32) (v404 : FVec F S16 .f32) (v410 : IVec S16 32), k0_chk32 v54 v410 ← k0_part8 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v327 v338 v349 v360 v366 k0_hw28
          let v411 : Vec F S16 .f32 ← SparseCore.vectorLoadIdx sP0 ![v54, v410] (k0_idx63_inb v54 v410 k0_hw32) (View.loads_vmem h_S160x128)
          let v412 : Vec F S16 .f32 ← SparseCore.vectorLoadIdx sT0 ![v54, v410] (k0_idx64_inb v54 v410 k0_hw32) (View.loads_vmem h_S160x128)
          have v413 : FVec F S16 .f32 := subf v411 v412
          have v414 : FVec F S16 .f32 := mulf v413 v413
          have v415 : FVec F S16 .f32 := addf v371 v414
          pure (v382, v393, v404, v415)
        let c4_i32_67 : BitVec 32 := 4#32
        have v57 : FVec F S16 .f32 := addf v56_0 v56_1
        have v58 : FVec F S16 .f32 := addf v56_2 v56_3
        have v59 : FVec F S16 .f32 := addf v57 v58
        have v60 : FVec F S16 .f32 := mulf v59 v51
        SparseCore.vectorStoreIdx sN ![v48, v4] v60 (fun _ => 1#1) true (k0_idx65_inb v4 v48 k0_hw33) (View.stores_vmem_bits_univ h_S64x16 rfl)
        SparseCore.vectorStoreIdx sC ![v48, v4] v51 (fun _ => 1#1) true (k0_idx66_inb v4 v48 k0_hw33) (View.stores_vmem_bits_univ h_S64x16 rfl)
        pure ⟨⟩) >>= kk) Q := by
  subst hv4 hv5
  have h10' : Scf.trips k0_t3_loop.lb k0_t3_loop.ub k0_t3_loop.st = 10 := h10
  iintro ⟨HP, HT, HB, HF, HN, HC, Hk⟩
  sl_for (invGrp (iprop((sP0.view.loc (thr d L) ↦{qP} fP) ∗ (sT0.view.loc (thr d L) ↦{qT} fT) ∗ (sB.view.loc (thr d L) ↦{qB} fB) ∗ (sFl.view.loc (thr d L) ↦{qF} fFl)))
    (fun N' : Vec F S64x16 .f32 => (sN.view.loc (thr d L) ↦{fullShare} N' : sProp 𝕄)) (fun C' : Vec F S64x16 .f32 => (sC.view.loc (thr d L) ↦{fullShare} C' : sProp 𝕄))
    (fun g hg tb => groupNum ((sP0.access (.whole S160x128)).read (Elt F) fP) ((sT0.access (.whole S160x128)).read (Elt F) fT) ⟨g, hg⟩ (rowsVec_lt g hg) (sB.view.readAt (Elt F) (Rect.unit (s := S5600) (k0_off5 k0_t2 ⟨g, lt_of_lt_of_eq hg h10.symm⟩) S16.size (k0_off5_inb k0_t2 ⟨g, lt_of_lt_of_eq hg h10.symm⟩)).toLoadRect fB) (idsOk_lt _ (fun x => readAt_lt64 d L fB hfB (Rect.unit (s := S5600) (k0_off5 k0_t2 ⟨g, lt_of_lt_of_eq hg h10.symm⟩) S16.size (k0_off5_inb k0_t2 ⟨g, lt_of_lt_of_eq hg h10.symm⟩)).toLoadRect x)) (sFl.view.readAt (Elt F) (Rect.unit (s := S5600) (k0_off5 k0_t2 ⟨g, lt_of_lt_of_eq hg h10.symm⟩) S16.size (k0_off5_inb k0_t2 ⟨g, lt_of_lt_of_eq hg h10.symm⟩)).toLoadRect fFl) tb)
    (fun g hg tb => groupCnt (sB.view.readAt (Elt F) (Rect.unit (s := S5600) (k0_off5 k0_t2 ⟨g, lt_of_lt_of_eq hg h10.symm⟩) S16.size (k0_off5_inb k0_t2 ⟨g, lt_of_lt_of_eq hg h10.symm⟩)).toLoadRect fB) (idsOk_lt _ (fun x => readAt_lt64 d L fB hfB (Rect.unit (s := S5600) (k0_off5 k0_t2 ⟨g, lt_of_lt_of_eq hg h10.symm⟩) S16.size (k0_off5_inb k0_t2 ⟨g, lt_of_lt_of_eq hg h10.symm⟩)).toLoadRect x)) (sFl.view.readAt (Elt F) (Rect.unit (s := S5600) (k0_off5 k0_t2 ⟨g, lt_of_lt_of_eq hg h10.symm⟩) S16.size (k0_off5_inb k0_t2 ⟨g, lt_of_lt_of_eq hg h10.symm⟩)).toLoadRect fFl) tb) N C) $$ [HP HT HB HF HN HC]
  case region =>
    intro k _
    have hk : k.val < 10 := lt_of_lt_of_eq k.isLt h10
    unfold invGrp
    iintro ⟨⟨HP, HT, HB, HF⟩, HN, HC⟩
    sl_respell []
    rw [Prog.bind_lift]
    iapply (wp_load 𝒱 (thr d L) bd E (m := sB) (S := Finset.univ) (Finset.subset_univ _)) $$ HB; iintro HB
    rw [Prog.bind_lift]
    iapply (wp_assume _ _ _ _ (show k0_chk33 _ _ from ⟨idsOk_lt _ (fun x => readAt_lt64 d L fB hfB (Rect.unit (s := S5600) (k0_off5 k0_t2 k) S16.size (k0_off5_inb k0_t2 k)).toLoadRect x), idsOk_lt _ (fun x => readAt_lt64 d L fB hfB (Rect.unit (s := S5600) (k0_off5 k0_t2 k) S16.size (k0_off5_inb k0_t2 k)).toLoadRect x)⟩))
    sl_respell []
    rw [Prog.bind_lift]
    iapply (wp_load 𝒱 (thr d L) bd E (m := sFl) (S := Finset.univ) (Finset.subset_univ _)) $$ HF; iintro HF
    sl_respell []
    iapply (wp_accLoop3 (defs := defs) 𝒱 bd E L d (addi lanes (broadcast S16 (Scalar.muli (Scf.iv (0#32 : BitVec 32) (1#32 : BitVec 32) ↑k) 16#32))) (rowsVec_lt k.val hk) _ _)
    isplitl [HP]; · iexact HP
    isplitl [HT]; · iexact HT
    iintro ⟨HP, HT⟩
    dsimp only
    iapply (wp_addAt_sN 𝒱 bd E L d _ _ _ _ _ _ _) $$ HN; iintro HN
    iapply (wp_addAt_sC 𝒱 bd E L d _ _ _ _ _ _ _) $$ HC; iintro HC
    simp only [Prog.pure_eq_ret]
    rw [wp_ret]; imodintro
    isplitl [HP HT HB HF]
    · isplitl [HP]; · iexact HP
      isplitl [HT]; · iexact HT
      isplitl [HB]; · iexact HB
      iexact HF
    rw [grpFold_succ _ _ k.val hk, grpFold_succ _ _ k.val hk]
    isplitl [HN]
    · iexact HN
    · iexact HC
  · unfold invGrp
    isplitl [HP HT HB HF]
    · isplitl [HP]; · iexact HP
      isplitl [HT]; · iexact HT
      isplitl [HB]; · iexact HB
      iexact HF
    isplitl [HN]
    · iexact HN
    · iexact HC
  rw [h10']
  iintro %u HI
  unfold invGrp
  icases HI with ⟨⟨HP, HT, HB, HF⟩, HN, HC⟩
  iapply Hk
  isplitl [HP]; · iexact HP
  isplitl [HT]; · iexact HT
  isplitl [HB]; · iexact HB
  isplitl [HF]; · iexact HF
  isplitl [HN]
  · iexact HN
  · iexact HC

end Cert.KernelIdeal.TileParts

end
-- ==== Proof.Group5.lean ====
/-
  A chunk's ten groups at the tile's second compute site.

  Per group: the sixteen segment ids and the sixteen flags are read from the staged id and flag buffers at the group's
  offset; the ids are below 64 (every word of the id buffer is), so with the lane numbers they name entries of the
  64 x 16 tables; the accumulator loop forms the rows' values from the two staged chunks; value times flag is added into
  the table of masked sums and the flag into the table of counts, at (segment id, lane). The chunks and the id and flag
  buffers are handed back as they were; the tables are the pure fold of the ten group steps over what they held.
-/
import proofs.«205036_g29618094473603_cont_9to1_1720_19_alg».proof.Proof.GroupLib
import proofs.«205036_g29618094473603_cont_9to1_1720_19_alg».proof.Proof.AccLoops
import proofs.«205036_g29618094473603_cont_9to1_1720_19_alg».proof.Proof.TileStore
import Idealize.ShloMosaic.Lib.Tactic

noncomputable section

namespace Cert.KernelIdeal.TileParts

open Cert.KernelIdeal
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Tactic
open Cert.KernelIdeal.Tile (thr pW tW bW fW nW cW sP0 sP1 sT0 sT1 sB sFl sN sC)
open Cert.KernelIdeal.TilePure

variable {F : FTy → Type} [FloatOps F] [Facts]
open Facts₀ Facts
variable {UU : Type} [URA UU]
variable {defs : Defs nD τ sig (Elt F) Λ₀} (𝒱 : Variants) (bd : Option 𝒱.V)

local notation "𝕄" => MT nD τ sig (HIx 1) (Elt F) ℕ UU ℕ

set_option maxHeartbeats 8000000 in
/-- A chunk's ten groups: per group the segment ids and the flags are read, the rows' values formed by the
    accumulator loop, and value times flag and flag added into the two tables at (segment id, lane). The chunks and the
    id and flag buffers are handed back as they were; the tables are the pure fold of the group steps. -/
theorem wp_group5 (E : Set ℕ) (L : grid0.Coords) (d : Dev nD) (k0_t2 : Fin k0_t2_loop.trips) (v42 : BitVec 32) (v4 : IVec S16 32) (v5 : FVec F S16 .f32) (hv4 : v4 = lanes) (hv5 : v5 = zero16)
    (h10 : k0_t5_loop.trips = 10)
    {qP qT qB qF : PosShare TreeShare} {fP : Buf (Elt F) (sP1.view.loc (thr d L))} {fT : Buf (Elt F) (sT1.view.loc (thr d L))}
    {fB : Buf (Elt F) (sB.view.loc (thr d L))} {fFl : Buf (Elt F) (sFl.view.loc (thr d L))} (N C : Vec F S64x16 .f32)
    (hfB : ∀ i : S5600.Idx, ((fB : S5600.Idx → BitVec 32) i).toNat < 64)
    {α : Type} (kk : PUnit → Prog (TpuEff nD τ sig (Elt F) Λ₀ (thr d L).2) α) (Q : α → sProp 𝕄) :
    iprop((sP1.view.loc (thr d L) ↦{qP} fP) ∗ (sT1.view.loc (thr d L) ↦{qT} fT) ∗ (sB.view.loc (thr d L) ↦{qB} fB) ∗ (sFl.view.loc (thr d L) ↦{qF} fFl) ∗ (sN.view.loc (thr d L) ↦{fullShare} N) ∗ (sC.view.loc (thr d L) ↦{fullShare} C)
      ∗ (((sP1.view.loc (thr d L) ↦{qP} fP) ∗ (sT1.view.loc (thr d L) ↦{qT} fT) ∗ (sB.view.loc (thr d L) ↦{qB} fB) ∗ (sFl.view.loc (thr d L) ↦{qF} fFl)
          ∗ (sN.view.loc (thr d L) ↦{fullShare} grpFold (fun g hg tb => groupNum ((sP1.access (.whole S160x128)).read (Elt F) fP) ((sT1.access (.whole S160x128)).read (Elt F) fT) ⟨g, hg⟩ (rowsVec_lt g hg) (sB.view.readAt (Elt F) (Rect.unit (s := S5600) (k0_off7 k0_t2 ⟨g, lt_of_lt_of_eq hg h10.symm⟩) S16.size (k0_off7_inb k0_t2 ⟨g, lt_of_lt_of_eq hg h10.symm⟩)).toLoadRect fB) (idsOk_lt _ (fun x => readAt_lt64 d L fB hfB (Rect.unit (s := S5600) (k0_off7 k0_t2 ⟨g, lt_of_lt_of_eq hg h10.symm⟩) S16.size (k0_off7_inb k0_t2 ⟨g, lt_of_lt_of_eq hg h10.symm⟩)).toLoadRect x)) (sFl.view.readAt (Elt F) (Rect.unit (s := S5600) (k0_off7 k0_t2 ⟨g, lt_of_lt_of_eq hg h10.symm⟩) S16.size (k0_off7_inb k0_t2 ⟨g, lt_of_lt_of_eq hg h10.symm⟩)).toLoadRect fFl) tb) N 10)
          ∗ (sC.view.loc (thr d L) ↦{fullShare} grpFold (fun g hg tb => groupCnt (sB.view.readAt (Elt F) (Rect.unit (s := S5600) (k0_off7 k0_t2 ⟨g, lt_of_lt_of_eq hg h10.symm⟩) S16.size (k0_off7_inb k0_t2 ⟨g, lt_of_lt_of_eq hg h10.symm⟩)).toLoadRect fB) (idsOk_lt _ (fun x => readAt_lt64 d L fB hfB (Rect.unit (s := S5600) (k0_off7 k0_t2 ⟨g, lt_of_lt_of_eq hg h10.symm⟩) S16.size (k0_off7_inb k0_t2 ⟨g, lt_of_lt_of_eq hg h10.symm⟩)).toLoadRect x)) (sFl.view.readAt (Elt F) (Rect.unit (s := S5600) (k0_off7 k0_t2 ⟨g, lt_of_lt_of_eq hg h10.symm⟩) S16.size (k0_off7_inb k0_t2 ⟨g, lt_of_lt_of_eq hg h10.symm⟩)).toLoadRect fFl) tb) C 10))
        -∗ wp frame (wpE defs 𝒱 (thr d L) bd) E (kk ⟨⟩) Q))
    ⊢ wp frame (wpE defs 𝒱 (thr d L) bd) E ((
      Scf.Loop.for k0_t5_loop k0_t5_ok ⟨⟩ fun k0_t5 _ => do
        let arg21 : BitVec 32 := Scf.iv (0#32 : BitVec 32) (1#32 : BitVec 32) k0_t5
        let c10_i32_61 : BitVec 32 := 10#32
        let v44 : BitVec 32 := Scalar.muli v42 c10_i32_61
        let v45 : BitVec 32 := Scalar.addi v44 arg21
        let c16_i32_62 : BitVec 32 := 16#32
        let v46 : BitVec 32 := Scalar.muli v45 c16_i32_62
        let v47 : Index := Scalar.indexCast v46
        let v48 : Vec F S16 .i32 ← Prog.lift (.load sB (Rect.unit (s := S5600) (k0_off7 k0_t2 k0_t5) S16.size (k0_off7_inb k0_t2 k0_t5)).toLoadRect (View.loadsAt_vmem h_S16))
        have k0_hw66 : k0_chk66 v4 v48 := (← Prog.lift (TpuEff.assume (k0_chk66 v4 v48) (k0_chk66.dec v4 v48))).down
        let c16_i32_63 : BitVec 32 := 16#32
        let v49 : BitVec 32 := Scalar.muli v45 c16_i32_63
        let v50 : Index := Scalar.indexCast v49
        let v51 : Vec F S16 .f32 ← Prog.lift (.load sFl (Rect.unit (s := S5600) (k0_off7 k0_t2 k0_t5) S16.size (k0_off7_inb k0_t2 k0_t5)).toLoadRect (View.loadsAt_vmem h_S16))
        let c16_i32_64 : BitVec 32 := 16#32
        let v52 : BitVec 32 := Scalar.muli arg21 c16_i32_64
        have v53 : IVec S16 32 := broadcast S16 v52
        have v54 : IVec S16 32 := addi v4 v53
        let c0_i32_65 : BitVec 32 := 0#32
        let c4_i32 : BitVec 32 := 4#32
        let v55 : BitVec 32 := Scalar.addi c0_i32_65 c4_i32
        let c1_i32_66 : BitVec 32 := 1#32
        let (v56_0, v56_1, v56_2, v56_3) ← Scf.Loop.for k0_t6_loop k0_t6_ok (v5, v5, v5, v5) fun k0_t6 (arg23, arg24, arg25, arg26) => do
          let ⟨v63, v74, v85, v96, v102, k0_hw37⟩ : Σ' (v63 : IVec S16 32) (v74 : FVec F S16 .f32) (v85 : FVec F S16 .f32) (v96 : FVec F S16 .f32) (v102 : IVec S16 32), k0_chk37 v54 v102 ← k0_part9 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v4 v54 c0_i32_65 c1_i32_66 k0_t6 arg23 arg24 arg25
          let ⟨v107, v118, v129, v140, v146, k0_hw41⟩ : Σ' (v107 : FVec F S16 .f32) (v118 : FVec F S16 .f32) (v129 : FVec F S16 .f32) (v140 : FVec F S16 .f32) (v146 : IVec S16 32), k0_chk41 v54 v146 ← k0_part10 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 arg26 v63 v74 v85 v96 v102 k0_hw37
          let ⟨v151, v162, v173, v184, v190, k0_hw45⟩ : Σ' (v151 : FVec F S16 .f32) (v162 : FVec F S16 .f32) (v173 : FVec F S16 .f32) (v184 : FVec F S16 .f32) (v190 : IVec S16 32), k0_chk45 v54 v190 ← k0_part11 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v107 v118 v129 v140 v146 k0_hw41
          let ⟨v195, v206, v217, v228, v234, k0_hw49⟩ : Σ' (v195 : FVec F S16 .f32) (v206 : FVec F S16 .f32) (v217 : FVec F S16 .f32) (v228 : FVec F S16 .f32) (v234 : IVec S16 32), k0_chk49 v54 v234 ← k0_part12 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v151 v162 v173 v184 v190 k0_hw45
          let ⟨v239, v250, v261, v272, v278, k0_hw53⟩ : Σ' (v239 : FVec F S16 .f32) (v250 : FVec F S16 .f32) (v261 : FVec F S16 .f32) (v272 : FVec F S16 .f32) (v278 : IVec S16 32), k0_chk53 v54 v278 ← k0_part13 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v195 v206 v217 v228 v234 k0_hw49
          let ⟨v283, v294, v305, v316, v322, k0_hw57⟩ : Σ' (v283 : FVec F S16 .f32) (v294 : FVec F S16 .f32) (v305 : FVec F S16 .f32) (v316 : FVec F S16 .f32) (v322 : IVec S16 32), k0_chk57 v54 v322 ← k0_part14 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v239 v250 v261 v272 v278 k0_hw53
          let ⟨v327, v338, v349, v360, v366, k0_hw61⟩ : Σ' (v327 : FVec F S16 .f32) (v338 : FVec F S16 .f32) (v349 : FVec F S16 .f32) (v360 : FVec F S16 .f32) (v366 : IVec S16 32), k0_chk61 v54 v366 ← k0_part15 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v283 v294 v305 v316 v322 k0_hw57
          let ⟨v371, v382, v393, v404, v410, k0_hw65⟩ : Σ' (v371 : FVec F S16 .f32) (v382 : FVec F S16 .f32) (v393 : FVec F S16 .f32) (v404 : FVec F S16 .f32) (v410 : IVec S16 32), k0_chk65 v54 v410 ← k0_part16 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v327 v338 v349 v360 v366 k0_hw61
          let v411 : Vec F S16 .f32 ← SparseCore.vectorLoadIdx sP1 ![v54, v410] (k0_idx129_inb v54 v410 k0_hw65) (View.loads_vmem h_S160x128)
          let v412 : Vec F S16 .f32 ← SparseCore.vectorLoadIdx sT1 ![v54, v410] (k0_idx130_inb v54 v410 k0_hw65) (View.loads_vmem h_S160x128)
          have v413 : FVec F S16 .f32 := subf v411 v412
          have v414 : FVec F S16 .f32 := mulf v413 v413
          have v415 : FVec F S16 .f32 := addf v371 v414
          pure (v382, v393, v404, v415)
        let c4_i32_67 : BitVec 32 := 4#32
        have v57 : FVec F S16 .f32 := addf v56_0 v56_1
        have v58 : FVec F S16 .f32 := addf v56_2 v56_3
        have v59 : FVec F S16 .f32 := addf v57 v58
        have v60 : FVec F S16 .f32 := mulf v59 v51
        SparseCore.vectorStoreIdx sN ![v48, v4] v60 (fun _ => 1#1) true (k0_idx131_inb v4 v48 k0_hw66) (View.stores_vmem_bits_univ h_S64x16 rfl)
        SparseCore.vectorStoreIdx sC ![v48, v4] v51 (fun _ => 1#1) true (k0_idx132_inb v4 v48 k0_hw66) (View.stores_vmem_bits_univ h_S64x16 rfl)
        pure ⟨⟩) >>= kk) Q := by
  subst hv4 hv5
  have h10' : Scf.trips k0_t5_loop.lb k0_t5_loop.ub k0_t5_loop.st = 10 := h10
  iintro ⟨HP, HT, HB, HF, HN, HC, Hk⟩
  sl_for (invGrp (iprop((sP1.view.loc (thr d L) ↦{qP} fP) ∗ (sT1.view.loc (thr d L) ↦{qT} fT) ∗ (sB.view.loc (thr d L) ↦{qB} fB) ∗ (sFl.view.loc (thr d L) ↦{qF} fFl)))
    (fun N' : Vec F S64x16 .f32 => (sN.view.loc (thr d L) ↦{fullShare} N' : sProp 𝕄)) (fun C' : Vec F S64x16 .f32 => (sC.view.loc (thr d L) ↦{fullShare} C' : sProp 𝕄))
    (fun g hg tb => groupNum ((sP1.access (.whole S160x128)).read (Elt F) fP) ((sT1.access (.whole S160x128)).read (Elt F) fT) ⟨g, hg⟩ (rowsVec_lt g hg) (sB.view.readAt (Elt F) (Rect.unit (s := S5600) (k0_off7 k0_t2 ⟨g, lt_of_lt_of_eq hg h10.symm⟩) S16.size (k0_off7_inb k0_t2 ⟨g, lt_of_lt_of_eq hg h10.symm⟩)).toLoadRect fB) (idsOk_lt _ (fun x => readAt_lt64 d L fB hfB (Rect.unit (s := S5600) (k0_off7 k0_t2 ⟨g, lt_of_lt_of_eq hg h10.symm⟩) S16.size (k0_off7_inb k0_t2 ⟨g, lt_of_lt_of_eq hg h10.symm⟩)).toLoadRect x)) (sFl.view.readAt (Elt F) (Rect.unit (s := S5600) (k0_off7 k0_t2 ⟨g, lt_of_lt_of_eq hg h10.symm⟩) S16.size (k0_off7_inb k0_t2 ⟨g, lt_of_lt_of_eq hg h10.symm⟩)).toLoadRect fFl) tb)
    (fun g hg tb => groupCnt (sB.view.readAt (Elt F) (Rect.unit (s := S5600) (k0_off7 k0_t2 ⟨g, lt_of_lt_of_eq hg h10.symm⟩) S16.size (k0_off7_inb k0_t2 ⟨g, lt_of_lt_of_eq hg h10.symm⟩)).toLoadRect fB) (idsOk_lt _ (fun x => readAt_lt64 d L fB hfB (Rect.unit (s := S5600) (k0_off7 k0_t2 ⟨g, lt_of_lt_of_eq hg h10.symm⟩) S16.size (k0_off7_inb k0_t2 ⟨g, lt_of_lt_of_eq hg h10.symm⟩)).toLoadRect x)) (sFl.view.readAt (Elt F) (Rect.unit (s := S5600) (k0_off7 k0_t2 ⟨g, lt_of_lt_of_eq hg h10.symm⟩) S16.size (k0_off7_inb k0_t2 ⟨g, lt_of_lt_of_eq hg h10.symm⟩)).toLoadRect fFl) tb) N C) $$ [HP HT HB HF HN HC]
  case region =>
    intro k _
    have hk : k.val < 10 := lt_of_lt_of_eq k.isLt h10
    unfold invGrp
    iintro ⟨⟨HP, HT, HB, HF⟩, HN, HC⟩
    sl_respell []
    rw [Prog.bind_lift]
    iapply (wp_load 𝒱 (thr d L) bd E (m := sB) (S := Finset.univ) (Finset.subset_univ _)) $$ HB; iintro HB
    rw [Prog.bind_lift]
    iapply (wp_assume _ _ _ _ (show k0_chk66 _ _ from ⟨idsOk_lt _ (fun x => readAt_lt64 d L fB hfB (Rect.unit (s := S5600) (k0_off7 k0_t2 k) S16.size (k0_off7_inb k0_t2 k)).toLoadRect x), idsOk_lt _ (fun x => readAt_lt64 d L fB hfB (Rect.unit (s := S5600) (k0_off7 k0_t2 k) S16.size (k0_off7_inb k0_t2 k)).toLoadRect x)⟩))
    sl_respell []
    rw [Prog.bind_lift]
    iapply (wp_load 𝒱 (thr d L) bd E (m := sFl) (S := Finset.univ) (Finset.subset_univ _)) $$ HF; iintro HF
    sl_respell []
    iapply (wp_accLoop5 (defs := defs) 𝒱 bd E L d (addi lanes (broadcast S16 (Scalar.muli (Scf.iv (0#32 : BitVec 32) (1#32 : BitVec 32) ↑k) 16#32))) (rowsVec_lt k.val hk) _ _)
    isplitl [HP]; · iexact HP
    isplitl [HT]; · iexact HT
    iintro ⟨HP, HT⟩
    dsimp only
    iapply (wp_addAt_sN 𝒱 bd E L d _ _ _ _ _ _ _) $$ HN; iintro HN
    iapply (wp_addAt_sC 𝒱 bd E L d _ _ _ _ _ _ _) $$ HC; iintro HC
    simp only [Prog.pure_eq_ret]
    rw [wp_ret]; imodintro
    isplitl [HP HT HB HF]
    · isplitl [HP]; · iexact HP
      isplitl [HT]; · iexact HT
      isplitl [HB]; · iexact HB
      iexact HF
    rw [grpFold_succ _ _ k.val hk, grpFold_succ _ _ k.val hk]
    isplitl [HN]
    · iexact HN
    · iexact HC
  · unfold invGrp
    isplitl [HP HT HB HF]
    · isplitl [HP]; · iexact HP
      isplitl [HT]; · iexact HT
      isplitl [HB]; · iexact HB
      iexact HF
    isplitl [HN]
    · iexact HN
    · iexact HC
  rw [h10']
  iintro %u HI
  unfold invGrp
  icases HI with ⟨⟨HP, HT, HB, HF⟩, HN, HC⟩
  iapply Hk
  isplitl [HP]; · iexact HP
  isplitl [HT]; · iexact HT
  isplitl [HB]; · iexact HB
  isplitl [HF]; · iexact HF
  isplitl [HN]
  · iexact HN
  · iexact HC

end Cert.KernelIdeal.TileParts

end
-- ==== Proof.Group7.lean ====
/-
  The last chunk's group loop.

  The tile's last chunk sits whole in its first pair of slots; its ten groups are walked in one loop. A trip loads the
  group's 16 segment ids and flags, forms the 16 rows' values with the four-trip accumulator loop, and adds value times
  flag, and flag, into the two tables at (segment id, lane). After the ten trips each table is the fold of the groups'
  additions over what it held.
-/
import proofs.«205036_g29618094473603_cont_9to1_1720_19_alg».proof.Proof.GroupLib
import proofs.«205036_g29618094473603_cont_9to1_1720_19_alg».proof.Proof.PartsC
import proofs.«205036_g29618094473603_cont_9to1_1720_19_alg».proof.Proof.TileStore
import proofs.«205036_g29618094473603_cont_9to1_1720_19_alg».proof.Proof.AccLoops
import Idealize.ShloMosaic.Lib.Tactic

noncomputable section

namespace Cert.KernelIdeal.TileParts

open Cert.KernelIdeal
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Tactic
open Cert.KernelIdeal.Tile (thr pW tW bW fW nW cW sP0 sP1 sT0 sT1 sB sFl sN sC)
open Cert.KernelIdeal.TilePure

variable {F : FTy → Type} [FloatOps F] [Facts]
open Facts₀ Facts
variable {UU : Type} [URA UU]
variable {defs : Defs nD τ sig (Elt F) Λ₀} (𝒱 : Variants) (bd : Option 𝒱.V)

local notation "𝕄" => MT nD τ sig (HIx 1) (Elt F) ℕ UU ℕ

omit [FloatOps F] [Facts] [URA UU] in
/-- A group number below ten is a trip of the group loop. -/
theorem ltT7 (h10 : Scf.trips k0_t7_loop.lb k0_t7_loop.ub k0_t7_loop.st = 10) {g : ℕ} (hg : g < 10) : g < k0_t7_loop.trips :=
  lt_of_lt_of_eq hg h10.symm

set_option maxHeartbeats 8000000 in
theorem wp_group7_of
    (hacc : ∀ (E : Set ℕ) (L : grid0.Coords) (d : Dev nD) (v27 : IVec S16 32) (hr : ∀ x, (v27 x).toNat < 160)
          {qP qT : PosShare TreeShare} {fP : Buf (Elt F) (sP0.view.loc (thr d L))} {fT : Buf (Elt F) (sT0.view.loc (thr d L))}
          {α : Type} (kk : (FVec F S16 .f32 × FVec F S16 .f32 × FVec F S16 .f32 × FVec F S16 .f32) → Prog (TpuEff nD τ sig (Elt F) Λ₀ (thr d L).2) α) (Q : α → sProp 𝕄) ,
          iprop((sP0.view.loc (thr d L) ↦{qP} fP) ∗ (sT0.view.loc (thr d L) ↦{qT} fT)
            ∗ (((sP0.view.loc (thr d L) ↦{qP} fP) ∗ (sT0.view.loc (thr d L) ↦{qT} fT)) -∗
                wp frame (wpE defs 𝒱 (thr d L) bd) E (kk (laneAcc ((sP0.access (.whole S160x128)).read (Elt F) fP) ((sT0.access (.whole S160x128)).read (Elt F) fT) v27 hr 0#32, laneAcc ((sP0.access (.whole S160x128)).read (Elt F) fP) ((sT0.access (.whole S160x128)).read (Elt F) fT) v27 hr 1#32, laneAcc ((sP0.access (.whole S160x128)).read (Elt F) fP) ((sT0.access (.whole S160x128)).read (Elt F) fT) v27 hr 2#32, laneAcc ((sP0.access (.whole S160x128)).read (Elt F) fP) ((sT0.access (.whole S160x128)).read (Elt F) fT) v27 hr 3#32)) Q))
          ⊢ wp frame (wpE defs 𝒱 (thr d L) bd) E ((
            Scf.Loop.for k0_t8_loop k0_t8_ok (zero16, zero16, zero16, zero16) fun k0_t8 (arg22, arg23, arg24, arg25) => do
              let ⟨v36, v47, v58, v69, v75, k0_hw70⟩ : Σ' (v36 : IVec S16 32) (v47 : FVec F S16 .f32) (v58 : FVec F S16 .f32) (v69 : FVec F S16 .f32) (v75 : IVec S16 32), k0_chk70 v27 v75 ← k0_part18 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 lanes v27 (0#32 : BitVec 32) (1#32 : BitVec 32) k0_t8 arg22 arg23 arg24
              let ⟨v80, v91, v102, v113, v119, k0_hw74⟩ : Σ' (v80 : FVec F S16 .f32) (v91 : FVec F S16 .f32) (v102 : FVec F S16 .f32) (v113 : FVec F S16 .f32) (v119 : IVec S16 32), k0_chk74 v27 v119 ← k0_part19 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 arg25 v36 v47 v58 v69 v75 k0_hw70
              let ⟨v124, v135, v146, v157, v163, k0_hw78⟩ : Σ' (v124 : FVec F S16 .f32) (v135 : FVec F S16 .f32) (v146 : FVec F S16 .f32) (v157 : FVec F S16 .f32) (v163 : IVec S16 32), k0_chk78 v27 v163 ← k0_part20 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v80 v91 v102 v113 v119 k0_hw74
              let ⟨v168, v179, v190, v201, v207, k0_hw82⟩ : Σ' (v168 : FVec F S16 .f32) (v179 : FVec F S16 .f32) (v190 : FVec F S16 .f32) (v201 : FVec F S16 .f32) (v207 : IVec S16 32), k0_chk82 v27 v207 ← k0_part21 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v124 v135 v146 v157 v163 k0_hw78
              let ⟨v212, v223, v234, v245, v251, k0_hw86⟩ : Σ' (v212 : FVec F S16 .f32) (v223 : FVec F S16 .f32) (v234 : FVec F S16 .f32) (v245 : FVec F S16 .f32) (v251 : IVec S16 32), k0_chk86 v27 v251 ← k0_part22 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v168 v179 v190 v201 v207 k0_hw82
              let ⟨v256, v267, v278, v289, v295, k0_hw90⟩ : Σ' (v256 : FVec F S16 .f32) (v267 : FVec F S16 .f32) (v278 : FVec F S16 .f32) (v289 : FVec F S16 .f32) (v295 : IVec S16 32), k0_chk90 v27 v295 ← k0_part23 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v212 v223 v234 v245 v251 k0_hw86
              let ⟨v300, v311, v322, v333, v339, k0_hw94⟩ : Σ' (v300 : FVec F S16 .f32) (v311 : FVec F S16 .f32) (v322 : FVec F S16 .f32) (v333 : FVec F S16 .f32) (v339 : IVec S16 32), k0_chk94 v27 v339 ← k0_part24 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v256 v267 v278 v289 v295 k0_hw90
              let ⟨v344, v355, v366, v377, v383, k0_hw98⟩ : Σ' (v344 : FVec F S16 .f32) (v355 : FVec F S16 .f32) (v366 : FVec F S16 .f32) (v377 : FVec F S16 .f32) (v383 : IVec S16 32), k0_chk98 v27 v383 ← k0_part25 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v300 v311 v322 v333 v339 k0_hw94
              let v384 : Vec F S16 .f32 ← SparseCore.vectorLoadIdx sP0 ![v27, v383] (k0_idx195_inb v27 v383 k0_hw98) (View.loads_vmem h_S160x128)
              let v385 : Vec F S16 .f32 ← SparseCore.vectorLoadIdx sT0 ![v27, v383] (k0_idx196_inb v27 v383 k0_hw98) (View.loads_vmem h_S160x128)
              have v386 : FVec F S16 .f32 := subf v384 v385
              have v387 : FVec F S16 .f32 := mulf v386 v386
              have v388 : FVec F S16 .f32 := addf v344 v387
              pure (v355, v366, v377, v388)) >>= kk) Q)
    (E : Set ℕ) (L : grid0.Coords) (d : Dev nD) (v4 : IVec S16 32) (v5 : FVec F S16 .f32) (hv4 : v4 = lanes) (hv5 : v5 = zero16)
    (h10 : Scf.trips k0_t7_loop.lb k0_t7_loop.ub k0_t7_loop.st = 10)
    {qP qT qB qF : PosShare TreeShare} {fP : Buf (Elt F) (sP0.view.loc (thr d L))} {fT : Buf (Elt F) (sT0.view.loc (thr d L))}
    {fB : Buf (Elt F) (sB.view.loc (thr d L))} {fFl : Buf (Elt F) (sFl.view.loc (thr d L))} (N C : Vec F S64x16 .f32)
    (hfB : ∀ i : S5600.Idx, ((fB : S5600.Idx → BitVec 32) i).toNat < 64)
    {α : Type} (kk : PUnit → Prog (TpuEff nD τ sig (Elt F) Λ₀ (thr d L).2) α) (Q : α → sProp 𝕄) :
    iprop((sP0.view.loc (thr d L) ↦{qP} fP) ∗ (sT0.view.loc (thr d L) ↦{qT} fT) ∗ (sB.view.loc (thr d L) ↦{qB} fB) ∗ (sFl.view.loc (thr d L) ↦{qF} fFl) ∗ (sN.view.loc (thr d L) ↦{fullShare} N) ∗ (sC.view.loc (thr d L) ↦{fullShare} C)
      ∗ (((sP0.view.loc (thr d L) ↦{qP} fP) ∗ (sT0.view.loc (thr d L) ↦{qT} fT) ∗ (sB.view.loc (thr d L) ↦{qB} fB) ∗ (sFl.view.loc (thr d L) ↦{qF} fFl)
          ∗ (sN.view.loc (thr d L) ↦{fullShare} grpFold (fun g hg tb => groupNum ((sP0.access (.whole S160x128)).read (Elt F) fP) ((sT0.access (.whole S160x128)).read (Elt F) fT) ⟨g, hg⟩ (rowsVec_lt g hg) (sB.view.readAt (Elt F) (Rect.unit (s := S5600) (k0_off8 ⟨g, ltT7 h10 hg⟩) S16.size (k0_off8_inb ⟨g, ltT7 h10 hg⟩)).toLoadRect fB) (idsOk_lt _ (fun x => readAt_lt64 d L fB hfB (Rect.unit (s := S5600) (k0_off8 ⟨g, ltT7 h10 hg⟩) S16.size (k0_off8_inb ⟨g, ltT7 h10 hg⟩)).toLoadRect x)) (sFl.view.readAt (Elt F) (Rect.unit (s := S5600) (k0_off8 ⟨g, ltT7 h10 hg⟩) S16.size (k0_off8_inb ⟨g, ltT7 h10 hg⟩)).toLoadRect fFl) tb) N 10)
          ∗ (sC.view.loc (thr d L) ↦{fullShare} grpFold (fun g hg tb => groupCnt (sB.view.readAt (Elt F) (Rect.unit (s := S5600) (k0_off8 ⟨g, ltT7 h10 hg⟩) S16.size (k0_off8_inb ⟨g, ltT7 h10 hg⟩)).toLoadRect fB) (idsOk_lt _ (fun x => readAt_lt64 d L fB hfB (Rect.unit (s := S5600) (k0_off8 ⟨g, ltT7 h10 hg⟩) S16.size (k0_off8_inb ⟨g, ltT7 h10 hg⟩)).toLoadRect x)) (sFl.view.readAt (Elt F) (Rect.unit (s := S5600) (k0_off8 ⟨g, ltT7 h10 hg⟩) S16.size (k0_off8_inb ⟨g, ltT7 h10 hg⟩)).toLoadRect fFl) tb) C 10))
        -∗ wp frame (wpE defs 𝒱 (thr d L) bd) E (kk ⟨⟩) Q))
    ⊢ wp frame (wpE defs 𝒱 (thr d L) bd) E ((
      Scf.Loop.for k0_t7_loop k0_t7_ok ⟨⟩ fun k0_t7 _ => do
        let arg20 : BitVec 32 := Scf.iv (0#32 : BitVec 32) (1#32 : BitVec 32) k0_t7
        let c340_i32 : BitVec 32 := 340#32
        let v18 : BitVec 32 := Scalar.addi c340_i32 arg20
        let c16_i32_23 : BitVec 32 := 16#32
        let v19 : BitVec 32 := Scalar.muli v18 c16_i32_23
        let v20 : Index := Scalar.indexCast v19
        let v21 : Vec F S16 .i32 ← Prog.lift (.load sB (Rect.unit (s := S5600) (k0_off8 k0_t7) S16.size (k0_off8_inb k0_t7)).toLoadRect (View.loadsAt_vmem h_S16))
        have k0_hw99 : k0_chk99 v4 v21 := (← Prog.lift (TpuEff.assume (k0_chk99 v4 v21) (k0_chk99.dec v4 v21))).down
        let c16_i32_24 : BitVec 32 := 16#32
        let v22 : BitVec 32 := Scalar.muli v18 c16_i32_24
        let v23 : Index := Scalar.indexCast v22
        let v24 : Vec F S16 .f32 ← Prog.lift (.load sFl (Rect.unit (s := S5600) (k0_off8 k0_t7) S16.size (k0_off8_inb k0_t7)).toLoadRect (View.loadsAt_vmem h_S16))
        let c16_i32_25 : BitVec 32 := 16#32
        let v25 : BitVec 32 := Scalar.muli arg20 c16_i32_25
        have v26 : IVec S16 32 := broadcast S16 v25
        have v27 : IVec S16 32 := addi v4 v26
        let c0_i32_26 : BitVec 32 := 0#32
        let c4_i32 : BitVec 32 := 4#32
        let v28 : BitVec 32 := Scalar.addi c0_i32_26 c4_i32
        let c1_i32_27 : BitVec 32 := 1#32
        let (v29_0, v29_1, v29_2, v29_3) ← Scf.Loop.for k0_t8_loop k0_t8_ok (v5, v5, v5, v5) fun k0_t8 (arg22, arg23, arg24, arg25) => do
          let ⟨v36, v47, v58, v69, v75, k0_hw70⟩ : Σ' (v36 : IVec S16 32) (v47 : FVec F S16 .f32) (v58 : FVec F S16 .f32) (v69 : FVec F S16 .f32) (v75 : IVec S16 32), k0_chk70 v27 v75 ← k0_part18 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v4 v27 c0_i32_26 c1_i32_27 k0_t8 arg22 arg23 arg24
          let ⟨v80, v91, v102, v113, v119, k0_hw74⟩ : Σ' (v80 : FVec F S16 .f32) (v91 : FVec F S16 .f32) (v102 : FVec F S16 .f32) (v113 : FVec F S16 .f32) (v119 : IVec S16 32), k0_chk74 v27 v119 ← k0_part19 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 arg25 v36 v47 v58 v69 v75 k0_hw70
          let ⟨v124, v135, v146, v157, v163, k0_hw78⟩ : Σ' (v124 : FVec F S16 .f32) (v135 : FVec F S16 .f32) (v146 : FVec F S16 .f32) (v157 : FVec F S16 .f32) (v163 : IVec S16 32), k0_chk78 v27 v163 ← k0_part20 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v80 v91 v102 v113 v119 k0_hw74
          let ⟨v168, v179, v190, v201, v207, k0_hw82⟩ : Σ' (v168 : FVec F S16 .f32) (v179 : FVec F S16 .f32) (v190 : FVec F S16 .f32) (v201 : FVec F S16 .f32) (v207 : IVec S16 32), k0_chk82 v27 v207 ← k0_part21 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v124 v135 v146 v157 v163 k0_hw78
          let ⟨v212, v223, v234, v245, v251, k0_hw86⟩ : Σ' (v212 : FVec F S16 .f32) (v223 : FVec F S16 .f32) (v234 : FVec F S16 .f32) (v245 : FVec F S16 .f32) (v251 : IVec S16 32), k0_chk86 v27 v251 ← k0_part22 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v168 v179 v190 v201 v207 k0_hw82
          let ⟨v256, v267, v278, v289, v295, k0_hw90⟩ : Σ' (v256 : FVec F S16 .f32) (v267 : FVec F S16 .f32) (v278 : FVec F S16 .f32) (v289 : FVec F S16 .f32) (v295 : IVec S16 32), k0_chk90 v27 v295 ← k0_part23 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v212 v223 v234 v245 v251 k0_hw86
          let ⟨v300, v311, v322, v333, v339, k0_hw94⟩ : Σ' (v300 : FVec F S16 .f32) (v311 : FVec F S16 .f32) (v322 : FVec F S16 .f32) (v333 : FVec F S16 .f32) (v339 : IVec S16 32), k0_chk94 v27 v339 ← k0_part24 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v256 v267 v278 v289 v295 k0_hw90
          let ⟨v344, v355, v366, v377, v383, k0_hw98⟩ : Σ' (v344 : FVec F S16 .f32) (v355 : FVec F S16 .f32) (v366 : FVec F S16 .f32) (v377 : FVec F S16 .f32) (v383 : IVec S16 32), k0_chk98 v27 v383 ← k0_part25 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v300 v311 v322 v333 v339 k0_hw94
          let v384 : Vec F S16 .f32 ← SparseCore.vectorLoadIdx sP0 ![v27, v383] (k0_idx195_inb v27 v383 k0_hw98) (View.loads_vmem h_S160x128)
          let v385 : Vec F S16 .f32 ← SparseCore.vectorLoadIdx sT0 ![v27, v383] (k0_idx196_inb v27 v383 k0_hw98) (View.loads_vmem h_S160x128)
          have v386 : FVec F S16 .f32 := subf v384 v385
          have v387 : FVec F S16 .f32 := mulf v386 v386
          have v388 : FVec F S16 .f32 := addf v344 v387
          pure (v355, v366, v377, v388)
        let c4_i32_28 : BitVec 32 := 4#32
        have v30 : FVec F S16 .f32 := addf v29_0 v29_1
        have v31 : FVec F S16 .f32 := addf v29_2 v29_3
        have v32 : FVec F S16 .f32 := addf v30 v31
        have v33 : FVec F S16 .f32 := mulf v32 v24
        SparseCore.vectorStoreIdx sN ![v21, v4] v33 (fun _ => 1#1) true (k0_idx197_inb v4 v21 k0_hw99) (View.stores_vmem_bits_univ h_S64x16 rfl)
        SparseCore.vectorStoreIdx sC ![v21, v4] v24 (fun _ => 1#1) true (k0_idx198_inb v4 v21 k0_hw99) (View.stores_vmem_bits_univ h_S64x16 rfl)
        pure ⟨⟩) >>= kk) Q := by
  subst hv4 hv5
  iintro ⟨HP, HT, HB, HF, HN, HC, Hk⟩
  sl_for (invGrp (iprop((sP0.view.loc (thr d L) ↦{qP} fP) ∗ (sT0.view.loc (thr d L) ↦{qT} fT) ∗ (sB.view.loc (thr d L) ↦{qB} fB) ∗ (sFl.view.loc (thr d L) ↦{qF} fFl)))
    (fun N' : Vec F S64x16 .f32 => (sN.view.loc (thr d L) ↦{fullShare} N' : sProp 𝕄)) (fun C' : Vec F S64x16 .f32 => (sC.view.loc (thr d L) ↦{fullShare} C' : sProp 𝕄))
    (fun g hg tb => groupNum ((sP0.access (.whole S160x128)).read (Elt F) fP) ((sT0.access (.whole S160x128)).read (Elt F) fT) ⟨g, hg⟩ (rowsVec_lt g hg) (sB.view.readAt (Elt F) (Rect.unit (s := S5600) (k0_off8 ⟨g, ltT7 h10 hg⟩) S16.size (k0_off8_inb ⟨g, ltT7 h10 hg⟩)).toLoadRect fB) (idsOk_lt _ (fun x => readAt_lt64 d L fB hfB (Rect.unit (s := S5600) (k0_off8 ⟨g, ltT7 h10 hg⟩) S16.size (k0_off8_inb ⟨g, ltT7 h10 hg⟩)).toLoadRect x)) (sFl.view.readAt (Elt F) (Rect.unit (s := S5600) (k0_off8 ⟨g, ltT7 h10 hg⟩) S16.size (k0_off8_inb ⟨g, ltT7 h10 hg⟩)).toLoadRect fFl) tb)
    (fun g hg tb => groupCnt (sB.view.readAt (Elt F) (Rect.unit (s := S5600) (k0_off8 ⟨g, ltT7 h10 hg⟩) S16.size (k0_off8_inb ⟨g, ltT7 h10 hg⟩)).toLoadRect fB) (idsOk_lt _ (fun x => readAt_lt64 d L fB hfB (Rect.unit (s := S5600) (k0_off8 ⟨g, ltT7 h10 hg⟩) S16.size (k0_off8_inb ⟨g, ltT7 h10 hg⟩)).toLoadRect x)) (sFl.view.readAt (Elt F) (Rect.unit (s := S5600) (k0_off8 ⟨g, ltT7 h10 hg⟩) S16.size (k0_off8_inb ⟨g, ltT7 h10 hg⟩)).toLoadRect fFl) tb) N C) $$ [HP HT HB HF HN HC]
  case region =>
    intro k _
    have hk : k.val < 10 := lt_of_lt_of_eq k.isLt h10
    unfold invGrp
    iintro ⟨⟨HP, HT, HB, HF⟩, HN, HC⟩
    sl_respell []
    rw [Prog.bind_lift]
    iapply (wp_load 𝒱 (thr d L) bd E (m := sB) (S := Finset.univ) (Finset.subset_univ _)) $$ HB; iintro HB
    rw [Prog.bind_lift]
    iapply (wp_assume _ _ _ _ (show k0_chk99 _ _ from ⟨idsOk_lt _ (fun x => readAt_lt64 d L fB hfB (Rect.unit (s := S5600) (k0_off8 k) S16.size (k0_off8_inb k)).toLoadRect x), idsOk_lt _ (fun x => readAt_lt64 d L fB hfB (Rect.unit (s := S5600) (k0_off8 k) S16.size (k0_off8_inb k)).toLoadRect x)⟩))
    sl_respell []
    rw [Prog.bind_lift]
    iapply (wp_load 𝒱 (thr d L) bd E (m := sFl) (S := Finset.univ) (Finset.subset_univ _)) $$ HF; iintro HF
    sl_respell []
    iapply (hacc E L d (addi lanes (broadcast S16 (Scalar.muli (Scf.iv (0#32 : BitVec 32) (1#32 : BitVec 32) ↑k) 16#32))) (rowsVec_lt k.val hk) _ _)
    isplitl [HP]; · iexact HP
    isplitl [HT]; · iexact HT
    iintro ⟨HP, HT⟩
    dsimp only
    iapply (wp_addAt_sN 𝒱 bd E L d _ _ _ _ _ _ _) $$ HN; iintro HN
    iapply (wp_addAt_sC 𝒱 bd E L d _ _ _ _ _ _ _) $$ HC; iintro HC
    simp only [Prog.pure_eq_ret]
    rw [wp_ret]; imodintro
    isplitl [HP HT HB HF]
    · isplitl [HP]; · iexact HP
      isplitl [HT]; · iexact HT
      isplitl [HB]; · iexact HB
      iexact HF
    rw [grpFold_succ _ _ k.val hk, grpFold_succ _ _ k.val hk]
    isplitl [HN]
    · iexact HN
    · iexact HC
  · unfold invGrp
    isplitl [HP HT HB HF]
    · isplitl [HP]; · iexact HP
      isplitl [HT]; · iexact HT
      isplitl [HB]; · iexact HB
      iexact HF
    isplitl [HN]
    · iexact HN
    · iexact HC
  rw [h10]
  iintro %u HI
  unfold invGrp
  icases HI with ⟨⟨HP, HT, HB, HF⟩, HN, HC⟩
  iapply Hk
  isplitl [HP]; · iexact HP
  isplitl [HT]; · iexact HT
  isplitl [HB]; · iexact HB
  isplitl [HF]; · iexact HF
  isplitl [HN]
  · iexact HN
  · iexact HC

/-- The same with the accumulator loop's rule supplied. -/
theorem wp_group7 : type_of% (wp_group7_of (F := F) (UU := UU) (defs := defs) 𝒱 bd (wp_accLoop7 𝒱 bd)) :=
  wp_group7_of 𝒱 bd (wp_accLoop7 𝒱 bd)

end Cert.KernelIdeal.TileParts

end
-- ==== Proof.TileBody.lean ====
/-
  The run of one tile of the SparseCore kernel.

  Protocol. A tile owns four DMA semaphores for its two staging slots (pred slot 0, pred slot 1, tgt slot 0, tgt slot 1)
  and four more, one per synchronous copy (ids in, flags in, sums out, counts out). At most one copy is outstanding on a
  semaphore at any time, a wait asks for exactly the amount its copy credits, and no staging buffer is read or written
  between the issue of the copy into it and the wait for it; nothing is signalled between threads, so the waits need no
  schedule. The four input arrays are read by every tile at once: a tile holds a read share of each, and splits pred's
  and tgt's shares into one token per staging semaphore so that the copy into slot 0 and the copy into slot 1 may be
  outstanding together.

  The run. Two synchronous copies stage the tile's 5600 ids and flags; a loop zeroes the two 64 x 16 tables; chunk 0 is
  issued into slot 0; then 17 times: issue chunk 2k+1 into slot 1, wait for slot 0, add chunk 2k's ten groups into the
  tables, issue chunk 2k+2 into slot 0, wait for slot 1, add chunk 2k+1's groups; then wait for slot 0, add chunk 34's
  groups, and copy the two tables out to the tile's block of the two output arrays. The chunk loop's invariant: chunk 2k
  in flight into slot 0, delivering the read of the tile's rows of that chunk; slot 1 free, its semaphores at zero; the
  tables the sums over the first 2k chunks. At the end the tables are the sums over all 35 chunks, which the write-out
  leaves in the tile's blocks.
-/
import proofs.«205036_g29618094473603_cont_9to1_1720_19_alg».proof.Proof.TileLoopsBridge
import Idealize.ShloMosaic.Lib.SparseCore.Ops
import proofs.«205036_g29618094473603_cont_9to1_1720_19_alg».proof.Proof.TileLoops4
import proofs.«205036_g29618094473603_cont_9to1_1720_19_alg».proof.Proof.TileEnds
import proofs.«205036_g29618094473603_cont_9to1_1720_19_alg».proof.Proof.Group3
import proofs.«205036_g29618094473603_cont_9to1_1720_19_alg».proof.Proof.Group5
import proofs.«205036_g29618094473603_cont_9to1_1720_19_alg».proof.Proof.Group7

noncomputable section

namespace Cert.KernelIdeal.Tile

open Cert.KernelIdeal
open Facts₀ Facts
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {UU : Type} [URA UU] [CountersIn UU]

local notation "𝕄" => MT nD τ sig (HIx 1) (Elt F) ℕ UU ℕ

/-- The tile at `L` of device `d`, handed its read shares of the four inputs and its block of each output, runs to the
    blocks holding its two tables, everything else as it found it. -/
theorem tile_body (hF : (sc (F := F)).Facts) (q : PosShare TreeShare) (d : Dev nD) (L : grid0.Coords)
    (p : Buf (Elt F) (pLoc d)) (t : Buf (Elt F) (tLoc d)) (b : Buf (Elt F) (bLoc d)) (fl : Buf (Elt F) (fLoc d))
    (hb : ∀ i : S320000.Idx, ((b : S320000.Idx → BitVec 32) i).toNat < 64)
    (O : CellTallies nD τ sig (HIx 1)) (W : Waits sig (HIx 1)) (hO : ∀ g, O g none = 0) :
    (iprop(levAts (sc (F := F)).L (sc (F := F)).lev ∗ goRes q d (wL L) p t b fl ∗ scopedBufs (thr d L) ∗ scopedSems0 (thr d L) ∗ owes (thr d L) O W) : sProp 𝕄)
      ⊢ wp frame (wpE (defs₀ (F := F)) Variants.none (thr d L) none) Set.univ (kern (F := F) L)
          fun _ => iprop(tdRes q d (wL L) p t b fl (tabN L p t b hb fl) (tabC L b hb fl) ∗ scopedBufs (thr d L) ∗ scopedSems0 (thr d L)
            ∗ ∃ W', ⌜∀ x ∈ W', x ∈ W ∨ x.2 = none⌝ ∗ owes (thr d L) O W') := by
  rw [(sc (F := F)).scopedBufs_V hF d (cV L) (jV L), SparseCore.Cfg.scopedSems0_V (Val := Elt F) d (cV L) (jV L), ownSems0_V, ownBufs_V]
  unfold goRes inShares
  iintro ⟨#Hlv, ⟨⟨Hp, Ht, Hb, Hf⟩, ⟨%fn, Hn⟩, ⟨%fc, Hc⟩⟩, ⟨⟨%f0, H0⟩, ⟨%f1, H1⟩, ⟨%f2, H2⟩, ⟨%f3, H3⟩, ⟨%f4, H4⟩, ⟨%f5, H5⟩, ⟨%f6, H6⟩, ⟨%f7, H7⟩, Hbufs⟩, ⟨Hs8, Hs9, Hs10, Hs11, Hc0, Hc1, Hc2, Hc3, Hsems⟩, HO⟩
  ihave Hmw := ((sc (F := F)).mayWaits_none (thr := thr d L) hO) $$ Hlv
  ihave Hp := (Entails.of_eq (pts_p (F := F) d L q _).symm) $$ Hp
  ihave Ht := (Entails.of_eq (pts_t (F := F) d L q _).symm) $$ Ht
  ihave Hb := (Entails.of_eq (pts_b (F := F) d L q _).symm) $$ Hb
  ihave Hf := (Entails.of_eq (pts_f (F := F) d L q _).symm) $$ Hf
  ihave Hn := (Entails.of_eq (pts_nOut (F := F) d L _).symm) $$ Hn
  ihave Hc := (Entails.of_eq (pts_cOut (F := F) d L _).symm) $$ Hc
  ihave H0 := (Entails.of_eq (pts_sP0 (F := F) d L _).symm) $$ H0
  ihave H1 := (Entails.of_eq (pts_sP1 (F := F) d L _).symm) $$ H1
  ihave H2 := (Entails.of_eq (pts_sT0 (F := F) d L _).symm) $$ H2
  ihave H3 := (Entails.of_eq (pts_sT1 (F := F) d L _).symm) $$ H3
  ihave H4 := (Entails.of_eq (pts_sB (F := F) d L _).symm) $$ H4
  ihave H5 := (Entails.of_eq (pts_sFl (F := F) d L _).symm) $$ H5
  ihave H6 := (Entails.of_eq (pts_sN (F := F) d L _).symm) $$ H6
  ihave H7 := (Entails.of_eq (pts_sC (F := F) d L _).symm) $$ H7
  ihave Hp := (p_toks (F := F) (UU := UU) d L q p).1 $$ Hp
  icases Hp with ⟨HpA, Hp0, Hp1⟩
  ihave Ht := (t_toks (F := F) (UU := UU) d L q t).1 $$ Ht
  icases Ht with ⟨HtA, Ht2, Ht3⟩
  sl_exec
  iapply (wp_zeroLoop (F := F) (UU := UU) d L _ rfl _ _)
  isplitl [H6]; · iexact H6
  isplitl [H7]; · iexact H7
  iintro H6 H7
  sl_exec
  have hfB : (View.write (Elt F) sB.view f4 (tile_body.sl.dma0 d L b) Finset.univ) = sIds F L b := by
    show View.write (Elt F) (View.whole cc0_scratch4) f4 _ Finset.univ = _
    rw [View.write_whole_univ]; rfl
  have hfF : (View.write (Elt F) sFl.view f5 (tile_body.sl.dma0_1 d L fl) Finset.univ) = sFls L fl := by
    show View.write (Elt F) (View.whole cc0_scratch5) f5 _ Finset.univ = _
    rw [View.write_whole_univ]; rfl
  ihave H4 := (pts_eq (F := F) (UU := UU) hfB) $$ H4
  ihave H5 := (pts_eq (F := F) (UU := UU) hfF) $$ H5
  sl_for (invPV (F := F) (UU := UU) d L q p t O W (sIds F L b) (sFls L fl) (numAt L p t b hb fl) (cntAt L b hb fl)) $$ [Hmw Hs8 Hp0 Hs10 Ht2 Hp1 Ht3 H1 H3 Hs9 Hs11 H4 H5 H6 H7 HO]
  case region =>
    intro k _
    unfold invPV InFlightV
    iintro ⟨Hmw, ⟨%c, %hc, ⟨%offP, %inbP, %fXP, %hXP, Hs8, Hp0⟩, ⟨%offT, %inbT, %fXT, %hXT, Hs10, Ht2⟩⟩, Hp1, Ht3, ⟨%g1, H1⟩, ⟨%g3, H3⟩, Hs9, Hs11, H4, H5, H6, H7, %W', %hW', HO⟩
    subst hXP hXT
    have hk : k.val < 17 := k.isLt
    sl_exec
    -- the even chunk's groups
    ihave H6 := (pts_eq (F := F) (UU := UU) (congrArg (numAt L p t b hb fl) (hc.symm))) $$ H6
    ihave H7 := (pts_eq (F := F) (UU := UU) (congrArg (cntAt L b hb fl) (hc.symm))) $$ H7
    iapply (TileParts.wp_group3 Variants.none none Set.univ L d k (Scalar.muli 2#32 (Scf.iv 0#32 1#32 k)) _ _ rfl rfl (by decide) _ _ (sIds_lt L hb) _ _)
    isplitl [Hs8_dst]; · iexact Hs8_dst
    isplitl [Hs10_dst]; · iexact Hs10_dst
    isplitl [H4]; · iexact H4
    isplitl [H5]; · iexact H5
    isplitl [H6]; · iexact H6
    isplitl [H7]; · iexact H7
    iintro ⟨Hs8_dst, Hs10_dst, H4, H5, H6, H7⟩
    ihave H6 := (pts_eq (F := F) (UU := UU) (TileParts.grpFold_ten _ _)) $$ H6
    ihave H7 := (pts_eq (F := F) (UU := UU) (TileParts.grpFold_ten _ _)) $$ H7
    ihave H6 := (pts_eq (F := F) (UU := UU) (numAt_succ L p t b hb fl c
        (by first | rfl | exact Memref.read_access_whole (Elt F) cc0_scratch0 _) (by first | rfl | exact Memref.read_access_whole (Elt F) cc0_scratch2 _)
        (fun g => ids_of_off L b c g _ ((off5_eq k _).trans (by rw [hc]))) (fun g => fls_of_off L fl c g _ ((off5_eq k _).trans (by rw [hc]))))) $$ H6
    ihave H7 := (pts_eq (F := F) (UU := UU) (cntAt_succ L b hb fl c
        (fun g => ids_of_off L b c g _ ((off5_eq k _).trans (by rw [hc]))) (fun g => fls_of_off L fl c g _ ((off5_eq k _).trans (by rw [hc]))))) $$ H7
    sl_exec
    -- the odd chunk's groups
    have hP1 : (View.write (Elt F) sP1.view g1 (tile_body.sl.dma0_4 d L p k) Finset.univ) = stP L p (⟨2 * k.val + 1, by omega⟩ : Fin 35) := by
      show View.write (Elt F) (View.whole cc0_scratch1) _ _ Finset.univ = _
      rw [View.write_whole_univ]
      exact stP_of_off L p _ _ (off4_eq L k)
    have hT1 : (View.write (Elt F) sT1.view g3 (tile_body.sl.dma0_5 d L t k) Finset.univ) = stT L t (⟨2 * k.val + 1, by omega⟩ : Fin 35) := by
      show View.write (Elt F) (View.whole cc0_scratch3) _ _ Finset.univ = _
      rw [View.write_whole_univ]
      exact stT_of_off L t _ _ (off4_eq L k)
    ihave H1 := (pts_eq (F := F) (UU := UU) hP1) $$ H1
    ihave H3 := (pts_eq (F := F) (UU := UU) hT1) $$ H3
    ihave H6 := (pts_eq (F := F) (UU := UU) (congrArg (numAt L p t b hb fl) (show c.val + 1 = (⟨2 * k.val + 1, by omega⟩ : Fin 35).val by rw [hc]))) $$ H6
    ihave H7 := (pts_eq (F := F) (UU := UU) (congrArg (cntAt L b hb fl) (show c.val + 1 = (⟨2 * k.val + 1, by omega⟩ : Fin 35).val by rw [hc]))) $$ H7
    iapply (TileParts.wp_group5 Variants.none none Set.univ L d k (Scalar.addi (Scalar.muli 2#32 (Scf.iv 0#32 1#32 k)) 1#32) _ _ rfl rfl (by decide) _ _ (sIds_lt L hb) _ _)
    isplitl [H1]; · iexact H1
    isplitl [H3]; · iexact H3
    isplitl [H4]; · iexact H4
    isplitl [H5]; · iexact H5
    isplitl [H6]; · iexact H6
    isplitl [H7]; · iexact H7
    iintro ⟨H1, H3, H4, H5, H6, H7⟩
    ihave H6 := (pts_eq (F := F) (UU := UU) (TileParts.grpFold_ten _ _)) $$ H6
    ihave H7 := (pts_eq (F := F) (UU := UU) (TileParts.grpFold_ten _ _)) $$ H7
    ihave H6 := (pts_eq (F := F) (UU := UU) (numAt_succ L p t b hb fl (⟨2 * k.val + 1, by omega⟩ : Fin 35)
        (by first | rfl | exact Memref.read_access_whole (Elt F) cc0_scratch1 _) (by first | rfl | exact Memref.read_access_whole (Elt F) cc0_scratch3 _)
        (fun g => ids_of_off L b (⟨2 * k.val + 1, by omega⟩ : Fin 35) g _ (off7_eq k _)) (fun g => fls_of_off L fl (⟨2 * k.val + 1, by omega⟩ : Fin 35) g _ (off7_eq k _)))) $$ H6
    ihave H7 := (pts_eq (F := F) (UU := UU) (cntAt_succ L b hb fl (⟨2 * k.val + 1, by omega⟩ : Fin 35)
        (fun g => ids_of_off L b (⟨2 * k.val + 1, by omega⟩ : Fin 35) g _ (off7_eq k _)) (fun g => fls_of_off L fl (⟨2 * k.val + 1, by omega⟩ : Fin 35) g _ (off7_eq k _)))) $$ H7
    ihave H6 := (pts_eq (F := F) (UU := UU) (congrArg (numAt L p t b hb fl) (show (⟨2 * k.val + 1, by omega⟩ : Fin 35).val + 1 = 2 * (k.val + 1) by show 2 * k.val + 1 + 1 = _; omega))) $$ H6
    ihave H7 := (pts_eq (F := F) (UU := UU) (congrArg (cntAt L b hb fl) (show (⟨2 * k.val + 1, by omega⟩ : Fin 35).val + 1 = 2 * (k.val + 1) by show 2 * k.val + 1 + 1 = _; omega))) $$ H7
    sl_exec
    sl_step
    isplitl [Hmw]; · iexact Hmw
    isplitl [Hs8 Hp0 Hs10 Ht2]
    · iexists (⟨2 * k.val + 2, by omega⟩ : Fin 35)
      isplitr; · ipureintro; show 2 * k.val + 2 = 2 * (k.val + 1); omega
      isplitl [Hs8 Hp0]
      · iexists _; iexists _; iexists _
        isplitr
        swap
        · isplitl [Hs8]; · iexact Hs8
          iexact Hp0
        · ipureintro
          show View.write (Elt F) (View.whole cc0_scratch0) _ _ Finset.univ = _
          rw [View.write_whole_univ]
          exact stP_of_off L p _ _ (off6_eq L k)
      · iexists _; iexists _; iexists _
        isplitr
        swap
        · isplitl [Hs10]; · iexact Hs10
          iexact Ht2
        · ipureintro
          show View.write (Elt F) (View.whole cc0_scratch2) _ _ Finset.univ = _
          rw [View.write_whole_univ]
          exact stT_of_off L t _ _ (off6_eq L k)
    isplitl [Hp1]; · iexact Hp1
    isplitl [Ht3]; · iexact Ht3
    isplitl [H1]; · iexists _; iexact H1
    isplitl [H3]; · iexists _; iexact H3
    isplitl [Hs9]; · iexact Hs9
    isplitl [Hs11]; · iexact Hs11
    isplitl [H4]; · iexact H4
    isplitl [H5]; · iexact H5
    isplitl [H6]; · iexact H6
    isplitl [H7]; · iexact H7
    iexists _; isplitr
    swap
    · iexact HO
    · ipureintro
      exact waits_insert (waits_insert (waits_insert (waits_insert hW' _) _) _) _
  · unfold invPV InFlightV
    isplitl [Hmw]; · iexact Hmw
    isplitl [Hs8 Hp0 Hs10 Ht2]
    · iexists (⟨0, by omega⟩ : Fin 35)
      isplitr; · ipureintro; rfl
      isplitl [Hs8 Hp0]
      · iexists _; iexists _; iexists _
        isplitr
        swap
        · isplitl [Hs8]; · iexact Hs8
          iexact Hp0
        · ipureintro
          show View.write (Elt F) (View.whole cc0_scratch0) _ _ Finset.univ = _
          rw [View.write_whole_univ]
          exact stP_of_off L p _ _ (off3_eq L)
      · iexists _; iexists _; iexists _
        isplitr
        swap
        · isplitl [Hs10]; · iexact Hs10
          iexact Ht2
        · ipureintro
          show View.write (Elt F) (View.whole cc0_scratch2) _ _ Finset.univ = _
          rw [View.write_whole_univ]
          exact stT_of_off L t _ _ (off3_eq L)
    isplitl [Hp1]; · iexact Hp1
    isplitl [Ht3]; · iexact Ht3
    isplitl [H1]; · iexists _; iexact H1
    isplitl [H3]; · iexists _; iexact H3
    isplitl [Hs9]; · iexact Hs9
    isplitl [Hs11]; · iexact Hs11
    isplitl [H4]; · iexact H4
    isplitl [H5]; · iexact H5
    isplitl [H6]; · iexact H6
    isplitl [H7]; · iexact H7
    iexists _; isplitr
    swap
    · iexact HO
    · ipureintro
      exact waits_insert (waits_insert (fun x hx => .inl hx) _) _
  iintro %_ HI
  unfold invPV InFlightV
  icases HI with ⟨-, ⟨%c, %hc, ⟨%offP, %inbP, %fXP, %hXP, Hs8, Hp0⟩, ⟨%offT, %inbT, %fXT, %hXT, Hs10, Ht2⟩⟩, Hp1, Ht3, ⟨%g1, H1⟩, ⟨%g3, H3⟩, Hs9, Hs11, H4, H5, H6, H7, %W', %hW', HO⟩
  subst hXP hXT
  have hc34 : c.val = 34 := hc
  sl_exec
  ihave H6 := (pts_eq (F := F) (UU := UU) (congrArg (numAt L p t b hb fl) (hc.symm))) $$ H6
  ihave H7 := (pts_eq (F := F) (UU := UU) (congrArg (cntAt L b hb fl) (hc.symm))) $$ H7
  iapply (TileParts.wp_group7 Variants.none none Set.univ L d _ _ rfl rfl (by decide) _ _ (sIds_lt L hb) _ _)
  isplitl [Hs8_dst]; · iexact Hs8_dst
  isplitl [Hs10_dst]; · iexact Hs10_dst
  isplitl [H4]; · iexact H4
  isplitl [H5]; · iexact H5
  isplitl [H6]; · iexact H6
  isplitl [H7]; · iexact H7
  iintro ⟨Hs8_dst, Hs10_dst, H4, H5, H6, H7⟩
  ihave H6 := (pts_eq (F := F) (UU := UU) (TileParts.grpFold_ten _ _)) $$ H6
  ihave H7 := (pts_eq (F := F) (UU := UU) (TileParts.grpFold_ten _ _)) $$ H7
  ihave H6 := (pts_eq (F := F) (UU := UU) (numAt_succ L p t b hb fl c
      (by first | rfl | exact Memref.read_access_whole (Elt F) cc0_scratch0 _) (by first | rfl | exact Memref.read_access_whole (Elt F) cc0_scratch2 _)
      (fun g => ids_of_off L b c g _ ((off8_eq _).trans (by rw [hc34]))) (fun g => fls_of_off L fl c g _ ((off8_eq _).trans (by rw [hc34]))))) $$ H6
  ihave H7 := (pts_eq (F := F) (UU := UU) (cntAt_succ L b hb fl c
      (fun g => ids_of_off L b c g _ ((off8_eq _).trans (by rw [hc34]))) (fun g => fls_of_off L fl c g _ ((off8_eq _).trans (by rw [hc34]))))) $$ H7
  ihave H6 := (pts_eq (F := F) (UU := UU) (congrArg (numAt L p t b hb fl) (show c.val + 1 = 35 by rw [hc34]))) $$ H6
  ihave H7 := (pts_eq (F := F) (UU := UU) (congrArg (cntAt L b hb fl) (show c.val + 1 = 35 by rw [hc34]))) $$ H7
  sl_exec
  sl_step
  isplitl [HpA Hp0 Hp1 HtA Ht2 Ht3 Hb Hf Hn Hc]
  · unfold tdRes inShares
    isplitl [HpA Hp0 Hp1 HtA Ht2 Ht3 Hb Hf]
    · isplitl [HpA Hp0 Hp1]
      · iapply (Entails.of_eq (pts_p (F := F) d L q _))
        iapply (p_toks (F := F) (UU := UU) d L q p).2
        isplitl [HpA]; · iexact HpA
        isplitl [Hp0]; · iexact Hp0
        iexact Hp1
      isplitl [HtA Ht2 Ht3]
      · iapply (Entails.of_eq (pts_t (F := F) d L q _))
        iapply (t_toks (F := F) (UU := UU) d L q t).2
        isplitl [HtA]; · iexact HtA
        isplitl [Ht2]; · iexact Ht2
        iexact Ht3
      isplitl [Hb]
      · iapply (Entails.of_eq (pts_b (F := F) d L q _)); iexact Hb
      · iapply (Entails.of_eq (pts_f (F := F) d L q _)); iexact Hf
    isplitl [Hn]
    · iexists _; isplitr
      swap
      · iapply (Entails.of_eq (pts_nOut (F := F) d L _)); iexact Hn
      · ipureintro
        rw [← numAt_35]
        exact (by
          unfold tile_body.sl.dma0_8
          simp only [ReadAs.apply_same, Memref.view_whole, View.read_whole]
          exact out_holdsN L fn _)
    · iexists _; isplitr
      swap
      · iapply (Entails.of_eq (pts_cOut (F := F) d L _)); iexact Hc
      · ipureintro
        rw [← cntAt_35]
        exact (by
          unfold tile_body.sl.dma0_9
          simp only [ReadAs.apply_same, Memref.view_whole, View.read_whole]
          exact out_holdsC L fc _)
  isplitl [Hs8_dst H1 Hs10_dst H3 H4 H5 H6 H7 Hbufs]
  · isplitl [Hs8_dst]; · iexists _; iexact Hs8_dst
    isplitl [H1]; · iexists _; iexact H1
    isplitl [Hs10_dst]; · iexists _; iexact Hs10_dst
    isplitl [H3]; · iexists _; iexact H3
    isplitl [H4]; · iexists _; iexact H4
    isplitl [H5]; · iexists _; iexact H5
    isplitl [H6]; · iexists _; iexact H6
    isplitl [H7]; · iexists _; iexact H7
    iexact Hbufs
  isplitl [Hs8 Hs9 Hs10 Hs11 Hc0 Hc1 Hc2 Hc3 Hsems]
  · isplitl [Hs8]; · iexact Hs8
    isplitl [Hs9]; · iexact Hs9
    isplitl [Hs10]; · iexact Hs10
    isplitl [Hs11]; · iexact Hs11
    isplitl [Hc0]; · iexact Hc0
    isplitl [Hc1]; · iexact Hc1
    isplitl [Hc2]; · iexact Hc2
    isplitl [Hc3]; · iexact Hc3
    iexact Hsems
  iexists _; isplitr
  swap
  · iexact HO
  · ipureintro
    exact waits_insert (waits_insert (waits_insert (waits_insert hW' _) _) _) _

end Cert.KernelIdeal.Tile

end
-- ==== Proof.Bits.TileLoops1.lean ====
/-
  The pieces of a tile's run that do not depend on the kernel's text: the side conditions of its indexed stores, the
  read shares its two staging slots' copies borrow, what is in flight between two trips of its chunk loop, and the
  invariants of its loops, stated with every buffer at contents not chosen (the protocol alone).
-/
import proofs.«205036_g29618094473603_cont_9to1_1720_19_alg».proof.Proof.Bits.TileLoopsBridge
import Idealize.ShloMosaic.Lib.SparseCore.Ops

noncomputable section

namespace Cert.Kernel.Tile

open Cert.Kernel
open Facts₀ Facts
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {UU : Type} [URA UU] [CountersIn UU]

local notation "𝕄" => MT nD τ sig (HIx 1) (Elt F) ℕ UU ℕ

/-! ## Side conditions of the indexed stores -/

omit [FloatOps F] [CountersIn UU] [URA UU] in
/-- The lane numbers are below 16. -/
theorem iota_lt (x : S16.Idx) : ((iota .scVector S16 32 [0] iota_S16_d0_w32_scVector) x).toNat < 16 := by
  have h : (x 0).val < 16 := (x 0).isLt
  show (BitVec.ofNat 32 (0 * 16 + (x 0).val)).toNat < 16
  rw [BitVec.toNat_ofNat]
  omega

omit [FloatOps F] [CountersIn UU] [URA UU] in
/-- Segment ids below 64 and lane numbers below 16 name an entry of a 64 x 16 table. -/
theorem chk_tab {v4 v48 : IVec S16 32} (h4 : ∀ x, (v4 x).toNat < 16) (h48 : ∀ x, (v48 x).toNat < 64) :
    ∀ (a : Fin S64x16.rank) (x : S16.Idx), ((![v48, v4] : Fin 2 → IVec S16 32) a x).toNat < S64x16.size a := by
  intro a x
  match a with
  | ⟨0, _⟩ => exact h48 x
  | ⟨1, _⟩ => exact h4 x

/-- Every staged segment id is below 64. -/
def IdsOK (d : Dev nD) (L : grid0.Coords) (fB : Buf (Elt F) (sB.view.loc (thr d L))) : Prop :=
  ∀ i : S5600.Idx, ((fB : S5600.Idx → BitVec 32) i).toNat < 64

omit [FloatOps F] [CountersIn UU] [URA UU] in
theorem ids_read_lt {d : Dev nD} {L : grid0.Coords} {fB : Buf (Elt F) (sB.view.loc (thr d L))} (h : IdsOK d L fB) (r : LoadRect S5600)
    (x : r.shape.Idx) : ((sB.view.readAt (Elt F) r fB) x).toNat < 64 := h _

/-! ## Read shares -/

omit [FloatOps F] [CountersIn UU] in
/-- One more read token split off what remains of a share. -/
theorem tok_split {ℓ : Loc nD τ sig} {S : Finset (Idx ℓ)} (f : Buf (Elt F) ℓ) (q : PosShare TreeShare) (k : ℕ) :
    (ℓ ↦[S]{Transfers.shareDrop q k} f : sProp 𝕄)
      ⊣⊢ iprop((ℓ ↦[S]{Transfers.shareDrop q (k + 1)} f) ∗ ℓ ↦[S]{Transfers.shareTokN q k} f) :=
  pointsTo_share (PosShare.mem_left_op_right _)

/-! ## A chunk copy outstanding between two trips -/

abbrev Tup : Type := FVec F S16 .f32 × FVec F S16 .f32 × FVec F S16 .f32 × FVec F S16 .f32

/-- A chunk copy outstanding on cell `sm` from array `src` into slot `dst`, reading at share `qs`: the flight, delivering
    the slot at some contents and the rows lent, and what the array keeps meanwhile. -/
def InFlight (d : Dev nD) (L : grid0.Coords) (sm : DmaSem sig) (src : Memref sig .scVector .hbm S320000x128 .f32)
    (dst : Memref sig .scVector .vmem S160x128 .f32) (qs : PosShare TreeShare) (g : Buf (Elt F) (src.view.loc (thr d L))) : sProp 𝕄 :=
  iprop(∃ (off : Fin 2 → Nat) (inb : ∀ a, off a + S160x128.size a ≤ S320000x128.size a) (fX : Buf (Elt F) (dst.view.loc (thr d L))),
    Transfers.Flight (countersEmb (U := UU)) (thr d L) (SemLoc.dma sm) (default : HIx 1) 655360
      iprop((dst.view.loc (thr d L) ↦{fullShare} fX)
        ∗ (src.view.loc (thr d L) ↦[(src.slice (Rect.unit (s := S320000x128) off S160x128.size inb) (fun _ => rfl)).view.set]{qs} g))
    ∗ (src.view.loc (thr d L) ↦[Finset.univ \ (src.slice (Rect.unit (s := S320000x128) off S160x128.size inb) (fun _ => rfl)).view.set]{qs} g))

/-! ## The loops' invariants (every buffer at contents not chosen) -/

/-- The staged ids (each below 64) and flags, and the two tables. -/
def Stage (d : Dev nD) (L : grid0.Coords) : sProp 𝕄 :=
  iprop((∃ fB, ⌜IdsOK d L fB⌝ ∗ sB.view.loc (thr d L) ↦{fullShare} fB) ∗ (∃ f, sFl.view.loc (thr d L) ↦{fullShare} f)
    ∗ (∃ f, sN.view.loc (thr d L) ↦{fullShare} f) ∗ (∃ f, sC.view.loc (thr d L) ↦{fullShare} f))

/-- The zeroing loop: the two tables. -/
def invZ (d : Dev nD) (L : grid0.Coords) (_ : Nat) (_ : PUnit) : sProp 𝕄 :=
  iprop((∃ f, sN.view.loc (thr d L) ↦{fullShare} f) ∗ (∃ f, sC.view.loc (thr d L) ↦{fullShare} f))

/-- A group loop over the chunk staged in slots `mP`, `mT`. -/
def invG (d : Dev nD) (L : grid0.Coords) (mP mT : Memref sig .scVector .vmem S160x128 .f32) (_ : Nat) (_ : PUnit) : sProp 𝕄 :=
  iprop((∃ f, mP.view.loc (thr d L) ↦{fullShare} f) ∗ (∃ f, mT.view.loc (thr d L) ↦{fullShare} f) ∗ Stage d L)

/-- An accumulator loop over the chunk staged in slots `mP`, `mT`. -/
def invA (d : Dev nD) (L : grid0.Coords) (mP mT : Memref sig .scVector .vmem S160x128 .f32) (_ : Nat) (_ : Tup (F := F)) : sProp 𝕄 :=
  iprop((∃ f, mP.view.loc (thr d L) ↦{fullShare} f) ∗ (∃ f, mT.view.loc (thr d L) ↦{fullShare} f))

/-- The chunk loop, before pair trip k: chunk 2k outstanding into slot 0 on the slot's two cells, slot 1 free with its cells
    at zero, the arrays' other read tokens whole, and the waits recorded so far. -/
def invP (d : Dev nD) (L : grid0.Coords) (q : PosShare TreeShare) (p : Buf (Elt F) (pLoc d)) (t : Buf (Elt F) (tLoc d))
    (O : CellTallies nD τ sig (HIx 1)) (W : Waits sig (HIx 1)) (_ : Nat) (_ : PUnit) : sProp 𝕄 :=
  iprop(Transfers.MayWaits (thr d L) (none : HIx 1) O
    ∗ InFlight d L (⟨0, by decide⟩ : DmaSem sig) pW sP0 (Transfers.shareTokN q 0) p
    ∗ InFlight d L (⟨2, by decide⟩ : DmaSem sig) tW sT0 (Transfers.shareTokN q 2) t
    ∗ (pW.view.loc (thr d L) ↦{Transfers.shareTokN q 1} p) ∗ (tW.view.loc (thr d L) ↦{Transfers.shareTokN q 3} t)
    ∗ (∃ f, sP1.view.loc (thr d L) ↦{fullShare} f) ∗ (∃ f, sT1.view.loc (thr d L) ↦{fullShare} f)
    ∗ semVal (cellOf d L cc0_scratch9) 0 ∗ semVal (cellOf d L cc0_scratch11) 0
    ∗ Stage d L
    ∗ ∃ W', ⌜∀ x ∈ W', x ∈ W ∨ x.2 = none⌝ ∗ owes (thr d L) O W')

/-! ## Programs that keep two staged chunks -/

/-- The program runs holding the two staged chunks and leaves them as they were. -/
def Keeps (d : Dev nD) (L : grid0.Coords) (mP mT : Memref sig .scVector .vmem S160x128 .f32) {ρ : Type}
    (prog : Prog (TpuEff nD τ sig (Elt F) Λ₀ (.scVector (cV L) (jV L))) ρ) : Prop :=
  ∀ (fP : Buf (Elt F) (mP.view.loc (thr d L))) (fT : Buf (Elt F) (mT.view.loc (thr d L))),
    (iprop((mP.view.loc (thr d L) ↦{fullShare} fP) ∗ (mT.view.loc (thr d L) ↦{fullShare} fT)) : sProp 𝕄)
      ⊢ wp frame (wpE (defs₀ (F := F)) Variants.none (thr d L) none) Set.univ prog
          fun _ => iprop((mP.view.loc (thr d L) ↦{fullShare} fP) ∗ (mT.view.loc (thr d L) ↦{fullShare} fT))

/-- Such a program at the head of another. -/
theorem Keeps.bind {d : Dev nD} {L : grid0.Coords} {mP mT : Memref sig .scVector .vmem S160x128 .f32} {ρ : Type}
    {prog : Prog (TpuEff nD τ sig (Elt F) Λ₀ (.scVector (cV L) (jV L))) ρ} (h : Keeps (UU := UU) d L mP mT prog)
    {fP : Buf (Elt F) (mP.view.loc (thr d L))} {fT : Buf (Elt F) (mT.view.loc (thr d L))} {α : Type}
    (k : ρ → Prog (TpuEff nD τ sig (Elt F) Λ₀ (.scVector (cV L) (jV L))) α) (Q : α → sProp 𝕄) :
    iprop((mP.view.loc (thr d L) ↦{fullShare} fP) ∗ (mT.view.loc (thr d L) ↦{fullShare} fT)
        ∗ (∀ r, (mP.view.loc (thr d L) ↦{fullShare} fP) -∗ (mT.view.loc (thr d L) ↦{fullShare} fT)
            -∗ wp frame (wpE (defs₀ (F := F)) Variants.none (thr d L) none) Set.univ (k r) Q))
      ⊢ wp frame (wpE (defs₀ (F := F)) Variants.none (thr d L) none) Set.univ (prog >>= k) Q := by
  rw [wp_bind]
  iintro ⟨HP, HT, Hk⟩
  iapply (wp_wand_r frame (wpE (defs₀ (F := F)) Variants.none (thr d L) none) Set.univ (Q := fun _ => iprop((mP.view.loc (thr d L) ↦{fullShare} fP) ∗ (mT.view.loc (thr d L) ↦{fullShare} fT))))
  isplitl [HP HT]
  · iapply (h fP fT)
    isplitl [HP] <;> iassumption
  · iintro %r ⟨HP, HT⟩
    iapply Hk $$ %r HP HT

end Cert.Kernel.Tile

end
-- ==== Proof.Bits.TileLoops2.lean ====
/-
  What a tile's run asks of its 24 unrolled compute parts, each named with the kernel's own argument list.
-/
import proofs.«205036_g29618094473603_cont_9to1_1720_19_alg».proof.Proof.Bits.TileLoopsBridge
import Idealize.ShloMosaic.Lib.SparseCore.Ops
import proofs.«205036_g29618094473603_cont_9to1_1720_19_alg».proof.Proof.Bits.TileLoops1

noncomputable section

namespace Cert.Kernel.Tile

open Cert.Kernel
open Facts₀ Facts
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {UU : Type} [URA UU] [CountersIn UU]

local notation "𝕄" => MT nD τ sig (HIx 1) (Elt F) ℕ UU ℕ

/-- What the tile's run needs of the 24 unrolled compute parts: each, given row indices below 160, runs holding the two
    staged chunks it reads and leaves them as they were. -/
structure PartsKeep (d : Dev nD) (L : grid0.Coords) : Prop where
  p1 : ∀ {v4 : IVec S16 32} {v54 : IVec S16 32} {c0_i32_65 : BitVec 32} {c1_i32_66 : BitVec 32} {k0_t4 : Fin k0_t4_loop.trips} {arg23 : FVec F S16 .f32} {arg24 : FVec F S16 .f32} {arg25 : FVec F S16 .f32}, (∀ x : S16.Idx, (v54 x).toNat < 160) →
    Keeps (F := F) (UU := UU) d L sP0 sT0 (k0_part1 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v4 v54 c0_i32_65 c1_i32_66 k0_t4 arg23 arg24 arg25)
  p2 : ∀ {v54 : IVec S16 32} {arg26 : FVec F S16 .f32} {v63 : IVec S16 32} {v74 : FVec F S16 .f32} {v85 : FVec F S16 .f32} {v96 : FVec F S16 .f32} {v102 : IVec S16 32} {k0_hw4 : k0_chk4 v54 v102}, (∀ x : S16.Idx, (v54 x).toNat < 160) →
    Keeps (F := F) (UU := UU) d L sP0 sT0 (k0_part2 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 arg26 v63 v74 v85 v96 v102 k0_hw4)
  p3 : ∀ {v54 : IVec S16 32} {v63 : IVec S16 32} {v107 : FVec F S16 .f32} {v118 : FVec F S16 .f32} {v129 : FVec F S16 .f32} {v140 : FVec F S16 .f32} {v146 : IVec S16 32} {k0_hw8 : k0_chk8 v54 v146}, (∀ x : S16.Idx, (v54 x).toNat < 160) →
    Keeps (F := F) (UU := UU) d L sP0 sT0 (k0_part3 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v107 v118 v129 v140 v146 k0_hw8)
  p4 : ∀ {v54 : IVec S16 32} {v63 : IVec S16 32} {v151 : FVec F S16 .f32} {v162 : FVec F S16 .f32} {v173 : FVec F S16 .f32} {v184 : FVec F S16 .f32} {v190 : IVec S16 32} {k0_hw12 : k0_chk12 v54 v190}, (∀ x : S16.Idx, (v54 x).toNat < 160) →
    Keeps (F := F) (UU := UU) d L sP0 sT0 (k0_part4 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v151 v162 v173 v184 v190 k0_hw12)
  p5 : ∀ {v54 : IVec S16 32} {v63 : IVec S16 32} {v195 : FVec F S16 .f32} {v206 : FVec F S16 .f32} {v217 : FVec F S16 .f32} {v228 : FVec F S16 .f32} {v234 : IVec S16 32} {k0_hw16 : k0_chk16 v54 v234}, (∀ x : S16.Idx, (v54 x).toNat < 160) →
    Keeps (F := F) (UU := UU) d L sP0 sT0 (k0_part5 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v195 v206 v217 v228 v234 k0_hw16)
  p6 : ∀ {v54 : IVec S16 32} {v63 : IVec S16 32} {v239 : FVec F S16 .f32} {v250 : FVec F S16 .f32} {v261 : FVec F S16 .f32} {v272 : FVec F S16 .f32} {v278 : IVec S16 32} {k0_hw20 : k0_chk20 v54 v278}, (∀ x : S16.Idx, (v54 x).toNat < 160) →
    Keeps (F := F) (UU := UU) d L sP0 sT0 (k0_part6 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v239 v250 v261 v272 v278 k0_hw20)
  p7 : ∀ {v54 : IVec S16 32} {v63 : IVec S16 32} {v283 : FVec F S16 .f32} {v294 : FVec F S16 .f32} {v305 : FVec F S16 .f32} {v316 : FVec F S16 .f32} {v322 : IVec S16 32} {k0_hw24 : k0_chk24 v54 v322}, (∀ x : S16.Idx, (v54 x).toNat < 160) →
    Keeps (F := F) (UU := UU) d L sP0 sT0 (k0_part7 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v283 v294 v305 v316 v322 k0_hw24)
  p8 : ∀ {v54 : IVec S16 32} {v63 : IVec S16 32} {v327 : FVec F S16 .f32} {v338 : FVec F S16 .f32} {v349 : FVec F S16 .f32} {v360 : FVec F S16 .f32} {v366 : IVec S16 32} {k0_hw28 : k0_chk28 v54 v366}, (∀ x : S16.Idx, (v54 x).toNat < 160) →
    Keeps (F := F) (UU := UU) d L sP0 sT0 (k0_part8 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v327 v338 v349 v360 v366 k0_hw28)
  p9 : ∀ {v4 : IVec S16 32} {v54 : IVec S16 32} {c0_i32_65 : BitVec 32} {c1_i32_66 : BitVec 32} {k0_t6 : Fin k0_t6_loop.trips} {arg23 : FVec F S16 .f32} {arg24 : FVec F S16 .f32} {arg25 : FVec F S16 .f32}, (∀ x : S16.Idx, (v54 x).toNat < 160) →
    Keeps (F := F) (UU := UU) d L sP1 sT1 (k0_part9 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v4 v54 c0_i32_65 c1_i32_66 k0_t6 arg23 arg24 arg25)
  p10 : ∀ {v54 : IVec S16 32} {arg26 : FVec F S16 .f32} {v63 : IVec S16 32} {v74 : FVec F S16 .f32} {v85 : FVec F S16 .f32} {v96 : FVec F S16 .f32} {v102 : IVec S16 32} {k0_hw37 : k0_chk37 v54 v102}, (∀ x : S16.Idx, (v54 x).toNat < 160) →
    Keeps (F := F) (UU := UU) d L sP1 sT1 (k0_part10 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 arg26 v63 v74 v85 v96 v102 k0_hw37)
  p11 : ∀ {v54 : IVec S16 32} {v63 : IVec S16 32} {v107 : FVec F S16 .f32} {v118 : FVec F S16 .f32} {v129 : FVec F S16 .f32} {v140 : FVec F S16 .f32} {v146 : IVec S16 32} {k0_hw41 : k0_chk41 v54 v146}, (∀ x : S16.Idx, (v54 x).toNat < 160) →
    Keeps (F := F) (UU := UU) d L sP1 sT1 (k0_part11 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v107 v118 v129 v140 v146 k0_hw41)
  p12 : ∀ {v54 : IVec S16 32} {v63 : IVec S16 32} {v151 : FVec F S16 .f32} {v162 : FVec F S16 .f32} {v173 : FVec F S16 .f32} {v184 : FVec F S16 .f32} {v190 : IVec S16 32} {k0_hw45 : k0_chk45 v54 v190}, (∀ x : S16.Idx, (v54 x).toNat < 160) →
    Keeps (F := F) (UU := UU) d L sP1 sT1 (k0_part12 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v151 v162 v173 v184 v190 k0_hw45)
  p13 : ∀ {v54 : IVec S16 32} {v63 : IVec S16 32} {v195 : FVec F S16 .f32} {v206 : FVec F S16 .f32} {v217 : FVec F S16 .f32} {v228 : FVec F S16 .f32} {v234 : IVec S16 32} {k0_hw49 : k0_chk49 v54 v234}, (∀ x : S16.Idx, (v54 x).toNat < 160) →
    Keeps (F := F) (UU := UU) d L sP1 sT1 (k0_part13 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v195 v206 v217 v228 v234 k0_hw49)
  p14 : ∀ {v54 : IVec S16 32} {v63 : IVec S16 32} {v239 : FVec F S16 .f32} {v250 : FVec F S16 .f32} {v261 : FVec F S16 .f32} {v272 : FVec F S16 .f32} {v278 : IVec S16 32} {k0_hw53 : k0_chk53 v54 v278}, (∀ x : S16.Idx, (v54 x).toNat < 160) →
    Keeps (F := F) (UU := UU) d L sP1 sT1 (k0_part14 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v239 v250 v261 v272 v278 k0_hw53)
  p15 : ∀ {v54 : IVec S16 32} {v63 : IVec S16 32} {v283 : FVec F S16 .f32} {v294 : FVec F S16 .f32} {v305 : FVec F S16 .f32} {v316 : FVec F S16 .f32} {v322 : IVec S16 32} {k0_hw57 : k0_chk57 v54 v322}, (∀ x : S16.Idx, (v54 x).toNat < 160) →
    Keeps (F := F) (UU := UU) d L sP1 sT1 (k0_part15 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v283 v294 v305 v316 v322 k0_hw57)
  p16 : ∀ {v54 : IVec S16 32} {v63 : IVec S16 32} {v327 : FVec F S16 .f32} {v338 : FVec F S16 .f32} {v349 : FVec F S16 .f32} {v360 : FVec F S16 .f32} {v366 : IVec S16 32} {k0_hw61 : k0_chk61 v54 v366}, (∀ x : S16.Idx, (v54 x).toNat < 160) →
    Keeps (F := F) (UU := UU) d L sP1 sT1 (k0_part16 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v327 v338 v349 v360 v366 k0_hw61)
  p18 : ∀ {v4 : IVec S16 32} {v27 : IVec S16 32} {c0_i32_26 : BitVec 32} {c1_i32_27 : BitVec 32} {k0_t8 : Fin k0_t8_loop.trips} {arg22 : FVec F S16 .f32} {arg23 : FVec F S16 .f32} {arg24 : FVec F S16 .f32}, (∀ x : S16.Idx, (v27 x).toNat < 160) →
    Keeps (F := F) (UU := UU) d L sP0 sT0 (k0_part18 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v4 v27 c0_i32_26 c1_i32_27 k0_t8 arg22 arg23 arg24)
  p19 : ∀ {v27 : IVec S16 32} {arg25 : FVec F S16 .f32} {v36 : IVec S16 32} {v47 : FVec F S16 .f32} {v58 : FVec F S16 .f32} {v69 : FVec F S16 .f32} {v75 : IVec S16 32} {k0_hw70 : k0_chk70 v27 v75}, (∀ x : S16.Idx, (v27 x).toNat < 160) →
    Keeps (F := F) (UU := UU) d L sP0 sT0 (k0_part19 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 arg25 v36 v47 v58 v69 v75 k0_hw70)
  p20 : ∀ {v27 : IVec S16 32} {v36 : IVec S16 32} {v80 : FVec F S16 .f32} {v91 : FVec F S16 .f32} {v102 : FVec F S16 .f32} {v113 : FVec F S16 .f32} {v119 : IVec S16 32} {k0_hw74 : k0_chk74 v27 v119}, (∀ x : S16.Idx, (v27 x).toNat < 160) →
    Keeps (F := F) (UU := UU) d L sP0 sT0 (k0_part20 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v80 v91 v102 v113 v119 k0_hw74)
  p21 : ∀ {v27 : IVec S16 32} {v36 : IVec S16 32} {v124 : FVec F S16 .f32} {v135 : FVec F S16 .f32} {v146 : FVec F S16 .f32} {v157 : FVec F S16 .f32} {v163 : IVec S16 32} {k0_hw78 : k0_chk78 v27 v163}, (∀ x : S16.Idx, (v27 x).toNat < 160) →
    Keeps (F := F) (UU := UU) d L sP0 sT0 (k0_part21 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v124 v135 v146 v157 v163 k0_hw78)
  p22 : ∀ {v27 : IVec S16 32} {v36 : IVec S16 32} {v168 : FVec F S16 .f32} {v179 : FVec F S16 .f32} {v190 : FVec F S16 .f32} {v201 : FVec F S16 .f32} {v207 : IVec S16 32} {k0_hw82 : k0_chk82 v27 v207}, (∀ x : S16.Idx, (v27 x).toNat < 160) →
    Keeps (F := F) (UU := UU) d L sP0 sT0 (k0_part22 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v168 v179 v190 v201 v207 k0_hw82)
  p23 : ∀ {v27 : IVec S16 32} {v36 : IVec S16 32} {v212 : FVec F S16 .f32} {v223 : FVec F S16 .f32} {v234 : FVec F S16 .f32} {v245 : FVec F S16 .f32} {v251 : IVec S16 32} {k0_hw86 : k0_chk86 v27 v251}, (∀ x : S16.Idx, (v27 x).toNat < 160) →
    Keeps (F := F) (UU := UU) d L sP0 sT0 (k0_part23 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v212 v223 v234 v245 v251 k0_hw86)
  p24 : ∀ {v27 : IVec S16 32} {v36 : IVec S16 32} {v256 : FVec F S16 .f32} {v267 : FVec F S16 .f32} {v278 : FVec F S16 .f32} {v289 : FVec F S16 .f32} {v295 : IVec S16 32} {k0_hw90 : k0_chk90 v27 v295}, (∀ x : S16.Idx, (v27 x).toNat < 160) →
    Keeps (F := F) (UU := UU) d L sP0 sT0 (k0_part24 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v256 v267 v278 v289 v295 k0_hw90)
  p25 : ∀ {v27 : IVec S16 32} {v36 : IVec S16 32} {v300 : FVec F S16 .f32} {v311 : FVec F S16 .f32} {v322 : FVec F S16 .f32} {v333 : FVec F S16 .f32} {v339 : IVec S16 32} {k0_hw94 : k0_chk94 v27 v339}, (∀ x : S16.Idx, (v27 x).toNat < 160) →
    Keeps (F := F) (UU := UU) d L sP0 sT0 (k0_part25 (F := F) L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v300 v311 v322 v333 v339 k0_hw94)

end Cert.Kernel.Tile

end
-- ==== Proof.Bits.TileUpTo.lean ====
/-
  The tile's tables chunk by chunk: what they hold after the first n chunks, and the chunk step's dependence on its inputs.

  The tables are a fold over the 35 chunks in order; here the same fold is read by recursion on the number of chunks
  done, so that a statement about the program after n chunks can name the table it holds: the zero table before any
  chunk, and after chunk n the chunk's ten groups added to what n chunks left. After all 35 this is the tile's table.
  A chunk's step depends only on that chunk's staged buffers and its ten groups' loaded vectors.
-/
import proofs.«205036_g29618094473603_cont_9to1_1720_19_alg».proof.Proof.Bits.TilePure

noncomputable section

namespace Cert.Kernel.TilePure

open Idealize.ShloMosaic Cert.Kernel Cert.Kernel.Facts₀ Cert.Kernel.Facts

/-- The first n of 35 steps, from `z` (all 35 from there on). -/
def upTo {β : Type*} (f : β → Fin 35 → β) (z : β) : ℕ → β
  | 0 => z
  | n + 1 => if h : n < 35 then f (upTo f z n) ⟨n, h⟩ else upTo f z n

theorem upTo_succ {β : Type*} (f : β → Fin 35 → β) (z : β) (n : ℕ) (h : n < 35) :
    upTo f z (n + 1) = f (upTo f z n) ⟨n, h⟩ := by
  rw [upTo, dif_pos h]

/-- All 35 steps: the fold over the 35 in order. -/
theorem upTo_35 {β : Type*} (f : β → Fin 35 → β) (z : β) : upTo f z 35 = (List.finRange 35).foldl f z := by
  rfl

variable {F : FTy → Type} [FloatOps F] [Facts]
variable (hr : ∀ (g : Fin 10) x, (rowsVec g.val x).toNat < 160)
variable (P T : Fin 35 → Vec F S160x128 .f32) (ids : Fin 35 → Fin 10 → IVec S16 32) (hid : ∀ c g, IdsOk (ids c g))
variable (fl : Fin 35 → Fin 10 → FVec F S16 .f32)

/-- The table of masked sums after the first n chunks. -/
def numUpTo : ℕ → Vec F S64x16 .f32 := upTo (fun tb c => chunkNum hr P T ids hid fl c tb) zeroTab

/-- The table of counts after the first n chunks. -/
def cntUpTo : ℕ → Vec F S64x16 .f32 := upTo (fun tb c => chunkCnt ids hid fl c tb) zeroTab

theorem numUpTo_zero : numUpTo hr P T ids hid fl 0 = zeroTab := rfl
theorem numUpTo_succ (n : ℕ) (h : n < 35) :
    numUpTo hr P T ids hid fl (n + 1) = chunkNum hr P T ids hid fl ⟨n, h⟩ (numUpTo hr P T ids hid fl n) :=
  upTo_succ _ _ n h
theorem numUpTo_35 : numUpTo hr P T ids hid fl 35 = tileNum hr P T ids hid fl := upTo_35 _ _

theorem cntUpTo_zero : cntUpTo ids hid fl 0 = zeroTab := rfl
theorem cntUpTo_succ (n : ℕ) (h : n < 35) :
    cntUpTo ids hid fl (n + 1) = chunkCnt ids hid fl ⟨n, h⟩ (cntUpTo ids hid fl n) :=
  upTo_succ _ _ n h
theorem cntUpTo_35 : cntUpTo ids hid fl 35 = tileCnt ids hid fl := upTo_35 _ _

/-- A chunk's ten groups over any buffers and loaded vectors equal to chunk `c`'s are chunk `c`'s step. -/
theorem chunkNum_congr (c : Fin 35) {P' T' : Vec F S160x128 .f32} {ids' : Fin 10 → IVec S16 32}
    {hid' : ∀ g, IdsOk (ids' g)} {fl' : Fin 10 → FVec F S16 .f32} (hP : P' = P c) (hT : T' = T c)
    (hi : ∀ g, ids' g = ids c g) (hf : ∀ g, fl' g = fl c g) (tab : Vec F S64x16 .f32) :
    (List.finRange 10).foldl (fun tb g => groupNum P' T' g (hr g) (ids' g) (hid' g) (fl' g) tb) tab
      = chunkNum hr P T ids hid fl c tab := by
  subst hP hT
  obtain rfl : ids' = ids c := funext hi
  obtain rfl : fl' = fl c := funext hf
  rfl

theorem chunkCnt_congr (c : Fin 35) {ids' : Fin 10 → IVec S16 32} {hid' : ∀ g, IdsOk (ids' g)}
    {fl' : Fin 10 → FVec F S16 .f32} (hi : ∀ g, ids' g = ids c g) (hf : ∀ g, fl' g = fl c g) (tab : Vec F S64x16 .f32) :
    (List.finRange 10).foldl (fun tb g => groupCnt (ids' g) (hid' g) (fl' g) tb) tab = chunkCnt ids hid fl c tab := by
  obtain rfl : ids' = ids c := funext hi
  obtain rfl : fl' = fl c := funext hf
  rfl

end Cert.Kernel.TilePure

end
-- ==== Proof.Bits.TileLoops3.lean ====
/-
  The chunk loop's invariant with every content named: the chunk in flight lands as the read of its rows, the staged
  ids and flags stay what the tile's two synchronous copies left, and the two tables are the tables after the chunks
  summed so far.
-/
import proofs.«205036_g29618094473603_cont_9to1_1720_19_alg».proof.Proof.Bits.TileLoopsBridge
import Idealize.ShloMosaic.Lib.SparseCore.Ops
import proofs.«205036_g29618094473603_cont_9to1_1720_19_alg».proof.Proof.Bits.TileLoops2
import proofs.«205036_g29618094473603_cont_9to1_1720_19_alg».proof.Proof.Bits.TileVal
import proofs.«205036_g29618094473603_cont_9to1_1720_19_alg».proof.Proof.Bits.TileUpTo

noncomputable section

namespace Cert.Kernel.Tile

open Cert.Kernel
open Facts₀ Facts
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {UU : Type} [URA UU] [CountersIn UU]

local notation "𝕄" => MT nD τ sig (HIx 1) (Elt F) ℕ UU ℕ

/-! ## The printed offsets are the chunks' -/

omit [FloatOps F] [CountersIn UU] [URA UU] in
theorem off3_eq (L : grid0.Coords) : k0_off3 L = chunkOff L 0 := by
  rw [Gen.k0_off3_eq]; rfl
omit [FloatOps F] [CountersIn UU] [URA UU] in
theorem off4_eq (L : grid0.Coords) (k : Fin k0_t2_loop.trips) : k0_off4 L k = chunkOff L (2 * k.val + 1) := by
  rw [Gen.k0_off4_eq]; unfold chunkOff
  congr 1
  omega
omit [FloatOps F] [CountersIn UU] [URA UU] in
theorem off6_eq (L : grid0.Coords) (k : Fin k0_t2_loop.trips) : k0_off6 L k = chunkOff L (2 * k.val + 2) := by
  rw [Gen.k0_off6_eq]; unfold chunkOff
  congr 1
  omega

omit [FloatOps F] [CountersIn UU] [URA UU] in
theorem off5_eq (k : Fin k0_t2_loop.trips) (g : Fin k0_t3_loop.trips) : k0_off5 k g = grpOff (2 * k.val) g.val := by
  rw [Gen.k0_off5_eq]; unfold grpOff
  congr 1
  omega
omit [FloatOps F] [CountersIn UU] [URA UU] in
theorem off7_eq (k : Fin k0_t2_loop.trips) (g : Fin k0_t5_loop.trips) : k0_off7 k g = grpOff (2 * k.val + 1) g.val := by
  rw [Gen.k0_off7_eq]; unfold grpOff
  congr 1
  omega
omit [FloatOps F] [CountersIn UU] [URA UU] in
theorem off8_eq (g : Fin k0_t7_loop.trips) : k0_off8 g = grpOff 34 g.val := by
  rw [Gen.k0_off8_eq]; unfold grpOff
  congr 1
  omega

/-! ## What a copy delivers is the chunk -/

omit [FloatOps F] [CountersIn UU] [URA UU] in
/-- The read of pred through a slice at chunk `c`'s offsets is what the slot stages for chunk `c`. -/
theorem stP_of_off (L : grid0.Coords) (p : Vec F S320000x128 .f32) (c : Fin 35) {off : Fin 2 → ℕ}
    (inb : ∀ a, off a + S160x128.size a ≤ S320000x128.size a) (h : off = chunkOff L c.val) :
    View.read (Elt F) (pW.slice (Rect.unit (s := S320000x128) off S160x128.size inb) (fun _ => rfl)).view p = stP L p c := by
  subst h; rfl
omit [FloatOps F] [CountersIn UU] [URA UU] in
theorem stT_of_off (L : grid0.Coords) (t : Vec F S320000x128 .f32) (c : Fin 35) {off : Fin 2 → ℕ}
    (inb : ∀ a, off a + S160x128.size a ≤ S320000x128.size a) (h : off = chunkOff L c.val) :
    View.read (Elt F) (tW.slice (Rect.unit (s := S320000x128) off S160x128.size inb) (fun _ => rfl)).view t = stT L t c := by
  subst h; rfl

/-! ## The tables after n chunks -/

/-- The table of masked sums after the tile's first n chunks. -/
def numAt (L : grid0.Coords) (p t : Vec F S320000x128 .f32) (b : Vec F S320000 .i32)
    (hb : ∀ i : S320000.Idx, ((b : S320000.Idx → BitVec 32) i).toNat < 64) (fl : Vec F S320000 .f32) (n : ℕ) : Vec F S64x16 .f32 :=
  TilePure.numUpTo (fun g => TilePure.rowsVec_lt g) (stP L p) (stT L t) (ids F L b)
    (fun k g => TilePure.idsOk_of_lt _ (ids_lt L hb k g)) (fls L fl) n
/-- The table of counts after the tile's first n chunks. -/
def cntAt (L : grid0.Coords) (b : Vec F S320000 .i32)
    (hb : ∀ i : S320000.Idx, ((b : S320000.Idx → BitVec 32) i).toNat < 64) (fl : Vec F S320000 .f32) (n : ℕ) : Vec F S64x16 .f32 :=
  TilePure.cntUpTo (ids F L b) (fun k g => TilePure.idsOk_of_lt _ (ids_lt L hb k g)) (fls L fl) n

omit [CountersIn UU] [URA UU] in
theorem numAt_35 (L : grid0.Coords) (p t : Vec F S320000x128 .f32) (b : Vec F S320000 .i32)
    (hb : ∀ i : S320000.Idx, ((b : S320000.Idx → BitVec 32) i).toNat < 64) (fl : Vec F S320000 .f32) :
    numAt L p t b hb fl 35 = tabN L p t b hb fl := TilePure.numUpTo_35 ..
omit [CountersIn UU] [URA UU] in
theorem cntAt_35 (L : grid0.Coords) (b : Vec F S320000 .i32)
    (hb : ∀ i : S320000.Idx, ((b : S320000.Idx → BitVec 32) i).toNat < 64) (fl : Vec F S320000 .f32) :
    cntAt L b hb fl 35 = tabC L b hb fl := TilePure.cntUpTo_35 ..

omit [CountersIn UU] [URA UU] in
/-- One more chunk: the group fold over what the slots and the staged rows hold is the next table. -/
theorem numAt_succ (L : grid0.Coords) (p t : Vec F S320000x128 .f32) (b : Vec F S320000 .i32)
    (hb : ∀ i : S320000.Idx, ((b : S320000.Idx → BitVec 32) i).toNat < 64) (fl : Vec F S320000 .f32) (c : Fin 35)
    {P' T' : Vec F S160x128 .f32} {ids' : Fin 10 → IVec S16 32} {hid' : ∀ g, TilePure.IdsOk (ids' g)} {fl' : Fin 10 → FVec F S16 .f32}
    (hP : P' = stP L p c) (hT : T' = stT L t c) (hi : ∀ g, ids' g = ids F L b c g) (hf : ∀ g, fl' g = fls L fl c g) :
    (List.finRange 10).foldl (fun tb g => TilePure.groupNum P' T' g (TilePure.rowsVec_lt g) (ids' g) (hid' g) (fl' g) tb) (numAt L p t b hb fl c.val)
      = numAt L p t b hb fl (c.val + 1) := by
  unfold numAt
  rw [TilePure.numUpTo_succ _ _ _ _ _ _ c.val c.isLt]
  exact TilePure.chunkNum_congr _ _ _ _ _ _ c hP hT hi hf _
omit [CountersIn UU] [URA UU] in
theorem cntAt_succ (L : grid0.Coords) (b : Vec F S320000 .i32)
    (hb : ∀ i : S320000.Idx, ((b : S320000.Idx → BitVec 32) i).toNat < 64) (fl : Vec F S320000 .f32) (c : Fin 35)
    {ids' : Fin 10 → IVec S16 32} {hid' : ∀ g, TilePure.IdsOk (ids' g)} {fl' : Fin 10 → FVec F S16 .f32}
    (hi : ∀ g, ids' g = ids F L b c g) (hf : ∀ g, fl' g = fls L fl c g) :
    (List.finRange 10).foldl (fun tb g => TilePure.groupCnt (ids' g) (hid' g) (fl' g) tb) (cntAt L b hb fl c.val)
      = cntAt L b hb fl (c.val + 1) := by
  unfold cntAt
  rw [TilePure.cntUpTo_succ _ _ _ c.val c.isLt]
  exact TilePure.chunkCnt_congr _ _ _ c hi hf _

/-! ## The invariants, contents named -/

/-- A chunk copy outstanding on cell `sm`, delivering the slot at `st`. -/
def InFlightV (d : Dev nD) (L : grid0.Coords) (sm : DmaSem sig) (src : Memref sig .scVector .hbm S320000x128 .f32)
    (dst : Memref sig .scVector .vmem S160x128 .f32) (qs : PosShare TreeShare) (g : Buf (Elt F) (src.view.loc (thr d L)))
    (st : Buf (Elt F) (dst.view.loc (thr d L))) : sProp 𝕄 :=
  iprop(∃ (off : Fin 2 → Nat) (inb : ∀ a, off a + S160x128.size a ≤ S320000x128.size a) (fX : Buf (Elt F) (dst.view.loc (thr d L))),
    ⌜fX = st⌝ ∗
    Transfers.Flight (countersEmb (U := UU)) (thr d L) (SemLoc.dma sm) (default : HIx 1) 655360
      iprop((dst.view.loc (thr d L) ↦{fullShare} fX)
        ∗ (src.view.loc (thr d L) ↦[(src.slice (Rect.unit (s := S320000x128) off S160x128.size inb) (fun _ => rfl)).view.set]{qs} g))
    ∗ (src.view.loc (thr d L) ↦[Finset.univ \ (src.slice (Rect.unit (s := S320000x128) off S160x128.size inb) (fun _ => rfl)).view.set]{qs} g))

/-- The chunk loop before pair trip k, contents named: chunk 2k in flight into slot 0, the tables after 2k chunks. -/
def invPV (d : Dev nD) (L : grid0.Coords) (q : PosShare TreeShare) (p : Buf (Elt F) (pLoc d)) (t : Buf (Elt F) (tLoc d))
    (O : CellTallies nD τ sig (HIx 1)) (W : Waits sig (HIx 1))
    (fB : Buf (Elt F) (sB.view.loc (thr d L))) (fFl : Buf (Elt F) (sFl.view.loc (thr d L)))
    (Ntab Ctab : ℕ → Vec F S64x16 .f32) (k : Nat) (_ : PUnit) : sProp 𝕄 :=
  iprop(Transfers.MayWaits (thr d L) (none : HIx 1) O
    ∗ (∃ c : Fin 35, ⌜c.val = 2 * k⌝
        ∗ InFlightV d L (⟨0, by decide⟩ : DmaSem sig) pW sP0 (Transfers.shareTokN q 0) p (stP L p c)
        ∗ InFlightV d L (⟨2, by decide⟩ : DmaSem sig) tW sT0 (Transfers.shareTokN q 2) t (stT L t c))
    ∗ (pW.view.loc (thr d L) ↦{Transfers.shareTokN q 1} p) ∗ (tW.view.loc (thr d L) ↦{Transfers.shareTokN q 3} t)
    ∗ (∃ f, sP1.view.loc (thr d L) ↦{fullShare} f) ∗ (∃ f, sT1.view.loc (thr d L) ↦{fullShare} f)
    ∗ semVal (cellOf d L cc0_scratch9) 0 ∗ semVal (cellOf d L cc0_scratch11) 0
    ∗ (sB.view.loc (thr d L) ↦{fullShare} fB) ∗ (sFl.view.loc (thr d L) ↦{fullShare} fFl)
    ∗ (sN.view.loc (thr d L) ↦{fullShare} Ntab (2 * k)) ∗ (sC.view.loc (thr d L) ↦{fullShare} Ctab (2 * k))
    ∗ ∃ W', ⌜∀ x ∈ W', x ∈ W ∨ x.2 = none⌝ ∗ owes (thr d L) O W')

/-- The zeroing loop, contents named: the rows below k of both tables are zero. -/
def invZV (d : Dev nD) (L : grid0.Coords) (k : Nat) (_ : PUnit) : sProp 𝕄 :=
  iprop((∃ f : Buf (Elt F) (sN.view.loc (thr d L)), ⌜∀ (s : Fin 64) (l : Fin 16), s.val < k → (f : Vec F S64x16 .f32) (ix2 s l) = TilePure.zeroTab (ix2 s l)⌝ ∗ sN.view.loc (thr d L) ↦{fullShare} f)
    ∗ (∃ f : Buf (Elt F) (sC.view.loc (thr d L)), ⌜∀ (s : Fin 64) (l : Fin 16), s.val < k → (f : Vec F S64x16 .f32) (ix2 s l) = TilePure.zeroTab (ix2 s l)⌝ ∗ sC.view.loc (thr d L) ↦{fullShare} f))

omit [FloatOps F] [CountersIn UU] [URA UU] in
theorem waits_insert {W W' : Waits sig (HIx 1)} (h : ∀ x ∈ W', x ∈ W ∨ x.2 = none) (s : SemLoc sig) :
    ∀ x ∈ insert (s, (default : HIx 1)) W', x ∈ W ∨ x.2 = none := by
  intro x hx
  rcases Finset.mem_insert.mp hx with e | e
  · exact .inr (e ▸ rfl)
  · exact h x e

omit [FloatOps F] [CountersIn UU] in
theorem pts_sP0 (d : Dev nD) (L : grid0.Coords) (f : Buf (Elt F) ((thr d L).loc cc0_scratch0)) :
    ((sP0).view.loc (thr d L) ↦{fullShare} f : sProp 𝕄) = (thr d L).loc cc0_scratch0 ↦{fullShare} f := rfl
omit [FloatOps F] [CountersIn UU] in
theorem pts_sP1 (d : Dev nD) (L : grid0.Coords) (f : Buf (Elt F) ((thr d L).loc cc0_scratch1)) :
    ((sP1).view.loc (thr d L) ↦{fullShare} f : sProp 𝕄) = (thr d L).loc cc0_scratch1 ↦{fullShare} f := rfl
omit [FloatOps F] [CountersIn UU] in
theorem pts_sT0 (d : Dev nD) (L : grid0.Coords) (f : Buf (Elt F) ((thr d L).loc cc0_scratch2)) :
    ((sT0).view.loc (thr d L) ↦{fullShare} f : sProp 𝕄) = (thr d L).loc cc0_scratch2 ↦{fullShare} f := rfl
omit [FloatOps F] [CountersIn UU] in
theorem pts_sT1 (d : Dev nD) (L : grid0.Coords) (f : Buf (Elt F) ((thr d L).loc cc0_scratch3)) :
    ((sT1).view.loc (thr d L) ↦{fullShare} f : sProp 𝕄) = (thr d L).loc cc0_scratch3 ↦{fullShare} f := rfl
omit [FloatOps F] [CountersIn UU] in
theorem pts_sB (d : Dev nD) (L : grid0.Coords) (f : Buf (Elt F) ((thr d L).loc cc0_scratch4)) :
    ((sB).view.loc (thr d L) ↦{fullShare} f : sProp 𝕄) = (thr d L).loc cc0_scratch4 ↦{fullShare} f := rfl
omit [FloatOps F] [CountersIn UU] in
theorem pts_sFl (d : Dev nD) (L : grid0.Coords) (f : Buf (Elt F) ((thr d L).loc cc0_scratch5)) :
    ((sFl).view.loc (thr d L) ↦{fullShare} f : sProp 𝕄) = (thr d L).loc cc0_scratch5 ↦{fullShare} f := rfl
omit [FloatOps F] [CountersIn UU] in
theorem pts_sN (d : Dev nD) (L : grid0.Coords) (f : Buf (Elt F) ((thr d L).loc cc0_scratch6)) :
    ((sN).view.loc (thr d L) ↦{fullShare} f : sProp 𝕄) = (thr d L).loc cc0_scratch6 ↦{fullShare} f := rfl
omit [FloatOps F] [CountersIn UU] in
theorem pts_sC (d : Dev nD) (L : grid0.Coords) (f : Buf (Elt F) ((thr d L).loc cc0_scratch7)) :
    ((sC).view.loc (thr d L) ↦{fullShare} f : sProp 𝕄) = (thr d L).loc cc0_scratch7 ↦{fullShare} f := rfl

/-! ## The arrays' read tokens, one per staging cell -/

/-- What is kept aside of pred's share while the two slots' tokens are out. -/
def PAside (d : Dev nD) (L : grid0.Coords) (q : PosShare TreeShare) (p : Buf (Elt F) (pLoc d)) : sProp 𝕄 :=
  iprop(pW.view.loc (thr d L) ↦{Transfers.shareDrop q 2} p)
/-- What is kept aside of tgt's share. -/
def TAside (d : Dev nD) (L : grid0.Coords) (q : PosShare TreeShare) (t : Buf (Elt F) (tLoc d)) : sProp 𝕄 :=
  iprop((tW.view.loc (thr d L) ↦{Transfers.shareDrop q 4} t) ∗ (tW.view.loc (thr d L) ↦{Transfers.shareTokN q 0} t)
    ∗ (tW.view.loc (thr d L) ↦{Transfers.shareTokN q 1} t))

omit [FloatOps F] [CountersIn UU] in
theorem tok_split0 {ℓ : Loc nD τ sig} {S : Finset (Idx ℓ)} (f : Buf (Elt F) ℓ) (q : PosShare TreeShare) :
    (ℓ ↦[S]{q} f : sProp 𝕄) ⊣⊢ iprop((ℓ ↦[S]{Transfers.shareDrop q 1} f) ∗ ℓ ↦[S]{Transfers.shareTokN q 0} f) :=
  tok_split f q 0

omit [FloatOps F] [CountersIn UU] in
theorem p_toks (d : Dev nD) (L : grid0.Coords) (q : PosShare TreeShare) (p : Buf (Elt F) (pLoc d)) :
    (pW.view.loc (thr d L) ↦{q} p : sProp 𝕄)
      ⊣⊢ iprop(PAside d L q p ∗ (pW.view.loc (thr d L) ↦{Transfers.shareTokN q 0} p) ∗ (pW.view.loc (thr d L) ↦{Transfers.shareTokN q 1} p)) := by
  unfold PAside
  constructor
  · iintro H
    ihave H := (tok_split0 (F := F) (UU := UU) p q).1 $$ H
    icases H with ⟨H1, T0⟩
    ihave H1 := (tok_split (F := F) (UU := UU) p q 1).1 $$ H1
    icases H1 with ⟨H2, T1⟩
    isplitl [H2]; · iexact H2
    isplitl [T0]; · iexact T0
    iexact T1
  · iintro ⟨H2, T0, T1⟩
    iapply (tok_split0 (F := F) (UU := UU) p q).2
    isplitl [H2 T1]
    · iapply (tok_split (F := F) (UU := UU) p q 1).2
      isplitl [H2]; · iexact H2
      iexact T1
    · iexact T0

omit [FloatOps F] [CountersIn UU] in
theorem t_toks (d : Dev nD) (L : grid0.Coords) (q : PosShare TreeShare) (t : Buf (Elt F) (tLoc d)) :
    (tW.view.loc (thr d L) ↦{q} t : sProp 𝕄)
      ⊣⊢ iprop(TAside d L q t ∗ (tW.view.loc (thr d L) ↦{Transfers.shareTokN q 2} t) ∗ (tW.view.loc (thr d L) ↦{Transfers.shareTokN q 3} t)) := by
  unfold TAside
  constructor
  · iintro H
    ihave H := (tok_split0 (F := F) (UU := UU) t q).1 $$ H
    icases H with ⟨H1, T0⟩
    ihave H1 := (tok_split (F := F) (UU := UU) t q 1).1 $$ H1
    icases H1 with ⟨H2, T1⟩
    ihave H2 := (tok_split (F := F) (UU := UU) t q 2).1 $$ H2
    icases H2 with ⟨H3, T2⟩
    ihave H3 := (tok_split (F := F) (UU := UU) t q 3).1 $$ H3
    icases H3 with ⟨H4, T3⟩
    isplitl [H4 T0 T1]
    · isplitl [H4]; · iexact H4
      isplitl [T0]; · iexact T0
      iexact T1
    isplitl [T2]; · iexact T2
    iexact T3
  · iintro ⟨⟨H4, T0, T1⟩, T2, T3⟩
    iapply (tok_split0 (F := F) (UU := UU) t q).2
    isplitl [H4 T1 T2 T3]
    · iapply (tok_split (F := F) (UU := UU) t q 1).2
      isplitl [H4 T2 T3]
      · iapply (tok_split (F := F) (UU := UU) t q 2).2
        isplitl [H4 T3]
        · iapply (tok_split (F := F) (UU := UU) t q 3).2
          isplitl [H4]; · iexact H4
          iexact T3
        · iexact T2
      · iexact T1
    · iexact T0

end Cert.Kernel.Tile

end
-- ==== Proof.Bits.TileLoops4.lean ====
/-
  Small equations the tile's run uses where it meets a group loop: a points-to at equal contents, and the loads of a
  group's ids and flags through the printed offsets as the chunk's.
-/
import proofs.«205036_g29618094473603_cont_9to1_1720_19_alg».proof.Proof.Bits.TileLoopsBridge
import Idealize.ShloMosaic.Lib.SparseCore.Ops
import proofs.«205036_g29618094473603_cont_9to1_1720_19_alg».proof.Proof.Bits.TileLoops3

noncomputable section

namespace Cert.Kernel.Tile

open Cert.Kernel
open Facts₀ Facts
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {UU : Type} [URA UU] [CountersIn UU]

local notation "𝕄" => MT nD τ sig (HIx 1) (Elt F) ℕ UU ℕ

omit [FloatOps F] [CountersIn UU] in
theorem pts_eq {ℓ : Loc nD τ sig} {S : Finset (Idx ℓ)} {q' : PosShare TreeShare} {f g : Buf (Elt F) ℓ} (h : f = g) :
    (ℓ ↦[S]{q'} f : sProp 𝕄) ⊢ ℓ ↦[S]{q'} g := Entails.of_eq (by rw [h])

omit [FloatOps F] [CountersIn UU] [URA UU] in
/-- The load of 16 staged ids at group `g` of chunk `c`'s offset is the group's id vector. -/
theorem ids_of_off (L : grid0.Coords) (b : Vec F S320000 .i32) (c : Fin 35) (g : Fin 10) {off : Fin 1 → ℕ}
    (inb : ∀ a, off a + S16.size a ≤ S5600.size a) (h : off = grpOff c.val g.val) :
    sB.view.readAt (Elt F) (Rect.unit (s := S5600) off S16.size inb).toLoadRect (sIds F L b) = ids F L b c g := by
  subst h; rfl
omit [FloatOps F] [CountersIn UU] [URA UU] in
theorem fls_of_off (L : grid0.Coords) (fl : Vec F S320000 .f32) (c : Fin 35) (g : Fin 10) {off : Fin 1 → ℕ}
    (inb : ∀ a, off a + S16.size a ≤ S5600.size a) (h : off = grpOff c.val g.val) :
    sFl.view.readAt (Elt F) (Rect.unit (s := S5600) off S16.size inb).toLoadRect (sFls L fl) = fls L fl c g := by
  subst h; rfl

omit [FloatOps F] [CountersIn UU] [URA UU] in
/-- The staged ids are each below 64. -/
theorem sIds_lt (L : grid0.Coords) {b : Vec F S320000 .i32} (hb : ∀ i : S320000.Idx, ((b : S320000.Idx → BitVec 32) i).toNat < 64) :
    ∀ i : S5600.Idx, ((sIds F L b : S5600.Idx → BitVec 32) i).toNat < 64 := by
  intro i
  unfold sIds
  simp only [View.read_apply, cast_eq]
  exact hb _

end Cert.Kernel.Tile

end
-- ==== Proof.Bits.TileEnds.lean ====
/-
  The two ends of a tile's run, with their values: the tables start as zero, and what the tile copies out is what
  its block of each output array then holds.

  The write-out slice of an output array is block w of the 32 x 64 x 16 array seen as a 64 x 16 table: entry (s, l) of
  the table sits at (w, s, l) of the array. A copy of a table through it therefore leaves the array holding the table
  on that block.
-/
import proofs.«205036_g29618094473603_cont_9to1_1720_19_alg».proof.Proof.Bits.TileLoopsBridge
import proofs.«205036_g29618094473603_cont_9to1_1720_19_alg».proof.Proof.Bits.TileRes
import proofs.«205036_g29618094473603_cont_9to1_1720_19_alg».proof.Proof.Bits.TilePure
import Idealize.ShloMosaic.Lib.Writes
import Idealize.ShloMosaic.Lib.Pipeline.Value
import Idealize.ShloMosaic.Lib.Tactic

noncomputable section

namespace Cert.Kernel.Tile

open Cert.Kernel
open Facts₀ Facts
open Idealize.ShloMosaic Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] {UU : Type} [URA UU] [CountersIn UU]

local notation "𝕄" => MT nD τ sig (HIx 1) (Elt F) ℕ UU ℕ

/-! ## The copy-outs -/

omit [FloatOps F] [URA UU] [CountersIn UU] in
/-- Entry (s, l) of a 64 x 16 table is entry (0, s, l) of the same table seen as 1 x 64 x 16. -/
theorem squeeze_ix (s : Fin 64) (l : Fin 16) (hn : S64x16.numel = S1x64x16.numel) :
    Shape.reshapeEquiv (s := S1x64x16) (s' := S64x16) hn (ix2 s l) = ix3 (0 : Fin 1) s l :=
  Shape.reshapeEquiv_eq_of_rowMajor hn (by
    rw [Shape.rowMajor_val_three, Shape.rowMajor_val_two]
    show (0 * 64 + s.val) * 16 + l.val = s.val * 16 + l.val
    omega)

omit [FloatOps F] [URA UU] [CountersIn UU] in
/-- Where the write-out slice of the first output puts entry (s, l). -/
theorem emb_nOut (L : grid0.Coords) (s : Fin 64) (l : Fin 16) : (nOut L).view.emb (ix2 s l) = ix3 (wL L) s l := by
  show (blkK L).emb (Shape.reshapeEquiv (s := S1x64x16) (s' := S64x16) _ (ix2 s l)) = _
  rw [squeeze_ix]
  funext a
  apply Fin.ext
  rw [Rect.emb_apply]
  show k0_off9 L a + 1 * (ix3 (0 : Fin 1) s l a).val = (ix3 (wL L) s l a).val
  rw [Gen.k0_off9_eq]
  fin_cases a
  · show 16 * (L 0).val + (L 1).val + 1 * 0 = 16 * (L 0).val + (L 1).val
    omega
  · show 0 + 1 * s.val = s.val
    omega
  · show 0 + 1 * l.val = l.val
    omega

omit [FloatOps F] [URA UU] [CountersIn UU] in
/-- The same for the second output. -/
theorem emb_cOut (L : grid0.Coords) (s : Fin 64) (l : Fin 16) : (cOut L).view.emb (ix2 s l) = ix3 (wL L) s l := by
  show (blkK L).emb (Shape.reshapeEquiv (s := S1x64x16) (s' := S64x16) _ (ix2 s l)) = _
  rw [squeeze_ix]
  funext a
  apply Fin.ext
  rw [Rect.emb_apply]
  show k0_off9 L a + 1 * (ix3 (0 : Fin 1) s l a).val = (ix3 (wL L) s l a).val
  rw [Gen.k0_off9_eq]
  fin_cases a
  · show 16 * (L 0).val + (L 1).val + 1 * 0 = 16 * (L 0).val + (L 1).val
    omega
  · show 0 + 1 * s.val = s.val
    omega
  · show 0 + 1 * l.val = l.val
    omega

omit [FloatOps F] [URA UU] [CountersIn UU] in
/-- After table `N` is copied whole through the write-out slice, the first output holds `N` on the tile's block. -/
theorem out_holdsN (L : grid0.Coords) (fn : Vec F S32x64x16 .f32) (N : Vec F S64x16 .f32) :
    HoldsOn (wL L) N ((nOut L).view.writes (Elt F) fn [⟨Rect.whole S64x16, N⟩]) := by
  intro s l
  have h := View.read_writes_cons_emb (v := (nOut L).view) (f := fn) (Val := Elt F) (Rect.whole S64x16) N [] (ix2 s l)
  rw [View.read_apply, Rect.emb_whole_apply, emb_nOut] at h
  exact h

omit [FloatOps F] [URA UU] [CountersIn UU] in
/-- The same for the second output and table `C`. -/
theorem out_holdsC (L : grid0.Coords) (fc : Vec F S32x64x16 .f32) (C : Vec F S64x16 .f32) :
    HoldsOn (wL L) C ((cOut L).view.writes (Elt F) fc [⟨Rect.whole S64x16, C⟩]) := by
  intro s l
  have h := View.read_writes_cons_emb (v := (cOut L).view) (f := fc) (Val := Elt F) (Rect.whole S64x16) C [] (ix2 s l)
  rw [View.read_apply, Rect.emb_whole_apply, emb_cOut] at h
  exact h

/-! ## The zeroing loop -/

omit [URA UU] [CountersIn UU] in
/-- One trip's store of the zero row: if rows below `k` read zero, rows below `k + 1` do afterwards. -/
theorem zero_row_step (v : View sig .scVector .vmem S64x16 .f32) (g : v.ty.Contents (Elt F)) (k : Fin k0_t1_loop.trips)
    (v5 : FVec F S16 .f32) (hv5 : v5 = TilePure.zero16) (inb : ∀ a, (k0_off2 k) a + S1x16.size a ≤ S64x16.size a) (hsc : S16.ShapeCasts S1x16)
    (h : ∀ (s : Fin 64) (l : Fin 16), s.val < k.val → v.read (Elt F) g (ix2 s l) = (Scalar.ofBits .f32 0x00000000#32 : F .f32))
    (s : Fin 64) (l : Fin 16) (hs : s.val < k.val + 1) :
    v.read (Elt F) (v.writes (Elt F) g [⟨Rect.unit (s := S64x16) (k0_off2 k) S1x16.size inb, shapeCast S1x16 v5 hsc⟩]) (ix2 s l)
      = (Scalar.ofBits .f32 0x00000000#32 : F .f32) := by
  by_cases e : s.val = k.val
  · have he : (ix2 s l : S64x16.Idx) = (Rect.unit (s := S64x16) (k0_off2 k) S1x16.size inb).emb (ix2 (0 : Fin 1) l) := by
      funext a
      apply Fin.ext
      rw [Rect.emb_apply]
      show (ix2 s l a).val = k0_off2 k a + 1 * (ix2 (0 : Fin 1) l a).val
      rw [Gen.k0_off2_eq]
      fin_cases a
      · show s.val = k.val + 1 * 0
        omega
      · show l.val = 0 + 1 * l.val
        omega
    rw [he, View.read_writes_cons_emb]
    rw [shapeCast_apply v5 hsc (ix2 (0 : Fin 1) l) (ix1 l) (by
      rw [Shape.rowMajor_val_one, Shape.rowMajor_val_two]
      show l.val = 0 * 16 + l.val
      omega), hv5]
    rfl
  · rw [View.read_writes_apply_of_forall_not_mem]
    · exact h s l (by omega)
    · intro p hp
      rw [List.mem_singleton] at hp
      subst hp
      rw [Rect.mem_set_unit]
      intro hh
      have h0 := hh 0
      rw [Gen.k0_off2_eq] at h0
      have h1 : k.val ≤ s.val ∧ s.val < k.val + 1 := h0
      omega

/-- The zeroing loop's invariant: rows below `k` of both tables are zero. -/
def zeroInv (d : Dev nD) (L : grid0.Coords) (k : Nat) (_ : PUnit) : sProp 𝕄 :=
  iprop((∃ f : Buf (Elt F) (sN.view.loc (thr d L)), ⌜∀ (s : Fin 64) (l : Fin 16), s.val < k → (f : Vec F S64x16 .f32) (ix2 s l) = (Scalar.ofBits .f32 0x00000000#32 : F .f32)⌝ ∗ sN.view.loc (thr d L) ↦{fullShare} f)
    ∗ (∃ f : Buf (Elt F) (sC.view.loc (thr d L)), ⌜∀ (s : Fin 64) (l : Fin 16), s.val < k → (f : Vec F S64x16 .f32) (ix2 s l) = (Scalar.ofBits .f32 0x00000000#32 : F .f32)⌝ ∗ sC.view.loc (thr d L) ↦{fullShare} f))

omit [FloatOps F] [URA UU] [CountersIn UU] in
theorem trips_t1 : k0_t1_loop.trips = 64 := by decide

omit [URA UU] [CountersIn UU] in
/-- A table whose 64 rows are zero is the zero table. -/
theorem eq_zeroTab (f : Vec F S64x16 .f32)
    (h : ∀ (s : Fin 64) (l : Fin 16), s.val < 64 → f (ix2 s l) = (Scalar.ofBits .f32 0x00000000#32 : F .f32)) : f = TilePure.zeroTab := by
  funext i
  rw [eq_ix2 i]
  exact h _ _ (i 0).isLt

set_option maxHeartbeats 1600000 in
/-- THE ZEROING LOOP: from the two tables at any contents, 64 trips leave both at the zero table. -/
theorem wp_zeroLoop (d : Dev nD) (L : grid0.Coords) (v5 : FVec F S16 .f32) (hv5 : v5 = TilePure.zero16)
    {fN : Buf (Elt F) (sN.view.loc (thr d L))} {fC : Buf (Elt F) (sC.view.loc (thr d L))} {α : Type}
    (kk : PUnit → Prog (TpuEff nD τ sig (Elt F) Λ₀ (.scVector (cV L) (jV L))) α) (Q : α → sProp 𝕄) :
    iprop((sN.view.loc (thr d L) ↦{fullShare} fN) ∗ (sC.view.loc (thr d L) ↦{fullShare} fC)
        ∗ ((sN.view.loc (thr d L) ↦{fullShare} (TilePure.zeroTab : Vec F S64x16 .f32)) -∗ (sC.view.loc (thr d L) ↦{fullShare} (TilePure.zeroTab : Vec F S64x16 .f32))
            -∗ wp frame (wpE (defs₀ (F := F)) Variants.none (thr d L) none) Set.univ (kk ⟨⟩) Q))
      ⊢ wp frame (wpE (defs₀ (F := F)) Variants.none (thr d L) none) Set.univ
          ((Scf.Loop.for k0_t1_loop k0_t1_ok ⟨⟩ fun k0_t1 _ => do
        let arg20 : BitVec 32 := Scf.iv 0#32 1#32 k0_t1
        let v18 : Index := Scalar.indexCast arg20
        let c0 : Index := 0#32
        let v19_ld : Vec F S1x16 .f32 ← Prog.lift (.load sN (Rect.unit (s := S64x16) (k0_off2 k0_t1) S1x16.size (k0_off2_inb k0_t1)).toLoadRect (View.loadsAt_vmem h_S1x16))
        have v19 : Vec F S16 .f32 := shapeCast S16 v19_ld shapeCasts_S1x16_S16
        Prog.lift (.store sN (Rect.unit (s := S64x16) (k0_off2 k0_t1) S1x16.size (k0_off2_inb k0_t1)) (shapeCast S1x16 v5 shapeCasts_S16_S1x16) Finset.univ (View.stores_vmem_bits_univ h_S1x16 rfl) (.inl rfl))
        let v20 : Index := Scalar.indexCast arg20
        let c0_23 : Index := 0#32
        let v21_ld : Vec F S1x16 .f32 ← Prog.lift (.load sC (Rect.unit (s := S64x16) (k0_off2 k0_t1) S1x16.size (k0_off2_inb k0_t1)).toLoadRect (View.loadsAt_vmem h_S1x16))
        have v21 : Vec F S16 .f32 := shapeCast S16 v21_ld shapeCasts_S1x16_S16
        Prog.lift (.store sC (Rect.unit (s := S64x16) (k0_off2 k0_t1) S1x16.size (k0_off2_inb k0_t1)) (shapeCast S1x16 v5 shapeCasts_S16_S1x16) Finset.univ (View.stores_vmem_bits_univ h_S1x16 rfl) (.inl rfl))
        pure ⟨⟩) >>= kk) Q := by
  iintro ⟨H6, H7, Hk⟩
  sl_for (zeroInv (F := F) (UU := UU) d L) $$ [H6 H7]
  case region =>
    intro k _
    unfold zeroInv
    iintro ⟨⟨%g6, %h6, H6⟩, ⟨%g7, %h7, H7⟩⟩
    sl_exec
    sl_step
    isplitl [H6]
    · iexists _; isplitr
      swap; · iexact H6
      ipureintro
      intro s l hs
      exact zero_row_step sN.view g6 k v5 hv5 _ _ (fun s l h => h6 s l h) s l hs
    · iexists _; isplitr
      swap; · iexact H7
      ipureintro
      intro s l hs
      exact zero_row_step sC.view g7 k v5 hv5 _ _ (fun s l h => h7 s l h) s l hs
  · unfold zeroInv
    isplitl [H6]
    · iexists _; isplitr
      swap; · iexact H6
      ipureintro; intro s l hs; exact absurd hs (Nat.not_lt_zero _)
    · iexists _; isplitr
      swap; · iexact H7
      ipureintro; intro s l hs; exact absurd hs (Nat.not_lt_zero _)
  iintro %_ HI
  unfold zeroInv
  icases HI with ⟨⟨%g6, %h6, H6⟩, ⟨%g7, %h7, H7⟩⟩
  have h64 : Scf.trips k0_t1_loop.lb k0_t1_loop.ub k0_t1_loop.st = 64 := trips_t1
  rw [h64] at h6 h7
  obtain rfl := eq_zeroTab g6 h6
  obtain rfl := eq_zeroTab g7 h7
  unfold wp_zeroLoop.sl.prog.cont_1
  iapply Hk $$ H6 H7

end Cert.Kernel.Tile

end
-- ==== Proof.Bits.PartsIdx.lean ====
/-
  The index vectors of a tile's row sums, as numbers.

  The lane vector holds the lane numbers 0 … 15. The row vector of group g is the lane vector plus 16 g, so that lane x
  owns row x + 16 g of the chunk, below 160 for the ten groups; the column base of outer step dd is the lane vector
  plus 32 dd, and a step's column is base plus its two constants modulo 128. None of these sums wraps: every value is
  far below 2^32.
-/
import proofs.«205036_g29618094473603_cont_9to1_1720_19_alg».proof.Proof.Bits.PartsLib

noncomputable section

namespace Cert.Kernel.TileParts

open Cert.Kernel
open Idealize.ShloMosaic
open Idealize.ShloMosaic.ValueIdx

/-- A lane's number is below 16. -/
theorem lane_lt (x : S16.Idx) : (x 0).val < 16 := (x 0).isLt

/-- The lane vector at a lane is the lane's number. -/
theorem lanes_toNat (h : S16.Iotas .scVector 32 [0]) (x : S16.Idx) : (iota .scVector S16 32 [0] h x).toNat = (x 0).val := by
  have hx := lane_lt x
  show (BitVec.ofNat 32 (0 * S16.size 0 + (x 0).val)).toNat = (x 0).val
  rw [BitVec.toNat_ofNat]
  show (0 * 16 + (x 0).val) % 2 ^ 32 = (x 0).val
  omega

/-- The induction variable of a unit-step loop from zero is the trip number (for the few trips these loops make). -/
theorem iv01_toNat (k : ℕ) (hk : k < 1000) : (Scf.iv 0#32 1#32 k).toNat = k := by
  show (0#32 + BitVec.ofNat 32 k * 1#32).toNat = k
  rw [BitVec.mul_one, BitVec.zero_add, BitVec.toNat_ofNat]
  omega

/-- Lane vector plus a broadcast multiple of the trip number: lane number plus the multiple (no wrap). -/
theorem lanesPlus_toNat (v4 : IVec S16 32) (hv4 : ∀ x, (v4 x).toNat = (x 0).val) (k : ℕ) (hk : k < 1000) (m : ℕ) (hm : m < 1000)
    (x : S16.Idx) : (addi v4 (broadcast S16 (Scalar.muli (Scf.iv 0#32 1#32 k) (BitVec.ofNat 32 m))) x).toNat = (x 0).val + k * m := by
  have hx := lane_lt x
  have hkm : k * m < 1000 * 1000 := Nat.mul_lt_mul'' hk hm
  show (v4 x + Scf.iv 0#32 1#32 k * BitVec.ofNat 32 m).toNat = _
  rw [BitVec.toNat_add, BitVec.toNat_mul, iv01_toNat k hk, BitVec.toNat_ofNat, hv4 x]
  have h1 : m % 2 ^ 32 = m := Nat.mod_eq_of_lt (by omega)
  rw [h1]
  have h2 : k * m % 2 ^ 32 = k * m := Nat.mod_eq_of_lt (by omega)
  rw [h2]
  exact Nat.mod_eq_of_lt (by omega)

/-- The row a lane of group `g` owns: lane number plus 16 g. -/
theorem rows_toNat (v4 : IVec S16 32) (hv4 : ∀ x, (v4 x).toNat = (x 0).val) (g : ℕ) (hg : g < 10) (x : S16.Idx) :
    (addi v4 (broadcast S16 (Scalar.muli (Scf.iv 0#32 1#32 g) 16#32)) x).toNat = (x 0).val + g * 16 :=
  lanesPlus_toNat v4 hv4 g (by omega) 16 (by omega) x

/-- Every row a lane of one of the ten groups owns is a row of the chunk. -/
theorem rows_lt160 (v4 : IVec S16 32) (hv4 : ∀ x, (v4 x).toNat = (x 0).val) (g : ℕ) (hg : g < 10) :
    ∀ x, (addi v4 (broadcast S16 (Scalar.muli (Scf.iv 0#32 1#32 g) 16#32)) x).toNat < 160 := by
  intro x
  have hx := lane_lt x
  rw [rows_toNat v4 hv4 g hg x]
  omega

/-- The column base of outer step `dd` at a lane: lane number plus 32 dd. -/
theorem base_toNat (v4 : IVec S16 32) (hv4 : ∀ x, (v4 x).toNat = (x 0).val) (dd : ℕ) (hdd : dd < 4) (x : S16.Idx) :
    (addi v4 (broadcast S16 (Scalar.muli (Scf.iv 0#32 1#32 dd) 32#32)) x).toNat = (x 0).val + dd * 32 :=
  lanesPlus_toNat v4 hv4 dd (by omega) 32 (by omega) x

/-- The column a lane reads at outer step `dd`, constants `a` and `b`: lane number plus 32 dd plus a plus b, modulo 128. -/
theorem colBase_toNat (v4 : IVec S16 32) (hv4 : ∀ x, (v4 x).toNat = (x 0).val) (dd : ℕ) (hdd : dd < 4) (a b : BitVec 32) (x : S16.Idx) :
    (colAt (addi v4 (broadcast S16 (Scalar.muli (Scf.iv 0#32 1#32 dd) 32#32))) a b x).toNat
      = ((x 0).val + dd * 32 + a.toNat + b.toNat) % 128 := by
  rw [colAt_toNat, base_toNat v4 hv4 dd hdd x]

/-- The element of a chunk a lane reads, by its two numbers. -/
theorem laneIdx_eq {rows cols : IVec S16 32}
    (h : ∀ (ax : Fin S160x128.rank) (x : S16.Idx), ((![rows, cols] : Fin 2 → IVec S16 32) ax x).toNat < S160x128.size ax)
    (x : S16.Idx) (r : Fin 160) (c : Fin 128) (hr : (rows x).toNat = r.val) (hc : (cols x).toNat = c.val) :
    laneIdx h x = ix2 r c := by
  unfold laneIdx
  congr 1
  · exact Fin.ext hr
  · exact Fin.ext hc

end Cert.Kernel.TileParts

end
-- ==== Proof.Bits.GroupLib.lean ====
/-
  The four accumulators of a group of rows, outer step by outer step.

  After n outer steps accumulator q holds, lane by lane, the sum of the squared differences at the columns of the steps
  4 j + q of the outer steps before n, added in order from zero. Four outer steps give the accumulators the row's value is
  formed from.
-/
import proofs.«205036_g29618094473603_cont_9to1_1720_19_alg».proof.Proof.Bits.PartsIdx
import proofs.«205036_g29618094473603_cont_9to1_1720_19_alg».proof.Proof.Bits.TilePure
import proofs.«205036_g29618094473603_cont_9to1_1720_19_alg».proof.Proof.Bits.TileLoopsBridge
import Idealize.ShloMosaic.Lib.Tactic

noncomputable section

namespace Cert.Kernel.TileParts

open Cert.Kernel
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Tactic
open Cert.Kernel.Tile (thr pW tW bW fW nW cW sP0 sP1 sT0 sT1 sB sFl sN sC)
open Cert.Kernel.TilePure

variable {F : FTy → Type} [FloatOps F] [Facts]
open Facts₀ Facts
variable {UU : Type} [URA UU]
variable {defs : Defs nD τ sig (Elt F) Λ₀} (𝒱 : Variants) (bd : Option 𝒱.V)

local notation "𝕄" => MT nD τ sig (HIx 1) (Elt F) ℕ UU ℕ

/-- Accumulator `q` after `n` outer steps, from zero. -/
def accUpTo (P T : Vec F S160x128 .f32) (rows : IVec S16 32) (hr : ∀ x, (rows x).toNat < 160) (q : BitVec 32) (n : ℕ) : FVec F S16 .f32 :=
  (List.range n).foldl (fun a dd => tripAcc P T rows hr (baseVec dd) q a) zero16

theorem accUpTo_zero (P T : Vec F S160x128 .f32) (rows : IVec S16 32) (hr : ∀ x, (rows x).toNat < 160) (q : BitVec 32) :
    accUpTo P T rows hr q 0 = zero16 := by
  unfold accUpTo; rw [List.range_zero, List.foldl_nil]

theorem accUpTo_succ (P T : Vec F S160x128 .f32) (rows : IVec S16 32) (hr : ∀ x, (rows x).toNat < 160) (q : BitVec 32) (n : ℕ) :
    accUpTo P T rows hr q (n + 1) = tripAcc P T rows hr (baseVec n) q (accUpTo P T rows hr q n) := by
  unfold accUpTo; rw [List.range_succ, List.foldl_append, List.foldl_cons, List.foldl_nil]

theorem accUpTo_four (P T : Vec F S160x128 .f32) (rows : IVec S16 32) (hr : ∀ x, (rows x).toNat < 160) (q : BitVec 32) :
    accUpTo P T rows hr q 4 = laneAcc P T rows hr q := by
  unfold accUpTo laneAcc; rw [show List.range 4 = [0, 1, 2, 3] from by decide]

/-- The lane vector's numbers. -/
theorem lanes_val (x : S16.Idx) : ((lanes : IVec S16 32) x).toNat = (x 0).val := lanes_toNat _ x

/-- The rows of each of the ten groups are rows of the chunk. -/
theorem rowsVec_lt (g : ℕ) (hg : g < 10) : ∀ x, (rowsVec g x).toNat < 160 := rows_lt160 lanes lanes_val g hg

/-- The accumulator loop's invariant: both chunks as they were, and the four accumulators after `n` outer steps. -/
def invAcc (HP HT : sProp 𝕄) (P T : Vec F S160x128 .f32) (rows : IVec S16 32) (hr : ∀ x, (rows x).toNat < 160) (n : ℕ)
    (acc : FVec F S16 .f32 × FVec F S16 .f32 × FVec F S16 .f32 × FVec F S16 .f32) : sProp 𝕄 :=
  iprop(HP ∗ HT ∗ ⌜acc = (accUpTo P T rows hr 0#32 n, accUpTo P T rows hr 1#32 n, accUpTo P T rows hr 2#32 n, accUpTo P T rows hr 3#32 n)⌝)

/-- One outer step of an accumulator, written out: its eight steps in order. -/
theorem tripAcc_nest (P T : Vec F S160x128 .f32) (rows : IVec S16 32) (hr : ∀ x, (rows x).toNat < 160) (base : IVec S16 32)
    (q : BitVec 32) (acc : FVec F S16 .f32) :
    tripAcc P T rows hr base q acc
      = (sqAcc P T rows (colAt base 28#32 q) (inb_col hr base 28#32 q) (sqAcc P T rows (colAt base 24#32 q) (inb_col hr base 24#32 q) (sqAcc P T rows (colAt base 20#32 q) (inb_col hr base 20#32 q) (sqAcc P T rows (colAt base 16#32 q) (inb_col hr base 16#32 q) (sqAcc P T rows (colAt base 12#32 q) (inb_col hr base 12#32 q) (sqAcc P T rows (colAt base 8#32 q) (inb_col hr base 8#32 q) (sqAcc P T rows (colAt base 4#32 q) (inb_col hr base 4#32 q) (sqAcc P T rows (colAt base 0#32 q) (inb_col hr base 0#32 q) acc)))))))) := rfl

/-! ## The groups of a chunk -/

/-- A fold over the groups before `n` (of ten), each step given its group number and that it is below ten. -/
def grpFold {β : Type} (step : (g : ℕ) → g < 10 → β → β) (b : β) : ℕ → β
  | 0 => b
  | n + 1 => if h : n < 10 then step n h (grpFold step b n) else grpFold step b n

theorem grpFold_zero {β : Type} (step : (g : ℕ) → g < 10 → β → β) (b : β) : grpFold step b 0 = b := rfl

theorem grpFold_succ {β : Type} (step : (g : ℕ) → g < 10 → β → β) (b : β) (n : ℕ) (h : n < 10) :
    grpFold step b (n + 1) = step n h (grpFold step b n) := by
  rw [grpFold]; exact dif_pos h

/-- Over all ten groups the fold is the fold over the list of the ten group numbers. -/
theorem grpFold_ten {β : Type} (step : (g : ℕ) → g < 10 → β → β) (b : β) :
    grpFold step b 10 = (List.finRange 10).foldl (fun tb g => step g.val g.isLt tb) b := by
  rw [grpFold_succ _ _ 9 (by omega), grpFold_succ _ _ 8 (by omega), grpFold_succ _ _ 7 (by omega), grpFold_succ _ _ 6 (by omega),
    grpFold_succ _ _ 5 (by omega), grpFold_succ _ _ 4 (by omega), grpFold_succ _ _ 3 (by omega), grpFold_succ _ _ 2 (by omega),
    grpFold_succ _ _ 1 (by omega), grpFold_succ _ _ 0 (by omega), grpFold_zero]
  rfl

/-- Segment ids below 64 name rows of the table (the lane numbers name its columns). -/
theorem idsOk_lt (ids : IVec S16 32) (h : ∀ x, (ids x).toNat < 64) : IdsOk ids := by
  intro a x
  match a with
  | ⟨0, _⟩ => exact h x
  | ⟨1, _⟩ =>
    show ((lanes : IVec S16 32) x).toNat < 16
    rw [lanes_val]; exact lane_lt x

/-- A vector of segment ids read out of the id buffer: each is below 64 when every word of the buffer is. -/
theorem readAt_lt64 (d : Dev nD) (L : grid0.Coords) (fB : Buf (Elt F) (sB.view.loc (thr d L)))
    (hfB : ∀ i : S5600.Idx, ((fB : S5600.Idx → BitVec 32) i).toNat < 64) (r : LoadRect S5600) (x : r.shape.Idx) :
    ((sB.view.readAt (Elt F) r fB x : BitVec 32)).toNat < 64 := by
  simp only [View.readAt_apply, Memref.view_whole, View.read_whole]
  exact hfB _

/-- The group loop's invariant: the two chunks and the id and flag buffers as they were, the two tables after the
    groups before `n`. -/
def invGrp (HR : sProp 𝕄) (HN HC : Vec F S64x16 .f32 → sProp 𝕄)
    (stepN stepC : (g : ℕ) → g < 10 → Vec F S64x16 .f32 → Vec F S64x16 .f32) (N C : Vec F S64x16 .f32) (n : ℕ) (_ : PUnit) : sProp 𝕄 :=
  iprop(HR ∗ HN (grpFold stepN N n) ∗ HC (grpFold stepC C n))

end Cert.Kernel.TileParts

end
-- ==== Proof.Bits.PartsA.lean ====
/-
  The first compute site of a tile's pair loop, part by part: the eight unrolled parts of one outer step over the
  first pair of staged chunks. Each part runs four steps (a step: the column vector is formed and found in range, both
  chunks are read at the lanes' indices, the squared difference goes into one accumulator), shifted by one: a part
  ends having formed the column vector whose reads open the next. Both chunks are handed back as they were, and the
  part's results are the pure step terms of the chunks' contents and the incoming vectors.
-/
import proofs.«205036_g29618094473603_cont_9to1_1720_19_alg».proof.Proof.Bits.PartsLib

noncomputable section

namespace Cert.Kernel.TileParts

open Cert.Kernel
open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Facts]
open Facts₀ Facts
variable {Ix : Type} [DecidableEq Ix] {Name : Type} [DecidableEq Name]
variable {U : Type} [URA U] {Lvl : Type} [Preorder Lvl]
variable {defs : Defs nD τ sig (Elt F) Λ₀} (𝒱 : Variants) (bd : Option 𝒱.V) (E : Set Name)

local notation "𝕄" => MT nD τ sig Ix (Elt F) Name U Lvl

set_option maxHeartbeats 4000000 in
theorem wp_part1 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v4 : IVec S16 32) (v54 : IVec S16 32) (c0_i32_65 : BitVec 32) (c1_i32_66 : BitVec 32) (k0_t4 : Fin k0_t4_loop.trips) (arg23 : FVec F S16 .f32) (arg24 : FVec F S16 .f32) (arg25 : FVec F S16 .f32) (d : Dev nD) (hr : ∀ x, (v54 x).toNat < 160)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v63 : IVec S16 32) (v74 : FVec F S16 .f32) (v85 : FVec F S16 .f32) (v96 : FVec F S16 .f32) (v102 : IVec S16 32), k0_chk4 v54 v102) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨(addi v4 (broadcast S16 (Scalar.muli (Scf.iv c0_i32_65 c1_i32_66 k0_t4) 32#32))),
        sqAcc ((arg8.access (.whole S160x128)).read (Elt F) fP) ((arg10.access (.whole S160x128)).read (Elt F) fT) v54 (colAt (addi v4 (broadcast S16 (Scalar.muli (Scf.iv c0_i32_65 c1_i32_66 k0_t4) 32#32))) 0#32 0#32) (inb_col hr _ _ _) arg23,
        sqAcc ((arg8.access (.whole S160x128)).read (Elt F) fP) ((arg10.access (.whole S160x128)).read (Elt F) fT) v54 (colAt (addi v4 (broadcast S16 (Scalar.muli (Scf.iv c0_i32_65 c1_i32_66 k0_t4) 32#32))) 0#32 1#32) (inb_col hr _ _ _) arg24,
        sqAcc ((arg8.access (.whole S160x128)).read (Elt F) fP) ((arg10.access (.whole S160x128)).read (Elt F) fT) v54 (colAt (addi v4 (broadcast S16 (Scalar.muli (Scf.iv c0_i32_65 c1_i32_66 k0_t4) 32#32))) 0#32 2#32) (inb_col hr _ _ _) arg25,
        colAt (addi v4 (broadcast S16 (Scalar.muli (Scf.iv c0_i32_65 c1_i32_66 k0_t4) 32#32))) 0#32 3#32, chk_col hr _ _ _⟩))
    ⊢ wp frame (wpE defs 𝒱 (V d ((i 0).castLE hcore0) ((i 1).castLE hsub0)) bd) E (k0_part1 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v4 v54 c0_i32_65 c1_i32_66 k0_t4 arg23 arg24 arg25) Φ := by
  unfold sqAcc colAt
  unfold k0_part1
  simp only [Prog.lift, Prog.bind_op, Prog.bind_ret, Prog.pure_eq_ret]
  iintro ⟨HP, HT, HΦ⟩
  iapply (wp_assume _ _ _ _ (show k0_chk1 _ _ from chk_col hr _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk2 _ _ from chk_col hr _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk3 _ _ from chk_col hr _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk4 _ _ from chk_col hr _ _ _))
  rw [wp_ret]; imodintro
  iapply HΦ
  isplitl [HP]
  · iexact HP
  · iexact HT

set_option maxHeartbeats 4000000 in
theorem wp_part2 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v54 : IVec S16 32) (arg26 : FVec F S16 .f32) (v63 : IVec S16 32) (v74 : FVec F S16 .f32) (v85 : FVec F S16 .f32) (v96 : FVec F S16 .f32) (v102 : IVec S16 32) (k0_hw4 : k0_chk4 v54 v102) (d : Dev nD)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v107 : FVec F S16 .f32) (v118 : FVec F S16 .f32) (v129 : FVec F S16 .f32) (v140 : FVec F S16 .f32) (v146 : IVec S16 32), k0_chk8 v54 v146) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨sqAcc ((arg8.access (.whole S160x128)).read (Elt F) fP) ((arg10.access (.whole S160x128)).read (Elt F) fT) v54 v102 k0_hw4.1 arg26,
        sqAcc ((arg8.access (.whole S160x128)).read (Elt F) fP) ((arg10.access (.whole S160x128)).read (Elt F) fT) v54 (colAt v63 4#32 0#32) (inb_col (rows_lt k0_hw4.1) _ _ _) v74,
        sqAcc ((arg8.access (.whole S160x128)).read (Elt F) fP) ((arg10.access (.whole S160x128)).read (Elt F) fT) v54 (colAt v63 4#32 1#32) (inb_col (rows_lt k0_hw4.1) _ _ _) v85,
        sqAcc ((arg8.access (.whole S160x128)).read (Elt F) fP) ((arg10.access (.whole S160x128)).read (Elt F) fT) v54 (colAt v63 4#32 2#32) (inb_col (rows_lt k0_hw4.1) _ _ _) v96,
        colAt v63 4#32 3#32, chk_col (rows_lt k0_hw4.1) _ _ _⟩))
    ⊢ wp frame (wpE defs 𝒱 (V d ((i 0).castLE hcore0) ((i 1).castLE hsub0)) bd) E (k0_part2 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v54 arg26 v63 v74 v85 v96 v102 k0_hw4) Φ := by
  unfold sqAcc colAt
  unfold k0_part2
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk5 _ _ from chk_col (rows_lt k0_hw4.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk6 _ _ from chk_col (rows_lt k0_hw4.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk7 _ _ from chk_col (rows_lt k0_hw4.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk8 _ _ from chk_col (rows_lt k0_hw4.1) _ _ _))
  rw [wp_ret]; imodintro
  iapply HΦ
  isplitl [HP]
  · iexact HP
  · iexact HT

set_option maxHeartbeats 4000000 in
theorem wp_part3 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v54 : IVec S16 32) (v63 : IVec S16 32) (v107 : FVec F S16 .f32) (v118 : FVec F S16 .f32) (v129 : FVec F S16 .f32) (v140 : FVec F S16 .f32) (v146 : IVec S16 32) (k0_hw8 : k0_chk8 v54 v146) (d : Dev nD)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v151 : FVec F S16 .f32) (v162 : FVec F S16 .f32) (v173 : FVec F S16 .f32) (v184 : FVec F S16 .f32) (v190 : IVec S16 32), k0_chk12 v54 v190) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨sqAcc ((arg8.access (.whole S160x128)).read (Elt F) fP) ((arg10.access (.whole S160x128)).read (Elt F) fT) v54 v146 k0_hw8.1 v107,
        sqAcc ((arg8.access (.whole S160x128)).read (Elt F) fP) ((arg10.access (.whole S160x128)).read (Elt F) fT) v54 (colAt v63 8#32 0#32) (inb_col (rows_lt k0_hw8.1) _ _ _) v118,
        sqAcc ((arg8.access (.whole S160x128)).read (Elt F) fP) ((arg10.access (.whole S160x128)).read (Elt F) fT) v54 (colAt v63 8#32 1#32) (inb_col (rows_lt k0_hw8.1) _ _ _) v129,
        sqAcc ((arg8.access (.whole S160x128)).read (Elt F) fP) ((arg10.access (.whole S160x128)).read (Elt F) fT) v54 (colAt v63 8#32 2#32) (inb_col (rows_lt k0_hw8.1) _ _ _) v140,
        colAt v63 8#32 3#32, chk_col (rows_lt k0_hw8.1) _ _ _⟩))
    ⊢ wp frame (wpE defs 𝒱 (V d ((i 0).castLE hcore0) ((i 1).castLE hsub0)) bd) E (k0_part3 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v54 v63 v107 v118 v129 v140 v146 k0_hw8) Φ := by
  unfold sqAcc colAt
  unfold k0_part3
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk9 _ _ from chk_col (rows_lt k0_hw8.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk10 _ _ from chk_col (rows_lt k0_hw8.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk11 _ _ from chk_col (rows_lt k0_hw8.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk12 _ _ from chk_col (rows_lt k0_hw8.1) _ _ _))
  rw [wp_ret]; imodintro
  iapply HΦ
  isplitl [HP]
  · iexact HP
  · iexact HT

set_option maxHeartbeats 4000000 in
theorem wp_part4 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v54 : IVec S16 32) (v63 : IVec S16 32) (v151 : FVec F S16 .f32) (v162 : FVec F S16 .f32) (v173 : FVec F S16 .f32) (v184 : FVec F S16 .f32) (v190 : IVec S16 32) (k0_hw12 : k0_chk12 v54 v190) (d : Dev nD)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v195 : FVec F S16 .f32) (v206 : FVec F S16 .f32) (v217 : FVec F S16 .f32) (v228 : FVec F S16 .f32) (v234 : IVec S16 32), k0_chk16 v54 v234) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨sqAcc ((arg8.access (.whole S160x128)).read (Elt F) fP) ((arg10.access (.whole S160x128)).read (Elt F) fT) v54 v190 k0_hw12.1 v151,
        sqAcc ((arg8.access (.whole S160x128)).read (Elt F) fP) ((arg10.access (.whole S160x128)).read (Elt F) fT) v54 (colAt v63 12#32 0#32) (inb_col (rows_lt k0_hw12.1) _ _ _) v162,
        sqAcc ((arg8.access (.whole S160x128)).read (Elt F) fP) ((arg10.access (.whole S160x128)).read (Elt F) fT) v54 (colAt v63 12#32 1#32) (inb_col (rows_lt k0_hw12.1) _ _ _) v173,
        sqAcc ((arg8.access (.whole S160x128)).read (Elt F) fP) ((arg10.access (.whole S160x128)).read (Elt F) fT) v54 (colAt v63 12#32 2#32) (inb_col (rows_lt k0_hw12.1) _ _ _) v184,
        colAt v63 12#32 3#32, chk_col (rows_lt k0_hw12.1) _ _ _⟩))
    ⊢ wp frame (wpE defs 𝒱 (V d ((i 0).castLE hcore0) ((i 1).castLE hsub0)) bd) E (k0_part4 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v54 v63 v151 v162 v173 v184 v190 k0_hw12) Φ := by
  unfold sqAcc colAt
  unfold k0_part4
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk13 _ _ from chk_col (rows_lt k0_hw12.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk14 _ _ from chk_col (rows_lt k0_hw12.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk15 _ _ from chk_col (rows_lt k0_hw12.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk16 _ _ from chk_col (rows_lt k0_hw12.1) _ _ _))
  rw [wp_ret]; imodintro
  iapply HΦ
  isplitl [HP]
  · iexact HP
  · iexact HT

set_option maxHeartbeats 4000000 in
theorem wp_part5 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v54 : IVec S16 32) (v63 : IVec S16 32) (v195 : FVec F S16 .f32) (v206 : FVec F S16 .f32) (v217 : FVec F S16 .f32) (v228 : FVec F S16 .f32) (v234 : IVec S16 32) (k0_hw16 : k0_chk16 v54 v234) (d : Dev nD)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v239 : FVec F S16 .f32) (v250 : FVec F S16 .f32) (v261 : FVec F S16 .f32) (v272 : FVec F S16 .f32) (v278 : IVec S16 32), k0_chk20 v54 v278) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨sqAcc ((arg8.access (.whole S160x128)).read (Elt F) fP) ((arg10.access (.whole S160x128)).read (Elt F) fT) v54 v234 k0_hw16.1 v195,
        sqAcc ((arg8.access (.whole S160x128)).read (Elt F) fP) ((arg10.access (.whole S160x128)).read (Elt F) fT) v54 (colAt v63 16#32 0#32) (inb_col (rows_lt k0_hw16.1) _ _ _) v206,
        sqAcc ((arg8.access (.whole S160x128)).read (Elt F) fP) ((arg10.access (.whole S160x128)).read (Elt F) fT) v54 (colAt v63 16#32 1#32) (inb_col (rows_lt k0_hw16.1) _ _ _) v217,
        sqAcc ((arg8.access (.whole S160x128)).read (Elt F) fP) ((arg10.access (.whole S160x128)).read (Elt F) fT) v54 (colAt v63 16#32 2#32) (inb_col (rows_lt k0_hw16.1) _ _ _) v228,
        colAt v63 16#32 3#32, chk_col (rows_lt k0_hw16.1) _ _ _⟩))
    ⊢ wp frame (wpE defs 𝒱 (V d ((i 0).castLE hcore0) ((i 1).castLE hsub0)) bd) E (k0_part5 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v54 v63 v195 v206 v217 v228 v234 k0_hw16) Φ := by
  unfold sqAcc colAt
  unfold k0_part5
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk17 _ _ from chk_col (rows_lt k0_hw16.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk18 _ _ from chk_col (rows_lt k0_hw16.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk19 _ _ from chk_col (rows_lt k0_hw16.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk20 _ _ from chk_col (rows_lt k0_hw16.1) _ _ _))
  rw [wp_ret]; imodintro
  iapply HΦ
  isplitl [HP]
  · iexact HP
  · iexact HT

set_option maxHeartbeats 4000000 in
theorem wp_part6 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v54 : IVec S16 32) (v63 : IVec S16 32) (v239 : FVec F S16 .f32) (v250 : FVec F S16 .f32) (v261 : FVec F S16 .f32) (v272 : FVec F S16 .f32) (v278 : IVec S16 32) (k0_hw20 : k0_chk20 v54 v278) (d : Dev nD)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v283 : FVec F S16 .f32) (v294 : FVec F S16 .f32) (v305 : FVec F S16 .f32) (v316 : FVec F S16 .f32) (v322 : IVec S16 32), k0_chk24 v54 v322) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨sqAcc ((arg8.access (.whole S160x128)).read (Elt F) fP) ((arg10.access (.whole S160x128)).read (Elt F) fT) v54 v278 k0_hw20.1 v239,
        sqAcc ((arg8.access (.whole S160x128)).read (Elt F) fP) ((arg10.access (.whole S160x128)).read (Elt F) fT) v54 (colAt v63 20#32 0#32) (inb_col (rows_lt k0_hw20.1) _ _ _) v250,
        sqAcc ((arg8.access (.whole S160x128)).read (Elt F) fP) ((arg10.access (.whole S160x128)).read (Elt F) fT) v54 (colAt v63 20#32 1#32) (inb_col (rows_lt k0_hw20.1) _ _ _) v261,
        sqAcc ((arg8.access (.whole S160x128)).read (Elt F) fP) ((arg10.access (.whole S160x128)).read (Elt F) fT) v54 (colAt v63 20#32 2#32) (inb_col (rows_lt k0_hw20.1) _ _ _) v272,
        colAt v63 20#32 3#32, chk_col (rows_lt k0_hw20.1) _ _ _⟩))
    ⊢ wp frame (wpE defs 𝒱 (V d ((i 0).castLE hcore0) ((i 1).castLE hsub0)) bd) E (k0_part6 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v54 v63 v239 v250 v261 v272 v278 k0_hw20) Φ := by
  unfold sqAcc colAt
  unfold k0_part6
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk21 _ _ from chk_col (rows_lt k0_hw20.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk22 _ _ from chk_col (rows_lt k0_hw20.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk23 _ _ from chk_col (rows_lt k0_hw20.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk24 _ _ from chk_col (rows_lt k0_hw20.1) _ _ _))
  rw [wp_ret]; imodintro
  iapply HΦ
  isplitl [HP]
  · iexact HP
  · iexact HT

set_option maxHeartbeats 4000000 in
theorem wp_part7 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v54 : IVec S16 32) (v63 : IVec S16 32) (v283 : FVec F S16 .f32) (v294 : FVec F S16 .f32) (v305 : FVec F S16 .f32) (v316 : FVec F S16 .f32) (v322 : IVec S16 32) (k0_hw24 : k0_chk24 v54 v322) (d : Dev nD)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v327 : FVec F S16 .f32) (v338 : FVec F S16 .f32) (v349 : FVec F S16 .f32) (v360 : FVec F S16 .f32) (v366 : IVec S16 32), k0_chk28 v54 v366) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨sqAcc ((arg8.access (.whole S160x128)).read (Elt F) fP) ((arg10.access (.whole S160x128)).read (Elt F) fT) v54 v322 k0_hw24.1 v283,
        sqAcc ((arg8.access (.whole S160x128)).read (Elt F) fP) ((arg10.access (.whole S160x128)).read (Elt F) fT) v54 (colAt v63 24#32 0#32) (inb_col (rows_lt k0_hw24.1) _ _ _) v294,
        sqAcc ((arg8.access (.whole S160x128)).read (Elt F) fP) ((arg10.access (.whole S160x128)).read (Elt F) fT) v54 (colAt v63 24#32 1#32) (inb_col (rows_lt k0_hw24.1) _ _ _) v305,
        sqAcc ((arg8.access (.whole S160x128)).read (Elt F) fP) ((arg10.access (.whole S160x128)).read (Elt F) fT) v54 (colAt v63 24#32 2#32) (inb_col (rows_lt k0_hw24.1) _ _ _) v316,
        colAt v63 24#32 3#32, chk_col (rows_lt k0_hw24.1) _ _ _⟩))
    ⊢ wp frame (wpE defs 𝒱 (V d ((i 0).castLE hcore0) ((i 1).castLE hsub0)) bd) E (k0_part7 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v54 v63 v283 v294 v305 v316 v322 k0_hw24) Φ := by
  unfold sqAcc colAt
  unfold k0_part7
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk25 _ _ from chk_col (rows_lt k0_hw24.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk26 _ _ from chk_col (rows_lt k0_hw24.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk27 _ _ from chk_col (rows_lt k0_hw24.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk28 _ _ from chk_col (rows_lt k0_hw24.1) _ _ _))
  rw [wp_ret]; imodintro
  iapply HΦ
  isplitl [HP]
  · iexact HP
  · iexact HT

set_option maxHeartbeats 4000000 in
theorem wp_part8 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v54 : IVec S16 32) (v63 : IVec S16 32) (v327 : FVec F S16 .f32) (v338 : FVec F S16 .f32) (v349 : FVec F S16 .f32) (v360 : FVec F S16 .f32) (v366 : IVec S16 32) (k0_hw28 : k0_chk28 v54 v366) (d : Dev nD)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v371 : FVec F S16 .f32) (v382 : FVec F S16 .f32) (v393 : FVec F S16 .f32) (v404 : FVec F S16 .f32) (v410 : IVec S16 32), k0_chk32 v54 v410) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨sqAcc ((arg8.access (.whole S160x128)).read (Elt F) fP) ((arg10.access (.whole S160x128)).read (Elt F) fT) v54 v366 k0_hw28.1 v327,
        sqAcc ((arg8.access (.whole S160x128)).read (Elt F) fP) ((arg10.access (.whole S160x128)).read (Elt F) fT) v54 (colAt v63 28#32 0#32) (inb_col (rows_lt k0_hw28.1) _ _ _) v338,
        sqAcc ((arg8.access (.whole S160x128)).read (Elt F) fP) ((arg10.access (.whole S160x128)).read (Elt F) fT) v54 (colAt v63 28#32 1#32) (inb_col (rows_lt k0_hw28.1) _ _ _) v349,
        sqAcc ((arg8.access (.whole S160x128)).read (Elt F) fP) ((arg10.access (.whole S160x128)).read (Elt F) fT) v54 (colAt v63 28#32 2#32) (inb_col (rows_lt k0_hw28.1) _ _ _) v360,
        colAt v63 28#32 3#32, chk_col (rows_lt k0_hw28.1) _ _ _⟩))
    ⊢ wp frame (wpE defs 𝒱 (V d ((i 0).castLE hcore0) ((i 1).castLE hsub0)) bd) E (k0_part8 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v54 v63 v327 v338 v349 v360 v366 k0_hw28) Φ := by
  unfold sqAcc colAt
  unfold k0_part8
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk29 _ _ from chk_col (rows_lt k0_hw28.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk30 _ _ from chk_col (rows_lt k0_hw28.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk31 _ _ from chk_col (rows_lt k0_hw28.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk32 _ _ from chk_col (rows_lt k0_hw28.1) _ _ _))
  rw [wp_ret]; imodintro
  iapply HΦ
  isplitl [HP]
  · iexact HP
  · iexact HT

end Cert.Kernel.TileParts

end
-- ==== Proof.Bits.PartsB.lean ====
/-
  The second compute site of a tile's pair loop, part by part: the eight unrolled parts of one outer step over the
  second pair of staged chunks. Each part runs four steps (the column vector is formed and found in range, both chunks
  are read at the lanes' indices, the squared difference goes into one accumulator), shifted by one. Both chunks are
  handed back as they were, and the part's results are the pure step terms of the chunks' contents and the incoming
  vectors.
-/
import proofs.«205036_g29618094473603_cont_9to1_1720_19_alg».proof.Proof.Bits.PartsLib

noncomputable section

namespace Cert.Kernel.TileParts

open Cert.Kernel
open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Facts]
open Facts₀ Facts
variable {Ix : Type} [DecidableEq Ix] {Name : Type} [DecidableEq Name]
variable {U : Type} [URA U] {Lvl : Type} [Preorder Lvl]
variable {defs : Defs nD τ sig (Elt F) Λ₀} (𝒱 : Variants) (bd : Option 𝒱.V) (E : Set Name)

local notation "𝕄" => MT nD τ sig Ix (Elt F) Name U Lvl

set_option maxHeartbeats 4000000 in
theorem wp_part9 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v4 : IVec S16 32) (v54 : IVec S16 32) (c0_i32_65 : BitVec 32) (c1_i32_66 : BitVec 32) (k0_t6 : Fin k0_t6_loop.trips) (arg23 : FVec F S16 .f32) (arg24 : FVec F S16 .f32) (arg25 : FVec F S16 .f32) (d : Dev nD) (hr : ∀ x, (v54 x).toNat < 160)
    {qP qT : PosShare TreeShare} {fP : Buf (Elt F) ((arg9.access (.whole S160x128)).loc (V d ((i 0).castLE hcore0) ((i 1).castLE hsub0)))} {fT : Buf (Elt F) ((arg11.access (.whole S160x128)).loc (V d ((i 0).castLE hcore0) ((i 1).castLE hsub0)))}
    {Φ : (Σ' (v63 : IVec S16 32) (v74 : FVec F S16 .f32) (v85 : FVec F S16 .f32) (v96 : FVec F S16 .f32) (v102 : IVec S16 32), k0_chk37 v54 v102) → sProp 𝕄} :
    iprop(((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)
      ∗ ((((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)) -∗ Φ ⟨(addi v4 (broadcast S16 (Scalar.muli (Scf.iv c0_i32_65 c1_i32_66 k0_t6) 32#32))),
        sqAcc ((arg9.access (.whole S160x128)).read (Elt F) fP) ((arg11.access (.whole S160x128)).read (Elt F) fT) v54 (colAt (addi v4 (broadcast S16 (Scalar.muli (Scf.iv c0_i32_65 c1_i32_66 k0_t6) 32#32))) 0#32 0#32) (inb_col hr _ _ _) arg23,
        sqAcc ((arg9.access (.whole S160x128)).read (Elt F) fP) ((arg11.access (.whole S160x128)).read (Elt F) fT) v54 (colAt (addi v4 (broadcast S16 (Scalar.muli (Scf.iv c0_i32_65 c1_i32_66 k0_t6) 32#32))) 0#32 1#32) (inb_col hr _ _ _) arg24,
        sqAcc ((arg9.access (.whole S160x128)).read (Elt F) fP) ((arg11.access (.whole S160x128)).read (Elt F) fT) v54 (colAt (addi v4 (broadcast S16 (Scalar.muli (Scf.iv c0_i32_65 c1_i32_66 k0_t6) 32#32))) 0#32 2#32) (inb_col hr _ _ _) arg25,
        colAt (addi v4 (broadcast S16 (Scalar.muli (Scf.iv c0_i32_65 c1_i32_66 k0_t6) 32#32))) 0#32 3#32, chk_col hr _ _ _⟩))
    ⊢ wp frame (wpE defs 𝒱 (V d ((i 0).castLE hcore0) ((i 1).castLE hsub0)) bd) E (k0_part9 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v4 v54 c0_i32_65 c1_i32_66 k0_t6 arg23 arg24 arg25) Φ := by
  unfold sqAcc colAt
  unfold k0_part9
  simp only [Prog.lift, Prog.bind_op, Prog.bind_ret, Prog.pure_eq_ret]
  iintro ⟨HP, HT, HΦ⟩
  iapply (wp_assume _ _ _ _ (show k0_chk34 _ _ from chk_col hr _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk35 _ _ from chk_col hr _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk36 _ _ from chk_col hr _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk37 _ _ from chk_col hr _ _ _))
  rw [wp_ret]; imodintro
  iapply HΦ
  isplitl [HP]
  · iexact HP
  · iexact HT

set_option maxHeartbeats 4000000 in
theorem wp_part10 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v54 : IVec S16 32) (arg26 : FVec F S16 .f32) (v63 : IVec S16 32) (v74 : FVec F S16 .f32) (v85 : FVec F S16 .f32) (v96 : FVec F S16 .f32) (v102 : IVec S16 32) (k0_hw37 : k0_chk37 v54 v102) (d : Dev nD)
    {qP qT : PosShare TreeShare} {fP : Buf (Elt F) ((arg9.access (.whole S160x128)).loc (V d ((i 0).castLE hcore0) ((i 1).castLE hsub0)))} {fT : Buf (Elt F) ((arg11.access (.whole S160x128)).loc (V d ((i 0).castLE hcore0) ((i 1).castLE hsub0)))}
    {Φ : (Σ' (v107 : FVec F S16 .f32) (v118 : FVec F S16 .f32) (v129 : FVec F S16 .f32) (v140 : FVec F S16 .f32) (v146 : IVec S16 32), k0_chk41 v54 v146) → sProp 𝕄} :
    iprop(((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)
      ∗ ((((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)) -∗ Φ ⟨sqAcc ((arg9.access (.whole S160x128)).read (Elt F) fP) ((arg11.access (.whole S160x128)).read (Elt F) fT) v54 v102 k0_hw37.1 arg26,
        sqAcc ((arg9.access (.whole S160x128)).read (Elt F) fP) ((arg11.access (.whole S160x128)).read (Elt F) fT) v54 (colAt v63 4#32 0#32) (inb_col (rows_lt k0_hw37.1) _ _ _) v74,
        sqAcc ((arg9.access (.whole S160x128)).read (Elt F) fP) ((arg11.access (.whole S160x128)).read (Elt F) fT) v54 (colAt v63 4#32 1#32) (inb_col (rows_lt k0_hw37.1) _ _ _) v85,
        sqAcc ((arg9.access (.whole S160x128)).read (Elt F) fP) ((arg11.access (.whole S160x128)).read (Elt F) fT) v54 (colAt v63 4#32 2#32) (inb_col (rows_lt k0_hw37.1) _ _ _) v96,
        colAt v63 4#32 3#32, chk_col (rows_lt k0_hw37.1) _ _ _⟩))
    ⊢ wp frame (wpE defs 𝒱 (V d ((i 0).castLE hcore0) ((i 1).castLE hsub0)) bd) E (k0_part10 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v54 arg26 v63 v74 v85 v96 v102 k0_hw37) Φ := by
  unfold sqAcc colAt
  unfold k0_part10
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk38 _ _ from chk_col (rows_lt k0_hw37.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk39 _ _ from chk_col (rows_lt k0_hw37.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk40 _ _ from chk_col (rows_lt k0_hw37.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk41 _ _ from chk_col (rows_lt k0_hw37.1) _ _ _))
  rw [wp_ret]; imodintro
  iapply HΦ
  isplitl [HP]
  · iexact HP
  · iexact HT

set_option maxHeartbeats 4000000 in
theorem wp_part11 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v54 : IVec S16 32) (v63 : IVec S16 32) (v107 : FVec F S16 .f32) (v118 : FVec F S16 .f32) (v129 : FVec F S16 .f32) (v140 : FVec F S16 .f32) (v146 : IVec S16 32) (k0_hw41 : k0_chk41 v54 v146) (d : Dev nD)
    {qP qT : PosShare TreeShare} {fP : Buf (Elt F) ((arg9.access (.whole S160x128)).loc (V d ((i 0).castLE hcore0) ((i 1).castLE hsub0)))} {fT : Buf (Elt F) ((arg11.access (.whole S160x128)).loc (V d ((i 0).castLE hcore0) ((i 1).castLE hsub0)))}
    {Φ : (Σ' (v151 : FVec F S16 .f32) (v162 : FVec F S16 .f32) (v173 : FVec F S16 .f32) (v184 : FVec F S16 .f32) (v190 : IVec S16 32), k0_chk45 v54 v190) → sProp 𝕄} :
    iprop(((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)
      ∗ ((((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)) -∗ Φ ⟨sqAcc ((arg9.access (.whole S160x128)).read (Elt F) fP) ((arg11.access (.whole S160x128)).read (Elt F) fT) v54 v146 k0_hw41.1 v107,
        sqAcc ((arg9.access (.whole S160x128)).read (Elt F) fP) ((arg11.access (.whole S160x128)).read (Elt F) fT) v54 (colAt v63 8#32 0#32) (inb_col (rows_lt k0_hw41.1) _ _ _) v118,
        sqAcc ((arg9.access (.whole S160x128)).read (Elt F) fP) ((arg11.access (.whole S160x128)).read (Elt F) fT) v54 (colAt v63 8#32 1#32) (inb_col (rows_lt k0_hw41.1) _ _ _) v129,
        sqAcc ((arg9.access (.whole S160x128)).read (Elt F) fP) ((arg11.access (.whole S160x128)).read (Elt F) fT) v54 (colAt v63 8#32 2#32) (inb_col (rows_lt k0_hw41.1) _ _ _) v140,
        colAt v63 8#32 3#32, chk_col (rows_lt k0_hw41.1) _ _ _⟩))
    ⊢ wp frame (wpE defs 𝒱 (V d ((i 0).castLE hcore0) ((i 1).castLE hsub0)) bd) E (k0_part11 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v54 v63 v107 v118 v129 v140 v146 k0_hw41) Φ := by
  unfold sqAcc colAt
  unfold k0_part11
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk42 _ _ from chk_col (rows_lt k0_hw41.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk43 _ _ from chk_col (rows_lt k0_hw41.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk44 _ _ from chk_col (rows_lt k0_hw41.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk45 _ _ from chk_col (rows_lt k0_hw41.1) _ _ _))
  rw [wp_ret]; imodintro
  iapply HΦ
  isplitl [HP]
  · iexact HP
  · iexact HT

set_option maxHeartbeats 4000000 in
theorem wp_part12 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v54 : IVec S16 32) (v63 : IVec S16 32) (v151 : FVec F S16 .f32) (v162 : FVec F S16 .f32) (v173 : FVec F S16 .f32) (v184 : FVec F S16 .f32) (v190 : IVec S16 32) (k0_hw45 : k0_chk45 v54 v190) (d : Dev nD)
    {qP qT : PosShare TreeShare} {fP : Buf (Elt F) ((arg9.access (.whole S160x128)).loc (V d ((i 0).castLE hcore0) ((i 1).castLE hsub0)))} {fT : Buf (Elt F) ((arg11.access (.whole S160x128)).loc (V d ((i 0).castLE hcore0) ((i 1).castLE hsub0)))}
    {Φ : (Σ' (v195 : FVec F S16 .f32) (v206 : FVec F S16 .f32) (v217 : FVec F S16 .f32) (v228 : FVec F S16 .f32) (v234 : IVec S16 32), k0_chk49 v54 v234) → sProp 𝕄} :
    iprop(((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)
      ∗ ((((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)) -∗ Φ ⟨sqAcc ((arg9.access (.whole S160x128)).read (Elt F) fP) ((arg11.access (.whole S160x128)).read (Elt F) fT) v54 v190 k0_hw45.1 v151,
        sqAcc ((arg9.access (.whole S160x128)).read (Elt F) fP) ((arg11.access (.whole S160x128)).read (Elt F) fT) v54 (colAt v63 12#32 0#32) (inb_col (rows_lt k0_hw45.1) _ _ _) v162,
        sqAcc ((arg9.access (.whole S160x128)).read (Elt F) fP) ((arg11.access (.whole S160x128)).read (Elt F) fT) v54 (colAt v63 12#32 1#32) (inb_col (rows_lt k0_hw45.1) _ _ _) v173,
        sqAcc ((arg9.access (.whole S160x128)).read (Elt F) fP) ((arg11.access (.whole S160x128)).read (Elt F) fT) v54 (colAt v63 12#32 2#32) (inb_col (rows_lt k0_hw45.1) _ _ _) v184,
        colAt v63 12#32 3#32, chk_col (rows_lt k0_hw45.1) _ _ _⟩))
    ⊢ wp frame (wpE defs 𝒱 (V d ((i 0).castLE hcore0) ((i 1).castLE hsub0)) bd) E (k0_part12 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v54 v63 v151 v162 v173 v184 v190 k0_hw45) Φ := by
  unfold sqAcc colAt
  unfold k0_part12
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk46 _ _ from chk_col (rows_lt k0_hw45.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk47 _ _ from chk_col (rows_lt k0_hw45.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk48 _ _ from chk_col (rows_lt k0_hw45.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk49 _ _ from chk_col (rows_lt k0_hw45.1) _ _ _))
  rw [wp_ret]; imodintro
  iapply HΦ
  isplitl [HP]
  · iexact HP
  · iexact HT

set_option maxHeartbeats 4000000 in
theorem wp_part13 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v54 : IVec S16 32) (v63 : IVec S16 32) (v195 : FVec F S16 .f32) (v206 : FVec F S16 .f32) (v217 : FVec F S16 .f32) (v228 : FVec F S16 .f32) (v234 : IVec S16 32) (k0_hw49 : k0_chk49 v54 v234) (d : Dev nD)
    {qP qT : PosShare TreeShare} {fP : Buf (Elt F) ((arg9.access (.whole S160x128)).loc (V d ((i 0).castLE hcore0) ((i 1).castLE hsub0)))} {fT : Buf (Elt F) ((arg11.access (.whole S160x128)).loc (V d ((i 0).castLE hcore0) ((i 1).castLE hsub0)))}
    {Φ : (Σ' (v239 : FVec F S16 .f32) (v250 : FVec F S16 .f32) (v261 : FVec F S16 .f32) (v272 : FVec F S16 .f32) (v278 : IVec S16 32), k0_chk53 v54 v278) → sProp 𝕄} :
    iprop(((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)
      ∗ ((((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)) -∗ Φ ⟨sqAcc ((arg9.access (.whole S160x128)).read (Elt F) fP) ((arg11.access (.whole S160x128)).read (Elt F) fT) v54 v234 k0_hw49.1 v195,
        sqAcc ((arg9.access (.whole S160x128)).read (Elt F) fP) ((arg11.access (.whole S160x128)).read (Elt F) fT) v54 (colAt v63 16#32 0#32) (inb_col (rows_lt k0_hw49.1) _ _ _) v206,
        sqAcc ((arg9.access (.whole S160x128)).read (Elt F) fP) ((arg11.access (.whole S160x128)).read (Elt F) fT) v54 (colAt v63 16#32 1#32) (inb_col (rows_lt k0_hw49.1) _ _ _) v217,
        sqAcc ((arg9.access (.whole S160x128)).read (Elt F) fP) ((arg11.access (.whole S160x128)).read (Elt F) fT) v54 (colAt v63 16#32 2#32) (inb_col (rows_lt k0_hw49.1) _ _ _) v228,
        colAt v63 16#32 3#32, chk_col (rows_lt k0_hw49.1) _ _ _⟩))
    ⊢ wp frame (wpE defs 𝒱 (V d ((i 0).castLE hcore0) ((i 1).castLE hsub0)) bd) E (k0_part13 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v54 v63 v195 v206 v217 v228 v234 k0_hw49) Φ := by
  unfold sqAcc colAt
  unfold k0_part13
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk50 _ _ from chk_col (rows_lt k0_hw49.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk51 _ _ from chk_col (rows_lt k0_hw49.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk52 _ _ from chk_col (rows_lt k0_hw49.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk53 _ _ from chk_col (rows_lt k0_hw49.1) _ _ _))
  rw [wp_ret]; imodintro
  iapply HΦ
  isplitl [HP]
  · iexact HP
  · iexact HT

set_option maxHeartbeats 4000000 in
theorem wp_part14 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v54 : IVec S16 32) (v63 : IVec S16 32) (v239 : FVec F S16 .f32) (v250 : FVec F S16 .f32) (v261 : FVec F S16 .f32) (v272 : FVec F S16 .f32) (v278 : IVec S16 32) (k0_hw53 : k0_chk53 v54 v278) (d : Dev nD)
    {qP qT : PosShare TreeShare} {fP : Buf (Elt F) ((arg9.access (.whole S160x128)).loc (V d ((i 0).castLE hcore0) ((i 1).castLE hsub0)))} {fT : Buf (Elt F) ((arg11.access (.whole S160x128)).loc (V d ((i 0).castLE hcore0) ((i 1).castLE hsub0)))}
    {Φ : (Σ' (v283 : FVec F S16 .f32) (v294 : FVec F S16 .f32) (v305 : FVec F S16 .f32) (v316 : FVec F S16 .f32) (v322 : IVec S16 32), k0_chk57 v54 v322) → sProp 𝕄} :
    iprop(((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)
      ∗ ((((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)) -∗ Φ ⟨sqAcc ((arg9.access (.whole S160x128)).read (Elt F) fP) ((arg11.access (.whole S160x128)).read (Elt F) fT) v54 v278 k0_hw53.1 v239,
        sqAcc ((arg9.access (.whole S160x128)).read (Elt F) fP) ((arg11.access (.whole S160x128)).read (Elt F) fT) v54 (colAt v63 20#32 0#32) (inb_col (rows_lt k0_hw53.1) _ _ _) v250,
        sqAcc ((arg9.access (.whole S160x128)).read (Elt F) fP) ((arg11.access (.whole S160x128)).read (Elt F) fT) v54 (colAt v63 20#32 1#32) (inb_col (rows_lt k0_hw53.1) _ _ _) v261,
        sqAcc ((arg9.access (.whole S160x128)).read (Elt F) fP) ((arg11.access (.whole S160x128)).read (Elt F) fT) v54 (colAt v63 20#32 2#32) (inb_col (rows_lt k0_hw53.1) _ _ _) v272,
        colAt v63 20#32 3#32, chk_col (rows_lt k0_hw53.1) _ _ _⟩))
    ⊢ wp frame (wpE defs 𝒱 (V d ((i 0).castLE hcore0) ((i 1).castLE hsub0)) bd) E (k0_part14 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v54 v63 v239 v250 v261 v272 v278 k0_hw53) Φ := by
  unfold sqAcc colAt
  unfold k0_part14
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk54 _ _ from chk_col (rows_lt k0_hw53.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk55 _ _ from chk_col (rows_lt k0_hw53.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk56 _ _ from chk_col (rows_lt k0_hw53.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk57 _ _ from chk_col (rows_lt k0_hw53.1) _ _ _))
  rw [wp_ret]; imodintro
  iapply HΦ
  isplitl [HP]
  · iexact HP
  · iexact HT

set_option maxHeartbeats 4000000 in
theorem wp_part15 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v54 : IVec S16 32) (v63 : IVec S16 32) (v283 : FVec F S16 .f32) (v294 : FVec F S16 .f32) (v305 : FVec F S16 .f32) (v316 : FVec F S16 .f32) (v322 : IVec S16 32) (k0_hw57 : k0_chk57 v54 v322) (d : Dev nD)
    {qP qT : PosShare TreeShare} {fP : Buf (Elt F) ((arg9.access (.whole S160x128)).loc (V d ((i 0).castLE hcore0) ((i 1).castLE hsub0)))} {fT : Buf (Elt F) ((arg11.access (.whole S160x128)).loc (V d ((i 0).castLE hcore0) ((i 1).castLE hsub0)))}
    {Φ : (Σ' (v327 : FVec F S16 .f32) (v338 : FVec F S16 .f32) (v349 : FVec F S16 .f32) (v360 : FVec F S16 .f32) (v366 : IVec S16 32), k0_chk61 v54 v366) → sProp 𝕄} :
    iprop(((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)
      ∗ ((((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)) -∗ Φ ⟨sqAcc ((arg9.access (.whole S160x128)).read (Elt F) fP) ((arg11.access (.whole S160x128)).read (Elt F) fT) v54 v322 k0_hw57.1 v283,
        sqAcc ((arg9.access (.whole S160x128)).read (Elt F) fP) ((arg11.access (.whole S160x128)).read (Elt F) fT) v54 (colAt v63 24#32 0#32) (inb_col (rows_lt k0_hw57.1) _ _ _) v294,
        sqAcc ((arg9.access (.whole S160x128)).read (Elt F) fP) ((arg11.access (.whole S160x128)).read (Elt F) fT) v54 (colAt v63 24#32 1#32) (inb_col (rows_lt k0_hw57.1) _ _ _) v305,
        sqAcc ((arg9.access (.whole S160x128)).read (Elt F) fP) ((arg11.access (.whole S160x128)).read (Elt F) fT) v54 (colAt v63 24#32 2#32) (inb_col (rows_lt k0_hw57.1) _ _ _) v316,
        colAt v63 24#32 3#32, chk_col (rows_lt k0_hw57.1) _ _ _⟩))
    ⊢ wp frame (wpE defs 𝒱 (V d ((i 0).castLE hcore0) ((i 1).castLE hsub0)) bd) E (k0_part15 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v54 v63 v283 v294 v305 v316 v322 k0_hw57) Φ := by
  unfold sqAcc colAt
  unfold k0_part15
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk58 _ _ from chk_col (rows_lt k0_hw57.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk59 _ _ from chk_col (rows_lt k0_hw57.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk60 _ _ from chk_col (rows_lt k0_hw57.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk61 _ _ from chk_col (rows_lt k0_hw57.1) _ _ _))
  rw [wp_ret]; imodintro
  iapply HΦ
  isplitl [HP]
  · iexact HP
  · iexact HT

set_option maxHeartbeats 4000000 in
theorem wp_part16 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v54 : IVec S16 32) (v63 : IVec S16 32) (v327 : FVec F S16 .f32) (v338 : FVec F S16 .f32) (v349 : FVec F S16 .f32) (v360 : FVec F S16 .f32) (v366 : IVec S16 32) (k0_hw61 : k0_chk61 v54 v366) (d : Dev nD)
    {qP qT : PosShare TreeShare} {fP : Buf (Elt F) ((arg9.access (.whole S160x128)).loc (V d ((i 0).castLE hcore0) ((i 1).castLE hsub0)))} {fT : Buf (Elt F) ((arg11.access (.whole S160x128)).loc (V d ((i 0).castLE hcore0) ((i 1).castLE hsub0)))}
    {Φ : (Σ' (v371 : FVec F S16 .f32) (v382 : FVec F S16 .f32) (v393 : FVec F S16 .f32) (v404 : FVec F S16 .f32) (v410 : IVec S16 32), k0_chk65 v54 v410) → sProp 𝕄} :
    iprop(((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)
      ∗ ((((arg9.access (.whole S160x128)).loc (V d ((i 0).castLE hcore0) ((i 1).castLE hsub0)) ↦{qP} fP) ∗ ((arg11.access (.whole S160x128)).loc (V d ((i 0).castLE hcore0) ((i 1).castLE hsub0)) ↦{qT} fT)) -∗ Φ ⟨sqAcc ((arg9.access (.whole S160x128)).read (Elt F) fP) ((arg11.access (.whole S160x128)).read (Elt F) fT) v54 v366 k0_hw61.1 v327,
        sqAcc ((arg9.access (.whole S160x128)).read (Elt F) fP) ((arg11.access (.whole S160x128)).read (Elt F) fT) v54 (colAt v63 28#32 0#32) (inb_col (rows_lt k0_hw61.1) _ _ _) v338,
        sqAcc ((arg9.access (.whole S160x128)).read (Elt F) fP) ((arg11.access (.whole S160x128)).read (Elt F) fT) v54 (colAt v63 28#32 1#32) (inb_col (rows_lt k0_hw61.1) _ _ _) v349,
        sqAcc ((arg9.access (.whole S160x128)).read (Elt F) fP) ((arg11.access (.whole S160x128)).read (Elt F) fT) v54 (colAt v63 28#32 2#32) (inb_col (rows_lt k0_hw61.1) _ _ _) v360,
        colAt v63 28#32 3#32, chk_col (rows_lt k0_hw61.1) _ _ _⟩))
    ⊢ wp frame (wpE defs 𝒱 (V d ((i 0).castLE hcore0) ((i 1).castLE hsub0)) bd) E (k0_part16 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v54 v63 v327 v338 v349 v360 v366 k0_hw61) Φ := by
  unfold sqAcc colAt
  unfold k0_part16
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk62 _ _ from chk_col (rows_lt k0_hw61.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk63 _ _ from chk_col (rows_lt k0_hw61.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk64 _ _ from chk_col (rows_lt k0_hw61.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk65 _ _ from chk_col (rows_lt k0_hw61.1) _ _ _))
  rw [wp_ret]; imodintro
  iapply HΦ
  isplitl [HP]
  · iexact HP
  · iexact HT

end Cert.Kernel.TileParts

end
-- ==== Proof.Bits.PartsC.lean ====
/-
  The compute site of a tile's last chunk, part by part: the eight unrolled parts of one outer step over the first
  pair of staged chunks, the row vector that of the last chunk's group. Each part runs four steps (the column vector is
  formed and found in range, both chunks are read at the lanes' indices, the squared difference goes into one
  accumulator), shifted by one. Both chunks are handed back as they were, and the part's results are the pure step
  terms of the chunks' contents and the incoming vectors.
-/
import proofs.«205036_g29618094473603_cont_9to1_1720_19_alg».proof.Proof.Bits.PartsLib

noncomputable section

namespace Cert.Kernel.TileParts

open Cert.Kernel
open Idealize.ShloMosaic
open Idealize.ShloMosaic.SparseCore (V)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Facts]
open Facts₀ Facts
variable {Ix : Type} [DecidableEq Ix] {Name : Type} [DecidableEq Name]
variable {U : Type} [URA U] {Lvl : Type} [Preorder Lvl]
variable {defs : Defs nD τ sig (Elt F) Λ₀} (𝒱 : Variants) (bd : Option 𝒱.V) (E : Set Name)

local notation "𝕄" => MT nD τ sig Ix (Elt F) Name U Lvl

set_option maxHeartbeats 4000000 in
theorem wp_part18 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v4 : IVec S16 32) (v27 : IVec S16 32) (c0_i32_26 : BitVec 32) (c1_i32_27 : BitVec 32) (k0_t8 : Fin k0_t8_loop.trips) (arg22 : FVec F S16 .f32) (arg23 : FVec F S16 .f32) (arg24 : FVec F S16 .f32) (d : Dev nD) (hr : ∀ x, (v27 x).toNat < 160)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v36 : IVec S16 32) (v47 : FVec F S16 .f32) (v58 : FVec F S16 .f32) (v69 : FVec F S16 .f32) (v75 : IVec S16 32), k0_chk70 v27 v75) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨(addi v4 (broadcast S16 (Scalar.muli (Scf.iv c0_i32_26 c1_i32_27 k0_t8) 32#32))),
        sqAcc ((arg8.access (.whole S160x128)).read (Elt F) fP) ((arg10.access (.whole S160x128)).read (Elt F) fT) v27 (colAt (addi v4 (broadcast S16 (Scalar.muli (Scf.iv c0_i32_26 c1_i32_27 k0_t8) 32#32))) 0#32 0#32) (inb_col hr _ _ _) arg22,
        sqAcc ((arg8.access (.whole S160x128)).read (Elt F) fP) ((arg10.access (.whole S160x128)).read (Elt F) fT) v27 (colAt (addi v4 (broadcast S16 (Scalar.muli (Scf.iv c0_i32_26 c1_i32_27 k0_t8) 32#32))) 0#32 1#32) (inb_col hr _ _ _) arg23,
        sqAcc ((arg8.access (.whole S160x128)).read (Elt F) fP) ((arg10.access (.whole S160x128)).read (Elt F) fT) v27 (colAt (addi v4 (broadcast S16 (Scalar.muli (Scf.iv c0_i32_26 c1_i32_27 k0_t8) 32#32))) 0#32 2#32) (inb_col hr _ _ _) arg24,
        colAt (addi v4 (broadcast S16 (Scalar.muli (Scf.iv c0_i32_26 c1_i32_27 k0_t8) 32#32))) 0#32 3#32, chk_col hr _ _ _⟩))
    ⊢ wp frame (wpE defs 𝒱 (V d ((i 0).castLE hcore0) ((i 1).castLE hsub0)) bd) E (k0_part18 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v4 v27 c0_i32_26 c1_i32_27 k0_t8 arg22 arg23 arg24) Φ := by
  unfold sqAcc colAt
  unfold k0_part18
  simp only [Prog.lift, Prog.bind_op, Prog.bind_ret, Prog.pure_eq_ret]
  iintro ⟨HP, HT, HΦ⟩
  iapply (wp_assume _ _ _ _ (show k0_chk67 _ _ from chk_col hr _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk68 _ _ from chk_col hr _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk69 _ _ from chk_col hr _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk70 _ _ from chk_col hr _ _ _))
  rw [wp_ret]; imodintro
  iapply HΦ
  isplitl [HP]
  · iexact HP
  · iexact HT

set_option maxHeartbeats 4000000 in
theorem wp_part19 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v27 : IVec S16 32) (arg25 : FVec F S16 .f32) (v36 : IVec S16 32) (v47 : FVec F S16 .f32) (v58 : FVec F S16 .f32) (v69 : FVec F S16 .f32) (v75 : IVec S16 32) (k0_hw70 : k0_chk70 v27 v75) (d : Dev nD)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v80 : FVec F S16 .f32) (v91 : FVec F S16 .f32) (v102 : FVec F S16 .f32) (v113 : FVec F S16 .f32) (v119 : IVec S16 32), k0_chk74 v27 v119) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨sqAcc ((arg8.access (.whole S160x128)).read (Elt F) fP) ((arg10.access (.whole S160x128)).read (Elt F) fT) v27 v75 k0_hw70.1 arg25,
        sqAcc ((arg8.access (.whole S160x128)).read (Elt F) fP) ((arg10.access (.whole S160x128)).read (Elt F) fT) v27 (colAt v36 4#32 0#32) (inb_col (rows_lt k0_hw70.1) _ _ _) v47,
        sqAcc ((arg8.access (.whole S160x128)).read (Elt F) fP) ((arg10.access (.whole S160x128)).read (Elt F) fT) v27 (colAt v36 4#32 1#32) (inb_col (rows_lt k0_hw70.1) _ _ _) v58,
        sqAcc ((arg8.access (.whole S160x128)).read (Elt F) fP) ((arg10.access (.whole S160x128)).read (Elt F) fT) v27 (colAt v36 4#32 2#32) (inb_col (rows_lt k0_hw70.1) _ _ _) v69,
        colAt v36 4#32 3#32, chk_col (rows_lt k0_hw70.1) _ _ _⟩))
    ⊢ wp frame (wpE defs 𝒱 (V d ((i 0).castLE hcore0) ((i 1).castLE hsub0)) bd) E (k0_part19 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v27 arg25 v36 v47 v58 v69 v75 k0_hw70) Φ := by
  unfold sqAcc colAt
  unfold k0_part19
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk71 _ _ from chk_col (rows_lt k0_hw70.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk72 _ _ from chk_col (rows_lt k0_hw70.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk73 _ _ from chk_col (rows_lt k0_hw70.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk74 _ _ from chk_col (rows_lt k0_hw70.1) _ _ _))
  rw [wp_ret]; imodintro
  iapply HΦ
  isplitl [HP]
  · iexact HP
  · iexact HT

set_option maxHeartbeats 4000000 in
theorem wp_part20 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v27 : IVec S16 32) (v36 : IVec S16 32) (v80 : FVec F S16 .f32) (v91 : FVec F S16 .f32) (v102 : FVec F S16 .f32) (v113 : FVec F S16 .f32) (v119 : IVec S16 32) (k0_hw74 : k0_chk74 v27 v119) (d : Dev nD)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v124 : FVec F S16 .f32) (v135 : FVec F S16 .f32) (v146 : FVec F S16 .f32) (v157 : FVec F S16 .f32) (v163 : IVec S16 32), k0_chk78 v27 v163) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨sqAcc ((arg8.access (.whole S160x128)).read (Elt F) fP) ((arg10.access (.whole S160x128)).read (Elt F) fT) v27 v119 k0_hw74.1 v80,
        sqAcc ((arg8.access (.whole S160x128)).read (Elt F) fP) ((arg10.access (.whole S160x128)).read (Elt F) fT) v27 (colAt v36 8#32 0#32) (inb_col (rows_lt k0_hw74.1) _ _ _) v91,
        sqAcc ((arg8.access (.whole S160x128)).read (Elt F) fP) ((arg10.access (.whole S160x128)).read (Elt F) fT) v27 (colAt v36 8#32 1#32) (inb_col (rows_lt k0_hw74.1) _ _ _) v102,
        sqAcc ((arg8.access (.whole S160x128)).read (Elt F) fP) ((arg10.access (.whole S160x128)).read (Elt F) fT) v27 (colAt v36 8#32 2#32) (inb_col (rows_lt k0_hw74.1) _ _ _) v113,
        colAt v36 8#32 3#32, chk_col (rows_lt k0_hw74.1) _ _ _⟩))
    ⊢ wp frame (wpE defs 𝒱 (V d ((i 0).castLE hcore0) ((i 1).castLE hsub0)) bd) E (k0_part20 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v27 v36 v80 v91 v102 v113 v119 k0_hw74) Φ := by
  unfold sqAcc colAt
  unfold k0_part20
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk75 _ _ from chk_col (rows_lt k0_hw74.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk76 _ _ from chk_col (rows_lt k0_hw74.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk77 _ _ from chk_col (rows_lt k0_hw74.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk78 _ _ from chk_col (rows_lt k0_hw74.1) _ _ _))
  rw [wp_ret]; imodintro
  iapply HΦ
  isplitl [HP]
  · iexact HP
  · iexact HT

set_option maxHeartbeats 4000000 in
theorem wp_part21 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v27 : IVec S16 32) (v36 : IVec S16 32) (v124 : FVec F S16 .f32) (v135 : FVec F S16 .f32) (v146 : FVec F S16 .f32) (v157 : FVec F S16 .f32) (v163 : IVec S16 32) (k0_hw78 : k0_chk78 v27 v163) (d : Dev nD)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v168 : FVec F S16 .f32) (v179 : FVec F S16 .f32) (v190 : FVec F S16 .f32) (v201 : FVec F S16 .f32) (v207 : IVec S16 32), k0_chk82 v27 v207) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨sqAcc ((arg8.access (.whole S160x128)).read (Elt F) fP) ((arg10.access (.whole S160x128)).read (Elt F) fT) v27 v163 k0_hw78.1 v124,
        sqAcc ((arg8.access (.whole S160x128)).read (Elt F) fP) ((arg10.access (.whole S160x128)).read (Elt F) fT) v27 (colAt v36 12#32 0#32) (inb_col (rows_lt k0_hw78.1) _ _ _) v135,
        sqAcc ((arg8.access (.whole S160x128)).read (Elt F) fP) ((arg10.access (.whole S160x128)).read (Elt F) fT) v27 (colAt v36 12#32 1#32) (inb_col (rows_lt k0_hw78.1) _ _ _) v146,
        sqAcc ((arg8.access (.whole S160x128)).read (Elt F) fP) ((arg10.access (.whole S160x128)).read (Elt F) fT) v27 (colAt v36 12#32 2#32) (inb_col (rows_lt k0_hw78.1) _ _ _) v157,
        colAt v36 12#32 3#32, chk_col (rows_lt k0_hw78.1) _ _ _⟩))
    ⊢ wp frame (wpE defs 𝒱 (V d ((i 0).castLE hcore0) ((i 1).castLE hsub0)) bd) E (k0_part21 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v27 v36 v124 v135 v146 v157 v163 k0_hw78) Φ := by
  unfold sqAcc colAt
  unfold k0_part21
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk79 _ _ from chk_col (rows_lt k0_hw78.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk80 _ _ from chk_col (rows_lt k0_hw78.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk81 _ _ from chk_col (rows_lt k0_hw78.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk82 _ _ from chk_col (rows_lt k0_hw78.1) _ _ _))
  rw [wp_ret]; imodintro
  iapply HΦ
  isplitl [HP]
  · iexact HP
  · iexact HT

set_option maxHeartbeats 4000000 in
theorem wp_part22 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v27 : IVec S16 32) (v36 : IVec S16 32) (v168 : FVec F S16 .f32) (v179 : FVec F S16 .f32) (v190 : FVec F S16 .f32) (v201 : FVec F S16 .f32) (v207 : IVec S16 32) (k0_hw82 : k0_chk82 v27 v207) (d : Dev nD)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v212 : FVec F S16 .f32) (v223 : FVec F S16 .f32) (v234 : FVec F S16 .f32) (v245 : FVec F S16 .f32) (v251 : IVec S16 32), k0_chk86 v27 v251) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨sqAcc ((arg8.access (.whole S160x128)).read (Elt F) fP) ((arg10.access (.whole S160x128)).read (Elt F) fT) v27 v207 k0_hw82.1 v168,
        sqAcc ((arg8.access (.whole S160x128)).read (Elt F) fP) ((arg10.access (.whole S160x128)).read (Elt F) fT) v27 (colAt v36 16#32 0#32) (inb_col (rows_lt k0_hw82.1) _ _ _) v179,
        sqAcc ((arg8.access (.whole S160x128)).read (Elt F) fP) ((arg10.access (.whole S160x128)).read (Elt F) fT) v27 (colAt v36 16#32 1#32) (inb_col (rows_lt k0_hw82.1) _ _ _) v190,
        sqAcc ((arg8.access (.whole S160x128)).read (Elt F) fP) ((arg10.access (.whole S160x128)).read (Elt F) fT) v27 (colAt v36 16#32 2#32) (inb_col (rows_lt k0_hw82.1) _ _ _) v201,
        colAt v36 16#32 3#32, chk_col (rows_lt k0_hw82.1) _ _ _⟩))
    ⊢ wp frame (wpE defs 𝒱 (V d ((i 0).castLE hcore0) ((i 1).castLE hsub0)) bd) E (k0_part22 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v27 v36 v168 v179 v190 v201 v207 k0_hw82) Φ := by
  unfold sqAcc colAt
  unfold k0_part22
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk83 _ _ from chk_col (rows_lt k0_hw82.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk84 _ _ from chk_col (rows_lt k0_hw82.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk85 _ _ from chk_col (rows_lt k0_hw82.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk86 _ _ from chk_col (rows_lt k0_hw82.1) _ _ _))
  rw [wp_ret]; imodintro
  iapply HΦ
  isplitl [HP]
  · iexact HP
  · iexact HT

set_option maxHeartbeats 4000000 in
theorem wp_part23 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v27 : IVec S16 32) (v36 : IVec S16 32) (v212 : FVec F S16 .f32) (v223 : FVec F S16 .f32) (v234 : FVec F S16 .f32) (v245 : FVec F S16 .f32) (v251 : IVec S16 32) (k0_hw86 : k0_chk86 v27 v251) (d : Dev nD)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v256 : FVec F S16 .f32) (v267 : FVec F S16 .f32) (v278 : FVec F S16 .f32) (v289 : FVec F S16 .f32) (v295 : IVec S16 32), k0_chk90 v27 v295) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨sqAcc ((arg8.access (.whole S160x128)).read (Elt F) fP) ((arg10.access (.whole S160x128)).read (Elt F) fT) v27 v251 k0_hw86.1 v212,
        sqAcc ((arg8.access (.whole S160x128)).read (Elt F) fP) ((arg10.access (.whole S160x128)).read (Elt F) fT) v27 (colAt v36 20#32 0#32) (inb_col (rows_lt k0_hw86.1) _ _ _) v223,
        sqAcc ((arg8.access (.whole S160x128)).read (Elt F) fP) ((arg10.access (.whole S160x128)).read (Elt F) fT) v27 (colAt v36 20#32 1#32) (inb_col (rows_lt k0_hw86.1) _ _ _) v234,
        sqAcc ((arg8.access (.whole S160x128)).read (Elt F) fP) ((arg10.access (.whole S160x128)).read (Elt F) fT) v27 (colAt v36 20#32 2#32) (inb_col (rows_lt k0_hw86.1) _ _ _) v245,
        colAt v36 20#32 3#32, chk_col (rows_lt k0_hw86.1) _ _ _⟩))
    ⊢ wp frame (wpE defs 𝒱 (V d ((i 0).castLE hcore0) ((i 1).castLE hsub0)) bd) E (k0_part23 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v27 v36 v212 v223 v234 v245 v251 k0_hw86) Φ := by
  unfold sqAcc colAt
  unfold k0_part23
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk87 _ _ from chk_col (rows_lt k0_hw86.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk88 _ _ from chk_col (rows_lt k0_hw86.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk89 _ _ from chk_col (rows_lt k0_hw86.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk90 _ _ from chk_col (rows_lt k0_hw86.1) _ _ _))
  rw [wp_ret]; imodintro
  iapply HΦ
  isplitl [HP]
  · iexact HP
  · iexact HT

set_option maxHeartbeats 4000000 in
theorem wp_part24 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v27 : IVec S16 32) (v36 : IVec S16 32) (v256 : FVec F S16 .f32) (v267 : FVec F S16 .f32) (v278 : FVec F S16 .f32) (v289 : FVec F S16 .f32) (v295 : IVec S16 32) (k0_hw90 : k0_chk90 v27 v295) (d : Dev nD)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v300 : FVec F S16 .f32) (v311 : FVec F S16 .f32) (v322 : FVec F S16 .f32) (v333 : FVec F S16 .f32) (v339 : IVec S16 32), k0_chk94 v27 v339) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨sqAcc ((arg8.access (.whole S160x128)).read (Elt F) fP) ((arg10.access (.whole S160x128)).read (Elt F) fT) v27 v295 k0_hw90.1 v256,
        sqAcc ((arg8.access (.whole S160x128)).read (Elt F) fP) ((arg10.access (.whole S160x128)).read (Elt F) fT) v27 (colAt v36 24#32 0#32) (inb_col (rows_lt k0_hw90.1) _ _ _) v267,
        sqAcc ((arg8.access (.whole S160x128)).read (Elt F) fP) ((arg10.access (.whole S160x128)).read (Elt F) fT) v27 (colAt v36 24#32 1#32) (inb_col (rows_lt k0_hw90.1) _ _ _) v278,
        sqAcc ((arg8.access (.whole S160x128)).read (Elt F) fP) ((arg10.access (.whole S160x128)).read (Elt F) fT) v27 (colAt v36 24#32 2#32) (inb_col (rows_lt k0_hw90.1) _ _ _) v289,
        colAt v36 24#32 3#32, chk_col (rows_lt k0_hw90.1) _ _ _⟩))
    ⊢ wp frame (wpE defs 𝒱 (V d ((i 0).castLE hcore0) ((i 1).castLE hsub0)) bd) E (k0_part24 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v27 v36 v256 v267 v278 v289 v295 k0_hw90) Φ := by
  unfold sqAcc colAt
  unfold k0_part24
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk91 _ _ from chk_col (rows_lt k0_hw90.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk92 _ _ from chk_col (rows_lt k0_hw90.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk93 _ _ from chk_col (rows_lt k0_hw90.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk94 _ _ from chk_col (rows_lt k0_hw90.1) _ _ _))
  rw [wp_ret]; imodintro
  iapply HΦ
  isplitl [HP]
  · iexact HP
  · iexact HT

set_option maxHeartbeats 4000000 in
theorem wp_part25 (i : grid0.Coords) (arg2 : Memref sig .scVector .hbm S320000x128 .f32) (harg2 : arg2.IsWhole) (arg3 : Memref sig .scVector .hbm S320000x128 .f32) (harg3 : arg3.IsWhole) (arg4 : Memref sig .scVector .hbm S320000 .i32) (harg4 : arg4.IsWhole) (arg5 : Memref sig .scVector .hbm S320000 .f32) (harg5 : arg5.IsWhole) (arg6 : Memref sig .scVector .hbm S32x64x16 .f32) (harg6 : arg6.IsWhole) (arg7 : Memref sig .scVector .hbm S32x64x16 .f32) (harg7 : arg7.IsWhole) (arg8 : Memref sig .scVector .vmem S160x128 .f32) (harg8 : arg8.IsWhole) (arg9 : Memref sig .scVector .vmem S160x128 .f32) (harg9 : arg9.IsWhole) (arg10 : Memref sig .scVector .vmem S160x128 .f32) (harg10 : arg10.IsWhole) (arg11 : Memref sig .scVector .vmem S160x128 .f32) (harg11 : arg11.IsWhole) (arg12 : Memref sig .scVector .vmem S5600 .i32) (harg12 : arg12.IsWhole) (arg13 : Memref sig .scVector .vmem S5600 .f32) (harg13 : arg13.IsWhole) (arg14 : Memref sig .scVector .vmem S64x16 .f32) (harg14 : arg14.IsWhole) (arg15 : Memref sig .scVector .vmem S64x16 .f32) (harg15 : arg15.IsWhole) (arg16 : DmaSems sig S_) (arg17 : DmaSems sig S_) (arg18 : DmaSems sig S_) (arg19 : DmaSems sig S_) (v18_r0 : DmaSems sig S_) (v18_r1 : DmaSems sig S_) (v18_r2 : DmaSems sig S_) (v18_r3 : DmaSems sig S_) (v27 : IVec S16 32) (v36 : IVec S16 32) (v300 : FVec F S16 .f32) (v311 : FVec F S16 .f32) (v322 : FVec F S16 .f32) (v333 : FVec F S16 .f32) (v339 : IVec S16 32) (k0_hw94 : k0_chk94 v27 v339) (d : Dev nD)
    {qP qT : PosShare TreeShare} {fP : Buf (Elt F) ((arg8.access (.whole S160x128)).loc (V d ((i 0).castLE hcore0) ((i 1).castLE hsub0)))} {fT : Buf (Elt F) ((arg10.access (.whole S160x128)).loc (V d ((i 0).castLE hcore0) ((i 1).castLE hsub0)))}
    {Φ : (Σ' (v344 : FVec F S16 .f32) (v355 : FVec F S16 .f32) (v366 : FVec F S16 .f32) (v377 : FVec F S16 .f32) (v383 : IVec S16 32), k0_chk98 v27 v383) → sProp 𝕄} :
    iprop(((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)
      ∗ ((((arg8.access (.whole S160x128)).loc (V d ((i 0).castLE hcore0) ((i 1).castLE hsub0)) ↦{qP} fP) ∗ ((arg10.access (.whole S160x128)).loc (V d ((i 0).castLE hcore0) ((i 1).castLE hsub0)) ↦{qT} fT)) -∗ Φ ⟨sqAcc ((arg8.access (.whole S160x128)).read (Elt F) fP) ((arg10.access (.whole S160x128)).read (Elt F) fT) v27 v339 k0_hw94.1 v300,
        sqAcc ((arg8.access (.whole S160x128)).read (Elt F) fP) ((arg10.access (.whole S160x128)).read (Elt F) fT) v27 (colAt v36 28#32 0#32) (inb_col (rows_lt k0_hw94.1) _ _ _) v311,
        sqAcc ((arg8.access (.whole S160x128)).read (Elt F) fP) ((arg10.access (.whole S160x128)).read (Elt F) fT) v27 (colAt v36 28#32 1#32) (inb_col (rows_lt k0_hw94.1) _ _ _) v322,
        sqAcc ((arg8.access (.whole S160x128)).read (Elt F) fP) ((arg10.access (.whole S160x128)).read (Elt F) fT) v27 (colAt v36 28#32 2#32) (inb_col (rows_lt k0_hw94.1) _ _ _) v333,
        colAt v36 28#32 3#32, chk_col (rows_lt k0_hw94.1) _ _ _⟩))
    ⊢ wp frame (wpE defs 𝒱 (V d ((i 0).castLE hcore0) ((i 1).castLE hsub0)) bd) E (k0_part25 i arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v18_r0 v18_r1 v18_r2 v18_r3 v27 v36 v300 v311 v322 v333 v339 k0_hw94) Φ := by
  unfold sqAcc colAt
  unfold k0_part25
  simp only [Prog.lift, Prog.bind_op, Prog.bind_ret, Prog.pure_eq_ret]
  iintro ⟨HP, HT, HΦ⟩
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk95 _ _ from chk_col (rows_lt k0_hw94.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk96 _ _ from chk_col (rows_lt k0_hw94.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk97 _ _ from chk_col (rows_lt k0_hw94.1) _ _ _))
  iapply (SparseCore.wp_vectorLoadIdx _ _ _ _ (S := Finset.univ) (Finset.subset_univ _)) $$ HP; iintro HP
  iapply (SparseCore.wp_vectorLoadIdx _ _ _ _ (S := Finset.univ) (Finset.subset_univ _)) $$ HT; iintro HT
  iapply (wp_assume _ _ _ _ (show k0_chk98 _ _ from chk_col (rows_lt k0_hw94.1) _ _ _))
  rw [wp_ret]; imodintro
  iapply HΦ
  isplitl [HP]
  · iexact HP
  · iexact HT

end Cert.Kernel.TileParts

end
-- ==== Proof.Bits.AccLoops.lean ====
/-
  The accumulator loop of a group of rows, at each of the tile's three compute sites.

  Four outer steps; each runs the site's eight parts in order and a closing step, every part handing both staged chunks
  back and its results as the pure step terms, so that after outer step n the four accumulators are the pure
  accumulators after n outer steps. The loop ends with the four accumulators the row values are formed from.
-/
import proofs.«205036_g29618094473603_cont_9to1_1720_19_alg».proof.Proof.Bits.GroupLib
import proofs.«205036_g29618094473603_cont_9to1_1720_19_alg».proof.Proof.Bits.PartsA
import proofs.«205036_g29618094473603_cont_9to1_1720_19_alg».proof.Proof.Bits.PartsB
import proofs.«205036_g29618094473603_cont_9to1_1720_19_alg».proof.Proof.Bits.PartsC
import Idealize.ShloMosaic.Lib.Tactic

noncomputable section

namespace Cert.Kernel.TileParts

open Cert.Kernel
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Tactic
open Cert.Kernel.Tile (thr pW tW bW fW nW cW sP0 sP1 sT0 sT1 sB sFl sN sC)
open Cert.Kernel.TilePure

variable {F : FTy → Type} [FloatOps F] [Facts]
open Facts₀ Facts
variable {UU : Type} [URA UU]
variable {defs : Defs nD τ sig (Elt F) Λ₀} (𝒱 : Variants) (bd : Option 𝒱.V)

local notation "𝕄" => MT nD τ sig (HIx 1) (Elt F) ℕ UU ℕ

set_option maxHeartbeats 8000000 in
/-- The accumulator loop of a group: four outer steps of eight parts and a closing step, both chunks handed back, the
    four accumulators those of the group's rows. -/
theorem wp_accLoop3 (E : Set ℕ) (L : grid0.Coords) (d : Dev nD) (v54 : IVec S16 32) (hr : ∀ x, (v54 x).toNat < 160)
    {qP qT : PosShare TreeShare} {fP : Buf (Elt F) (sP0.view.loc (thr d L))} {fT : Buf (Elt F) (sT0.view.loc (thr d L))}
    {α : Type} (kk : (FVec F S16 .f32 × FVec F S16 .f32 × FVec F S16 .f32 × FVec F S16 .f32) → Prog (TpuEff nD τ sig (Elt F) Λ₀ (thr d L).2) α) (Q : α → sProp 𝕄) :
    iprop((sP0.view.loc (thr d L) ↦{qP} fP) ∗ (sT0.view.loc (thr d L) ↦{qT} fT)
      ∗ (((sP0.view.loc (thr d L) ↦{qP} fP) ∗ (sT0.view.loc (thr d L) ↦{qT} fT)) -∗
          wp frame (wpE defs 𝒱 (thr d L) bd) E (kk (laneAcc ((sP0.access (.whole S160x128)).read (Elt F) fP) ((sT0.access (.whole S160x128)).read (Elt F) fT) v54 hr 0#32, laneAcc ((sP0.access (.whole S160x128)).read (Elt F) fP) ((sT0.access (.whole S160x128)).read (Elt F) fT) v54 hr 1#32, laneAcc ((sP0.access (.whole S160x128)).read (Elt F) fP) ((sT0.access (.whole S160x128)).read (Elt F) fT) v54 hr 2#32, laneAcc ((sP0.access (.whole S160x128)).read (Elt F) fP) ((sT0.access (.whole S160x128)).read (Elt F) fT) v54 hr 3#32)) Q))
    ⊢ wp frame (wpE defs 𝒱 (thr d L) bd) E ((
      Scf.Loop.for k0_t4_loop k0_t4_ok (zero16, zero16, zero16, zero16) fun k0_t4 (arg23, arg24, arg25, arg26) => do
        let ⟨v63, v74, v85, v96, v102, k0_hw4⟩ : Σ' (v63 : IVec S16 32) (v74 : FVec F S16 .f32) (v85 : FVec F S16 .f32) (v96 : FVec F S16 .f32) (v102 : IVec S16 32), k0_chk4 v54 v102 ← k0_part1 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 lanes v54 (0#32 : BitVec 32) (1#32 : BitVec 32) k0_t4 arg23 arg24 arg25
        let ⟨v107, v118, v129, v140, v146, k0_hw8⟩ : Σ' (v107 : FVec F S16 .f32) (v118 : FVec F S16 .f32) (v129 : FVec F S16 .f32) (v140 : FVec F S16 .f32) (v146 : IVec S16 32), k0_chk8 v54 v146 ← k0_part2 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 arg26 v63 v74 v85 v96 v102 k0_hw4
        let ⟨v151, v162, v173, v184, v190, k0_hw12⟩ : Σ' (v151 : FVec F S16 .f32) (v162 : FVec F S16 .f32) (v173 : FVec F S16 .f32) (v184 : FVec F S16 .f32) (v190 : IVec S16 32), k0_chk12 v54 v190 ← k0_part3 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v107 v118 v129 v140 v146 k0_hw8
        let ⟨v195, v206, v217, v228, v234, k0_hw16⟩ : Σ' (v195 : FVec F S16 .f32) (v206 : FVec F S16 .f32) (v217 : FVec F S16 .f32) (v228 : FVec F S16 .f32) (v234 : IVec S16 32), k0_chk16 v54 v234 ← k0_part4 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v151 v162 v173 v184 v190 k0_hw12
        let ⟨v239, v250, v261, v272, v278, k0_hw20⟩ : Σ' (v239 : FVec F S16 .f32) (v250 : FVec F S16 .f32) (v261 : FVec F S16 .f32) (v272 : FVec F S16 .f32) (v278 : IVec S16 32), k0_chk20 v54 v278 ← k0_part5 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v195 v206 v217 v228 v234 k0_hw16
        let ⟨v283, v294, v305, v316, v322, k0_hw24⟩ : Σ' (v283 : FVec F S16 .f32) (v294 : FVec F S16 .f32) (v305 : FVec F S16 .f32) (v316 : FVec F S16 .f32) (v322 : IVec S16 32), k0_chk24 v54 v322 ← k0_part6 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v239 v250 v261 v272 v278 k0_hw20
        let ⟨v327, v338, v349, v360, v366, k0_hw28⟩ : Σ' (v327 : FVec F S16 .f32) (v338 : FVec F S16 .f32) (v349 : FVec F S16 .f32) (v360 : FVec F S16 .f32) (v366 : IVec S16 32), k0_chk28 v54 v366 ← k0_part7 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v283 v294 v305 v316 v322 k0_hw24
        let ⟨v371, v382, v393, v404, v410, k0_hw32⟩ : Σ' (v371 : FVec F S16 .f32) (v382 : FVec F S16 .f32) (v393 : FVec F S16 .f32) (v404 : FVec F S16 .f32) (v410 : IVec S16 32), k0_chk32 v54 v410 ← k0_part8 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v327 v338 v349 v360 v366 k0_hw28
        let v411 : Vec F S16 .f32 ← SparseCore.vectorLoadIdx sP0 ![v54, v410] (k0_idx63_inb v54 v410 k0_hw32) (View.loads_vmem h_S160x128)
        let v412 : Vec F S16 .f32 ← SparseCore.vectorLoadIdx sT0 ![v54, v410] (k0_idx64_inb v54 v410 k0_hw32) (View.loads_vmem h_S160x128)
        have v413 : FVec F S16 .f32 := subf v411 v412
        have v414 : FVec F S16 .f32 := mulf v413 v413
        have v415 : FVec F S16 .f32 := addf v371 v414
        pure (v382, v393, v404, v415)) >>= kk) Q := by
  have h4 : Scf.trips k0_t4_loop.lb k0_t4_loop.ub k0_t4_loop.st = 4 := by decide
  iintro ⟨HP, HT, Hk⟩
  sl_for (invAcc (sP0.view.loc (thr d L) ↦{qP} fP) (sT0.view.loc (thr d L) ↦{qT} fT) ((sP0.access (.whole S160x128)).read (Elt F) fP) ((sT0.access (.whole S160x128)).read (Elt F) fT) v54 hr) $$ [HP HT]
  case region =>
    intro k acc
    obtain ⟨a0, a1, a2, a3⟩ := acc
    unfold invAcc
    iintro ⟨HP, HT, %hacc⟩
    obtain ⟨rfl, rfl, rfl, rfl⟩ := Prod.mk.injEq .. ▸ hacc
    sl_respell []
    rw [wp_bind]; iapply (wp_part1 𝒱 bd E _ _ _ _ _ _ _ _ _ _ _ _ _ _ _ _ _ _ _ _ _ _ _ _ _ _ _ _ _ _ _ _ _ _ _ _ _ _ _ _ _ _ _ _ _ d hr)
    isplitl [HP]; · iexact HP
    isplitl [HT]; · iexact HT
    iintro ⟨HP, HT⟩; dsimp only
    rw [wp_bind]; iapply (wp_part2 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part3 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part4 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part5 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part6 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part7 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part8 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    iapply (SparseCore.wp_vectorLoadIdx _ _ _ _ (S := Finset.univ) (Finset.subset_univ _)) $$ HP; iintro HP
    iapply (SparseCore.wp_vectorLoadIdx _ _ _ _ (S := Finset.univ) (Finset.subset_univ _)) $$ HT; iintro HT
    simp only [Prog.pure_eq_ret]
    rw [wp_ret]; imodintro
    isplitl [HP]; · iexact HP
    isplitl [HT]; · iexact HT
    ipureintro
    refine congrArg₂ Prod.mk ?_ (congrArg₂ Prod.mk ?_ (congrArg₂ Prod.mk ?_ ?_))
    all_goals exact Eq.trans rfl ((accUpTo_succ _ _ _ _ _ _).trans (tripAcc_nest _ _ _ _ _ _ _)).symm
  · unfold invAcc
    isplitl [HP]; · iexact HP
    isplitl [HT]; · iexact HT
    ipureintro
    rw [accUpTo_zero, accUpTo_zero, accUpTo_zero, accUpTo_zero]
  rw [h4]
  iintro %acc HI
  unfold invAcc
  icases HI with ⟨HP, HT, %hacc⟩
  subst hacc
  rw [accUpTo_four, accUpTo_four, accUpTo_four, accUpTo_four]
  iapply Hk
  isplitl [HP]; · iexact HP
  iexact HT

set_option maxHeartbeats 8000000 in
/-- The accumulator loop of a group: four outer steps of eight parts and a closing step, both chunks handed back, the
    four accumulators those of the group's rows. -/
theorem wp_accLoop5 (E : Set ℕ) (L : grid0.Coords) (d : Dev nD) (v54 : IVec S16 32) (hr : ∀ x, (v54 x).toNat < 160)
    {qP qT : PosShare TreeShare} {fP : Buf (Elt F) (sP1.view.loc (thr d L))} {fT : Buf (Elt F) (sT1.view.loc (thr d L))}
    {α : Type} (kk : (FVec F S16 .f32 × FVec F S16 .f32 × FVec F S16 .f32 × FVec F S16 .f32) → Prog (TpuEff nD τ sig (Elt F) Λ₀ (thr d L).2) α) (Q : α → sProp 𝕄) :
    iprop((sP1.view.loc (thr d L) ↦{qP} fP) ∗ (sT1.view.loc (thr d L) ↦{qT} fT)
      ∗ (((sP1.view.loc (thr d L) ↦{qP} fP) ∗ (sT1.view.loc (thr d L) ↦{qT} fT)) -∗
          wp frame (wpE defs 𝒱 (thr d L) bd) E (kk (laneAcc ((sP1.access (.whole S160x128)).read (Elt F) fP) ((sT1.access (.whole S160x128)).read (Elt F) fT) v54 hr 0#32, laneAcc ((sP1.access (.whole S160x128)).read (Elt F) fP) ((sT1.access (.whole S160x128)).read (Elt F) fT) v54 hr 1#32, laneAcc ((sP1.access (.whole S160x128)).read (Elt F) fP) ((sT1.access (.whole S160x128)).read (Elt F) fT) v54 hr 2#32, laneAcc ((sP1.access (.whole S160x128)).read (Elt F) fP) ((sT1.access (.whole S160x128)).read (Elt F) fT) v54 hr 3#32)) Q))
    ⊢ wp frame (wpE defs 𝒱 (thr d L) bd) E ((
      Scf.Loop.for k0_t6_loop k0_t6_ok (zero16, zero16, zero16, zero16) fun k0_t6 (arg23, arg24, arg25, arg26) => do
        let ⟨v63, v74, v85, v96, v102, k0_hw37⟩ : Σ' (v63 : IVec S16 32) (v74 : FVec F S16 .f32) (v85 : FVec F S16 .f32) (v96 : FVec F S16 .f32) (v102 : IVec S16 32), k0_chk37 v54 v102 ← k0_part9 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 lanes v54 (0#32 : BitVec 32) (1#32 : BitVec 32) k0_t6 arg23 arg24 arg25
        let ⟨v107, v118, v129, v140, v146, k0_hw41⟩ : Σ' (v107 : FVec F S16 .f32) (v118 : FVec F S16 .f32) (v129 : FVec F S16 .f32) (v140 : FVec F S16 .f32) (v146 : IVec S16 32), k0_chk41 v54 v146 ← k0_part10 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 arg26 v63 v74 v85 v96 v102 k0_hw37
        let ⟨v151, v162, v173, v184, v190, k0_hw45⟩ : Σ' (v151 : FVec F S16 .f32) (v162 : FVec F S16 .f32) (v173 : FVec F S16 .f32) (v184 : FVec F S16 .f32) (v190 : IVec S16 32), k0_chk45 v54 v190 ← k0_part11 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v107 v118 v129 v140 v146 k0_hw41
        let ⟨v195, v206, v217, v228, v234, k0_hw49⟩ : Σ' (v195 : FVec F S16 .f32) (v206 : FVec F S16 .f32) (v217 : FVec F S16 .f32) (v228 : FVec F S16 .f32) (v234 : IVec S16 32), k0_chk49 v54 v234 ← k0_part12 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v151 v162 v173 v184 v190 k0_hw45
        let ⟨v239, v250, v261, v272, v278, k0_hw53⟩ : Σ' (v239 : FVec F S16 .f32) (v250 : FVec F S16 .f32) (v261 : FVec F S16 .f32) (v272 : FVec F S16 .f32) (v278 : IVec S16 32), k0_chk53 v54 v278 ← k0_part13 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v195 v206 v217 v228 v234 k0_hw49
        let ⟨v283, v294, v305, v316, v322, k0_hw57⟩ : Σ' (v283 : FVec F S16 .f32) (v294 : FVec F S16 .f32) (v305 : FVec F S16 .f32) (v316 : FVec F S16 .f32) (v322 : IVec S16 32), k0_chk57 v54 v322 ← k0_part14 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v239 v250 v261 v272 v278 k0_hw53
        let ⟨v327, v338, v349, v360, v366, k0_hw61⟩ : Σ' (v327 : FVec F S16 .f32) (v338 : FVec F S16 .f32) (v349 : FVec F S16 .f32) (v360 : FVec F S16 .f32) (v366 : IVec S16 32), k0_chk61 v54 v366 ← k0_part15 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v283 v294 v305 v316 v322 k0_hw57
        let ⟨v371, v382, v393, v404, v410, k0_hw65⟩ : Σ' (v371 : FVec F S16 .f32) (v382 : FVec F S16 .f32) (v393 : FVec F S16 .f32) (v404 : FVec F S16 .f32) (v410 : IVec S16 32), k0_chk65 v54 v410 ← k0_part16 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v327 v338 v349 v360 v366 k0_hw61
        let v411 : Vec F S16 .f32 ← SparseCore.vectorLoadIdx sP1 ![v54, v410] (k0_idx129_inb v54 v410 k0_hw65) (View.loads_vmem h_S160x128)
        let v412 : Vec F S16 .f32 ← SparseCore.vectorLoadIdx sT1 ![v54, v410] (k0_idx130_inb v54 v410 k0_hw65) (View.loads_vmem h_S160x128)
        have v413 : FVec F S16 .f32 := subf v411 v412
        have v414 : FVec F S16 .f32 := mulf v413 v413
        have v415 : FVec F S16 .f32 := addf v371 v414
        pure (v382, v393, v404, v415)) >>= kk) Q := by
  have h4 : Scf.trips k0_t6_loop.lb k0_t6_loop.ub k0_t6_loop.st = 4 := by decide
  iintro ⟨HP, HT, Hk⟩
  sl_for (invAcc (sP1.view.loc (thr d L) ↦{qP} fP) (sT1.view.loc (thr d L) ↦{qT} fT) ((sP1.access (.whole S160x128)).read (Elt F) fP) ((sT1.access (.whole S160x128)).read (Elt F) fT) v54 hr) $$ [HP HT]
  case region =>
    intro k acc
    obtain ⟨a0, a1, a2, a3⟩ := acc
    unfold invAcc
    iintro ⟨HP, HT, %hacc⟩
    obtain ⟨rfl, rfl, rfl, rfl⟩ := Prod.mk.injEq .. ▸ hacc
    sl_respell []
    rw [wp_bind]; iapply (wp_part9 𝒱 bd E _ _ _ _ _ _ _ _ _ _ _ _ _ _ _ _ _ _ _ _ _ _ _ _ _ _ _ _ _ _ _ _ _ _ _ _ _ _ _ _ _ _ _ _ _ d hr)
    isplitl [HP]; · iexact HP
    isplitl [HT]; · iexact HT
    iintro ⟨HP, HT⟩; dsimp only
    rw [wp_bind]; iapply (wp_part10 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part11 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part12 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part13 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part14 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part15 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part16 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    iapply (SparseCore.wp_vectorLoadIdx _ _ _ _ (S := Finset.univ) (Finset.subset_univ _)) $$ HP; iintro HP
    iapply (SparseCore.wp_vectorLoadIdx _ _ _ _ (S := Finset.univ) (Finset.subset_univ _)) $$ HT; iintro HT
    simp only [Prog.pure_eq_ret]
    rw [wp_ret]; imodintro
    isplitl [HP]; · iexact HP
    isplitl [HT]; · iexact HT
    ipureintro
    refine congrArg₂ Prod.mk ?_ (congrArg₂ Prod.mk ?_ (congrArg₂ Prod.mk ?_ ?_))
    all_goals exact Eq.trans rfl ((accUpTo_succ _ _ _ _ _ _).trans (tripAcc_nest _ _ _ _ _ _ _)).symm
  · unfold invAcc
    isplitl [HP]; · iexact HP
    isplitl [HT]; · iexact HT
    ipureintro
    rw [accUpTo_zero, accUpTo_zero, accUpTo_zero, accUpTo_zero]
  rw [h4]
  iintro %acc HI
  unfold invAcc
  icases HI with ⟨HP, HT, %hacc⟩
  subst hacc
  rw [accUpTo_four, accUpTo_four, accUpTo_four, accUpTo_four]
  iapply Hk
  isplitl [HP]; · iexact HP
  iexact HT

set_option maxHeartbeats 8000000 in
/-- The accumulator loop of a group: four outer steps of eight parts and a closing step, both chunks handed back, the
    four accumulators those of the group's rows. -/
theorem wp_accLoop7 (E : Set ℕ) (L : grid0.Coords) (d : Dev nD) (v27 : IVec S16 32) (hr : ∀ x, (v27 x).toNat < 160)
    {qP qT : PosShare TreeShare} {fP : Buf (Elt F) (sP0.view.loc (thr d L))} {fT : Buf (Elt F) (sT0.view.loc (thr d L))}
    {α : Type} (kk : (FVec F S16 .f32 × FVec F S16 .f32 × FVec F S16 .f32 × FVec F S16 .f32) → Prog (TpuEff nD τ sig (Elt F) Λ₀ (thr d L).2) α) (Q : α → sProp 𝕄) :
    iprop((sP0.view.loc (thr d L) ↦{qP} fP) ∗ (sT0.view.loc (thr d L) ↦{qT} fT)
      ∗ (((sP0.view.loc (thr d L) ↦{qP} fP) ∗ (sT0.view.loc (thr d L) ↦{qT} fT)) -∗
          wp frame (wpE defs 𝒱 (thr d L) bd) E (kk (laneAcc ((sP0.access (.whole S160x128)).read (Elt F) fP) ((sT0.access (.whole S160x128)).read (Elt F) fT) v27 hr 0#32, laneAcc ((sP0.access (.whole S160x128)).read (Elt F) fP) ((sT0.access (.whole S160x128)).read (Elt F) fT) v27 hr 1#32, laneAcc ((sP0.access (.whole S160x128)).read (Elt F) fP) ((sT0.access (.whole S160x128)).read (Elt F) fT) v27 hr 2#32, laneAcc ((sP0.access (.whole S160x128)).read (Elt F) fP) ((sT0.access (.whole S160x128)).read (Elt F) fT) v27 hr 3#32)) Q))
    ⊢ wp frame (wpE defs 𝒱 (thr d L) bd) E ((
      Scf.Loop.for k0_t8_loop k0_t8_ok (zero16, zero16, zero16, zero16) fun k0_t8 (arg22, arg23, arg24, arg25) => do
        let ⟨v36, v47, v58, v69, v75, k0_hw70⟩ : Σ' (v36 : IVec S16 32) (v47 : FVec F S16 .f32) (v58 : FVec F S16 .f32) (v69 : FVec F S16 .f32) (v75 : IVec S16 32), k0_chk70 v27 v75 ← k0_part18 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 lanes v27 (0#32 : BitVec 32) (1#32 : BitVec 32) k0_t8 arg22 arg23 arg24
        let ⟨v80, v91, v102, v113, v119, k0_hw74⟩ : Σ' (v80 : FVec F S16 .f32) (v91 : FVec F S16 .f32) (v102 : FVec F S16 .f32) (v113 : FVec F S16 .f32) (v119 : IVec S16 32), k0_chk74 v27 v119 ← k0_part19 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 arg25 v36 v47 v58 v69 v75 k0_hw70
        let ⟨v124, v135, v146, v157, v163, k0_hw78⟩ : Σ' (v124 : FVec F S16 .f32) (v135 : FVec F S16 .f32) (v146 : FVec F S16 .f32) (v157 : FVec F S16 .f32) (v163 : IVec S16 32), k0_chk78 v27 v163 ← k0_part20 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v80 v91 v102 v113 v119 k0_hw74
        let ⟨v168, v179, v190, v201, v207, k0_hw82⟩ : Σ' (v168 : FVec F S16 .f32) (v179 : FVec F S16 .f32) (v190 : FVec F S16 .f32) (v201 : FVec F S16 .f32) (v207 : IVec S16 32), k0_chk82 v27 v207 ← k0_part21 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v124 v135 v146 v157 v163 k0_hw78
        let ⟨v212, v223, v234, v245, v251, k0_hw86⟩ : Σ' (v212 : FVec F S16 .f32) (v223 : FVec F S16 .f32) (v234 : FVec F S16 .f32) (v245 : FVec F S16 .f32) (v251 : IVec S16 32), k0_chk86 v27 v251 ← k0_part22 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v168 v179 v190 v201 v207 k0_hw82
        let ⟨v256, v267, v278, v289, v295, k0_hw90⟩ : Σ' (v256 : FVec F S16 .f32) (v267 : FVec F S16 .f32) (v278 : FVec F S16 .f32) (v289 : FVec F S16 .f32) (v295 : IVec S16 32), k0_chk90 v27 v295 ← k0_part23 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v212 v223 v234 v245 v251 k0_hw86
        let ⟨v300, v311, v322, v333, v339, k0_hw94⟩ : Σ' (v300 : FVec F S16 .f32) (v311 : FVec F S16 .f32) (v322 : FVec F S16 .f32) (v333 : FVec F S16 .f32) (v339 : IVec S16 32), k0_chk94 v27 v339 ← k0_part24 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v256 v267 v278 v289 v295 k0_hw90
        let ⟨v344, v355, v366, v377, v383, k0_hw98⟩ : Σ' (v344 : FVec F S16 .f32) (v355 : FVec F S16 .f32) (v366 : FVec F S16 .f32) (v377 : FVec F S16 .f32) (v383 : IVec S16 32), k0_chk98 v27 v383 ← k0_part25 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v300 v311 v322 v333 v339 k0_hw94
        let v384 : Vec F S16 .f32 ← SparseCore.vectorLoadIdx sP0 ![v27, v383] (k0_idx195_inb v27 v383 k0_hw98) (View.loads_vmem h_S160x128)
        let v385 : Vec F S16 .f32 ← SparseCore.vectorLoadIdx sT0 ![v27, v383] (k0_idx196_inb v27 v383 k0_hw98) (View.loads_vmem h_S160x128)
        have v386 : FVec F S16 .f32 := subf v384 v385
        have v387 : FVec F S16 .f32 := mulf v386 v386
        have v388 : FVec F S16 .f32 := addf v344 v387
        pure (v355, v366, v377, v388)) >>= kk) Q := by
  have h4 : Scf.trips k0_t8_loop.lb k0_t8_loop.ub k0_t8_loop.st = 4 := by decide
  iintro ⟨HP, HT, Hk⟩
  sl_for (invAcc (sP0.view.loc (thr d L) ↦{qP} fP) (sT0.view.loc (thr d L) ↦{qT} fT) ((sP0.access (.whole S160x128)).read (Elt F) fP) ((sT0.access (.whole S160x128)).read (Elt F) fT) v27 hr) $$ [HP HT]
  case region =>
    intro k acc
    obtain ⟨a0, a1, a2, a3⟩ := acc
    unfold invAcc
    iintro ⟨HP, HT, %hacc⟩
    obtain ⟨rfl, rfl, rfl, rfl⟩ := Prod.mk.injEq .. ▸ hacc
    sl_respell []
    rw [wp_bind]; iapply (wp_part18 𝒱 bd E _ _ _ _ _ _ _ _ _ _ _ _ _ _ _ _ _ _ _ _ _ _ _ _ _ _ _ _ _ _ _ _ _ _ _ _ _ _ _ _ _ _ _ _ _ d hr)
    isplitl [HP]; · iexact HP
    isplitl [HT]; · iexact HT
    iintro ⟨HP, HT⟩; dsimp only
    rw [wp_bind]; iapply (wp_part19 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part20 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part21 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part22 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part23 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part24 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    rw [wp_bind]; iapply (wp_part25 𝒱 bd E _ _ _ _ _ _ _ _ _ _ _ _ _ _ _ _ _ _ _ _ _ _ _ _ _ _ _ _ _ _ _ _ _ _ _ _ _ _ _ _ _ _ _ _ _ d)
    isplitl [HP]; · iexact HP
    isplitl [HT]; · iexact HT
    iintro ⟨HP, HT⟩; dsimp only
    iapply (SparseCore.wp_vectorLoadIdx _ _ _ _ (S := Finset.univ) (Finset.subset_univ _)) $$ HP; iintro HP
    iapply (SparseCore.wp_vectorLoadIdx _ _ _ _ (S := Finset.univ) (Finset.subset_univ _)) $$ HT; iintro HT
    simp only [Prog.pure_eq_ret]
    rw [wp_ret]; imodintro
    isplitl [HP]; · iexact HP
    isplitl [HT]; · iexact HT
    ipureintro
    refine congrArg₂ Prod.mk ?_ (congrArg₂ Prod.mk ?_ (congrArg₂ Prod.mk ?_ ?_))
    all_goals exact Eq.trans rfl ((accUpTo_succ _ _ _ _ _ _).trans (tripAcc_nest _ _ _ _ _ _ _)).symm
  · unfold invAcc
    isplitl [HP]; · iexact HP
    isplitl [HT]; · iexact HT
    ipureintro
    rw [accUpTo_zero, accUpTo_zero, accUpTo_zero, accUpTo_zero]
  rw [h4]
  iintro %acc HI
  unfold invAcc
  icases HI with ⟨HP, HT, %hacc⟩
  subst hacc
  rw [accUpTo_four, accUpTo_four, accUpTo_four, accUpTo_four]
  iapply Hk
  isplitl [HP]; · iexact HP
  iexact HT

end Cert.Kernel.TileParts

end
-- ==== Proof.Bits.TileStore.lean ====
/-
  A group's two indexed add-stores, as rules over the tables.

  A group ends by adding, lane by lane, a 16-vector into the entries (segment id of lane x, x) of one of the tile's two
  64 x 16 tables. The operation loads the whole table, scatters the vector into it with addition, and stores the whole
  table back; so a table held whole at contents N is afterwards held whole at `addAt N ids h v`.
-/
import proofs.«205036_g29618094473603_cont_9to1_1720_19_alg».proof.Proof.Bits.TilePure
import proofs.«205036_g29618094473603_cont_9to1_1720_19_alg».proof.Proof.Bits.TileLoopsBridge
import Idealize.ShloMosaic.Lib.SparseCore.Ops
import Idealize.ShloMosaic.Lib.Tactic

noncomputable section

namespace Cert.Kernel.TileParts

open Cert.Kernel
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Tactic
open Cert.Kernel.Tile (thr sN sC)
open Cert.Kernel.TilePure

variable {F : FTy → Type} [FloatOps F] [Facts]
open Facts₀ Facts
variable {UU : Type} [URA UU]
variable {defs : Defs nD τ sig (Elt F) Λ₀} (𝒱 : Variants) (bd : Option 𝒱.V)

local notation "𝕄" => MT nD τ sig (HIx 1) (Elt F) ℕ UU ℕ

/-- The indexed add-store into the table of masked sums. -/
theorem wp_addAt_sN (E : Set ℕ) (L : grid0.Coords) (d : Dev nD) (ids : IVec S16 32) (v : FVec F S16 .f32)
    (h : ∀ (a : Fin S64x16.rank) (x : S16.Idx), ((![ids, lanes] : Fin 2 → IVec S16 32) a x).toNat < S64x16.size a)
    (hs : (sN.access (.whole S64x16)).Stores Finset.univ) {α : Type} (k : PUnit → Prog (TpuEff nD τ sig (Elt F) Λ₀ (thr d L).2) α) (Q : α → sProp 𝕄)
    (N : Buf (Elt F) (sN.view.loc (thr d L))) :
    (sN.view.loc (thr d L) ↦{fullShare} N)
      ⊢ iprop(((sN.view.loc (thr d L) ↦{fullShare} (addAt (N : Vec F S64x16 .f32) ids h v : Vec F S64x16 .f32)) -∗ wp frame (wpE defs 𝒱 (thr d L) bd) E (k ⟨⟩) Q)
          -∗ wp frame (wpE defs 𝒱 (thr d L) bd) E (SparseCore.vectorStoreIdx sN ![ids, lanes] v (fun _ => 1#1) true h hs >>= k) Q) := by
  have hw := SparseCore.wp_vectorStoreIdx (defs := defs) 𝒱 (thr d L) bd E (base := sN) (idxs := ![ids, lanes]) (v := v)
    (mask := fun _ => 1#1) (add := true) (h := h) (hs := hs) (k := k) (Q := Q) (f := N)
  have e1 : (sN.access (Rect.whole S64x16)).set = Finset.univ := Memref.set_access_whole cc0_scratch6
  have e2 : ∀ w, (sN.access (Rect.whole S64x16)).write (Elt F) N w Finset.univ = w := fun w => Memref.write_access_whole_univ (Elt F) cc0_scratch6 N w
  have e3 : (sN.access (Rect.whole S64x16)).read (Elt F) N = N := Memref.read_access_whole (Elt F) cc0_scratch6 N
  rw [e1, e2, e3] at hw
  exact hw

/-- The indexed add-store into the table of counts. -/
theorem wp_addAt_sC (E : Set ℕ) (L : grid0.Coords) (d : Dev nD) (ids : IVec S16 32) (v : FVec F S16 .f32)
    (h : ∀ (a : Fin S64x16.rank) (x : S16.Idx), ((![ids, lanes] : Fin 2 → IVec S16 32) a x).toNat < S64x16.size a)
    (hs : (sC.access (.whole S64x16)).Stores Finset.univ) {α : Type} (k : PUnit → Prog (TpuEff nD τ sig (Elt F) Λ₀ (thr d L).2) α) (Q : α → sProp 𝕄)
    (C : Buf (Elt F) (sC.view.loc (thr d L))) :
    (sC.view.loc (thr d L) ↦{fullShare} C)
      ⊢ iprop(((sC.view.loc (thr d L) ↦{fullShare} (addAt (C : Vec F S64x16 .f32) ids h v : Vec F S64x16 .f32)) -∗ wp frame (wpE defs 𝒱 (thr d L) bd) E (k ⟨⟩) Q)
          -∗ wp frame (wpE defs 𝒱 (thr d L) bd) E (SparseCore.vectorStoreIdx sC ![ids, lanes] v (fun _ => 1#1) true h hs >>= k) Q) := by
  have hw := SparseCore.wp_vectorStoreIdx (defs := defs) 𝒱 (thr d L) bd E (base := sC) (idxs := ![ids, lanes]) (v := v)
    (mask := fun _ => 1#1) (add := true) (h := h) (hs := hs) (k := k) (Q := Q) (f := C)
  have e1 : (sC.access (Rect.whole S64x16)).set = Finset.univ := Memref.set_access_whole cc0_scratch7
  have e2 : ∀ w, (sC.access (Rect.whole S64x16)).write (Elt F) C w Finset.univ = w := fun w => Memref.write_access_whole_univ (Elt F) cc0_scratch7 C w
  have e3 : (sC.access (Rect.whole S64x16)).read (Elt F) C = C := Memref.read_access_whole (Elt F) cc0_scratch7 C
  rw [e1, e2, e3] at hw
  exact hw

end Cert.Kernel.TileParts

end
-- ==== Proof.Bits.Group3.lean ====
/-
  A chunk's ten groups at the tile's first compute site.

  Per group: the sixteen segment ids and the sixteen flags are read from the staged id and flag buffers at the group's
  offset; the ids are below 64 (every word of the id buffer is), so with the lane numbers they name entries of the
  64 x 16 tables; the accumulator loop forms the rows' values from the two staged chunks; value times flag is added into
  the table of masked sums and the flag into the table of counts, at (segment id, lane). The chunks and the id and flag
  buffers are handed back as they were; the tables are the pure fold of the ten group steps over what they held.
-/
import proofs.«205036_g29618094473603_cont_9to1_1720_19_alg».proof.Proof.Bits.GroupLib
import proofs.«205036_g29618094473603_cont_9to1_1720_19_alg».proof.Proof.Bits.AccLoops
import proofs.«205036_g29618094473603_cont_9to1_1720_19_alg».proof.Proof.Bits.TileStore
import Idealize.ShloMosaic.Lib.Tactic

noncomputable section

namespace Cert.Kernel.TileParts

open Cert.Kernel
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Tactic
open Cert.Kernel.Tile (thr pW tW bW fW nW cW sP0 sP1 sT0 sT1 sB sFl sN sC)
open Cert.Kernel.TilePure

variable {F : FTy → Type} [FloatOps F] [Facts]
open Facts₀ Facts
variable {UU : Type} [URA UU]
variable {defs : Defs nD τ sig (Elt F) Λ₀} (𝒱 : Variants) (bd : Option 𝒱.V)

local notation "𝕄" => MT nD τ sig (HIx 1) (Elt F) ℕ UU ℕ

set_option maxHeartbeats 8000000 in
/-- A chunk's ten groups: per group the segment ids and the flags are read, the rows' values formed by the
    accumulator loop, and value times flag and flag added into the two tables at (segment id, lane). The chunks and the
    id and flag buffers are handed back as they were; the tables are the pure fold of the group steps. -/
theorem wp_group3 (E : Set ℕ) (L : grid0.Coords) (d : Dev nD) (k0_t2 : Fin k0_t2_loop.trips) (v18 : BitVec 32) (v4 : IVec S16 32) (v5 : FVec F S16 .f32) (hv4 : v4 = lanes) (hv5 : v5 = zero16)
    (h10 : k0_t3_loop.trips = 10)
    {qP qT qB qF : PosShare TreeShare} {fP : Buf (Elt F) (sP0.view.loc (thr d L))} {fT : Buf (Elt F) (sT0.view.loc (thr d L))}
    {fB : Buf (Elt F) (sB.view.loc (thr d L))} {fFl : Buf (Elt F) (sFl.view.loc (thr d L))} (N C : Vec F S64x16 .f32)
    (hfB : ∀ i : S5600.Idx, ((fB : S5600.Idx → BitVec 32) i).toNat < 64)
    {α : Type} (kk : PUnit → Prog (TpuEff nD τ sig (Elt F) Λ₀ (thr d L).2) α) (Q : α → sProp 𝕄) :
    iprop((sP0.view.loc (thr d L) ↦{qP} fP) ∗ (sT0.view.loc (thr d L) ↦{qT} fT) ∗ (sB.view.loc (thr d L) ↦{qB} fB) ∗ (sFl.view.loc (thr d L) ↦{qF} fFl) ∗ (sN.view.loc (thr d L) ↦{fullShare} N) ∗ (sC.view.loc (thr d L) ↦{fullShare} C)
      ∗ (((sP0.view.loc (thr d L) ↦{qP} fP) ∗ (sT0.view.loc (thr d L) ↦{qT} fT) ∗ (sB.view.loc (thr d L) ↦{qB} fB) ∗ (sFl.view.loc (thr d L) ↦{qF} fFl)
          ∗ (sN.view.loc (thr d L) ↦{fullShare} grpFold (fun g hg tb => groupNum ((sP0.access (.whole S160x128)).read (Elt F) fP) ((sT0.access (.whole S160x128)).read (Elt F) fT) ⟨g, hg⟩ (rowsVec_lt g hg) (sB.view.readAt (Elt F) (Rect.unit (s := S5600) (k0_off5 k0_t2 ⟨g, lt_of_lt_of_eq hg h10.symm⟩) S16.size (k0_off5_inb k0_t2 ⟨g, lt_of_lt_of_eq hg h10.symm⟩)).toLoadRect fB) (idsOk_lt _ (fun x => readAt_lt64 d L fB hfB (Rect.unit (s := S5600) (k0_off5 k0_t2 ⟨g, lt_of_lt_of_eq hg h10.symm⟩) S16.size (k0_off5_inb k0_t2 ⟨g, lt_of_lt_of_eq hg h10.symm⟩)).toLoadRect x)) (sFl.view.readAt (Elt F) (Rect.unit (s := S5600) (k0_off5 k0_t2 ⟨g, lt_of_lt_of_eq hg h10.symm⟩) S16.size (k0_off5_inb k0_t2 ⟨g, lt_of_lt_of_eq hg h10.symm⟩)).toLoadRect fFl) tb) N 10)
          ∗ (sC.view.loc (thr d L) ↦{fullShare} grpFold (fun g hg tb => groupCnt (sB.view.readAt (Elt F) (Rect.unit (s := S5600) (k0_off5 k0_t2 ⟨g, lt_of_lt_of_eq hg h10.symm⟩) S16.size (k0_off5_inb k0_t2 ⟨g, lt_of_lt_of_eq hg h10.symm⟩)).toLoadRect fB) (idsOk_lt _ (fun x => readAt_lt64 d L fB hfB (Rect.unit (s := S5600) (k0_off5 k0_t2 ⟨g, lt_of_lt_of_eq hg h10.symm⟩) S16.size (k0_off5_inb k0_t2 ⟨g, lt_of_lt_of_eq hg h10.symm⟩)).toLoadRect x)) (sFl.view.readAt (Elt F) (Rect.unit (s := S5600) (k0_off5 k0_t2 ⟨g, lt_of_lt_of_eq hg h10.symm⟩) S16.size (k0_off5_inb k0_t2 ⟨g, lt_of_lt_of_eq hg h10.symm⟩)).toLoadRect fFl) tb) C 10))
        -∗ wp frame (wpE defs 𝒱 (thr d L) bd) E (kk ⟨⟩) Q))
    ⊢ wp frame (wpE defs 𝒱 (thr d L) bd) E ((
      Scf.Loop.for k0_t3_loop k0_t3_ok ⟨⟩ fun k0_t3 _ => do
        let arg21 : BitVec 32 := Scf.iv (0#32 : BitVec 32) (1#32 : BitVec 32) k0_t3
        let c10_i32_61 : BitVec 32 := 10#32
        let v44 : BitVec 32 := Scalar.muli v18 c10_i32_61
        let v45 : BitVec 32 := Scalar.addi v44 arg21
        let c16_i32_62 : BitVec 32 := 16#32
        let v46 : BitVec 32 := Scalar.muli v45 c16_i32_62
        let v47 : Index := Scalar.indexCast v46
        let v48 : Vec F S16 .i32 ← Prog.lift (.load sB (Rect.unit (s := S5600) (k0_off5 k0_t2 k0_t3) S16.size (k0_off5_inb k0_t2 k0_t3)).toLoadRect (View.loadsAt_vmem h_S16))
        have k0_hw33 : k0_chk33 v4 v48 := (← Prog.lift (TpuEff.assume (k0_chk33 v4 v48) (k0_chk33.dec v4 v48))).down
        let c16_i32_63 : BitVec 32 := 16#32
        let v49 : BitVec 32 := Scalar.muli v45 c16_i32_63
        let v50 : Index := Scalar.indexCast v49
        let v51 : Vec F S16 .f32 ← Prog.lift (.load sFl (Rect.unit (s := S5600) (k0_off5 k0_t2 k0_t3) S16.size (k0_off5_inb k0_t2 k0_t3)).toLoadRect (View.loadsAt_vmem h_S16))
        let c16_i32_64 : BitVec 32 := 16#32
        let v52 : BitVec 32 := Scalar.muli arg21 c16_i32_64
        have v53 : IVec S16 32 := broadcast S16 v52
        have v54 : IVec S16 32 := addi v4 v53
        let c0_i32_65 : BitVec 32 := 0#32
        let c4_i32 : BitVec 32 := 4#32
        let v55 : BitVec 32 := Scalar.addi c0_i32_65 c4_i32
        let c1_i32_66 : BitVec 32 := 1#32
        let (v56_0, v56_1, v56_2, v56_3) ← Scf.Loop.for k0_t4_loop k0_t4_ok (v5, v5, v5, v5) fun k0_t4 (arg23, arg24, arg25, arg26) => do
          let ⟨v63, v74, v85, v96, v102, k0_hw4⟩ : Σ' (v63 : IVec S16 32) (v74 : FVec F S16 .f32) (v85 : FVec F S16 .f32) (v96 : FVec F S16 .f32) (v102 : IVec S16 32), k0_chk4 v54 v102 ← k0_part1 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v4 v54 c0_i32_65 c1_i32_66 k0_t4 arg23 arg24 arg25
          let ⟨v107, v118, v129, v140, v146, k0_hw8⟩ : Σ' (v107 : FVec F S16 .f32) (v118 : FVec F S16 .f32) (v129 : FVec F S16 .f32) (v140 : FVec F S16 .f32) (v146 : IVec S16 32), k0_chk8 v54 v146 ← k0_part2 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 arg26 v63 v74 v85 v96 v102 k0_hw4
          let ⟨v151, v162, v173, v184, v190, k0_hw12⟩ : Σ' (v151 : FVec F S16 .f32) (v162 : FVec F S16 .f32) (v173 : FVec F S16 .f32) (v184 : FVec F S16 .f32) (v190 : IVec S16 32), k0_chk12 v54 v190 ← k0_part3 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v107 v118 v129 v140 v146 k0_hw8
          let ⟨v195, v206, v217, v228, v234, k0_hw16⟩ : Σ' (v195 : FVec F S16 .f32) (v206 : FVec F S16 .f32) (v217 : FVec F S16 .f32) (v228 : FVec F S16 .f32) (v234 : IVec S16 32), k0_chk16 v54 v234 ← k0_part4 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v151 v162 v173 v184 v190 k0_hw12
          let ⟨v239, v250, v261, v272, v278, k0_hw20⟩ : Σ' (v239 : FVec F S16 .f32) (v250 : FVec F S16 .f32) (v261 : FVec F S16 .f32) (v272 : FVec F S16 .f32) (v278 : IVec S16 32), k0_chk20 v54 v278 ← k0_part5 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v195 v206 v217 v228 v234 k0_hw16
          let ⟨v283, v294, v305, v316, v322, k0_hw24⟩ : Σ' (v283 : FVec F S16 .f32) (v294 : FVec F S16 .f32) (v305 : FVec F S16 .f32) (v316 : FVec F S16 .f32) (v322 : IVec S16 32), k0_chk24 v54 v322 ← k0_part6 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v239 v250 v261 v272 v278 k0_hw20
          let ⟨v327, v338, v349, v360, v366, k0_hw28⟩ : Σ' (v327 : FVec F S16 .f32) (v338 : FVec F S16 .f32) (v349 : FVec F S16 .f32) (v360 : FVec F S16 .f32) (v366 : IVec S16 32), k0_chk28 v54 v366 ← k0_part7 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v283 v294 v305 v316 v322 k0_hw24
          let ⟨v371, v382, v393, v404, v410, k0_hw32⟩ : Σ' (v371 : FVec F S16 .f32) (v382 : FVec F S16 .f32) (v393 : FVec F S16 .f32) (v404 : FVec F S16 .f32) (v410 : IVec S16 32), k0_chk32 v54 v410 ← k0_part8 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v327 v338 v349 v360 v366 k0_hw28
          let v411 : Vec F S16 .f32 ← SparseCore.vectorLoadIdx sP0 ![v54, v410] (k0_idx63_inb v54 v410 k0_hw32) (View.loads_vmem h_S160x128)
          let v412 : Vec F S16 .f32 ← SparseCore.vectorLoadIdx sT0 ![v54, v410] (k0_idx64_inb v54 v410 k0_hw32) (View.loads_vmem h_S160x128)
          have v413 : FVec F S16 .f32 := subf v411 v412
          have v414 : FVec F S16 .f32 := mulf v413 v413
          have v415 : FVec F S16 .f32 := addf v371 v414
          pure (v382, v393, v404, v415)
        let c4_i32_67 : BitVec 32 := 4#32
        have v57 : FVec F S16 .f32 := addf v56_0 v56_1
        have v58 : FVec F S16 .f32 := addf v56_2 v56_3
        have v59 : FVec F S16 .f32 := addf v57 v58
        have v60 : FVec F S16 .f32 := mulf v59 v51
        SparseCore.vectorStoreIdx sN ![v48, v4] v60 (fun _ => 1#1) true (k0_idx65_inb v4 v48 k0_hw33) (View.stores_vmem_bits_univ h_S64x16 rfl)
        SparseCore.vectorStoreIdx sC ![v48, v4] v51 (fun _ => 1#1) true (k0_idx66_inb v4 v48 k0_hw33) (View.stores_vmem_bits_univ h_S64x16 rfl)
        pure ⟨⟩) >>= kk) Q := by
  subst hv4 hv5
  have h10' : Scf.trips k0_t3_loop.lb k0_t3_loop.ub k0_t3_loop.st = 10 := h10
  iintro ⟨HP, HT, HB, HF, HN, HC, Hk⟩
  sl_for (invGrp (iprop((sP0.view.loc (thr d L) ↦{qP} fP) ∗ (sT0.view.loc (thr d L) ↦{qT} fT) ∗ (sB.view.loc (thr d L) ↦{qB} fB) ∗ (sFl.view.loc (thr d L) ↦{qF} fFl)))
    (fun N' : Vec F S64x16 .f32 => (sN.view.loc (thr d L) ↦{fullShare} N' : sProp 𝕄)) (fun C' : Vec F S64x16 .f32 => (sC.view.loc (thr d L) ↦{fullShare} C' : sProp 𝕄))
    (fun g hg tb => groupNum ((sP0.access (.whole S160x128)).read (Elt F) fP) ((sT0.access (.whole S160x128)).read (Elt F) fT) ⟨g, hg⟩ (rowsVec_lt g hg) (sB.view.readAt (Elt F) (Rect.unit (s := S5600) (k0_off5 k0_t2 ⟨g, lt_of_lt_of_eq hg h10.symm⟩) S16.size (k0_off5_inb k0_t2 ⟨g, lt_of_lt_of_eq hg h10.symm⟩)).toLoadRect fB) (idsOk_lt _ (fun x => readAt_lt64 d L fB hfB (Rect.unit (s := S5600) (k0_off5 k0_t2 ⟨g, lt_of_lt_of_eq hg h10.symm⟩) S16.size (k0_off5_inb k0_t2 ⟨g, lt_of_lt_of_eq hg h10.symm⟩)).toLoadRect x)) (sFl.view.readAt (Elt F) (Rect.unit (s := S5600) (k0_off5 k0_t2 ⟨g, lt_of_lt_of_eq hg h10.symm⟩) S16.size (k0_off5_inb k0_t2 ⟨g, lt_of_lt_of_eq hg h10.symm⟩)).toLoadRect fFl) tb)
    (fun g hg tb => groupCnt (sB.view.readAt (Elt F) (Rect.unit (s := S5600) (k0_off5 k0_t2 ⟨g, lt_of_lt_of_eq hg h10.symm⟩) S16.size (k0_off5_inb k0_t2 ⟨g, lt_of_lt_of_eq hg h10.symm⟩)).toLoadRect fB) (idsOk_lt _ (fun x => readAt_lt64 d L fB hfB (Rect.unit (s := S5600) (k0_off5 k0_t2 ⟨g, lt_of_lt_of_eq hg h10.symm⟩) S16.size (k0_off5_inb k0_t2 ⟨g, lt_of_lt_of_eq hg h10.symm⟩)).toLoadRect x)) (sFl.view.readAt (Elt F) (Rect.unit (s := S5600) (k0_off5 k0_t2 ⟨g, lt_of_lt_of_eq hg h10.symm⟩) S16.size (k0_off5_inb k0_t2 ⟨g, lt_of_lt_of_eq hg h10.symm⟩)).toLoadRect fFl) tb) N C) $$ [HP HT HB HF HN HC]
  case region =>
    intro k _
    have hk : k.val < 10 := lt_of_lt_of_eq k.isLt h10
    unfold invGrp
    iintro ⟨⟨HP, HT, HB, HF⟩, HN, HC⟩
    sl_respell []
    rw [Prog.bind_lift]
    iapply (wp_load 𝒱 (thr d L) bd E (m := sB) (S := Finset.univ) (Finset.subset_univ _)) $$ HB; iintro HB
    rw [Prog.bind_lift]
    iapply (wp_assume _ _ _ _ (show k0_chk33 _ _ from ⟨idsOk_lt _ (fun x => readAt_lt64 d L fB hfB (Rect.unit (s := S5600) (k0_off5 k0_t2 k) S16.size (k0_off5_inb k0_t2 k)).toLoadRect x), idsOk_lt _ (fun x => readAt_lt64 d L fB hfB (Rect.unit (s := S5600) (k0_off5 k0_t2 k) S16.size (k0_off5_inb k0_t2 k)).toLoadRect x)⟩))
    sl_respell []
    rw [Prog.bind_lift]
    iapply (wp_load 𝒱 (thr d L) bd E (m := sFl) (S := Finset.univ) (Finset.subset_univ _)) $$ HF; iintro HF
    sl_respell []
    iapply (wp_accLoop3 (defs := defs) 𝒱 bd E L d (addi lanes (broadcast S16 (Scalar.muli (Scf.iv (0#32 : BitVec 32) (1#32 : BitVec 32) ↑k) 16#32))) (rowsVec_lt k.val hk) _ _)
    isplitl [HP]; · iexact HP
    isplitl [HT]; · iexact HT
    iintro ⟨HP, HT⟩
    dsimp only
    iapply (wp_addAt_sN 𝒱 bd E L d _ _ _ _ _ _ _) $$ HN; iintro HN
    iapply (wp_addAt_sC 𝒱 bd E L d _ _ _ _ _ _ _) $$ HC; iintro HC
    simp only [Prog.pure_eq_ret]
    rw [wp_ret]; imodintro
    isplitl [HP HT HB HF]
    · isplitl [HP]; · iexact HP
      isplitl [HT]; · iexact HT
      isplitl [HB]; · iexact HB
      iexact HF
    rw [grpFold_succ _ _ k.val hk, grpFold_succ _ _ k.val hk]
    isplitl [HN]
    · iexact HN
    · iexact HC
  · unfold invGrp
    isplitl [HP HT HB HF]
    · isplitl [HP]; · iexact HP
      isplitl [HT]; · iexact HT
      isplitl [HB]; · iexact HB
      iexact HF
    isplitl [HN]
    · iexact HN
    · iexact HC
  rw [h10']
  iintro %u HI
  unfold invGrp
  icases HI with ⟨⟨HP, HT, HB, HF⟩, HN, HC⟩
  iapply Hk
  isplitl [HP]; · iexact HP
  isplitl [HT]; · iexact HT
  isplitl [HB]; · iexact HB
  isplitl [HF]; · iexact HF
  isplitl [HN]
  · iexact HN
  · iexact HC

end Cert.Kernel.TileParts

end
-- ==== Proof.Bits.Group5.lean ====
/-
  A chunk's ten groups at the tile's second compute site.

  Per group: the sixteen segment ids and the sixteen flags are read from the staged id and flag buffers at the group's
  offset; the ids are below 64 (every word of the id buffer is), so with the lane numbers they name entries of the
  64 x 16 tables; the accumulator loop forms the rows' values from the two staged chunks; value times flag is added into
  the table of masked sums and the flag into the table of counts, at (segment id, lane). The chunks and the id and flag
  buffers are handed back as they were; the tables are the pure fold of the ten group steps over what they held.
-/
import proofs.«205036_g29618094473603_cont_9to1_1720_19_alg».proof.Proof.Bits.GroupLib
import proofs.«205036_g29618094473603_cont_9to1_1720_19_alg».proof.Proof.Bits.AccLoops
import proofs.«205036_g29618094473603_cont_9to1_1720_19_alg».proof.Proof.Bits.TileStore
import Idealize.ShloMosaic.Lib.Tactic

noncomputable section

namespace Cert.Kernel.TileParts

open Cert.Kernel
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Tactic
open Cert.Kernel.Tile (thr pW tW bW fW nW cW sP0 sP1 sT0 sT1 sB sFl sN sC)
open Cert.Kernel.TilePure

variable {F : FTy → Type} [FloatOps F] [Facts]
open Facts₀ Facts
variable {UU : Type} [URA UU]
variable {defs : Defs nD τ sig (Elt F) Λ₀} (𝒱 : Variants) (bd : Option 𝒱.V)

local notation "𝕄" => MT nD τ sig (HIx 1) (Elt F) ℕ UU ℕ

set_option maxHeartbeats 8000000 in
/-- A chunk's ten groups: per group the segment ids and the flags are read, the rows' values formed by the
    accumulator loop, and value times flag and flag added into the two tables at (segment id, lane). The chunks and the
    id and flag buffers are handed back as they were; the tables are the pure fold of the group steps. -/
theorem wp_group5 (E : Set ℕ) (L : grid0.Coords) (d : Dev nD) (k0_t2 : Fin k0_t2_loop.trips) (v42 : BitVec 32) (v4 : IVec S16 32) (v5 : FVec F S16 .f32) (hv4 : v4 = lanes) (hv5 : v5 = zero16)
    (h10 : k0_t5_loop.trips = 10)
    {qP qT qB qF : PosShare TreeShare} {fP : Buf (Elt F) (sP1.view.loc (thr d L))} {fT : Buf (Elt F) (sT1.view.loc (thr d L))}
    {fB : Buf (Elt F) (sB.view.loc (thr d L))} {fFl : Buf (Elt F) (sFl.view.loc (thr d L))} (N C : Vec F S64x16 .f32)
    (hfB : ∀ i : S5600.Idx, ((fB : S5600.Idx → BitVec 32) i).toNat < 64)
    {α : Type} (kk : PUnit → Prog (TpuEff nD τ sig (Elt F) Λ₀ (thr d L).2) α) (Q : α → sProp 𝕄) :
    iprop((sP1.view.loc (thr d L) ↦{qP} fP) ∗ (sT1.view.loc (thr d L) ↦{qT} fT) ∗ (sB.view.loc (thr d L) ↦{qB} fB) ∗ (sFl.view.loc (thr d L) ↦{qF} fFl) ∗ (sN.view.loc (thr d L) ↦{fullShare} N) ∗ (sC.view.loc (thr d L) ↦{fullShare} C)
      ∗ (((sP1.view.loc (thr d L) ↦{qP} fP) ∗ (sT1.view.loc (thr d L) ↦{qT} fT) ∗ (sB.view.loc (thr d L) ↦{qB} fB) ∗ (sFl.view.loc (thr d L) ↦{qF} fFl)
          ∗ (sN.view.loc (thr d L) ↦{fullShare} grpFold (fun g hg tb => groupNum ((sP1.access (.whole S160x128)).read (Elt F) fP) ((sT1.access (.whole S160x128)).read (Elt F) fT) ⟨g, hg⟩ (rowsVec_lt g hg) (sB.view.readAt (Elt F) (Rect.unit (s := S5600) (k0_off7 k0_t2 ⟨g, lt_of_lt_of_eq hg h10.symm⟩) S16.size (k0_off7_inb k0_t2 ⟨g, lt_of_lt_of_eq hg h10.symm⟩)).toLoadRect fB) (idsOk_lt _ (fun x => readAt_lt64 d L fB hfB (Rect.unit (s := S5600) (k0_off7 k0_t2 ⟨g, lt_of_lt_of_eq hg h10.symm⟩) S16.size (k0_off7_inb k0_t2 ⟨g, lt_of_lt_of_eq hg h10.symm⟩)).toLoadRect x)) (sFl.view.readAt (Elt F) (Rect.unit (s := S5600) (k0_off7 k0_t2 ⟨g, lt_of_lt_of_eq hg h10.symm⟩) S16.size (k0_off7_inb k0_t2 ⟨g, lt_of_lt_of_eq hg h10.symm⟩)).toLoadRect fFl) tb) N 10)
          ∗ (sC.view.loc (thr d L) ↦{fullShare} grpFold (fun g hg tb => groupCnt (sB.view.readAt (Elt F) (Rect.unit (s := S5600) (k0_off7 k0_t2 ⟨g, lt_of_lt_of_eq hg h10.symm⟩) S16.size (k0_off7_inb k0_t2 ⟨g, lt_of_lt_of_eq hg h10.symm⟩)).toLoadRect fB) (idsOk_lt _ (fun x => readAt_lt64 d L fB hfB (Rect.unit (s := S5600) (k0_off7 k0_t2 ⟨g, lt_of_lt_of_eq hg h10.symm⟩) S16.size (k0_off7_inb k0_t2 ⟨g, lt_of_lt_of_eq hg h10.symm⟩)).toLoadRect x)) (sFl.view.readAt (Elt F) (Rect.unit (s := S5600) (k0_off7 k0_t2 ⟨g, lt_of_lt_of_eq hg h10.symm⟩) S16.size (k0_off7_inb k0_t2 ⟨g, lt_of_lt_of_eq hg h10.symm⟩)).toLoadRect fFl) tb) C 10))
        -∗ wp frame (wpE defs 𝒱 (thr d L) bd) E (kk ⟨⟩) Q))
    ⊢ wp frame (wpE defs 𝒱 (thr d L) bd) E ((
      Scf.Loop.for k0_t5_loop k0_t5_ok ⟨⟩ fun k0_t5 _ => do
        let arg21 : BitVec 32 := Scf.iv (0#32 : BitVec 32) (1#32 : BitVec 32) k0_t5
        let c10_i32_61 : BitVec 32 := 10#32
        let v44 : BitVec 32 := Scalar.muli v42 c10_i32_61
        let v45 : BitVec 32 := Scalar.addi v44 arg21
        let c16_i32_62 : BitVec 32 := 16#32
        let v46 : BitVec 32 := Scalar.muli v45 c16_i32_62
        let v47 : Index := Scalar.indexCast v46
        let v48 : Vec F S16 .i32 ← Prog.lift (.load sB (Rect.unit (s := S5600) (k0_off7 k0_t2 k0_t5) S16.size (k0_off7_inb k0_t2 k0_t5)).toLoadRect (View.loadsAt_vmem h_S16))
        have k0_hw66 : k0_chk66 v4 v48 := (← Prog.lift (TpuEff.assume (k0_chk66 v4 v48) (k0_chk66.dec v4 v48))).down
        let c16_i32_63 : BitVec 32 := 16#32
        let v49 : BitVec 32 := Scalar.muli v45 c16_i32_63
        let v50 : Index := Scalar.indexCast v49
        let v51 : Vec F S16 .f32 ← Prog.lift (.load sFl (Rect.unit (s := S5600) (k0_off7 k0_t2 k0_t5) S16.size (k0_off7_inb k0_t2 k0_t5)).toLoadRect (View.loadsAt_vmem h_S16))
        let c16_i32_64 : BitVec 32 := 16#32
        let v52 : BitVec 32 := Scalar.muli arg21 c16_i32_64
        have v53 : IVec S16 32 := broadcast S16 v52
        have v54 : IVec S16 32 := addi v4 v53
        let c0_i32_65 : BitVec 32 := 0#32
        let c4_i32 : BitVec 32 := 4#32
        let v55 : BitVec 32 := Scalar.addi c0_i32_65 c4_i32
        let c1_i32_66 : BitVec 32 := 1#32
        let (v56_0, v56_1, v56_2, v56_3) ← Scf.Loop.for k0_t6_loop k0_t6_ok (v5, v5, v5, v5) fun k0_t6 (arg23, arg24, arg25, arg26) => do
          let ⟨v63, v74, v85, v96, v102, k0_hw37⟩ : Σ' (v63 : IVec S16 32) (v74 : FVec F S16 .f32) (v85 : FVec F S16 .f32) (v96 : FVec F S16 .f32) (v102 : IVec S16 32), k0_chk37 v54 v102 ← k0_part9 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v4 v54 c0_i32_65 c1_i32_66 k0_t6 arg23 arg24 arg25
          let ⟨v107, v118, v129, v140, v146, k0_hw41⟩ : Σ' (v107 : FVec F S16 .f32) (v118 : FVec F S16 .f32) (v129 : FVec F S16 .f32) (v140 : FVec F S16 .f32) (v146 : IVec S16 32), k0_chk41 v54 v146 ← k0_part10 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 arg26 v63 v74 v85 v96 v102 k0_hw37
          let ⟨v151, v162, v173, v184, v190, k0_hw45⟩ : Σ' (v151 : FVec F S16 .f32) (v162 : FVec F S16 .f32) (v173 : FVec F S16 .f32) (v184 : FVec F S16 .f32) (v190 : IVec S16 32), k0_chk45 v54 v190 ← k0_part11 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v107 v118 v129 v140 v146 k0_hw41
          let ⟨v195, v206, v217, v228, v234, k0_hw49⟩ : Σ' (v195 : FVec F S16 .f32) (v206 : FVec F S16 .f32) (v217 : FVec F S16 .f32) (v228 : FVec F S16 .f32) (v234 : IVec S16 32), k0_chk49 v54 v234 ← k0_part12 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v151 v162 v173 v184 v190 k0_hw45
          let ⟨v239, v250, v261, v272, v278, k0_hw53⟩ : Σ' (v239 : FVec F S16 .f32) (v250 : FVec F S16 .f32) (v261 : FVec F S16 .f32) (v272 : FVec F S16 .f32) (v278 : IVec S16 32), k0_chk53 v54 v278 ← k0_part13 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v195 v206 v217 v228 v234 k0_hw49
          let ⟨v283, v294, v305, v316, v322, k0_hw57⟩ : Σ' (v283 : FVec F S16 .f32) (v294 : FVec F S16 .f32) (v305 : FVec F S16 .f32) (v316 : FVec F S16 .f32) (v322 : IVec S16 32), k0_chk57 v54 v322 ← k0_part14 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v239 v250 v261 v272 v278 k0_hw53
          let ⟨v327, v338, v349, v360, v366, k0_hw61⟩ : Σ' (v327 : FVec F S16 .f32) (v338 : FVec F S16 .f32) (v349 : FVec F S16 .f32) (v360 : FVec F S16 .f32) (v366 : IVec S16 32), k0_chk61 v54 v366 ← k0_part15 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v283 v294 v305 v316 v322 k0_hw57
          let ⟨v371, v382, v393, v404, v410, k0_hw65⟩ : Σ' (v371 : FVec F S16 .f32) (v382 : FVec F S16 .f32) (v393 : FVec F S16 .f32) (v404 : FVec F S16 .f32) (v410 : IVec S16 32), k0_chk65 v54 v410 ← k0_part16 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v54 v63 v327 v338 v349 v360 v366 k0_hw61
          let v411 : Vec F S16 .f32 ← SparseCore.vectorLoadIdx sP1 ![v54, v410] (k0_idx129_inb v54 v410 k0_hw65) (View.loads_vmem h_S160x128)
          let v412 : Vec F S16 .f32 ← SparseCore.vectorLoadIdx sT1 ![v54, v410] (k0_idx130_inb v54 v410 k0_hw65) (View.loads_vmem h_S160x128)
          have v413 : FVec F S16 .f32 := subf v411 v412
          have v414 : FVec F S16 .f32 := mulf v413 v413
          have v415 : FVec F S16 .f32 := addf v371 v414
          pure (v382, v393, v404, v415)
        let c4_i32_67 : BitVec 32 := 4#32
        have v57 : FVec F S16 .f32 := addf v56_0 v56_1
        have v58 : FVec F S16 .f32 := addf v56_2 v56_3
        have v59 : FVec F S16 .f32 := addf v57 v58
        have v60 : FVec F S16 .f32 := mulf v59 v51
        SparseCore.vectorStoreIdx sN ![v48, v4] v60 (fun _ => 1#1) true (k0_idx131_inb v4 v48 k0_hw66) (View.stores_vmem_bits_univ h_S64x16 rfl)
        SparseCore.vectorStoreIdx sC ![v48, v4] v51 (fun _ => 1#1) true (k0_idx132_inb v4 v48 k0_hw66) (View.stores_vmem_bits_univ h_S64x16 rfl)
        pure ⟨⟩) >>= kk) Q := by
  subst hv4 hv5
  have h10' : Scf.trips k0_t5_loop.lb k0_t5_loop.ub k0_t5_loop.st = 10 := h10
  iintro ⟨HP, HT, HB, HF, HN, HC, Hk⟩
  sl_for (invGrp (iprop((sP1.view.loc (thr d L) ↦{qP} fP) ∗ (sT1.view.loc (thr d L) ↦{qT} fT) ∗ (sB.view.loc (thr d L) ↦{qB} fB) ∗ (sFl.view.loc (thr d L) ↦{qF} fFl)))
    (fun N' : Vec F S64x16 .f32 => (sN.view.loc (thr d L) ↦{fullShare} N' : sProp 𝕄)) (fun C' : Vec F S64x16 .f32 => (sC.view.loc (thr d L) ↦{fullShare} C' : sProp 𝕄))
    (fun g hg tb => groupNum ((sP1.access (.whole S160x128)).read (Elt F) fP) ((sT1.access (.whole S160x128)).read (Elt F) fT) ⟨g, hg⟩ (rowsVec_lt g hg) (sB.view.readAt (Elt F) (Rect.unit (s := S5600) (k0_off7 k0_t2 ⟨g, lt_of_lt_of_eq hg h10.symm⟩) S16.size (k0_off7_inb k0_t2 ⟨g, lt_of_lt_of_eq hg h10.symm⟩)).toLoadRect fB) (idsOk_lt _ (fun x => readAt_lt64 d L fB hfB (Rect.unit (s := S5600) (k0_off7 k0_t2 ⟨g, lt_of_lt_of_eq hg h10.symm⟩) S16.size (k0_off7_inb k0_t2 ⟨g, lt_of_lt_of_eq hg h10.symm⟩)).toLoadRect x)) (sFl.view.readAt (Elt F) (Rect.unit (s := S5600) (k0_off7 k0_t2 ⟨g, lt_of_lt_of_eq hg h10.symm⟩) S16.size (k0_off7_inb k0_t2 ⟨g, lt_of_lt_of_eq hg h10.symm⟩)).toLoadRect fFl) tb)
    (fun g hg tb => groupCnt (sB.view.readAt (Elt F) (Rect.unit (s := S5600) (k0_off7 k0_t2 ⟨g, lt_of_lt_of_eq hg h10.symm⟩) S16.size (k0_off7_inb k0_t2 ⟨g, lt_of_lt_of_eq hg h10.symm⟩)).toLoadRect fB) (idsOk_lt _ (fun x => readAt_lt64 d L fB hfB (Rect.unit (s := S5600) (k0_off7 k0_t2 ⟨g, lt_of_lt_of_eq hg h10.symm⟩) S16.size (k0_off7_inb k0_t2 ⟨g, lt_of_lt_of_eq hg h10.symm⟩)).toLoadRect x)) (sFl.view.readAt (Elt F) (Rect.unit (s := S5600) (k0_off7 k0_t2 ⟨g, lt_of_lt_of_eq hg h10.symm⟩) S16.size (k0_off7_inb k0_t2 ⟨g, lt_of_lt_of_eq hg h10.symm⟩)).toLoadRect fFl) tb) N C) $$ [HP HT HB HF HN HC]
  case region =>
    intro k _
    have hk : k.val < 10 := lt_of_lt_of_eq k.isLt h10
    unfold invGrp
    iintro ⟨⟨HP, HT, HB, HF⟩, HN, HC⟩
    sl_respell []
    rw [Prog.bind_lift]
    iapply (wp_load 𝒱 (thr d L) bd E (m := sB) (S := Finset.univ) (Finset.subset_univ _)) $$ HB; iintro HB
    rw [Prog.bind_lift]
    iapply (wp_assume _ _ _ _ (show k0_chk66 _ _ from ⟨idsOk_lt _ (fun x => readAt_lt64 d L fB hfB (Rect.unit (s := S5600) (k0_off7 k0_t2 k) S16.size (k0_off7_inb k0_t2 k)).toLoadRect x), idsOk_lt _ (fun x => readAt_lt64 d L fB hfB (Rect.unit (s := S5600) (k0_off7 k0_t2 k) S16.size (k0_off7_inb k0_t2 k)).toLoadRect x)⟩))
    sl_respell []
    rw [Prog.bind_lift]
    iapply (wp_load 𝒱 (thr d L) bd E (m := sFl) (S := Finset.univ) (Finset.subset_univ _)) $$ HF; iintro HF
    sl_respell []
    iapply (wp_accLoop5 (defs := defs) 𝒱 bd E L d (addi lanes (broadcast S16 (Scalar.muli (Scf.iv (0#32 : BitVec 32) (1#32 : BitVec 32) ↑k) 16#32))) (rowsVec_lt k.val hk) _ _)
    isplitl [HP]; · iexact HP
    isplitl [HT]; · iexact HT
    iintro ⟨HP, HT⟩
    dsimp only
    iapply (wp_addAt_sN 𝒱 bd E L d _ _ _ _ _ _ _) $$ HN; iintro HN
    iapply (wp_addAt_sC 𝒱 bd E L d _ _ _ _ _ _ _) $$ HC; iintro HC
    simp only [Prog.pure_eq_ret]
    rw [wp_ret]; imodintro
    isplitl [HP HT HB HF]
    · isplitl [HP]; · iexact HP
      isplitl [HT]; · iexact HT
      isplitl [HB]; · iexact HB
      iexact HF
    rw [grpFold_succ _ _ k.val hk, grpFold_succ _ _ k.val hk]
    isplitl [HN]
    · iexact HN
    · iexact HC
  · unfold invGrp
    isplitl [HP HT HB HF]
    · isplitl [HP]; · iexact HP
      isplitl [HT]; · iexact HT
      isplitl [HB]; · iexact HB
      iexact HF
    isplitl [HN]
    · iexact HN
    · iexact HC
  rw [h10']
  iintro %u HI
  unfold invGrp
  icases HI with ⟨⟨HP, HT, HB, HF⟩, HN, HC⟩
  iapply Hk
  isplitl [HP]; · iexact HP
  isplitl [HT]; · iexact HT
  isplitl [HB]; · iexact HB
  isplitl [HF]; · iexact HF
  isplitl [HN]
  · iexact HN
  · iexact HC

end Cert.Kernel.TileParts

end
-- ==== Proof.Bits.Group7.lean ====
/-
  The last chunk's group loop.

  The tile's last chunk sits whole in its first pair of slots; its ten groups are walked in one loop. A trip loads the
  group's 16 segment ids and flags, forms the 16 rows' values with the four-trip accumulator loop, and adds value times
  flag, and flag, into the two tables at (segment id, lane). After the ten trips each table is the fold of the groups'
  additions over what it held.
-/
import proofs.«205036_g29618094473603_cont_9to1_1720_19_alg».proof.Proof.Bits.GroupLib
import proofs.«205036_g29618094473603_cont_9to1_1720_19_alg».proof.Proof.Bits.PartsC
import proofs.«205036_g29618094473603_cont_9to1_1720_19_alg».proof.Proof.Bits.TileStore
import proofs.«205036_g29618094473603_cont_9to1_1720_19_alg».proof.Proof.Bits.AccLoops
import Idealize.ShloMosaic.Lib.Tactic

noncomputable section

namespace Cert.Kernel.TileParts

open Cert.Kernel
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Tactic
open Cert.Kernel.Tile (thr pW tW bW fW nW cW sP0 sP1 sT0 sT1 sB sFl sN sC)
open Cert.Kernel.TilePure

variable {F : FTy → Type} [FloatOps F] [Facts]
open Facts₀ Facts
variable {UU : Type} [URA UU]
variable {defs : Defs nD τ sig (Elt F) Λ₀} (𝒱 : Variants) (bd : Option 𝒱.V)

local notation "𝕄" => MT nD τ sig (HIx 1) (Elt F) ℕ UU ℕ

omit [FloatOps F] [Facts] [URA UU] in
/-- A group number below ten is a trip of the group loop. -/
theorem ltT7 (h10 : Scf.trips k0_t7_loop.lb k0_t7_loop.ub k0_t7_loop.st = 10) {g : ℕ} (hg : g < 10) : g < k0_t7_loop.trips :=
  lt_of_lt_of_eq hg h10.symm

set_option maxHeartbeats 8000000 in
theorem wp_group7_of
    (hacc : ∀ (E : Set ℕ) (L : grid0.Coords) (d : Dev nD) (v27 : IVec S16 32) (hr : ∀ x, (v27 x).toNat < 160)
          {qP qT : PosShare TreeShare} {fP : Buf (Elt F) (sP0.view.loc (thr d L))} {fT : Buf (Elt F) (sT0.view.loc (thr d L))}
          {α : Type} (kk : (FVec F S16 .f32 × FVec F S16 .f32 × FVec F S16 .f32 × FVec F S16 .f32) → Prog (TpuEff nD τ sig (Elt F) Λ₀ (thr d L).2) α) (Q : α → sProp 𝕄) ,
          iprop((sP0.view.loc (thr d L) ↦{qP} fP) ∗ (sT0.view.loc (thr d L) ↦{qT} fT)
            ∗ (((sP0.view.loc (thr d L) ↦{qP} fP) ∗ (sT0.view.loc (thr d L) ↦{qT} fT)) -∗
                wp frame (wpE defs 𝒱 (thr d L) bd) E (kk (laneAcc ((sP0.access (.whole S160x128)).read (Elt F) fP) ((sT0.access (.whole S160x128)).read (Elt F) fT) v27 hr 0#32, laneAcc ((sP0.access (.whole S160x128)).read (Elt F) fP) ((sT0.access (.whole S160x128)).read (Elt F) fT) v27 hr 1#32, laneAcc ((sP0.access (.whole S160x128)).read (Elt F) fP) ((sT0.access (.whole S160x128)).read (Elt F) fT) v27 hr 2#32, laneAcc ((sP0.access (.whole S160x128)).read (Elt F) fP) ((sT0.access (.whole S160x128)).read (Elt F) fT) v27 hr 3#32)) Q))
          ⊢ wp frame (wpE defs 𝒱 (thr d L) bd) E ((
            Scf.Loop.for k0_t8_loop k0_t8_ok (zero16, zero16, zero16, zero16) fun k0_t8 (arg22, arg23, arg24, arg25) => do
              let ⟨v36, v47, v58, v69, v75, k0_hw70⟩ : Σ' (v36 : IVec S16 32) (v47 : FVec F S16 .f32) (v58 : FVec F S16 .f32) (v69 : FVec F S16 .f32) (v75 : IVec S16 32), k0_chk70 v27 v75 ← k0_part18 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 lanes v27 (0#32 : BitVec 32) (1#32 : BitVec 32) k0_t8 arg22 arg23 arg24
              let ⟨v80, v91, v102, v113, v119, k0_hw74⟩ : Σ' (v80 : FVec F S16 .f32) (v91 : FVec F S16 .f32) (v102 : FVec F S16 .f32) (v113 : FVec F S16 .f32) (v119 : IVec S16 32), k0_chk74 v27 v119 ← k0_part19 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 arg25 v36 v47 v58 v69 v75 k0_hw70
              let ⟨v124, v135, v146, v157, v163, k0_hw78⟩ : Σ' (v124 : FVec F S16 .f32) (v135 : FVec F S16 .f32) (v146 : FVec F S16 .f32) (v157 : FVec F S16 .f32) (v163 : IVec S16 32), k0_chk78 v27 v163 ← k0_part20 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v80 v91 v102 v113 v119 k0_hw74
              let ⟨v168, v179, v190, v201, v207, k0_hw82⟩ : Σ' (v168 : FVec F S16 .f32) (v179 : FVec F S16 .f32) (v190 : FVec F S16 .f32) (v201 : FVec F S16 .f32) (v207 : IVec S16 32), k0_chk82 v27 v207 ← k0_part21 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v124 v135 v146 v157 v163 k0_hw78
              let ⟨v212, v223, v234, v245, v251, k0_hw86⟩ : Σ' (v212 : FVec F S16 .f32) (v223 : FVec F S16 .f32) (v234 : FVec F S16 .f32) (v245 : FVec F S16 .f32) (v251 : IVec S16 32), k0_chk86 v27 v251 ← k0_part22 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v168 v179 v190 v201 v207 k0_hw82
              let ⟨v256, v267, v278, v289, v295, k0_hw90⟩ : Σ' (v256 : FVec F S16 .f32) (v267 : FVec F S16 .f32) (v278 : FVec F S16 .f32) (v289 : FVec F S16 .f32) (v295 : IVec S16 32), k0_chk90 v27 v295 ← k0_part23 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v212 v223 v234 v245 v251 k0_hw86
              let ⟨v300, v311, v322, v333, v339, k0_hw94⟩ : Σ' (v300 : FVec F S16 .f32) (v311 : FVec F S16 .f32) (v322 : FVec F S16 .f32) (v333 : FVec F S16 .f32) (v339 : IVec S16 32), k0_chk94 v27 v339 ← k0_part24 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v256 v267 v278 v289 v295 k0_hw90
              let ⟨v344, v355, v366, v377, v383, k0_hw98⟩ : Σ' (v344 : FVec F S16 .f32) (v355 : FVec F S16 .f32) (v366 : FVec F S16 .f32) (v377 : FVec F S16 .f32) (v383 : IVec S16 32), k0_chk98 v27 v383 ← k0_part25 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v300 v311 v322 v333 v339 k0_hw94
              let v384 : Vec F S16 .f32 ← SparseCore.vectorLoadIdx sP0 ![v27, v383] (k0_idx195_inb v27 v383 k0_hw98) (View.loads_vmem h_S160x128)
              let v385 : Vec F S16 .f32 ← SparseCore.vectorLoadIdx sT0 ![v27, v383] (k0_idx196_inb v27 v383 k0_hw98) (View.loads_vmem h_S160x128)
              have v386 : FVec F S16 .f32 := subf v384 v385
              have v387 : FVec F S16 .f32 := mulf v386 v386
              have v388 : FVec F S16 .f32 := addf v344 v387
              pure (v355, v366, v377, v388)) >>= kk) Q)
    (E : Set ℕ) (L : grid0.Coords) (d : Dev nD) (v4 : IVec S16 32) (v5 : FVec F S16 .f32) (hv4 : v4 = lanes) (hv5 : v5 = zero16)
    (h10 : Scf.trips k0_t7_loop.lb k0_t7_loop.ub k0_t7_loop.st = 10)
    {qP qT qB qF : PosShare TreeShare} {fP : Buf (Elt F) (sP0.view.loc (thr d L))} {fT : Buf (Elt F) (sT0.view.loc (thr d L))}
    {fB : Buf (Elt F) (sB.view.loc (thr d L))} {fFl : Buf (Elt F) (sFl.view.loc (thr d L))} (N C : Vec F S64x16 .f32)
    (hfB : ∀ i : S5600.Idx, ((fB : S5600.Idx → BitVec 32) i).toNat < 64)
    {α : Type} (kk : PUnit → Prog (TpuEff nD τ sig (Elt F) Λ₀ (thr d L).2) α) (Q : α → sProp 𝕄) :
    iprop((sP0.view.loc (thr d L) ↦{qP} fP) ∗ (sT0.view.loc (thr d L) ↦{qT} fT) ∗ (sB.view.loc (thr d L) ↦{qB} fB) ∗ (sFl.view.loc (thr d L) ↦{qF} fFl) ∗ (sN.view.loc (thr d L) ↦{fullShare} N) ∗ (sC.view.loc (thr d L) ↦{fullShare} C)
      ∗ (((sP0.view.loc (thr d L) ↦{qP} fP) ∗ (sT0.view.loc (thr d L) ↦{qT} fT) ∗ (sB.view.loc (thr d L) ↦{qB} fB) ∗ (sFl.view.loc (thr d L) ↦{qF} fFl)
          ∗ (sN.view.loc (thr d L) ↦{fullShare} grpFold (fun g hg tb => groupNum ((sP0.access (.whole S160x128)).read (Elt F) fP) ((sT0.access (.whole S160x128)).read (Elt F) fT) ⟨g, hg⟩ (rowsVec_lt g hg) (sB.view.readAt (Elt F) (Rect.unit (s := S5600) (k0_off8 ⟨g, ltT7 h10 hg⟩) S16.size (k0_off8_inb ⟨g, ltT7 h10 hg⟩)).toLoadRect fB) (idsOk_lt _ (fun x => readAt_lt64 d L fB hfB (Rect.unit (s := S5600) (k0_off8 ⟨g, ltT7 h10 hg⟩) S16.size (k0_off8_inb ⟨g, ltT7 h10 hg⟩)).toLoadRect x)) (sFl.view.readAt (Elt F) (Rect.unit (s := S5600) (k0_off8 ⟨g, ltT7 h10 hg⟩) S16.size (k0_off8_inb ⟨g, ltT7 h10 hg⟩)).toLoadRect fFl) tb) N 10)
          ∗ (sC.view.loc (thr d L) ↦{fullShare} grpFold (fun g hg tb => groupCnt (sB.view.readAt (Elt F) (Rect.unit (s := S5600) (k0_off8 ⟨g, ltT7 h10 hg⟩) S16.size (k0_off8_inb ⟨g, ltT7 h10 hg⟩)).toLoadRect fB) (idsOk_lt _ (fun x => readAt_lt64 d L fB hfB (Rect.unit (s := S5600) (k0_off8 ⟨g, ltT7 h10 hg⟩) S16.size (k0_off8_inb ⟨g, ltT7 h10 hg⟩)).toLoadRect x)) (sFl.view.readAt (Elt F) (Rect.unit (s := S5600) (k0_off8 ⟨g, ltT7 h10 hg⟩) S16.size (k0_off8_inb ⟨g, ltT7 h10 hg⟩)).toLoadRect fFl) tb) C 10))
        -∗ wp frame (wpE defs 𝒱 (thr d L) bd) E (kk ⟨⟩) Q))
    ⊢ wp frame (wpE defs 𝒱 (thr d L) bd) E ((
      Scf.Loop.for k0_t7_loop k0_t7_ok ⟨⟩ fun k0_t7 _ => do
        let arg20 : BitVec 32 := Scf.iv (0#32 : BitVec 32) (1#32 : BitVec 32) k0_t7
        let c340_i32 : BitVec 32 := 340#32
        let v18 : BitVec 32 := Scalar.addi c340_i32 arg20
        let c16_i32_23 : BitVec 32 := 16#32
        let v19 : BitVec 32 := Scalar.muli v18 c16_i32_23
        let v20 : Index := Scalar.indexCast v19
        let v21 : Vec F S16 .i32 ← Prog.lift (.load sB (Rect.unit (s := S5600) (k0_off8 k0_t7) S16.size (k0_off8_inb k0_t7)).toLoadRect (View.loadsAt_vmem h_S16))
        have k0_hw99 : k0_chk99 v4 v21 := (← Prog.lift (TpuEff.assume (k0_chk99 v4 v21) (k0_chk99.dec v4 v21))).down
        let c16_i32_24 : BitVec 32 := 16#32
        let v22 : BitVec 32 := Scalar.muli v18 c16_i32_24
        let v23 : Index := Scalar.indexCast v22
        let v24 : Vec F S16 .f32 ← Prog.lift (.load sFl (Rect.unit (s := S5600) (k0_off8 k0_t7) S16.size (k0_off8_inb k0_t7)).toLoadRect (View.loadsAt_vmem h_S16))
        let c16_i32_25 : BitVec 32 := 16#32
        let v25 : BitVec 32 := Scalar.muli arg20 c16_i32_25
        have v26 : IVec S16 32 := broadcast S16 v25
        have v27 : IVec S16 32 := addi v4 v26
        let c0_i32_26 : BitVec 32 := 0#32
        let c4_i32 : BitVec 32 := 4#32
        let v28 : BitVec 32 := Scalar.addi c0_i32_26 c4_i32
        let c1_i32_27 : BitVec 32 := 1#32
        let (v29_0, v29_1, v29_2, v29_3) ← Scf.Loop.for k0_t8_loop k0_t8_ok (v5, v5, v5, v5) fun k0_t8 (arg22, arg23, arg24, arg25) => do
          let ⟨v36, v47, v58, v69, v75, k0_hw70⟩ : Σ' (v36 : IVec S16 32) (v47 : FVec F S16 .f32) (v58 : FVec F S16 .f32) (v69 : FVec F S16 .f32) (v75 : IVec S16 32), k0_chk70 v27 v75 ← k0_part18 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v4 v27 c0_i32_26 c1_i32_27 k0_t8 arg22 arg23 arg24
          let ⟨v80, v91, v102, v113, v119, k0_hw74⟩ : Σ' (v80 : FVec F S16 .f32) (v91 : FVec F S16 .f32) (v102 : FVec F S16 .f32) (v113 : FVec F S16 .f32) (v119 : IVec S16 32), k0_chk74 v27 v119 ← k0_part19 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 arg25 v36 v47 v58 v69 v75 k0_hw70
          let ⟨v124, v135, v146, v157, v163, k0_hw78⟩ : Σ' (v124 : FVec F S16 .f32) (v135 : FVec F S16 .f32) (v146 : FVec F S16 .f32) (v157 : FVec F S16 .f32) (v163 : IVec S16 32), k0_chk78 v27 v163 ← k0_part20 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v80 v91 v102 v113 v119 k0_hw74
          let ⟨v168, v179, v190, v201, v207, k0_hw82⟩ : Σ' (v168 : FVec F S16 .f32) (v179 : FVec F S16 .f32) (v190 : FVec F S16 .f32) (v201 : FVec F S16 .f32) (v207 : IVec S16 32), k0_chk82 v27 v207 ← k0_part21 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v124 v135 v146 v157 v163 k0_hw78
          let ⟨v212, v223, v234, v245, v251, k0_hw86⟩ : Σ' (v212 : FVec F S16 .f32) (v223 : FVec F S16 .f32) (v234 : FVec F S16 .f32) (v245 : FVec F S16 .f32) (v251 : IVec S16 32), k0_chk86 v27 v251 ← k0_part22 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v168 v179 v190 v201 v207 k0_hw82
          let ⟨v256, v267, v278, v289, v295, k0_hw90⟩ : Σ' (v256 : FVec F S16 .f32) (v267 : FVec F S16 .f32) (v278 : FVec F S16 .f32) (v289 : FVec F S16 .f32) (v295 : IVec S16 32), k0_chk90 v27 v295 ← k0_part23 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v212 v223 v234 v245 v251 k0_hw86
          let ⟨v300, v311, v322, v333, v339, k0_hw94⟩ : Σ' (v300 : FVec F S16 .f32) (v311 : FVec F S16 .f32) (v322 : FVec F S16 .f32) (v333 : FVec F S16 .f32) (v339 : IVec S16 32), k0_chk94 v27 v339 ← k0_part24 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v256 v267 v278 v289 v295 k0_hw90
          let ⟨v344, v355, v366, v377, v383, k0_hw98⟩ : Σ' (v344 : FVec F S16 .f32) (v355 : FVec F S16 .f32) (v366 : FVec F S16 .f32) (v377 : FVec F S16 .f32) (v383 : IVec S16 32), k0_chk98 v27 v383 ← k0_part25 L pW (Memref.isWhole_whole _) tW (Memref.isWhole_whole _) bW (Memref.isWhole_whole _) fW (Memref.isWhole_whole _) nW (Memref.isWhole_whole _) cW (Memref.isWhole_whole _) sP0 (Memref.isWhole_whole _) sP1 (Memref.isWhole_whole _) sT0 (Memref.isWhole_whole _) sT1 (Memref.isWhole_whole _) sB (Memref.isWhole_whole _) sFl (Memref.isWhole_whole _) sN (Memref.isWhole_whole _) sC (Memref.isWhole_whole _) cc0_scratch8 cc0_scratch9 cc0_scratch10 cc0_scratch11 cc0_scoped0 cc0_scoped1 cc0_scoped2 cc0_scoped3 v27 v36 v300 v311 v322 v333 v339 k0_hw94
          let v384 : Vec F S16 .f32 ← SparseCore.vectorLoadIdx sP0 ![v27, v383] (k0_idx195_inb v27 v383 k0_hw98) (View.loads_vmem h_S160x128)
          let v385 : Vec F S16 .f32 ← SparseCore.vectorLoadIdx sT0 ![v27, v383] (k0_idx196_inb v27 v383 k0_hw98) (View.loads_vmem h_S160x128)
          have v386 : FVec F S16 .f32 := subf v384 v385
          have v387 : FVec F S16 .f32 := mulf v386 v386
          have v388 : FVec F S16 .f32 := addf v344 v387
          pure (v355, v366, v377, v388)
        let c4_i32_28 : BitVec 32 := 4#32
        have v30 : FVec F S16 .f32 := addf v29_0 v29_1
        have v31 : FVec F S16 .f32 := addf v29_2 v29_3
        have v32 : FVec F S16 .f32 := addf v30 v31
        have v33 : FVec F S16 .f32 := mulf v32 v24
        SparseCore.vectorStoreIdx sN ![v21, v4] v33 (fun _ => 1#1) true (k0_idx197_inb v4 v21 k0_hw99) (View.stores_vmem_bits_univ h_S64x16 rfl)
        SparseCore.vectorStoreIdx sC ![v21, v4] v24 (fun _ => 1#1) true (k0_idx198_inb v4 v21 k0_hw99) (View.stores_vmem_bits_univ h_S64x16 rfl)
        pure ⟨⟩) >>= kk) Q := by
  subst hv4 hv5
  iintro ⟨HP, HT, HB, HF, HN, HC, Hk⟩
  sl_for (invGrp (iprop((sP0.view.loc (thr d L) ↦{qP} fP) ∗ (sT0.view.loc (thr d L) ↦{qT} fT) ∗ (sB.view.loc (thr d L) ↦{qB} fB) ∗ (sFl.view.loc (thr d L) ↦{qF} fFl)))
    (fun N' : Vec F S64x16 .f32 => (sN.view.loc (thr d L) ↦{fullShare} N' : sProp 𝕄)) (fun C' : Vec F S64x16 .f32 => (sC.view.loc (thr d L) ↦{fullShare} C' : sProp 𝕄))
    (fun g hg tb => groupNum ((sP0.access (.whole S160x128)).read (Elt F) fP) ((sT0.access (.whole S160x128)).read (Elt F) fT) ⟨g, hg⟩ (rowsVec_lt g hg) (sB.view.readAt (Elt F) (Rect.unit (s := S5600) (k0_off8 ⟨g, ltT7 h10 hg⟩) S16.size (k0_off8_inb ⟨g, ltT7 h10 hg⟩)).toLoadRect fB) (idsOk_lt _ (fun x => readAt_lt64 d L fB hfB (Rect.unit (s := S5600) (k0_off8 ⟨g, ltT7 h10 hg⟩) S16.size (k0_off8_inb ⟨g, ltT7 h10 hg⟩)).toLoadRect x)) (sFl.view.readAt (Elt F) (Rect.unit (s := S5600) (k0_off8 ⟨g, ltT7 h10 hg⟩) S16.size (k0_off8_inb ⟨g, ltT7 h10 hg⟩)).toLoadRect fFl) tb)
    (fun g hg tb => groupCnt (sB.view.readAt (Elt F) (Rect.unit (s := S5600) (k0_off8 ⟨g, ltT7 h10 hg⟩) S16.size (k0_off8_inb ⟨g, ltT7 h10 hg⟩)).toLoadRect fB) (idsOk_lt _ (fun x => readAt_lt64 d L fB hfB (Rect.unit (s := S5600) (k0_off8 ⟨g, ltT7 h10 hg⟩) S16.size (k0_off8_inb ⟨g, ltT7 h10 hg⟩)).toLoadRect x)) (sFl.view.readAt (Elt F) (Rect.unit (s := S5600) (k0_off8 ⟨g, ltT7 h10 hg⟩) S16.size (k0_off8_inb ⟨g, ltT7 h10 hg⟩)).toLoadRect fFl) tb) N C) $$ [HP HT HB HF HN HC]
  case region =>
    intro k _
    have hk : k.val < 10 := lt_of_lt_of_eq k.isLt h10
    unfold invGrp
    iintro ⟨⟨HP, HT, HB, HF⟩, HN, HC⟩
    sl_respell []
    rw [Prog.bind_lift]
    iapply (wp_load 𝒱 (thr d L) bd E (m := sB) (S := Finset.univ) (Finset.subset_univ _)) $$ HB; iintro HB
    rw [Prog.bind_lift]
    iapply (wp_assume _ _ _ _ (show k0_chk99 _ _ from ⟨idsOk_lt _ (fun x => readAt_lt64 d L fB hfB (Rect.unit (s := S5600) (k0_off8 k) S16.size (k0_off8_inb k)).toLoadRect x), idsOk_lt _ (fun x => readAt_lt64 d L fB hfB (Rect.unit (s := S5600) (k0_off8 k) S16.size (k0_off8_inb k)).toLoadRect x)⟩))
    sl_respell []
    rw [Prog.bind_lift]
    iapply (wp_load 𝒱 (thr d L) bd E (m := sFl) (S := Finset.univ) (Finset.subset_univ _)) $$ HF; iintro HF
    sl_respell []
    iapply (hacc E L d (addi lanes (broadcast S16 (Scalar.muli (Scf.iv (0#32 : BitVec 32) (1#32 : BitVec 32) ↑k) 16#32))) (rowsVec_lt k.val hk) _ _)
    isplitl [HP]; · iexact HP
    isplitl [HT]; · iexact HT
    iintro ⟨HP, HT⟩
    dsimp only
    iapply (wp_addAt_sN 𝒱 bd E L d _ _ _ _ _ _ _) $$ HN; iintro HN
    iapply (wp_addAt_sC 𝒱 bd E L d _ _ _ _ _ _ _) $$ HC; iintro HC
    simp only [Prog.pure_eq_ret]
    rw [wp_ret]; imodintro
    isplitl [HP HT HB HF]
    · isplitl [HP]; · iexact HP
      isplitl [HT]; · iexact HT
      isplitl [HB]; · iexact HB
      iexact HF
    rw [grpFold_succ _ _ k.val hk, grpFold_succ _ _ k.val hk]
    isplitl [HN]
    · iexact HN
    · iexact HC
  · unfold invGrp
    isplitl [HP HT HB HF]
    · isplitl [HP]; · iexact HP
      isplitl [HT]; · iexact HT
      isplitl [HB]; · iexact HB
      iexact HF
    isplitl [HN]
    · iexact HN
    · iexact HC
  rw [h10]
  iintro %u HI
  unfold invGrp
  icases HI with ⟨⟨HP, HT, HB, HF⟩, HN, HC⟩
  iapply Hk
  isplitl [HP]; · iexact HP
  isplitl [HT]; · iexact HT
  isplitl [HB]; · iexact HB
  isplitl [HF]; · iexact HF
  isplitl [HN]
  · iexact HN
  · iexact HC

/-- The same with the accumulator loop's rule supplied. -/
theorem wp_group7 : type_of% (wp_group7_of (F := F) (UU := UU) (defs := defs) 𝒱 bd (wp_accLoop7 𝒱 bd)) :=
  wp_group7_of 𝒱 bd (wp_accLoop7 𝒱 bd)

end Cert.Kernel.TileParts

end
-- ==== Proof.Bits.TileBody.lean ====
/-
  The run of one tile of the SparseCore kernel.

  Protocol. A tile owns four DMA semaphores for its two staging slots (pred slot 0, pred slot 1, tgt slot 0, tgt slot 1)
  and four more, one per synchronous copy (ids in, flags in, sums out, counts out). At most one copy is outstanding on a
  semaphore at any time, a wait asks for exactly the amount its copy credits, and no staging buffer is read or written
  between the issue of the copy into it and the wait for it; nothing is signalled between threads, so the waits need no
  schedule. The four input arrays are read by every tile at once: a tile holds a read share of each, and splits pred's
  and tgt's shares into one token per staging semaphore so that the copy into slot 0 and the copy into slot 1 may be
  outstanding together.

  The run. Two synchronous copies stage the tile's 5600 ids and flags; a loop zeroes the two 64 x 16 tables; chunk 0 is
  issued into slot 0; then 17 times: issue chunk 2k+1 into slot 1, wait for slot 0, add chunk 2k's ten groups into the
  tables, issue chunk 2k+2 into slot 0, wait for slot 1, add chunk 2k+1's groups; then wait for slot 0, add chunk 34's
  groups, and copy the two tables out to the tile's block of the two output arrays. The chunk loop's invariant: chunk 2k
  in flight into slot 0, delivering the read of the tile's rows of that chunk; slot 1 free, its semaphores at zero; the
  tables the sums over the first 2k chunks. At the end the tables are the sums over all 35 chunks, which the write-out
  leaves in the tile's blocks.
-/
import proofs.«205036_g29618094473603_cont_9to1_1720_19_alg».proof.Proof.Bits.TileLoopsBridge
import Idealize.ShloMosaic.Lib.SparseCore.Ops
import proofs.«205036_g29618094473603_cont_9to1_1720_19_alg».proof.Proof.Bits.TileLoops4
import proofs.«205036_g29618094473603_cont_9to1_1720_19_alg».proof.Proof.Bits.TileEnds
import proofs.«205036_g29618094473603_cont_9to1_1720_19_alg».proof.Proof.Bits.Group3
import proofs.«205036_g29618094473603_cont_9to1_1720_19_alg».proof.Proof.Bits.Group5
import proofs.«205036_g29618094473603_cont_9to1_1720_19_alg».proof.Proof.Bits.Group7

noncomputable section

namespace Cert.Kernel.Tile

open Cert.Kernel
open Facts₀ Facts
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {UU : Type} [URA UU] [CountersIn UU]

local notation "𝕄" => MT nD τ sig (HIx 1) (Elt F) ℕ UU ℕ

/-- The tile at `L` of device `d`, handed its read shares of the four inputs and its block of each output, runs to the
    blocks holding its two tables, everything else as it found it. -/
theorem tile_body (hF : (sc (F := F)).Facts) (q : PosShare TreeShare) (d : Dev nD) (L : grid0.Coords)
    (p : Buf (Elt F) (pLoc d)) (t : Buf (Elt F) (tLoc d)) (b : Buf (Elt F) (bLoc d)) (fl : Buf (Elt F) (fLoc d))
    (hb : ∀ i : S320000.Idx, ((b : S320000.Idx → BitVec 32) i).toNat < 64)
    (O : CellTallies nD τ sig (HIx 1)) (W : Waits sig (HIx 1)) (hO : ∀ g, O g none = 0) :
    (iprop(levAts (sc (F := F)).L (sc (F := F)).lev ∗ goRes q d (wL L) p t b fl ∗ scopedBufs (thr d L) ∗ scopedSems0 (thr d L) ∗ owes (thr d L) O W) : sProp 𝕄)
      ⊢ wp frame (wpE (defs₀ (F := F)) Variants.none (thr d L) none) Set.univ (kern (F := F) L)
          fun _ => iprop(tdRes q d (wL L) p t b fl (tabN L p t b hb fl) (tabC L b hb fl) ∗ scopedBufs (thr d L) ∗ scopedSems0 (thr d L)
            ∗ ∃ W', ⌜∀ x ∈ W', x ∈ W ∨ x.2 = none⌝ ∗ owes (thr d L) O W') := by
  rw [(sc (F := F)).scopedBufs_V hF d (cV L) (jV L), SparseCore.Cfg.scopedSems0_V (Val := Elt F) d (cV L) (jV L), ownSems0_V, ownBufs_V]
  unfold goRes inShares
  iintro ⟨#Hlv, ⟨⟨Hp, Ht, Hb, Hf⟩, ⟨%fn, Hn⟩, ⟨%fc, Hc⟩⟩, ⟨⟨%f0, H0⟩, ⟨%f1, H1⟩, ⟨%f2, H2⟩, ⟨%f3, H3⟩, ⟨%f4, H4⟩, ⟨%f5, H5⟩, ⟨%f6, H6⟩, ⟨%f7, H7⟩, Hbufs⟩, ⟨Hs8, Hs9, Hs10, Hs11, Hc0, Hc1, Hc2, Hc3, Hsems⟩, HO⟩
  ihave Hmw := ((sc (F := F)).mayWaits_none (thr := thr d L) hO) $$ Hlv
  ihave Hp := (Entails.of_eq (pts_p (F := F) d L q _).symm) $$ Hp
  ihave Ht := (Entails.of_eq (pts_t (F := F) d L q _).symm) $$ Ht
  ihave Hb := (Entails.of_eq (pts_b (F := F) d L q _).symm) $$ Hb
  ihave Hf := (Entails.of_eq (pts_f (F := F) d L q _).symm) $$ Hf
  ihave Hn := (Entails.of_eq (pts_nOut (F := F) d L _).symm) $$ Hn
  ihave Hc := (Entails.of_eq (pts_cOut (F := F) d L _).symm) $$ Hc
  ihave H0 := (Entails.of_eq (pts_sP0 (F := F) d L _).symm) $$ H0
  ihave H1 := (Entails.of_eq (pts_sP1 (F := F) d L _).symm) $$ H1
  ihave H2 := (Entails.of_eq (pts_sT0 (F := F) d L _).symm) $$ H2
  ihave H3 := (Entails.of_eq (pts_sT1 (F := F) d L _).symm) $$ H3
  ihave H4 := (Entails.of_eq (pts_sB (F := F) d L _).symm) $$ H4
  ihave H5 := (Entails.of_eq (pts_sFl (F := F) d L _).symm) $$ H5
  ihave H6 := (Entails.of_eq (pts_sN (F := F) d L _).symm) $$ H6
  ihave H7 := (Entails.of_eq (pts_sC (F := F) d L _).symm) $$ H7
  ihave Hp := (p_toks (F := F) (UU := UU) d L q p).1 $$ Hp
  icases Hp with ⟨HpA, Hp0, Hp1⟩
  ihave Ht := (t_toks (F := F) (UU := UU) d L q t).1 $$ Ht
  icases Ht with ⟨HtA, Ht2, Ht3⟩
  sl_exec
  iapply (wp_zeroLoop (F := F) (UU := UU) d L _ rfl _ _)
  isplitl [H6]; · iexact H6
  isplitl [H7]; · iexact H7
  iintro H6 H7
  sl_exec
  have hfB : (View.write (Elt F) sB.view f4 (tile_body.sl.dma0 d L b) Finset.univ) = sIds F L b := by
    show View.write (Elt F) (View.whole cc0_scratch4) f4 _ Finset.univ = _
    rw [View.write_whole_univ]; rfl
  have hfF : (View.write (Elt F) sFl.view f5 (tile_body.sl.dma0_1 d L fl) Finset.univ) = sFls L fl := by
    show View.write (Elt F) (View.whole cc0_scratch5) f5 _ Finset.univ = _
    rw [View.write_whole_univ]; rfl
  ihave H4 := (pts_eq (F := F) (UU := UU) hfB) $$ H4
  ihave H5 := (pts_eq (F := F) (UU := UU) hfF) $$ H5
  sl_for (invPV (F := F) (UU := UU) d L q p t O W (sIds F L b) (sFls L fl) (numAt L p t b hb fl) (cntAt L b hb fl)) $$ [Hmw Hs8 Hp0 Hs10 Ht2 Hp1 Ht3 H1 H3 Hs9 Hs11 H4 H5 H6 H7 HO]
  case region =>
    intro k _
    unfold invPV InFlightV
    iintro ⟨Hmw, ⟨%c, %hc, ⟨%offP, %inbP, %fXP, %hXP, Hs8, Hp0⟩, ⟨%offT, %inbT, %fXT, %hXT, Hs10, Ht2⟩⟩, Hp1, Ht3, ⟨%g1, H1⟩, ⟨%g3, H3⟩, Hs9, Hs11, H4, H5, H6, H7, %W', %hW', HO⟩
    subst hXP hXT
    have hk : k.val < 17 := k.isLt
    sl_exec
    -- the even chunk's groups
    ihave H6 := (pts_eq (F := F) (UU := UU) (congrArg (numAt L p t b hb fl) (hc.symm))) $$ H6
    ihave H7 := (pts_eq (F := F) (UU := UU) (congrArg (cntAt L b hb fl) (hc.symm))) $$ H7
    iapply (TileParts.wp_group3 Variants.none none Set.univ L d k (Scalar.muli 2#32 (Scf.iv 0#32 1#32 k)) _ _ rfl rfl (by decide) _ _ (sIds_lt L hb) _ _)
    isplitl [Hs8_dst]; · iexact Hs8_dst
    isplitl [Hs10_dst]; · iexact Hs10_dst
    isplitl [H4]; · iexact H4
    isplitl [H5]; · iexact H5
    isplitl [H6]; · iexact H6
    isplitl [H7]; · iexact H7
    iintro ⟨Hs8_dst, Hs10_dst, H4, H5, H6, H7⟩
    ihave H6 := (pts_eq (F := F) (UU := UU) (TileParts.grpFold_ten _ _)) $$ H6
    ihave H7 := (pts_eq (F := F) (UU := UU) (TileParts.grpFold_ten _ _)) $$ H7
    ihave H6 := (pts_eq (F := F) (UU := UU) (numAt_succ L p t b hb fl c
        (by first | rfl | exact Memref.read_access_whole (Elt F) cc0_scratch0 _) (by first | rfl | exact Memref.read_access_whole (Elt F) cc0_scratch2 _)
        (fun g => ids_of_off L b c g _ ((off5_eq k _).trans (by rw [hc]))) (fun g => fls_of_off L fl c g _ ((off5_eq k _).trans (by rw [hc]))))) $$ H6
    ihave H7 := (pts_eq (F := F) (UU := UU) (cntAt_succ L b hb fl c
        (fun g => ids_of_off L b c g _ ((off5_eq k _).trans (by rw [hc]))) (fun g => fls_of_off L fl c g _ ((off5_eq k _).trans (by rw [hc]))))) $$ H7
    sl_exec
    -- the odd chunk's groups
    have hP1 : (View.write (Elt F) sP1.view g1 (tile_body.sl.dma0_4 d L p k) Finset.univ) = stP L p (⟨2 * k.val + 1, by omega⟩ : Fin 35) := by
      show View.write (Elt F) (View.whole cc0_scratch1) _ _ Finset.univ = _
      rw [View.write_whole_univ]
      exact stP_of_off L p _ _ (off4_eq L k)
    have hT1 : (View.write (Elt F) sT1.view g3 (tile_body.sl.dma0_5 d L t k) Finset.univ) = stT L t (⟨2 * k.val + 1, by omega⟩ : Fin 35) := by
      show View.write (Elt F) (View.whole cc0_scratch3) _ _ Finset.univ = _
      rw [View.write_whole_univ]
      exact stT_of_off L t _ _ (off4_eq L k)
    ihave H1 := (pts_eq (F := F) (UU := UU) hP1) $$ H1
    ihave H3 := (pts_eq (F := F) (UU := UU) hT1) $$ H3
    ihave H6 := (pts_eq (F := F) (UU := UU) (congrArg (numAt L p t b hb fl) (show c.val + 1 = (⟨2 * k.val + 1, by omega⟩ : Fin 35).val by rw [hc]))) $$ H6
    ihave H7 := (pts_eq (F := F) (UU := UU) (congrArg (cntAt L b hb fl) (show c.val + 1 = (⟨2 * k.val + 1, by omega⟩ : Fin 35).val by rw [hc]))) $$ H7
    iapply (TileParts.wp_group5 Variants.none none Set.univ L d k (Scalar.addi (Scalar.muli 2#32 (Scf.iv 0#32 1#32 k)) 1#32) _ _ rfl rfl (by decide) _ _ (sIds_lt L hb) _ _)
    isplitl [H1]; · iexact H1
    isplitl [H3]; · iexact H3
    isplitl [H4]; · iexact H4
    isplitl [H5]; · iexact H5
    isplitl [H6]; · iexact H6
    isplitl [H7]; · iexact H7
    iintro ⟨H1, H3, H4, H5, H6, H7⟩
    ihave H6 := (pts_eq (F := F) (UU := UU) (TileParts.grpFold_ten _ _)) $$ H6
    ihave H7 := (pts_eq (F := F) (UU := UU) (TileParts.grpFold_ten _ _)) $$ H7
    ihave H6 := (pts_eq (F := F) (UU := UU) (numAt_succ L p t b hb fl (⟨2 * k.val + 1, by omega⟩ : Fin 35)
        (by first | rfl | exact Memref.read_access_whole (Elt F) cc0_scratch1 _) (by first | rfl | exact Memref.read_access_whole (Elt F) cc0_scratch3 _)
        (fun g => ids_of_off L b (⟨2 * k.val + 1, by omega⟩ : Fin 35) g _ (off7_eq k _)) (fun g => fls_of_off L fl (⟨2 * k.val + 1, by omega⟩ : Fin 35) g _ (off7_eq k _)))) $$ H6
    ihave H7 := (pts_eq (F := F) (UU := UU) (cntAt_succ L b hb fl (⟨2 * k.val + 1, by omega⟩ : Fin 35)
        (fun g => ids_of_off L b (⟨2 * k.val + 1, by omega⟩ : Fin 35) g _ (off7_eq k _)) (fun g => fls_of_off L fl (⟨2 * k.val + 1, by omega⟩ : Fin 35) g _ (off7_eq k _)))) $$ H7
    ihave H6 := (pts_eq (F := F) (UU := UU) (congrArg (numAt L p t b hb fl) (show (⟨2 * k.val + 1, by omega⟩ : Fin 35).val + 1 = 2 * (k.val + 1) by show 2 * k.val + 1 + 1 = _; omega))) $$ H6
    ihave H7 := (pts_eq (F := F) (UU := UU) (congrArg (cntAt L b hb fl) (show (⟨2 * k.val + 1, by omega⟩ : Fin 35).val + 1 = 2 * (k.val + 1) by show 2 * k.val + 1 + 1 = _; omega))) $$ H7
    sl_exec
    sl_step
    isplitl [Hmw]; · iexact Hmw
    isplitl [Hs8 Hp0 Hs10 Ht2]
    · iexists (⟨2 * k.val + 2, by omega⟩ : Fin 35)
      isplitr; · ipureintro; show 2 * k.val + 2 = 2 * (k.val + 1); omega
      isplitl [Hs8 Hp0]
      · iexists _; iexists _; iexists _
        isplitr
        swap
        · isplitl [Hs8]; · iexact Hs8
          iexact Hp0
        · ipureintro
          show View.write (Elt F) (View.whole cc0_scratch0) _ _ Finset.univ = _
          rw [View.write_whole_univ]
          exact stP_of_off L p _ _ (off6_eq L k)
      · iexists _; iexists _; iexists _
        isplitr
        swap
        · isplitl [Hs10]; · iexact Hs10
          iexact Ht2
        · ipureintro
          show View.write (Elt F) (View.whole cc0_scratch2) _ _ Finset.univ = _
          rw [View.write_whole_univ]
          exact stT_of_off L t _ _ (off6_eq L k)
    isplitl [Hp1]; · iexact Hp1
    isplitl [Ht3]; · iexact Ht3
    isplitl [H1]; · iexists _; iexact H1
    isplitl [H3]; · iexists _; iexact H3
    isplitl [Hs9]; · iexact Hs9
    isplitl [Hs11]; · iexact Hs11
    isplitl [H4]; · iexact H4
    isplitl [H5]; · iexact H5
    isplitl [H6]; · iexact H6
    isplitl [H7]; · iexact H7
    iexists _; isplitr
    swap
    · iexact HO
    · ipureintro
      exact waits_insert (waits_insert (waits_insert (waits_insert hW' _) _) _) _
  · unfold invPV InFlightV
    isplitl [Hmw]; · iexact Hmw
    isplitl [Hs8 Hp0 Hs10 Ht2]
    · iexists (⟨0, by omega⟩ : Fin 35)
      isplitr; · ipureintro; rfl
      isplitl [Hs8 Hp0]
      · iexists _; iexists _; iexists _
        isplitr
        swap
        · isplitl [Hs8]; · iexact Hs8
          iexact Hp0
        · ipureintro
          show View.write (Elt F) (View.whole cc0_scratch0) _ _ Finset.univ = _
          rw [View.write_whole_univ]
          exact stP_of_off L p _ _ (off3_eq L)
      · iexists _; iexists _; iexists _
        isplitr
        swap
        · isplitl [Hs10]; · iexact Hs10
          iexact Ht2
        · ipureintro
          show View.write (Elt F) (View.whole cc0_scratch2) _ _ Finset.univ = _
          rw [View.write_whole_univ]
          exact stT_of_off L t _ _ (off3_eq L)
    isplitl [Hp1]; · iexact Hp1
    isplitl [Ht3]; · iexact Ht3
    isplitl [H1]; · iexists _; iexact H1
    isplitl [H3]; · iexists _; iexact H3
    isplitl [Hs9]; · iexact Hs9
    isplitl [Hs11]; · iexact Hs11
    isplitl [H4]; · iexact H4
    isplitl [H5]; · iexact H5
    isplitl [H6]; · iexact H6
    isplitl [H7]; · iexact H7
    iexists _; isplitr
    swap
    · iexact HO
    · ipureintro
      exact waits_insert (waits_insert (fun x hx => .inl hx) _) _
  iintro %_ HI
  unfold invPV InFlightV
  icases HI with ⟨-, ⟨%c, %hc, ⟨%offP, %inbP, %fXP, %hXP, Hs8, Hp0⟩, ⟨%offT, %inbT, %fXT, %hXT, Hs10, Ht2⟩⟩, Hp1, Ht3, ⟨%g1, H1⟩, ⟨%g3, H3⟩, Hs9, Hs11, H4, H5, H6, H7, %W', %hW', HO⟩
  subst hXP hXT
  have hc34 : c.val = 34 := hc
  sl_exec
  ihave H6 := (pts_eq (F := F) (UU := UU) (congrArg (numAt L p t b hb fl) (hc.symm))) $$ H6
  ihave H7 := (pts_eq (F := F) (UU := UU) (congrArg (cntAt L b hb fl) (hc.symm))) $$ H7
  iapply (TileParts.wp_group7 Variants.none none Set.univ L d _ _ rfl rfl (by decide) _ _ (sIds_lt L hb) _ _)
  isplitl [Hs8_dst]; · iexact Hs8_dst
  isplitl [Hs10_dst]; · iexact Hs10_dst
  isplitl [H4]; · iexact H4
  isplitl [H5]; · iexact H5
  isplitl [H6]; · iexact H6
  isplitl [H7]; · iexact H7
  iintro ⟨Hs8_dst, Hs10_dst, H4, H5, H6, H7⟩
  ihave H6 := (pts_eq (F := F) (UU := UU) (TileParts.grpFold_ten _ _)) $$ H6
  ihave H7 := (pts_eq (F := F) (UU := UU) (TileParts.grpFold_ten _ _)) $$ H7
  ihave H6 := (pts_eq (F := F) (UU := UU) (numAt_succ L p t b hb fl c
      (by first | rfl | exact Memref.read_access_whole (Elt F) cc0_scratch0 _) (by first | rfl | exact Memref.read_access_whole (Elt F) cc0_scratch2 _)
      (fun g => ids_of_off L b c g _ ((off8_eq _).trans (by rw [hc34]))) (fun g => fls_of_off L fl c g _ ((off8_eq _).trans (by rw [hc34]))))) $$ H6
  ihave H7 := (pts_eq (F := F) (UU := UU) (cntAt_succ L b hb fl c
      (fun g => ids_of_off L b c g _ ((off8_eq _).trans (by rw [hc34]))) (fun g => fls_of_off L fl c g _ ((off8_eq _).trans (by rw [hc34]))))) $$ H7
  ihave H6 := (pts_eq (F := F) (UU := UU) (congrArg (numAt L p t b hb fl) (show c.val + 1 = 35 by rw [hc34]))) $$ H6
  ihave H7 := (pts_eq (F := F) (UU := UU) (congrArg (cntAt L b hb fl) (show c.val + 1 = 35 by rw [hc34]))) $$ H7
  sl_exec
  sl_step
  isplitl [HpA Hp0 Hp1 HtA Ht2 Ht3 Hb Hf Hn Hc]
  · unfold tdRes inShares
    isplitl [HpA Hp0 Hp1 HtA Ht2 Ht3 Hb Hf]
    · isplitl [HpA Hp0 Hp1]
      · iapply (Entails.of_eq (pts_p (F := F) d L q _))
        iapply (p_toks (F := F) (UU := UU) d L q p).2
        isplitl [HpA]; · iexact HpA
        isplitl [Hp0]; · iexact Hp0
        iexact Hp1
      isplitl [HtA Ht2 Ht3]
      · iapply (Entails.of_eq (pts_t (F := F) d L q _))
        iapply (t_toks (F := F) (UU := UU) d L q t).2
        isplitl [HtA]; · iexact HtA
        isplitl [Ht2]; · iexact Ht2
        iexact Ht3
      isplitl [Hb]
      · iapply (Entails.of_eq (pts_b (F := F) d L q _)); iexact Hb
      · iapply (Entails.of_eq (pts_f (F := F) d L q _)); iexact Hf
    isplitl [Hn]
    · iexists _; isplitr
      swap
      · iapply (Entails.of_eq (pts_nOut (F := F) d L _)); iexact Hn
      · ipureintro
        rw [← numAt_35]
        exact (by
          unfold tile_body.sl.dma0_8
          simp only [ReadAs.apply_same, Memref.view_whole, View.read_whole]
          exact out_holdsN L fn _)
    · iexists _; isplitr
      swap
      · iapply (Entails.of_eq (pts_cOut (F := F) d L _)); iexact Hc
      · ipureintro
        rw [← cntAt_35]
        exact (by
          unfold tile_body.sl.dma0_9
          simp only [ReadAs.apply_same, Memref.view_whole, View.read_whole]
          exact out_holdsC L fc _)
  isplitl [Hs8_dst H1 Hs10_dst H3 H4 H5 H6 H7 Hbufs]
  · isplitl [Hs8_dst]; · iexists _; iexact Hs8_dst
    isplitl [H1]; · iexists _; iexact H1
    isplitl [Hs10_dst]; · iexists _; iexact Hs10_dst
    isplitl [H3]; · iexists _; iexact H3
    isplitl [H4]; · iexists _; iexact H4
    isplitl [H5]; · iexists _; iexact H5
    isplitl [H6]; · iexists _; iexact H6
    isplitl [H7]; · iexists _; iexact H7
    iexact Hbufs
  isplitl [Hs8 Hs9 Hs10 Hs11 Hc0 Hc1 Hc2 Hc3 Hsems]
  · isplitl [Hs8]; · iexact Hs8
    isplitl [Hs9]; · iexact Hs9
    isplitl [Hs10]; · iexact Hs10
    isplitl [Hs11]; · iexact Hs11
    isplitl [Hc0]; · iexact Hc0
    isplitl [Hc1]; · iexact Hc1
    isplitl [Hc2]; · iexact Hc2
    isplitl [Hc3]; · iexact Hc3
    iexact Hsems
  iexists _; isplitr
  swap
  · iexact HO
  · ipureintro
    exact waits_insert (waits_insert (waits_insert (waits_insert hW' _) _) _) _

end Cert.Kernel.Tile

end
-- ==== Proof.lean ====
/-
  The certificate's claim: the three frames, the (empty) idealization ledger, and the equality of the idealized kernel
  and the idealized reference on the extended reals.

  Both idealized programs end with their result at one specification of the arguments: the masked per-segment mean of
  the rows' squared distances, averaged over the 64 segments. The reference computes it in the order it is written; the
  kernel splits the rows between the TensorCore (55 blocks) and 32 SparseCore tiles (each lane summing its rows into a
  64 x 16 table), and a last step adds the pieces: the same sums regrouped, equal on the extended reals because addition
  there is commutative and associative and a masked term is a product with zero.
-/
import proofs.«205036_g29618094473603_cont_9to1_1720_19_alg».proof.Defs
import proofs.«205036_g29618094473603_cont_9to1_1720_19_alg».proof.Proof.Gen.Kernel
import proofs.«205036_g29618094473603_cont_9to1_1720_19_alg».proof.Proof.Gen.KernelIdeal
import proofs.«205036_g29618094473603_cont_9to1_1720_19_alg».proof.Proof.Gen.ReferenceIdeal
import proofs.«205036_g29618094473603_cont_9to1_1720_19_alg».proof.Proof.Gen.Pre_input_domain
import proofs.«205036_g29618094473603_cont_9to1_1720_19_alg».proof.Proof.Assemble
import proofs.«205036_g29618094473603_cont_9to1_1720_19_alg».proof.Proof.KernelRun
import proofs.«205036_g29618094473603_cont_9to1_1720_19_alg».proof.Proof.TileBody
import proofs.«205036_g29618094473603_cont_9to1_1720_19_alg».proof.Proof.Bits.TileBody

noncomputable section

namespace Cert.Proof

open Idealize.ShloMosaic Idealize.SL.Sem

/-- The tile kernel's specification at the exact instance. -/
theorem tile_ideal [Cert.KernelIdeal.Facts] : Cert.KernelIdeal.Final.TileBodyThm (F := Ideal) :=
  fun d L q p t b fl hb O W hO => Cert.KernelIdeal.Tile.tile_body Cert.KernelIdeal.Launch.facts q d L p t b fl hb O W hO

/-- The tile kernel's specification at the word-level instance. -/
theorem tile_bits [Cert.Kernel.Facts] : Cert.Kernel.Final.TileBodyThm (F := Bits) :=
  fun d L q p t b fl hb O W hO => Cert.Kernel.Tile.tile_body Cert.Kernel.Launch.facts q d L p t b fl hb O W hO

theorem claim : Cert.Claim :=
  ⟨Cert.Kernel.Gen.facts, Cert.KernelIdeal.Gen.facts, Cert.ReferenceIdeal.Gen.facts, Cert.Pre_input_domain.Gen.facts,
    @Cert.Proof.KernelRun.frame_bits Cert.Kernel.Gen.facts Cert.Pre_input_domain.Gen.facts (@tile_bits Cert.Kernel.Gen.facts),
    @Cert.Proof.Assemble.frame_ki Cert.KernelIdeal.Gen.facts Cert.Pre_input_domain.Gen.facts
      (@Cert.Proof.KernelRun.run_ideal Cert.KernelIdeal.Gen.facts Cert.Pre_input_domain.Gen.facts (@tile_ideal Cert.KernelIdeal.Gen.facts)),
    @Cert.Proof.Assemble.frame_ri Cert.ReferenceIdeal.Gen.facts Cert.Pre_input_domain.Gen.facts,
    Cert.Proof.Assemble.preserves,
    @Cert.Proof.Assemble.algebraic Cert.KernelIdeal.Gen.facts Cert.ReferenceIdeal.Gen.facts Cert.Pre_input_domain.Gen.facts
      (@Cert.Proof.KernelRun.run_ideal Cert.KernelIdeal.Gen.facts Cert.Pre_input_domain.Gen.facts (@tile_ideal Cert.KernelIdeal.Gen.facts))⟩

end Cert.Proof

end
